-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S4096x50 : Shape := ⟨2, ![4096, 50]⟩
abbrev S4096 : Shape := ⟨1, ![4096]⟩
abbrev S4096x13 : Shape := ⟨2, ![4096, 13]⟩
abbrev S26x100000x32 : Shape := ⟨3, ![26, 100000, 32]⟩
abbrev S100000x32 : Shape := ⟨2, ![100000, 32]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S26x100000x32 : S_.BroadcastsInDim S26x100000x32 (![] : Fin 0 → Fin S26x100000x32.rank)
  reducesTo_S26x100000x32_S_d0_1_2 : S26x100000x32.ReducesTo [0, 1, 2] S_
  bcast_S_S100000x32 : S_.BroadcastsInDim S100000x32 (![] : Fin 0 → Fin S100000x32.rank)
  reducesTo_S100000x32_S_d0_1 : S100000x32.ReducesTo [0, 1] S_
  bcast_S_S4096x26 : S_.BroadcastsInDim S4096x26 (![] : Fin 0 → Fin S4096x26.rank)
  reducesTo_S4096x26_S_d0_1 : S4096x26.ReducesTo [0, 1] S_
  bcast_S_S4096x50 : S_.BroadcastsInDim S4096x50 (![] : Fin 0 → Fin S4096x50.rank)
  reducesTo_S4096x50_S_d0_1 : S4096x50.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_v27 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v27 main_v33
  main_v34

def fn_part1 {F : FTy → Type} [FloatOps F] (main_arg0 : IVec S4096x26 32) (main_arg1 : IVec S4096x50 32) (main_arg2 : IVec S4096 32) (main_v13 : IVec S_ 1) (main_v15 : IVec S4096x26 1) (main_c_5 : IVec S_ 32) : IVec S_ 1 :=
  let main_v16 : IVec S4096x26 32 := broadcastInDim S4096x26 ![] bcast_S_S4096x26 main_c_5
  let main_v17 : IVec S4096x26 1 := cmpi .sle main_arg0 main_v16
  let main_v18 : IVec S4096x26 1 := andi main_v15 main_v17
  let main_c_6 : IVec S_ 1 := constantI S_ 1 1#1
  let main_v19 : IVec S_ 1 := (fun x v => Host.reduce IntOp.andi x v reducesTo_S4096x26_S_d0_1 h_S_) main_v18 main_c_6
  let main_v20 : IVec S_ 1 := andi main_v13 main_v19
  let main_c_7 : IVec S_ 32 := constantI S_ 32 0#32
  let main_v21 : IVec S4096x50 32 := broadcastInDim S4096x50 ![] bcast_S_S4096x50 main_c_7
  let main_v22 : IVec S4096x50 1 := cmpi .sge main_arg1 main_v21
  let main_c_8 : IVec S_ 32 := constantI S_ 32 99999#32
  let main_v23 : IVec S4096x50 32 := broadcastInDim S4096x50 ![] bcast_S_S4096x50 main_c_8
  let main_v24 : IVec S4096x50 1 := cmpi .sle main_arg1 main_v23
  let main_v25 : IVec S4096x50 1 := andi main_v22 main_v24
  let main_c_9 : IVec S_ 1 := constantI S_ 1 1#1
  let main_v26 : IVec S_ 1 := (fun x v => Host.reduce IntOp.andi x v reducesTo_S4096x50_S_d0_1 h_S_) main_v25 main_c_9
  let main_v27 : IVec S_ 1 := andi main_v20 main_v26
  let main_c_10 : IVec S_ 32 := constantI S_ 32 0#32
  let main_v28 : IVec S4096 32 := broadcastInDim S4096 ![] bcast_S_S4096 main_c_10
  let main_v29 : IVec S4096 1 := cmpi .sge main_arg2 main_v28
  let main_c_11 : IVec S_ 32 := constantI S_ 32 49#32
  let main_v30 : IVec S4096 32 := broadcastInDim S4096 ![] bcast_S_S4096 main_c_11
  let main_v31 : IVec S4096 1 := cmpi .sle main_arg2 main_v30
  let main_v32 : IVec S4096 1 := andi main_v29 main_v31
  let main_c_12 : IVec S_ 1 := constantI S_ 1 1#1
  fn_part2 (F := F) main_v27 main_v32 main_c_12

def fn {F : FTy → Type} [FloatOps F] (main_arg0 : IVec S4096x26 32) (main_arg1 : IVec S4096x50 32) (main_arg2 : IVec S4096 32) (main_arg3 : FVec F S4096x13 .f32) (main_arg4 : FVec F S26x100000x32 .f32) (main_arg5 : FVec F S100000x32 .f32) : IVec S_ 1 :=
  let main_v0 : FVec F S4096x13 .f32 := Host.absf main_arg3
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S26x100000x32 .f32 := Host.absf main_arg4
  let main_cst_0 : FVec F S_ .f32 := constant S_ .f32 0x7F800000#32
  let main_v5 : FVec F S26x100000x32 .f32 := broadcastInDim S26x100000x32 ![] bcast_S_S26x100000x32 main_cst_0
  let main_v6 : IVec S26x100000x32 1 := cmpf .olt main_v4 main_v5
  let main_c_1 : IVec S_ 1 := constantI S_ 1 1#1
  let main_v7 : IVec S_ 1 := (fun x v => Host.reduce IntOp.andi x v reducesTo_S26x100000x32_S_d0_1_2 h_S_) main_v6 main_c_1
  let main_v8 : IVec S_ 1 := andi main_v3 main_v7
  let main_v9 : FVec F S100000x32 .f32 := Host.absf main_arg5
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_c_4 : IVec S_ 32 := constantI S_ 32 0#32
  let main_v14 : IVec S4096x26 32 := broadcastInDim S4096x26 ![] bcast_S_S4096x26 main_c_4
  let main_v15 : IVec S4096x26 1 := cmpi .sge main_arg0 main_v14
  let main_c_5 : IVec S_ 32 := constantI S_ 32 99999#32
  fn_part1 (F := F) main_arg0 main_arg1 main_arg2 main_v13 main_v15 main_c_5
-- ==== Kernel.lean ====
abbrev S4096x26 : Shape := ⟨2, ![4096, 26]⟩
abbrev S4096x50 : Shape := ⟨2, ![4096, 50]⟩
abbrev S4096 : Shape := ⟨1, ![4096]⟩
abbrev S4096x13 : Shape := ⟨2, ![4096, 13]⟩
abbrev S26x100000x32 : Shape := ⟨3, ![26, 100000, 32]⟩
abbrev S100000x32 : Shape := ⟨2, ![100000, 32]⟩
abbrev S26x32x100000 : Shape := ⟨3, ![26, 32, 100000]⟩
abbrev S32x100000 : Shape := ⟨2, ![32, 100000]⟩
abbrev S26x4096 : Shape := ⟨2, ![26, 4096]⟩
abbrev S50x4096 : Shape := ⟨2, ![50, 4096]⟩
abbrev S50x32x128 : Shape := ⟨3, ![50, 32, 128]⟩
abbrev S32x50x128 : Shape := ⟨3, ![32, 50, 128]⟩
abbrev S26624x128 : Shape := ⟨2, ![26624, 128]⟩
abbrev S1024x128 : Shape := ⟨2, ![1024, 128]⟩
abbrev S100000 : Shape := ⟨1, ![100000]⟩
abbrev S50x128 : Shape := ⟨2, ![50, 128]⟩
abbrev S32x128 : Shape := ⟨2, ![32, 128]⟩
abbrev S_ : Shape := ⟨0, ![]⟩
abbrev S1x50x128 : Shape := ⟨3, ![1, 50, 128]⟩
abbrev S1x100000 : Shape := ⟨2, ![1, 100000]⟩
abbrev S16 : Shape := ⟨1, ![16]⟩
abbrev S1x16 : Shape := ⟨2, ![1, 16]⟩
abbrev S1x1x100000 : Shape := ⟨3, ![1, 1, 100000]⟩
abbrev S1x4096 : Shape := ⟨2, ![1, 4096]⟩
abbrev S832x4096 : Shape := ⟨2, ![832, 4096]⟩
abbrev S4096x832 : Shape := ⟨2, ![4096, 832]⟩
abbrev S32x4096 : Shape := ⟨2, ![32, 4096]⟩
abbrev S4096x32 : Shape := ⟨2, ![4096, 32]⟩
abbrev S4096x877 : Shape := ⟨2, ![4096, 877]⟩

abbrev nBuf : Table → Nat
  | .hbm => 20
  | .local .scVector .vmem => 7
  | _ => 0

abbrev bufTy : (tb : Table) → Fin (nBuf tb) → BufTy
  | .hbm, ⟨0, _⟩ => ⟨S4096x26, .i32⟩
  | .hbm, ⟨1, _⟩ => ⟨S4096x50, .i32⟩
  | .hbm, ⟨2, _⟩ => ⟨S4096, .i32⟩
  | .hbm, ⟨3, _⟩ => ⟨S4096x13, .f32⟩
  | .hbm, ⟨4, _⟩ => ⟨S26x100000x32, .f32⟩
  | .hbm, ⟨5, _⟩ => ⟨S100000x32, .f32⟩
  | .hbm, ⟨6, _⟩ => ⟨S26x32x100000, .f32⟩
  | .hbm, ⟨7, _⟩ => ⟨S32x100000, .f32⟩
  | .hbm, ⟨8, _⟩ => ⟨S26x4096, .i32⟩
  | .hbm, ⟨9, _⟩ => ⟨S50x4096, .i32⟩
  | .hbm, ⟨10, _⟩ => ⟨S50x32x128, .i32⟩
  | .hbm, ⟨11, _⟩ => ⟨S32x50x128, .i32⟩
  | .hbm, ⟨12, _⟩ => ⟨S4096, .f32⟩
  | .hbm, ⟨13, _⟩ => ⟨S26624x128, .f32⟩
  | .hbm, ⟨14, _⟩ => ⟨S1024x128, .f32⟩
  | .hbm, ⟨15, _⟩ => ⟨S832x4096, .f32⟩
  | .hbm, ⟨16, _⟩ => ⟨S4096x832, .f32⟩
  | .hbm, ⟨17, _⟩ => ⟨S32x4096, .f32⟩
  | .hbm, ⟨18, _⟩ => ⟨S4096x32, .f32⟩
  | .hbm, ⟨19, _⟩ => ⟨S4096x877, .f32⟩
  | .local .scVector .vmem, ⟨0, _⟩ => ⟨S100000, .f32⟩
  | .local .scVector .vmem, ⟨1, _⟩ => ⟨S4096, .i32⟩
  | .local .scVector .vmem, ⟨2, _⟩ => ⟨S50x128, .i32⟩
  | .local .scVector .vmem, ⟨3, _⟩ => ⟨S50x128, .i32⟩
  | .local .scVector .vmem, ⟨4, _⟩ => ⟨S4096, .f32⟩
  | .local .scVector .vmem, ⟨5, _⟩ => ⟨S32x128, .f32⟩
  | .local .scVector .vmem, ⟨6, _⟩ => ⟨S32x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v0_scv : Ref sig .scVector := ⟨.hbm, 6, rfl⟩
abbrev main_v2_scv : Ref sig .scVector := ⟨.hbm, 8, rfl⟩
abbrev main_v1_scv : Ref sig .scVector := ⟨.hbm, 7, rfl⟩
abbrev main_v5_scv : Ref sig .scVector := ⟨.hbm, 11, rfl⟩
abbrev main_v6_scv : Ref sig .scVector := ⟨.hbm, 12, rfl⟩
abbrev main_v7_0_scv : Ref sig .scVector := ⟨.hbm, 13, rfl⟩
abbrev main_v7_1_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_33_r1 : BitVec 32 := 0#32
  ![v1.toNat, 0]
@[reducible] def k0_t1_loop : Scf.Loop 32 :=
  let c0_i32_5 : BitVec 32 := 0#32
  let c15_i32 : BitVec 32 := 15#32
  let v6 : BitVec 32 := Scalar.addi c0_i32_5 c15_i32
  let c1_i32 : BitVec 32 := 1#32
  ⟨c0_i32_5, v6, c1_i32⟩
def k0_off2 (k0_t1 : Fin k0_t1_loop.trips) (c0_i32_34 : BitVec 32) : Fin 3 → Nat :=
  let c2_i32_33 : BitVec 32 := 2#32
  let c0_i32_5 : BitVec 32 := 0#32
  let c1_i32 : BitVec 32 := 1#32
  let arg18 : BitVec 32 := Scf.iv c0_i32_5 c1_i32 k0_t1
  let v23 : BitVec 32 := Scalar.muli c2_i32_33 arg18
  let v24 : BitVec 32 := Scalar.addi v23 c0_i32_34
  let c0_i32_35 : BitVec 32 := 0#32
  let c0_i32_36 : BitVec 32 := 0#32
  ![v24.toNat, 0, 0]
def k0_off3 (k0_t1 : Fin k0_t1_loop.trips) (c0_i32_34 : BitVec 32) : Fin 3 → Nat :=
  let c2_i32_33 : BitVec 32 := 2#32
  let c0_i32_5 : BitVec 32 := 0#32
  let c1_i32 : BitVec 32 := 1#32
  let arg18 : BitVec 32 := Scf.iv c0_i32_5 c1_i32 k0_t1
  let v23 : BitVec 32 := Scalar.muli c2_i32_33 arg18
  let v24 : BitVec 32 := Scalar.addi v23 c0_i32_34
  let c1_i32_39 : BitVec 32 := 1#32
  let v29 : BitVec 32 := Scalar.addi v24 c1_i32_39
  let c0_i32_40 : BitVec 32 := 0#32
  let c0_i32_41 : BitVec 32 := 0#32
  ![v29.toNat, 0, 0]
@[reducible] def k0_t2_loop : Scf.Loop 32 :=
  let c0_i32_45 : BitVec 32 := 0#32
  let c8_i32_46 : BitVec 32 := 8#32
  let v34 : BitVec 32 := Scalar.addi c0_i32_45 c8_i32_46
  let c1_i32_47 : BitVec 32 := 1#32
  ⟨c0_i32_45, v34, c1_i32_47⟩
def k0_off4 (k0_t1 : Fin k0_t1_loop.trips) (k0_t2 : Fin k0_t2_loop.trips) : Fin 1 → Nat :=
  let c2_i32_33 : BitVec 32 := 2#32
  let c0_i32_5 : BitVec 32 := 0#32
  let c1_i32 : BitVec 32 := 1#32
  let arg18 : BitVec 32 := Scf.iv c0_i32_5 c1_i32 k0_t1
  let v23 : BitVec 32 := Scalar.muli c2_i32_33 arg18
  let c0_i32_34 : BitVec 32 := 0#32
  let v24 : BitVec 32 := Scalar.addi v23 c0_i32_34
  let c128_i32 : BitVec 32 := 128#32
  let v47 : BitVec 32 := Scalar.muli v24 c128_i32
  let c0_i32_45 : BitVec 32 := 0#32
  let c1_i32_47 : BitVec 32 := 1#32
  let arg19 : BitVec 32 := Scf.iv c0_i32_45 c1_i32_47 k0_t2
  let c16_i32 : BitVec 32 := 16#32
  let v48 : BitVec 32 := Scalar.muli arg19 c16_i32
  let v49 : BitVec 32 := Scalar.addi v47 v48
  let v50 : Index := Scalar.indexCast v49
  ![v50.toNat]
def k0_off5 (k0_t2 : Fin k0_t2_loop.trips) : Fin 2 → Nat :=
  let c0_i32_66 : BitVec 32 := 0#32
  let v54 : Index := Scalar.indexCast c0_i32_66
  let c0_i32_45 : BitVec 32 := 0#32
  let c1_i32_47 : BitVec 32 := 1#32
  let arg19 : BitVec 32 := Scf.iv c0_i32_45 c1_i32_47 k0_t2
  let c16_i32_65 : BitVec 32 := 16#32
  let v53 : BitVec 32 := Scalar.muli arg19 c16_i32_65
  let v55 : Index := Scalar.indexCast v53
  ![0, v55.toNat]

def k0_chk1 (v56 : IVec S16 32) : Prop :=
  (∀ a x, ((![v56] : Fin 1 → IVec S16 32) a x).toNat < S100000.size a)
instance k0_chk1.dec : ∀ (v56 : IVec S16 32), Decidable (k0_chk1 v56) := fun v56 => decidable_of_iff' _ (Iff.of_eq (k0_chk1.eq_1 v56))
theorem k0_idx1_inb : ∀ (v56 : IVec S16 32) (k0_hw1 : k0_chk1 v56), ∀ a x, ((![v56] : Fin 1 → IVec S16 32) a x).toNat < S100000.size a := fun v56 k0_hw1 => k0_hw1
def k0_off6 (k0_t2 : Fin k0_t2_loop.trips) : Fin 2 → Nat :=
  let c1_i32_71 : BitVec 32 := 1#32
  let v67 : Index := Scalar.indexCast c1_i32_71
  let c0_i32_45 : BitVec 32 := 0#32
  let c1_i32_47 : BitVec 32 := 1#32
  let arg19 : BitVec 32 := Scf.iv c0_i32_45 c1_i32_47 k0_t2
  let c16_i32_70 : BitVec 32 := 16#32
  let v66 : BitVec 32 := Scalar.muli arg19 c16_i32_70
  let v68 : Index := Scalar.indexCast v66
  ![1, v68.toNat]

def k0_chk2 (v69 : IVec S16 32) : Prop :=
  (∀ a x, ((![v69] : Fin 1 → IVec S16 32) a x).toNat < S100000.size a)
instance k0_chk2.dec : ∀ (v69 : IVec S16 32), Decidable (k0_chk2 v69) := fun v69 => decidable_of_iff' _ (Iff.of_eq (k0_chk2.eq_1 v69))
theorem k0_idx2_inb : ∀ (v69 : IVec S16 32) (k0_hw2 : k0_chk2 v69), ∀ a x, ((![v69] : Fin 1 → IVec S16 32) a x).toNat < S100000.size a := fun v69 k0_hw2 => k0_hw2
def k0_off7 (k0_t2 : Fin k0_t2_loop.trips) : Fin 2 → Nat :=
  let c2_i32_76 : BitVec 32 := 2#32
  let v80 : Index := Scalar.indexCast c2_i32_76
  let c0_i32_45 : BitVec 32 := 0#32
  let c1_i32_47 : BitVec 32 := 1#32
  let arg19 : BitVec 32 := Scf.iv c0_i32_45 c1_i32_47 k0_t2
  let c16_i32_75 : BitVec 32 := 16#32
  let v79 : BitVec 32 := Scalar.muli arg19 c16_i32_75
  let v81 : Index := Scalar.indexCast v79
  ![2, v81.toNat]

def k0_chk3 (v82 : IVec S16 32) : Prop :=
  (∀ a x, ((![v82] : Fin 1 → IVec S16 32) a x).toNat < S100000.size a)
instance k0_chk3.dec : ∀ (v82 : IVec S16 32), Decidable (k0_chk3 v82) := fun v82 => decidable_of_iff' _ (Iff.of_eq (k0_chk3.eq_1 v82))
theorem k0_idx3_inb : ∀ (v82 : IVec S16 32) (k0_hw3 : k0_chk3 v82), ∀ a x, ((![v82] : Fin 1 → IVec S16 32) a x).toNat < S100000.size a := fun v82 k0_hw3 => k0_hw3
def k0_off8 (k0_t2 : Fin k0_t2_loop.trips) : Fin 2 → Nat :=
  let c3_i32 : BitVec 32 := 3#32
  let v93 : Index := Scalar.indexCast c3_i32
  let c0_i32_45 : BitVec 32 := 0#32
  let c1_i32_47 : BitVec 32 := 1#32
  let arg19 : BitVec 32 := Scf.iv c0_i32_45 c1_i32_47 k0_t2
  let c16_i32_80 : BitVec 32 := 16#32
  let v92 : BitVec 32 := Scalar.muli arg19 c16_i32_80
  let v94 : Index := Scalar.indexCast v92
  ![3, v94.toNat]

def k0_chk4 (v95 : IVec S16 32) : Prop :=
  (∀ a x, ((![v95] : Fin 1 → IVec S16 32) a x).toNat < S100000.size a)
instance k0_chk4.dec : ∀ (v95 : IVec S16 32), Decidable (k0_chk4 v95) := fun v95 => decidable_of_iff' _ (Iff.of_eq (k0_chk4.eq_1 v95))
theorem k0_idx4_inb : ∀ (v95 : IVec S16 32) (k0_hw4 : k0_chk4 v95), ∀ a x, ((![v95] : Fin 1 → IVec S16 32) a x).toNat < S100000.size a := fun v95 k0_hw4 => k0_hw4
def k0_off9 (k0_t2 : Fin k0_t2_loop.trips) : Fin 2 → Nat :=
  let c4_i32 : BitVec 32 := 4#32
  let v106 : Index := Scalar.indexCast c4_i32
  let c0_i32_45 : BitVec 32 := 0#32
  let c1_i32_47 : BitVec 32 := 1#32
  let arg19 : BitVec 32 := Scf.iv c0_i32_45 c1_i32_47 k0_t2
  let c16_i32_84 : BitVec 32 := 16#32
  let v105 : BitVec 32 := Scalar.muli arg19 c16_i32_84
  let v107 : Index := Scalar.indexCast v105
  ![4, v107.toNat]

def k0_chk5 (v108 : IVec S16 32) : Prop :=
  (∀ a x, ((![v108] : Fin 1 → IVec S16 32) a x).toNat < S100000.size a)
instance k0_chk5.dec : ∀ (v108 : IVec S16 32), Decidable (k0_chk5 v108) := fun v108 => decidable_of_iff' _ (Iff.of_eq (k0_chk5.eq_1 v108))
theorem k0_idx5_inb : ∀ (v108 : IVec S16 32) (k0_hw5 : k0_chk5 v108), ∀ a x, ((![v108] : Fin 1 → IVec S16 32) a x).toNat < S100000.size a := fun v108 k0_hw5 => k0_hw5
def k0_off10 (k0_t2 : Fin k0_t2_loop.trips) : Fin 2 → Nat :=
  let c5_i32 : BitVec 32 := 5#32
  let v119 : Index := Scalar.indexCast c5_i32
  let c0_i32_45 : BitVec 32 := 0#32
  let c1_i32_47 : BitVec 32 := 1#32
  let arg19 : BitVec 32 := Scf.iv c0_i32_45 c1_i32_47 k0_t2
  let c16_i32_88 : BitVec 32 := 16#32
  let v118 : BitVec 32 := Scalar.muli arg19 c16_i32_88
  let v120 : Index := Scalar.indexCast v118
  ![5, v120.toNat]

def k0_chk6 (v121 : IVec S16 32) : Prop :=
  (∀ a x, ((![v121] : Fin 1 → IVec S16 32) a x).toNat < S100000.size a)
instance k0_chk6.dec : ∀ (v121 : IVec S16 32), Decidable (k0_chk6 v121) := fun v121 => decidable_of_iff' _ (Iff.of_eq (k0_chk6.eq_1 v121))
theorem k0_idx6_inb : ∀ (v121 : IVec S16 32) (k0_hw6 : k0_chk6 v121), ∀ a x, ((![v121] : Fin 1 → IVec S16 32) a x).toNat < S100000.size a := fun v121 k0_hw6 => k0_hw6
def k0_off11 (k0_t2 : Fin k0_t2_loop.trips) : Fin 2 → Nat :=
  let c6_i32 : BitVec 32 := 6#32
  let v132 : Index := Scalar.indexCast c6_i32
  let c0_i32_45 : BitVec 32 := 0#32
  let c1_i32_47 : BitVec 32 := 1#32
  let arg19 : BitVec 32 := Scf.iv c0_i32_45 c1_i32_47 k0_t2
  let c16_i32_92 : BitVec 32 := 16#32
  let v131 : BitVec 32 := Scalar.muli arg19 c16_i32_92
  let v133 : Index := Scalar.indexCast v131
  ![6, v133.toNat]

def k0_chk7 (v134 : IVec S16 32) : Prop :=
  (∀ a x, ((![v134] : Fin 1 → IVec S16 32) a x).toNat < S100000.size a)
instance k0_chk7.dec : ∀ (v134 : IVec S16 32), Decidable (k0_chk7 v134) := fun v134 => decidable_of_iff' _ (Iff.of_eq (k0_chk7.eq_1 v134))
theorem k0_idx7_inb : ∀ (v134 : IVec S16 32) (k0_hw7 : k0_chk7 v134), ∀ a x, ((![v134] : Fin 1 → IVec S16 32) a x).toNat < S100000.size a := fun v134 k0_hw7 => k0_hw7
def k0_off12 (k0_t2 : Fin k0_t2_loop.trips) : Fin 2 → Nat :=
  let c7_i32 : BitVec 32 := 7#32
  let v145 : Index := Scalar.indexCast c7_i32
  let c0_i32_45 : BitVec 32 := 0#32
  let c1_i32_47 : BitVec 32 := 1#32
  let arg19 : BitVec 32 := Scf.iv c0_i32_45 c1_i32_47 k0_t2
  let c16_i32_96 : BitVec 32 := 16#32
  let v144 : BitVec 32 := Scalar.muli arg19 c16_i32_96
  let v146 : Index := Scalar.indexCast v144
  ![7, v146.toNat]

def k0_chk8 (v147 : IVec S16 32) : Prop :=
  (∀ a x, ((![v147] : Fin 1 → IVec S16 32) a x).toNat < S100000.size a)
instance k0_chk8.dec : ∀ (v147 : IVec S16 32), Decidable (k0_chk8 v147) := fun v147 => decidable_of_iff' _ (Iff.of_eq (k0_chk8.eq_1 v147))
theorem k0_idx8_inb : ∀ (v147 : IVec S16 32) (k0_hw8 : k0_chk8 v147), ∀ a x, ((![v147] : Fin 1 → IVec S16 32) a x).toNat < S100000.size a := fun v147 k0_hw8 => k0_hw8
def k0_off13 (k0_t2 : Fin k0_t2_loop.trips) : Fin 2 → Nat :=
  let c8_i32_101 : BitVec 32 := 8#32
  let v158 : Index := Scalar.indexCast c8_i32_101
  let c0_i32_45 : BitVec 32 := 0#32
  let c1_i32_47 : BitVec 32 := 1#32
  let arg19 : BitVec 32 := Scf.iv c0_i32_45 c1_i32_47 k0_t2
  let c16_i32_100 : BitVec 32 := 16#32
  let v157 : BitVec 32 := Scalar.muli arg19 c16_i32_100
  let v159 : Index := Scalar.indexCast v157
  ![8, v159.toNat]

def k0_chk9 (v160 : IVec S16 32) : Prop :=
  (∀ a x, ((![v160] : Fin 1 → IVec S16 32) a x).toNat < S100000.size a)
instance k0_chk9.dec : ∀ (v160 : IVec S16 32), Decidable (k0_chk9 v160) := fun v160 => decidable_of_iff' _ (Iff.of_eq (k0_chk9.eq_1 v160))
theorem k0_idx9_inb : ∀ (v160 : IVec S16 32) (k0_hw9 : k0_chk9 v160), ∀ a x, ((![v160] : Fin 1 → IVec S16 32) a x).toNat < S100000.size a := fun v160 k0_hw9 => k0_hw9
def k0_off14 (k0_t2 : Fin k0_t2_loop.trips) : Fin 2 → Nat :=
  let c9_i32 : BitVec 32 := 9#32
  let v171 : Index := Scalar.indexCast c9_i32
  let c0_i32_45 : BitVec 32 := 0#32
  let c1_i32_47 : BitVec 32 := 1#32
  let arg19 : BitVec 32 := Scf.iv c0_i32_45 c1_i32_47 k0_t2
  let c16_i32_105 : BitVec 32 := 16#32
  let v170 : BitVec 32 := Scalar.muli arg19 c16_i32_105
  let v172 : Index := Scalar.indexCast v170
  ![9, v172.toNat]

def k0_chk10 (v173 : IVec S16 32) : Prop :=
  (∀ a x, ((![v173] : Fin 1 → IVec S16 32) a x).toNat < S100000.size a)
instance k0_chk10.dec : ∀ (v173 : IVec S16 32), Decidable (k0_chk10 v173) := fun v173 => decidable_of_iff' _ (Iff.of_eq (k0_chk10.eq_1 v173))
theorem k0_idx10_inb : ∀ (v173 : IVec S16 32) (k0_hw10 : k0_chk10 v173), ∀ a x, ((![v173] : Fin 1 → IVec S16 32) a x).toNat < S100000.size a := fun v173 k0_hw10 => k0_hw10
def k0_off15 (k0_t2 : Fin k0_t2_loop.trips) : Fin 2 → Nat :=
  let c10_i32 : BitVec 32 := 10#32
  let v184 : Index := Scalar.indexCast c10_i32
  let c0_i32_45 : BitVec 32 := 0#32
  let c1_i32_47 : BitVec 32 := 1#32
  let arg19 : BitVec 32 := Scf.iv c0_i32_45 c1_i32_47 k0_t2
  let c16_i32_109 : BitVec 32 := 16#32
  let v183 : BitVec 32 := Scalar.muli arg19 c16_i32_109
  let v185 : Index := Scalar.indexCast v183
  ![10, v185.toNat]

def k0_chk11 (v186 : IVec S16 32) : Prop :=
  (∀ a x, ((![v186] : Fin 1 → IVec S16 32) a x).toNat < S100000.size a)
instance k0_chk11.dec : ∀ (v186 : IVec S16 32), Decidable (k0_chk11 v186) := fun v186 => decidable_of_iff' _ (Iff.of_eq (k0_chk11.eq_1 v186))
theorem k0_idx11_inb : ∀ (v186 : IVec S16 32) (k0_hw11 : k0_chk11 v186), ∀ a x, ((![v186] : Fin 1 → IVec S16 32) a x).toNat < S100000.size a := fun v186 k0_hw11 => k0_hw11
def k0_off16 (k0_t2 : Fin k0_t2_loop.trips) : Fin 2 → Nat :=
  let c11_i32 : BitVec 32 := 11#32
  let v197 : Index := Scalar.indexCast c11_i32
  let c0_i32_45 : BitVec 32 := 0#32
  let c1_i32_47 : BitVec 32 := 1#32
  let arg19 : BitVec 32 := Scf.iv c0_i32_45 c1_i32_47 k0_t2
  let c16_i32_113 : BitVec 32 := 16#32
  let v196 : BitVec 32 := Scalar.muli arg19 c16_i32_113
  let v198 : Index := Scalar.indexCast v196
  ![11, v198.toNat]

def k0_chk12 (v199 : IVec S16 32) : Prop :=
  (∀ a x, ((![v199] : Fin 1 → IVec S16 32) a x).toNat < S100000.size a)
instance k0_chk12.dec : ∀ (v199 : IVec S16 32), Decidable (k0_chk12 v199) := fun v199 => decidable_of_iff' _ (Iff.of_eq (k0_chk12.eq_1 v199))
theorem k0_idx12_inb : ∀ (v199 : IVec S16 32) (k0_hw12 : k0_chk12 v199), ∀ a x, ((![v199] : Fin 1 → IVec S16 32) a x).toNat < S100000.size a := fun v199 k0_hw12 => k0_hw12
def k0_off17 (k0_t2 : Fin k0_t2_loop.trips) : Fin 2 → Nat :=
  let c12_i32 : BitVec 32 := 12#32
  let v210 : Index := Scalar.indexCast c12_i32
  let c0_i32_45 : BitVec 32 := 0#32
  let c1_i32_47 : BitVec 32 := 1#32
  let arg19 : BitVec 32 := Scf.iv c0_i32_45 c1_i32_47 k0_t2
  let c16_i32_117 : BitVec 32 := 16#32
  let v209 : BitVec 32 := Scalar.muli arg19 c16_i32_117
  let v211 : Index := Scalar.indexCast v209
  ![12, v211.toNat]

def k0_chk13 (v212 : IVec S16 32) : Prop :=
  (∀ a x, ((![v212] : Fin 1 → IVec S16 32) a x).toNat < S100000.size a)
instance k0_chk13.dec : ∀ (v212 : IVec S16 32), Decidable (k0_chk13 v212) := fun v212 => decidable_of_iff' _ (Iff.of_eq (k0_chk13.eq_1 v212))
theorem k0_idx13_inb : ∀ (v212 : IVec S16 32) (k0_hw13 : k0_chk13 v212), ∀ a x, ((![v212] : Fin 1 → IVec S16 32) a x).toNat < S100000.size a := fun v212 k0_hw13 => k0_hw13
def k0_off18 (k0_t2 : Fin k0_t2_loop.trips) : Fin 2 → Nat :=
  let c13_i32 : BitVec 32 := 13#32
  let v223 : Index := Scalar.indexCast c13_i32
  let c0_i32_45 : BitVec 32 := 0#32
  let c1_i32_47 : BitVec 32 := 1#32
  let arg19 : BitVec 32 := Scf.iv c0_i32_45 c1_i32_47 k0_t2
  let c16_i32_121 : BitVec 32 := 16#32
  let v222 : BitVec 32 := Scalar.muli arg19 c16_i32_121
  let v224 : Index := Scalar.indexCast v222
  ![13, v224.toNat]

def k0_chk14 (v225 : IVec S16 32) : Prop :=
  (∀ a x, ((![v225] : Fin 1 → IVec S16 32) a x).toNat < S100000.size a)
instance k0_chk14.dec : ∀ (v225 : IVec S16 32), Decidable (k0_chk14 v225) := fun v225 => decidable_of_iff' _ (Iff.of_eq (k0_chk14.eq_1 v225))
theorem k0_idx14_inb : ∀ (v225 : IVec S16 32) (k0_hw14 : k0_chk14 v225), ∀ a x, ((![v225] : Fin 1 → IVec S16 32) a x).toNat < S100000.size a := fun v225 k0_hw14 => k0_hw14
def k0_off19 (k0_t2 : Fin k0_t2_loop.trips) : Fin 2 → Nat :=
  let c14_i32 : BitVec 32 := 14#32
  let v236 : Index := Scalar.indexCast c14_i32
  let c0_i32_45 : BitVec 32 := 0#32
  let c1_i32_47 : BitVec 32 := 1#32
  let arg19 : BitVec 32 := Scf.iv c0_i32_45 c1_i32_47 k0_t2
  let c16_i32_125 : BitVec 32 := 16#32
  let v235 : BitVec 32 := Scalar.muli arg19 c16_i32_125
  let v237 : Index := Scalar.indexCast v235
  ![14, v237.toNat]

def k0_chk15 (v238 : IVec S16 32) : Prop :=
  (∀ a x, ((![v238] : Fin 1 → IVec S16 32) a x).toNat < S100000.size a)
instance k0_chk15.dec : ∀ (v238 : IVec S16 32), Decidable (k0_chk15 v238) := fun v238 => decidable_of_iff' _ (Iff.of_eq (k0_chk15.eq_1 v238))
theorem k0_idx15_inb : ∀ (v238 : IVec S16 32) (k0_hw15 : k0_chk15 v238), ∀ a x, ((![v238] : Fin 1 → IVec S16 32) a x).toNat < S100000.size a := fun v238 k0_hw15 => k0_hw15
def k0_off20 (k0_t2 : Fin k0_t2_loop.trips) : Fin 2 → Nat :=
  let c15_i32_130 : BitVec 32 := 15#32
  let v249 : Index := Scalar.indexCast c15_i32_130
  let c0_i32_45 : BitVec 32 := 0#32
  let c1_i32_47 : BitVec 32 := 1#32
  let arg19 : BitVec 32 := Scf.iv c0_i32_45 c1_i32_47 k0_t2
  let c16_i32_129 : BitVec 32 := 16#32
  let v248 : BitVec 32 := Scalar.muli arg19 c16_i32_129
  let v250 : Index := Scalar.indexCast v248
  ![15, v250.toNat]

def k0_chk16 (v251 : IVec S16 32) : Prop :=
  (∀ a x, ((![v251] : Fin 1 → IVec S16 32) a x).toNat < S100000.size a)
instance k0_chk16.dec : ∀ (v251 : IVec S16 32), Decidable (k0_chk16 v251) := fun v251 => decidable_of_iff' _ (Iff.of_eq (k0_chk16.eq_1 v251))
theorem k0_idx16_inb : ∀ (v251 : IVec S16 32) (k0_hw16 : k0_chk16 v251), ∀ a x, ((![v251] : Fin 1 → IVec S16 32) a x).toNat < S100000.size a := fun v251 k0_hw16 => k0_hw16
def k0_off21 (k0_t2 : Fin k0_t2_loop.trips) : Fin 2 → Nat :=
  let c16_i32_135 : BitVec 32 := 16#32
  let v262 : Index := Scalar.indexCast c16_i32_135
  let c0_i32_45 : BitVec 32 := 0#32
  let c1_i32_47 : BitVec 32 := 1#32
  let arg19 : BitVec 32 := Scf.iv c0_i32_45 c1_i32_47 k0_t2
  let c16_i32_134 : BitVec 32 := 16#32
  let v261 : BitVec 32 := Scalar.muli arg19 c16_i32_134
  let v263 : Index := Scalar.indexCast v261
  ![16, v263.toNat]

def k0_chk17 (v264 : IVec S16 32) : Prop :=
  (∀ a x, ((![v264] : Fin 1 → IVec S16 32) a x).toNat < S100000.size a)
instance k0_chk17.dec : ∀ (v264 : IVec S16 32), Decidable (k0_chk17 v264) := fun v264 => decidable_of_iff' _ (Iff.of_eq (k0_chk17.eq_1 v264))
theorem k0_idx17_inb : ∀ (v264 : IVec S16 32) (k0_hw17 : k0_chk17 v264), ∀ a x, ((![v264] : Fin 1 → IVec S16 32) a x).toNat < S100000.size a := fun v264 k0_hw17 => k0_hw17
def k0_off22 (k0_t2 : Fin k0_t2_loop.trips) : Fin 2 → Nat :=
  let c17_i32 : BitVec 32 := 17#32
  let v275 : Index := Scalar.indexCast c17_i32
  let c0_i32_45 : BitVec 32 := 0#32
  let c1_i32_47 : BitVec 32 := 1#32
  let arg19 : BitVec 32 := Scf.iv c0_i32_45 c1_i32_47 k0_t2
  let c16_i32_139 : BitVec 32 := 16#32
  let v274 : BitVec 32 := Scalar.muli arg19 c16_i32_139
  let v276 : Index := Scalar.indexCast v274
  ![17, v276.toNat]

def k0_chk18 (v277 : IVec S16 32) : Prop :=
  (∀ a x, ((![v277] : Fin 1 → IVec S16 32) a x).toNat < S100000.size a)
instance k0_chk18.dec : ∀ (v277 : IVec S16 32), Decidable (k0_chk18 v277) := fun v277 => decidable_of_iff' _ (Iff.of_eq (k0_chk18.eq_1 v277))
theorem k0_idx18_inb : ∀ (v277 : IVec S16 32) (k0_hw18 : k0_chk18 v277), ∀ a x, ((![v277] : Fin 1 → IVec S16 32) a x).toNat < S100000.size a := fun v277 k0_hw18 => k0_hw18
def k0_off23 (k0_t2 : Fin k0_t2_loop.trips) : Fin 2 → Nat :=
  let c18_i32 : BitVec 32 := 18#32
  let v288 : Index := Scalar.indexCast c18_i32
  let c0_i32_45 : BitVec 32 := 0#32
  let c1_i32_47 : BitVec 32 := 1#32
  let arg19 : BitVec 32 := Scf.iv c0_i32_45 c1_i32_47 k0_t2
  let c16_i32_143 : BitVec 32 := 16#32
  let v287 : BitVec 32 := Scalar.muli arg19 c16_i32_143
  let v289 : Index := Scalar.indexCast v287
  ![18, v289.toNat]

def k0_chk19 (v290 : IVec S16 32) : Prop :=
  (∀ a x, ((![v290] : Fin 1 → IVec S16 32) a x).toNat < S100000.size a)
instance k0_chk19.dec : ∀ (v290 : IVec S16 32), Decidable (k0_chk19 v290) := fun v290 => decidable_of_iff' _ (Iff.of_eq (k0_chk19.eq_1 v290))
theorem k0_idx19_inb : ∀ (v290 : IVec S16 32) (k0_hw19 : k0_chk19 v290), ∀ a x, ((![v290] : Fin 1 → IVec S16 32) a x).toNat < S100000.size a := fun v290 k0_hw19 => k0_hw19
def k0_off24 (k0_t2 : Fin k0_t2_loop.trips) : Fin 2 → Nat :=
  let c19_i32 : BitVec 32 := 19#32
  let v301 : Index := Scalar.indexCast c19_i32
  let c0_i32_45 : BitVec 32 := 0#32
  let c1_i32_47 : BitVec 32 := 1#32
  let arg19 : BitVec 32 := Scf.iv c0_i32_45 c1_i32_47 k0_t2
  let c16_i32_147 : BitVec 32 := 16#32
  let v300 : BitVec 32 := Scalar.muli arg19 c16_i32_147
  let v302 : Index := Scalar.indexCast v300
  ![19, v302.toNat]

def k0_chk20 (v303 : IVec S16 32) : Prop :=
  (∀ a x, ((![v303] : Fin 1 → IVec S16 32) a x).toNat < S100000.size a)
instance k0_chk20.dec : ∀ (v303 : IVec S16 32), Decidable (k0_chk20 v303) := fun v303 => decidable_of_iff' _ (Iff.of_eq (k0_chk20.eq_1 v303))
theorem k0_idx20_inb : ∀ (v303 : IVec S16 32) (k0_hw20 : k0_chk20 v303), ∀ a x, ((![v303] : Fin 1 → IVec S16 32) a x).toNat < S100000.size a := fun v303 k0_hw20 => k0_hw20
def k0_off25 (k0_t2 : Fin k0_t2_loop.trips) : Fin 2 → Nat :=
  let c20_i32 : BitVec 32 := 20#32
  let v314 : Index := Scalar.indexCast c20_i32
  let c0_i32_45 : BitVec 32 := 0#32
  let c1_i32_47 : BitVec 32 := 1#32
  let arg19 : BitVec 32 := Scf.iv c0_i32_45 c1_i32_47 k0_t2
  let c16_i32_151 : BitVec 32 := 16#32
  let v313 : BitVec 32 := Scalar.muli arg19 c16_i32_151
  let v315 : Index := Scalar.indexCast v313
  ![20, v315.toNat]

def k0_chk21 (v316 : IVec S16 32) : Prop :=
  (∀ a x, ((![v316] : Fin 1 → IVec S16 32) a x).toNat < S100000.size a)
instance k0_chk21.dec : ∀ (v316 : IVec S16 32), Decidable (k0_chk21 v316) := fun v316 => decidable_of_iff' _ (Iff.of_eq (k0_chk21.eq_1 v316))
theorem k0_idx21_inb : ∀ (v316 : IVec S16 32) (k0_hw21 : k0_chk21 v316), ∀ a x, ((![v316] : Fin 1 → IVec S16 32) a x).toNat < S100000.size a := fun v316 k0_hw21 => k0_hw21
def k0_off26 (k0_t2 : Fin k0_t2_loop.trips) : Fin 2 → Nat :=
  let c21_i32 : BitVec 32 := 21#32
  let v327 : Index := Scalar.indexCast c21_i32
  let c0_i32_45 : BitVec 32 := 0#32
  let c1_i32_47 : BitVec 32 := 1#32
  let arg19 : BitVec 32 := Scf.iv c0_i32_45 c1_i32_47 k0_t2
  let c16_i32_155 : BitVec 32 := 16#32
  let v326 : BitVec 32 := Scalar.muli arg19 c16_i32_155
  let v328 : Index := Scalar.indexCast v326
  ![21, v328.toNat]

def k0_chk22 (v329 : IVec S16 32) : Prop :=
  (∀ a x, ((![v329] : Fin 1 → IVec S16 32) a x).toNat < S100000.size a)
instance k0_chk22.dec : ∀ (v329 : IVec S16 32), Decidable (k0_chk22 v329) := fun v329 => decidable_of_iff' _ (Iff.of_eq (k0_chk22.eq_1 v329))
theorem k0_idx22_inb : ∀ (v329 : IVec S16 32) (k0_hw22 : k0_chk22 v329), ∀ a x, ((![v329] : Fin 1 → IVec S16 32) a x).toNat < S100000.size a := fun v329 k0_hw22 => k0_hw22
def k0_off27 (k0_t2 : Fin k0_t2_loop.trips) : Fin 2 → Nat :=
  let c22_i32 : BitVec 32 := 22#32
  let v340 : Index := Scalar.indexCast c22_i32
  let c0_i32_45 : BitVec 32 := 0#32
  let c1_i32_47 : BitVec 32 := 1#32
  let arg19 : BitVec 32 := Scf.iv c0_i32_45 c1_i32_47 k0_t2
  let c16_i32_159 : BitVec 32 := 16#32
  let v339 : BitVec 32 := Scalar.muli arg19 c16_i32_159
  let v341 : Index := Scalar.indexCast v339
  ![22, v341.toNat]

def k0_chk23 (v342 : IVec S16 32) : Prop :=
  (∀ a x, ((![v342] : Fin 1 → IVec S16 32) a x).toNat < S100000.size a)
instance k0_chk23.dec : ∀ (v342 : IVec S16 32), Decidable (k0_chk23 v342) := fun v342 => decidable_of_iff' _ (Iff.of_eq (k0_chk23.eq_1 v342))
theorem k0_idx23_inb : ∀ (v342 : IVec S16 32) (k0_hw23 : k0_chk23 v342), ∀ a x, ((![v342] : Fin 1 → IVec S16 32) a x).toNat < S100000.size a := fun v342 k0_hw23 => k0_hw23
def k0_off28 (k0_t2 : Fin k0_t2_loop.trips) : Fin 2 → Nat :=
  let c23_i32 : BitVec 32 := 23#32
  let v353 : Index := Scalar.indexCast c23_i32
  let c0_i32_45 : BitVec 32 := 0#32
  let c1_i32_47 : BitVec 32 := 1#32
  let arg19 : BitVec 32 := Scf.iv c0_i32_45 c1_i32_47 k0_t2
  let c16_i32_163 : BitVec 32 := 16#32
  let v352 : BitVec 32 := Scalar.muli arg19 c16_i32_163
  let v354 : Index := Scalar.indexCast v352
  ![23, v354.toNat]

def k0_chk24 (v355 : IVec S16 32) : Prop :=
  (∀ a x, ((![v355] : Fin 1 → IVec S16 32) a x).toNat < S100000.size a)
instance k0_chk24.dec : ∀ (v355 : IVec S16 32), Decidable (k0_chk24 v355) := fun v355 => decidable_of_iff' _ (Iff.of_eq (k0_chk24.eq_1 v355))
theorem k0_idx24_inb : ∀ (v355 : IVec S16 32) (k0_hw24 : k0_chk24 v355), ∀ a x, ((![v355] : Fin 1 → IVec S16 32) a x).toNat < S100000.size a := fun v355 k0_hw24 => k0_hw24
def k0_off29 (k0_t2 : Fin k0_t2_loop.trips) : Fin 2 → Nat :=
  let c24_i32 : BitVec 32 := 24#32
  let v366 : Index := Scalar.indexCast c24_i32
  let c0_i32_45 : BitVec 32 := 0#32
  let c1_i32_47 : BitVec 32 := 1#32
  let arg19 : BitVec 32 := Scf.iv c0_i32_45 c1_i32_47 k0_t2
  let c16_i32_167 : BitVec 32 := 16#32
  let v365 : BitVec 32 := Scalar.muli arg19 c16_i32_167
  let v367 : Index := Scalar.indexCast v365
  ![24, v367.toNat]

def k0_chk25 (v368 : IVec S16 32) : Prop :=
  (∀ a x, ((![v368] : Fin 1 → IVec S16 32) a x).toNat < S100000.size a)
instance k0_chk25.dec : ∀ (v368 : IVec S16 32), Decidable (k0_chk25 v368) := fun v368 => decidable_of_iff' _ (Iff.of_eq (k0_chk25.eq_1 v368))
theorem k0_idx25_inb : ∀ (v368 : IVec S16 32) (k0_hw25 : k0_chk25 v368), ∀ a x, ((![v368] : Fin 1 → IVec S16 32) a x).toNat < S100000.size a := fun v368 k0_hw25 => k0_hw25
def k0_off30 (k0_t2 : Fin k0_t2_loop.trips) : Fin 2 → Nat :=
  let c25_i32 : BitVec 32 := 25#32
  let v379 : Index := Scalar.indexCast c25_i32
  let c0_i32_45 : BitVec 32 := 0#32
  let c1_i32_47 : BitVec 32 := 1#32
  let arg19 : BitVec 32 := Scf.iv c0_i32_45 c1_i32_47 k0_t2
  let c16_i32_171 : BitVec 32 := 16#32
  let v378 : BitVec 32 := Scalar.muli arg19 c16_i32_171
  let v380 : Index := Scalar.indexCast v378
  ![25, v380.toNat]

def k0_chk26 (v381 : IVec S16 32) : Prop :=
  (∀ a x, ((![v381] : Fin 1 → IVec S16 32) a x).toNat < S100000.size a)
instance k0_chk26.dec : ∀ (v381 : IVec S16 32), Decidable (k0_chk26 v381) := fun v381 => decidable_of_iff' _ (Iff.of_eq (k0_chk26.eq_1 v381))
theorem k0_idx26_inb : ∀ (v381 : IVec S16 32) (k0_hw26 : k0_chk26 v381), ∀ a x, ((![v381] : Fin 1 → IVec S16 32) a x).toNat < S100000.size a := fun v381 k0_hw26 => k0_hw26
def k0_off31 (k0_t2 : Fin k0_t2_loop.trips) : Fin 2 → Nat :=
  let c26_i32_176 : BitVec 32 := 26#32
  let v392 : Index := Scalar.indexCast c26_i32_176
  let c0_i32_45 : BitVec 32 := 0#32
  let c1_i32_47 : BitVec 32 := 1#32
  let arg19 : BitVec 32 := Scf.iv c0_i32_45 c1_i32_47 k0_t2
  let c16_i32_175 : BitVec 32 := 16#32
  let v391 : BitVec 32 := Scalar.muli arg19 c16_i32_175
  let v393 : Index := Scalar.indexCast v391
  ![26, v393.toNat]

def k0_chk27 (v394 : IVec S16 32) : Prop :=
  (∀ a x, ((![v394] : Fin 1 → IVec S16 32) a x).toNat < S100000.size a)
instance k0_chk27.dec : ∀ (v394 : IVec S16 32), Decidable (k0_chk27 v394) := fun v394 => decidable_of_iff' _ (Iff.of_eq (k0_chk27.eq_1 v394))
theorem k0_idx27_inb : ∀ (v394 : IVec S16 32) (k0_hw27 : k0_chk27 v394), ∀ a x, ((![v394] : Fin 1 → IVec S16 32) a x).toNat < S100000.size a := fun v394 k0_hw27 => k0_hw27
def k0_off32 (k0_t2 : Fin k0_t2_loop.trips) : Fin 2 → Nat :=
  let c27_i32 : BitVec 32 := 27#32
  let v405 : Index := Scalar.indexCast c27_i32
  let c0_i32_45 : BitVec 32 := 0#32
  let c1_i32_47 : BitVec 32 := 1#32
  let arg19 : BitVec 32 := Scf.iv c0_i32_45 c1_i32_47 k0_t2
  let c16_i32_180 : BitVec 32 := 16#32
  let v404 : BitVec 32 := Scalar.muli arg19 c16_i32_180
  let v406 : Index := Scalar.indexCast v404
  ![27, v406.toNat]

def k0_chk28 (v407 : IVec S16 32) : Prop :=
  (∀ a x, ((![v407] : Fin 1 → IVec S16 32) a x).toNat < S100000.size a)
instance k0_chk28.dec : ∀ (v407 : IVec S16 32), Decidable (k0_chk28 v407) := fun v407 => decidable_of_iff' _ (Iff.of_eq (k0_chk28.eq_1 v407))
theorem k0_idx28_inb : ∀ (v407 : IVec S16 32) (k0_hw28 : k0_chk28 v407), ∀ a x, ((![v407] : Fin 1 → IVec S16 32) a x).toNat < S100000.size a := fun v407 k0_hw28 => k0_hw28
def k0_off33 (k0_t2 : Fin k0_t2_loop.trips) : Fin 2 → Nat :=
  let c28_i32 : BitVec 32 := 28#32
  let v418 : Index := Scalar.indexCast c28_i32
  let c0_i32_45 : BitVec 32 := 0#32
  let c1_i32_47 : BitVec 32 := 1#32
  let arg19 : BitVec 32 := Scf.iv c0_i32_45 c1_i32_47 k0_t2
  let c16_i32_184 : BitVec 32 := 16#32
  let v417 : BitVec 32 := Scalar.muli arg19 c16_i32_184
  let v419 : Index := Scalar.indexCast v417
  ![28, v419.toNat]

def k0_chk29 (v420 : IVec S16 32) : Prop :=
  (∀ a x, ((![v420] : Fin 1 → IVec S16 32) a x).toNat < S100000.size a)
instance k0_chk29.dec : ∀ (v420 : IVec S16 32), Decidable (k0_chk29 v420) := fun v420 => decidable_of_iff' _ (Iff.of_eq (k0_chk29.eq_1 v420))
theorem k0_idx29_inb : ∀ (v420 : IVec S16 32) (k0_hw29 : k0_chk29 v420), ∀ a x, ((![v420] : Fin 1 → IVec S16 32) a x).toNat < S100000.size a := fun v420 k0_hw29 => k0_hw29
def k0_off34 (k0_t2 : Fin k0_t2_loop.trips) : Fin 2 → Nat :=
  let c29_i32 : BitVec 32 := 29#32
  let v431 : Index := Scalar.indexCast c29_i32
  let c0_i32_45 : BitVec 32 := 0#32
  let c1_i32_47 : BitVec 32 := 1#32
  let arg19 : BitVec 32 := Scf.iv c0_i32_45 c1_i32_47 k0_t2
  let c16_i32_188 : BitVec 32 := 16#32
  let v430 : BitVec 32 := Scalar.muli arg19 c16_i32_188
  let v432 : Index := Scalar.indexCast v430
  ![29, v432.toNat]

def k0_chk30 (v433 : IVec S16 32) : Prop :=
  (∀ a x, ((![v433] : Fin 1 → IVec S16 32) a x).toNat < S100000.size a)
instance k0_chk30.dec : ∀ (v433 : IVec S16 32), Decidable (k0_chk30 v433) := fun v433 => decidable_of_iff' _ (Iff.of_eq (k0_chk30.eq_1 v433))
theorem k0_idx30_inb : ∀ (v433 : IVec S16 32) (k0_hw30 : k0_chk30 v433), ∀ a x, ((![v433] : Fin 1 → IVec S16 32) a x).toNat < S100000.size a := fun v433 k0_hw30 => k0_hw30
def k0_off35 (k0_t2 : Fin k0_t2_loop.trips) : Fin 2 → Nat :=
  let c30_i32_193 : BitVec 32 := 30#32
  let v444 : Index := Scalar.indexCast c30_i32_193
  let c0_i32_45 : BitVec 32 := 0#32
  let c1_i32_47 : BitVec 32 := 1#32
  let arg19 : BitVec 32 := Scf.iv c0_i32_45 c1_i32_47 k0_t2
  let c16_i32_192 : BitVec 32 := 16#32
  let v443 : BitVec 32 := Scalar.muli arg19 c16_i32_192
  let v445 : Index := Scalar.indexCast v443
  ![30, v445.toNat]

def k0_chk31 (v446 : IVec S16 32) : Prop :=
  (∀ a x, ((![v446] : Fin 1 → IVec S16 32) a x).toNat < S100000.size a)
instance k0_chk31.dec : ∀ (v446 : IVec S16 32), Decidable (k0_chk31 v446) := fun v446 => decidable_of_iff' _ (Iff.of_eq (k0_chk31.eq_1 v446))
theorem k0_idx31_inb : ∀ (v446 : IVec S16 32) (k0_hw31 : k0_chk31 v446), ∀ a x, ((![v446] : Fin 1 → IVec S16 32) a x).toNat < S100000.size a := fun v446 k0_hw31 => k0_hw31
def k0_off36 (k0_t2 : Fin k0_t2_loop.trips) : Fin 2 → Nat :=
  let c31_i32_198 : BitVec 32 := 31#32
  let v457 : Index := Scalar.indexCast c31_i32_198
  let c0_i32_45 : BitVec 32 := 0#32
  let c1_i32_47 : BitVec 32 := 1#32
  let arg19 : BitVec 32 := Scf.iv c0_i32_45 c1_i32_47 k0_t2
  let c16_i32_197 : BitVec 32 := 16#32
  let v456 : BitVec 32 := Scalar.muli arg19 c16_i32_197
  let v458 : Index := Scalar.indexCast v456
  ![31, v458.toNat]

def k0_chk32 (v459 : IVec S16 32) : Prop :=
  (∀ a x, ((![v459] : Fin 1 → IVec S16 32) a x).toNat < S100000.size a)
instance k0_chk32.dec : ∀ (v459 : IVec S16 32), Decidable (k0_chk32 v459) := fun v459 => decidable_of_iff' _ (Iff.of_eq (k0_chk32.eq_1 v459))
theorem k0_idx32_inb : ∀ (v459 : IVec S16 32) (k0_hw32 : k0_chk32 v459), ∀ a x, ((![v459] : Fin 1 → IVec S16 32) a x).toNat < S100000.size a := fun v459 k0_hw32 => k0_hw32
def k0_off37 (k0_t2 : Fin k0_t2_loop.trips) : Fin 2 → Nat :=
  let c32_i32_203 : BitVec 32 := 32#32
  let v470 : Index := Scalar.indexCast c32_i32_203
  let c0_i32_45 : BitVec 32 := 0#32
  let c1_i32_47 : BitVec 32 := 1#32
  let arg19 : BitVec 32 := Scf.iv c0_i32_45 c1_i32_47 k0_t2
  let c16_i32_202 : BitVec 32 := 16#32
  let v469 : BitVec 32 := Scalar.muli arg19 c16_i32_202
  let v471 : Index := Scalar.indexCast v469
  ![32, v471.toNat]

def k0_chk33 (v472 : IVec S16 32) : Prop :=
  (∀ a x, ((![v472] : Fin 1 → IVec S16 32) a x).toNat < S100000.size a)
instance k0_chk33.dec : ∀ (v472 : IVec S16 32), Decidable (k0_chk33 v472) := fun v472 => decidable_of_iff' _ (Iff.of_eq (k0_chk33.eq_1 v472))
theorem k0_idx33_inb : ∀ (v472 : IVec S16 32) (k0_hw33 : k0_chk33 v472), ∀ a x, ((![v472] : Fin 1 → IVec S16 32) a x).toNat < S100000.size a := fun v472 k0_hw33 => k0_hw33
def k0_off38 (k0_t2 : Fin k0_t2_loop.trips) : Fin 2 → Nat :=
  let c33_i32 : BitVec 32 := 33#32
  let v483 : Index := Scalar.indexCast c33_i32
  let c0_i32_45 : BitVec 32 := 0#32
  let c1_i32_47 : BitVec 32 := 1#32
  let arg19 : BitVec 32 := Scf.iv c0_i32_45 c1_i32_47 k0_t2
  let c16_i32_207 : BitVec 32 := 16#32
  let v482 : BitVec 32 := Scalar.muli arg19 c16_i32_207
  let v484 : Index := Scalar.indexCast v482
  ![33, v484.toNat]

def k0_chk34 (v485 : IVec S16 32) : Prop :=
  (∀ a x, ((![v485] : Fin 1 → IVec S16 32) a x).toNat < S100000.size a)
instance k0_chk34.dec : ∀ (v485 : IVec S16 32), Decidable (k0_chk34 v485) := fun v485 => decidable_of_iff' _ (Iff.of_eq (k0_chk34.eq_1 v485))
theorem k0_idx34_inb : ∀ (v485 : IVec S16 32) (k0_hw34 : k0_chk34 v485), ∀ a x, ((![v485] : Fin 1 → IVec S16 32) a x).toNat < S100000.size a := fun v485 k0_hw34 => k0_hw34
def k0_off39 (k0_t2 : Fin k0_t2_loop.trips) : Fin 2 → Nat :=
  let c34_i32 : BitVec 32 := 34#32
  let v496 : Index := Scalar.indexCast c34_i32
  let c0_i32_45 : BitVec 32 := 0#32
  let c1_i32_47 : BitVec 32 := 1#32
  let arg19 : BitVec 32 := Scf.iv c0_i32_45 c1_i32_47 k0_t2
  let c16_i32_211 : BitVec 32 := 16#32
  let v495 : BitVec 32 := Scalar.muli arg19 c16_i32_211
  let v497 : Index := Scalar.indexCast v495
  ![34, v497.toNat]

def k0_chk35 (v498 : IVec S16 32) : Prop :=
  (∀ a x, ((![v498] : Fin 1 → IVec S16 32) a x).toNat < S100000.size a)
instance k0_chk35.dec : ∀ (v498 : IVec S16 32), Decidable (k0_chk35 v498) := fun v498 => decidable_of_iff' _ (Iff.of_eq (k0_chk35.eq_1 v498))
theorem k0_idx35_inb : ∀ (v498 : IVec S16 32) (k0_hw35 : k0_chk35 v498), ∀ a x, ((![v498] : Fin 1 → IVec S16 32) a x).toNat < S100000.size a := fun v498 k0_hw35 => k0_hw35
def k0_off40 (k0_t2 : Fin k0_t2_loop.trips) : Fin 2 → Nat :=
  let c35_i32 : BitVec 32 := 35#32
  let v509 : Index := Scalar.indexCast c35_i32
  let c0_i32_45 : BitVec 32 := 0#32
  let c1_i32_47 : BitVec 32 := 1#32
  let arg19 : BitVec 32 := Scf.iv c0_i32_45 c1_i32_47 k0_t2
  let c16_i32_215 : BitVec 32 := 16#32
  let v508 : BitVec 32 := Scalar.muli arg19 c16_i32_215
  let v510 : Index := Scalar.indexCast v508
  ![35, v510.toNat]

def k0_chk36 (v511 : IVec S16 32) : Prop :=
  (∀ a x, ((![v511] : Fin 1 → IVec S16 32) a x).toNat < S100000.size a)
instance k0_chk36.dec : ∀ (v511 : IVec S16 32), Decidable (k0_chk36 v511) := fun v511 => decidable_of_iff' _ (Iff.of_eq (k0_chk36.eq_1 v511))
theorem k0_idx36_inb : ∀ (v511 : IVec S16 32) (k0_hw36 : k0_chk36 v511), ∀ a x, ((![v511] : Fin 1 → IVec S16 32) a x).toNat < S100000.size a := fun v511 k0_hw36 => k0_hw36
def k0_off41 (k0_t2 : Fin k0_t2_loop.trips) : Fin 2 → Nat :=
  let c36_i32 : BitVec 32 := 36#32
  let v522 : Index := Scalar.indexCast c36_i32
  let c0_i32_45 : BitVec 32 := 0#32
  let c1_i32_47 : BitVec 32 := 1#32
  let arg19 : BitVec 32 := Scf.iv c0_i32_45 c1_i32_47 k0_t2
  let c16_i32_219 : BitVec 32 := 16#32
  let v521 : BitVec 32 := Scalar.muli arg19 c16_i32_219
  let v523 : Index := Scalar.indexCast v521
  ![36, v523.toNat]

def k0_chk37 (v524 : IVec S16 32) : Prop :=
  (∀ a x, ((![v524] : Fin 1 → IVec S16 32) a x).toNat < S100000.size a)
instance k0_chk37.dec : ∀ (v524 : IVec S16 32), Decidable (k0_chk37 v524) := fun v524 => decidable_of_iff' _ (Iff.of_eq (k0_chk37.eq_1 v524))
theorem k0_idx37_inb : ∀ (v524 : IVec S16 32) (k0_hw37 : k0_chk37 v524), ∀ a x, ((![v524] : Fin 1 → IVec S16 32) a x).toNat < S100000.size a := fun v524 k0_hw37 => k0_hw37
def k0_off42 (k0_t2 : Fin k0_t2_loop.trips) : Fin 2 → Nat :=
  let c37_i32 : BitVec 32 := 37#32
  let v535 : Index := Scalar.indexCast c37_i32
  let c0_i32_45 : BitVec 32 := 0#32
  let c1_i32_47 : BitVec 32 := 1#32
  let arg19 : BitVec 32 := Scf.iv c0_i32_45 c1_i32_47 k0_t2
  let c16_i32_223 : BitVec 32 := 16#32
  let v534 : BitVec 32 := Scalar.muli arg19 c16_i32_223
  let v536 : Index := Scalar.indexCast v534
  ![37, v536.toNat]

def k0_chk38 (v537 : IVec S16 32) : Prop :=
  (∀ a x, ((![v537] : Fin 1 → IVec S16 32) a x).toNat < S100000.size a)
instance k0_chk38.dec : ∀ (v537 : IVec S16 32), Decidable (k0_chk38 v537) := fun v537 => decidable_of_iff' _ (Iff.of_eq (k0_chk38.eq_1 v537))
theorem k0_idx38_inb : ∀ (v537 : IVec S16 32) (k0_hw38 : k0_chk38 v537), ∀ a x, ((![v537] : Fin 1 → IVec S16 32) a x).toNat < S100000.size a := fun v537 k0_hw38 => k0_hw38
def k0_off43 (k0_t2 : Fin k0_t2_loop.trips) : Fin 2 → Nat :=
  let c38_i32 : BitVec 32 := 38#32
  let v548 : Index := Scalar.indexCast c38_i32
  let c0_i32_45 : BitVec 32 := 0#32
  let c1_i32_47 : BitVec 32 := 1#32
  let arg19 : BitVec 32 := Scf.iv c0_i32_45 c1_i32_47 k0_t2
  let c16_i32_227 : BitVec 32 := 16#32
  let v547 : BitVec 32 := Scalar.muli arg19 c16_i32_227
  let v549 : Index := Scalar.indexCast v547
  ![38, v549.toNat]

def k0_chk39 (v550 : IVec S16 32) : Prop :=
  (∀ a x, ((![v550] : Fin 1 → IVec S16 32) a x).toNat < S100000.size a)
instance k0_chk39.dec : ∀ (v550 : IVec S16 32), Decidable (k0_chk39 v550) := fun v550 => decidable_of_iff' _ (Iff.of_eq (k0_chk39.eq_1 v550))
theorem k0_idx39_inb : ∀ (v550 : IVec S16 32) (k0_hw39 : k0_chk39 v550), ∀ a x, ((![v550] : Fin 1 → IVec S16 32) a x).toNat < S100000.size a := fun v550 k0_hw39 => k0_hw39
def k0_off44 (k0_t2 : Fin k0_t2_loop.trips) : Fin 2 → Nat :=
  let c39_i32 : BitVec 32 := 39#32
  let v561 : Index := Scalar.indexCast c39_i32
  let c0_i32_45 : BitVec 32 := 0#32
  let c1_i32_47 : BitVec 32 := 1#32
  let arg19 : BitVec 32 := Scf.iv c0_i32_45 c1_i32_47 k0_t2
  let c16_i32_231 : BitVec 32 := 16#32
  let v560 : BitVec 32 := Scalar.muli arg19 c16_i32_231
  let v562 : Index := Scalar.indexCast v560
  ![39, v562.toNat]

def k0_chk40 (v563 : IVec S16 32) : Prop :=
  (∀ a x, ((![v563] : Fin 1 → IVec S16 32) a x).toNat < S100000.size a)
instance k0_chk40.dec : ∀ (v563 : IVec S16 32), Decidable (k0_chk40 v563) := fun v563 => decidable_of_iff' _ (Iff.of_eq (k0_chk40.eq_1 v563))
theorem k0_idx40_inb : ∀ (v563 : IVec S16 32) (k0_hw40 : k0_chk40 v563), ∀ a x, ((![v563] : Fin 1 → IVec S16 32) a x).toNat < S100000.size a := fun v563 k0_hw40 => k0_hw40
def k0_off45 (k0_t2 : Fin k0_t2_loop.trips) : Fin 2 → Nat :=
  let c40_i32 : BitVec 32 := 40#32
  let v574 : Index := Scalar.indexCast c40_i32
  let c0_i32_45 : BitVec 32 := 0#32
  let c1_i32_47 : BitVec 32 := 1#32
  let arg19 : BitVec 32 := Scf.iv c0_i32_45 c1_i32_47 k0_t2
  let c16_i32_235 : BitVec 32 := 16#32
  let v573 : BitVec 32 := Scalar.muli arg19 c16_i32_235
  let v575 : Index := Scalar.indexCast v573
  ![40, v575.toNat]

def k0_chk41 (v576 : IVec S16 32) : Prop :=
  (∀ a x, ((![v576] : Fin 1 → IVec S16 32) a x).toNat < S100000.size a)
instance k0_chk41.dec : ∀ (v576 : IVec S16 32), Decidable (k0_chk41 v576) := fun v576 => decidable_of_iff' _ (Iff.of_eq (k0_chk41.eq_1 v576))
theorem k0_idx41_inb : ∀ (v576 : IVec S16 32) (k0_hw41 : k0_chk41 v576), ∀ a x, ((![v576] : Fin 1 → IVec S16 32) a x).toNat < S100000.size a := fun v576 k0_hw41 => k0_hw41
def k0_off46 (k0_t2 : Fin k0_t2_loop.trips) : Fin 2 → Nat :=
  let c41_i32 : BitVec 32 := 41#32
  let v587 : Index := Scalar.indexCast c41_i32
  let c0_i32_45 : BitVec 32 := 0#32
  let c1_i32_47 : BitVec 32 := 1#32
  let arg19 : BitVec 32 := Scf.iv c0_i32_45 c1_i32_47 k0_t2
  let c16_i32_239 : BitVec 32 := 16#32
  let v586 : BitVec 32 := Scalar.muli arg19 c16_i32_239
  let v588 : Index := Scalar.indexCast v586
  ![41, v588.toNat]

def k0_chk42 (v589 : IVec S16 32) : Prop :=
  (∀ a x, ((![v589] : Fin 1 → IVec S16 32) a x).toNat < S100000.size a)
instance k0_chk42.dec : ∀ (v589 : IVec S16 32), Decidable (k0_chk42 v589) := fun v589 => decidable_of_iff' _ (Iff.of_eq (k0_chk42.eq_1 v589))
theorem k0_idx42_inb : ∀ (v589 : IVec S16 32) (k0_hw42 : k0_chk42 v589), ∀ a x, ((![v589] : Fin 1 → IVec S16 32) a x).toNat < S100000.size a := fun v589 k0_hw42 => k0_hw42
def k0_off47 (k0_t2 : Fin k0_t2_loop.trips) : Fin 2 → Nat :=
  let c42_i32 : BitVec 32 := 42#32
  let v600 : Index := Scalar.indexCast c42_i32
  let c0_i32_45 : BitVec 32 := 0#32
  let c1_i32_47 : BitVec 32 := 1#32
  let arg19 : BitVec 32 := Scf.iv c0_i32_45 c1_i32_47 k0_t2
  let c16_i32_243 : BitVec 32 := 16#32
  let v599 : BitVec 32 := Scalar.muli arg19 c16_i32_243
  let v601 : Index := Scalar.indexCast v599
  ![42, v601.toNat]

def k0_chk43 (v602 : IVec S16 32) : Prop :=
  (∀ a x, ((![v602] : Fin 1 → IVec S16 32) a x).toNat < S100000.size a)
instance k0_chk43.dec : ∀ (v602 : IVec S16 32), Decidable (k0_chk43 v602) := fun v602 => decidable_of_iff' _ (Iff.of_eq (k0_chk43.eq_1 v602))
theorem k0_idx43_inb : ∀ (v602 : IVec S16 32) (k0_hw43 : k0_chk43 v602), ∀ a x, ((![v602] : Fin 1 → IVec S16 32) a x).toNat < S100000.size a := fun v602 k0_hw43 => k0_hw43
def k0_off48 (k0_t2 : Fin k0_t2_loop.trips) : Fin 2 → Nat :=
  let c43_i32 : BitVec 32 := 43#32
  let v613 : Index := Scalar.indexCast c43_i32
  let c0_i32_45 : BitVec 32 := 0#32
  let c1_i32_47 : BitVec 32 := 1#32
  let arg19 : BitVec 32 := Scf.iv c0_i32_45 c1_i32_47 k0_t2
  let c16_i32_247 : BitVec 32 := 16#32
  let v612 : BitVec 32 := Scalar.muli arg19 c16_i32_247
  let v614 : Index := Scalar.indexCast v612
  ![43, v614.toNat]

def k0_chk44 (v615 : IVec S16 32) : Prop :=
  (∀ a x, ((![v615] : Fin 1 → IVec S16 32) a x).toNat < S100000.size a)
instance k0_chk44.dec : ∀ (v615 : IVec S16 32), Decidable (k0_chk44 v615) := fun v615 => decidable_of_iff' _ (Iff.of_eq (k0_chk44.eq_1 v615))
theorem k0_idx44_inb : ∀ (v615 : IVec S16 32) (k0_hw44 : k0_chk44 v615), ∀ a x, ((![v615] : Fin 1 → IVec S16 32) a x).toNat < S100000.size a := fun v615 k0_hw44 => k0_hw44
def k0_off49 (k0_t2 : Fin k0_t2_loop.trips) : Fin 2 → Nat :=
  let c44_i32 : BitVec 32 := 44#32
  let v626 : Index := Scalar.indexCast c44_i32
  let c0_i32_45 : BitVec 32 := 0#32
  let c1_i32_47 : BitVec 32 := 1#32
  let arg19 : BitVec 32 := Scf.iv c0_i32_45 c1_i32_47 k0_t2
  let c16_i32_251 : BitVec 32 := 16#32
  let v625 : BitVec 32 := Scalar.muli arg19 c16_i32_251
  let v627 : Index := Scalar.indexCast v625
  ![44, v627.toNat]

def k0_chk45 (v628 : IVec S16 32) : Prop :=
  (∀ a x, ((![v628] : Fin 1 → IVec S16 32) a x).toNat < S100000.size a)
instance k0_chk45.dec : ∀ (v628 : IVec S16 32), Decidable (k0_chk45 v628) := fun v628 => decidable_of_iff' _ (Iff.of_eq (k0_chk45.eq_1 v628))
theorem k0_idx45_inb : ∀ (v628 : IVec S16 32) (k0_hw45 : k0_chk45 v628), ∀ a x, ((![v628] : Fin 1 → IVec S16 32) a x).toNat < S100000.size a := fun v628 k0_hw45 => k0_hw45
def k0_off50 (k0_t2 : Fin k0_t2_loop.trips) : Fin 2 → Nat :=
  let c45_i32 : BitVec 32 := 45#32
  let v639 : Index := Scalar.indexCast c45_i32
  let c0_i32_45 : BitVec 32 := 0#32
  let c1_i32_47 : BitVec 32 := 1#32
  let arg19 : BitVec 32 := Scf.iv c0_i32_45 c1_i32_47 k0_t2
  let c16_i32_255 : BitVec 32 := 16#32
  let v638 : BitVec 32 := Scalar.muli arg19 c16_i32_255
  let v640 : Index := Scalar.indexCast v638
  ![45, v640.toNat]

def k0_chk46 (v641 : IVec S16 32) : Prop :=
  (∀ a x, ((![v641] : Fin 1 → IVec S16 32) a x).toNat < S100000.size a)
instance k0_chk46.dec : ∀ (v641 : IVec S16 32), Decidable (k0_chk46 v641) := fun v641 => decidable_of_iff' _ (Iff.of_eq (k0_chk46.eq_1 v641))
theorem k0_idx46_inb : ∀ (v641 : IVec S16 32) (k0_hw46 : k0_chk46 v641), ∀ a x, ((![v641] : Fin 1 → IVec S16 32) a x).toNat < S100000.size a := fun v641 k0_hw46 => k0_hw46
def k0_off51 (k0_t2 : Fin k0_t2_loop.trips) : Fin 2 → Nat :=
  let c46_i32 : BitVec 32 := 46#32
  let v652 : Index := Scalar.indexCast c46_i32
  let c0_i32_45 : BitVec 32 := 0#32
  let c1_i32_47 : BitVec 32 := 1#32
  let arg19 : BitVec 32 := Scf.iv c0_i32_45 c1_i32_47 k0_t2
  let c16_i32_259 : BitVec 32 := 16#32
  let v651 : BitVec 32 := Scalar.muli arg19 c16_i32_259
  let v653 : Index := Scalar.indexCast v651
  ![46, v653.toNat]

def k0_chk47 (v654 : IVec S16 32) : Prop :=
  (∀ a x, ((![v654] : Fin 1 → IVec S16 32) a x).toNat < S100000.size a)
instance k0_chk47.dec : ∀ (v654 : IVec S16 32), Decidable (k0_chk47 v654) := fun v654 => decidable_of_iff' _ (Iff.of_eq (k0_chk47.eq_1 v654))
theorem k0_idx47_inb : ∀ (v654 : IVec S16 32) (k0_hw47 : k0_chk47 v654), ∀ a x, ((![v654] : Fin 1 → IVec S16 32) a x).toNat < S100000.size a := fun v654 k0_hw47 => k0_hw47
def k0_off52 (k0_t2 : Fin k0_t2_loop.trips) : Fin 2 → Nat :=
  let c47_i32 : BitVec 32 := 47#32
  let v665 : Index := Scalar.indexCast c47_i32
  let c0_i32_45 : BitVec 32 := 0#32
  let c1_i32_47 : BitVec 32 := 1#32
  let arg19 : BitVec 32 := Scf.iv c0_i32_45 c1_i32_47 k0_t2
  let c16_i32_263 : BitVec 32 := 16#32
  let v664 : BitVec 32 := Scalar.muli arg19 c16_i32_263
  let v666 : Index := Scalar.indexCast v664
  ![47, v666.toNat]

def k0_chk48 (v667 : IVec S16 32) : Prop :=
  (∀ a x, ((![v667] : Fin 1 → IVec S16 32) a x).toNat < S100000.size a)
instance k0_chk48.dec : ∀ (v667 : IVec S16 32), Decidable (k0_chk48 v667) := fun v667 => decidable_of_iff' _ (Iff.of_eq (k0_chk48.eq_1 v667))
theorem k0_idx48_inb : ∀ (v667 : IVec S16 32) (k0_hw48 : k0_chk48 v667), ∀ a x, ((![v667] : Fin 1 → IVec S16 32) a x).toNat < S100000.size a := fun v667 k0_hw48 => k0_hw48
def k0_off53 (k0_t2 : Fin k0_t2_loop.trips) : Fin 2 → Nat :=
  let c48_i32 : BitVec 32 := 48#32
  let v678 : Index := Scalar.indexCast c48_i32
  let c0_i32_45 : BitVec 32 := 0#32
  let c1_i32_47 : BitVec 32 := 1#32
  let arg19 : BitVec 32 := Scf.iv c0_i32_45 c1_i32_47 k0_t2
  let c16_i32_267 : BitVec 32 := 16#32
  let v677 : BitVec 32 := Scalar.muli arg19 c16_i32_267
  let v679 : Index := Scalar.indexCast v677
  ![48, v679.toNat]

def k0_chk49 (v680 : IVec S16 32) : Prop :=
  (∀ a x, ((![v680] : Fin 1 → IVec S16 32) a x).toNat < S100000.size a)
instance k0_chk49.dec : ∀ (v680 : IVec S16 32), Decidable (k0_chk49 v680) := fun v680 => decidable_of_iff' _ (Iff.of_eq (k0_chk49.eq_1 v680))
theorem k0_idx49_inb : ∀ (v680 : IVec S16 32) (k0_hw49 : k0_chk49 v680), ∀ a x, ((![v680] : Fin 1 → IVec S16 32) a x).toNat < S100000.size a := fun v680 k0_hw49 => k0_hw49
def k0_off54 (k0_t2 : Fin k0_t2_loop.trips) : Fin 2 → Nat :=
  let c49_i32 : BitVec 32 := 49#32
  let v691 : Index := Scalar.indexCast c49_i32
  let c0_i32_45 : BitVec 32 := 0#32
  let c1_i32_47 : BitVec 32 := 1#32
  let arg19 : BitVec 32 := Scf.iv c0_i32_45 c1_i32_47 k0_t2
  let c16_i32_271 : BitVec 32 := 16#32
  let v690 : BitVec 32 := Scalar.muli arg19 c16_i32_271
  let v692 : Index := Scalar.indexCast v690
  ![49, v692.toNat]

def k0_chk50 (v693 : IVec S16 32) : Prop :=
  (∀ a x, ((![v693] : Fin 1 → IVec S16 32) a x).toNat < S100000.size a)
instance k0_chk50.dec : ∀ (v693 : IVec S16 32), Decidable (k0_chk50 v693) := fun v693 => decidable_of_iff' _ (Iff.of_eq (k0_chk50.eq_1 v693))
theorem k0_idx50_inb : ∀ (v693 : IVec S16 32) (k0_hw50 : k0_chk50 v693), ∀ a x, ((![v693] : Fin 1 → IVec S16 32) a x).toNat < S100000.size a := fun v693 k0_hw50 => k0_hw50
def k0_off55 (k0_t1 : Fin k0_t1_loop.trips) (k0_t2 : Fin k0_t2_loop.trips) : Fin 2 → Nat :=
  let c2_i32_33 : BitVec 32 := 2#32
  let c0_i32_5 : BitVec 32 := 0#32
  let c1_i32 : BitVec 32 := 1#32
  let arg18 : BitVec 32 := Scf.iv c0_i32_5 c1_i32 k0_t1
  let v23 : BitVec 32 := Scalar.muli c2_i32_33 arg18
  let c0_i32_34 : BitVec 32 := 0#32
  let v24 : BitVec 32 := Scalar.addi v23 c0_i32_34
  let c128_i32_277 : BitVec 32 := 128#32
  let v707 : BitVec 32 := Scalar.muli v24 c128_i32_277
  let c0_i32_45 : BitVec 32 := 0#32
  let c1_i32_47 : BitVec 32 := 1#32
  let arg19 : BitVec 32 := Scf.iv c0_i32_45 c1_i32_47 k0_t2
  let c16_i32_278 : BitVec 32 := 16#32
  let v708 : BitVec 32 := Scalar.muli arg19 c16_i32_278
  let v709 : BitVec 32 := Scalar.addi v707 v708
  let c0_i32_280 : BitVec 32 := 0#32
  let v712 : BitVec 1 := Scalar.cmpi .sgt v709 c0_i32_280
  let v713 : BitVec 32 := Scalar.extui v712
  let c0_i32_281 : BitVec 32 := 0#32
  let v714 : BitVec 1 := Scalar.cmpi .slt v709 c0_i32_281
  let v715 : BitVec 32 := Scalar.extui v714
  let v716 : BitVec 32 := Scalar.subi v713 v715
  let c128_i32_279 : BitVec 32 := 128#32
  let c0_i32_282 : BitVec 32 := 0#32
  let v717 : BitVec 1 := Scalar.cmpi .sgt c128_i32_279 c0_i32_282
  let v718 : BitVec 32 := Scalar.extui v717
  let c0_i32_283 : BitVec 32 := 0#32
  let v719 : BitVec 1 := Scalar.cmpi .slt c128_i32_279 c0_i32_283
  let v720 : BitVec 32 := Scalar.extui v719
  let v721 : BitVec 32 := Scalar.subi v718 v720
  let v722 : BitVec 1 := Scalar.cmpi .ne v716 v721
  let v723 : BitVec 32 := Scalar.remsi v709 c128_i32_279
  let c0_i32_284 : BitVec 32 := 0#32
  let v724 : BitVec 1 := Scalar.cmpi .ne v723 c0_i32_284
  let v725 : BitVec 1 := Scalar.andi v722 v724
  let v711 : BitVec 32 := Scalar.divsi v709 c128_i32_279
  let c1_i32_285 : BitVec 32 := 1#32
  let v726 : BitVec 32 := Scalar.subi v711 c1_i32_285
  let v727 : BitVec 32 := Scalar.select v725 v726 v711
  let v738 : Index := Scalar.indexCast v727
  let c128_i32_286 : BitVec 32 := 128#32
  let c0_i32_287 : BitVec 32 := 0#32
  let v728 : BitVec 1 := Scalar.cmpi .eq c128_i32_286 c0_i32_287
  let c1_i32_288 : BitVec 32 := 1#32
  let v729 : BitVec 32 := Scalar.select v728 c1_i32_288 c128_i32_286
  let v730 : BitVec 32 := Scalar.remsi v709 v729
  let c0_i32_290 : BitVec 32 := 0#32
  let v732 : BitVec 1 := Scalar.cmpi .slt v730 c0_i32_290
  let c0_i32_291 : BitVec 32 := 0#32
  let v733 : BitVec 1 := Scalar.cmpi .slt v729 c0_i32_291
  let v734 : BitVec 1 := Scalar.xori v732 v733
  let c0_i32_289 : BitVec 32 := 0#32
  let v731 : BitVec 1 := Scalar.cmpi .ne v730 c0_i32_289
  let v735 : BitVec 1 := Scalar.andi v734 v731
  let v736 : BitVec 32 := Scalar.addi v730 v729
  let v737 : BitVec 32 := Scalar.select v735 v736 v730
  let v739 : Index := Scalar.indexCast v737
  ![v738.toNat, v739.toNat]
@[reducible] def k0_t3_loop : Scf.Loop 32 :=
  let c0_i32_61 : BitVec 32 := 0#32
  let c8_i32_62 : BitVec 32 := 8#32
  let v46 : BitVec 32 := Scalar.addi c0_i32_61 c8_i32_62
  let c1_i32_63 : BitVec 32 := 1#32
  ⟨c0_i32_61, v46, c1_i32_63⟩
def k0_off56 (k0_t1 : Fin k0_t1_loop.trips) (k0_t3 : Fin k0_t3_loop.trips) : Fin 1 → Nat :=
  let c2_i32_49 : BitVec 32 := 2#32
  let c0_i32_5 : BitVec 32 := 0#32
  let c1_i32 : BitVec 32 := 1#32
  let arg18 : BitVec 32 := Scf.iv c0_i32_5 c1_i32 k0_t1
  let v35 : BitVec 32 := Scalar.muli c2_i32_49 arg18
  let c1_i32_50 : BitVec 32 := 1#32
  let v36 : BitVec 32 := Scalar.addi v35 c1_i32_50
  let c128_i32 : BitVec 32 := 128#32
  let v47 : BitVec 32 := Scalar.muli v36 c128_i32
  let c0_i32_61 : BitVec 32 := 0#32
  let c1_i32_63 : BitVec 32 := 1#32
  let arg19 : BitVec 32 := Scf.iv c0_i32_61 c1_i32_63 k0_t3
  let c16_i32 : BitVec 32 := 16#32
  let v48 : BitVec 32 := Scalar.muli arg19 c16_i32
  let v49 : BitVec 32 := Scalar.addi v47 v48
  let v50 : Index := Scalar.indexCast v49
  ![v50.toNat]
def k0_off57 (k0_t3 : Fin k0_t3_loop.trips) : Fin 2 → Nat :=
  let c0_i32_66 : BitVec 32 := 0#32
  let v54 : Index := Scalar.indexCast c0_i32_66
  let c0_i32_61 : BitVec 32 := 0#32
  let c1_i32_63 : BitVec 32 := 1#32
  let arg19 : BitVec 32 := Scf.iv c0_i32_61 c1_i32_63 k0_t3
  let c16_i32_65 : BitVec 32 := 16#32
  let v53 : BitVec 32 := Scalar.muli arg19 c16_i32_65
  let v55 : Index := Scalar.indexCast v53
  ![0, v55.toNat]

def k0_chk51 (v56 : IVec S16 32) : Prop :=
  (∀ a x, ((![v56] : Fin 1 → IVec S16 32) a x).toNat < S100000.size a)
instance k0_chk51.dec : ∀ (v56 : IVec S16 32), Decidable (k0_chk51 v56) := fun v56 => decidable_of_iff' _ (Iff.of_eq (k0_chk51.eq_1 v56))
theorem k0_idx51_inb : ∀ (v56 : IVec S16 32) (k0_hw51 : k0_chk51 v56), ∀ a x, ((![v56] : Fin 1 → IVec S16 32) a x).toNat < S100000.size a := fun v56 k0_hw51 => k0_hw51
def k0_off58 (k0_t3 : Fin k0_t3_loop.trips) : Fin 2 → Nat :=
  let c1_i32_71 : BitVec 32 := 1#32
  let v67 : Index := Scalar.indexCast c1_i32_71
  let c0_i32_61 : BitVec 32 := 0#32
  let c1_i32_63 : BitVec 32 := 1#32
  let arg19 : BitVec 32 := Scf.iv c0_i32_61 c1_i32_63 k0_t3
  let c16_i32_70 : BitVec 32 := 16#32
  let v66 : BitVec 32 := Scalar.muli arg19 c16_i32_70
  let v68 : Index := Scalar.indexCast v66
  ![1, v68.toNat]

def k0_chk52 (v69 : IVec S16 32) : Prop :=
  (∀ a x, ((![v69] : Fin 1 → IVec S16 32) a x).toNat < S100000.size a)
instance k0_chk52.dec : ∀ (v69 : IVec S16 32), Decidable (k0_chk52 v69) := fun v69 => decidable_of_iff' _ (Iff.of_eq (k0_chk52.eq_1 v69))
theorem k0_idx52_inb : ∀ (v69 : IVec S16 32) (k0_hw52 : k0_chk52 v69), ∀ a x, ((![v69] : Fin 1 → IVec S16 32) a x).toNat < S100000.size a := fun v69 k0_hw52 => k0_hw52
def k0_off59 (k0_t3 : Fin k0_t3_loop.trips) : Fin 2 → Nat :=
  let c2_i32_76 : BitVec 32 := 2#32
  let v80 : Index := Scalar.indexCast c2_i32_76
  let c0_i32_61 : BitVec 32 := 0#32
  let c1_i32_63 : BitVec 32 := 1#32
  let arg19 : BitVec 32 := Scf.iv c0_i32_61 c1_i32_63 k0_t3
  let c16_i32_75 : BitVec 32 := 16#32
  let v79 : BitVec 32 := Scalar.muli arg19 c16_i32_75
  let v81 : Index := Scalar.indexCast v79
  ![2, v81.toNat]

def k0_chk53 (v82 : IVec S16 32) : Prop :=
  (∀ a x, ((![v82] : Fin 1 → IVec S16 32) a x).toNat < S100000.size a)
instance k0_chk53.dec : ∀ (v82 : IVec S16 32), Decidable (k0_chk53 v82) := fun v82 => decidable_of_iff' _ (Iff.of_eq (k0_chk53.eq_1 v82))
theorem k0_idx53_inb : ∀ (v82 : IVec S16 32) (k0_hw53 : k0_chk53 v82), ∀ a x, ((![v82] : Fin 1 → IVec S16 32) a x).toNat < S100000.size a := fun v82 k0_hw53 => k0_hw53
def k0_off60 (k0_t3 : Fin k0_t3_loop.trips) : Fin 2 → Nat :=
  let c3_i32 : BitVec 32 := 3#32
  let v93 : Index := Scalar.indexCast c3_i32
  let c0_i32_61 : BitVec 32 := 0#32
  let c1_i32_63 : BitVec 32 := 1#32
  let arg19 : BitVec 32 := Scf.iv c0_i32_61 c1_i32_63 k0_t3
  let c16_i32_80 : BitVec 32 := 16#32
  let v92 : BitVec 32 := Scalar.muli arg19 c16_i32_80
  let v94 : Index := Scalar.indexCast v92
  ![3, v94.toNat]

def k0_chk54 (v95 : IVec S16 32) : Prop :=
  (∀ a x, ((![v95] : Fin 1 → IVec S16 32) a x).toNat < S100000.size a)
instance k0_chk54.dec : ∀ (v95 : IVec S16 32), Decidable (k0_chk54 v95) := fun v95 => decidable_of_iff' _ (Iff.of_eq (k0_chk54.eq_1 v95))
theorem k0_idx54_inb : ∀ (v95 : IVec S16 32) (k0_hw54 : k0_chk54 v95), ∀ a x, ((![v95] : Fin 1 → IVec S16 32) a x).toNat < S100000.size a := fun v95 k0_hw54 => k0_hw54
def k0_off61 (k0_t3 : Fin k0_t3_loop.trips) : Fin 2 → Nat :=
  let c4_i32 : BitVec 32 := 4#32
  let v106 : Index := Scalar.indexCast c4_i32
  let c0_i32_61 : BitVec 32 := 0#32
  let c1_i32_63 : BitVec 32 := 1#32
  let arg19 : BitVec 32 := Scf.iv c0_i32_61 c1_i32_63 k0_t3
  let c16_i32_84 : BitVec 32 := 16#32
  let v105 : BitVec 32 := Scalar.muli arg19 c16_i32_84
  let v107 : Index := Scalar.indexCast v105
  ![4, v107.toNat]

def k0_chk55 (v108 : IVec S16 32) : Prop :=
  (∀ a x, ((![v108] : Fin 1 → IVec S16 32) a x).toNat < S100000.size a)
instance k0_chk55.dec : ∀ (v108 : IVec S16 32), Decidable (k0_chk55 v108) := fun v108 => decidable_of_iff' _ (Iff.of_eq (k0_chk55.eq_1 v108))
theorem k0_idx55_inb : ∀ (v108 : IVec S16 32) (k0_hw55 : k0_chk55 v108), ∀ a x, ((![v108] : Fin 1 → IVec S16 32) a x).toNat < S100000.size a := fun v108 k0_hw55 => k0_hw55
def k0_off62 (k0_t3 : Fin k0_t3_loop.trips) : Fin 2 → Nat :=
  let c5_i32 : BitVec 32 := 5#32
  let v119 : Index := Scalar.indexCast c5_i32
  let c0_i32_61 : BitVec 32 := 0#32
  let c1_i32_63 : BitVec 32 := 1#32
  let arg19 : BitVec 32 := Scf.iv c0_i32_61 c1_i32_63 k0_t3
  let c16_i32_88 : BitVec 32 := 16#32
  let v118 : BitVec 32 := Scalar.muli arg19 c16_i32_88
  let v120 : Index := Scalar.indexCast v118
  ![5, v120.toNat]

def k0_chk56 (v121 : IVec S16 32) : Prop :=
  (∀ a x, ((![v121] : Fin 1 → IVec S16 32) a x).toNat < S100000.size a)
instance k0_chk56.dec : ∀ (v121 : IVec S16 32), Decidable (k0_chk56 v121) := fun v121 => decidable_of_iff' _ (Iff.of_eq (k0_chk56.eq_1 v121))
theorem k0_idx56_inb : ∀ (v121 : IVec S16 32) (k0_hw56 : k0_chk56 v121), ∀ a x, ((![v121] : Fin 1 → IVec S16 32) a x).toNat < S100000.size a := fun v121 k0_hw56 => k0_hw56
def k0_off63 (k0_t3 : Fin k0_t3_loop.trips) : Fin 2 → Nat :=
  let c6_i32 : BitVec 32 := 6#32
  let v132 : Index := Scalar.indexCast c6_i32
  let c0_i32_61 : BitVec 32 := 0#32
  let c1_i32_63 : BitVec 32 := 1#32
  let arg19 : BitVec 32 := Scf.iv c0_i32_61 c1_i32_63 k0_t3
  let c16_i32_92 : BitVec 32 := 16#32
  let v131 : BitVec 32 := Scalar.muli arg19 c16_i32_92
  let v133 : Index := Scalar.indexCast v131
  ![6, v133.toNat]

def k0_chk57 (v134 : IVec S16 32) : Prop :=
  (∀ a x, ((![v134] : Fin 1 → IVec S16 32) a x).toNat < S100000.size a)
instance k0_chk57.dec : ∀ (v134 : IVec S16 32), Decidable (k0_chk57 v134) := fun v134 => decidable_of_iff' _ (Iff.of_eq (k0_chk57.eq_1 v134))
theorem k0_idx57_inb : ∀ (v134 : IVec S16 32) (k0_hw57 : k0_chk57 v134), ∀ a x, ((![v134] : Fin 1 → IVec S16 32) a x).toNat < S100000.size a := fun v134 k0_hw57 => k0_hw57
def k0_off64 (k0_t3 : Fin k0_t3_loop.trips) : Fin 2 → Nat :=
  let c7_i32 : BitVec 32 := 7#32
  let v145 : Index := Scalar.indexCast c7_i32
  let c0_i32_61 : BitVec 32 := 0#32
  let c1_i32_63 : BitVec 32 := 1#32
  let arg19 : BitVec 32 := Scf.iv c0_i32_61 c1_i32_63 k0_t3
  let c16_i32_96 : BitVec 32 := 16#32
  let v144 : BitVec 32 := Scalar.muli arg19 c16_i32_96
  let v146 : Index := Scalar.indexCast v144
  ![7, v146.toNat]

def k0_chk58 (v147 : IVec S16 32) : Prop :=
  (∀ a x, ((![v147] : Fin 1 → IVec S16 32) a x).toNat < S100000.size a)
instance k0_chk58.dec : ∀ (v147 : IVec S16 32), Decidable (k0_chk58 v147) := fun v147 => decidable_of_iff' _ (Iff.of_eq (k0_chk58.eq_1 v147))
theorem k0_idx58_inb : ∀ (v147 : IVec S16 32) (k0_hw58 : k0_chk58 v147), ∀ a x, ((![v147] : Fin 1 → IVec S16 32) a x).toNat < S100000.size a := fun v147 k0_hw58 => k0_hw58
def k0_off65 (k0_t3 : Fin k0_t3_loop.trips) : Fin 2 → Nat :=
  let c8_i32_101 : BitVec 32 := 8#32
  let v158 : Index := Scalar.indexCast c8_i32_101
  let c0_i32_61 : BitVec 32 := 0#32
  let c1_i32_63 : BitVec 32 := 1#32
  let arg19 : BitVec 32 := Scf.iv c0_i32_61 c1_i32_63 k0_t3
  let c16_i32_100 : BitVec 32 := 16#32
  let v157 : BitVec 32 := Scalar.muli arg19 c16_i32_100
  let v159 : Index := Scalar.indexCast v157
  ![8, v159.toNat]

def k0_chk59 (v160 : IVec S16 32) : Prop :=
  (∀ a x, ((![v160] : Fin 1 → IVec S16 32) a x).toNat < S100000.size a)
instance k0_chk59.dec : ∀ (v160 : IVec S16 32), Decidable (k0_chk59 v160) := fun v160 => decidable_of_iff' _ (Iff.of_eq (k0_chk59.eq_1 v160))
theorem k0_idx59_inb : ∀ (v160 : IVec S16 32) (k0_hw59 : k0_chk59 v160), ∀ a x, ((![v160] : Fin 1 → IVec S16 32) a x).toNat < S100000.size a := fun v160 k0_hw59 => k0_hw59
def k0_off66 (k0_t3 : Fin k0_t3_loop.trips) : Fin 2 → Nat :=
  let c9_i32 : BitVec 32 := 9#32
  let v171 : Index := Scalar.indexCast c9_i32
  let c0_i32_61 : BitVec 32 := 0#32
  let c1_i32_63 : BitVec 32 := 1#32
  let arg19 : BitVec 32 := Scf.iv c0_i32_61 c1_i32_63 k0_t3
  let c16_i32_105 : BitVec 32 := 16#32
  let v170 : BitVec 32 := Scalar.muli arg19 c16_i32_105
  let v172 : Index := Scalar.indexCast v170
  ![9, v172.toNat]

def k0_chk60 (v173 : IVec S16 32) : Prop :=
  (∀ a x, ((![v173] : Fin 1 → IVec S16 32) a x).toNat < S100000.size a)
instance k0_chk60.dec : ∀ (v173 : IVec S16 32), Decidable (k0_chk60 v173) := fun v173 => decidable_of_iff' _ (Iff.of_eq (k0_chk60.eq_1 v173))
theorem k0_idx60_inb : ∀ (v173 : IVec S16 32) (k0_hw60 : k0_chk60 v173), ∀ a x, ((![v173] : Fin 1 → IVec S16 32) a x).toNat < S100000.size a := fun v173 k0_hw60 => k0_hw60
def k0_off67 (k0_t3 : Fin k0_t3_loop.trips) : Fin 2 → Nat :=
  let c10_i32 : BitVec 32 := 10#32
  let v184 : Index := Scalar.indexCast c10_i32
  let c0_i32_61 : BitVec 32 := 0#32
  let c1_i32_63 : BitVec 32 := 1#32
  let arg19 : BitVec 32 := Scf.iv c0_i32_61 c1_i32_63 k0_t3
  let c16_i32_109 : BitVec 32 := 16#32
  let v183 : BitVec 32 := Scalar.muli arg19 c16_i32_109
  let v185 : Index := Scalar.indexCast v183
  ![10, v185.toNat]

def k0_chk61 (v186 : IVec S16 32) : Prop :=
  (∀ a x, ((![v186] : Fin 1 → IVec S16 32) a x).toNat < S100000.size a)
instance k0_chk61.dec : ∀ (v186 : IVec S16 32), Decidable (k0_chk61 v186) := fun v186 => decidable_of_iff' _ (Iff.of_eq (k0_chk61.eq_1 v186))
theorem k0_idx61_inb : ∀ (v186 : IVec S16 32) (k0_hw61 : k0_chk61 v186), ∀ a x, ((![v186] : Fin 1 → IVec S16 32) a x).toNat < S100000.size a := fun v186 k0_hw61 => k0_hw61
def k0_off68 (k0_t3 : Fin k0_t3_loop.trips) : Fin 2 → Nat :=
  let c11_i32 : BitVec 32 := 11#32
  let v197 : Index := Scalar.indexCast c11_i32
  let c0_i32_61 : BitVec 32 := 0#32
  let c1_i32_63 : BitVec 32 := 1#32
  let arg19 : BitVec 32 := Scf.iv c0_i32_61 c1_i32_63 k0_t3
  let c16_i32_113 : BitVec 32 := 16#32
  let v196 : BitVec 32 := Scalar.muli arg19 c16_i32_113
  let v198 : Index := Scalar.indexCast v196
  ![11, v198.toNat]

def k0_chk62 (v199 : IVec S16 32) : Prop :=
  (∀ a x, ((![v199] : Fin 1 → IVec S16 32) a x).toNat < S100000.size a)
instance k0_chk62.dec : ∀ (v199 : IVec S16 32), Decidable (k0_chk62 v199) := fun v199 => decidable_of_iff' _ (Iff.of_eq (k0_chk62.eq_1 v199))
theorem k0_idx62_inb : ∀ (v199 : IVec S16 32) (k0_hw62 : k0_chk62 v199), ∀ a x, ((![v199] : Fin 1 → IVec S16 32) a x).toNat < S100000.size a := fun v199 k0_hw62 => k0_hw62
def k0_off69 (k0_t3 : Fin k0_t3_loop.trips) : Fin 2 → Nat :=
  let c12_i32 : BitVec 32 := 12#32
  let v210 : Index := Scalar.indexCast c12_i32
  let c0_i32_61 : BitVec 32 := 0#32
  let c1_i32_63 : BitVec 32 := 1#32
  let arg19 : BitVec 32 := Scf.iv c0_i32_61 c1_i32_63 k0_t3
  let c16_i32_117 : BitVec 32 := 16#32
  let v209 : BitVec 32 := Scalar.muli arg19 c16_i32_117
  let v211 : Index := Scalar.indexCast v209
  ![12, v211.toNat]

def k0_chk63 (v212 : IVec S16 32) : Prop :=
  (∀ a x, ((![v212] : Fin 1 → IVec S16 32) a x).toNat < S100000.size a)
instance k0_chk63.dec : ∀ (v212 : IVec S16 32), Decidable (k0_chk63 v212) := fun v212 => decidable_of_iff' _ (Iff.of_eq (k0_chk63.eq_1 v212))
theorem k0_idx63_inb : ∀ (v212 : IVec S16 32) (k0_hw63 : k0_chk63 v212), ∀ a x, ((![v212] : Fin 1 → IVec S16 32) a x).toNat < S100000.size a := fun v212 k0_hw63 => k0_hw63
def k0_off70 (k0_t3 : Fin k0_t3_loop.trips) : Fin 2 → Nat :=
  let c13_i32 : BitVec 32 := 13#32
  let v223 : Index := Scalar.indexCast c13_i32
  let c0_i32_61 : BitVec 32 := 0#32
  let c1_i32_63 : BitVec 32 := 1#32
  let arg19 : BitVec 32 := Scf.iv c0_i32_61 c1_i32_63 k0_t3
  let c16_i32_121 : BitVec 32 := 16#32
  let v222 : BitVec 32 := Scalar.muli arg19 c16_i32_121
  let v224 : Index := Scalar.indexCast v222
  ![13, v224.toNat]

def k0_chk64 (v225 : IVec S16 32) : Prop :=
  (∀ a x, ((![v225] : Fin 1 → IVec S16 32) a x).toNat < S100000.size a)
instance k0_chk64.dec : ∀ (v225 : IVec S16 32), Decidable (k0_chk64 v225) := fun v225 => decidable_of_iff' _ (Iff.of_eq (k0_chk64.eq_1 v225))
theorem k0_idx64_inb : ∀ (v225 : IVec S16 32) (k0_hw64 : k0_chk64 v225), ∀ a x, ((![v225] : Fin 1 → IVec S16 32) a x).toNat < S100000.size a := fun v225 k0_hw64 => k0_hw64
def k0_off71 (k0_t3 : Fin k0_t3_loop.trips) : Fin 2 → Nat :=
  let c14_i32 : BitVec 32 := 14#32
  let v236 : Index := Scalar.indexCast c14_i32
  let c0_i32_61 : BitVec 32 := 0#32
  let c1_i32_63 : BitVec 32 := 1#32
  let arg19 : BitVec 32 := Scf.iv c0_i32_61 c1_i32_63 k0_t3
  let c16_i32_125 : BitVec 32 := 16#32
  let v235 : BitVec 32 := Scalar.muli arg19 c16_i32_125
  let v237 : Index := Scalar.indexCast v235
  ![14, v237.toNat]

def k0_chk65 (v238 : IVec S16 32) : Prop :=
  (∀ a x, ((![v238] : Fin 1 → IVec S16 32) a x).toNat < S100000.size a)
instance k0_chk65.dec : ∀ (v238 : IVec S16 32), Decidable (k0_chk65 v238) := fun v238 => decidable_of_iff' _ (Iff.of_eq (k0_chk65.eq_1 v238))
theorem k0_idx65_inb : ∀ (v238 : IVec S16 32) (k0_hw65 : k0_chk65 v238), ∀ a x, ((![v238] : Fin 1 → IVec S16 32) a x).toNat < S100000.size a := fun v238 k0_hw65 => k0_hw65
def k0_off72 (k0_t3 : Fin k0_t3_loop.trips) : Fin 2 → Nat :=
  let c15_i32_130 : BitVec 32 := 15#32
  let v249 : Index := Scalar.indexCast c15_i32_130
  let c0_i32_61 : BitVec 32 := 0#32
  let c1_i32_63 : BitVec 32 := 1#32
  let arg19 : BitVec 32 := Scf.iv c0_i32_61 c1_i32_63 k0_t3
  let c16_i32_129 : BitVec 32 := 16#32
  let v248 : BitVec 32 := Scalar.muli arg19 c16_i32_129
  let v250 : Index := Scalar.indexCast v248
  ![15, v250.toNat]

def k0_chk66 (v251 : IVec S16 32) : Prop :=
  (∀ a x, ((![v251] : Fin 1 → IVec S16 32) a x).toNat < S100000.size a)
instance k0_chk66.dec : ∀ (v251 : IVec S16 32), Decidable (k0_chk66 v251) := fun v251 => decidable_of_iff' _ (Iff.of_eq (k0_chk66.eq_1 v251))
theorem k0_idx66_inb : ∀ (v251 : IVec S16 32) (k0_hw66 : k0_chk66 v251), ∀ a x, ((![v251] : Fin 1 → IVec S16 32) a x).toNat < S100000.size a := fun v251 k0_hw66 => k0_hw66
def k0_off73 (k0_t3 : Fin k0_t3_loop.trips) : Fin 2 → Nat :=
  let c16_i32_135 : BitVec 32 := 16#32
  let v262 : Index := Scalar.indexCast c16_i32_135
  let c0_i32_61 : BitVec 32 := 0#32
  let c1_i32_63 : BitVec 32 := 1#32
  let arg19 : BitVec 32 := Scf.iv c0_i32_61 c1_i32_63 k0_t3
  let c16_i32_134 : BitVec 32 := 16#32
  let v261 : BitVec 32 := Scalar.muli arg19 c16_i32_134
  let v263 : Index := Scalar.indexCast v261
  ![16, v263.toNat]

def k0_chk67 (v264 : IVec S16 32) : Prop :=
  (∀ a x, ((![v264] : Fin 1 → IVec S16 32) a x).toNat < S100000.size a)
instance k0_chk67.dec : ∀ (v264 : IVec S16 32), Decidable (k0_chk67 v264) := fun v264 => decidable_of_iff' _ (Iff.of_eq (k0_chk67.eq_1 v264))
theorem k0_idx67_inb : ∀ (v264 : IVec S16 32) (k0_hw67 : k0_chk67 v264), ∀ a x, ((![v264] : Fin 1 → IVec S16 32) a x).toNat < S100000.size a := fun v264 k0_hw67 => k0_hw67
def k0_off74 (k0_t3 : Fin k0_t3_loop.trips) : Fin 2 → Nat :=
  let c17_i32 : BitVec 32 := 17#32
  let v275 : Index := Scalar.indexCast c17_i32
  let c0_i32_61 : BitVec 32 := 0#32
  let c1_i32_63 : BitVec 32 := 1#32
  let arg19 : BitVec 32 := Scf.iv c0_i32_61 c1_i32_63 k0_t3
  let c16_i32_139 : BitVec 32 := 16#32
  let v274 : BitVec 32 := Scalar.muli arg19 c16_i32_139
  let v276 : Index := Scalar.indexCast v274
  ![17, v276.toNat]

def k0_chk68 (v277 : IVec S16 32) : Prop :=
  (∀ a x, ((![v277] : Fin 1 → IVec S16 32) a x).toNat < S100000.size a)
instance k0_chk68.dec : ∀ (v277 : IVec S16 32), Decidable (k0_chk68 v277) := fun v277 => decidable_of_iff' _ (Iff.of_eq (k0_chk68.eq_1 v277))
theorem k0_idx68_inb : ∀ (v277 : IVec S16 32) (k0_hw68 : k0_chk68 v277), ∀ a x, ((![v277] : Fin 1 → IVec S16 32) a x).toNat < S100000.size a := fun v277 k0_hw68 => k0_hw68
def k0_off75 (k0_t3 : Fin k0_t3_loop.trips) : Fin 2 → Nat :=
  let c18_i32 : BitVec 32 := 18#32
  let v288 : Index := Scalar.indexCast c18_i32
  let c0_i32_61 : BitVec 32 := 0#32
  let c1_i32_63 : BitVec 32 := 1#32
  let arg19 : BitVec 32 := Scf.iv c0_i32_61 c1_i32_63 k0_t3
  let c16_i32_143 : BitVec 32 := 16#32
  let v287 : BitVec 32 := Scalar.muli arg19 c16_i32_143
  let v289 : Index := Scalar.indexCast v287
  ![18, v289.toNat]

def k0_chk69 (v290 : IVec S16 32) : Prop :=
  (∀ a x, ((![v290] : Fin 1 → IVec S16 32) a x).toNat < S100000.size a)
instance k0_chk69.dec : ∀ (v290 : IVec S16 32), Decidable (k0_chk69 v290) := fun v290 => decidable_of_iff' _ (Iff.of_eq (k0_chk69.eq_1 v290))
theorem k0_idx69_inb : ∀ (v290 : IVec S16 32) (k0_hw69 : k0_chk69 v290), ∀ a x, ((![v290] : Fin 1 → IVec S16 32) a x).toNat < S100000.size a := fun v290 k0_hw69 => k0_hw69
def k0_off76 (k0_t3 : Fin k0_t3_loop.trips) : Fin 2 → Nat :=
  let c19_i32 : BitVec 32 := 19#32
  let v301 : Index := Scalar.indexCast c19_i32
  let c0_i32_61 : BitVec 32 := 0#32
  let c1_i32_63 : BitVec 32 := 1#32
  let arg19 : BitVec 32 := Scf.iv c0_i32_61 c1_i32_63 k0_t3
  let c16_i32_147 : BitVec 32 := 16#32
  let v300 : BitVec 32 := Scalar.muli arg19 c16_i32_147
  let v302 : Index := Scalar.indexCast v300
  ![19, v302.toNat]

def k0_chk70 (v303 : IVec S16 32) : Prop :=
  (∀ a x, ((![v303] : Fin 1 → IVec S16 32) a x).toNat < S100000.size a)
instance k0_chk70.dec : ∀ (v303 : IVec S16 32), Decidable (k0_chk70 v303) := fun v303 => decidable_of_iff' _ (Iff.of_eq (k0_chk70.eq_1 v303))
theorem k0_idx70_inb : ∀ (v303 : IVec S16 32) (k0_hw70 : k0_chk70 v303), ∀ a x, ((![v303] : Fin 1 → IVec S16 32) a x).toNat < S100000.size a := fun v303 k0_hw70 => k0_hw70
def k0_off77 (k0_t3 : Fin k0_t3_loop.trips) : Fin 2 → Nat :=
  let c20_i32 : BitVec 32 := 20#32
  let v314 : Index := Scalar.indexCast c20_i32
  let c0_i32_61 : BitVec 32 := 0#32
  let c1_i32_63 : BitVec 32 := 1#32
  let arg19 : BitVec 32 := Scf.iv c0_i32_61 c1_i32_63 k0_t3
  let c16_i32_151 : BitVec 32 := 16#32
  let v313 : BitVec 32 := Scalar.muli arg19 c16_i32_151
  let v315 : Index := Scalar.indexCast v313
  ![20, v315.toNat]

def k0_chk71 (v316 : IVec S16 32) : Prop :=
  (∀ a x, ((![v316] : Fin 1 → IVec S16 32) a x).toNat < S100000.size a)
instance k0_chk71.dec : ∀ (v316 : IVec S16 32), Decidable (k0_chk71 v316) := fun v316 => decidable_of_iff' _ (Iff.of_eq (k0_chk71.eq_1 v316))
theorem k0_idx71_inb : ∀ (v316 : IVec S16 32) (k0_hw71 : k0_chk71 v316), ∀ a x, ((![v316] : Fin 1 → IVec S16 32) a x).toNat < S100000.size a := fun v316 k0_hw71 => k0_hw71
def k0_off78 (k0_t3 : Fin k0_t3_loop.trips) : Fin 2 → Nat :=
  let c21_i32 : BitVec 32 := 21#32
  let v327 : Index := Scalar.indexCast c21_i32
  let c0_i32_61 : BitVec 32 := 0#32
  let c1_i32_63 : BitVec 32 := 1#32
  let arg19 : BitVec 32 := Scf.iv c0_i32_61 c1_i32_63 k0_t3
  let c16_i32_155 : BitVec 32 := 16#32
  let v326 : BitVec 32 := Scalar.muli arg19 c16_i32_155
  let v328 : Index := Scalar.indexCast v326
  ![21, v328.toNat]

def k0_chk72 (v329 : IVec S16 32) : Prop :=
  (∀ a x, ((![v329] : Fin 1 → IVec S16 32) a x).toNat < S100000.size a)
instance k0_chk72.dec : ∀ (v329 : IVec S16 32), Decidable (k0_chk72 v329) := fun v329 => decidable_of_iff' _ (Iff.of_eq (k0_chk72.eq_1 v329))
theorem k0_idx72_inb : ∀ (v329 : IVec S16 32) (k0_hw72 : k0_chk72 v329), ∀ a x, ((![v329] : Fin 1 → IVec S16 32) a x).toNat < S100000.size a := fun v329 k0_hw72 => k0_hw72
def k0_off79 (k0_t3 : Fin k0_t3_loop.trips) : Fin 2 → Nat :=
  let c22_i32 : BitVec 32 := 22#32
  let v340 : Index := Scalar.indexCast c22_i32
  let c0_i32_61 : BitVec 32 := 0#32
  let c1_i32_63 : BitVec 32 := 1#32
  let arg19 : BitVec 32 := Scf.iv c0_i32_61 c1_i32_63 k0_t3
  let c16_i32_159 : BitVec 32 := 16#32
  let v339 : BitVec 32 := Scalar.muli arg19 c16_i32_159
  let v341 : Index := Scalar.indexCast v339
  ![22, v341.toNat]

def k0_chk73 (v342 : IVec S16 32) : Prop :=
  (∀ a x, ((![v342] : Fin 1 → IVec S16 32) a x).toNat < S100000.size a)
instance k0_chk73.dec : ∀ (v342 : IVec S16 32), Decidable (k0_chk73 v342) := fun v342 => decidable_of_iff' _ (Iff.of_eq (k0_chk73.eq_1 v342))
theorem k0_idx73_inb : ∀ (v342 : IVec S16 32) (k0_hw73 : k0_chk73 v342), ∀ a x, ((![v342] : Fin 1 → IVec S16 32) a x).toNat < S100000.size a := fun v342 k0_hw73 => k0_hw73
def k0_off80 (k0_t3 : Fin k0_t3_loop.trips) : Fin 2 → Nat :=
  let c23_i32 : BitVec 32 := 23#32
  let v353 : Index := Scalar.indexCast c23_i32
  let c0_i32_61 : BitVec 32 := 0#32
  let c1_i32_63 : BitVec 32 := 1#32
  let arg19 : BitVec 32 := Scf.iv c0_i32_61 c1_i32_63 k0_t3
  let c16_i32_163 : BitVec 32 := 16#32
  let v352 : BitVec 32 := Scalar.muli arg19 c16_i32_163
  let v354 : Index := Scalar.indexCast v352
  ![23, v354.toNat]

def k0_chk74 (v355 : IVec S16 32) : Prop :=
  (∀ a x, ((![v355] : Fin 1 → IVec S16 32) a x).toNat < S100000.size a)
instance k0_chk74.dec : ∀ (v355 : IVec S16 32), Decidable (k0_chk74 v355) := fun v355 => decidable_of_iff' _ (Iff.of_eq (k0_chk74.eq_1 v355))
theorem k0_idx74_inb : ∀ (v355 : IVec S16 32) (k0_hw74 : k0_chk74 v355), ∀ a x, ((![v355] : Fin 1 → IVec S16 32) a x).toNat < S100000.size a := fun v355 k0_hw74 => k0_hw74
def k0_off81 (k0_t3 : Fin k0_t3_loop.trips) : Fin 2 → Nat :=
  let c24_i32 : BitVec 32 := 24#32
  let v366 : Index := Scalar.indexCast c24_i32
  let c0_i32_61 : BitVec 32 := 0#32
  let c1_i32_63 : BitVec 32 := 1#32
  let arg19 : BitVec 32 := Scf.iv c0_i32_61 c1_i32_63 k0_t3
  let c16_i32_167 : BitVec 32 := 16#32
  let v365 : BitVec 32 := Scalar.muli arg19 c16_i32_167
  let v367 : Index := Scalar.indexCast v365
  ![24, v367.toNat]

def k0_chk75 (v368 : IVec S16 32) : Prop :=
  (∀ a x, ((![v368] : Fin 1 → IVec S16 32) a x).toNat < S100000.size a)
instance k0_chk75.dec : ∀ (v368 : IVec S16 32), Decidable (k0_chk75 v368) := fun v368 => decidable_of_iff' _ (Iff.of_eq (k0_chk75.eq_1 v368))
theorem k0_idx75_inb : ∀ (v368 : IVec S16 32) (k0_hw75 : k0_chk75 v368), ∀ a x, ((![v368] : Fin 1 → IVec S16 32) a x).toNat < S100000.size a := fun v368 k0_hw75 => k0_hw75
def k0_off82 (k0_t3 : Fin k0_t3_loop.trips) : Fin 2 → Nat :=
  let c25_i32 : BitVec 32 := 25#32
  let v379 : Index := Scalar.indexCast c25_i32
  let c0_i32_61 : BitVec 32 := 0#32
  let c1_i32_63 : BitVec 32 := 1#32
  let arg19 : BitVec 32 := Scf.iv c0_i32_61 c1_i32_63 k0_t3
  let c16_i32_171 : BitVec 32 := 16#32
  let v378 : BitVec 32 := Scalar.muli arg19 c16_i32_171
  let v380 : Index := Scalar.indexCast v378
  ![25, v380.toNat]

def k0_chk76 (v381 : IVec S16 32) : Prop :=
  (∀ a x, ((![v381] : Fin 1 → IVec S16 32) a x).toNat < S100000.size a)
instance k0_chk76.dec : ∀ (v381 : IVec S16 32), Decidable (k0_chk76 v381) := fun v381 => decidable_of_iff' _ (Iff.of_eq (k0_chk76.eq_1 v381))
theorem k0_idx76_inb : ∀ (v381 : IVec S16 32) (k0_hw76 : k0_chk76 v381), ∀ a x, ((![v381] : Fin 1 → IVec S16 32) a x).toNat < S100000.size a := fun v381 k0_hw76 => k0_hw76
def k0_off83 (k0_t3 : Fin k0_t3_loop.trips) : Fin 2 → Nat :=
  let c26_i32_176 : BitVec 32 := 26#32
  let v392 : Index := Scalar.indexCast c26_i32_176
  let c0_i32_61 : BitVec 32 := 0#32
  let c1_i32_63 : BitVec 32 := 1#32
  let arg19 : BitVec 32 := Scf.iv c0_i32_61 c1_i32_63 k0_t3
  let c16_i32_175 : BitVec 32 := 16#32
  let v391 : BitVec 32 := Scalar.muli arg19 c16_i32_175
  let v393 : Index := Scalar.indexCast v391
  ![26, v393.toNat]

def k0_chk77 (v394 : IVec S16 32) : Prop :=
  (∀ a x, ((![v394] : Fin 1 → IVec S16 32) a x).toNat < S100000.size a)
instance k0_chk77.dec : ∀ (v394 : IVec S16 32), Decidable (k0_chk77 v394) := fun v394 => decidable_of_iff' _ (Iff.of_eq (k0_chk77.eq_1 v394))
theorem k0_idx77_inb : ∀ (v394 : IVec S16 32) (k0_hw77 : k0_chk77 v394), ∀ a x, ((![v394] : Fin 1 → IVec S16 32) a x).toNat < S100000.size a := fun v394 k0_hw77 => k0_hw77
def k0_off84 (k0_t3 : Fin k0_t3_loop.trips) : Fin 2 → Nat :=
  let c27_i32 : BitVec 32 := 27#32
  let v405 : Index := Scalar.indexCast c27_i32
  let c0_i32_61 : BitVec 32 := 0#32
  let c1_i32_63 : BitVec 32 := 1#32
  let arg19 : BitVec 32 := Scf.iv c0_i32_61 c1_i32_63 k0_t3
  let c16_i32_180 : BitVec 32 := 16#32
  let v404 : BitVec 32 := Scalar.muli arg19 c16_i32_180
  let v406 : Index := Scalar.indexCast v404
  ![27, v406.toNat]

def k0_chk78 (v407 : IVec S16 32) : Prop :=
  (∀ a x, ((![v407] : Fin 1 → IVec S16 32) a x).toNat < S100000.size a)
instance k0_chk78.dec : ∀ (v407 : IVec S16 32), Decidable (k0_chk78 v407) := fun v407 => decidable_of_iff' _ (Iff.of_eq (k0_chk78.eq_1 v407))
theorem k0_idx78_inb : ∀ (v407 : IVec S16 32) (k0_hw78 : k0_chk78 v407), ∀ a x, ((![v407] : Fin 1 → IVec S16 32) a x).toNat < S100000.size a := fun v407 k0_hw78 => k0_hw78
def k0_off85 (k0_t3 : Fin k0_t3_loop.trips) : Fin 2 → Nat :=
  let c28_i32 : BitVec 32 := 28#32
  let v418 : Index := Scalar.indexCast c28_i32
  let c0_i32_61 : BitVec 32 := 0#32
  let c1_i32_63 : BitVec 32 := 1#32
  let arg19 : BitVec 32 := Scf.iv c0_i32_61 c1_i32_63 k0_t3
  let c16_i32_184 : BitVec 32 := 16#32
  let v417 : BitVec 32 := Scalar.muli arg19 c16_i32_184
  let v419 : Index := Scalar.indexCast v417
  ![28, v419.toNat]

def k0_chk79 (v420 : IVec S16 32) : Prop :=
  (∀ a x, ((![v420] : Fin 1 → IVec S16 32) a x).toNat < S100000.size a)
instance k0_chk79.dec : ∀ (v420 : IVec S16 32), Decidable (k0_chk79 v420) := fun v420 => decidable_of_iff' _ (Iff.of_eq (k0_chk79.eq_1 v420))
theorem k0_idx79_inb : ∀ (v420 : IVec S16 32) (k0_hw79 : k0_chk79 v420), ∀ a x, ((![v420] : Fin 1 → IVec S16 32) a x).toNat < S100000.size a := fun v420 k0_hw79 => k0_hw79
def k0_off86 (k0_t3 : Fin k0_t3_loop.trips) : Fin 2 → Nat :=
  let c29_i32 : BitVec 32 := 29#32
  let v431 : Index := Scalar.indexCast c29_i32
  let c0_i32_61 : BitVec 32 := 0#32
  let c1_i32_63 : BitVec 32 := 1#32
  let arg19 : BitVec 32 := Scf.iv c0_i32_61 c1_i32_63 k0_t3
  let c16_i32_188 : BitVec 32 := 16#32
  let v430 : BitVec 32 := Scalar.muli arg19 c16_i32_188
  let v432 : Index := Scalar.indexCast v430
  ![29, v432.toNat]

def k0_chk80 (v433 : IVec S16 32) : Prop :=
  (∀ a x, ((![v433] : Fin 1 → IVec S16 32) a x).toNat < S100000.size a)
instance k0_chk80.dec : ∀ (v433 : IVec S16 32), Decidable (k0_chk80 v433) := fun v433 => decidable_of_iff' _ (Iff.of_eq (k0_chk80.eq_1 v433))
theorem k0_idx80_inb : ∀ (v433 : IVec S16 32) (k0_hw80 : k0_chk80 v433), ∀ a x, ((![v433] : Fin 1 → IVec S16 32) a x).toNat < S100000.size a := fun v433 k0_hw80 => k0_hw80
def k0_off87 (k0_t3 : Fin k0_t3_loop.trips) : Fin 2 → Nat :=
  let c30_i32_193 : BitVec 32 := 30#32
  let v444 : Index := Scalar.indexCast c30_i32_193
  let c0_i32_61 : BitVec 32 := 0#32
  let c1_i32_63 : BitVec 32 := 1#32
  let arg19 : BitVec 32 := Scf.iv c0_i32_61 c1_i32_63 k0_t3
  let c16_i32_192 : BitVec 32 := 16#32
  let v443 : BitVec 32 := Scalar.muli arg19 c16_i32_192
  let v445 : Index := Scalar.indexCast v443
  ![30, v445.toNat]

def k0_chk81 (v446 : IVec S16 32) : Prop :=
  (∀ a x, ((![v446] : Fin 1 → IVec S16 32) a x).toNat < S100000.size a)
instance k0_chk81.dec : ∀ (v446 : IVec S16 32), Decidable (k0_chk81 v446) := fun v446 => decidable_of_iff' _ (Iff.of_eq (k0_chk81.eq_1 v446))
theorem k0_idx81_inb : ∀ (v446 : IVec S16 32) (k0_hw81 : k0_chk81 v446), ∀ a x, ((![v446] : Fin 1 → IVec S16 32) a x).toNat < S100000.size a := fun v446 k0_hw81 => k0_hw81
def k0_off88 (k0_t3 : Fin k0_t3_loop.trips) : Fin 2 → Nat :=
  let c31_i32_198 : BitVec 32 := 31#32
  let v457 : Index := Scalar.indexCast c31_i32_198
  let c0_i32_61 : BitVec 32 := 0#32
  let c1_i32_63 : BitVec 32 := 1#32
  let arg19 : BitVec 32 := Scf.iv c0_i32_61 c1_i32_63 k0_t3
  let c16_i32_197 : BitVec 32 := 16#32
  let v456 : BitVec 32 := Scalar.muli arg19 c16_i32_197
  let v458 : Index := Scalar.indexCast v456
  ![31, v458.toNat]

def k0_chk82 (v459 : IVec S16 32) : Prop :=
  (∀ a x, ((![v459] : Fin 1 → IVec S16 32) a x).toNat < S100000.size a)
instance k0_chk82.dec : ∀ (v459 : IVec S16 32), Decidable (k0_chk82 v459) := fun v459 => decidable_of_iff' _ (Iff.of_eq (k0_chk82.eq_1 v459))
theorem k0_idx82_inb : ∀ (v459 : IVec S16 32) (k0_hw82 : k0_chk82 v459), ∀ a x, ((![v459] : Fin 1 → IVec S16 32) a x).toNat < S100000.size a := fun v459 k0_hw82 => k0_hw82
def k0_off89 (k0_t3 : Fin k0_t3_loop.trips) : Fin 2 → Nat :=
  let c32_i32_203 : BitVec 32 := 32#32
  let v470 : Index := Scalar.indexCast c32_i32_203
  let c0_i32_61 : BitVec 32 := 0#32
  let c1_i32_63 : BitVec 32 := 1#32
  let arg19 : BitVec 32 := Scf.iv c0_i32_61 c1_i32_63 k0_t3
  let c16_i32_202 : BitVec 32 := 16#32
  let v469 : BitVec 32 := Scalar.muli arg19 c16_i32_202
  let v471 : Index := Scalar.indexCast v469
  ![32, v471.toNat]

def k0_chk83 (v472 : IVec S16 32) : Prop :=
  (∀ a x, ((![v472] : Fin 1 → IVec S16 32) a x).toNat < S100000.size a)
instance k0_chk83.dec : ∀ (v472 : IVec S16 32), Decidable (k0_chk83 v472) := fun v472 => decidable_of_iff' _ (Iff.of_eq (k0_chk83.eq_1 v472))
theorem k0_idx83_inb : ∀ (v472 : IVec S16 32) (k0_hw83 : k0_chk83 v472), ∀ a x, ((![v472] : Fin 1 → IVec S16 32) a x).toNat < S100000.size a := fun v472 k0_hw83 => k0_hw83
def k0_off90 (k0_t3 : Fin k0_t3_loop.trips) : Fin 2 → Nat :=
  let c33_i32 : BitVec 32 := 33#32
  let v483 : Index := Scalar.indexCast c33_i32
  let c0_i32_61 : BitVec 32 := 0#32
  let c1_i32_63 : BitVec 32 := 1#32
  let arg19 : BitVec 32 := Scf.iv c0_i32_61 c1_i32_63 k0_t3
  let c16_i32_207 : BitVec 32 := 16#32
  let v482 : BitVec 32 := Scalar.muli arg19 c16_i32_207
  let v484 : Index := Scalar.indexCast v482
  ![33, v484.toNat]

def k0_chk84 (v485 : IVec S16 32) : Prop :=
  (∀ a x, ((![v485] : Fin 1 → IVec S16 32) a x).toNat < S100000.size a)
instance k0_chk84.dec : ∀ (v485 : IVec S16 32), Decidable (k0_chk84 v485) := fun v485 => decidable_of_iff' _ (Iff.of_eq (k0_chk84.eq_1 v485))
theorem k0_idx84_inb : ∀ (v485 : IVec S16 32) (k0_hw84 : k0_chk84 v485), ∀ a x, ((![v485] : Fin 1 → IVec S16 32) a x).toNat < S100000.size a := fun v485 k0_hw84 => k0_hw84
def k0_off91 (k0_t3 : Fin k0_t3_loop.trips) : Fin 2 → Nat :=
  let c34_i32 : BitVec 32 := 34#32
  let v496 : Index := Scalar.indexCast c34_i32
  let c0_i32_61 : BitVec 32 := 0#32
  let c1_i32_63 : BitVec 32 := 1#32
  let arg19 : BitVec 32 := Scf.iv c0_i32_61 c1_i32_63 k0_t3
  let c16_i32_211 : BitVec 32 := 16#32
  let v495 : BitVec 32 := Scalar.muli arg19 c16_i32_211
  let v497 : Index := Scalar.indexCast v495
  ![34, v497.toNat]

def k0_chk85 (v498 : IVec S16 32) : Prop :=
  (∀ a x, ((![v498] : Fin 1 → IVec S16 32) a x).toNat < S100000.size a)
instance k0_chk85.dec : ∀ (v498 : IVec S16 32), Decidable (k0_chk85 v498) := fun v498 => decidable_of_iff' _ (Iff.of_eq (k0_chk85.eq_1 v498))
theorem k0_idx85_inb : ∀ (v498 : IVec S16 32) (k0_hw85 : k0_chk85 v498), ∀ a x, ((![v498] : Fin 1 → IVec S16 32) a x).toNat < S100000.size a := fun v498 k0_hw85 => k0_hw85
def k0_off92 (k0_t3 : Fin k0_t3_loop.trips) : Fin 2 → Nat :=
  let c35_i32 : BitVec 32 := 35#32
  let v509 : Index := Scalar.indexCast c35_i32
  let c0_i32_61 : BitVec 32 := 0#32
  let c1_i32_63 : BitVec 32 := 1#32
  let arg19 : BitVec 32 := Scf.iv c0_i32_61 c1_i32_63 k0_t3
  let c16_i32_215 : BitVec 32 := 16#32
  let v508 : BitVec 32 := Scalar.muli arg19 c16_i32_215
  let v510 : Index := Scalar.indexCast v508
  ![35, v510.toNat]

def k0_chk86 (v511 : IVec S16 32) : Prop :=
  (∀ a x, ((![v511] : Fin 1 → IVec S16 32) a x).toNat < S100000.size a)
instance k0_chk86.dec : ∀ (v511 : IVec S16 32), Decidable (k0_chk86 v511) := fun v511 => decidable_of_iff' _ (Iff.of_eq (k0_chk86.eq_1 v511))
theorem k0_idx86_inb : ∀ (v511 : IVec S16 32) (k0_hw86 : k0_chk86 v511), ∀ a x, ((![v511] : Fin 1 → IVec S16 32) a x).toNat < S100000.size a := fun v511 k0_hw86 => k0_hw86
def k0_off93 (k0_t3 : Fin k0_t3_loop.trips) : Fin 2 → Nat :=
  let c36_i32 : BitVec 32 := 36#32
  let v522 : Index := Scalar.indexCast c36_i32
  let c0_i32_61 : BitVec 32 := 0#32
  let c1_i32_63 : BitVec 32 := 1#32
  let arg19 : BitVec 32 := Scf.iv c0_i32_61 c1_i32_63 k0_t3
  let c16_i32_219 : BitVec 32 := 16#32
  let v521 : BitVec 32 := Scalar.muli arg19 c16_i32_219
  let v523 : Index := Scalar.indexCast v521
  ![36, v523.toNat]

def k0_chk87 (v524 : IVec S16 32) : Prop :=
  (∀ a x, ((![v524] : Fin 1 → IVec S16 32) a x).toNat < S100000.size a)
instance k0_chk87.dec : ∀ (v524 : IVec S16 32), Decidable (k0_chk87 v524) := fun v524 => decidable_of_iff' _ (Iff.of_eq (k0_chk87.eq_1 v524))
theorem k0_idx87_inb : ∀ (v524 : IVec S16 32) (k0_hw87 : k0_chk87 v524), ∀ a x, ((![v524] : Fin 1 → IVec S16 32) a x).toNat < S100000.size a := fun v524 k0_hw87 => k0_hw87
def k0_off94 (k0_t3 : Fin k0_t3_loop.trips) : Fin 2 → Nat :=
  let c37_i32 : BitVec 32 := 37#32
  let v535 : Index := Scalar.indexCast c37_i32
  let c0_i32_61 : BitVec 32 := 0#32
  let c1_i32_63 : BitVec 32 := 1#32
  let arg19 : BitVec 32 := Scf.iv c0_i32_61 c1_i32_63 k0_t3
  let c16_i32_223 : BitVec 32 := 16#32
  let v534 : BitVec 32 := Scalar.muli arg19 c16_i32_223
  let v536 : Index := Scalar.indexCast v534
  ![37, v536.toNat]

def k0_chk88 (v537 : IVec S16 32) : Prop :=
  (∀ a x, ((![v537] : Fin 1 → IVec S16 32) a x).toNat < S100000.size a)
instance k0_chk88.dec : ∀ (v537 : IVec S16 32), Decidable (k0_chk88 v537) := fun v537 => decidable_of_iff' _ (Iff.of_eq (k0_chk88.eq_1 v537))
theorem k0_idx88_inb : ∀ (v537 : IVec S16 32) (k0_hw88 : k0_chk88 v537), ∀ a x, ((![v537] : Fin 1 → IVec S16 32) a x).toNat < S100000.size a := fun v537 k0_hw88 => k0_hw88
def k0_off95 (k0_t3 : Fin k0_t3_loop.trips) : Fin 2 → Nat :=
  let c38_i32 : BitVec 32 := 38#32
  let v548 : Index := Scalar.indexCast c38_i32
  let c0_i32_61 : BitVec 32 := 0#32
  let c1_i32_63 : BitVec 32 := 1#32
  let arg19 : BitVec 32 := Scf.iv c0_i32_61 c1_i32_63 k0_t3
  let c16_i32_227 : BitVec 32 := 16#32
  let v547 : BitVec 32 := Scalar.muli arg19 c16_i32_227
  let v549 : Index := Scalar.indexCast v547
  ![38, v549.toNat]

def k0_chk89 (v550 : IVec S16 32) : Prop :=
  (∀ a x, ((![v550] : Fin 1 → IVec S16 32) a x).toNat < S100000.size a)
instance k0_chk89.dec : ∀ (v550 : IVec S16 32), Decidable (k0_chk89 v550) := fun v550 => decidable_of_iff' _ (Iff.of_eq (k0_chk89.eq_1 v550))
theorem k0_idx89_inb : ∀ (v550 : IVec S16 32) (k0_hw89 : k0_chk89 v550), ∀ a x, ((![v550] : Fin 1 → IVec S16 32) a x).toNat < S100000.size a := fun v550 k0_hw89 => k0_hw89
def k0_off96 (k0_t3 : Fin k0_t3_loop.trips) : Fin 2 → Nat :=
  let c39_i32 : BitVec 32 := 39#32
  let v561 : Index := Scalar.indexCast c39_i32
  let c0_i32_61 : BitVec 32 := 0#32
  let c1_i32_63 : BitVec 32 := 1#32
  let arg19 : BitVec 32 := Scf.iv c0_i32_61 c1_i32_63 k0_t3
  let c16_i32_231 : BitVec 32 := 16#32
  let v560 : BitVec 32 := Scalar.muli arg19 c16_i32_231
  let v562 : Index := Scalar.indexCast v560
  ![39, v562.toNat]

def k0_chk90 (v563 : IVec S16 32) : Prop :=
  (∀ a x, ((![v563] : Fin 1 → IVec S16 32) a x).toNat < S100000.size a)
instance k0_chk90.dec : ∀ (v563 : IVec S16 32), Decidable (k0_chk90 v563) := fun v563 => decidable_of_iff' _ (Iff.of_eq (k0_chk90.eq_1 v563))
theorem k0_idx90_inb : ∀ (v563 : IVec S16 32) (k0_hw90 : k0_chk90 v563), ∀ a x, ((![v563] : Fin 1 → IVec S16 32) a x).toNat < S100000.size a := fun v563 k0_hw90 => k0_hw90
def k0_off97 (k0_t3 : Fin k0_t3_loop.trips) : Fin 2 → Nat :=
  let c40_i32 : BitVec 32 := 40#32
  let v574 : Index := Scalar.indexCast c40_i32
  let c0_i32_61 : BitVec 32 := 0#32
  let c1_i32_63 : BitVec 32 := 1#32
  let arg19 : BitVec 32 := Scf.iv c0_i32_61 c1_i32_63 k0_t3
  let c16_i32_235 : BitVec 32 := 16#32
  let v573 : BitVec 32 := Scalar.muli arg19 c16_i32_235
  let v575 : Index := Scalar.indexCast v573
  ![40, v575.toNat]

def k0_chk91 (v576 : IVec S16 32) : Prop :=
  (∀ a x, ((![v576] : Fin 1 → IVec S16 32) a x).toNat < S100000.size a)
instance k0_chk91.dec : ∀ (v576 : IVec S16 32), Decidable (k0_chk91 v576) := fun v576 => decidable_of_iff' _ (Iff.of_eq (k0_chk91.eq_1 v576))
theorem k0_idx91_inb : ∀ (v576 : IVec S16 32) (k0_hw91 : k0_chk91 v576), ∀ a x, ((![v576] : Fin 1 → IVec S16 32) a x).toNat < S100000.size a := fun v576 k0_hw91 => k0_hw91
def k0_off98 (k0_t3 : Fin k0_t3_loop.trips) : Fin 2 → Nat :=
  let c41_i32 : BitVec 32 := 41#32
  let v587 : Index := Scalar.indexCast c41_i32
  let c0_i32_61 : BitVec 32 := 0#32
  let c1_i32_63 : BitVec 32 := 1#32
  let arg19 : BitVec 32 := Scf.iv c0_i32_61 c1_i32_63 k0_t3
  let c16_i32_239 : BitVec 32 := 16#32
  let v586 : BitVec 32 := Scalar.muli arg19 c16_i32_239
  let v588 : Index := Scalar.indexCast v586
  ![41, v588.toNat]

def k0_chk92 (v589 : IVec S16 32) : Prop :=
  (∀ a x, ((![v589] : Fin 1 → IVec S16 32) a x).toNat < S100000.size a)
instance k0_chk92.dec : ∀ (v589 : IVec S16 32), Decidable (k0_chk92 v589) := fun v589 => decidable_of_iff' _ (Iff.of_eq (k0_chk92.eq_1 v589))
theorem k0_idx92_inb : ∀ (v589 : IVec S16 32) (k0_hw92 : k0_chk92 v589), ∀ a x, ((![v589] : Fin 1 → IVec S16 32) a x).toNat < S100000.size a := fun v589 k0_hw92 => k0_hw92
def k0_off99 (k0_t3 : Fin k0_t3_loop.trips) : Fin 2 → Nat :=
  let c42_i32 : BitVec 32 := 42#32
  let v600 : Index := Scalar.indexCast c42_i32
  let c0_i32_61 : BitVec 32 := 0#32
  let c1_i32_63 : BitVec 32 := 1#32
  let arg19 : BitVec 32 := Scf.iv c0_i32_61 c1_i32_63 k0_t3
  let c16_i32_243 : BitVec 32 := 16#32
  let v599 : BitVec 32 := Scalar.muli arg19 c16_i32_243
  let v601 : Index := Scalar.indexCast v599
  ![42, v601.toNat]

def k0_chk93 (v602 : IVec S16 32) : Prop :=
  (∀ a x, ((![v602] : Fin 1 → IVec S16 32) a x).toNat < S100000.size a)
instance k0_chk93.dec : ∀ (v602 : IVec S16 32), Decidable (k0_chk93 v602) := fun v602 => decidable_of_iff' _ (Iff.of_eq (k0_chk93.eq_1 v602))
theorem k0_idx93_inb : ∀ (v602 : IVec S16 32) (k0_hw93 : k0_chk93 v602), ∀ a x, ((![v602] : Fin 1 → IVec S16 32) a x).toNat < S100000.size a := fun v602 k0_hw93 => k0_hw93
def k0_off100 (k0_t3 : Fin k0_t3_loop.trips) : Fin 2 → Nat :=
  let c43_i32 : BitVec 32 := 43#32
  let v613 : Index := Scalar.indexCast c43_i32
  let c0_i32_61 : BitVec 32 := 0#32
  let c1_i32_63 : BitVec 32 := 1#32
  let arg19 : BitVec 32 := Scf.iv c0_i32_61 c1_i32_63 k0_t3
  let c16_i32_247 : BitVec 32 := 16#32
  let v612 : BitVec 32 := Scalar.muli arg19 c16_i32_247
  let v614 : Index := Scalar.indexCast v612
  ![43, v614.toNat]

def k0_chk94 (v615 : IVec S16 32) : Prop :=
  (∀ a x, ((![v615] : Fin 1 → IVec S16 32) a x).toNat < S100000.size a)
instance k0_chk94.dec : ∀ (v615 : IVec S16 32), Decidable (k0_chk94 v615) := fun v615 => decidable_of_iff' _ (Iff.of_eq (k0_chk94.eq_1 v615))
theorem k0_idx94_inb : ∀ (v615 : IVec S16 32) (k0_hw94 : k0_chk94 v615), ∀ a x, ((![v615] : Fin 1 → IVec S16 32) a x).toNat < S100000.size a := fun v615 k0_hw94 => k0_hw94
def k0_off101 (k0_t3 : Fin k0_t3_loop.trips) : Fin 2 → Nat :=
  let c44_i32 : BitVec 32 := 44#32
  let v626 : Index := Scalar.indexCast c44_i32
  let c0_i32_61 : BitVec 32 := 0#32
  let c1_i32_63 : BitVec 32 := 1#32
  let arg19 : BitVec 32 := Scf.iv c0_i32_61 c1_i32_63 k0_t3
  let c16_i32_251 : BitVec 32 := 16#32
  let v625 : BitVec 32 := Scalar.muli arg19 c16_i32_251
  let v627 : Index := Scalar.indexCast v625
  ![44, v627.toNat]

def k0_chk95 (v628 : IVec S16 32) : Prop :=
  (∀ a x, ((![v628] : Fin 1 → IVec S16 32) a x).toNat < S100000.size a)
instance k0_chk95.dec : ∀ (v628 : IVec S16 32), Decidable (k0_chk95 v628) := fun v628 => decidable_of_iff' _ (Iff.of_eq (k0_chk95.eq_1 v628))
theorem k0_idx95_inb : ∀ (v628 : IVec S16 32) (k0_hw95 : k0_chk95 v628), ∀ a x, ((![v628] : Fin 1 → IVec S16 32) a x).toNat < S100000.size a := fun v628 k0_hw95 => k0_hw95
def k0_off102 (k0_t3 : Fin k0_t3_loop.trips) : Fin 2 → Nat :=
  let c45_i32 : BitVec 32 := 45#32
  let v639 : Index := Scalar.indexCast c45_i32
  let c0_i32_61 : BitVec 32 := 0#32
  let c1_i32_63 : BitVec 32 := 1#32
  let arg19 : BitVec 32 := Scf.iv c0_i32_61 c1_i32_63 k0_t3
  let c16_i32_255 : BitVec 32 := 16#32
  let v638 : BitVec 32 := Scalar.muli arg19 c16_i32_255
  let v640 : Index := Scalar.indexCast v638
  ![45, v640.toNat]

def k0_chk96 (v641 : IVec S16 32) : Prop :=
  (∀ a x, ((![v641] : Fin 1 → IVec S16 32) a x).toNat < S100000.size a)
instance k0_chk96.dec : ∀ (v641 : IVec S16 32), Decidable (k0_chk96 v641) := fun v641 => decidable_of_iff' _ (Iff.of_eq (k0_chk96.eq_1 v641))
theorem k0_idx96_inb : ∀ (v641 : IVec S16 32) (k0_hw96 : k0_chk96 v641), ∀ a x, ((![v641] : Fin 1 → IVec S16 32) a x).toNat < S100000.size a := fun v641 k0_hw96 => k0_hw96
def k0_off103 (k0_t3 : Fin k0_t3_loop.trips) : Fin 2 → Nat :=
  let c46_i32 : BitVec 32 := 46#32
  let v652 : Index := Scalar.indexCast c46_i32
  let c0_i32_61 : BitVec 32 := 0#32
  let c1_i32_63 : BitVec 32 := 1#32
  let arg19 : BitVec 32 := Scf.iv c0_i32_61 c1_i32_63 k0_t3
  let c16_i32_259 : BitVec 32 := 16#32
  let v651 : BitVec 32 := Scalar.muli arg19 c16_i32_259
  let v653 : Index := Scalar.indexCast v651
  ![46, v653.toNat]

def k0_chk97 (v654 : IVec S16 32) : Prop :=
  (∀ a x, ((![v654] : Fin 1 → IVec S16 32) a x).toNat < S100000.size a)
instance k0_chk97.dec : ∀ (v654 : IVec S16 32), Decidable (k0_chk97 v654) := fun v654 => decidable_of_iff' _ (Iff.of_eq (k0_chk97.eq_1 v654))
theorem k0_idx97_inb : ∀ (v654 : IVec S16 32) (k0_hw97 : k0_chk97 v654), ∀ a x, ((![v654] : Fin 1 → IVec S16 32) a x).toNat < S100000.size a := fun v654 k0_hw97 => k0_hw97
def k0_off104 (k0_t3 : Fin k0_t3_loop.trips) : Fin 2 → Nat :=
  let c47_i32 : BitVec 32 := 47#32
  let v665 : Index := Scalar.indexCast c47_i32
  let c0_i32_61 : BitVec 32 := 0#32
  let c1_i32_63 : BitVec 32 := 1#32
  let arg19 : BitVec 32 := Scf.iv c0_i32_61 c1_i32_63 k0_t3
  let c16_i32_263 : BitVec 32 := 16#32
  let v664 : BitVec 32 := Scalar.muli arg19 c16_i32_263
  let v666 : Index := Scalar.indexCast v664
  ![47, v666.toNat]

def k0_chk98 (v667 : IVec S16 32) : Prop :=
  (∀ a x, ((![v667] : Fin 1 → IVec S16 32) a x).toNat < S100000.size a)
instance k0_chk98.dec : ∀ (v667 : IVec S16 32), Decidable (k0_chk98 v667) := fun v667 => decidable_of_iff' _ (Iff.of_eq (k0_chk98.eq_1 v667))
theorem k0_idx98_inb : ∀ (v667 : IVec S16 32) (k0_hw98 : k0_chk98 v667), ∀ a x, ((![v667] : Fin 1 → IVec S16 32) a x).toNat < S100000.size a := fun v667 k0_hw98 => k0_hw98
def k0_off105 (k0_t3 : Fin k0_t3_loop.trips) : Fin 2 → Nat :=
  let c48_i32 : BitVec 32 := 48#32
  let v678 : Index := Scalar.indexCast c48_i32
  let c0_i32_61 : BitVec 32 := 0#32
  let c1_i32_63 : BitVec 32 := 1#32
  let arg19 : BitVec 32 := Scf.iv c0_i32_61 c1_i32_63 k0_t3
  let c16_i32_267 : BitVec 32 := 16#32
  let v677 : BitVec 32 := Scalar.muli arg19 c16_i32_267
  let v679 : Index := Scalar.indexCast v677
  ![48, v679.toNat]

def k0_chk99 (v680 : IVec S16 32) : Prop :=
  (∀ a x, ((![v680] : Fin 1 → IVec S16 32) a x).toNat < S100000.size a)
instance k0_chk99.dec : ∀ (v680 : IVec S16 32), Decidable (k0_chk99 v680) := fun v680 => decidable_of_iff' _ (Iff.of_eq (k0_chk99.eq_1 v680))
theorem k0_idx99_inb : ∀ (v680 : IVec S16 32) (k0_hw99 : k0_chk99 v680), ∀ a x, ((![v680] : Fin 1 → IVec S16 32) a x).toNat < S100000.size a := fun v680 k0_hw99 => k0_hw99
def k0_off106 (k0_t3 : Fin k0_t3_loop.trips) : Fin 2 → Nat :=
  let c49_i32 : BitVec 32 := 49#32
  let v691 : Index := Scalar.indexCast c49_i32
  let c0_i32_61 : BitVec 32 := 0#32
  let c1_i32_63 : BitVec 32 := 1#32
  let arg19 : BitVec 32 := Scf.iv c0_i32_61 c1_i32_63 k0_t3
  let c16_i32_271 : BitVec 32 := 16#32
  let v690 : BitVec 32 := Scalar.muli arg19 c16_i32_271
  let v692 : Index := Scalar.indexCast v690
  ![49, v692.toNat]

def k0_chk100 (v693 : IVec S16 32) : Prop :=
  (∀ a x, ((![v693] : Fin 1 → IVec S16 32) a x).toNat < S100000.size a)
instance k0_chk100.dec : ∀ (v693 : IVec S16 32), Decidable (k0_chk100 v693) := fun v693 => decidable_of_iff' _ (Iff.of_eq (k0_chk100.eq_1 v693))
theorem k0_idx100_inb : ∀ (v693 : IVec S16 32) (k0_hw100 : k0_chk100 v693), ∀ a x, ((![v693] : Fin 1 → IVec S16 32) a x).toNat < S100000.size a := fun v693 k0_hw100 => k0_hw100
def k0_off107 (k0_t1 : Fin k0_t1_loop.trips) (k0_t3 : Fin k0_t3_loop.trips) : Fin 2 → Nat :=
  let c2_i32_49 : BitVec 32 := 2#32
  let c0_i32_5 : BitVec 32 := 0#32
  let c1_i32 : BitVec 32 := 1#32
  let arg18 : BitVec 32 := Scf.iv c0_i32_5 c1_i32 k0_t1
  let v35 : BitVec 32 := Scalar.muli c2_i32_49 arg18
  let c1_i32_50 : BitVec 32 := 1#32
  let v36 : BitVec 32 := Scalar.addi v35 c1_i32_50
  let c128_i32_277 : BitVec 32 := 128#32
  let v707 : BitVec 32 := Scalar.muli v36 c128_i32_277
  let c0_i32_61 : BitVec 32 := 0#32
  let c1_i32_63 : BitVec 32 := 1#32
  let arg19 : BitVec 32 := Scf.iv c0_i32_61 c1_i32_63 k0_t3
  let c16_i32_278 : BitVec 32 := 16#32
  let v708 : BitVec 32 := Scalar.muli arg19 c16_i32_278
  let v709 : BitVec 32 := Scalar.addi v707 v708
  let c0_i32_280 : BitVec 32 := 0#32
  let v712 : BitVec 1 := Scalar.cmpi .sgt v709 c0_i32_280
  let v713 : BitVec 32 := Scalar.extui v712
  let c0_i32_281 : BitVec 32 := 0#32
  let v714 : BitVec 1 := Scalar.cmpi .slt v709 c0_i32_281
  let v715 : BitVec 32 := Scalar.extui v714
  let v716 : BitVec 32 := Scalar.subi v713 v715
  let c128_i32_279 : BitVec 32 := 128#32
  let c0_i32_282 : BitVec 32 := 0#32
  let v717 : BitVec 1 := Scalar.cmpi .sgt c128_i32_279 c0_i32_282
  let v718 : BitVec 32 := Scalar.extui v717
  let c0_i32_283 : BitVec 32 := 0#32
  let v719 : BitVec 1 := Scalar.cmpi .slt c128_i32_279 c0_i32_283
  let v720 : BitVec 32 := Scalar.extui v719
  let v721 : BitVec 32 := Scalar.subi v718 v720
  let v722 : BitVec 1 := Scalar.cmpi .ne v716 v721
  let v723 : BitVec 32 := Scalar.remsi v709 c128_i32_279
  let c0_i32_284 : BitVec 32 := 0#32
  let v724 : BitVec 1 := Scalar.cmpi .ne v723 c0_i32_284
  let v725 : BitVec 1 := Scalar.andi v722 v724
  let v711 : BitVec 32 := Scalar.divsi v709 c128_i32_279
  let c1_i32_285 : BitVec 32 := 1#32
  let v726 : BitVec 32 := Scalar.subi v711 c1_i32_285
  let v727 : BitVec 32 := Scalar.select v725 v726 v711
  let v738 : Index := Scalar.indexCast v727
  let c128_i32_286 : BitVec 32 := 128#32
  let c0_i32_287 : BitVec 32 := 0#32
  let v728 : BitVec 1 := Scalar.cmpi .eq c128_i32_286 c0_i32_287
  let c1_i32_288 : BitVec 32 := 1#32
  let v729 : BitVec 32 := Scalar.select v728 c1_i32_288 c128_i32_286
  let v730 : BitVec 32 := Scalar.remsi v709 v729
  let c0_i32_290 : BitVec 32 := 0#32
  let v732 : BitVec 1 := Scalar.cmpi .slt v730 c0_i32_290
  let c0_i32_291 : BitVec 32 := 0#32
  let v733 : BitVec 1 := Scalar.cmpi .slt v729 c0_i32_291
  let v734 : BitVec 1 := Scalar.xori v732 v733
  let c0_i32_289 : BitVec 32 := 0#32
  let v731 : BitVec 1 := Scalar.cmpi .ne v730 c0_i32_289
  let v735 : BitVec 1 := Scalar.andi v734 v731
  let v736 : BitVec 32 := Scalar.addi v730 v729
  let v737 : BitVec 32 := Scalar.select v735 v736 v730
  let v739 : Index := Scalar.indexCast v737
  ![v738.toNat, v739.toNat]
@[reducible] def k0_t4_loop : Scf.Loop 32 :=
  let c0_i32_16 : BitVec 32 := 0#32
  let c8_i32 : BitVec 32 := 8#32
  let v15 : BitVec 32 := Scalar.addi c0_i32_16 c8_i32
  let c1_i32_17 : BitVec 32 := 1#32
  ⟨c0_i32_16, v15, c1_i32_17⟩
def k0_off108 (k0_t4 : Fin k0_t4_loop.trips) : Fin 1 → Nat :=
  let c3840_i32 : BitVec 32 := 3840#32
  let c0_i32_16 : BitVec 32 := 0#32
  let c1_i32_17 : BitVec 32 := 1#32
  let arg18 : BitVec 32 := Scf.iv c0_i32_16 c1_i32_17 k0_t4
  let c16_i32 : BitVec 32 := 16#32
  let v23 : BitVec 32 := Scalar.muli arg18 c16_i32
  let v24 : BitVec 32 := Scalar.addi c3840_i32 v23
  let v25 : Index := Scalar.indexCast v24
  ![v25.toNat]
def k0_off109 (k0_t4 : Fin k0_t4_loop.trips) : Fin 2 → Nat :=
  let c0_i32_34 : BitVec 32 := 0#32
  let v29 : Index := Scalar.indexCast c0_i32_34
  let c0_i32_16 : BitVec 32 := 0#32
  let c1_i32_17 : BitVec 32 := 1#32
  let arg18 : BitVec 32 := Scf.iv c0_i32_16 c1_i32_17 k0_t4
  let c16_i32_33 : BitVec 32 := 16#32
  let v28 : BitVec 32 := Scalar.muli arg18 c16_i32_33
  let v30 : Index := Scalar.indexCast v28
  ![0, v30.toNat]

def k0_chk101 (v31 : IVec S16 32) : Prop :=
  (∀ a x, ((![v31] : Fin 1 → IVec S16 32) a x).toNat < S100000.size a)
instance k0_chk101.dec : ∀ (v31 : IVec S16 32), Decidable (k0_chk101 v31) := fun v31 => decidable_of_iff' _ (Iff.of_eq (k0_chk101.eq_1 v31))
theorem k0_idx101_inb : ∀ (v31 : IVec S16 32) (k0_hw101 : k0_chk101 v31), ∀ a x, ((![v31] : Fin 1 → IVec S16 32) a x).toNat < S100000.size a := fun v31 k0_hw101 => k0_hw101
def k0_off110 (k0_t4 : Fin k0_t4_loop.trips) : Fin 2 → Nat :=
  let c1_i32_39 : BitVec 32 := 1#32
  let v42 : Index := Scalar.indexCast c1_i32_39
  let c0_i32_16 : BitVec 32 := 0#32
  let c1_i32_17 : BitVec 32 := 1#32
  let arg18 : BitVec 32 := Scf.iv c0_i32_16 c1_i32_17 k0_t4
  let c16_i32_38 : BitVec 32 := 16#32
  let v41 : BitVec 32 := Scalar.muli arg18 c16_i32_38
  let v43 : Index := Scalar.indexCast v41
  ![1, v43.toNat]

def k0_chk102 (v44 : IVec S16 32) : Prop :=
  (∀ a x, ((![v44] : Fin 1 → IVec S16 32) a x).toNat < S100000.size a)
instance k0_chk102.dec : ∀ (v44 : IVec S16 32), Decidable (k0_chk102 v44) := fun v44 => decidable_of_iff' _ (Iff.of_eq (k0_chk102.eq_1 v44))
theorem k0_idx102_inb : ∀ (v44 : IVec S16 32) (k0_hw102 : k0_chk102 v44), ∀ a x, ((![v44] : Fin 1 → IVec S16 32) a x).toNat < S100000.size a := fun v44 k0_hw102 => k0_hw102
def k0_off111 (k0_t4 : Fin k0_t4_loop.trips) : Fin 2 → Nat :=
  let c2_i32_44 : BitVec 32 := 2#32
  let v55 : Index := Scalar.indexCast c2_i32_44
  let c0_i32_16 : BitVec 32 := 0#32
  let c1_i32_17 : BitVec 32 := 1#32
  let arg18 : BitVec 32 := Scf.iv c0_i32_16 c1_i32_17 k0_t4
  let c16_i32_43 : BitVec 32 := 16#32
  let v54 : BitVec 32 := Scalar.muli arg18 c16_i32_43
  let v56 : Index := Scalar.indexCast v54
  ![2, v56.toNat]

def k0_chk103 (v57 : IVec S16 32) : Prop :=
  (∀ a x, ((![v57] : Fin 1 → IVec S16 32) a x).toNat < S100000.size a)
instance k0_chk103.dec : ∀ (v57 : IVec S16 32), Decidable (k0_chk103 v57) := fun v57 => decidable_of_iff' _ (Iff.of_eq (k0_chk103.eq_1 v57))
theorem k0_idx103_inb : ∀ (v57 : IVec S16 32) (k0_hw103 : k0_chk103 v57), ∀ a x, ((![v57] : Fin 1 → IVec S16 32) a x).toNat < S100000.size a := fun v57 k0_hw103 => k0_hw103
def k0_off112 (k0_t4 : Fin k0_t4_loop.trips) : Fin 2 → Nat :=
  let c3_i32 : BitVec 32 := 3#32
  let v68 : Index := Scalar.indexCast c3_i32
  let c0_i32_16 : BitVec 32 := 0#32
  let c1_i32_17 : BitVec 32 := 1#32
  let arg18 : BitVec 32 := Scf.iv c0_i32_16 c1_i32_17 k0_t4
  let c16_i32_48 : BitVec 32 := 16#32
  let v67 : BitVec 32 := Scalar.muli arg18 c16_i32_48
  let v69 : Index := Scalar.indexCast v67
  ![3, v69.toNat]

def k0_chk104 (v70 : IVec S16 32) : Prop :=
  (∀ a x, ((![v70] : Fin 1 → IVec S16 32) a x).toNat < S100000.size a)
instance k0_chk104.dec : ∀ (v70 : IVec S16 32), Decidable (k0_chk104 v70) := fun v70 => decidable_of_iff' _ (Iff.of_eq (k0_chk104.eq_1 v70))
theorem k0_idx104_inb : ∀ (v70 : IVec S16 32) (k0_hw104 : k0_chk104 v70), ∀ a x, ((![v70] : Fin 1 → IVec S16 32) a x).toNat < S100000.size a := fun v70 k0_hw104 => k0_hw104
def k0_off113 (k0_t4 : Fin k0_t4_loop.trips) : Fin 2 → Nat :=
  let c4_i32 : BitVec 32 := 4#32
  let v81 : Index := Scalar.indexCast c4_i32
  let c0_i32_16 : BitVec 32 := 0#32
  let c1_i32_17 : BitVec 32 := 1#32
  let arg18 : BitVec 32 := Scf.iv c0_i32_16 c1_i32_17 k0_t4
  let c16_i32_52 : BitVec 32 := 16#32
  let v80 : BitVec 32 := Scalar.muli arg18 c16_i32_52
  let v82 : Index := Scalar.indexCast v80
  ![4, v82.toNat]

def k0_chk105 (v83 : IVec S16 32) : Prop :=
  (∀ a x, ((![v83] : Fin 1 → IVec S16 32) a x).toNat < S100000.size a)
instance k0_chk105.dec : ∀ (v83 : IVec S16 32), Decidable (k0_chk105 v83) := fun v83 => decidable_of_iff' _ (Iff.of_eq (k0_chk105.eq_1 v83))
theorem k0_idx105_inb : ∀ (v83 : IVec S16 32) (k0_hw105 : k0_chk105 v83), ∀ a x, ((![v83] : Fin 1 → IVec S16 32) a x).toNat < S100000.size a := fun v83 k0_hw105 => k0_hw105
def k0_off114 (k0_t4 : Fin k0_t4_loop.trips) : Fin 2 → Nat :=
  let c5_i32 : BitVec 32 := 5#32
  let v94 : Index := Scalar.indexCast c5_i32
  let c0_i32_16 : BitVec 32 := 0#32
  let c1_i32_17 : BitVec 32 := 1#32
  let arg18 : BitVec 32 := Scf.iv c0_i32_16 c1_i32_17 k0_t4
  let c16_i32_56 : BitVec 32 := 16#32
  let v93 : BitVec 32 := Scalar.muli arg18 c16_i32_56
  let v95 : Index := Scalar.indexCast v93
  ![5, v95.toNat]

def k0_chk106 (v96 : IVec S16 32) : Prop :=
  (∀ a x, ((![v96] : Fin 1 → IVec S16 32) a x).toNat < S100000.size a)
instance k0_chk106.dec : ∀ (v96 : IVec S16 32), Decidable (k0_chk106 v96) := fun v96 => decidable_of_iff' _ (Iff.of_eq (k0_chk106.eq_1 v96))
theorem k0_idx106_inb : ∀ (v96 : IVec S16 32) (k0_hw106 : k0_chk106 v96), ∀ a x, ((![v96] : Fin 1 → IVec S16 32) a x).toNat < S100000.size a := fun v96 k0_hw106 => k0_hw106
def k0_off115 (k0_t4 : Fin k0_t4_loop.trips) : Fin 2 → Nat :=
  let c6_i32 : BitVec 32 := 6#32
  let v107 : Index := Scalar.indexCast c6_i32
  let c0_i32_16 : BitVec 32 := 0#32
  let c1_i32_17 : BitVec 32 := 1#32
  let arg18 : BitVec 32 := Scf.iv c0_i32_16 c1_i32_17 k0_t4
  let c16_i32_60 : BitVec 32 := 16#32
  let v106 : BitVec 32 := Scalar.muli arg18 c16_i32_60
  let v108 : Index := Scalar.indexCast v106
  ![6, v108.toNat]

def k0_chk107 (v109 : IVec S16 32) : Prop :=
  (∀ a x, ((![v109] : Fin 1 → IVec S16 32) a x).toNat < S100000.size a)
instance k0_chk107.dec : ∀ (v109 : IVec S16 32), Decidable (k0_chk107 v109) := fun v109 => decidable_of_iff' _ (Iff.of_eq (k0_chk107.eq_1 v109))
theorem k0_idx107_inb : ∀ (v109 : IVec S16 32) (k0_hw107 : k0_chk107 v109), ∀ a x, ((![v109] : Fin 1 → IVec S16 32) a x).toNat < S100000.size a := fun v109 k0_hw107 => k0_hw107
def k0_off116 (k0_t4 : Fin k0_t4_loop.trips) : Fin 2 → Nat :=
  let c7_i32 : BitVec 32 := 7#32
  let v120 : Index := Scalar.indexCast c7_i32
  let c0_i32_16 : BitVec 32 := 0#32
  let c1_i32_17 : BitVec 32 := 1#32
  let arg18 : BitVec 32 := Scf.iv c0_i32_16 c1_i32_17 k0_t4
  let c16_i32_64 : BitVec 32 := 16#32
  let v119 : BitVec 32 := Scalar.muli arg18 c16_i32_64
  let v121 : Index := Scalar.indexCast v119
  ![7, v121.toNat]

def k0_chk108 (v122 : IVec S16 32) : Prop :=
  (∀ a x, ((![v122] : Fin 1 → IVec S16 32) a x).toNat < S100000.size a)
instance k0_chk108.dec : ∀ (v122 : IVec S16 32), Decidable (k0_chk108 v122) := fun v122 => decidable_of_iff' _ (Iff.of_eq (k0_chk108.eq_1 v122))
theorem k0_idx108_inb : ∀ (v122 : IVec S16 32) (k0_hw108 : k0_chk108 v122), ∀ a x, ((![v122] : Fin 1 → IVec S16 32) a x).toNat < S100000.size a := fun v122 k0_hw108 => k0_hw108
def k0_off117 (k0_t4 : Fin k0_t4_loop.trips) : Fin 2 → Nat :=
  let c8_i32_69 : BitVec 32 := 8#32
  let v133 : Index := Scalar.indexCast c8_i32_69
  let c0_i32_16 : BitVec 32 := 0#32
  let c1_i32_17 : BitVec 32 := 1#32
  let arg18 : BitVec 32 := Scf.iv c0_i32_16 c1_i32_17 k0_t4
  let c16_i32_68 : BitVec 32 := 16#32
  let v132 : BitVec 32 := Scalar.muli arg18 c16_i32_68
  let v134 : Index := Scalar.indexCast v132
  ![8, v134.toNat]

def k0_chk109 (v135 : IVec S16 32) : Prop :=
  (∀ a x, ((![v135] : Fin 1 → IVec S16 32) a x).toNat < S100000.size a)
instance k0_chk109.dec : ∀ (v135 : IVec S16 32), Decidable (k0_chk109 v135) := fun v135 => decidable_of_iff' _ (Iff.of_eq (k0_chk109.eq_1 v135))
theorem k0_idx109_inb : ∀ (v135 : IVec S16 32) (k0_hw109 : k0_chk109 v135), ∀ a x, ((![v135] : Fin 1 → IVec S16 32) a x).toNat < S100000.size a := fun v135 k0_hw109 => k0_hw109
def k0_off118 (k0_t4 : Fin k0_t4_loop.trips) : Fin 2 → Nat :=
  let c9_i32 : BitVec 32 := 9#32
  let v146 : Index := Scalar.indexCast c9_i32
  let c0_i32_16 : BitVec 32 := 0#32
  let c1_i32_17 : BitVec 32 := 1#32
  let arg18 : BitVec 32 := Scf.iv c0_i32_16 c1_i32_17 k0_t4
  let c16_i32_73 : BitVec 32 := 16#32
  let v145 : BitVec 32 := Scalar.muli arg18 c16_i32_73
  let v147 : Index := Scalar.indexCast v145
  ![9, v147.toNat]

def k0_chk110 (v148 : IVec S16 32) : Prop :=
  (∀ a x, ((![v148] : Fin 1 → IVec S16 32) a x).toNat < S100000.size a)
instance k0_chk110.dec : ∀ (v148 : IVec S16 32), Decidable (k0_chk110 v148) := fun v148 => decidable_of_iff' _ (Iff.of_eq (k0_chk110.eq_1 v148))
theorem k0_idx110_inb : ∀ (v148 : IVec S16 32) (k0_hw110 : k0_chk110 v148), ∀ a x, ((![v148] : Fin 1 → IVec S16 32) a x).toNat < S100000.size a := fun v148 k0_hw110 => k0_hw110
def k0_off119 (k0_t4 : Fin k0_t4_loop.trips) : Fin 2 → Nat :=
  let c10_i32 : BitVec 32 := 10#32
  let v159 : Index := Scalar.indexCast c10_i32
  let c0_i32_16 : BitVec 32 := 0#32
  let c1_i32_17 : BitVec 32 := 1#32
  let arg18 : BitVec 32 := Scf.iv c0_i32_16 c1_i32_17 k0_t4
  let c16_i32_77 : BitVec 32 := 16#32
  let v158 : BitVec 32 := Scalar.muli arg18 c16_i32_77
  let v160 : Index := Scalar.indexCast v158
  ![10, v160.toNat]

def k0_chk111 (v161 : IVec S16 32) : Prop :=
  (∀ a x, ((![v161] : Fin 1 → IVec S16 32) a x).toNat < S100000.size a)
instance k0_chk111.dec : ∀ (v161 : IVec S16 32), Decidable (k0_chk111 v161) := fun v161 => decidable_of_iff' _ (Iff.of_eq (k0_chk111.eq_1 v161))
theorem k0_idx111_inb : ∀ (v161 : IVec S16 32) (k0_hw111 : k0_chk111 v161), ∀ a x, ((![v161] : Fin 1 → IVec S16 32) a x).toNat < S100000.size a := fun v161 k0_hw111 => k0_hw111
def k0_off120 (k0_t4 : Fin k0_t4_loop.trips) : Fin 2 → Nat :=
  let c11_i32 : BitVec 32 := 11#32
  let v172 : Index := Scalar.indexCast c11_i32
  let c0_i32_16 : BitVec 32 := 0#32
  let c1_i32_17 : BitVec 32 := 1#32
  let arg18 : BitVec 32 := Scf.iv c0_i32_16 c1_i32_17 k0_t4
  let c16_i32_81 : BitVec 32 := 16#32
  let v171 : BitVec 32 := Scalar.muli arg18 c16_i32_81
  let v173 : Index := Scalar.indexCast v171
  ![11, v173.toNat]

def k0_chk112 (v174 : IVec S16 32) : Prop :=
  (∀ a x, ((![v174] : Fin 1 → IVec S16 32) a x).toNat < S100000.size a)
instance k0_chk112.dec : ∀ (v174 : IVec S16 32), Decidable (k0_chk112 v174) := fun v174 => decidable_of_iff' _ (Iff.of_eq (k0_chk112.eq_1 v174))
theorem k0_idx112_inb : ∀ (v174 : IVec S16 32) (k0_hw112 : k0_chk112 v174), ∀ a x, ((![v174] : Fin 1 → IVec S16 32) a x).toNat < S100000.size a := fun v174 k0_hw112 => k0_hw112
def k0_off121 (k0_t4 : Fin k0_t4_loop.trips) : Fin 2 → Nat :=
  let c12_i32 : BitVec 32 := 12#32
  let v185 : Index := Scalar.indexCast c12_i32
  let c0_i32_16 : BitVec 32 := 0#32
  let c1_i32_17 : BitVec 32 := 1#32
  let arg18 : BitVec 32 := Scf.iv c0_i32_16 c1_i32_17 k0_t4
  let c16_i32_85 : BitVec 32 := 16#32
  let v184 : BitVec 32 := Scalar.muli arg18 c16_i32_85
  let v186 : Index := Scalar.indexCast v184
  ![12, v186.toNat]

def k0_chk113 (v187 : IVec S16 32) : Prop :=
  (∀ a x, ((![v187] : Fin 1 → IVec S16 32) a x).toNat < S100000.size a)
instance k0_chk113.dec : ∀ (v187 : IVec S16 32), Decidable (k0_chk113 v187) := fun v187 => decidable_of_iff' _ (Iff.of_eq (k0_chk113.eq_1 v187))
theorem k0_idx113_inb : ∀ (v187 : IVec S16 32) (k0_hw113 : k0_chk113 v187), ∀ a x, ((![v187] : Fin 1 → IVec S16 32) a x).toNat < S100000.size a := fun v187 k0_hw113 => k0_hw113
def k0_off122 (k0_t4 : Fin k0_t4_loop.trips) : Fin 2 → Nat :=
  let c13_i32 : BitVec 32 := 13#32
  let v198 : Index := Scalar.indexCast c13_i32
  let c0_i32_16 : BitVec 32 := 0#32
  let c1_i32_17 : BitVec 32 := 1#32
  let arg18 : BitVec 32 := Scf.iv c0_i32_16 c1_i32_17 k0_t4
  let c16_i32_89 : BitVec 32 := 16#32
  let v197 : BitVec 32 := Scalar.muli arg18 c16_i32_89
  let v199 : Index := Scalar.indexCast v197
  ![13, v199.toNat]

def k0_chk114 (v200 : IVec S16 32) : Prop :=
  (∀ a x, ((![v200] : Fin 1 → IVec S16 32) a x).toNat < S100000.size a)
instance k0_chk114.dec : ∀ (v200 : IVec S16 32), Decidable (k0_chk114 v200) := fun v200 => decidable_of_iff' _ (Iff.of_eq (k0_chk114.eq_1 v200))
theorem k0_idx114_inb : ∀ (v200 : IVec S16 32) (k0_hw114 : k0_chk114 v200), ∀ a x, ((![v200] : Fin 1 → IVec S16 32) a x).toNat < S100000.size a := fun v200 k0_hw114 => k0_hw114
def k0_off123 (k0_t4 : Fin k0_t4_loop.trips) : Fin 2 → Nat :=
  let c14_i32 : BitVec 32 := 14#32
  let v211 : Index := Scalar.indexCast c14_i32
  let c0_i32_16 : BitVec 32 := 0#32
  let c1_i32_17 : BitVec 32 := 1#32
  let arg18 : BitVec 32 := Scf.iv c0_i32_16 c1_i32_17 k0_t4
  let c16_i32_93 : BitVec 32 := 16#32
  let v210 : BitVec 32 := Scalar.muli arg18 c16_i32_93
  let v212 : Index := Scalar.indexCast v210
  ![14, v212.toNat]

def k0_chk115 (v213 : IVec S16 32) : Prop :=
  (∀ a x, ((![v213] : Fin 1 → IVec S16 32) a x).toNat < S100000.size a)
instance k0_chk115.dec : ∀ (v213 : IVec S16 32), Decidable (k0_chk115 v213) := fun v213 => decidable_of_iff' _ (Iff.of_eq (k0_chk115.eq_1 v213))
theorem k0_idx115_inb : ∀ (v213 : IVec S16 32) (k0_hw115 : k0_chk115 v213), ∀ a x, ((![v213] : Fin 1 → IVec S16 32) a x).toNat < S100000.size a := fun v213 k0_hw115 => k0_hw115
def k0_off124 (k0_t4 : Fin k0_t4_loop.trips) : Fin 2 → Nat :=
  let c15_i32_98 : BitVec 32 := 15#32
  let v224 : Index := Scalar.indexCast c15_i32_98
  let c0_i32_16 : BitVec 32 := 0#32
  let c1_i32_17 : BitVec 32 := 1#32
  let arg18 : BitVec 32 := Scf.iv c0_i32_16 c1_i32_17 k0_t4
  let c16_i32_97 : BitVec 32 := 16#32
  let v223 : BitVec 32 := Scalar.muli arg18 c16_i32_97
  let v225 : Index := Scalar.indexCast v223
  ![15, v225.toNat]

def k0_chk116 (v226 : IVec S16 32) : Prop :=
  (∀ a x, ((![v226] : Fin 1 → IVec S16 32) a x).toNat < S100000.size a)
instance k0_chk116.dec : ∀ (v226 : IVec S16 32), Decidable (k0_chk116 v226) := fun v226 => decidable_of_iff' _ (Iff.of_eq (k0_chk116.eq_1 v226))
theorem k0_idx116_inb : ∀ (v226 : IVec S16 32) (k0_hw116 : k0_chk116 v226), ∀ a x, ((![v226] : Fin 1 → IVec S16 32) a x).toNat < S100000.size a := fun v226 k0_hw116 => k0_hw116
def k0_off125 (k0_t4 : Fin k0_t4_loop.trips) : Fin 2 → Nat :=
  let c16_i32_103 : BitVec 32 := 16#32
  let v237 : Index := Scalar.indexCast c16_i32_103
  let c0_i32_16 : BitVec 32 := 0#32
  let c1_i32_17 : BitVec 32 := 1#32
  let arg18 : BitVec 32 := Scf.iv c0_i32_16 c1_i32_17 k0_t4
  let c16_i32_102 : BitVec 32 := 16#32
  let v236 : BitVec 32 := Scalar.muli arg18 c16_i32_102
  let v238 : Index := Scalar.indexCast v236
  ![16, v238.toNat]

def k0_chk117 (v239 : IVec S16 32) : Prop :=
  (∀ a x, ((![v239] : Fin 1 → IVec S16 32) a x).toNat < S100000.size a)
instance k0_chk117.dec : ∀ (v239 : IVec S16 32), Decidable (k0_chk117 v239) := fun v239 => decidable_of_iff' _ (Iff.of_eq (k0_chk117.eq_1 v239))
theorem k0_idx117_inb : ∀ (v239 : IVec S16 32) (k0_hw117 : k0_chk117 v239), ∀ a x, ((![v239] : Fin 1 → IVec S16 32) a x).toNat < S100000.size a := fun v239 k0_hw117 => k0_hw117
def k0_off126 (k0_t4 : Fin k0_t4_loop.trips) : Fin 2 → Nat :=
  let c17_i32 : BitVec 32 := 17#32
  let v250 : Index := Scalar.indexCast c17_i32
  let c0_i32_16 : BitVec 32 := 0#32
  let c1_i32_17 : BitVec 32 := 1#32
  let arg18 : BitVec 32 := Scf.iv c0_i32_16 c1_i32_17 k0_t4
  let c16_i32_107 : BitVec 32 := 16#32
  let v249 : BitVec 32 := Scalar.muli arg18 c16_i32_107
  let v251 : Index := Scalar.indexCast v249
  ![17, v251.toNat]

def k0_chk118 (v252 : IVec S16 32) : Prop :=
  (∀ a x, ((![v252] : Fin 1 → IVec S16 32) a x).toNat < S100000.size a)
instance k0_chk118.dec : ∀ (v252 : IVec S16 32), Decidable (k0_chk118 v252) := fun v252 => decidable_of_iff' _ (Iff.of_eq (k0_chk118.eq_1 v252))
theorem k0_idx118_inb : ∀ (v252 : IVec S16 32) (k0_hw118 : k0_chk118 v252), ∀ a x, ((![v252] : Fin 1 → IVec S16 32) a x).toNat < S100000.size a := fun v252 k0_hw118 => k0_hw118
def k0_off127 (k0_t4 : Fin k0_t4_loop.trips) : Fin 2 → Nat :=
  let c18_i32 : BitVec 32 := 18#32
  let v263 : Index := Scalar.indexCast c18_i32
  let c0_i32_16 : BitVec 32 := 0#32
  let c1_i32_17 : BitVec 32 := 1#32
  let arg18 : BitVec 32 := Scf.iv c0_i32_16 c1_i32_17 k0_t4
  let c16_i32_111 : BitVec 32 := 16#32
  let v262 : BitVec 32 := Scalar.muli arg18 c16_i32_111
  let v264 : Index := Scalar.indexCast v262
  ![18, v264.toNat]

def k0_chk119 (v265 : IVec S16 32) : Prop :=
  (∀ a x, ((![v265] : Fin 1 → IVec S16 32) a x).toNat < S100000.size a)
instance k0_chk119.dec : ∀ (v265 : IVec S16 32), Decidable (k0_chk119 v265) := fun v265 => decidable_of_iff' _ (Iff.of_eq (k0_chk119.eq_1 v265))
theorem k0_idx119_inb : ∀ (v265 : IVec S16 32) (k0_hw119 : k0_chk119 v265), ∀ a x, ((![v265] : Fin 1 → IVec S16 32) a x).toNat < S100000.size a := fun v265 k0_hw119 => k0_hw119
def k0_off128 (k0_t4 : Fin k0_t4_loop.trips) : Fin 2 → Nat :=
  let c19_i32 : BitVec 32 := 19#32
  let v276 : Index := Scalar.indexCast c19_i32
  let c0_i32_16 : BitVec 32 := 0#32
  let c1_i32_17 : BitVec 32 := 1#32
  let arg18 : BitVec 32 := Scf.iv c0_i32_16 c1_i32_17 k0_t4
  let c16_i32_115 : BitVec 32 := 16#32
  let v275 : BitVec 32 := Scalar.muli arg18 c16_i32_115
  let v277 : Index := Scalar.indexCast v275
  ![19, v277.toNat]

def k0_chk120 (v278 : IVec S16 32) : Prop :=
  (∀ a x, ((![v278] : Fin 1 → IVec S16 32) a x).toNat < S100000.size a)
instance k0_chk120.dec : ∀ (v278 : IVec S16 32), Decidable (k0_chk120 v278) := fun v278 => decidable_of_iff' _ (Iff.of_eq (k0_chk120.eq_1 v278))
theorem k0_idx120_inb : ∀ (v278 : IVec S16 32) (k0_hw120 : k0_chk120 v278), ∀ a x, ((![v278] : Fin 1 → IVec S16 32) a x).toNat < S100000.size a := fun v278 k0_hw120 => k0_hw120
def k0_off129 (k0_t4 : Fin k0_t4_loop.trips) : Fin 2 → Nat :=
  let c20_i32 : BitVec 32 := 20#32
  let v289 : Index := Scalar.indexCast c20_i32
  let c0_i32_16 : BitVec 32 := 0#32
  let c1_i32_17 : BitVec 32 := 1#32
  let arg18 : BitVec 32 := Scf.iv c0_i32_16 c1_i32_17 k0_t4
  let c16_i32_119 : BitVec 32 := 16#32
  let v288 : BitVec 32 := Scalar.muli arg18 c16_i32_119
  let v290 : Index := Scalar.indexCast v288
  ![20, v290.toNat]

def k0_chk121 (v291 : IVec S16 32) : Prop :=
  (∀ a x, ((![v291] : Fin 1 → IVec S16 32) a x).toNat < S100000.size a)
instance k0_chk121.dec : ∀ (v291 : IVec S16 32), Decidable (k0_chk121 v291) := fun v291 => decidable_of_iff' _ (Iff.of_eq (k0_chk121.eq_1 v291))
theorem k0_idx121_inb : ∀ (v291 : IVec S16 32) (k0_hw121 : k0_chk121 v291), ∀ a x, ((![v291] : Fin 1 → IVec S16 32) a x).toNat < S100000.size a := fun v291 k0_hw121 => k0_hw121
def k0_off130 (k0_t4 : Fin k0_t4_loop.trips) : Fin 2 → Nat :=
  let c21_i32 : BitVec 32 := 21#32
  let v302 : Index := Scalar.indexCast c21_i32
  let c0_i32_16 : BitVec 32 := 0#32
  let c1_i32_17 : BitVec 32 := 1#32
  let arg18 : BitVec 32 := Scf.iv c0_i32_16 c1_i32_17 k0_t4
  let c16_i32_123 : BitVec 32 := 16#32
  let v301 : BitVec 32 := Scalar.muli arg18 c16_i32_123
  let v303 : Index := Scalar.indexCast v301
  ![21, v303.toNat]

def k0_chk122 (v304 : IVec S16 32) : Prop :=
  (∀ a x, ((![v304] : Fin 1 → IVec S16 32) a x).toNat < S100000.size a)
instance k0_chk122.dec : ∀ (v304 : IVec S16 32), Decidable (k0_chk122 v304) := fun v304 => decidable_of_iff' _ (Iff.of_eq (k0_chk122.eq_1 v304))
theorem k0_idx122_inb : ∀ (v304 : IVec S16 32) (k0_hw122 : k0_chk122 v304), ∀ a x, ((![v304] : Fin 1 → IVec S16 32) a x).toNat < S100000.size a := fun v304 k0_hw122 => k0_hw122
def k0_off131 (k0_t4 : Fin k0_t4_loop.trips) : Fin 2 → Nat :=
  let c22_i32 : BitVec 32 := 22#32
  let v315 : Index := Scalar.indexCast c22_i32
  let c0_i32_16 : BitVec 32 := 0#32
  let c1_i32_17 : BitVec 32 := 1#32
  let arg18 : BitVec 32 := Scf.iv c0_i32_16 c1_i32_17 k0_t4
  let c16_i32_127 : BitVec 32 := 16#32
  let v314 : BitVec 32 := Scalar.muli arg18 c16_i32_127
  let v316 : Index := Scalar.indexCast v314
  ![22, v316.toNat]

def k0_chk123 (v317 : IVec S16 32) : Prop :=
  (∀ a x, ((![v317] : Fin 1 → IVec S16 32) a x).toNat < S100000.size a)
instance k0_chk123.dec : ∀ (v317 : IVec S16 32), Decidable (k0_chk123 v317) := fun v317 => decidable_of_iff' _ (Iff.of_eq (k0_chk123.eq_1 v317))
theorem k0_idx123_inb : ∀ (v317 : IVec S16 32) (k0_hw123 : k0_chk123 v317), ∀ a x, ((![v317] : Fin 1 → IVec S16 32) a x).toNat < S100000.size a := fun v317 k0_hw123 => k0_hw123
def k0_off132 (k0_t4 : Fin k0_t4_loop.trips) : Fin 2 → Nat :=
  let c23_i32 : BitVec 32 := 23#32
  let v328 : Index := Scalar.indexCast c23_i32
  let c0_i32_16 : BitVec 32 := 0#32
  let c1_i32_17 : BitVec 32 := 1#32
  let arg18 : BitVec 32 := Scf.iv c0_i32_16 c1_i32_17 k0_t4
  let c16_i32_131 : BitVec 32 := 16#32
  let v327 : BitVec 32 := Scalar.muli arg18 c16_i32_131
  let v329 : Index := Scalar.indexCast v327
  ![23, v329.toNat]

def k0_chk124 (v330 : IVec S16 32) : Prop :=
  (∀ a x, ((![v330] : Fin 1 → IVec S16 32) a x).toNat < S100000.size a)
instance k0_chk124.dec : ∀ (v330 : IVec S16 32), Decidable (k0_chk124 v330) := fun v330 => decidable_of_iff' _ (Iff.of_eq (k0_chk124.eq_1 v330))
theorem k0_idx124_inb : ∀ (v330 : IVec S16 32) (k0_hw124 : k0_chk124 v330), ∀ a x, ((![v330] : Fin 1 → IVec S16 32) a x).toNat < S100000.size a := fun v330 k0_hw124 => k0_hw124
def k0_off133 (k0_t4 : Fin k0_t4_loop.trips) : Fin 2 → Nat :=
  let c24_i32 : BitVec 32 := 24#32
  let v341 : Index := Scalar.indexCast c24_i32
  let c0_i32_16 : BitVec 32 := 0#32
  let c1_i32_17 : BitVec 32 := 1#32
  let arg18 : BitVec 32 := Scf.iv c0_i32_16 c1_i32_17 k0_t4
  let c16_i32_135 : BitVec 32 := 16#32
  let v340 : BitVec 32 := Scalar.muli arg18 c16_i32_135
  let v342 : Index := Scalar.indexCast v340
  ![24, v342.toNat]

def k0_chk125 (v343 : IVec S16 32) : Prop :=
  (∀ a x, ((![v343] : Fin 1 → IVec S16 32) a x).toNat < S100000.size a)
instance k0_chk125.dec : ∀ (v343 : IVec S16 32), Decidable (k0_chk125 v343) := fun v343 => decidable_of_iff' _ (Iff.of_eq (k0_chk125.eq_1 v343))
theorem k0_idx125_inb : ∀ (v343 : IVec S16 32) (k0_hw125 : k0_chk125 v343), ∀ a x, ((![v343] : Fin 1 → IVec S16 32) a x).toNat < S100000.size a := fun v343 k0_hw125 => k0_hw125
def k0_off134 (k0_t4 : Fin k0_t4_loop.trips) : Fin 2 → Nat :=
  let c25_i32 : BitVec 32 := 25#32
  let v354 : Index := Scalar.indexCast c25_i32
  let c0_i32_16 : BitVec 32 := 0#32
  let c1_i32_17 : BitVec 32 := 1#32
  let arg18 : BitVec 32 := Scf.iv c0_i32_16 c1_i32_17 k0_t4
  let c16_i32_139 : BitVec 32 := 16#32
  let v353 : BitVec 32 := Scalar.muli arg18 c16_i32_139
  let v355 : Index := Scalar.indexCast v353
  ![25, v355.toNat]

def k0_chk126 (v356 : IVec S16 32) : Prop :=
  (∀ a x, ((![v356] : Fin 1 → IVec S16 32) a x).toNat < S100000.size a)
instance k0_chk126.dec : ∀ (v356 : IVec S16 32), Decidable (k0_chk126 v356) := fun v356 => decidable_of_iff' _ (Iff.of_eq (k0_chk126.eq_1 v356))
theorem k0_idx126_inb : ∀ (v356 : IVec S16 32) (k0_hw126 : k0_chk126 v356), ∀ a x, ((![v356] : Fin 1 → IVec S16 32) a x).toNat < S100000.size a := fun v356 k0_hw126 => k0_hw126
def k0_off135 (k0_t4 : Fin k0_t4_loop.trips) : Fin 2 → Nat :=
  let c26_i32_144 : BitVec 32 := 26#32
  let v367 : Index := Scalar.indexCast c26_i32_144
  let c0_i32_16 : BitVec 32 := 0#32
  let c1_i32_17 : BitVec 32 := 1#32
  let arg18 : BitVec 32 := Scf.iv c0_i32_16 c1_i32_17 k0_t4
  let c16_i32_143 : BitVec 32 := 16#32
  let v366 : BitVec 32 := Scalar.muli arg18 c16_i32_143
  let v368 : Index := Scalar.indexCast v366
  ![26, v368.toNat]

def k0_chk127 (v369 : IVec S16 32) : Prop :=
  (∀ a x, ((![v369] : Fin 1 → IVec S16 32) a x).toNat < S100000.size a)
instance k0_chk127.dec : ∀ (v369 : IVec S16 32), Decidable (k0_chk127 v369) := fun v369 => decidable_of_iff' _ (Iff.of_eq (k0_chk127.eq_1 v369))
theorem k0_idx127_inb : ∀ (v369 : IVec S16 32) (k0_hw127 : k0_chk127 v369), ∀ a x, ((![v369] : Fin 1 → IVec S16 32) a x).toNat < S100000.size a := fun v369 k0_hw127 => k0_hw127
def k0_off136 (k0_t4 : Fin k0_t4_loop.trips) : Fin 2 → Nat :=
  let c27_i32 : BitVec 32 := 27#32
  let v380 : Index := Scalar.indexCast c27_i32
  let c0_i32_16 : BitVec 32 := 0#32
  let c1_i32_17 : BitVec 32 := 1#32
  let arg18 : BitVec 32 := Scf.iv c0_i32_16 c1_i32_17 k0_t4
  let c16_i32_148 : BitVec 32 := 16#32
  let v379 : BitVec 32 := Scalar.muli arg18 c16_i32_148
  let v381 : Index := Scalar.indexCast v379
  ![27, v381.toNat]

def k0_chk128 (v382 : IVec S16 32) : Prop :=
  (∀ a x, ((![v382] : Fin 1 → IVec S16 32) a x).toNat < S100000.size a)
instance k0_chk128.dec : ∀ (v382 : IVec S16 32), Decidable (k0_chk128 v382) := fun v382 => decidable_of_iff' _ (Iff.of_eq (k0_chk128.eq_1 v382))
theorem k0_idx128_inb : ∀ (v382 : IVec S16 32) (k0_hw128 : k0_chk128 v382), ∀ a x, ((![v382] : Fin 1 → IVec S16 32) a x).toNat < S100000.size a := fun v382 k0_hw128 => k0_hw128
def k0_off137 (k0_t4 : Fin k0_t4_loop.trips) : Fin 2 → Nat :=
  let c28_i32 : BitVec 32 := 28#32
  let v393 : Index := Scalar.indexCast c28_i32
  let c0_i32_16 : BitVec 32 := 0#32
  let c1_i32_17 : BitVec 32 := 1#32
  let arg18 : BitVec 32 := Scf.iv c0_i32_16 c1_i32_17 k0_t4
  let c16_i32_152 : BitVec 32 := 16#32
  let v392 : BitVec 32 := Scalar.muli arg18 c16_i32_152
  let v394 : Index := Scalar.indexCast v392
  ![28, v394.toNat]

def k0_chk129 (v395 : IVec S16 32) : Prop :=
  (∀ a x, ((![v395] : Fin 1 → IVec S16 32) a x).toNat < S100000.size a)
instance k0_chk129.dec : ∀ (v395 : IVec S16 32), Decidable (k0_chk129 v395) := fun v395 => decidable_of_iff' _ (Iff.of_eq (k0_chk129.eq_1 v395))
theorem k0_idx129_inb : ∀ (v395 : IVec S16 32) (k0_hw129 : k0_chk129 v395), ∀ a x, ((![v395] : Fin 1 → IVec S16 32) a x).toNat < S100000.size a := fun v395 k0_hw129 => k0_hw129
def k0_off138 (k0_t4 : Fin k0_t4_loop.trips) : Fin 2 → Nat :=
  let c29_i32 : BitVec 32 := 29#32
  let v406 : Index := Scalar.indexCast c29_i32
  let c0_i32_16 : BitVec 32 := 0#32
  let c1_i32_17 : BitVec 32 := 1#32
  let arg18 : BitVec 32 := Scf.iv c0_i32_16 c1_i32_17 k0_t4
  let c16_i32_156 : BitVec 32 := 16#32
  let v405 : BitVec 32 := Scalar.muli arg18 c16_i32_156
  let v407 : Index := Scalar.indexCast v405
  ![29, v407.toNat]

def k0_chk130 (v408 : IVec S16 32) : Prop :=
  (∀ a x, ((![v408] : Fin 1 → IVec S16 32) a x).toNat < S100000.size a)
instance k0_chk130.dec : ∀ (v408 : IVec S16 32), Decidable (k0_chk130 v408) := fun v408 => decidable_of_iff' _ (Iff.of_eq (k0_chk130.eq_1 v408))
theorem k0_idx130_inb : ∀ (v408 : IVec S16 32) (k0_hw130 : k0_chk130 v408), ∀ a x, ((![v408] : Fin 1 → IVec S16 32) a x).toNat < S100000.size a := fun v408 k0_hw130 => k0_hw130
def k0_off139 (k0_t4 : Fin k0_t4_loop.trips) : Fin 2 → Nat :=
  let c30_i32_161 : BitVec 32 := 30#32
  let v419 : Index := Scalar.indexCast c30_i32_161
  let c0_i32_16 : BitVec 32 := 0#32
  let c1_i32_17 : BitVec 32 := 1#32
  let arg18 : BitVec 32 := Scf.iv c0_i32_16 c1_i32_17 k0_t4
  let c16_i32_160 : BitVec 32 := 16#32
  let v418 : BitVec 32 := Scalar.muli arg18 c16_i32_160
  let v420 : Index := Scalar.indexCast v418
  ![30, v420.toNat]

def k0_chk131 (v421 : IVec S16 32) : Prop :=
  (∀ a x, ((![v421] : Fin 1 → IVec S16 32) a x).toNat < S100000.size a)
instance k0_chk131.dec : ∀ (v421 : IVec S16 32), Decidable (k0_chk131 v421) := fun v421 => decidable_of_iff' _ (Iff.of_eq (k0_chk131.eq_1 v421))
theorem k0_idx131_inb : ∀ (v421 : IVec S16 32) (k0_hw131 : k0_chk131 v421), ∀ a x, ((![v421] : Fin 1 → IVec S16 32) a x).toNat < S100000.size a := fun v421 k0_hw131 => k0_hw131
def k0_off140 (k0_t4 : Fin k0_t4_loop.trips) : Fin 2 → Nat :=
  let c31_i32_166 : BitVec 32 := 31#32
  let v432 : Index := Scalar.indexCast c31_i32_166
  let c0_i32_16 : BitVec 32 := 0#32
  let c1_i32_17 : BitVec 32 := 1#32
  let arg18 : BitVec 32 := Scf.iv c0_i32_16 c1_i32_17 k0_t4
  let c16_i32_165 : BitVec 32 := 16#32
  let v431 : BitVec 32 := Scalar.muli arg18 c16_i32_165
  let v433 : Index := Scalar.indexCast v431
  ![31, v433.toNat]

def k0_chk132 (v434 : IVec S16 32) : Prop :=
  (∀ a x, ((![v434] : Fin 1 → IVec S16 32) a x).toNat < S100000.size a)
instance k0_chk132.dec : ∀ (v434 : IVec S16 32), Decidable (k0_chk132 v434) := fun v434 => decidable_of_iff' _ (Iff.of_eq (k0_chk132.eq_1 v434))
theorem k0_idx132_inb : ∀ (v434 : IVec S16 32) (k0_hw132 : k0_chk132 v434), ∀ a x, ((![v434] : Fin 1 → IVec S16 32) a x).toNat < S100000.size a := fun v434 k0_hw132 => k0_hw132
def k0_off141 (k0_t4 : Fin k0_t4_loop.trips) : Fin 2 → Nat :=
  let c32_i32_171 : BitVec 32 := 32#32
  let v445 : Index := Scalar.indexCast c32_i32_171
  let c0_i32_16 : BitVec 32 := 0#32
  let c1_i32_17 : BitVec 32 := 1#32
  let arg18 : BitVec 32 := Scf.iv c0_i32_16 c1_i32_17 k0_t4
  let c16_i32_170 : BitVec 32 := 16#32
  let v444 : BitVec 32 := Scalar.muli arg18 c16_i32_170
  let v446 : Index := Scalar.indexCast v444
  ![32, v446.toNat]

def k0_chk133 (v447 : IVec S16 32) : Prop :=
  (∀ a x, ((![v447] : Fin 1 → IVec S16 32) a x).toNat < S100000.size a)
instance k0_chk133.dec : ∀ (v447 : IVec S16 32), Decidable (k0_chk133 v447) := fun v447 => decidable_of_iff' _ (Iff.of_eq (k0_chk133.eq_1 v447))
theorem k0_idx133_inb : ∀ (v447 : IVec S16 32) (k0_hw133 : k0_chk133 v447), ∀ a x, ((![v447] : Fin 1 → IVec S16 32) a x).toNat < S100000.size a := fun v447 k0_hw133 => k0_hw133
def k0_off142 (k0_t4 : Fin k0_t4_loop.trips) : Fin 2 → Nat :=
  let c33_i32 : BitVec 32 := 33#32
  let v458 : Index := Scalar.indexCast c33_i32
  let c0_i32_16 : BitVec 32 := 0#32
  let c1_i32_17 : BitVec 32 := 1#32
  let arg18 : BitVec 32 := Scf.iv c0_i32_16 c1_i32_17 k0_t4
  let c16_i32_175 : BitVec 32 := 16#32
  let v457 : BitVec 32 := Scalar.muli arg18 c16_i32_175
  let v459 : Index := Scalar.indexCast v457
  ![33, v459.toNat]

def k0_chk134 (v460 : IVec S16 32) : Prop :=
  (∀ a x, ((![v460] : Fin 1 → IVec S16 32) a x).toNat < S100000.size a)
instance k0_chk134.dec : ∀ (v460 : IVec S16 32), Decidable (k0_chk134 v460) := fun v460 => decidable_of_iff' _ (Iff.of_eq (k0_chk134.eq_1 v460))
theorem k0_idx134_inb : ∀ (v460 : IVec S16 32) (k0_hw134 : k0_chk134 v460), ∀ a x, ((![v460] : Fin 1 → IVec S16 32) a x).toNat < S100000.size a := fun v460 k0_hw134 => k0_hw134
def k0_off143 (k0_t4 : Fin k0_t4_loop.trips) : Fin 2 → Nat :=
  let c34_i32 : BitVec 32 := 34#32
  let v471 : Index := Scalar.indexCast c34_i32
  let c0_i32_16 : BitVec 32 := 0#32
  let c1_i32_17 : BitVec 32 := 1#32
  let arg18 : BitVec 32 := Scf.iv c0_i32_16 c1_i32_17 k0_t4
  let c16_i32_179 : BitVec 32 := 16#32
  let v470 : BitVec 32 := Scalar.muli arg18 c16_i32_179
  let v472 : Index := Scalar.indexCast v470
  ![34, v472.toNat]

def k0_chk135 (v473 : IVec S16 32) : Prop :=
  (∀ a x, ((![v473] : Fin 1 → IVec S16 32) a x).toNat < S100000.size a)
instance k0_chk135.dec : ∀ (v473 : IVec S16 32), Decidable (k0_chk135 v473) := fun v473 => decidable_of_iff' _ (Iff.of_eq (k0_chk135.eq_1 v473))
theorem k0_idx135_inb : ∀ (v473 : IVec S16 32) (k0_hw135 : k0_chk135 v473), ∀ a x, ((![v473] : Fin 1 → IVec S16 32) a x).toNat < S100000.size a := fun v473 k0_hw135 => k0_hw135
def k0_off144 (k0_t4 : Fin k0_t4_loop.trips) : Fin 2 → Nat :=
  let c35_i32 : BitVec 32 := 35#32
  let v484 : Index := Scalar.indexCast c35_i32
  let c0_i32_16 : BitVec 32 := 0#32
  let c1_i32_17 : BitVec 32 := 1#32
  let arg18 : BitVec 32 := Scf.iv c0_i32_16 c1_i32_17 k0_t4
  let c16_i32_183 : BitVec 32 := 16#32
  let v483 : BitVec 32 := Scalar.muli arg18 c16_i32_183
  let v485 : Index := Scalar.indexCast v483
  ![35, v485.toNat]

def k0_chk136 (v486 : IVec S16 32) : Prop :=
  (∀ a x, ((![v486] : Fin 1 → IVec S16 32) a x).toNat < S100000.size a)
instance k0_chk136.dec : ∀ (v486 : IVec S16 32), Decidable (k0_chk136 v486) := fun v486 => decidable_of_iff' _ (Iff.of_eq (k0_chk136.eq_1 v486))
theorem k0_idx136_inb : ∀ (v486 : IVec S16 32) (k0_hw136 : k0_chk136 v486), ∀ a x, ((![v486] : Fin 1 → IVec S16 32) a x).toNat < S100000.size a := fun v486 k0_hw136 => k0_hw136
def k0_off145 (k0_t4 : Fin k0_t4_loop.trips) : Fin 2 → Nat :=
  let c36_i32 : BitVec 32 := 36#32
  let v497 : Index := Scalar.indexCast c36_i32
  let c0_i32_16 : BitVec 32 := 0#32
  let c1_i32_17 : BitVec 32 := 1#32
  let arg18 : BitVec 32 := Scf.iv c0_i32_16 c1_i32_17 k0_t4
  let c16_i32_187 : BitVec 32 := 16#32
  let v496 : BitVec 32 := Scalar.muli arg18 c16_i32_187
  let v498 : Index := Scalar.indexCast v496
  ![36, v498.toNat]

def k0_chk137 (v499 : IVec S16 32) : Prop :=
  (∀ a x, ((![v499] : Fin 1 → IVec S16 32) a x).toNat < S100000.size a)
instance k0_chk137.dec : ∀ (v499 : IVec S16 32), Decidable (k0_chk137 v499) := fun v499 => decidable_of_iff' _ (Iff.of_eq (k0_chk137.eq_1 v499))
theorem k0_idx137_inb : ∀ (v499 : IVec S16 32) (k0_hw137 : k0_chk137 v499), ∀ a x, ((![v499] : Fin 1 → IVec S16 32) a x).toNat < S100000.size a := fun v499 k0_hw137 => k0_hw137
def k0_off146 (k0_t4 : Fin k0_t4_loop.trips) : Fin 2 → Nat :=
  let c37_i32 : BitVec 32 := 37#32
  let v510 : Index := Scalar.indexCast c37_i32
  let c0_i32_16 : BitVec 32 := 0#32
  let c1_i32_17 : BitVec 32 := 1#32
  let arg18 : BitVec 32 := Scf.iv c0_i32_16 c1_i32_17 k0_t4
  let c16_i32_191 : BitVec 32 := 16#32
  let v509 : BitVec 32 := Scalar.muli arg18 c16_i32_191
  let v511 : Index := Scalar.indexCast v509
  ![37, v511.toNat]

def k0_chk138 (v512 : IVec S16 32) : Prop :=
  (∀ a x, ((![v512] : Fin 1 → IVec S16 32) a x).toNat < S100000.size a)
instance k0_chk138.dec : ∀ (v512 : IVec S16 32), Decidable (k0_chk138 v512) := fun v512 => decidable_of_iff' _ (Iff.of_eq (k0_chk138.eq_1 v512))
theorem k0_idx138_inb : ∀ (v512 : IVec S16 32) (k0_hw138 : k0_chk138 v512), ∀ a x, ((![v512] : Fin 1 → IVec S16 32) a x).toNat < S100000.size a := fun v512 k0_hw138 => k0_hw138
def k0_off147 (k0_t4 : Fin k0_t4_loop.trips) : Fin 2 → Nat :=
  let c38_i32 : BitVec 32 := 38#32
  let v523 : Index := Scalar.indexCast c38_i32
  let c0_i32_16 : BitVec 32 := 0#32
  let c1_i32_17 : BitVec 32 := 1#32
  let arg18 : BitVec 32 := Scf.iv c0_i32_16 c1_i32_17 k0_t4
  let c16_i32_195 : BitVec 32 := 16#32
  let v522 : BitVec 32 := Scalar.muli arg18 c16_i32_195
  let v524 : Index := Scalar.indexCast v522
  ![38, v524.toNat]

def k0_chk139 (v525 : IVec S16 32) : Prop :=
  (∀ a x, ((![v525] : Fin 1 → IVec S16 32) a x).toNat < S100000.size a)
instance k0_chk139.dec : ∀ (v525 : IVec S16 32), Decidable (k0_chk139 v525) := fun v525 => decidable_of_iff' _ (Iff.of_eq (k0_chk139.eq_1 v525))
theorem k0_idx139_inb : ∀ (v525 : IVec S16 32) (k0_hw139 : k0_chk139 v525), ∀ a x, ((![v525] : Fin 1 → IVec S16 32) a x).toNat < S100000.size a := fun v525 k0_hw139 => k0_hw139
def k0_off148 (k0_t4 : Fin k0_t4_loop.trips) : Fin 2 → Nat :=
  let c39_i32 : BitVec 32 := 39#32
  let v536 : Index := Scalar.indexCast c39_i32
  let c0_i32_16 : BitVec 32 := 0#32
  let c1_i32_17 : BitVec 32 := 1#32
  let arg18 : BitVec 32 := Scf.iv c0_i32_16 c1_i32_17 k0_t4
  let c16_i32_199 : BitVec 32 := 16#32
  let v535 : BitVec 32 := Scalar.muli arg18 c16_i32_199
  let v537 : Index := Scalar.indexCast v535
  ![39, v537.toNat]

def k0_chk140 (v538 : IVec S16 32) : Prop :=
  (∀ a x, ((![v538] : Fin 1 → IVec S16 32) a x).toNat < S100000.size a)
instance k0_chk140.dec : ∀ (v538 : IVec S16 32), Decidable (k0_chk140 v538) := fun v538 => decidable_of_iff' _ (Iff.of_eq (k0_chk140.eq_1 v538))
theorem k0_idx140_inb : ∀ (v538 : IVec S16 32) (k0_hw140 : k0_chk140 v538), ∀ a x, ((![v538] : Fin 1 → IVec S16 32) a x).toNat < S100000.size a := fun v538 k0_hw140 => k0_hw140
def k0_off149 (k0_t4 : Fin k0_t4_loop.trips) : Fin 2 → Nat :=
  let c40_i32 : BitVec 32 := 40#32
  let v549 : Index := Scalar.indexCast c40_i32
  let c0_i32_16 : BitVec 32 := 0#32
  let c1_i32_17 : BitVec 32 := 1#32
  let arg18 : BitVec 32 := Scf.iv c0_i32_16 c1_i32_17 k0_t4
  let c16_i32_203 : BitVec 32 := 16#32
  let v548 : BitVec 32 := Scalar.muli arg18 c16_i32_203
  let v550 : Index := Scalar.indexCast v548
  ![40, v550.toNat]

def k0_chk141 (v551 : IVec S16 32) : Prop :=
  (∀ a x, ((![v551] : Fin 1 → IVec S16 32) a x).toNat < S100000.size a)
instance k0_chk141.dec : ∀ (v551 : IVec S16 32), Decidable (k0_chk141 v551) := fun v551 => decidable_of_iff' _ (Iff.of_eq (k0_chk141.eq_1 v551))
theorem k0_idx141_inb : ∀ (v551 : IVec S16 32) (k0_hw141 : k0_chk141 v551), ∀ a x, ((![v551] : Fin 1 → IVec S16 32) a x).toNat < S100000.size a := fun v551 k0_hw141 => k0_hw141
def k0_off150 (k0_t4 : Fin k0_t4_loop.trips) : Fin 2 → Nat :=
  let c41_i32 : BitVec 32 := 41#32
  let v562 : Index := Scalar.indexCast c41_i32
  let c0_i32_16 : BitVec 32 := 0#32
  let c1_i32_17 : BitVec 32 := 1#32
  let arg18 : BitVec 32 := Scf.iv c0_i32_16 c1_i32_17 k0_t4
  let c16_i32_207 : BitVec 32 := 16#32
  let v561 : BitVec 32 := Scalar.muli arg18 c16_i32_207
  let v563 : Index := Scalar.indexCast v561
  ![41, v563.toNat]

def k0_chk142 (v564 : IVec S16 32) : Prop :=
  (∀ a x, ((![v564] : Fin 1 → IVec S16 32) a x).toNat < S100000.size a)
instance k0_chk142.dec : ∀ (v564 : IVec S16 32), Decidable (k0_chk142 v564) := fun v564 => decidable_of_iff' _ (Iff.of_eq (k0_chk142.eq_1 v564))
theorem k0_idx142_inb : ∀ (v564 : IVec S16 32) (k0_hw142 : k0_chk142 v564), ∀ a x, ((![v564] : Fin 1 → IVec S16 32) a x).toNat < S100000.size a := fun v564 k0_hw142 => k0_hw142
def k0_off151 (k0_t4 : Fin k0_t4_loop.trips) : Fin 2 → Nat :=
  let c42_i32 : BitVec 32 := 42#32
  let v575 : Index := Scalar.indexCast c42_i32
  let c0_i32_16 : BitVec 32 := 0#32
  let c1_i32_17 : BitVec 32 := 1#32
  let arg18 : BitVec 32 := Scf.iv c0_i32_16 c1_i32_17 k0_t4
  let c16_i32_211 : BitVec 32 := 16#32
  let v574 : BitVec 32 := Scalar.muli arg18 c16_i32_211
  let v576 : Index := Scalar.indexCast v574
  ![42, v576.toNat]

def k0_chk143 (v577 : IVec S16 32) : Prop :=
  (∀ a x, ((![v577] : Fin 1 → IVec S16 32) a x).toNat < S100000.size a)
instance k0_chk143.dec : ∀ (v577 : IVec S16 32), Decidable (k0_chk143 v577) := fun v577 => decidable_of_iff' _ (Iff.of_eq (k0_chk143.eq_1 v577))
theorem k0_idx143_inb : ∀ (v577 : IVec S16 32) (k0_hw143 : k0_chk143 v577), ∀ a x, ((![v577] : Fin 1 → IVec S16 32) a x).toNat < S100000.size a := fun v577 k0_hw143 => k0_hw143
def k0_off152 (k0_t4 : Fin k0_t4_loop.trips) : Fin 2 → Nat :=
  let c43_i32 : BitVec 32 := 43#32
  let v588 : Index := Scalar.indexCast c43_i32
  let c0_i32_16 : BitVec 32 := 0#32
  let c1_i32_17 : BitVec 32 := 1#32
  let arg18 : BitVec 32 := Scf.iv c0_i32_16 c1_i32_17 k0_t4
  let c16_i32_215 : BitVec 32 := 16#32
  let v587 : BitVec 32 := Scalar.muli arg18 c16_i32_215
  let v589 : Index := Scalar.indexCast v587
  ![43, v589.toNat]

def k0_chk144 (v590 : IVec S16 32) : Prop :=
  (∀ a x, ((![v590] : Fin 1 → IVec S16 32) a x).toNat < S100000.size a)
instance k0_chk144.dec : ∀ (v590 : IVec S16 32), Decidable (k0_chk144 v590) := fun v590 => decidable_of_iff' _ (Iff.of_eq (k0_chk144.eq_1 v590))
theorem k0_idx144_inb : ∀ (v590 : IVec S16 32) (k0_hw144 : k0_chk144 v590), ∀ a x, ((![v590] : Fin 1 → IVec S16 32) a x).toNat < S100000.size a := fun v590 k0_hw144 => k0_hw144
def k0_off153 (k0_t4 : Fin k0_t4_loop.trips) : Fin 2 → Nat :=
  let c44_i32 : BitVec 32 := 44#32
  let v601 : Index := Scalar.indexCast c44_i32
  let c0_i32_16 : BitVec 32 := 0#32
  let c1_i32_17 : BitVec 32 := 1#32
  let arg18 : BitVec 32 := Scf.iv c0_i32_16 c1_i32_17 k0_t4
  let c16_i32_219 : BitVec 32 := 16#32
  let v600 : BitVec 32 := Scalar.muli arg18 c16_i32_219
  let v602 : Index := Scalar.indexCast v600
  ![44, v602.toNat]

def k0_chk145 (v603 : IVec S16 32) : Prop :=
  (∀ a x, ((![v603] : Fin 1 → IVec S16 32) a x).toNat < S100000.size a)
instance k0_chk145.dec : ∀ (v603 : IVec S16 32), Decidable (k0_chk145 v603) := fun v603 => decidable_of_iff' _ (Iff.of_eq (k0_chk145.eq_1 v603))
theorem k0_idx145_inb : ∀ (v603 : IVec S16 32) (k0_hw145 : k0_chk145 v603), ∀ a x, ((![v603] : Fin 1 → IVec S16 32) a x).toNat < S100000.size a := fun v603 k0_hw145 => k0_hw145
def k0_off154 (k0_t4 : Fin k0_t4_loop.trips) : Fin 2 → Nat :=
  let c45_i32 : BitVec 32 := 45#32
  let v614 : Index := Scalar.indexCast c45_i32
  let c0_i32_16 : BitVec 32 := 0#32
  let c1_i32_17 : BitVec 32 := 1#32
  let arg18 : BitVec 32 := Scf.iv c0_i32_16 c1_i32_17 k0_t4
  let c16_i32_223 : BitVec 32 := 16#32
  let v613 : BitVec 32 := Scalar.muli arg18 c16_i32_223
  let v615 : Index := Scalar.indexCast v613
  ![45, v615.toNat]

def k0_chk146 (v616 : IVec S16 32) : Prop :=
  (∀ a x, ((![v616] : Fin 1 → IVec S16 32) a x).toNat < S100000.size a)
instance k0_chk146.dec : ∀ (v616 : IVec S16 32), Decidable (k0_chk146 v616) := fun v616 => decidable_of_iff' _ (Iff.of_eq (k0_chk146.eq_1 v616))
theorem k0_idx146_inb : ∀ (v616 : IVec S16 32) (k0_hw146 : k0_chk146 v616), ∀ a x, ((![v616] : Fin 1 → IVec S16 32) a x).toNat < S100000.size a := fun v616 k0_hw146 => k0_hw146
def k0_off155 (k0_t4 : Fin k0_t4_loop.trips) : Fin 2 → Nat :=
  let c46_i32 : BitVec 32 := 46#32
  let v627 : Index := Scalar.indexCast c46_i32
  let c0_i32_16 : BitVec 32 := 0#32
  let c1_i32_17 : BitVec 32 := 1#32
  let arg18 : BitVec 32 := Scf.iv c0_i32_16 c1_i32_17 k0_t4
  let c16_i32_227 : BitVec 32 := 16#32
  let v626 : BitVec 32 := Scalar.muli arg18 c16_i32_227
  let v628 : Index := Scalar.indexCast v626
  ![46, v628.toNat]

def k0_chk147 (v629 : IVec S16 32) : Prop :=
  (∀ a x, ((![v629] : Fin 1 → IVec S16 32) a x).toNat < S100000.size a)
instance k0_chk147.dec : ∀ (v629 : IVec S16 32), Decidable (k0_chk147 v629) := fun v629 => decidable_of_iff' _ (Iff.of_eq (k0_chk147.eq_1 v629))
theorem k0_idx147_inb : ∀ (v629 : IVec S16 32) (k0_hw147 : k0_chk147 v629), ∀ a x, ((![v629] : Fin 1 → IVec S16 32) a x).toNat < S100000.size a := fun v629 k0_hw147 => k0_hw147
def k0_off156 (k0_t4 : Fin k0_t4_loop.trips) : Fin 2 → Nat :=
  let c47_i32 : BitVec 32 := 47#32
  let v640 : Index := Scalar.indexCast c47_i32
  let c0_i32_16 : BitVec 32 := 0#32
  let c1_i32_17 : BitVec 32 := 1#32
  let arg18 : BitVec 32 := Scf.iv c0_i32_16 c1_i32_17 k0_t4
  let c16_i32_231 : BitVec 32 := 16#32
  let v639 : BitVec 32 := Scalar.muli arg18 c16_i32_231
  let v641 : Index := Scalar.indexCast v639
  ![47, v641.toNat]

def k0_chk148 (v642 : IVec S16 32) : Prop :=
  (∀ a x, ((![v642] : Fin 1 → IVec S16 32) a x).toNat < S100000.size a)
instance k0_chk148.dec : ∀ (v642 : IVec S16 32), Decidable (k0_chk148 v642) := fun v642 => decidable_of_iff' _ (Iff.of_eq (k0_chk148.eq_1 v642))
theorem k0_idx148_inb : ∀ (v642 : IVec S16 32) (k0_hw148 : k0_chk148 v642), ∀ a x, ((![v642] : Fin 1 → IVec S16 32) a x).toNat < S100000.size a := fun v642 k0_hw148 => k0_hw148
def k0_off157 (k0_t4 : Fin k0_t4_loop.trips) : Fin 2 → Nat :=
  let c48_i32 : BitVec 32 := 48#32
  let v653 : Index := Scalar.indexCast c48_i32
  let c0_i32_16 : BitVec 32 := 0#32
  let c1_i32_17 : BitVec 32 := 1#32
  let arg18 : BitVec 32 := Scf.iv c0_i32_16 c1_i32_17 k0_t4
  let c16_i32_235 : BitVec 32 := 16#32
  let v652 : BitVec 32 := Scalar.muli arg18 c16_i32_235
  let v654 : Index := Scalar.indexCast v652
  ![48, v654.toNat]

def k0_chk149 (v655 : IVec S16 32) : Prop :=
  (∀ a x, ((![v655] : Fin 1 → IVec S16 32) a x).toNat < S100000.size a)
instance k0_chk149.dec : ∀ (v655 : IVec S16 32), Decidable (k0_chk149 v655) := fun v655 => decidable_of_iff' _ (Iff.of_eq (k0_chk149.eq_1 v655))
theorem k0_idx149_inb : ∀ (v655 : IVec S16 32) (k0_hw149 : k0_chk149 v655), ∀ a x, ((![v655] : Fin 1 → IVec S16 32) a x).toNat < S100000.size a := fun v655 k0_hw149 => k0_hw149
def k0_off158 (k0_t4 : Fin k0_t4_loop.trips) : Fin 2 → Nat :=
  let c49_i32 : BitVec 32 := 49#32
  let v666 : Index := Scalar.indexCast c49_i32
  let c0_i32_16 : BitVec 32 := 0#32
  let c1_i32_17 : BitVec 32 := 1#32
  let arg18 : BitVec 32 := Scf.iv c0_i32_16 c1_i32_17 k0_t4
  let c16_i32_239 : BitVec 32 := 16#32
  let v665 : BitVec 32 := Scalar.muli arg18 c16_i32_239
  let v667 : Index := Scalar.indexCast v665
  ![49, v667.toNat]

def k0_chk150 (v668 : IVec S16 32) : Prop :=
  (∀ a x, ((![v668] : Fin 1 → IVec S16 32) a x).toNat < S100000.size a)
instance k0_chk150.dec : ∀ (v668 : IVec S16 32), Decidable (k0_chk150 v668) := fun v668 => decidable_of_iff' _ (Iff.of_eq (k0_chk150.eq_1 v668))
theorem k0_idx150_inb : ∀ (v668 : IVec S16 32) (k0_hw150 : k0_chk150 v668), ∀ a x, ((![v668] : Fin 1 → IVec S16 32) a x).toNat < S100000.size a := fun v668 k0_hw150 => k0_hw150
def k0_off159 (k0_t4 : Fin k0_t4_loop.trips) : Fin 2 → Nat :=
  let c3840_i32_246 : BitVec 32 := 3840#32
  let c0_i32_16 : BitVec 32 := 0#32
  let c1_i32_17 : BitVec 32 := 1#32
  let arg18 : BitVec 32 := Scf.iv c0_i32_16 c1_i32_17 k0_t4
  let c16_i32_245 : BitVec 32 := 16#32
  let v682 : BitVec 32 := Scalar.muli arg18 c16_i32_245
  let v683 : BitVec 32 := Scalar.addi c3840_i32_246 v682
  let c0_i32_247 : BitVec 32 := 0#32
  let v686 : BitVec 1 := Scalar.cmpi .sgt v683 c0_i32_247
  let v687 : BitVec 32 := Scalar.extui v686
  let c0_i32_248 : BitVec 32 := 0#32
  let v688 : BitVec 1 := Scalar.cmpi .slt v683 c0_i32_248
  let v689 : BitVec 32 := Scalar.extui v688
  let v690 : BitVec 32 := Scalar.subi v687 v689
  let c128_i32 : BitVec 32 := 128#32
  let c0_i32_249 : BitVec 32 := 0#32
  let v691 : BitVec 1 := Scalar.cmpi .sgt c128_i32 c0_i32_249
  let v692 : BitVec 32 := Scalar.extui v691
  let c0_i32_250 : BitVec 32 := 0#32
  let v693 : BitVec 1 := Scalar.cmpi .slt c128_i32 c0_i32_250
  let v694 : BitVec 32 := Scalar.extui v693
  let v695 : BitVec 32 := Scalar.subi v692 v694
  let v696 : BitVec 1 := Scalar.cmpi .ne v690 v695
  let v697 : BitVec 32 := Scalar.remsi v683 c128_i32
  let c0_i32_251 : BitVec 32 := 0#32
  let v698 : BitVec 1 := Scalar.cmpi .ne v697 c0_i32_251
  let v699 : BitVec 1 := Scalar.andi v696 v698
  let v685 : BitVec 32 := Scalar.divsi v683 c128_i32
  let c1_i32_252 : BitVec 32 := 1#32
  let v700 : BitVec 32 := Scalar.subi v685 c1_i32_252
  let v701 : BitVec 32 := Scalar.select v699 v700 v685
  let v712 : Index := Scalar.indexCast v701
  let c128_i32_253 : BitVec 32 := 128#32
  let c0_i32_254 : BitVec 32 := 0#32
  let v702 : BitVec 1 := Scalar.cmpi .eq c128_i32_253 c0_i32_254
  let c1_i32_255 : BitVec 32 := 1#32
  let v703 : BitVec 32 := Scalar.select v702 c1_i32_255 c128_i32_253
  let v704 : BitVec 32 := Scalar.remsi v683 v703
  let c0_i32_257 : BitVec 32 := 0#32
  let v706 : BitVec 1 := Scalar.cmpi .slt v704 c0_i32_257
  let c0_i32_258 : BitVec 32 := 0#32
  let v707 : BitVec 1 := Scalar.cmpi .slt v703 c0_i32_258
  let v708 : BitVec 1 := Scalar.xori v706 v707
  let c0_i32_256 : BitVec 32 := 0#32
  let v705 : BitVec 1 := Scalar.cmpi .ne v704 c0_i32_256
  let v709 : BitVec 1 := Scalar.andi v708 v705
  let v710 : BitVec 32 := Scalar.addi v704 v703
  let v711 : BitVec 32 := Scalar.select v709 v710 v704
  let v713 : Index := Scalar.indexCast v711
  ![v712.toNat, v713.toNat]
@[reducible] def k0_t5_loop : Scf.Loop 32 :=
  let c0_i32_25 : BitVec 32 := 0#32
  let c8_i32_26 : BitVec 32 := 8#32
  let v20 : BitVec 32 := Scalar.addi c0_i32_25 c8_i32_26
  let c1_i32_27 : BitVec 32 := 1#32
  ⟨c0_i32_25, v20, c1_i32_27⟩
def k0_off160 (k0_t5 : Fin k0_t5_loop.trips) : Fin 1 → Nat :=
  let c3968_i32 : BitVec 32 := 3968#32
  let c0_i32_25 : BitVec 32 := 0#32
  let c1_i32_27 : BitVec 32 := 1#32
  let arg18 : BitVec 32 := Scf.iv c0_i32_25 c1_i32_27 k0_t5
  let c16_i32 : BitVec 32 := 16#32
  let v23 : BitVec 32 := Scalar.muli arg18 c16_i32
  let v24 : BitVec 32 := Scalar.addi c3968_i32 v23
  let v25 : Index := Scalar.indexCast v24
  ![v25.toNat]
def k0_off161 (k0_t5 : Fin k0_t5_loop.trips) : Fin 2 → Nat :=
  let c0_i32_34 : BitVec 32 := 0#32
  let v29 : Index := Scalar.indexCast c0_i32_34
  let c0_i32_25 : BitVec 32 := 0#32
  let c1_i32_27 : BitVec 32 := 1#32
  let arg18 : BitVec 32 := Scf.iv c0_i32_25 c1_i32_27 k0_t5
  let c16_i32_33 : BitVec 32 := 16#32
  let v28 : BitVec 32 := Scalar.muli arg18 c16_i32_33
  let v30 : Index := Scalar.indexCast v28
  ![0, v30.toNat]

def k0_chk151 (v31 : IVec S16 32) : Prop :=
  (∀ a x, ((![v31] : Fin 1 → IVec S16 32) a x).toNat < S100000.size a)
instance k0_chk151.dec : ∀ (v31 : IVec S16 32), Decidable (k0_chk151 v31) := fun v31 => decidable_of_iff' _ (Iff.of_eq (k0_chk151.eq_1 v31))
theorem k0_idx151_inb : ∀ (v31 : IVec S16 32) (k0_hw151 : k0_chk151 v31), ∀ a x, ((![v31] : Fin 1 → IVec S16 32) a x).toNat < S100000.size a := fun v31 k0_hw151 => k0_hw151
def k0_off162 (k0_t5 : Fin k0_t5_loop.trips) : Fin 2 → Nat :=
  let c1_i32_39 : BitVec 32 := 1#32
  let v42 : Index := Scalar.indexCast c1_i32_39
  let c0_i32_25 : BitVec 32 := 0#32
  let c1_i32_27 : BitVec 32 := 1#32
  let arg18 : BitVec 32 := Scf.iv c0_i32_25 c1_i32_27 k0_t5
  let c16_i32_38 : BitVec 32 := 16#32
  let v41 : BitVec 32 := Scalar.muli arg18 c16_i32_38
  let v43 : Index := Scalar.indexCast v41
  ![1, v43.toNat]

def k0_chk152 (v44 : IVec S16 32) : Prop :=
  (∀ a x, ((![v44] : Fin 1 → IVec S16 32) a x).toNat < S100000.size a)
instance k0_chk152.dec : ∀ (v44 : IVec S16 32), Decidable (k0_chk152 v44) := fun v44 => decidable_of_iff' _ (Iff.of_eq (k0_chk152.eq_1 v44))
theorem k0_idx152_inb : ∀ (v44 : IVec S16 32) (k0_hw152 : k0_chk152 v44), ∀ a x, ((![v44] : Fin 1 → IVec S16 32) a x).toNat < S100000.size a := fun v44 k0_hw152 => k0_hw152
def k0_off163 (k0_t5 : Fin k0_t5_loop.trips) : Fin 2 → Nat :=
  let c2_i32_44 : BitVec 32 := 2#32
  let v55 : Index := Scalar.indexCast c2_i32_44
  let c0_i32_25 : BitVec 32 := 0#32
  let c1_i32_27 : BitVec 32 := 1#32
  let arg18 : BitVec 32 := Scf.iv c0_i32_25 c1_i32_27 k0_t5
  let c16_i32_43 : BitVec 32 := 16#32
  let v54 : BitVec 32 := Scalar.muli arg18 c16_i32_43
  let v56 : Index := Scalar.indexCast v54
  ![2, v56.toNat]

def k0_chk153 (v57 : IVec S16 32) : Prop :=
  (∀ a x, ((![v57] : Fin 1 → IVec S16 32) a x).toNat < S100000.size a)
instance k0_chk153.dec : ∀ (v57 : IVec S16 32), Decidable (k0_chk153 v57) := fun v57 => decidable_of_iff' _ (Iff.of_eq (k0_chk153.eq_1 v57))
theorem k0_idx153_inb : ∀ (v57 : IVec S16 32) (k0_hw153 : k0_chk153 v57), ∀ a x, ((![v57] : Fin 1 → IVec S16 32) a x).toNat < S100000.size a := fun v57 k0_hw153 => k0_hw153
def k0_off164 (k0_t5 : Fin k0_t5_loop.trips) : Fin 2 → Nat :=
  let c3_i32 : BitVec 32 := 3#32
  let v68 : Index := Scalar.indexCast c3_i32
  let c0_i32_25 : BitVec 32 := 0#32
  let c1_i32_27 : BitVec 32 := 1#32
  let arg18 : BitVec 32 := Scf.iv c0_i32_25 c1_i32_27 k0_t5
  let c16_i32_48 : BitVec 32 := 16#32
  let v67 : BitVec 32 := Scalar.muli arg18 c16_i32_48
  let v69 : Index := Scalar.indexCast v67
  ![3, v69.toNat]

def k0_chk154 (v70 : IVec S16 32) : Prop :=
  (∀ a x, ((![v70] : Fin 1 → IVec S16 32) a x).toNat < S100000.size a)
instance k0_chk154.dec : ∀ (v70 : IVec S16 32), Decidable (k0_chk154 v70) := fun v70 => decidable_of_iff' _ (Iff.of_eq (k0_chk154.eq_1 v70))
theorem k0_idx154_inb : ∀ (v70 : IVec S16 32) (k0_hw154 : k0_chk154 v70), ∀ a x, ((![v70] : Fin 1 → IVec S16 32) a x).toNat < S100000.size a := fun v70 k0_hw154 => k0_hw154
def k0_off165 (k0_t5 : Fin k0_t5_loop.trips) : Fin 2 → Nat :=
  let c4_i32 : BitVec 32 := 4#32
  let v81 : Index := Scalar.indexCast c4_i32
  let c0_i32_25 : BitVec 32 := 0#32
  let c1_i32_27 : BitVec 32 := 1#32
  let arg18 : BitVec 32 := Scf.iv c0_i32_25 c1_i32_27 k0_t5
  let c16_i32_52 : BitVec 32 := 16#32
  let v80 : BitVec 32 := Scalar.muli arg18 c16_i32_52
  let v82 : Index := Scalar.indexCast v80
  ![4, v82.toNat]

def k0_chk155 (v83 : IVec S16 32) : Prop :=
  (∀ a x, ((![v83] : Fin 1 → IVec S16 32) a x).toNat < S100000.size a)
instance k0_chk155.dec : ∀ (v83 : IVec S16 32), Decidable (k0_chk155 v83) := fun v83 => decidable_of_iff' _ (Iff.of_eq (k0_chk155.eq_1 v83))
theorem k0_idx155_inb : ∀ (v83 : IVec S16 32) (k0_hw155 : k0_chk155 v83), ∀ a x, ((![v83] : Fin 1 → IVec S16 32) a x).toNat < S100000.size a := fun v83 k0_hw155 => k0_hw155
def k0_off166 (k0_t5 : Fin k0_t5_loop.trips) : Fin 2 → Nat :=
  let c5_i32 : BitVec 32 := 5#32
  let v94 : Index := Scalar.indexCast c5_i32
  let c0_i32_25 : BitVec 32 := 0#32
  let c1_i32_27 : BitVec 32 := 1#32
  let arg18 : BitVec 32 := Scf.iv c0_i32_25 c1_i32_27 k0_t5
  let c16_i32_56 : BitVec 32 := 16#32
  let v93 : BitVec 32 := Scalar.muli arg18 c16_i32_56
  let v95 : Index := Scalar.indexCast v93
  ![5, v95.toNat]

def k0_chk156 (v96 : IVec S16 32) : Prop :=
  (∀ a x, ((![v96] : Fin 1 → IVec S16 32) a x).toNat < S100000.size a)
instance k0_chk156.dec : ∀ (v96 : IVec S16 32), Decidable (k0_chk156 v96) := fun v96 => decidable_of_iff' _ (Iff.of_eq (k0_chk156.eq_1 v96))
theorem k0_idx156_inb : ∀ (v96 : IVec S16 32) (k0_hw156 : k0_chk156 v96), ∀ a x, ((![v96] : Fin 1 → IVec S16 32) a x).toNat < S100000.size a := fun v96 k0_hw156 => k0_hw156
def k0_off167 (k0_t5 : Fin k0_t5_loop.trips) : Fin 2 → Nat :=
  let c6_i32 : BitVec 32 := 6#32
  let v107 : Index := Scalar.indexCast c6_i32
  let c0_i32_25 : BitVec 32 := 0#32
  let c1_i32_27 : BitVec 32 := 1#32
  let arg18 : BitVec 32 := Scf.iv c0_i32_25 c1_i32_27 k0_t5
  let c16_i32_60 : BitVec 32 := 16#32
  let v106 : BitVec 32 := Scalar.muli arg18 c16_i32_60
  let v108 : Index := Scalar.indexCast v106
  ![6, v108.toNat]

def k0_chk157 (v109 : IVec S16 32) : Prop :=
  (∀ a x, ((![v109] : Fin 1 → IVec S16 32) a x).toNat < S100000.size a)
instance k0_chk157.dec : ∀ (v109 : IVec S16 32), Decidable (k0_chk157 v109) := fun v109 => decidable_of_iff' _ (Iff.of_eq (k0_chk157.eq_1 v109))
theorem k0_idx157_inb : ∀ (v109 : IVec S16 32) (k0_hw157 : k0_chk157 v109), ∀ a x, ((![v109] : Fin 1 → IVec S16 32) a x).toNat < S100000.size a := fun v109 k0_hw157 => k0_hw157
def k0_off168 (k0_t5 : Fin k0_t5_loop.trips) : Fin 2 → Nat :=
  let c7_i32 : BitVec 32 := 7#32
  let v120 : Index := Scalar.indexCast c7_i32
  let c0_i32_25 : BitVec 32 := 0#32
  let c1_i32_27 : BitVec 32 := 1#32
  let arg18 : BitVec 32 := Scf.iv c0_i32_25 c1_i32_27 k0_t5
  let c16_i32_64 : BitVec 32 := 16#32
  let v119 : BitVec 32 := Scalar.muli arg18 c16_i32_64
  let v121 : Index := Scalar.indexCast v119
  ![7, v121.toNat]

def k0_chk158 (v122 : IVec S16 32) : Prop :=
  (∀ a x, ((![v122] : Fin 1 → IVec S16 32) a x).toNat < S100000.size a)
instance k0_chk158.dec : ∀ (v122 : IVec S16 32), Decidable (k0_chk158 v122) := fun v122 => decidable_of_iff' _ (Iff.of_eq (k0_chk158.eq_1 v122))
theorem k0_idx158_inb : ∀ (v122 : IVec S16 32) (k0_hw158 : k0_chk158 v122), ∀ a x, ((![v122] : Fin 1 → IVec S16 32) a x).toNat < S100000.size a := fun v122 k0_hw158 => k0_hw158
def k0_off169 (k0_t5 : Fin k0_t5_loop.trips) : Fin 2 → Nat :=
  let c8_i32_69 : BitVec 32 := 8#32
  let v133 : Index := Scalar.indexCast c8_i32_69
  let c0_i32_25 : BitVec 32 := 0#32
  let c1_i32_27 : BitVec 32 := 1#32
  let arg18 : BitVec 32 := Scf.iv c0_i32_25 c1_i32_27 k0_t5
  let c16_i32_68 : BitVec 32 := 16#32
  let v132 : BitVec 32 := Scalar.muli arg18 c16_i32_68
  let v134 : Index := Scalar.indexCast v132
  ![8, v134.toNat]

def k0_chk159 (v135 : IVec S16 32) : Prop :=
  (∀ a x, ((![v135] : Fin 1 → IVec S16 32) a x).toNat < S100000.size a)
instance k0_chk159.dec : ∀ (v135 : IVec S16 32), Decidable (k0_chk159 v135) := fun v135 => decidable_of_iff' _ (Iff.of_eq (k0_chk159.eq_1 v135))
theorem k0_idx159_inb : ∀ (v135 : IVec S16 32) (k0_hw159 : k0_chk159 v135), ∀ a x, ((![v135] : Fin 1 → IVec S16 32) a x).toNat < S100000.size a := fun v135 k0_hw159 => k0_hw159
def k0_off170 (k0_t5 : Fin k0_t5_loop.trips) : Fin 2 → Nat :=
  let c9_i32 : BitVec 32 := 9#32
  let v146 : Index := Scalar.indexCast c9_i32
  let c0_i32_25 : BitVec 32 := 0#32
  let c1_i32_27 : BitVec 32 := 1#32
  let arg18 : BitVec 32 := Scf.iv c0_i32_25 c1_i32_27 k0_t5
  let c16_i32_73 : BitVec 32 := 16#32
  let v145 : BitVec 32 := Scalar.muli arg18 c16_i32_73
  let v147 : Index := Scalar.indexCast v145
  ![9, v147.toNat]

def k0_chk160 (v148 : IVec S16 32) : Prop :=
  (∀ a x, ((![v148] : Fin 1 → IVec S16 32) a x).toNat < S100000.size a)
instance k0_chk160.dec : ∀ (v148 : IVec S16 32), Decidable (k0_chk160 v148) := fun v148 => decidable_of_iff' _ (Iff.of_eq (k0_chk160.eq_1 v148))
theorem k0_idx160_inb : ∀ (v148 : IVec S16 32) (k0_hw160 : k0_chk160 v148), ∀ a x, ((![v148] : Fin 1 → IVec S16 32) a x).toNat < S100000.size a := fun v148 k0_hw160 => k0_hw160
def k0_off171 (k0_t5 : Fin k0_t5_loop.trips) : Fin 2 → Nat :=
  let c10_i32 : BitVec 32 := 10#32
  let v159 : Index := Scalar.indexCast c10_i32
  let c0_i32_25 : BitVec 32 := 0#32
  let c1_i32_27 : BitVec 32 := 1#32
  let arg18 : BitVec 32 := Scf.iv c0_i32_25 c1_i32_27 k0_t5
  let c16_i32_77 : BitVec 32 := 16#32
  let v158 : BitVec 32 := Scalar.muli arg18 c16_i32_77
  let v160 : Index := Scalar.indexCast v158
  ![10, v160.toNat]

def k0_chk161 (v161 : IVec S16 32) : Prop :=
  (∀ a x, ((![v161] : Fin 1 → IVec S16 32) a x).toNat < S100000.size a)
instance k0_chk161.dec : ∀ (v161 : IVec S16 32), Decidable (k0_chk161 v161) := fun v161 => decidable_of_iff' _ (Iff.of_eq (k0_chk161.eq_1 v161))
theorem k0_idx161_inb : ∀ (v161 : IVec S16 32) (k0_hw161 : k0_chk161 v161), ∀ a x, ((![v161] : Fin 1 → IVec S16 32) a x).toNat < S100000.size a := fun v161 k0_hw161 => k0_hw161
def k0_off172 (k0_t5 : Fin k0_t5_loop.trips) : Fin 2 → Nat :=
  let c11_i32 : BitVec 32 := 11#32
  let v172 : Index := Scalar.indexCast c11_i32
  let c0_i32_25 : BitVec 32 := 0#32
  let c1_i32_27 : BitVec 32 := 1#32
  let arg18 : BitVec 32 := Scf.iv c0_i32_25 c1_i32_27 k0_t5
  let c16_i32_81 : BitVec 32 := 16#32
  let v171 : BitVec 32 := Scalar.muli arg18 c16_i32_81
  let v173 : Index := Scalar.indexCast v171
  ![11, v173.toNat]

def k0_chk162 (v174 : IVec S16 32) : Prop :=
  (∀ a x, ((![v174] : Fin 1 → IVec S16 32) a x).toNat < S100000.size a)
instance k0_chk162.dec : ∀ (v174 : IVec S16 32), Decidable (k0_chk162 v174) := fun v174 => decidable_of_iff' _ (Iff.of_eq (k0_chk162.eq_1 v174))
theorem k0_idx162_inb : ∀ (v174 : IVec S16 32) (k0_hw162 : k0_chk162 v174), ∀ a x, ((![v174] : Fin 1 → IVec S16 32) a x).toNat < S100000.size a := fun v174 k0_hw162 => k0_hw162
def k0_off173 (k0_t5 : Fin k0_t5_loop.trips) : Fin 2 → Nat :=
  let c12_i32 : BitVec 32 := 12#32
  let v185 : Index := Scalar.indexCast c12_i32
  let c0_i32_25 : BitVec 32 := 0#32
  let c1_i32_27 : BitVec 32 := 1#32
  let arg18 : BitVec 32 := Scf.iv c0_i32_25 c1_i32_27 k0_t5
  let c16_i32_85 : BitVec 32 := 16#32
  let v184 : BitVec 32 := Scalar.muli arg18 c16_i32_85
  let v186 : Index := Scalar.indexCast v184
  ![12, v186.toNat]

def k0_chk163 (v187 : IVec S16 32) : Prop :=
  (∀ a x, ((![v187] : Fin 1 → IVec S16 32) a x).toNat < S100000.size a)
instance k0_chk163.dec : ∀ (v187 : IVec S16 32), Decidable (k0_chk163 v187) := fun v187 => decidable_of_iff' _ (Iff.of_eq (k0_chk163.eq_1 v187))
theorem k0_idx163_inb : ∀ (v187 : IVec S16 32) (k0_hw163 : k0_chk163 v187), ∀ a x, ((![v187] : Fin 1 → IVec S16 32) a x).toNat < S100000.size a := fun v187 k0_hw163 => k0_hw163
def k0_off174 (k0_t5 : Fin k0_t5_loop.trips) : Fin 2 → Nat :=
  let c13_i32 : BitVec 32 := 13#32
  let v198 : Index := Scalar.indexCast c13_i32
  let c0_i32_25 : BitVec 32 := 0#32
  let c1_i32_27 : BitVec 32 := 1#32
  let arg18 : BitVec 32 := Scf.iv c0_i32_25 c1_i32_27 k0_t5
  let c16_i32_89 : BitVec 32 := 16#32
  let v197 : BitVec 32 := Scalar.muli arg18 c16_i32_89
  let v199 : Index := Scalar.indexCast v197
  ![13, v199.toNat]

def k0_chk164 (v200 : IVec S16 32) : Prop :=
  (∀ a x, ((![v200] : Fin 1 → IVec S16 32) a x).toNat < S100000.size a)
instance k0_chk164.dec : ∀ (v200 : IVec S16 32), Decidable (k0_chk164 v200) := fun v200 => decidable_of_iff' _ (Iff.of_eq (k0_chk164.eq_1 v200))
theorem k0_idx164_inb : ∀ (v200 : IVec S16 32) (k0_hw164 : k0_chk164 v200), ∀ a x, ((![v200] : Fin 1 → IVec S16 32) a x).toNat < S100000.size a := fun v200 k0_hw164 => k0_hw164
def k0_off175 (k0_t5 : Fin k0_t5_loop.trips) : Fin 2 → Nat :=
  let c14_i32 : BitVec 32 := 14#32
  let v211 : Index := Scalar.indexCast c14_i32
  let c0_i32_25 : BitVec 32 := 0#32
  let c1_i32_27 : BitVec 32 := 1#32
  let arg18 : BitVec 32 := Scf.iv c0_i32_25 c1_i32_27 k0_t5
  let c16_i32_93 : BitVec 32 := 16#32
  let v210 : BitVec 32 := Scalar.muli arg18 c16_i32_93
  let v212 : Index := Scalar.indexCast v210
  ![14, v212.toNat]

def k0_chk165 (v213 : IVec S16 32) : Prop :=
  (∀ a x, ((![v213] : Fin 1 → IVec S16 32) a x).toNat < S100000.size a)
instance k0_chk165.dec : ∀ (v213 : IVec S16 32), Decidable (k0_chk165 v213) := fun v213 => decidable_of_iff' _ (Iff.of_eq (k0_chk165.eq_1 v213))
theorem k0_idx165_inb : ∀ (v213 : IVec S16 32) (k0_hw165 : k0_chk165 v213), ∀ a x, ((![v213] : Fin 1 → IVec S16 32) a x).toNat < S100000.size a := fun v213 k0_hw165 => k0_hw165
def k0_off176 (k0_t5 : Fin k0_t5_loop.trips) : Fin 2 → Nat :=
  let c15_i32_98 : BitVec 32 := 15#32
  let v224 : Index := Scalar.indexCast c15_i32_98
  let c0_i32_25 : BitVec 32 := 0#32
  let c1_i32_27 : BitVec 32 := 1#32
  let arg18 : BitVec 32 := Scf.iv c0_i32_25 c1_i32_27 k0_t5
  let c16_i32_97 : BitVec 32 := 16#32
  let v223 : BitVec 32 := Scalar.muli arg18 c16_i32_97
  let v225 : Index := Scalar.indexCast v223
  ![15, v225.toNat]

def k0_chk166 (v226 : IVec S16 32) : Prop :=
  (∀ a x, ((![v226] : Fin 1 → IVec S16 32) a x).toNat < S100000.size a)
instance k0_chk166.dec : ∀ (v226 : IVec S16 32), Decidable (k0_chk166 v226) := fun v226 => decidable_of_iff' _ (Iff.of_eq (k0_chk166.eq_1 v226))
theorem k0_idx166_inb : ∀ (v226 : IVec S16 32) (k0_hw166 : k0_chk166 v226), ∀ a x, ((![v226] : Fin 1 → IVec S16 32) a x).toNat < S100000.size a := fun v226 k0_hw166 => k0_hw166
def k0_off177 (k0_t5 : Fin k0_t5_loop.trips) : Fin 2 → Nat :=
  let c16_i32_103 : BitVec 32 := 16#32
  let v237 : Index := Scalar.indexCast c16_i32_103
  let c0_i32_25 : BitVec 32 := 0#32
  let c1_i32_27 : BitVec 32 := 1#32
  let arg18 : BitVec 32 := Scf.iv c0_i32_25 c1_i32_27 k0_t5
  let c16_i32_102 : BitVec 32 := 16#32
  let v236 : BitVec 32 := Scalar.muli arg18 c16_i32_102
  let v238 : Index := Scalar.indexCast v236
  ![16, v238.toNat]

def k0_chk167 (v239 : IVec S16 32) : Prop :=
  (∀ a x, ((![v239] : Fin 1 → IVec S16 32) a x).toNat < S100000.size a)
instance k0_chk167.dec : ∀ (v239 : IVec S16 32), Decidable (k0_chk167 v239) := fun v239 => decidable_of_iff' _ (Iff.of_eq (k0_chk167.eq_1 v239))
theorem k0_idx167_inb : ∀ (v239 : IVec S16 32) (k0_hw167 : k0_chk167 v239), ∀ a x, ((![v239] : Fin 1 → IVec S16 32) a x).toNat < S100000.size a := fun v239 k0_hw167 => k0_hw167
def k0_off178 (k0_t5 : Fin k0_t5_loop.trips) : Fin 2 → Nat :=
  let c17_i32 : BitVec 32 := 17#32
  let v250 : Index := Scalar.indexCast c17_i32
  let c0_i32_25 : BitVec 32 := 0#32
  let c1_i32_27 : BitVec 32 := 1#32
  let arg18 : BitVec 32 := Scf.iv c0_i32_25 c1_i32_27 k0_t5
  let c16_i32_107 : BitVec 32 := 16#32
  let v249 : BitVec 32 := Scalar.muli arg18 c16_i32_107
  let v251 : Index := Scalar.indexCast v249
  ![17, v251.toNat]

def k0_chk168 (v252 : IVec S16 32) : Prop :=
  (∀ a x, ((![v252] : Fin 1 → IVec S16 32) a x).toNat < S100000.size a)
instance k0_chk168.dec : ∀ (v252 : IVec S16 32), Decidable (k0_chk168 v252) := fun v252 => decidable_of_iff' _ (Iff.of_eq (k0_chk168.eq_1 v252))
theorem k0_idx168_inb : ∀ (v252 : IVec S16 32) (k0_hw168 : k0_chk168 v252), ∀ a x, ((![v252] : Fin 1 → IVec S16 32) a x).toNat < S100000.size a := fun v252 k0_hw168 => k0_hw168
def k0_off179 (k0_t5 : Fin k0_t5_loop.trips) : Fin 2 → Nat :=
  let c18_i32 : BitVec 32 := 18#32
  let v263 : Index := Scalar.indexCast c18_i32
  let c0_i32_25 : BitVec 32 := 0#32
  let c1_i32_27 : BitVec 32 := 1#32
  let arg18 : BitVec 32 := Scf.iv c0_i32_25 c1_i32_27 k0_t5
  let c16_i32_111 : BitVec 32 := 16#32
  let v262 : BitVec 32 := Scalar.muli arg18 c16_i32_111
  let v264 : Index := Scalar.indexCast v262
  ![18, v264.toNat]

def k0_chk169 (v265 : IVec S16 32) : Prop :=
  (∀ a x, ((![v265] : Fin 1 → IVec S16 32) a x).toNat < S100000.size a)
instance k0_chk169.dec : ∀ (v265 : IVec S16 32), Decidable (k0_chk169 v265) := fun v265 => decidable_of_iff' _ (Iff.of_eq (k0_chk169.eq_1 v265))
theorem k0_idx169_inb : ∀ (v265 : IVec S16 32) (k0_hw169 : k0_chk169 v265), ∀ a x, ((![v265] : Fin 1 → IVec S16 32) a x).toNat < S100000.size a := fun v265 k0_hw169 => k0_hw169
def k0_off180 (k0_t5 : Fin k0_t5_loop.trips) : Fin 2 → Nat :=
  let c19_i32 : BitVec 32 := 19#32
  let v276 : Index := Scalar.indexCast c19_i32
  let c0_i32_25 : BitVec 32 := 0#32
  let c1_i32_27 : BitVec 32 := 1#32
  let arg18 : BitVec 32 := Scf.iv c0_i32_25 c1_i32_27 k0_t5
  let c16_i32_115 : BitVec 32 := 16#32
  let v275 : BitVec 32 := Scalar.muli arg18 c16_i32_115
  let v277 : Index := Scalar.indexCast v275
  ![19, v277.toNat]

def k0_chk170 (v278 : IVec S16 32) : Prop :=
  (∀ a x, ((![v278] : Fin 1 → IVec S16 32) a x).toNat < S100000.size a)
instance k0_chk170.dec : ∀ (v278 : IVec S16 32), Decidable (k0_chk170 v278) := fun v278 => decidable_of_iff' _ (Iff.of_eq (k0_chk170.eq_1 v278))
theorem k0_idx170_inb : ∀ (v278 : IVec S16 32) (k0_hw170 : k0_chk170 v278), ∀ a x, ((![v278] : Fin 1 → IVec S16 32) a x).toNat < S100000.size a := fun v278 k0_hw170 => k0_hw170
def k0_off181 (k0_t5 : Fin k0_t5_loop.trips) : Fin 2 → Nat :=
  let c20_i32 : BitVec 32 := 20#32
  let v289 : Index := Scalar.indexCast c20_i32
  let c0_i32_25 : BitVec 32 := 0#32
  let c1_i32_27 : BitVec 32 := 1#32
  let arg18 : BitVec 32 := Scf.iv c0_i32_25 c1_i32_27 k0_t5
  let c16_i32_119 : BitVec 32 := 16#32
  let v288 : BitVec 32 := Scalar.muli arg18 c16_i32_119
  let v290 : Index := Scalar.indexCast v288
  ![20, v290.toNat]

def k0_chk171 (v291 : IVec S16 32) : Prop :=
  (∀ a x, ((![v291] : Fin 1 → IVec S16 32) a x).toNat < S100000.size a)
instance k0_chk171.dec : ∀ (v291 : IVec S16 32), Decidable (k0_chk171 v291) := fun v291 => decidable_of_iff' _ (Iff.of_eq (k0_chk171.eq_1 v291))
theorem k0_idx171_inb : ∀ (v291 : IVec S16 32) (k0_hw171 : k0_chk171 v291), ∀ a x, ((![v291] : Fin 1 → IVec S16 32) a x).toNat < S100000.size a := fun v291 k0_hw171 => k0_hw171
def k0_off182 (k0_t5 : Fin k0_t5_loop.trips) : Fin 2 → Nat :=
  let c21_i32 : BitVec 32 := 21#32
  let v302 : Index := Scalar.indexCast c21_i32
  let c0_i32_25 : BitVec 32 := 0#32
  let c1_i32_27 : BitVec 32 := 1#32
  let arg18 : BitVec 32 := Scf.iv c0_i32_25 c1_i32_27 k0_t5
  let c16_i32_123 : BitVec 32 := 16#32
  let v301 : BitVec 32 := Scalar.muli arg18 c16_i32_123
  let v303 : Index := Scalar.indexCast v301
  ![21, v303.toNat]

def k0_chk172 (v304 : IVec S16 32) : Prop :=
  (∀ a x, ((![v304] : Fin 1 → IVec S16 32) a x).toNat < S100000.size a)
instance k0_chk172.dec : ∀ (v304 : IVec S16 32), Decidable (k0_chk172 v304) := fun v304 => decidable_of_iff' _ (Iff.of_eq (k0_chk172.eq_1 v304))
theorem k0_idx172_inb : ∀ (v304 : IVec S16 32) (k0_hw172 : k0_chk172 v304), ∀ a x, ((![v304] : Fin 1 → IVec S16 32) a x).toNat < S100000.size a := fun v304 k0_hw172 => k0_hw172
def k0_off183 (k0_t5 : Fin k0_t5_loop.trips) : Fin 2 → Nat :=
  let c22_i32 : BitVec 32 := 22#32
  let v315 : Index := Scalar.indexCast c22_i32
  let c0_i32_25 : BitVec 32 := 0#32
  let c1_i32_27 : BitVec 32 := 1#32
  let arg18 : BitVec 32 := Scf.iv c0_i32_25 c1_i32_27 k0_t5
  let c16_i32_127 : BitVec 32 := 16#32
  let v314 : BitVec 32 := Scalar.muli arg18 c16_i32_127
  let v316 : Index := Scalar.indexCast v314
  ![22, v316.toNat]

def k0_chk173 (v317 : IVec S16 32) : Prop :=
  (∀ a x, ((![v317] : Fin 1 → IVec S16 32) a x).toNat < S100000.size a)
instance k0_chk173.dec : ∀ (v317 : IVec S16 32), Decidable (k0_chk173 v317) := fun v317 => decidable_of_iff' _ (Iff.of_eq (k0_chk173.eq_1 v317))
theorem k0_idx173_inb : ∀ (v317 : IVec S16 32) (k0_hw173 : k0_chk173 v317), ∀ a x, ((![v317] : Fin 1 → IVec S16 32) a x).toNat < S100000.size a := fun v317 k0_hw173 => k0_hw173
def k0_off184 (k0_t5 : Fin k0_t5_loop.trips) : Fin 2 → Nat :=
  let c23_i32 : BitVec 32 := 23#32
  let v328 : Index := Scalar.indexCast c23_i32
  let c0_i32_25 : BitVec 32 := 0#32
  let c1_i32_27 : BitVec 32 := 1#32
  let arg18 : BitVec 32 := Scf.iv c0_i32_25 c1_i32_27 k0_t5
  let c16_i32_131 : BitVec 32 := 16#32
  let v327 : BitVec 32 := Scalar.muli arg18 c16_i32_131
  let v329 : Index := Scalar.indexCast v327
  ![23, v329.toNat]

def k0_chk174 (v330 : IVec S16 32) : Prop :=
  (∀ a x, ((![v330] : Fin 1 → IVec S16 32) a x).toNat < S100000.size a)
instance k0_chk174.dec : ∀ (v330 : IVec S16 32), Decidable (k0_chk174 v330) := fun v330 => decidable_of_iff' _ (Iff.of_eq (k0_chk174.eq_1 v330))
theorem k0_idx174_inb : ∀ (v330 : IVec S16 32) (k0_hw174 : k0_chk174 v330), ∀ a x, ((![v330] : Fin 1 → IVec S16 32) a x).toNat < S100000.size a := fun v330 k0_hw174 => k0_hw174
def k0_off185 (k0_t5 : Fin k0_t5_loop.trips) : Fin 2 → Nat :=
  let c24_i32 : BitVec 32 := 24#32
  let v341 : Index := Scalar.indexCast c24_i32
  let c0_i32_25 : BitVec 32 := 0#32
  let c1_i32_27 : BitVec 32 := 1#32
  let arg18 : BitVec 32 := Scf.iv c0_i32_25 c1_i32_27 k0_t5
  let c16_i32_135 : BitVec 32 := 16#32
  let v340 : BitVec 32 := Scalar.muli arg18 c16_i32_135
  let v342 : Index := Scalar.indexCast v340
  ![24, v342.toNat]

def k0_chk175 (v343 : IVec S16 32) : Prop :=
  (∀ a x, ((![v343] : Fin 1 → IVec S16 32) a x).toNat < S100000.size a)
instance k0_chk175.dec : ∀ (v343 : IVec S16 32), Decidable (k0_chk175 v343) := fun v343 => decidable_of_iff' _ (Iff.of_eq (k0_chk175.eq_1 v343))
theorem k0_idx175_inb : ∀ (v343 : IVec S16 32) (k0_hw175 : k0_chk175 v343), ∀ a x, ((![v343] : Fin 1 → IVec S16 32) a x).toNat < S100000.size a := fun v343 k0_hw175 => k0_hw175
def k0_off186 (k0_t5 : Fin k0_t5_loop.trips) : Fin 2 → Nat :=
  let c25_i32 : BitVec 32 := 25#32
  let v354 : Index := Scalar.indexCast c25_i32
  let c0_i32_25 : BitVec 32 := 0#32
  let c1_i32_27 : BitVec 32 := 1#32
  let arg18 : BitVec 32 := Scf.iv c0_i32_25 c1_i32_27 k0_t5
  let c16_i32_139 : BitVec 32 := 16#32
  let v353 : BitVec 32 := Scalar.muli arg18 c16_i32_139
  let v355 : Index := Scalar.indexCast v353
  ![25, v355.toNat]

def k0_chk176 (v356 : IVec S16 32) : Prop :=
  (∀ a x, ((![v356] : Fin 1 → IVec S16 32) a x).toNat < S100000.size a)
instance k0_chk176.dec : ∀ (v356 : IVec S16 32), Decidable (k0_chk176 v356) := fun v356 => decidable_of_iff' _ (Iff.of_eq (k0_chk176.eq_1 v356))
theorem k0_idx176_inb : ∀ (v356 : IVec S16 32) (k0_hw176 : k0_chk176 v356), ∀ a x, ((![v356] : Fin 1 → IVec S16 32) a x).toNat < S100000.size a := fun v356 k0_hw176 => k0_hw176
def k0_off187 (k0_t5 : Fin k0_t5_loop.trips) : Fin 2 → Nat :=
  let c26_i32_144 : BitVec 32 := 26#32
  let v367 : Index := Scalar.indexCast c26_i32_144
  let c0_i32_25 : BitVec 32 := 0#32
  let c1_i32_27 : BitVec 32 := 1#32
  let arg18 : BitVec 32 := Scf.iv c0_i32_25 c1_i32_27 k0_t5
  let c16_i32_143 : BitVec 32 := 16#32
  let v366 : BitVec 32 := Scalar.muli arg18 c16_i32_143
  let v368 : Index := Scalar.indexCast v366
  ![26, v368.toNat]

def k0_chk177 (v369 : IVec S16 32) : Prop :=
  (∀ a x, ((![v369] : Fin 1 → IVec S16 32) a x).toNat < S100000.size a)
instance k0_chk177.dec : ∀ (v369 : IVec S16 32), Decidable (k0_chk177 v369) := fun v369 => decidable_of_iff' _ (Iff.of_eq (k0_chk177.eq_1 v369))
theorem k0_idx177_inb : ∀ (v369 : IVec S16 32) (k0_hw177 : k0_chk177 v369), ∀ a x, ((![v369] : Fin 1 → IVec S16 32) a x).toNat < S100000.size a := fun v369 k0_hw177 => k0_hw177
def k0_off188 (k0_t5 : Fin k0_t5_loop.trips) : Fin 2 → Nat :=
  let c27_i32 : BitVec 32 := 27#32
  let v380 : Index := Scalar.indexCast c27_i32
  let c0_i32_25 : BitVec 32 := 0#32
  let c1_i32_27 : BitVec 32 := 1#32
  let arg18 : BitVec 32 := Scf.iv c0_i32_25 c1_i32_27 k0_t5
  let c16_i32_148 : BitVec 32 := 16#32
  let v379 : BitVec 32 := Scalar.muli arg18 c16_i32_148
  let v381 : Index := Scalar.indexCast v379
  ![27, v381.toNat]

def k0_chk178 (v382 : IVec S16 32) : Prop :=
  (∀ a x, ((![v382] : Fin 1 → IVec S16 32) a x).toNat < S100000.size a)
instance k0_chk178.dec : ∀ (v382 : IVec S16 32), Decidable (k0_chk178 v382) := fun v382 => decidable_of_iff' _ (Iff.of_eq (k0_chk178.eq_1 v382))
theorem k0_idx178_inb : ∀ (v382 : IVec S16 32) (k0_hw178 : k0_chk178 v382), ∀ a x, ((![v382] : Fin 1 → IVec S16 32) a x).toNat < S100000.size a := fun v382 k0_hw178 => k0_hw178
def k0_off189 (k0_t5 : Fin k0_t5_loop.trips) : Fin 2 → Nat :=
  let c28_i32 : BitVec 32 := 28#32
  let v393 : Index := Scalar.indexCast c28_i32
  let c0_i32_25 : BitVec 32 := 0#32
  let c1_i32_27 : BitVec 32 := 1#32
  let arg18 : BitVec 32 := Scf.iv c0_i32_25 c1_i32_27 k0_t5
  let c16_i32_152 : BitVec 32 := 16#32
  let v392 : BitVec 32 := Scalar.muli arg18 c16_i32_152
  let v394 : Index := Scalar.indexCast v392
  ![28, v394.toNat]

def k0_chk179 (v395 : IVec S16 32) : Prop :=
  (∀ a x, ((![v395] : Fin 1 → IVec S16 32) a x).toNat < S100000.size a)
instance k0_chk179.dec : ∀ (v395 : IVec S16 32), Decidable (k0_chk179 v395) := fun v395 => decidable_of_iff' _ (Iff.of_eq (k0_chk179.eq_1 v395))
theorem k0_idx179_inb : ∀ (v395 : IVec S16 32) (k0_hw179 : k0_chk179 v395), ∀ a x, ((![v395] : Fin 1 → IVec S16 32) a x).toNat < S100000.size a := fun v395 k0_hw179 => k0_hw179
def k0_off190 (k0_t5 : Fin k0_t5_loop.trips) : Fin 2 → Nat :=
  let c29_i32 : BitVec 32 := 29#32
  let v406 : Index := Scalar.indexCast c29_i32
  let c0_i32_25 : BitVec 32 := 0#32
  let c1_i32_27 : BitVec 32 := 1#32
  let arg18 : BitVec 32 := Scf.iv c0_i32_25 c1_i32_27 k0_t5
  let c16_i32_156 : BitVec 32 := 16#32
  let v405 : BitVec 32 := Scalar.muli arg18 c16_i32_156
  let v407 : Index := Scalar.indexCast v405
  ![29, v407.toNat]

def k0_chk180 (v408 : IVec S16 32) : Prop :=
  (∀ a x, ((![v408] : Fin 1 → IVec S16 32) a x).toNat < S100000.size a)
instance k0_chk180.dec : ∀ (v408 : IVec S16 32), Decidable (k0_chk180 v408) := fun v408 => decidable_of_iff' _ (Iff.of_eq (k0_chk180.eq_1 v408))
theorem k0_idx180_inb : ∀ (v408 : IVec S16 32) (k0_hw180 : k0_chk180 v408), ∀ a x, ((![v408] : Fin 1 → IVec S16 32) a x).toNat < S100000.size a := fun v408 k0_hw180 => k0_hw180
def k0_off191 (k0_t5 : Fin k0_t5_loop.trips) : Fin 2 → Nat :=
  let c30_i32_161 : BitVec 32 := 30#32
  let v419 : Index := Scalar.indexCast c30_i32_161
  let c0_i32_25 : BitVec 32 := 0#32
  let c1_i32_27 : BitVec 32 := 1#32
  let arg18 : BitVec 32 := Scf.iv c0_i32_25 c1_i32_27 k0_t5
  let c16_i32_160 : BitVec 32 := 16#32
  let v418 : BitVec 32 := Scalar.muli arg18 c16_i32_160
  let v420 : Index := Scalar.indexCast v418
  ![30, v420.toNat]

def k0_chk181 (v421 : IVec S16 32) : Prop :=
  (∀ a x, ((![v421] : Fin 1 → IVec S16 32) a x).toNat < S100000.size a)
instance k0_chk181.dec : ∀ (v421 : IVec S16 32), Decidable (k0_chk181 v421) := fun v421 => decidable_of_iff' _ (Iff.of_eq (k0_chk181.eq_1 v421))
theorem k0_idx181_inb : ∀ (v421 : IVec S16 32) (k0_hw181 : k0_chk181 v421), ∀ a x, ((![v421] : Fin 1 → IVec S16 32) a x).toNat < S100000.size a := fun v421 k0_hw181 => k0_hw181
def k0_off192 (k0_t5 : Fin k0_t5_loop.trips) : Fin 2 → Nat :=
  let c31_i32_166 : BitVec 32 := 31#32
  let v432 : Index := Scalar.indexCast c31_i32_166
  let c0_i32_25 : BitVec 32 := 0#32
  let c1_i32_27 : BitVec 32 := 1#32
  let arg18 : BitVec 32 := Scf.iv c0_i32_25 c1_i32_27 k0_t5
  let c16_i32_165 : BitVec 32 := 16#32
  let v431 : BitVec 32 := Scalar.muli arg18 c16_i32_165
  let v433 : Index := Scalar.indexCast v431
  ![31, v433.toNat]

def k0_chk182 (v434 : IVec S16 32) : Prop :=
  (∀ a x, ((![v434] : Fin 1 → IVec S16 32) a x).toNat < S100000.size a)
instance k0_chk182.dec : ∀ (v434 : IVec S16 32), Decidable (k0_chk182 v434) := fun v434 => decidable_of_iff' _ (Iff.of_eq (k0_chk182.eq_1 v434))
theorem k0_idx182_inb : ∀ (v434 : IVec S16 32) (k0_hw182 : k0_chk182 v434), ∀ a x, ((![v434] : Fin 1 → IVec S16 32) a x).toNat < S100000.size a := fun v434 k0_hw182 => k0_hw182
def k0_off193 (k0_t5 : Fin k0_t5_loop.trips) : Fin 2 → Nat :=
  let c32_i32_171 : BitVec 32 := 32#32
  let v445 : Index := Scalar.indexCast c32_i32_171
  let c0_i32_25 : BitVec 32 := 0#32
  let c1_i32_27 : BitVec 32 := 1#32
  let arg18 : BitVec 32 := Scf.iv c0_i32_25 c1_i32_27 k0_t5
  let c16_i32_170 : BitVec 32 := 16#32
  let v444 : BitVec 32 := Scalar.muli arg18 c16_i32_170
  let v446 : Index := Scalar.indexCast v444
  ![32, v446.toNat]

def k0_chk183 (v447 : IVec S16 32) : Prop :=
  (∀ a x, ((![v447] : Fin 1 → IVec S16 32) a x).toNat < S100000.size a)
instance k0_chk183.dec : ∀ (v447 : IVec S16 32), Decidable (k0_chk183 v447) := fun v447 => decidable_of_iff' _ (Iff.of_eq (k0_chk183.eq_1 v447))
theorem k0_idx183_inb : ∀ (v447 : IVec S16 32) (k0_hw183 : k0_chk183 v447), ∀ a x, ((![v447] : Fin 1 → IVec S16 32) a x).toNat < S100000.size a := fun v447 k0_hw183 => k0_hw183
def k0_off194 (k0_t5 : Fin k0_t5_loop.trips) : Fin 2 → Nat :=
  let c33_i32 : BitVec 32 := 33#32
  let v458 : Index := Scalar.indexCast c33_i32
  let c0_i32_25 : BitVec 32 := 0#32
  let c1_i32_27 : BitVec 32 := 1#32
  let arg18 : BitVec 32 := Scf.iv c0_i32_25 c1_i32_27 k0_t5
  let c16_i32_175 : BitVec 32 := 16#32
  let v457 : BitVec 32 := Scalar.muli arg18 c16_i32_175
  let v459 : Index := Scalar.indexCast v457
  ![33, v459.toNat]

def k0_chk184 (v460 : IVec S16 32) : Prop :=
  (∀ a x, ((![v460] : Fin 1 → IVec S16 32) a x).toNat < S100000.size a)
instance k0_chk184.dec : ∀ (v460 : IVec S16 32), Decidable (k0_chk184 v460) := fun v460 => decidable_of_iff' _ (Iff.of_eq (k0_chk184.eq_1 v460))
theorem k0_idx184_inb : ∀ (v460 : IVec S16 32) (k0_hw184 : k0_chk184 v460), ∀ a x, ((![v460] : Fin 1 → IVec S16 32) a x).toNat < S100000.size a := fun v460 k0_hw184 => k0_hw184
def k0_off195 (k0_t5 : Fin k0_t5_loop.trips) : Fin 2 → Nat :=
  let c34_i32 : BitVec 32 := 34#32
  let v471 : Index := Scalar.indexCast c34_i32
  let c0_i32_25 : BitVec 32 := 0#32
  let c1_i32_27 : BitVec 32 := 1#32
  let arg18 : BitVec 32 := Scf.iv c0_i32_25 c1_i32_27 k0_t5
  let c16_i32_179 : BitVec 32 := 16#32
  let v470 : BitVec 32 := Scalar.muli arg18 c16_i32_179
  let v472 : Index := Scalar.indexCast v470
  ![34, v472.toNat]

def k0_chk185 (v473 : IVec S16 32) : Prop :=
  (∀ a x, ((![v473] : Fin 1 → IVec S16 32) a x).toNat < S100000.size a)
instance k0_chk185.dec : ∀ (v473 : IVec S16 32), Decidable (k0_chk185 v473) := fun v473 => decidable_of_iff' _ (Iff.of_eq (k0_chk185.eq_1 v473))
theorem k0_idx185_inb : ∀ (v473 : IVec S16 32) (k0_hw185 : k0_chk185 v473), ∀ a x, ((![v473] : Fin 1 → IVec S16 32) a x).toNat < S100000.size a := fun v473 k0_hw185 => k0_hw185
def k0_off196 (k0_t5 : Fin k0_t5_loop.trips) : Fin 2 → Nat :=
  let c35_i32 : BitVec 32 := 35#32
  let v484 : Index := Scalar.indexCast c35_i32
  let c0_i32_25 : BitVec 32 := 0#32
  let c1_i32_27 : BitVec 32 := 1#32
  let arg18 : BitVec 32 := Scf.iv c0_i32_25 c1_i32_27 k0_t5
  let c16_i32_183 : BitVec 32 := 16#32
  let v483 : BitVec 32 := Scalar.muli arg18 c16_i32_183
  let v485 : Index := Scalar.indexCast v483
  ![35, v485.toNat]

def k0_chk186 (v486 : IVec S16 32) : Prop :=
  (∀ a x, ((![v486] : Fin 1 → IVec S16 32) a x).toNat < S100000.size a)
instance k0_chk186.dec : ∀ (v486 : IVec S16 32), Decidable (k0_chk186 v486) := fun v486 => decidable_of_iff' _ (Iff.of_eq (k0_chk186.eq_1 v486))
theorem k0_idx186_inb : ∀ (v486 : IVec S16 32) (k0_hw186 : k0_chk186 v486), ∀ a x, ((![v486] : Fin 1 → IVec S16 32) a x).toNat < S100000.size a := fun v486 k0_hw186 => k0_hw186
def k0_off197 (k0_t5 : Fin k0_t5_loop.trips) : Fin 2 → Nat :=
  let c36_i32 : BitVec 32 := 36#32
  let v497 : Index := Scalar.indexCast c36_i32
  let c0_i32_25 : BitVec 32 := 0#32
  let c1_i32_27 : BitVec 32 := 1#32
  let arg18 : BitVec 32 := Scf.iv c0_i32_25 c1_i32_27 k0_t5
  let c16_i32_187 : BitVec 32 := 16#32
  let v496 : BitVec 32 := Scalar.muli arg18 c16_i32_187
  let v498 : Index := Scalar.indexCast v496
  ![36, v498.toNat]

def k0_chk187 (v499 : IVec S16 32) : Prop :=
  (∀ a x, ((![v499] : Fin 1 → IVec S16 32) a x).toNat < S100000.size a)
instance k0_chk187.dec : ∀ (v499 : IVec S16 32), Decidable (k0_chk187 v499) := fun v499 => decidable_of_iff' _ (Iff.of_eq (k0_chk187.eq_1 v499))
theorem k0_idx187_inb : ∀ (v499 : IVec S16 32) (k0_hw187 : k0_chk187 v499), ∀ a x, ((![v499] : Fin 1 → IVec S16 32) a x).toNat < S100000.size a := fun v499 k0_hw187 => k0_hw187
def k0_off198 (k0_t5 : Fin k0_t5_loop.trips) : Fin 2 → Nat :=
  let c37_i32 : BitVec 32 := 37#32
  let v510 : Index := Scalar.indexCast c37_i32
  let c0_i32_25 : BitVec 32 := 0#32
  let c1_i32_27 : BitVec 32 := 1#32
  let arg18 : BitVec 32 := Scf.iv c0_i32_25 c1_i32_27 k0_t5
  let c16_i32_191 : BitVec 32 := 16#32
  let v509 : BitVec 32 := Scalar.muli arg18 c16_i32_191
  let v511 : Index := Scalar.indexCast v509
  ![37, v511.toNat]

def k0_chk188 (v512 : IVec S16 32) : Prop :=
  (∀ a x, ((![v512] : Fin 1 → IVec S16 32) a x).toNat < S100000.size a)
instance k0_chk188.dec : ∀ (v512 : IVec S16 32), Decidable (k0_chk188 v512) := fun v512 => decidable_of_iff' _ (Iff.of_eq (k0_chk188.eq_1 v512))
theorem k0_idx188_inb : ∀ (v512 : IVec S16 32) (k0_hw188 : k0_chk188 v512), ∀ a x, ((![v512] : Fin 1 → IVec S16 32) a x).toNat < S100000.size a := fun v512 k0_hw188 => k0_hw188
def k0_off199 (k0_t5 : Fin k0_t5_loop.trips) : Fin 2 → Nat :=
  let c38_i32 : BitVec 32 := 38#32
  let v523 : Index := Scalar.indexCast c38_i32
  let c0_i32_25 : BitVec 32 := 0#32
  let c1_i32_27 : BitVec 32 := 1#32
  let arg18 : BitVec 32 := Scf.iv c0_i32_25 c1_i32_27 k0_t5
  let c16_i32_195 : BitVec 32 := 16#32
  let v522 : BitVec 32 := Scalar.muli arg18 c16_i32_195
  let v524 : Index := Scalar.indexCast v522
  ![38, v524.toNat]

def k0_chk189 (v525 : IVec S16 32) : Prop :=
  (∀ a x, ((![v525] : Fin 1 → IVec S16 32) a x).toNat < S100000.size a)
instance k0_chk189.dec : ∀ (v525 : IVec S16 32), Decidable (k0_chk189 v525) := fun v525 => decidable_of_iff' _ (Iff.of_eq (k0_chk189.eq_1 v525))
theorem k0_idx189_inb : ∀ (v525 : IVec S16 32) (k0_hw189 : k0_chk189 v525), ∀ a x, ((![v525] : Fin 1 → IVec S16 32) a x).toNat < S100000.size a := fun v525 k0_hw189 => k0_hw189
def k0_off200 (k0_t5 : Fin k0_t5_loop.trips) : Fin 2 → Nat :=
  let c39_i32 : BitVec 32 := 39#32
  let v536 : Index := Scalar.indexCast c39_i32
  let c0_i32_25 : BitVec 32 := 0#32
  let c1_i32_27 : BitVec 32 := 1#32
  let arg18 : BitVec 32 := Scf.iv c0_i32_25 c1_i32_27 k0_t5
  let c16_i32_199 : BitVec 32 := 16#32
  let v535 : BitVec 32 := Scalar.muli arg18 c16_i32_199
  let v537 : Index := Scalar.indexCast v535
  ![39, v537.toNat]

def k0_chk190 (v538 : IVec S16 32) : Prop :=
  (∀ a x, ((![v538] : Fin 1 → IVec S16 32) a x).toNat < S100000.size a)
instance k0_chk190.dec : ∀ (v538 : IVec S16 32), Decidable (k0_chk190 v538) := fun v538 => decidable_of_iff' _ (Iff.of_eq (k0_chk190.eq_1 v538))
theorem k0_idx190_inb : ∀ (v538 : IVec S16 32) (k0_hw190 : k0_chk190 v538), ∀ a x, ((![v538] : Fin 1 → IVec S16 32) a x).toNat < S100000.size a := fun v538 k0_hw190 => k0_hw190
def k0_off201 (k0_t5 : Fin k0_t5_loop.trips) : Fin 2 → Nat :=
  let c40_i32 : BitVec 32 := 40#32
  let v549 : Index := Scalar.indexCast c40_i32
  let c0_i32_25 : BitVec 32 := 0#32
  let c1_i32_27 : BitVec 32 := 1#32
  let arg18 : BitVec 32 := Scf.iv c0_i32_25 c1_i32_27 k0_t5
  let c16_i32_203 : BitVec 32 := 16#32
  let v548 : BitVec 32 := Scalar.muli arg18 c16_i32_203
  let v550 : Index := Scalar.indexCast v548
  ![40, v550.toNat]

def k0_chk191 (v551 : IVec S16 32) : Prop :=
  (∀ a x, ((![v551] : Fin 1 → IVec S16 32) a x).toNat < S100000.size a)
instance k0_chk191.dec : ∀ (v551 : IVec S16 32), Decidable (k0_chk191 v551) := fun v551 => decidable_of_iff' _ (Iff.of_eq (k0_chk191.eq_1 v551))
theorem k0_idx191_inb : ∀ (v551 : IVec S16 32) (k0_hw191 : k0_chk191 v551), ∀ a x, ((![v551] : Fin 1 → IVec S16 32) a x).toNat < S100000.size a := fun v551 k0_hw191 => k0_hw191
def k0_off202 (k0_t5 : Fin k0_t5_loop.trips) : Fin 2 → Nat :=
  let c41_i32 : BitVec 32 := 41#32
  let v562 : Index := Scalar.indexCast c41_i32
  let c0_i32_25 : BitVec 32 := 0#32
  let c1_i32_27 : BitVec 32 := 1#32
  let arg18 : BitVec 32 := Scf.iv c0_i32_25 c1_i32_27 k0_t5
  let c16_i32_207 : BitVec 32 := 16#32
  let v561 : BitVec 32 := Scalar.muli arg18 c16_i32_207
  let v563 : Index := Scalar.indexCast v561
  ![41, v563.toNat]

def k0_chk192 (v564 : IVec S16 32) : Prop :=
  (∀ a x, ((![v564] : Fin 1 → IVec S16 32) a x).toNat < S100000.size a)
instance k0_chk192.dec : ∀ (v564 : IVec S16 32), Decidable (k0_chk192 v564) := fun v564 => decidable_of_iff' _ (Iff.of_eq (k0_chk192.eq_1 v564))
theorem k0_idx192_inb : ∀ (v564 : IVec S16 32) (k0_hw192 : k0_chk192 v564), ∀ a x, ((![v564] : Fin 1 → IVec S16 32) a x).toNat < S100000.size a := fun v564 k0_hw192 => k0_hw192
def k0_off203 (k0_t5 : Fin k0_t5_loop.trips) : Fin 2 → Nat :=
  let c42_i32 : BitVec 32 := 42#32
  let v575 : Index := Scalar.indexCast c42_i32
  let c0_i32_25 : BitVec 32 := 0#32
  let c1_i32_27 : BitVec 32 := 1#32
  let arg18 : BitVec 32 := Scf.iv c0_i32_25 c1_i32_27 k0_t5
  let c16_i32_211 : BitVec 32 := 16#32
  let v574 : BitVec 32 := Scalar.muli arg18 c16_i32_211
  let v576 : Index := Scalar.indexCast v574
  ![42, v576.toNat]

def k0_chk193 (v577 : IVec S16 32) : Prop :=
  (∀ a x, ((![v577] : Fin 1 → IVec S16 32) a x).toNat < S100000.size a)
instance k0_chk193.dec : ∀ (v577 : IVec S16 32), Decidable (k0_chk193 v577) := fun v577 => decidable_of_iff' _ (Iff.of_eq (k0_chk193.eq_1 v577))
theorem k0_idx193_inb : ∀ (v577 : IVec S16 32) (k0_hw193 : k0_chk193 v577), ∀ a x, ((![v577] : Fin 1 → IVec S16 32) a x).toNat < S100000.size a := fun v577 k0_hw193 => k0_hw193
def k0_off204 (k0_t5 : Fin k0_t5_loop.trips) : Fin 2 → Nat :=
  let c43_i32 : BitVec 32 := 43#32
  let v588 : Index := Scalar.indexCast c43_i32
  let c0_i32_25 : BitVec 32 := 0#32
  let c1_i32_27 : BitVec 32 := 1#32
  let arg18 : BitVec 32 := Scf.iv c0_i32_25 c1_i32_27 k0_t5
  let c16_i32_215 : BitVec 32 := 16#32
  let v587 : BitVec 32 := Scalar.muli arg18 c16_i32_215
  let v589 : Index := Scalar.indexCast v587
  ![43, v589.toNat]

def k0_chk194 (v590 : IVec S16 32) : Prop :=
  (∀ a x, ((![v590] : Fin 1 → IVec S16 32) a x).toNat < S100000.size a)
instance k0_chk194.dec : ∀ (v590 : IVec S16 32), Decidable (k0_chk194 v590) := fun v590 => decidable_of_iff' _ (Iff.of_eq (k0_chk194.eq_1 v590))
theorem k0_idx194_inb : ∀ (v590 : IVec S16 32) (k0_hw194 : k0_chk194 v590), ∀ a x, ((![v590] : Fin 1 → IVec S16 32) a x).toNat < S100000.size a := fun v590 k0_hw194 => k0_hw194
def k0_off205 (k0_t5 : Fin k0_t5_loop.trips) : Fin 2 → Nat :=
  let c44_i32 : BitVec 32 := 44#32
  let v601 : Index := Scalar.indexCast c44_i32
  let c0_i32_25 : BitVec 32 := 0#32
  let c1_i32_27 : BitVec 32 := 1#32
  let arg18 : BitVec 32 := Scf.iv c0_i32_25 c1_i32_27 k0_t5
  let c16_i32_219 : BitVec 32 := 16#32
  let v600 : BitVec 32 := Scalar.muli arg18 c16_i32_219
  let v602 : Index := Scalar.indexCast v600
  ![44, v602.toNat]

def k0_chk195 (v603 : IVec S16 32) : Prop :=
  (∀ a x, ((![v603] : Fin 1 → IVec S16 32) a x).toNat < S100000.size a)
instance k0_chk195.dec : ∀ (v603 : IVec S16 32), Decidable (k0_chk195 v603) := fun v603 => decidable_of_iff' _ (Iff.of_eq (k0_chk195.eq_1 v603))
theorem k0_idx195_inb : ∀ (v603 : IVec S16 32) (k0_hw195 : k0_chk195 v603), ∀ a x, ((![v603] : Fin 1 → IVec S16 32) a x).toNat < S100000.size a := fun v603 k0_hw195 => k0_hw195
def k0_off206 (k0_t5 : Fin k0_t5_loop.trips) : Fin 2 → Nat :=
  let c45_i32 : BitVec 32 := 45#32
  let v614 : Index := Scalar.indexCast c45_i32
  let c0_i32_25 : BitVec 32 := 0#32
  let c1_i32_27 : BitVec 32 := 1#32
  let arg18 : BitVec 32 := Scf.iv c0_i32_25 c1_i32_27 k0_t5
  let c16_i32_223 : BitVec 32 := 16#32
  let v613 : BitVec 32 := Scalar.muli arg18 c16_i32_223
  let v615 : Index := Scalar.indexCast v613
  ![45, v615.toNat]

def k0_chk196 (v616 : IVec S16 32) : Prop :=
  (∀ a x, ((![v616] : Fin 1 → IVec S16 32) a x).toNat < S100000.size a)
instance k0_chk196.dec : ∀ (v616 : IVec S16 32), Decidable (k0_chk196 v616) := fun v616 => decidable_of_iff' _ (Iff.of_eq (k0_chk196.eq_1 v616))
theorem k0_idx196_inb : ∀ (v616 : IVec S16 32) (k0_hw196 : k0_chk196 v616), ∀ a x, ((![v616] : Fin 1 → IVec S16 32) a x).toNat < S100000.size a := fun v616 k0_hw196 => k0_hw196
def k0_off207 (k0_t5 : Fin k0_t5_loop.trips) : Fin 2 → Nat :=
  let c46_i32 : BitVec 32 := 46#32
  let v627 : Index := Scalar.indexCast c46_i32
  let c0_i32_25 : BitVec 32 := 0#32
  let c1_i32_27 : BitVec 32 := 1#32
  let arg18 : BitVec 32 := Scf.iv c0_i32_25 c1_i32_27 k0_t5
  let c16_i32_227 : BitVec 32 := 16#32
  let v626 : BitVec 32 := Scalar.muli arg18 c16_i32_227
  let v628 : Index := Scalar.indexCast v626
  ![46, v628.toNat]

def k0_chk197 (v629 : IVec S16 32) : Prop :=
  (∀ a x, ((![v629] : Fin 1 → IVec S16 32) a x).toNat < S100000.size a)
instance k0_chk197.dec : ∀ (v629 : IVec S16 32), Decidable (k0_chk197 v629) := fun v629 => decidable_of_iff' _ (Iff.of_eq (k0_chk197.eq_1 v629))
theorem k0_idx197_inb : ∀ (v629 : IVec S16 32) (k0_hw197 : k0_chk197 v629), ∀ a x, ((![v629] : Fin 1 → IVec S16 32) a x).toNat < S100000.size a := fun v629 k0_hw197 => k0_hw197
def k0_off208 (k0_t5 : Fin k0_t5_loop.trips) : Fin 2 → Nat :=
  let c47_i32 : BitVec 32 := 47#32
  let v640 : Index := Scalar.indexCast c47_i32
  let c0_i32_25 : BitVec 32 := 0#32
  let c1_i32_27 : BitVec 32 := 1#32
  let arg18 : BitVec 32 := Scf.iv c0_i32_25 c1_i32_27 k0_t5
  let c16_i32_231 : BitVec 32 := 16#32
  let v639 : BitVec 32 := Scalar.muli arg18 c16_i32_231
  let v641 : Index := Scalar.indexCast v639
  ![47, v641.toNat]

def k0_chk198 (v642 : IVec S16 32) : Prop :=
  (∀ a x, ((![v642] : Fin 1 → IVec S16 32) a x).toNat < S100000.size a)
instance k0_chk198.dec : ∀ (v642 : IVec S16 32), Decidable (k0_chk198 v642) := fun v642 => decidable_of_iff' _ (Iff.of_eq (k0_chk198.eq_1 v642))
theorem k0_idx198_inb : ∀ (v642 : IVec S16 32) (k0_hw198 : k0_chk198 v642), ∀ a x, ((![v642] : Fin 1 → IVec S16 32) a x).toNat < S100000.size a := fun v642 k0_hw198 => k0_hw198
def k0_off209 (k0_t5 : Fin k0_t5_loop.trips) : Fin 2 → Nat :=
  let c48_i32 : BitVec 32 := 48#32
  let v653 : Index := Scalar.indexCast c48_i32
  let c0_i32_25 : BitVec 32 := 0#32
  let c1_i32_27 : BitVec 32 := 1#32
  let arg18 : BitVec 32 := Scf.iv c0_i32_25 c1_i32_27 k0_t5
  let c16_i32_235 : BitVec 32 := 16#32
  let v652 : BitVec 32 := Scalar.muli arg18 c16_i32_235
  let v654 : Index := Scalar.indexCast v652
  ![48, v654.toNat]

def k0_chk199 (v655 : IVec S16 32) : Prop :=
  (∀ a x, ((![v655] : Fin 1 → IVec S16 32) a x).toNat < S100000.size a)
instance k0_chk199.dec : ∀ (v655 : IVec S16 32), Decidable (k0_chk199 v655) := fun v655 => decidable_of_iff' _ (Iff.of_eq (k0_chk199.eq_1 v655))
theorem k0_idx199_inb : ∀ (v655 : IVec S16 32) (k0_hw199 : k0_chk199 v655), ∀ a x, ((![v655] : Fin 1 → IVec S16 32) a x).toNat < S100000.size a := fun v655 k0_hw199 => k0_hw199
def k0_off210 (k0_t5 : Fin k0_t5_loop.trips) : Fin 2 → Nat :=
  let c49_i32 : BitVec 32 := 49#32
  let v666 : Index := Scalar.indexCast c49_i32
  let c0_i32_25 : BitVec 32 := 0#32
  let c1_i32_27 : BitVec 32 := 1#32
  let arg18 : BitVec 32 := Scf.iv c0_i32_25 c1_i32_27 k0_t5
  let c16_i32_239 : BitVec 32 := 16#32
  let v665 : BitVec 32 := Scalar.muli arg18 c16_i32_239
  let v667 : Index := Scalar.indexCast v665
  ![49, v667.toNat]

def k0_chk200 (v668 : IVec S16 32) : Prop :=
  (∀ a x, ((![v668] : Fin 1 → IVec S16 32) a x).toNat < S100000.size a)
instance k0_chk200.dec : ∀ (v668 : IVec S16 32), Decidable (k0_chk200 v668) := fun v668 => decidable_of_iff' _ (Iff.of_eq (k0_chk200.eq_1 v668))
theorem k0_idx200_inb : ∀ (v668 : IVec S16 32) (k0_hw200 : k0_chk200 v668), ∀ a x, ((![v668] : Fin 1 → IVec S16 32) a x).toNat < S100000.size a := fun v668 k0_hw200 => k0_hw200
def k0_off211 (k0_t5 : Fin k0_t5_loop.trips) : Fin 2 → Nat :=
  let c3968_i32_246 : BitVec 32 := 3968#32
  let c0_i32_25 : BitVec 32 := 0#32
  let c1_i32_27 : BitVec 32 := 1#32
  let arg18 : BitVec 32 := Scf.iv c0_i32_25 c1_i32_27 k0_t5
  let c16_i32_245 : BitVec 32 := 16#32
  let v682 : BitVec 32 := Scalar.muli arg18 c16_i32_245
  let v683 : BitVec 32 := Scalar.addi c3968_i32_246 v682
  let c0_i32_247 : BitVec 32 := 0#32
  let v686 : BitVec 1 := Scalar.cmpi .sgt v683 c0_i32_247
  let v687 : BitVec 32 := Scalar.extui v686
  let c0_i32_248 : BitVec 32 := 0#32
  let v688 : BitVec 1 := Scalar.cmpi .slt v683 c0_i32_248
  let v689 : BitVec 32 := Scalar.extui v688
  let v690 : BitVec 32 := Scalar.subi v687 v689
  let c128_i32 : BitVec 32 := 128#32
  let c0_i32_249 : BitVec 32 := 0#32
  let v691 : BitVec 1 := Scalar.cmpi .sgt c128_i32 c0_i32_249
  let v692 : BitVec 32 := Scalar.extui v691
  let c0_i32_250 : BitVec 32 := 0#32
  let v693 : BitVec 1 := Scalar.cmpi .slt c128_i32 c0_i32_250
  let v694 : BitVec 32 := Scalar.extui v693
  let v695 : BitVec 32 := Scalar.subi v692 v694
  let v696 : BitVec 1 := Scalar.cmpi .ne v690 v695
  let v697 : BitVec 32 := Scalar.remsi v683 c128_i32
  let c0_i32_251 : BitVec 32 := 0#32
  let v698 : BitVec 1 := Scalar.cmpi .ne v697 c0_i32_251
  let v699 : BitVec 1 := Scalar.andi v696 v698
  let v685 : BitVec 32 := Scalar.divsi v683 c128_i32
  let c1_i32_252 : BitVec 32 := 1#32
  let v700 : BitVec 32 := Scalar.subi v685 c1_i32_252
  let v701 : BitVec 32 := Scalar.select v699 v700 v685
  let v712 : Index := Scalar.indexCast v701
  let c128_i32_253 : BitVec 32 := 128#32
  let c0_i32_254 : BitVec 32 := 0#32
  let v702 : BitVec 1 := Scalar.cmpi .eq c128_i32_253 c0_i32_254
  let c1_i32_255 : BitVec 32 := 1#32
  let v703 : BitVec 32 := Scalar.select v702 c1_i32_255 c128_i32_253
  let v704 : BitVec 32 := Scalar.remsi v683 v703
  let c0_i32_257 : BitVec 32 := 0#32
  let v706 : BitVec 1 := Scalar.cmpi .slt v704 c0_i32_257
  let c0_i32_258 : BitVec 32 := 0#32
  let v707 : BitVec 1 := Scalar.cmpi .slt v703 c0_i32_258
  let v708 : BitVec 1 := Scalar.xori v706 v707
  let c0_i32_256 : BitVec 32 := 0#32
  let v705 : BitVec 1 := Scalar.cmpi .ne v704 c0_i32_256
  let v709 : BitVec 1 := Scalar.andi v708 v705
  let v710 : BitVec 32 := Scalar.addi v704 v703
  let v711 : BitVec 32 := Scalar.select v709 v710 v704
  let v713 : Index := Scalar.indexCast v711
  ![v712.toNat, v713.toNat]
def k0_off212 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v21 : BitVec 32 := Scalar.muli v1 c32_i32
  let c0_i32_33_r2 : BitVec 32 := 0#32
  ![v21.toNat, 0]
@[reducible] def k0_t6_loop : Scf.Loop 32 :=
  let c0_i32_30 : BitVec 32 := 0#32
  let c26_i32 : BitVec 32 := 26#32
  let v22 : BitVec 32 := Scalar.addi c0_i32_30 c26_i32
  let c1_i32_31 : BitVec 32 := 1#32
  ⟨c0_i32_30, v22, c1_i32_31⟩
def k0_off213 (i : grid0.Coords) (k0_t6 : Fin k0_t6_loop.trips) : Fin 3 → Nat :=
  let c0_i32_30 : BitVec 32 := 0#32
  let c1_i32_31 : BitVec 32 := 1#32
  let arg18 : BitVec 32 := Scf.iv c0_i32_30 c1_i32_31 k0_t6
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_39_r3 : BitVec 32 := 0#32
  ![arg18.toNat, v1.toNat, 0]
def k0_off214 (k0_t6 : Fin k0_t6_loop.trips) : Fin 2 → Nat :=
  let c0_i32_30 : BitVec 32 := 0#32
  let c1_i32_31 : BitVec 32 := 1#32
  let arg18 : BitVec 32 := Scf.iv c0_i32_30 c1_i32_31 k0_t6
  let c0_i32_39_r4 : BitVec 32 := 0#32
  ![arg18.toNat, 0]
@[reducible] def k0_t7_loop : Scf.Loop 32 :=
  let c0_i32_34 : BitVec 32 := 0#32
  let c16_i32 : BitVec 32 := 16#32
  let v23 : BitVec 32 := Scalar.addi c0_i32_34 c16_i32
  let c1_i32_35 : BitVec 32 := 1#32
  ⟨c0_i32_34, v23, c1_i32_35⟩
def k0_off215 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_39 : BitVec 32 := 16#32
  let v27 : BitVec 32 := Scalar.muli arg19 c16_i32_39
  let c0_i32_40 : BitVec 32 := 0#32
  let v28 : BitVec 32 := Scalar.addi v27 c0_i32_40
  let c0_i32_41 : BitVec 32 := 0#32
  let v29 : BitVec 32 := Scalar.addi v28 c0_i32_41
  let c16_i32_42 : BitVec 32 := 16#32
  let v30 : BitVec 32 := Scalar.muli v29 c16_i32_42
  let v31 : Index := Scalar.indexCast v30
  ![v31.toNat]

def k0_chk201 (v32 : IVec S16 32) : Prop :=
  (∀ a x, ((![v32] : Fin 1 → IVec S16 32) a x).toNat < S100000.size a)
instance k0_chk201.dec : ∀ (v32 : IVec S16 32), Decidable (k0_chk201 v32) := fun v32 => decidable_of_iff' _ (Iff.of_eq (k0_chk201.eq_1 v32))
theorem k0_idx201_inb : ∀ (v32 : IVec S16 32) (k0_hw201 : k0_chk201 v32), ∀ a x, ((![v32] : Fin 1 → IVec S16 32) a x).toNat < S100000.size a := fun v32 k0_hw201 => k0_hw201
def k0_off216 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_43 : BitVec 32 := 2#32
  let v34 : BitVec 32 := Scalar.muli arg19 c2_i32_43
  let c0_i32_44 : BitVec 32 := 0#32
  let v35 : BitVec 32 := Scalar.addi v34 c0_i32_44
  let v36 : Index := Scalar.indexCast v35
  let c0 : Index := 0#32
  ![v36.toNat, 0]
def k0_off217 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_45 : BitVec 32 := 16#32
  let v38 : BitVec 32 := Scalar.muli arg19 c16_i32_45
  let c0_i32_46 : BitVec 32 := 0#32
  let v39 : BitVec 32 := Scalar.addi v38 c0_i32_46
  let c1_i32_47 : BitVec 32 := 1#32
  let v40 : BitVec 32 := Scalar.addi v39 c1_i32_47
  let c16_i32_48 : BitVec 32 := 16#32
  let v41 : BitVec 32 := Scalar.muli v40 c16_i32_48
  let v42 : Index := Scalar.indexCast v41
  ![v42.toNat]

def k0_chk202 (v43 : IVec S16 32) : Prop :=
  (∀ a x, ((![v43] : Fin 1 → IVec S16 32) a x).toNat < S100000.size a)
instance k0_chk202.dec : ∀ (v43 : IVec S16 32), Decidable (k0_chk202 v43) := fun v43 => decidable_of_iff' _ (Iff.of_eq (k0_chk202.eq_1 v43))
theorem k0_idx202_inb : ∀ (v43 : IVec S16 32) (k0_hw202 : k0_chk202 v43), ∀ a x, ((![v43] : Fin 1 → IVec S16 32) a x).toNat < S100000.size a := fun v43 k0_hw202 => k0_hw202
def k0_off218 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_49 : BitVec 32 := 2#32
  let v45 : BitVec 32 := Scalar.muli arg19 c2_i32_49
  let c0_i32_50 : BitVec 32 := 0#32
  let v46 : BitVec 32 := Scalar.addi v45 c0_i32_50
  let v47 : Index := Scalar.indexCast v46
  let c16 : Index := 16#32
  ![v47.toNat, 16]
def k0_off219 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_51 : BitVec 32 := 16#32
  let v49 : BitVec 32 := Scalar.muli arg19 c16_i32_51
  let c0_i32_52 : BitVec 32 := 0#32
  let v50 : BitVec 32 := Scalar.addi v49 c0_i32_52
  let c2_i32_53 : BitVec 32 := 2#32
  let v51 : BitVec 32 := Scalar.addi v50 c2_i32_53
  let c16_i32_54 : BitVec 32 := 16#32
  let v52 : BitVec 32 := Scalar.muli v51 c16_i32_54
  let v53 : Index := Scalar.indexCast v52
  ![v53.toNat]

def k0_chk203 (v54 : IVec S16 32) : Prop :=
  (∀ a x, ((![v54] : Fin 1 → IVec S16 32) a x).toNat < S100000.size a)
instance k0_chk203.dec : ∀ (v54 : IVec S16 32), Decidable (k0_chk203 v54) := fun v54 => decidable_of_iff' _ (Iff.of_eq (k0_chk203.eq_1 v54))
theorem k0_idx203_inb : ∀ (v54 : IVec S16 32) (k0_hw203 : k0_chk203 v54), ∀ a x, ((![v54] : Fin 1 → IVec S16 32) a x).toNat < S100000.size a := fun v54 k0_hw203 => k0_hw203
def k0_off220 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_55 : BitVec 32 := 2#32
  let v56 : BitVec 32 := Scalar.muli arg19 c2_i32_55
  let c0_i32_56 : BitVec 32 := 0#32
  let v57 : BitVec 32 := Scalar.addi v56 c0_i32_56
  let v58 : Index := Scalar.indexCast v57
  let c32 : Index := 32#32
  ![v58.toNat, 32]
def k0_off221 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_57 : BitVec 32 := 16#32
  let v60 : BitVec 32 := Scalar.muli arg19 c16_i32_57
  let c0_i32_58 : BitVec 32 := 0#32
  let v61 : BitVec 32 := Scalar.addi v60 c0_i32_58
  let c3_i32 : BitVec 32 := 3#32
  let v62 : BitVec 32 := Scalar.addi v61 c3_i32
  let c16_i32_59 : BitVec 32 := 16#32
  let v63 : BitVec 32 := Scalar.muli v62 c16_i32_59
  let v64 : Index := Scalar.indexCast v63
  ![v64.toNat]

def k0_chk204 (v65 : IVec S16 32) : Prop :=
  (∀ a x, ((![v65] : Fin 1 → IVec S16 32) a x).toNat < S100000.size a)
instance k0_chk204.dec : ∀ (v65 : IVec S16 32), Decidable (k0_chk204 v65) := fun v65 => decidable_of_iff' _ (Iff.of_eq (k0_chk204.eq_1 v65))
theorem k0_idx204_inb : ∀ (v65 : IVec S16 32) (k0_hw204 : k0_chk204 v65), ∀ a x, ((![v65] : Fin 1 → IVec S16 32) a x).toNat < S100000.size a := fun v65 k0_hw204 => k0_hw204
def k0_off222 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_60 : BitVec 32 := 2#32
  let v67 : BitVec 32 := Scalar.muli arg19 c2_i32_60
  let c0_i32_61 : BitVec 32 := 0#32
  let v68 : BitVec 32 := Scalar.addi v67 c0_i32_61
  let v69 : Index := Scalar.indexCast v68
  let c48 : Index := 48#32
  ![v69.toNat, 48]
def k0_off223 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_62 : BitVec 32 := 16#32
  let v71 : BitVec 32 := Scalar.muli arg19 c16_i32_62
  let c0_i32_63 : BitVec 32 := 0#32
  let v72 : BitVec 32 := Scalar.addi v71 c0_i32_63
  let c4_i32 : BitVec 32 := 4#32
  let v73 : BitVec 32 := Scalar.addi v72 c4_i32
  let c16_i32_64 : BitVec 32 := 16#32
  let v74 : BitVec 32 := Scalar.muli v73 c16_i32_64
  let v75 : Index := Scalar.indexCast v74
  ![v75.toNat]

def k0_chk205 (v76 : IVec S16 32) : Prop :=
  (∀ a x, ((![v76] : Fin 1 → IVec S16 32) a x).toNat < S100000.size a)
instance k0_chk205.dec : ∀ (v76 : IVec S16 32), Decidable (k0_chk205 v76) := fun v76 => decidable_of_iff' _ (Iff.of_eq (k0_chk205.eq_1 v76))
theorem k0_idx205_inb : ∀ (v76 : IVec S16 32) (k0_hw205 : k0_chk205 v76), ∀ a x, ((![v76] : Fin 1 → IVec S16 32) a x).toNat < S100000.size a := fun v76 k0_hw205 => k0_hw205
def k0_off224 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_65 : BitVec 32 := 2#32
  let v78 : BitVec 32 := Scalar.muli arg19 c2_i32_65
  let c0_i32_66 : BitVec 32 := 0#32
  let v79 : BitVec 32 := Scalar.addi v78 c0_i32_66
  let v80 : Index := Scalar.indexCast v79
  let c64 : Index := 64#32
  ![v80.toNat, 64]
def k0_off225 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_67 : BitVec 32 := 16#32
  let v82 : BitVec 32 := Scalar.muli arg19 c16_i32_67
  let c0_i32_68 : BitVec 32 := 0#32
  let v83 : BitVec 32 := Scalar.addi v82 c0_i32_68
  let c5_i32 : BitVec 32 := 5#32
  let v84 : BitVec 32 := Scalar.addi v83 c5_i32
  let c16_i32_69 : BitVec 32 := 16#32
  let v85 : BitVec 32 := Scalar.muli v84 c16_i32_69
  let v86 : Index := Scalar.indexCast v85
  ![v86.toNat]

def k0_chk206 (v87 : IVec S16 32) : Prop :=
  (∀ a x, ((![v87] : Fin 1 → IVec S16 32) a x).toNat < S100000.size a)
instance k0_chk206.dec : ∀ (v87 : IVec S16 32), Decidable (k0_chk206 v87) := fun v87 => decidable_of_iff' _ (Iff.of_eq (k0_chk206.eq_1 v87))
theorem k0_idx206_inb : ∀ (v87 : IVec S16 32) (k0_hw206 : k0_chk206 v87), ∀ a x, ((![v87] : Fin 1 → IVec S16 32) a x).toNat < S100000.size a := fun v87 k0_hw206 => k0_hw206
def k0_off226 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_70 : BitVec 32 := 2#32
  let v89 : BitVec 32 := Scalar.muli arg19 c2_i32_70
  let c0_i32_71 : BitVec 32 := 0#32
  let v90 : BitVec 32 := Scalar.addi v89 c0_i32_71
  let v91 : Index := Scalar.indexCast v90
  let c80 : Index := 80#32
  ![v91.toNat, 80]
def k0_off227 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_72 : BitVec 32 := 16#32
  let v93 : BitVec 32 := Scalar.muli arg19 c16_i32_72
  let c0_i32_73 : BitVec 32 := 0#32
  let v94 : BitVec 32 := Scalar.addi v93 c0_i32_73
  let c6_i32 : BitVec 32 := 6#32
  let v95 : BitVec 32 := Scalar.addi v94 c6_i32
  let c16_i32_74 : BitVec 32 := 16#32
  let v96 : BitVec 32 := Scalar.muli v95 c16_i32_74
  let v97 : Index := Scalar.indexCast v96
  ![v97.toNat]

def k0_chk207 (v98 : IVec S16 32) : Prop :=
  (∀ a x, ((![v98] : Fin 1 → IVec S16 32) a x).toNat < S100000.size a)
instance k0_chk207.dec : ∀ (v98 : IVec S16 32), Decidable (k0_chk207 v98) := fun v98 => decidable_of_iff' _ (Iff.of_eq (k0_chk207.eq_1 v98))
theorem k0_idx207_inb : ∀ (v98 : IVec S16 32) (k0_hw207 : k0_chk207 v98), ∀ a x, ((![v98] : Fin 1 → IVec S16 32) a x).toNat < S100000.size a := fun v98 k0_hw207 => k0_hw207
def k0_off228 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_75 : BitVec 32 := 2#32
  let v100 : BitVec 32 := Scalar.muli arg19 c2_i32_75
  let c0_i32_76 : BitVec 32 := 0#32
  let v101 : BitVec 32 := Scalar.addi v100 c0_i32_76
  let v102 : Index := Scalar.indexCast v101
  let c96 : Index := 96#32
  ![v102.toNat, 96]
def k0_off229 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_77 : BitVec 32 := 16#32
  let v104 : BitVec 32 := Scalar.muli arg19 c16_i32_77
  let c0_i32_78 : BitVec 32 := 0#32
  let v105 : BitVec 32 := Scalar.addi v104 c0_i32_78
  let c7_i32 : BitVec 32 := 7#32
  let v106 : BitVec 32 := Scalar.addi v105 c7_i32
  let c16_i32_79 : BitVec 32 := 16#32
  let v107 : BitVec 32 := Scalar.muli v106 c16_i32_79
  let v108 : Index := Scalar.indexCast v107
  ![v108.toNat]

def k0_chk208 (v109 : IVec S16 32) : Prop :=
  (∀ a x, ((![v109] : Fin 1 → IVec S16 32) a x).toNat < S100000.size a)
instance k0_chk208.dec : ∀ (v109 : IVec S16 32), Decidable (k0_chk208 v109) := fun v109 => decidable_of_iff' _ (Iff.of_eq (k0_chk208.eq_1 v109))
theorem k0_idx208_inb : ∀ (v109 : IVec S16 32) (k0_hw208 : k0_chk208 v109), ∀ a x, ((![v109] : Fin 1 → IVec S16 32) a x).toNat < S100000.size a := fun v109 k0_hw208 => k0_hw208
def k0_off230 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_80 : BitVec 32 := 2#32
  let v111 : BitVec 32 := Scalar.muli arg19 c2_i32_80
  let c0_i32_81 : BitVec 32 := 0#32
  let v112 : BitVec 32 := Scalar.addi v111 c0_i32_81
  let v113 : Index := Scalar.indexCast v112
  let c112 : Index := 112#32
  ![v113.toNat, 112]
def k0_off231 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_82 : BitVec 32 := 16#32
  let v115 : BitVec 32 := Scalar.muli arg19 c16_i32_82
  let c8_i32_83 : BitVec 32 := 8#32
  let v116 : BitVec 32 := Scalar.addi v115 c8_i32_83
  let c0_i32_84 : BitVec 32 := 0#32
  let v117 : BitVec 32 := Scalar.addi v116 c0_i32_84
  let c16_i32_85 : BitVec 32 := 16#32
  let v118 : BitVec 32 := Scalar.muli v117 c16_i32_85
  let v119 : Index := Scalar.indexCast v118
  ![v119.toNat]

def k0_chk209 (v120 : IVec S16 32) : Prop :=
  (∀ a x, ((![v120] : Fin 1 → IVec S16 32) a x).toNat < S100000.size a)
instance k0_chk209.dec : ∀ (v120 : IVec S16 32), Decidable (k0_chk209 v120) := fun v120 => decidable_of_iff' _ (Iff.of_eq (k0_chk209.eq_1 v120))
theorem k0_idx209_inb : ∀ (v120 : IVec S16 32) (k0_hw209 : k0_chk209 v120), ∀ a x, ((![v120] : Fin 1 → IVec S16 32) a x).toNat < S100000.size a := fun v120 k0_hw209 => k0_hw209
def k0_off232 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_86 : BitVec 32 := 2#32
  let v122 : BitVec 32 := Scalar.muli arg19 c2_i32_86
  let c1_i32_87 : BitVec 32 := 1#32
  let v123 : BitVec 32 := Scalar.addi v122 c1_i32_87
  let v124 : Index := Scalar.indexCast v123
  let c0_88 : Index := 0#32
  ![v124.toNat, 0]
def k0_off233 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_89 : BitVec 32 := 16#32
  let v126 : BitVec 32 := Scalar.muli arg19 c16_i32_89
  let c8_i32_90 : BitVec 32 := 8#32
  let v127 : BitVec 32 := Scalar.addi v126 c8_i32_90
  let c1_i32_91 : BitVec 32 := 1#32
  let v128 : BitVec 32 := Scalar.addi v127 c1_i32_91
  let c16_i32_92 : BitVec 32 := 16#32
  let v129 : BitVec 32 := Scalar.muli v128 c16_i32_92
  let v130 : Index := Scalar.indexCast v129
  ![v130.toNat]

def k0_chk210 (v131 : IVec S16 32) : Prop :=
  (∀ a x, ((![v131] : Fin 1 → IVec S16 32) a x).toNat < S100000.size a)
instance k0_chk210.dec : ∀ (v131 : IVec S16 32), Decidable (k0_chk210 v131) := fun v131 => decidable_of_iff' _ (Iff.of_eq (k0_chk210.eq_1 v131))
theorem k0_idx210_inb : ∀ (v131 : IVec S16 32) (k0_hw210 : k0_chk210 v131), ∀ a x, ((![v131] : Fin 1 → IVec S16 32) a x).toNat < S100000.size a := fun v131 k0_hw210 => k0_hw210
def k0_off234 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_93 : BitVec 32 := 2#32
  let v133 : BitVec 32 := Scalar.muli arg19 c2_i32_93
  let c1_i32_94 : BitVec 32 := 1#32
  let v134 : BitVec 32 := Scalar.addi v133 c1_i32_94
  let v135 : Index := Scalar.indexCast v134
  let c16_95 : Index := 16#32
  ![v135.toNat, 16]
def k0_off235 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_96 : BitVec 32 := 16#32
  let v137 : BitVec 32 := Scalar.muli arg19 c16_i32_96
  let c8_i32_97 : BitVec 32 := 8#32
  let v138 : BitVec 32 := Scalar.addi v137 c8_i32_97
  let c2_i32_98 : BitVec 32 := 2#32
  let v139 : BitVec 32 := Scalar.addi v138 c2_i32_98
  let c16_i32_99 : BitVec 32 := 16#32
  let v140 : BitVec 32 := Scalar.muli v139 c16_i32_99
  let v141 : Index := Scalar.indexCast v140
  ![v141.toNat]

def k0_chk211 (v142 : IVec S16 32) : Prop :=
  (∀ a x, ((![v142] : Fin 1 → IVec S16 32) a x).toNat < S100000.size a)
instance k0_chk211.dec : ∀ (v142 : IVec S16 32), Decidable (k0_chk211 v142) := fun v142 => decidable_of_iff' _ (Iff.of_eq (k0_chk211.eq_1 v142))
theorem k0_idx211_inb : ∀ (v142 : IVec S16 32) (k0_hw211 : k0_chk211 v142), ∀ a x, ((![v142] : Fin 1 → IVec S16 32) a x).toNat < S100000.size a := fun v142 k0_hw211 => k0_hw211
def k0_off236 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_100 : BitVec 32 := 2#32
  let v144 : BitVec 32 := Scalar.muli arg19 c2_i32_100
  let c1_i32_101 : BitVec 32 := 1#32
  let v145 : BitVec 32 := Scalar.addi v144 c1_i32_101
  let v146 : Index := Scalar.indexCast v145
  let c32_102 : Index := 32#32
  ![v146.toNat, 32]
def k0_off237 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_103 : BitVec 32 := 16#32
  let v148 : BitVec 32 := Scalar.muli arg19 c16_i32_103
  let c8_i32_104 : BitVec 32 := 8#32
  let v149 : BitVec 32 := Scalar.addi v148 c8_i32_104
  let c3_i32_105 : BitVec 32 := 3#32
  let v150 : BitVec 32 := Scalar.addi v149 c3_i32_105
  let c16_i32_106 : BitVec 32 := 16#32
  let v151 : BitVec 32 := Scalar.muli v150 c16_i32_106
  let v152 : Index := Scalar.indexCast v151
  ![v152.toNat]

def k0_chk212 (v153 : IVec S16 32) : Prop :=
  (∀ a x, ((![v153] : Fin 1 → IVec S16 32) a x).toNat < S100000.size a)
instance k0_chk212.dec : ∀ (v153 : IVec S16 32), Decidable (k0_chk212 v153) := fun v153 => decidable_of_iff' _ (Iff.of_eq (k0_chk212.eq_1 v153))
theorem k0_idx212_inb : ∀ (v153 : IVec S16 32) (k0_hw212 : k0_chk212 v153), ∀ a x, ((![v153] : Fin 1 → IVec S16 32) a x).toNat < S100000.size a := fun v153 k0_hw212 => k0_hw212
def k0_off238 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_107 : BitVec 32 := 2#32
  let v155 : BitVec 32 := Scalar.muli arg19 c2_i32_107
  let c1_i32_108 : BitVec 32 := 1#32
  let v156 : BitVec 32 := Scalar.addi v155 c1_i32_108
  let v157 : Index := Scalar.indexCast v156
  let c48_109 : Index := 48#32
  ![v157.toNat, 48]
def k0_off239 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_110 : BitVec 32 := 16#32
  let v159 : BitVec 32 := Scalar.muli arg19 c16_i32_110
  let c8_i32_111 : BitVec 32 := 8#32
  let v160 : BitVec 32 := Scalar.addi v159 c8_i32_111
  let c4_i32_112 : BitVec 32 := 4#32
  let v161 : BitVec 32 := Scalar.addi v160 c4_i32_112
  let c16_i32_113 : BitVec 32 := 16#32
  let v162 : BitVec 32 := Scalar.muli v161 c16_i32_113
  let v163 : Index := Scalar.indexCast v162
  ![v163.toNat]

def k0_chk213 (v164 : IVec S16 32) : Prop :=
  (∀ a x, ((![v164] : Fin 1 → IVec S16 32) a x).toNat < S100000.size a)
instance k0_chk213.dec : ∀ (v164 : IVec S16 32), Decidable (k0_chk213 v164) := fun v164 => decidable_of_iff' _ (Iff.of_eq (k0_chk213.eq_1 v164))
theorem k0_idx213_inb : ∀ (v164 : IVec S16 32) (k0_hw213 : k0_chk213 v164), ∀ a x, ((![v164] : Fin 1 → IVec S16 32) a x).toNat < S100000.size a := fun v164 k0_hw213 => k0_hw213
def k0_off240 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_114 : BitVec 32 := 2#32
  let v166 : BitVec 32 := Scalar.muli arg19 c2_i32_114
  let c1_i32_115 : BitVec 32 := 1#32
  let v167 : BitVec 32 := Scalar.addi v166 c1_i32_115
  let v168 : Index := Scalar.indexCast v167
  let c64_116 : Index := 64#32
  ![v168.toNat, 64]
def k0_off241 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_117 : BitVec 32 := 16#32
  let v170 : BitVec 32 := Scalar.muli arg19 c16_i32_117
  let c8_i32_118 : BitVec 32 := 8#32
  let v171 : BitVec 32 := Scalar.addi v170 c8_i32_118
  let c5_i32_119 : BitVec 32 := 5#32
  let v172 : BitVec 32 := Scalar.addi v171 c5_i32_119
  let c16_i32_120 : BitVec 32 := 16#32
  let v173 : BitVec 32 := Scalar.muli v172 c16_i32_120
  let v174 : Index := Scalar.indexCast v173
  ![v174.toNat]

def k0_chk214 (v175 : IVec S16 32) : Prop :=
  (∀ a x, ((![v175] : Fin 1 → IVec S16 32) a x).toNat < S100000.size a)
instance k0_chk214.dec : ∀ (v175 : IVec S16 32), Decidable (k0_chk214 v175) := fun v175 => decidable_of_iff' _ (Iff.of_eq (k0_chk214.eq_1 v175))
theorem k0_idx214_inb : ∀ (v175 : IVec S16 32) (k0_hw214 : k0_chk214 v175), ∀ a x, ((![v175] : Fin 1 → IVec S16 32) a x).toNat < S100000.size a := fun v175 k0_hw214 => k0_hw214
def k0_off242 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_121 : BitVec 32 := 2#32
  let v177 : BitVec 32 := Scalar.muli arg19 c2_i32_121
  let c1_i32_122 : BitVec 32 := 1#32
  let v178 : BitVec 32 := Scalar.addi v177 c1_i32_122
  let v179 : Index := Scalar.indexCast v178
  let c80_123 : Index := 80#32
  ![v179.toNat, 80]
def k0_off243 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_124 : BitVec 32 := 16#32
  let v181 : BitVec 32 := Scalar.muli arg19 c16_i32_124
  let c8_i32_125 : BitVec 32 := 8#32
  let v182 : BitVec 32 := Scalar.addi v181 c8_i32_125
  let c6_i32_126 : BitVec 32 := 6#32
  let v183 : BitVec 32 := Scalar.addi v182 c6_i32_126
  let c16_i32_127 : BitVec 32 := 16#32
  let v184 : BitVec 32 := Scalar.muli v183 c16_i32_127
  let v185 : Index := Scalar.indexCast v184
  ![v185.toNat]

def k0_chk215 (v186 : IVec S16 32) : Prop :=
  (∀ a x, ((![v186] : Fin 1 → IVec S16 32) a x).toNat < S100000.size a)
instance k0_chk215.dec : ∀ (v186 : IVec S16 32), Decidable (k0_chk215 v186) := fun v186 => decidable_of_iff' _ (Iff.of_eq (k0_chk215.eq_1 v186))
theorem k0_idx215_inb : ∀ (v186 : IVec S16 32) (k0_hw215 : k0_chk215 v186), ∀ a x, ((![v186] : Fin 1 → IVec S16 32) a x).toNat < S100000.size a := fun v186 k0_hw215 => k0_hw215
def k0_off244 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_128 : BitVec 32 := 2#32
  let v188 : BitVec 32 := Scalar.muli arg19 c2_i32_128
  let c1_i32_129 : BitVec 32 := 1#32
  let v189 : BitVec 32 := Scalar.addi v188 c1_i32_129
  let v190 : Index := Scalar.indexCast v189
  let c96_130 : Index := 96#32
  ![v190.toNat, 96]
def k0_off245 (k0_t7 : Fin k0_t7_loop.trips) : Fin 1 → Nat :=
  let c0_i32_34 : BitVec 32 := 0#32
  let c1_i32_35 : BitVec 32 := 1#32
  let arg19 : BitVec 32 := Scf.iv c0_i32_34 c1_i32_35 k0_t7
  let c16_i32_131 : BitVec 32 := 16#32
  let v192 : BitVec 32 := Scalar.muli arg19 c16_i32_131
  let c8_i32_132 : BitVec 32 := 8#32
  let v193 : BitVec 32 := Scalar.addi v192 c8_i32_132
  let c7_i32_133 : BitVec 32 := 7#32
  let v194 : BitVec 32 := Scalar.addi v193 c7_i32_133
  let c16_i32_134 : BitVec 32 := 16#32
  let v195 : BitVec 32 := Scalar.muli v194 c16_i32_134
  let v196 : Index := Scalar.indexCast v195
  ![v196.toNat]

def k0_chk216 (v197 : IVec S16 32) : Prop :=
  (∀ a x, ((![v197] : Fin 1 → IVec S16 32) a x).toNat < S100000.size a)
instance k0_chk216.dec : ∀ (v197 : IVec S16 32), Decidable (k0_chk216 v197) := fun v197 => decidable_of_iff' _ (Iff.of_eq (k0_chk216.eq_1 v197))
theorem k0_idx216_inb : ∀ (v197 : IVec S16 32) (k0_hw216 : k0_chk216 v197), ∀ a x, ((![v197] : Fin 1 → IVec S16 32) a x).toNat < S100000.size a := fun v197 k0_hw216 => k0_hw216
def k0_off246 (k0_t7 : Fin k0_t7_loop.trips) : Fin 2 → Nat :=
  let c0_i32_34 : BitVec 32 := 0#32
  let c1_i32_35 : BitVec 32 := 1#32
  let arg19 : BitVec 32 := Scf.iv c0_i32_34 c1_i32_35 k0_t7
  let c2_i32_135 : BitVec 32 := 2#32
  let v199 : BitVec 32 := Scalar.muli arg19 c2_i32_135
  let c1_i32_136 : BitVec 32 := 1#32
  let v200 : BitVec 32 := Scalar.addi v199 c1_i32_136
  let v201 : Index := Scalar.indexCast v200
  let c112_137 : Index := 112#32
  ![v201.toNat, 112]
def k0_off247 (i : grid0.Coords) (k0_t6 : Fin k0_t6_loop.trips) : Fin 2 → Nat :=
  let c0_i32_30 : BitVec 32 := 0#32
  let c1_i32_31 : BitVec 32 := 1#32
  let arg18 : BitVec 32 := Scf.iv c0_i32_30 c1_i32_31 k0_t6
  let c32_i32_37 : BitVec 32 := 32#32
  let v24 : BitVec 32 := Scalar.muli arg18 c32_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v25 : BitVec 32 := Scalar.addi v24 v1
  let c32_i32_38 : BitVec 32 := 32#32
  let v26 : BitVec 32 := Scalar.muli v25 c32_i32_38
  let c0_i32_39_r5 : BitVec 32 := 0#32
  ![v26.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S26x100000x32_S26x32x100000_0_2_1 : S26x100000x32.Transposes [0, 2, 1] S26x32x100000
  transposes_S100000x32_S32x100000_1_0 : S100000x32.Transposes [1, 0] S32x100000
  transposes_S4096x26_S26x4096_1_0 : S4096x26.Transposes [1, 0] S26x4096
  transposes_S4096x50_S50x4096_1_0 : S4096x50.Transposes [1, 0] S50x4096
  shapeCasts_S50x4096_S50x32x128 : S50x4096.ShapeCasts S50x32x128
  transposes_S50x32x128_S32x50x128_1_0_2 : S50x32x128.Transposes [1, 0, 2] S32x50x128
  inb_S32x50x128_S1x50x128_0_0_0 : ∀ a, (![0, 0, 0] : Fin 3 → Nat) a + S1x50x128.size a ≤ S32x50x128.size a
  squeezes_S1x50x128_S50x128 : S1x50x128.Squeezes S50x128
  squeezes_S1x100000_S100000 : S1x100000.Squeezes S100000
  h_S16 : 0 < S16.numel
  h_S1x16 : 0 < S1x16.numel
  shapeCasts_S1x16_S16 : S1x16.ShapeCasts S16
  h_S100000 : 0 < S100000.numel
  shapeCasts_S16_S1x16 : S16.ShapeCasts S1x16
  inb_S32x50x128_S1x50x128_30_0_0 : ∀ a, (![30, 0, 0] : Fin 3 → Nat) a + S1x50x128.size a ≤ S32x50x128.size a
  inb_S32x50x128_S1x50x128_31_0_0 : ∀ a, (![31, 0, 0] : Fin 3 → Nat) a + S1x50x128.size a ≤ S32x50x128.size a
  squeezes_S1x1x100000_S100000 : S1x1x100000.Squeezes S100000
  squeezes_S1x4096_S4096 : S1x4096.Squeezes S4096
  shapeCasts_S26624x128_S832x4096 : S26624x128.ShapeCasts S832x4096
  transposes_S832x4096_S4096x832_1_0 : S832x4096.Transposes [1, 0] S4096x832
  shapeCasts_S1024x128_S32x4096 : S1024x128.ShapeCasts S32x4096
  transposes_S32x4096_S4096x32_1_0 : S32x4096.Transposes [1, 0] S4096x32
  concatenates_S4096x832_S4096x32_S4096x13_S4096x877_d1 : Shape.Concatenates [S4096x832, S4096x32, S4096x13] S4096x877 1
  hcc0_scratch7 : 0 + S_.numel ≤ 8
  hcc0_scratch8 : 1 + S_.numel ≤ 8
  hcc0_scoped0 : 2 + S_.numel ≤ 8
  hcc0_scoped1 : 3 + S_.numel ≤ 8
  hcc0_scoped2 : 4 + S_.numel ≤ 8
  hcc0_scoped3 : 5 + S_.numel ≤ 8
  hcc0_scoped4 : 6 + S_.numel ≤ 8
  hcc0_scoped5 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x100000.size a ≤ S32x100000.size a
  k0_t1_ok : k0_t1_loop.OK
  k0_off2_inb : ∀ k0_t1 : Fin k0_t1_loop.trips, ∀ (r : Fin 2), ∀ a, (k0_off2 k0_t1 (BitVec.ofNat 32 r.val)) a + S1x50x128.size a ≤ S32x50x128.size a
  k0_off3_inb : ∀ k0_t1 : Fin k0_t1_loop.trips, ∀ (r : Fin 2), ∀ a, (k0_off3 k0_t1 (BitVec.ofNat 32 r.val)) a + S1x50x128.size a ≤ S32x50x128.size a
  k0_t2_ok : k0_t2_loop.OK
  k0_off4_inb : ∀ (k0_t1 : Fin k0_t1_loop.trips) (k0_t2 : Fin k0_t2_loop.trips), ∀ a, (k0_off4 k0_t1 k0_t2) a + S16.size a ≤ S4096.size a
  k0_off5_inb : ∀ k0_t2 : Fin k0_t2_loop.trips, ∀ a, (k0_off5 k0_t2) a + S1x16.size a ≤ S50x128.size a
  k0_off6_inb : ∀ k0_t2 : Fin k0_t2_loop.trips, ∀ a, (k0_off6 k0_t2) a + S1x16.size a ≤ S50x128.size a
  k0_off7_inb : ∀ k0_t2 : Fin k0_t2_loop.trips, ∀ a, (k0_off7 k0_t2) a + S1x16.size a ≤ S50x128.size a
  k0_off8_inb : ∀ k0_t2 : Fin k0_t2_loop.trips, ∀ a, (k0_off8 k0_t2) a + S1x16.size a ≤ S50x128.size a
  k0_off9_inb : ∀ k0_t2 : Fin k0_t2_loop.trips, ∀ a, (k0_off9 k0_t2) a + S1x16.size a ≤ S50x128.size a
  k0_off10_inb : ∀ k0_t2 : Fin k0_t2_loop.trips, ∀ a, (k0_off10 k0_t2) a + S1x16.size a ≤ S50x128.size a
  k0_off11_inb : ∀ k0_t2 : Fin k0_t2_loop.trips, ∀ a, (k0_off11 k0_t2) a + S1x16.size a ≤ S50x128.size a
  k0_off12_inb : ∀ k0_t2 : Fin k0_t2_loop.trips, ∀ a, (k0_off12 k0_t2) a + S1x16.size a ≤ S50x128.size a
  k0_off13_inb : ∀ k0_t2 : Fin k0_t2_loop.trips, ∀ a, (k0_off13 k0_t2) a + S1x16.size a ≤ S50x128.size a
  k0_off14_inb : ∀ k0_t2 : Fin k0_t2_loop.trips, ∀ a, (k0_off14 k0_t2) a + S1x16.size a ≤ S50x128.size a
  k0_off15_inb : ∀ k0_t2 : Fin k0_t2_loop.trips, ∀ a, (k0_off15 k0_t2) a + S1x16.size a ≤ S50x128.size a
  k0_off16_inb : ∀ k0_t2 : Fin k0_t2_loop.trips, ∀ a, (k0_off16 k0_t2) a + S1x16.size a ≤ S50x128.size a
  k0_off17_inb : ∀ k0_t2 : Fin k0_t2_loop.trips, ∀ a, (k0_off17 k0_t2) a + S1x16.size a ≤ S50x128.size a
  k0_off18_inb : ∀ k0_t2 : Fin k0_t2_loop.trips, ∀ a, (k0_off18 k0_t2) a + S1x16.size a ≤ S50x128.size a
  k0_off19_inb : ∀ k0_t2 : Fin k0_t2_loop.trips, ∀ a, (k0_off19 k0_t2) a + S1x16.size a ≤ S50x128.size a
  k0_off20_inb : ∀ k0_t2 : Fin k0_t2_loop.trips, ∀ a, (k0_off20 k0_t2) a + S1x16.size a ≤ S50x128.size a
  k0_off21_inb : ∀ k0_t2 : Fin k0_t2_loop.trips, ∀ a, (k0_off21 k0_t2) a + S1x16.size a ≤ S50x128.size a
  k0_off22_inb : ∀ k0_t2 : Fin k0_t2_loop.trips, ∀ a, (k0_off22 k0_t2) a + S1x16.size a ≤ S50x128.size a
  k0_off23_inb : ∀ k0_t2 : Fin k0_t2_loop.trips, ∀ a, (k0_off23 k0_t2) a + S1x16.size a ≤ S50x128.size a
  k0_off24_inb : ∀ k0_t2 : Fin k0_t2_loop.trips, ∀ a, (k0_off24 k0_t2) a + S1x16.size a ≤ S50x128.size a
  k0_off25_inb : ∀ k0_t2 : Fin k0_t2_loop.trips, ∀ a, (k0_off25 k0_t2) a + S1x16.size a ≤ S50x128.size a
  k0_off26_inb : ∀ k0_t2 : Fin k0_t2_loop.trips, ∀ a, (k0_off26 k0_t2) a + S1x16.size a ≤ S50x128.size a
  k0_off27_inb : ∀ k0_t2 : Fin k0_t2_loop.trips, ∀ a, (k0_off27 k0_t2) a + S1x16.size a ≤ S50x128.size a
  k0_off28_inb : ∀ k0_t2 : Fin k0_t2_loop.trips, ∀ a, (k0_off28 k0_t2) a + S1x16.size a ≤ S50x128.size a
  k0_off29_inb : ∀ k0_t2 : Fin k0_t2_loop.trips, ∀ a, (k0_off29 k0_t2) a + S1x16.size a ≤ S50x128.size a
  k0_off30_inb : ∀ k0_t2 : Fin k0_t2_loop.trips, ∀ a, (k0_off30 k0_t2) a + S1x16.size a ≤ S50x128.size a
  k0_off31_inb : ∀ k0_t2 : Fin k0_t2_loop.trips, ∀ a, (k0_off31 k0_t2) a + S1x16.size a ≤ S50x128.size a
  k0_off32_inb : ∀ k0_t2 : Fin k0_t2_loop.trips, ∀ a, (k0_off32 k0_t2) a + S1x16.size a ≤ S50x128.size a
  k0_off33_inb : ∀ k0_t2 : Fin k0_t2_loop.trips, ∀ a, (k0_off33 k0_t2) a + S1x16.size a ≤ S50x128.size a
  k0_off34_inb : ∀ k0_t2 : Fin k0_t2_loop.trips, ∀ a, (k0_off34 k0_t2) a + S1x16.size a ≤ S50x128.size a
  k0_off35_inb : ∀ k0_t2 : Fin k0_t2_loop.trips, ∀ a, (k0_off35 k0_t2) a + S1x16.size a ≤ S50x128.size a
  k0_off36_inb : ∀ k0_t2 : Fin k0_t2_loop.trips, ∀ a, (k0_off36 k0_t2) a + S1x16.size a ≤ S50x128.size a
  k0_off37_inb : ∀ k0_t2 : Fin k0_t2_loop.trips, ∀ a, (k0_off37 k0_t2) a + S1x16.size a ≤ S50x128.size a
  k0_off38_inb : ∀ k0_t2 : Fin k0_t2_loop.trips, ∀ a, (k0_off38 k0_t2) a + S1x16.size a ≤ S50x128.size a
  k0_off39_inb : ∀ k0_t2 : Fin k0_t2_loop.trips, ∀ a, (k0_off39 k0_t2) a + S1x16.size a ≤ S50x128.size a
  k0_off40_inb : ∀ k0_t2 : Fin k0_t2_loop.trips, ∀ a, (k0_off40 k0_t2) a + S1x16.size a ≤ S50x128.size a
  k0_off41_inb : ∀ k0_t2 : Fin k0_t2_loop.trips, ∀ a, (k0_off41 k0_t2) a + S1x16.size a ≤ S50x128.size a
  k0_off42_inb : ∀ k0_t2 : Fin k0_t2_loop.trips, ∀ a, (k0_off42 k0_t2) a + S1x16.size a ≤ S50x128.size a
  k0_off43_inb : ∀ k0_t2 : Fin k0_t2_loop.trips, ∀ a, (k0_off43 k0_t2) a + S1x16.size a ≤ S50x128.size a
  k0_off44_inb : ∀ k0_t2 : Fin k0_t2_loop.trips, ∀ a, (k0_off44 k0_t2) a + S1x16.size a ≤ S50x128.size a
  k0_off45_inb : ∀ k0_t2 : Fin k0_t2_loop.trips, ∀ a, (k0_off45 k0_t2) a + S1x16.size a ≤ S50x128.size a
  k0_off46_inb : ∀ k0_t2 : Fin k0_t2_loop.trips, ∀ a, (k0_off46 k0_t2) a + S1x16.size a ≤ S50x128.size a
  k0_off47_inb : ∀ k0_t2 : Fin k0_t2_loop.trips, ∀ a, (k0_off47 k0_t2) a + S1x16.size a ≤ S50x128.size a
  k0_off48_inb : ∀ k0_t2 : Fin k0_t2_loop.trips, ∀ a, (k0_off48 k0_t2) a + S1x16.size a ≤ S50x128.size a
  k0_off49_inb : ∀ k0_t2 : Fin k0_t2_loop.trips, ∀ a, (k0_off49 k0_t2) a + S1x16.size a ≤ S50x128.size a
  k0_off50_inb : ∀ k0_t2 : Fin k0_t2_loop.trips, ∀ a, (k0_off50 k0_t2) a + S1x16.size a ≤ S50x128.size a
  k0_off51_inb : ∀ k0_t2 : Fin k0_t2_loop.trips, ∀ a, (k0_off51 k0_t2) a + S1x16.size a ≤ S50x128.size a
  k0_off52_inb : ∀ k0_t2 : Fin k0_t2_loop.trips, ∀ a, (k0_off52 k0_t2) a + S1x16.size a ≤ S50x128.size a
  k0_off53_inb : ∀ k0_t2 : Fin k0_t2_loop.trips, ∀ a, (k0_off53 k0_t2) a + S1x16.size a ≤ S50x128.size a
  k0_off54_inb : ∀ k0_t2 : Fin k0_t2_loop.trips, ∀ a, (k0_off54 k0_t2) a + S1x16.size a ≤ S50x128.size a
  k0_off55_inb : ∀ (k0_t1 : Fin k0_t1_loop.trips) (k0_t2 : Fin k0_t2_loop.trips), ∀ a, (k0_off55 k0_t1 k0_t2) a + S1x16.size a ≤ S32x128.size a
  k0_t3_ok : k0_t3_loop.OK
  k0_off56_inb : ∀ (k0_t1 : Fin k0_t1_loop.trips) (k0_t3 : Fin k0_t3_loop.trips), ∀ a, (k0_off56 k0_t1 k0_t3) a + S16.size a ≤ S4096.size a
  k0_off57_inb : ∀ k0_t3 : Fin k0_t3_loop.trips, ∀ a, (k0_off57 k0_t3) a + S1x16.size a ≤ S50x128.size a
  k0_off58_inb : ∀ k0_t3 : Fin k0_t3_loop.trips, ∀ a, (k0_off58 k0_t3) a + S1x16.size a ≤ S50x128.size a
  k0_off59_inb : ∀ k0_t3 : Fin k0_t3_loop.trips, ∀ a, (k0_off59 k0_t3) a + S1x16.size a ≤ S50x128.size a
  k0_off60_inb : ∀ k0_t3 : Fin k0_t3_loop.trips, ∀ a, (k0_off60 k0_t3) a + S1x16.size a ≤ S50x128.size a
  k0_off61_inb : ∀ k0_t3 : Fin k0_t3_loop.trips, ∀ a, (k0_off61 k0_t3) a + S1x16.size a ≤ S50x128.size a
  k0_off62_inb : ∀ k0_t3 : Fin k0_t3_loop.trips, ∀ a, (k0_off62 k0_t3) a + S1x16.size a ≤ S50x128.size a
  k0_off63_inb : ∀ k0_t3 : Fin k0_t3_loop.trips, ∀ a, (k0_off63 k0_t3) a + S1x16.size a ≤ S50x128.size a
  k0_off64_inb : ∀ k0_t3 : Fin k0_t3_loop.trips, ∀ a, (k0_off64 k0_t3) a + S1x16.size a ≤ S50x128.size a
  k0_off65_inb : ∀ k0_t3 : Fin k0_t3_loop.trips, ∀ a, (k0_off65 k0_t3) a + S1x16.size a ≤ S50x128.size a
  k0_off66_inb : ∀ k0_t3 : Fin k0_t3_loop.trips, ∀ a, (k0_off66 k0_t3) a + S1x16.size a ≤ S50x128.size a
  k0_off67_inb : ∀ k0_t3 : Fin k0_t3_loop.trips, ∀ a, (k0_off67 k0_t3) a + S1x16.size a ≤ S50x128.size a
  k0_off68_inb : ∀ k0_t3 : Fin k0_t3_loop.trips, ∀ a, (k0_off68 k0_t3) a + S1x16.size a ≤ S50x128.size a
  k0_off69_inb : ∀ k0_t3 : Fin k0_t3_loop.trips, ∀ a, (k0_off69 k0_t3) a + S1x16.size a ≤ S50x128.size a
  k0_off70_inb : ∀ k0_t3 : Fin k0_t3_loop.trips, ∀ a, (k0_off70 k0_t3) a + S1x16.size a ≤ S50x128.size a
  k0_off71_inb : ∀ k0_t3 : Fin k0_t3_loop.trips, ∀ a, (k0_off71 k0_t3) a + S1x16.size a ≤ S50x128.size a
  k0_off72_inb : ∀ k0_t3 : Fin k0_t3_loop.trips, ∀ a, (k0_off72 k0_t3) a + S1x16.size a ≤ S50x128.size a
  k0_off73_inb : ∀ k0_t3 : Fin k0_t3_loop.trips, ∀ a, (k0_off73 k0_t3) a + S1x16.size a ≤ S50x128.size a
  k0_off74_inb : ∀ k0_t3 : Fin k0_t3_loop.trips, ∀ a, (k0_off74 k0_t3) a + S1x16.size a ≤ S50x128.size a
  k0_off75_inb : ∀ k0_t3 : Fin k0_t3_loop.trips, ∀ a, (k0_off75 k0_t3) a + S1x16.size a ≤ S50x128.size a
  k0_off76_inb : ∀ k0_t3 : Fin k0_t3_loop.trips, ∀ a, (k0_off76 k0_t3) a + S1x16.size a ≤ S50x128.size a
  k0_off77_inb : ∀ k0_t3 : Fin k0_t3_loop.trips, ∀ a, (k0_off77 k0_t3) a + S1x16.size a ≤ S50x128.size a
  k0_off78_inb : ∀ k0_t3 : Fin k0_t3_loop.trips, ∀ a, (k0_off78 k0_t3) a + S1x16.size a ≤ S50x128.size a
  k0_off79_inb : ∀ k0_t3 : Fin k0_t3_loop.trips, ∀ a, (k0_off79 k0_t3) a + S1x16.size a ≤ S50x128.size a
  k0_off80_inb : ∀ k0_t3 : Fin k0_t3_loop.trips, ∀ a, (k0_off80 k0_t3) a + S1x16.size a ≤ S50x128.size a
  k0_off81_inb : ∀ k0_t3 : Fin k0_t3_loop.trips, ∀ a, (k0_off81 k0_t3) a + S1x16.size a ≤ S50x128.size a
  k0_off82_inb : ∀ k0_t3 : Fin k0_t3_loop.trips, ∀ a, (k0_off82 k0_t3) a + S1x16.size a ≤ S50x128.size a
  k0_off83_inb : ∀ k0_t3 : Fin k0_t3_loop.trips, ∀ a, (k0_off83 k0_t3) a + S1x16.size a ≤ S50x128.size a
  k0_off84_inb : ∀ k0_t3 : Fin k0_t3_loop.trips, ∀ a, (k0_off84 k0_t3) a + S1x16.size a ≤ S50x128.size a
  k0_off85_inb : ∀ k0_t3 : Fin k0_t3_loop.trips, ∀ a, (k0_off85 k0_t3) a + S1x16.size a ≤ S50x128.size a
  k0_off86_inb : ∀ k0_t3 : Fin k0_t3_loop.trips, ∀ a, (k0_off86 k0_t3) a + S1x16.size a ≤ S50x128.size a
  k0_off87_inb : ∀ k0_t3 : Fin k0_t3_loop.trips, ∀ a, (k0_off87 k0_t3) a + S1x16.size a ≤ S50x128.size a
  k0_off88_inb : ∀ k0_t3 : Fin k0_t3_loop.trips, ∀ a, (k0_off88 k0_t3) a + S1x16.size a ≤ S50x128.size a
  k0_off89_inb : ∀ k0_t3 : Fin k0_t3_loop.trips, ∀ a, (k0_off89 k0_t3) a + S1x16.size a ≤ S50x128.size a
  k0_off90_inb : ∀ k0_t3 : Fin k0_t3_loop.trips, ∀ a, (k0_off90 k0_t3) a + S1x16.size a ≤ S50x128.size a
  k0_off91_inb : ∀ k0_t3 : Fin k0_t3_loop.trips, ∀ a, (k0_off91 k0_t3) a + S1x16.size a ≤ S50x128.size a
  k0_off92_inb : ∀ k0_t3 : Fin k0_t3_loop.trips, ∀ a, (k0_off92 k0_t3) a + S1x16.size a ≤ S50x128.size a
  k0_off93_inb : ∀ k0_t3 : Fin k0_t3_loop.trips, ∀ a, (k0_off93 k0_t3) a + S1x16.size a ≤ S50x128.size a
  k0_off94_inb : ∀ k0_t3 : Fin k0_t3_loop.trips, ∀ a, (k0_off94 k0_t3) a + S1x16.size a ≤ S50x128.size a
  k0_off95_inb : ∀ k0_t3 : Fin k0_t3_loop.trips, ∀ a, (k0_off95 k0_t3) a + S1x16.size a ≤ S50x128.size a
  k0_off96_inb : ∀ k0_t3 : Fin k0_t3_loop.trips, ∀ a, (k0_off96 k0_t3) a + S1x16.size a ≤ S50x128.size a
  k0_off97_inb : ∀ k0_t3 : Fin k0_t3_loop.trips, ∀ a, (k0_off97 k0_t3) a + S1x16.size a ≤ S50x128.size a
  k0_off98_inb : ∀ k0_t3 : Fin k0_t3_loop.trips, ∀ a, (k0_off98 k0_t3) a + S1x16.size a ≤ S50x128.size a
  k0_off99_inb : ∀ k0_t3 : Fin k0_t3_loop.trips, ∀ a, (k0_off99 k0_t3) a + S1x16.size a ≤ S50x128.size a
  k0_off100_inb : ∀ k0_t3 : Fin k0_t3_loop.trips, ∀ a, (k0_off100 k0_t3) a + S1x16.size a ≤ S50x128.size a
  k0_off101_inb : ∀ k0_t3 : Fin k0_t3_loop.trips, ∀ a, (k0_off101 k0_t3) a + S1x16.size a ≤ S50x128.size a
  k0_off102_inb : ∀ k0_t3 : Fin k0_t3_loop.trips, ∀ a, (k0_off102 k0_t3) a + S1x16.size a ≤ S50x128.size a
  k0_off103_inb : ∀ k0_t3 : Fin k0_t3_loop.trips, ∀ a, (k0_off103 k0_t3) a + S1x16.size a ≤ S50x128.size a
  k0_off104_inb : ∀ k0_t3 : Fin k0_t3_loop.trips, ∀ a, (k0_off104 k0_t3) a + S1x16.size a ≤ S50x128.size a
  k0_off105_inb : ∀ k0_t3 : Fin k0_t3_loop.trips, ∀ a, (k0_off105 k0_t3) a + S1x16.size a ≤ S50x128.size a
  k0_off106_inb : ∀ k0_t3 : Fin k0_t3_loop.trips, ∀ a, (k0_off106 k0_t3) a + S1x16.size a ≤ S50x128.size a
  k0_off107_inb : ∀ (k0_t1 : Fin k0_t1_loop.trips) (k0_t3 : Fin k0_t3_loop.trips), ∀ a, (k0_off107 k0_t1 k0_t3) a + S1x16.size a ≤ S32x128.size a
  k0_t4_ok : k0_t4_loop.OK
  k0_off108_inb : ∀ k0_t4 : Fin k0_t4_loop.trips, ∀ a, (k0_off108 k0_t4) a + S16.size a ≤ S4096.size a
  k0_off109_inb : ∀ k0_t4 : Fin k0_t4_loop.trips, ∀ a, (k0_off109 k0_t4) a + S1x16.size a ≤ S50x128.size a
  k0_off110_inb : ∀ k0_t4 : Fin k0_t4_loop.trips, ∀ a, (k0_off110 k0_t4) a + S1x16.size a ≤ S50x128.size a
  k0_off111_inb : ∀ k0_t4 : Fin k0_t4_loop.trips, ∀ a, (k0_off111 k0_t4) a + S1x16.size a ≤ S50x128.size a
  k0_off112_inb : ∀ k0_t4 : Fin k0_t4_loop.trips, ∀ a, (k0_off112 k0_t4) a + S1x16.size a ≤ S50x128.size a
  k0_off113_inb : ∀ k0_t4 : Fin k0_t4_loop.trips, ∀ a, (k0_off113 k0_t4) a + S1x16.size a ≤ S50x128.size a
  k0_off114_inb : ∀ k0_t4 : Fin k0_t4_loop.trips, ∀ a, (k0_off114 k0_t4) a + S1x16.size a ≤ S50x128.size a
  k0_off115_inb : ∀ k0_t4 : Fin k0_t4_loop.trips, ∀ a, (k0_off115 k0_t4) a + S1x16.size a ≤ S50x128.size a
  k0_off116_inb : ∀ k0_t4 : Fin k0_t4_loop.trips, ∀ a, (k0_off116 k0_t4) a + S1x16.size a ≤ S50x128.size a
  k0_off117_inb : ∀ k0_t4 : Fin k0_t4_loop.trips, ∀ a, (k0_off117 k0_t4) a + S1x16.size a ≤ S50x128.size a
  k0_off118_inb : ∀ k0_t4 : Fin k0_t4_loop.trips, ∀ a, (k0_off118 k0_t4) a + S1x16.size a ≤ S50x128.size a
  k0_off119_inb : ∀ k0_t4 : Fin k0_t4_loop.trips, ∀ a, (k0_off119 k0_t4) a + S1x16.size a ≤ S50x128.size a
  k0_off120_inb : ∀ k0_t4 : Fin k0_t4_loop.trips, ∀ a, (k0_off120 k0_t4) a + S1x16.size a ≤ S50x128.size a
  k0_off121_inb : ∀ k0_t4 : Fin k0_t4_loop.trips, ∀ a, (k0_off121 k0_t4) a + S1x16.size a ≤ S50x128.size a
  k0_off122_inb : ∀ k0_t4 : Fin k0_t4_loop.trips, ∀ a, (k0_off122 k0_t4) a + S1x16.size a ≤ S50x128.size a
  k0_off123_inb : ∀ k0_t4 : Fin k0_t4_loop.trips, ∀ a, (k0_off123 k0_t4) a + S1x16.size a ≤ S50x128.size a
  k0_off124_inb : ∀ k0_t4 : Fin k0_t4_loop.trips, ∀ a, (k0_off124 k0_t4) a + S1x16.size a ≤ S50x128.size a
  k0_off125_inb : ∀ k0_t4 : Fin k0_t4_loop.trips, ∀ a, (k0_off125 k0_t4) a + S1x16.size a ≤ S50x128.size a
  k0_off126_inb : ∀ k0_t4 : Fin k0_t4_loop.trips, ∀ a, (k0_off126 k0_t4) a + S1x16.size a ≤ S50x128.size a
  k0_off127_inb : ∀ k0_t4 : Fin k0_t4_loop.trips, ∀ a, (k0_off127 k0_t4) a + S1x16.size a ≤ S50x128.size a
  k0_off128_inb : ∀ k0_t4 : Fin k0_t4_loop.trips, ∀ a, (k0_off128 k0_t4) a + S1x16.size a ≤ S50x128.size a
  k0_off129_inb : ∀ k0_t4 : Fin k0_t4_loop.trips, ∀ a, (k0_off129 k0_t4) a + S1x16.size a ≤ S50x128.size a
  k0_off130_inb : ∀ k0_t4 : Fin k0_t4_loop.trips, ∀ a, (k0_off130 k0_t4) a + S1x16.size a ≤ S50x128.size a
  k0_off131_inb : ∀ k0_t4 : Fin k0_t4_loop.trips, ∀ a, (k0_off131 k0_t4) a + S1x16.size a ≤ S50x128.size a
  k0_off132_inb : ∀ k0_t4 : Fin k0_t4_loop.trips, ∀ a, (k0_off132 k0_t4) a + S1x16.size a ≤ S50x128.size a
  k0_off133_inb : ∀ k0_t4 : Fin k0_t4_loop.trips, ∀ a, (k0_off133 k0_t4) a + S1x16.size a ≤ S50x128.size a
  k0_off134_inb : ∀ k0_t4 : Fin k0_t4_loop.trips, ∀ a, (k0_off134 k0_t4) a + S1x16.size a ≤ S50x128.size a
  k0_off135_inb : ∀ k0_t4 : Fin k0_t4_loop.trips, ∀ a, (k0_off135 k0_t4) a + S1x16.size a ≤ S50x128.size a
  k0_off136_inb : ∀ k0_t4 : Fin k0_t4_loop.trips, ∀ a, (k0_off136 k0_t4) a + S1x16.size a ≤ S50x128.size a
  k0_off137_inb : ∀ k0_t4 : Fin k0_t4_loop.trips, ∀ a, (k0_off137 k0_t4) a + S1x16.size a ≤ S50x128.size a
  k0_off138_inb : ∀ k0_t4 : Fin k0_t4_loop.trips, ∀ a, (k0_off138 k0_t4) a + S1x16.size a ≤ S50x128.size a
  k0_off139_inb : ∀ k0_t4 : Fin k0_t4_loop.trips, ∀ a, (k0_off139 k0_t4) a + S1x16.size a ≤ S50x128.size a
  k0_off140_inb : ∀ k0_t4 : Fin k0_t4_loop.trips, ∀ a, (k0_off140 k0_t4) a + S1x16.size a ≤ S50x128.size a
  k0_off141_inb : ∀ k0_t4 : Fin k0_t4_loop.trips, ∀ a, (k0_off141 k0_t4) a + S1x16.size a ≤ S50x128.size a
  k0_off142_inb : ∀ k0_t4 : Fin k0_t4_loop.trips, ∀ a, (k0_off142 k0_t4) a + S1x16.size a ≤ S50x128.size a
  k0_off143_inb : ∀ k0_t4 : Fin k0_t4_loop.trips, ∀ a, (k0_off143 k0_t4) a + S1x16.size a ≤ S50x128.size a
  k0_off144_inb : ∀ k0_t4 : Fin k0_t4_loop.trips, ∀ a, (k0_off144 k0_t4) a + S1x16.size a ≤ S50x128.size a
  k0_off145_inb : ∀ k0_t4 : Fin k0_t4_loop.trips, ∀ a, (k0_off145 k0_t4) a + S1x16.size a ≤ S50x128.size a
  k0_off146_inb : ∀ k0_t4 : Fin k0_t4_loop.trips, ∀ a, (k0_off146 k0_t4) a + S1x16.size a ≤ S50x128.size a
  k0_off147_inb : ∀ k0_t4 : Fin k0_t4_loop.trips, ∀ a, (k0_off147 k0_t4) a + S1x16.size a ≤ S50x128.size a
  k0_off148_inb : ∀ k0_t4 : Fin k0_t4_loop.trips, ∀ a, (k0_off148 k0_t4) a + S1x16.size a ≤ S50x128.size a
  k0_off149_inb : ∀ k0_t4 : Fin k0_t4_loop.trips, ∀ a, (k0_off149 k0_t4) a + S1x16.size a ≤ S50x128.size a
  k0_off150_inb : ∀ k0_t4 : Fin k0_t4_loop.trips, ∀ a, (k0_off150 k0_t4) a + S1x16.size a ≤ S50x128.size a
  k0_off151_inb : ∀ k0_t4 : Fin k0_t4_loop.trips, ∀ a, (k0_off151 k0_t4) a + S1x16.size a ≤ S50x128.size a
  k0_off152_inb : ∀ k0_t4 : Fin k0_t4_loop.trips, ∀ a, (k0_off152 k0_t4) a + S1x16.size a ≤ S50x128.size a
  k0_off153_inb : ∀ k0_t4 : Fin k0_t4_loop.trips, ∀ a, (k0_off153 k0_t4) a + S1x16.size a ≤ S50x128.size a
  k0_off154_inb : ∀ k0_t4 : Fin k0_t4_loop.trips, ∀ a, (k0_off154 k0_t4) a + S1x16.size a ≤ S50x128.size a
  k0_off155_inb : ∀ k0_t4 : Fin k0_t4_loop.trips, ∀ a, (k0_off155 k0_t4) a + S1x16.size a ≤ S50x128.size a
  k0_off156_inb : ∀ k0_t4 : Fin k0_t4_loop.trips, ∀ a, (k0_off156 k0_t4) a + S1x16.size a ≤ S50x128.size a
  k0_off157_inb : ∀ k0_t4 : Fin k0_t4_loop.trips, ∀ a, (k0_off157 k0_t4) a + S1x16.size a ≤ S50x128.size a
  k0_off158_inb : ∀ k0_t4 : Fin k0_t4_loop.trips, ∀ a, (k0_off158 k0_t4) a + S1x16.size a ≤ S50x128.size a
  k0_off159_inb : ∀ k0_t4 : Fin k0_t4_loop.trips, ∀ a, (k0_off159 k0_t4) a + S1x16.size a ≤ S32x128.size a
  k0_t5_ok : k0_t5_loop.OK
  k0_off160_inb : ∀ k0_t5 : Fin k0_t5_loop.trips, ∀ a, (k0_off160 k0_t5) a + S16.size a ≤ S4096.size a
  k0_off161_inb : ∀ k0_t5 : Fin k0_t5_loop.trips, ∀ a, (k0_off161 k0_t5) a + S1x16.size a ≤ S50x128.size a
  k0_off162_inb : ∀ k0_t5 : Fin k0_t5_loop.trips, ∀ a, (k0_off162 k0_t5) a + S1x16.size a ≤ S50x128.size a
  k0_off163_inb : ∀ k0_t5 : Fin k0_t5_loop.trips, ∀ a, (k0_off163 k0_t5) a + S1x16.size a ≤ S50x128.size a
  k0_off164_inb : ∀ k0_t5 : Fin k0_t5_loop.trips, ∀ a, (k0_off164 k0_t5) a + S1x16.size a ≤ S50x128.size a
  k0_off165_inb : ∀ k0_t5 : Fin k0_t5_loop.trips, ∀ a, (k0_off165 k0_t5) a + S1x16.size a ≤ S50x128.size a
  k0_off166_inb : ∀ k0_t5 : Fin k0_t5_loop.trips, ∀ a, (k0_off166 k0_t5) a + S1x16.size a ≤ S50x128.size a
  k0_off167_inb : ∀ k0_t5 : Fin k0_t5_loop.trips, ∀ a, (k0_off167 k0_t5) a + S1x16.size a ≤ S50x128.size a
  k0_off168_inb : ∀ k0_t5 : Fin k0_t5_loop.trips, ∀ a, (k0_off168 k0_t5) a + S1x16.size a ≤ S50x128.size a
  k0_off169_inb : ∀ k0_t5 : Fin k0_t5_loop.trips, ∀ a, (k0_off169 k0_t5) a + S1x16.size a ≤ S50x128.size a
  k0_off170_inb : ∀ k0_t5 : Fin k0_t5_loop.trips, ∀ a, (k0_off170 k0_t5) a + S1x16.size a ≤ S50x128.size a
  k0_off171_inb : ∀ k0_t5 : Fin k0_t5_loop.trips, ∀ a, (k0_off171 k0_t5) a + S1x16.size a ≤ S50x128.size a
  k0_off172_inb : ∀ k0_t5 : Fin k0_t5_loop.trips, ∀ a, (k0_off172 k0_t5) a + S1x16.size a ≤ S50x128.size a
  k0_off173_inb : ∀ k0_t5 : Fin k0_t5_loop.trips, ∀ a, (k0_off173 k0_t5) a + S1x16.size a ≤ S50x128.size a
  k0_off174_inb : ∀ k0_t5 : Fin k0_t5_loop.trips, ∀ a, (k0_off174 k0_t5) a + S1x16.size a ≤ S50x128.size a
  k0_off175_inb : ∀ k0_t5 : Fin k0_t5_loop.trips, ∀ a, (k0_off175 k0_t5) a + S1x16.size a ≤ S50x128.size a
  k0_off176_inb : ∀ k0_t5 : Fin k0_t5_loop.trips, ∀ a, (k0_off176 k0_t5) a + S1x16.size a ≤ S50x128.size a
  k0_off177_inb : ∀ k0_t5 : Fin k0_t5_loop.trips, ∀ a, (k0_off177 k0_t5) a + S1x16.size a ≤ S50x128.size a
  k0_off178_inb : ∀ k0_t5 : Fin k0_t5_loop.trips, ∀ a, (k0_off178 k0_t5) a + S1x16.size a ≤ S50x128.size a
  k0_off179_inb : ∀ k0_t5 : Fin k0_t5_loop.trips, ∀ a, (k0_off179 k0_t5) a + S1x16.size a ≤ S50x128.size a
  k0_off180_inb : ∀ k0_t5 : Fin k0_t5_loop.trips, ∀ a, (k0_off180 k0_t5) a + S1x16.size a ≤ S50x128.size a
  k0_off181_inb : ∀ k0_t5 : Fin k0_t5_loop.trips, ∀ a, (k0_off181 k0_t5) a + S1x16.size a ≤ S50x128.size a
  k0_off182_inb : ∀ k0_t5 : Fin k0_t5_loop.trips, ∀ a, (k0_off182 k0_t5) a + S1x16.size a ≤ S50x128.size a
  k0_off183_inb : ∀ k0_t5 : Fin k0_t5_loop.trips, ∀ a, (k0_off183 k0_t5) a + S1x16.size a ≤ S50x128.size a
  k0_off184_inb : ∀ k0_t5 : Fin k0_t5_loop.trips, ∀ a, (k0_off184 k0_t5) a + S1x16.size a ≤ S50x128.size a
  k0_off185_inb : ∀ k0_t5 : Fin k0_t5_loop.trips, ∀ a, (k0_off185 k0_t5) a + S1x16.size a ≤ S50x128.size a
  k0_off186_inb : ∀ k0_t5 : Fin k0_t5_loop.trips, ∀ a, (k0_off186 k0_t5) a + S1x16.size a ≤ S50x128.size a
  k0_off187_inb : ∀ k0_t5 : Fin k0_t5_loop.trips, ∀ a, (k0_off187 k0_t5) a + S1x16.size a ≤ S50x128.size a
  k0_off188_inb : ∀ k0_t5 : Fin k0_t5_loop.trips, ∀ a, (k0_off188 k0_t5) a + S1x16.size a ≤ S50x128.size a
  k0_off189_inb : ∀ k0_t5 : Fin k0_t5_loop.trips, ∀ a, (k0_off189 k0_t5) a + S1x16.size a ≤ S50x128.size a
  k0_off190_inb : ∀ k0_t5 : Fin k0_t5_loop.trips, ∀ a, (k0_off190 k0_t5) a + S1x16.size a ≤ S50x128.size a
  k0_off191_inb : ∀ k0_t5 : Fin k0_t5_loop.trips, ∀ a, (k0_off191 k0_t5) a + S1x16.size a ≤ S50x128.size a
  k0_off192_inb : ∀ k0_t5 : Fin k0_t5_loop.trips, ∀ a, (k0_off192 k0_t5) a + S1x16.size a ≤ S50x128.size a
  k0_off193_inb : ∀ k0_t5 : Fin k0_t5_loop.trips, ∀ a, (k0_off193 k0_t5) a + S1x16.size a ≤ S50x128.size a
  k0_off194_inb : ∀ k0_t5 : Fin k0_t5_loop.trips, ∀ a, (k0_off194 k0_t5) a + S1x16.size a ≤ S50x128.size a
  k0_off195_inb : ∀ k0_t5 : Fin k0_t5_loop.trips, ∀ a, (k0_off195 k0_t5) a + S1x16.size a ≤ S50x128.size a
  k0_off196_inb : ∀ k0_t5 : Fin k0_t5_loop.trips, ∀ a, (k0_off196 k0_t5) a + S1x16.size a ≤ S50x128.size a
  k0_off197_inb : ∀ k0_t5 : Fin k0_t5_loop.trips, ∀ a, (k0_off197 k0_t5) a + S1x16.size a ≤ S50x128.size a
  k0_off198_inb : ∀ k0_t5 : Fin k0_t5_loop.trips, ∀ a, (k0_off198 k0_t5) a + S1x16.size a ≤ S50x128.size a
  k0_off199_inb : ∀ k0_t5 : Fin k0_t5_loop.trips, ∀ a, (k0_off199 k0_t5) a + S1x16.size a ≤ S50x128.size a
  k0_off200_inb : ∀ k0_t5 : Fin k0_t5_loop.trips, ∀ a, (k0_off200 k0_t5) a + S1x16.size a ≤ S50x128.size a
  k0_off201_inb : ∀ k0_t5 : Fin k0_t5_loop.trips, ∀ a, (k0_off201 k0_t5) a + S1x16.size a ≤ S50x128.size a
  k0_off202_inb : ∀ k0_t5 : Fin k0_t5_loop.trips, ∀ a, (k0_off202 k0_t5) a + S1x16.size a ≤ S50x128.size a
  k0_off203_inb : ∀ k0_t5 : Fin k0_t5_loop.trips, ∀ a, (k0_off203 k0_t5) a + S1x16.size a ≤ S50x128.size a
  k0_off204_inb : ∀ k0_t5 : Fin k0_t5_loop.trips, ∀ a, (k0_off204 k0_t5) a + S1x16.size a ≤ S50x128.size a
  k0_off205_inb : ∀ k0_t5 : Fin k0_t5_loop.trips, ∀ a, (k0_off205 k0_t5) a + S1x16.size a ≤ S50x128.size a
  k0_off206_inb : ∀ k0_t5 : Fin k0_t5_loop.trips, ∀ a, (k0_off206 k0_t5) a + S1x16.size a ≤ S50x128.size a
  k0_off207_inb : ∀ k0_t5 : Fin k0_t5_loop.trips, ∀ a, (k0_off207 k0_t5) a + S1x16.size a ≤ S50x128.size a
  k0_off208_inb : ∀ k0_t5 : Fin k0_t5_loop.trips, ∀ a, (k0_off208 k0_t5) a + S1x16.size a ≤ S50x128.size a
  k0_off209_inb : ∀ k0_t5 : Fin k0_t5_loop.trips, ∀ a, (k0_off209 k0_t5) a + S1x16.size a ≤ S50x128.size a
  k0_off210_inb : ∀ k0_t5 : Fin k0_t5_loop.trips, ∀ a, (k0_off210 k0_t5) a + S1x16.size a ≤ S50x128.size a
  k0_off211_inb : ∀ k0_t5 : Fin k0_t5_loop.trips, ∀ a, (k0_off211 k0_t5) a + S1x16.size a ≤ S32x128.size a
  k0_off212_inb : ∀ i : grid0.Coords, ∀ a, (k0_off212 i) a + S32x128.size a ≤ S1024x128.size a
  k0_t6_ok : k0_t6_loop.OK
  k0_off213_inb : ∀ (i : grid0.Coords) (k0_t6 : Fin k0_t6_loop.trips), ∀ a, (k0_off213 i k0_t6) a + S1x1x100000.size a ≤ S26x32x100000.size a
  k0_off214_inb : ∀ k0_t6 : Fin k0_t6_loop.trips, ∀ a, (k0_off214 k0_t6) a + S1x4096.size a ≤ S26x4096.size a
  k0_t7_ok : k0_t7_loop.OK
  k0_off215_inb : ∀ k0_t7 : Fin k0_t7_loop.trips, ∀ a, (k0_off215 k0_t7) a + S16.size a ≤ S4096.size a
  k0_off216_inb : ∀ k0_t7 : Fin k0_t7_loop.trips, ∀ a, (k0_off216 k0_t7) a + S1x16.size a ≤ S32x128.size a
  k0_off217_inb : ∀ k0_t7 : Fin k0_t7_loop.trips, ∀ a, (k0_off217 k0_t7) a + S16.size a ≤ S4096.size a
  k0_off218_inb : ∀ k0_t7 : Fin k0_t7_loop.trips, ∀ a, (k0_off218 k0_t7) a + S1x16.size a ≤ S32x128.size a
  k0_off219_inb : ∀ k0_t7 : Fin k0_t7_loop.trips, ∀ a, (k0_off219 k0_t7) a + S16.size a ≤ S4096.size a
  k0_off220_inb : ∀ k0_t7 : Fin k0_t7_loop.trips, ∀ a, (k0_off220 k0_t7) a + S1x16.size a ≤ S32x128.size a
  k0_off221_inb : ∀ k0_t7 : Fin k0_t7_loop.trips, ∀ a, (k0_off221 k0_t7) a + S16.size a ≤ S4096.size a
  k0_off222_inb : ∀ k0_t7 : Fin k0_t7_loop.trips, ∀ a, (k0_off222 k0_t7) a + S1x16.size a ≤ S32x128.size a
  k0_off223_inb : ∀ k0_t7 : Fin k0_t7_loop.trips, ∀ a, (k0_off223 k0_t7) a + S16.size a ≤ S4096.size a
  k0_off224_inb : ∀ k0_t7 : Fin k0_t7_loop.trips, ∀ a, (k0_off224 k0_t7) a + S1x16.size a ≤ S32x128.size a
  k0_off225_inb : ∀ k0_t7 : Fin k0_t7_loop.trips, ∀ a, (k0_off225 k0_t7) a + S16.size a ≤ S4096.size a
  k0_off226_inb : ∀ k0_t7 : Fin k0_t7_loop.trips, ∀ a, (k0_off226 k0_t7) a + S1x16.size a ≤ S32x128.size a
  k0_off227_inb : ∀ k0_t7 : Fin k0_t7_loop.trips, ∀ a, (k0_off227 k0_t7) a + S16.size a ≤ S4096.size a
  k0_off228_inb : ∀ k0_t7 : Fin k0_t7_loop.trips, ∀ a, (k0_off228 k0_t7) a + S1x16.size a ≤ S32x128.size a
  k0_off229_inb : ∀ k0_t7 : Fin k0_t7_loop.trips, ∀ a, (k0_off229 k0_t7) a + S16.size a ≤ S4096.size a
  k0_off230_inb : ∀ k0_t7 : Fin k0_t7_loop.trips, ∀ a, (k0_off230 k0_t7) a + S1x16.size a ≤ S32x128.size a
  k0_off231_inb : ∀ k0_t7 : Fin k0_t7_loop.trips, ∀ a, (k0_off231 k0_t7) a + S16.size a ≤ S4096.size a
  k0_off232_inb : ∀ k0_t7 : Fin k0_t7_loop.trips, ∀ a, (k0_off232 k0_t7) a + S1x16.size a ≤ S32x128.size a
  k0_off233_inb : ∀ k0_t7 : Fin k0_t7_loop.trips, ∀ a, (k0_off233 k0_t7) a + S16.size a ≤ S4096.size a
  k0_off234_inb : ∀ k0_t7 : Fin k0_t7_loop.trips, ∀ a, (k0_off234 k0_t7) a + S1x16.size a ≤ S32x128.size a
  k0_off235_inb : ∀ k0_t7 : Fin k0_t7_loop.trips, ∀ a, (k0_off235 k0_t7) a + S16.size a ≤ S4096.size a
  k0_off236_inb : ∀ k0_t7 : Fin k0_t7_loop.trips, ∀ a, (k0_off236 k0_t7) a + S1x16.size a ≤ S32x128.size a
  k0_off237_inb : ∀ k0_t7 : Fin k0_t7_loop.trips, ∀ a, (k0_off237 k0_t7) a + S16.size a ≤ S4096.size a
  k0_off238_inb : ∀ k0_t7 : Fin k0_t7_loop.trips, ∀ a, (k0_off238 k0_t7) a + S1x16.size a ≤ S32x128.size a
  k0_off239_inb : ∀ k0_t7 : Fin k0_t7_loop.trips, ∀ a, (k0_off239 k0_t7) a + S16.size a ≤ S4096.size a
  k0_off240_inb : ∀ k0_t7 : Fin k0_t7_loop.trips, ∀ a, (k0_off240 k0_t7) a + S1x16.size a ≤ S32x128.size a
  k0_off241_inb : ∀ k0_t7 : Fin k0_t7_loop.trips, ∀ a, (k0_off241 k0_t7) a + S16.size a ≤ S4096.size a
  k0_off242_inb : ∀ k0_t7 : Fin k0_t7_loop.trips, ∀ a, (k0_off242 k0_t7) a + S1x16.size a ≤ S32x128.size a
  k0_off243_inb : ∀ k0_t7 : Fin k0_t7_loop.trips, ∀ a, (k0_off243 k0_t7) a + S16.size a ≤ S4096.size a
  k0_off244_inb : ∀ k0_t7 : Fin k0_t7_loop.trips, ∀ a, (k0_off244 k0_t7) a + S1x16.size a ≤ S32x128.size a
  k0_off245_inb : ∀ k0_t7 : Fin k0_t7_loop.trips, ∀ a, (k0_off245 k0_t7) a + S16.size a ≤ S4096.size a
  k0_off246_inb : ∀ k0_t7 : Fin k0_t7_loop.trips, ∀ a, (k0_off246 k0_t7) a + S1x16.size a ≤ S32x128.size a
  k0_off247_inb : ∀ (i : grid0.Coords) (k0_t6 : Fin k0_t6_loop.trips), ∀ a, (k0_off247 i k0_t6) a + S32x128.size a ≤ S26624x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5

class Facts : Prop extends Facts₀ where

variable [Facts]
-- ==== ReferenceIdeal.lean ====
abbrev S4096x26 : Shape := ⟨2, ![4096, 26]⟩
abbrev S4096x50 : Shape := ⟨2, ![4096, 50]⟩
abbrev S4096 : Shape := ⟨1, ![4096]⟩
abbrev S4096x13 : Shape := ⟨2, ![4096, 13]⟩
abbrev S26x100000x32 : Shape := ⟨3, ![26, 100000, 32]⟩
abbrev S100000x32 : Shape := ⟨2, ![100000, 32]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x32 : Shape := ⟨3, ![4096, 26, 32]⟩
abbrev S4096x832 : Shape := ⟨2, ![4096, 832]⟩
abbrev S4096x50x1 : Shape := ⟨3, ![4096, 50, 1]⟩
abbrev S1 : Shape := ⟨1, ![1]⟩
abbrev S1x1x1 : Shape := ⟨3, ![1, 1, 1]⟩
abbrev S4096x50x32 : Shape := ⟨3, ![4096, 50, 32]⟩
abbrev S50 : Shape := ⟨1, ![50]⟩
abbrev S1x50 : Shape := ⟨2, ![1, 50]⟩
abbrev S4096x1 : Shape := ⟨2, ![4096, 1]⟩
abbrev S4096x32 : Shape := ⟨2, ![4096, 32]⟩
abbrev S4096x877 : Shape := ⟨2, ![4096, 877]⟩

abbrev nBuf : Space → Nat
  | .hbm => 72
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x50, .i32⟩
  | .hbm, ⟨2, _⟩ => ⟨S4096, .i32⟩
  | .hbm, ⟨3, _⟩ => ⟨S4096x13, .f32⟩
  | .hbm, ⟨4, _⟩ => ⟨S26x100000x32, .f32⟩
  | .hbm, ⟨5, _⟩ => ⟨S100000x32, .f32⟩
  | .hbm, ⟨6, _⟩ => ⟨S26, .i32⟩
  | .hbm, ⟨7, _⟩ => ⟨S1x26, .i32⟩
  | .hbm, ⟨8, _⟩ => ⟨S_, .i32⟩
  | .hbm, ⟨9, _⟩ => ⟨S1x26, .i32⟩
  | .hbm, ⟨10, _⟩ => ⟨S1x26, .i1⟩
  | .hbm, ⟨11, _⟩ => ⟨S_, .i32⟩
  | .hbm, ⟨12, _⟩ => ⟨S1x26, .i32⟩
  | .hbm, ⟨13, _⟩ => ⟨S1x26, .i32⟩
  | .hbm, ⟨14, _⟩ => ⟨S1x26, .i32⟩
  | .hbm, ⟨15, _⟩ => ⟨S_, .i32⟩
  | .hbm, ⟨16, _⟩ => ⟨S4096x26, .i32⟩
  | .hbm, ⟨17, _⟩ => ⟨S4096x26, .i1⟩
  | .hbm, ⟨18, _⟩ => ⟨S_, .i32⟩
  | .hbm, ⟨19, _⟩ => ⟨S4096x26, .i32⟩
  | .hbm, ⟨20, _⟩ => ⟨S4096x26, .i32⟩
  | .hbm, ⟨21, _⟩ => ⟨S4096x26, .i32⟩
  | .hbm, ⟨22, _⟩ => ⟨S4096x26, .i32⟩
  | .hbm, ⟨23, _⟩ => ⟨S4096x26x1, .i32⟩
  | .hbm, ⟨24, _⟩ => ⟨S4096x26x1, .i32⟩
  | .hbm, ⟨25, _⟩ => ⟨S4096x26x2, .i32⟩
  | .hbm, ⟨26, _⟩ => ⟨S4096x26x32, .f32⟩
  | .hbm, ⟨27, _⟩ => ⟨S4096x832, .f32⟩
  | .hbm, ⟨28, _⟩ => ⟨S_, .i32⟩
  | .hbm, ⟨29, _⟩ => ⟨S4096x50, .i32⟩
  | .hbm, ⟨30, _⟩ => ⟨S4096x50, .i1⟩
  | .hbm, ⟨31, _⟩ => ⟨S_, .i32⟩
  | .hbm, ⟨32, _⟩ => ⟨S4096x50, .i32⟩
  | .hbm, ⟨33, _⟩ => ⟨S4096x50, .i32⟩
  | .hbm, ⟨34, _⟩ => ⟨S4096x50, .i32⟩
  | .hbm, ⟨35, _⟩ => ⟨S4096x50x1, .i32⟩
  | .hbm, ⟨36, _⟩ => ⟨S1, .i32⟩
  | .hbm, ⟨37, _⟩ => ⟨S_, .i32⟩
  | .hbm, ⟨38, _⟩ => ⟨S4096x50x1, .i32⟩
  | .hbm, ⟨39, _⟩ => ⟨S4096x50x1, .i1⟩
  | .hbm, ⟨40, _⟩ => ⟨S1x1x1, .i32⟩
  | .hbm, ⟨41, _⟩ => ⟨S4096x50x1, .i32⟩
  | .hbm, ⟨42, _⟩ => ⟨S4096x50x1, .i1⟩
  | .hbm, ⟨43, _⟩ => ⟨S4096x50x1, .i1⟩
  | .hbm, ⟨44, _⟩ => ⟨S_, .i1⟩
  | .hbm, ⟨45, _⟩ => ⟨S4096x50, .i1⟩
  | .hbm, ⟨46, _⟩ => ⟨S4096x50x32, .f32⟩
  | .hbm, ⟨47, _⟩ => ⟨S4096x50x32, .i1⟩
  | .hbm, ⟨48, _⟩ => ⟨S_, .f32⟩
  | .hbm, ⟨49, _⟩ => ⟨S4096x50x32, .f32⟩
  | .hbm, ⟨50, _⟩ => ⟨S4096x50x32, .f32⟩
  | .hbm, ⟨51, _⟩ => ⟨S50, .i32⟩
  | .hbm, ⟨52, _⟩ => ⟨S1x50, .i32⟩
  | .hbm, ⟨53, _⟩ => ⟨S4096x1, .i32⟩
  | .hbm, ⟨54, _⟩ => ⟨S4096x50, .i32⟩
  | .hbm, ⟨55, _⟩ => ⟨S4096x50, .i32⟩
  | .hbm, ⟨56, _⟩ => ⟨S4096x50, .i1⟩
  | .hbm, ⟨57, _⟩ => ⟨S4096x50, .f32⟩
  | .hbm, ⟨58, _⟩ => ⟨S_, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .f32⟩
  | .hbm, ⟨63, _⟩ => ⟨S4096x1, .f32⟩
  | .hbm, ⟨64, _⟩ => ⟨S4096x50x1, .f32⟩
  | .hbm, ⟨65, _⟩ => ⟨S4096x50x32, .f32⟩
  | .hbm, ⟨66, _⟩ => ⟨S4096x50x32, .f32⟩
  | .hbm, ⟨67, _⟩ => ⟨S_, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x877, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_3 : Ref sig .tc := ⟨.hbm, 58, rfl⟩
abbrev main_call1_v0 : Ref sig .tc := ⟨.hbm, 59, rfl⟩
abbrev main_call1_v1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  shapeCasts_S4096x26x32_S4096x832 : S4096x26x32.ShapeCasts S4096x832
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x32_0_1 : S4096x50.BroadcastsInDim S4096x50x32 (![0, 1] : Fin 2 → Fin S4096x50x32.rank)
  bcast_S_S4096x50x32 : S_.BroadcastsInDim S4096x50x32 (![] : Fin 0 → Fin S4096x50x32.rank)
  bcast_S50_S1x50_1 : S50.BroadcastsInDim S1x50 (![1] : Fin 1 → Fin S1x50.rank)
  bcast_S4096_S4096x1_0 : S4096.BroadcastsInDim S4096x1 (![0] : Fin 1 → Fin S4096x1.rank)
  bcast_S1x50_S4096x50_0_1 : S1x50.BroadcastsInDim S4096x50 (![0, 1] : Fin 2 → Fin S4096x50.rank)
  bcast_S4096x1_S4096x50_0_1 : S4096x1.BroadcastsInDim S4096x50 (![0, 1] : Fin 2 → Fin S4096x50.rank)
  bcast_S_S4096 : S_.BroadcastsInDim S4096 (![] : Fin 0 → Fin S4096.rank)
  bcast_S4096x50x1_S4096x50x32_0_1_2 : S4096x50x1.BroadcastsInDim S4096x50x32 (![0, 1, 2] : Fin 3 → Fin S4096x50x32.rank)
  reducesTo_S4096x50x32_S4096x32_d1 : S4096x50x32.ReducesTo [1] S4096x32
  bcast_S4096x1_S4096x32_0_1 : S4096x1.BroadcastsInDim S4096x32 (![0, 1] : Fin 2 → Fin S4096x32.rank)
  concatenates_S4096x832_S4096x32_S4096x13_S4096x877_d1 : Shape.Concatenates [S4096x832, S4096x32, S4096x13] S4096x877 1
  gather_S26x100000x32_S4096x26x2_S4096x26x32_2_01_n_n_01_2_1132_wf : GatherDims.WF S26x100000x32 S4096x26x2 S4096x26x32 [2] [0, 1] [] [0, 1] [] 2 ![1, 1, 32]
  gather_S100000x32_S4096x50x1_S4096x50x32_2_0_n_n_0_2_132_wf : GatherDims.WF S100000x32 S4096x50x1 S4096x50x32 [2] [0] [] [0] [] 2 ![1, 32]

variable [Facts₀]

def gather_S26x100000x32_S4096x26x2_S4096x26x32_2_01_n_n_01_2_1132 : GatherDims S26x100000x32 S4096x26x2 S4096x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S4096x26x2_S4096x26x32_2_01_n_n_01_2_1132_wf
def gather_S100000x32_S4096x50x1_S4096x50x32_2_0_n_n_0_2_132 : GatherDims S100000x32 S4096x50x1 S4096x50x32 where
  offsetDims := [2]
  collapsedSliceDims := [0]
  operandBatchingDims := []
  startIndicesBatchingDims := []
  startIndexMap := [0]
  indexVectorDim := 2
  sliceSizes := ![1, 32]
  wf := gather_S100000x32_S4096x50x1_S4096x50x32_2_0_n_n_0_2_132_wf

class Facts : Prop extends Facts₀ where

variable [Facts]
-- ==== Proof.RefOps.lean ====
/-
  The reference program's 66 host operations in order — its `main` with the three outlined functions' operations
  written at their calls over the calls' own buffers — and, beside it, that each operation touches TensorCore buffers only.
-/
import proofs.«209320_g71347996721220_cont_9to1c4b_157_42_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `main`'s operations in order, the outlined functions' operations at their calls. -/
abbrev ops : List (HloOp τ sig (Elt F)) :=
  [
    nullary main_v0 (iotaInDim S26 32 0),
    unary main_v0 main_v1 (broadcastInDim S1x26 ![1] bcast_S26_S1x26_1 : (⟨S26, .i32⟩ : BufTy).Contents (Elt F) → (⟨S1x26, .i32⟩ : BufTy).Contents (Elt F)),
    nullary main_c (constantI S_ 32 0#32),
    unary main_c main_v2 (broadcastInDim S1x26 ![] bcast_S_S1x26 : (⟨S_, .i32⟩ : BufTy).Contents (Elt F) → (⟨S1x26, .i32⟩ : BufTy).Contents (Elt F)),
    binary main_v1 main_v2 main_v3 (cmpi .slt : (⟨S1x26, .i32⟩ : BufTy).Contents (Elt F) → (⟨S1x26, .i32⟩ : BufTy).Contents (Elt F) → (⟨S1x26, .i1⟩ : BufTy).Contents (Elt F)),
    nullary main_c_0 (constantI S_ 32 26#32),
    unary main_c_0 main_v4 (broadcastInDim S1x26 ![] bcast_S_S1x26 : (⟨S_, .i32⟩ : BufTy).Contents (Elt F) → (⟨S1x26, .i32⟩ : BufTy).Contents (Elt F)),
    binary main_v1 main_v4 main_v5 (addi : (⟨S1x26, .i32⟩ : BufTy).Contents (Elt F) → (⟨S1x26, .i32⟩ : BufTy).Contents (Elt F) → (⟨S1x26, .i32⟩ : BufTy).Contents (Elt F)),
    ternary main_v3 main_v5 main_v1 main_v6 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    nullary main_c_1 (constantI S_ 32 0#32),
    unary main_c_1 main_v7 (broadcastInDim S4096x26 ![] bcast_S_S4096x26 : (⟨S_, .i32⟩ : BufTy).Contents (Elt F) → (⟨S4096x26, .i32⟩ : BufTy).Contents (Elt F)),
    binary main_arg0 main_v7 main_v8 (cmpi .slt : (⟨S4096x26, .i32⟩ : BufTy).Contents (Elt F) → (⟨S4096x26, .i32⟩ : BufTy).Contents (Elt F) → (⟨S4096x26, .i1⟩ : BufTy).Contents (Elt F)),
    nullary main_c_2 (constantI S_ 32 100000#32),
    unary main_c_2 main_v9 (broadcastInDim S4096x26 ![] bcast_S_S4096x26 : (⟨S_, .i32⟩ : BufTy).Contents (Elt F) → (⟨S4096x26, .i32⟩ : BufTy).Contents (Elt F)),
    binary main_arg0 main_v9 main_v10 (addi : (⟨S4096x26, .i32⟩ : BufTy).Contents (Elt F) → (⟨S4096x26, .i32⟩ : BufTy).Contents (Elt F) → (⟨S4096x26, .i32⟩ : BufTy).Contents (Elt F)),
    ternary main_v8 main_v10 main_arg0 main_v11 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v6 main_v12 (broadcastInDim S4096x26 ![0, 1] bcast_S1x26_S4096x26_0_1 : (⟨S1x26, .i32⟩ : BufTy).Contents (Elt F) → (⟨S4096x26, .i32⟩ : BufTy).Contents (Elt F)),
    unary main_v12 main_v13 (broadcastInDim S4096x26x1 ![0, 1] bcast_S4096x26_S4096x26x1_0_1 : (⟨S4096x26, .i32⟩ : BufTy).Contents (Elt F) → (⟨S4096x26x1, .i32⟩ : BufTy).Contents (Elt F)),
    unary main_v11 main_v14 (broadcastInDim S4096x26x1 ![0, 1] bcast_S4096x26_S4096x26x1_0_1 : (⟨S4096x26, .i32⟩ : BufTy).Contents (Elt F) → (⟨S4096x26x1, .i32⟩ : BufTy).Contents (Elt F)),
    binary main_v13 main_v14 main_v15 ((fun a b => concatenate S4096x26x2 2 [⟨S4096x26x1, a⟩, ⟨S4096x26x1, b⟩] concatenates_S4096x26x1_S4096x26x1_S4096x26x2_d2) : (⟨S4096x26x1, .i32⟩ : BufTy).Contents (Elt F) → (⟨S4096x26x1, .i32⟩ : BufTy).Contents (Elt F) → (⟨S4096x26x2, .i32⟩ : BufTy).Contents (Elt F)),
    binary main_arg4 main_v15 main_v16 ((fun x i => Host.gather gather_S26x100000x32_S4096x26x2_S4096x26x32_2_01_n_n_01_2_1132 x i) : (⟨S26x100000x32, .f32⟩ : BufTy).Contents (Elt F) → (⟨S4096x26x2, .i32⟩ : BufTy).Contents (Elt F) → (⟨S4096x26x32, .f32⟩ : BufTy).Contents (Elt F)),
    reshape main_v16 main_v17 rfl shapeCasts_S4096x26x32_S4096x832,
    TRef.nullary main_call0.c (constantI S_ 32 0#32),
    TRef.unary main_call0.c main_call0.v0 (broadcastInDim S4096x50 ![] bcast_S_S4096x50),
    TRef.binary (.of main_arg1) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg1) main_call0.v2 main_call0.v3 addi,
    TRef.ternary main_call0.v1 main_call0.v3 (.of main_arg1) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg5) main_call0.v5 main_call0.v13 (fun x i => Host.gather gather_S100000x32_S4096x50x1_S4096x50x32_2_0_n_n_0_2_132 x i),
    TRef.unary main_call0.v12 main_call0.v14 (broadcastInDim S4096x50x32 ![0, 1] bcast_S4096x50_S4096x50x32_0_1),
    TRef.nullary main_call0.cst (constant S_ .f32 0x7FC00000#32),
    TRef.unary main_call0.cst main_call0.v15 (broadcastInDim S4096x50x32 ![] bcast_S_S4096x50x32),
    TRef.ternary main_call0.v14 main_call0.v13 main_call0.v15 main_call0.v16 select,
    nullary main_v19 (iotaInDim S50 32 0),
    unary main_v19 main_v20 (broadcastInDim S1x50 ![1] bcast_S50_S1x50_1 : (⟨S50, .i32⟩ : BufTy).Contents (Elt F) → (⟨S1x50, .i32⟩ : BufTy).Contents (Elt F)),
    unary main_arg2 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x50 ![0, 1] bcast_S1x50_S4096x50_0_1 : (⟨S1x50, .i32⟩ : BufTy).Contents (Elt F) → (⟨S4096x50, .i32⟩ : BufTy).Contents (Elt F)),
    unary main_v21 main_v23 (broadcastInDim S4096x50 ![0, 1] bcast_S4096x1_S4096x50_0_1 : (⟨S4096x1, .i32⟩ : BufTy).Contents (Elt F) → (⟨S4096x50, .i32⟩ : BufTy).Contents (Elt F)),
    binary main_v22 main_v23 main_v24 (cmpi .slt : (⟨S4096x50, .i32⟩ : BufTy).Contents (Elt F) → (⟨S4096x50, .i32⟩ : BufTy).Contents (Elt F) → (⟨S4096x50, .i1⟩ : BufTy).Contents (Elt F)),
    unary main_v24 main_v25 (uitofp .f32 : (⟨S4096x50, .i1⟩ : BufTy).Contents (Elt F) → (⟨S4096x50, .f32⟩ : BufTy).Contents (Elt F)),
    nullary main_c_3 (constantI S_ 32 1#32),
    TRef.unary (.of main_c_3) main_call1.v0 id,
    TRef.unary main_call1.v0 main_call1.v1 (broadcastInDim S4096 ![] bcast_S_S4096),
    TRef.binary main_call1.v1 (.of main_arg2) main_call1.v2 maxsi,
    unary main_v26 main_v27 (sitofp .f32 : (⟨S4096, .i32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v25 main_v29 (broadcastInDim S4096x50x1 ![0, 1] bcast_S4096x50_S4096x50x1_0_1 : (⟨S4096x50, .f32⟩ : BufTy).Contents (Elt F) → (⟨S4096x50x1, .f32⟩ : BufTy).Contents (Elt F)),
    unary main_v29 main_v30 (broadcastInDim S4096x50x32 ![0, 1, 2] bcast_S4096x50x1_S4096x50x32_0_1_2 : (⟨S4096x50x1, .f32⟩ : BufTy).Contents (Elt F) → (⟨S4096x50x32, .f32⟩ : BufTy).Contents (Elt F)),
    binary main_v18 main_v30 main_v31 (mulf : (⟨S4096x50x32, .f32⟩ : BufTy).Contents (Elt F) → (⟨S4096x50x32, .f32⟩ : BufTy).Contents (Elt F) → (⟨S4096x50x32, .f32⟩ : BufTy).Contents (Elt F)),
    nullary main_cst (constant S_ .f32 0x00000000#32),
    binary main_v31 main_cst main_v32 ((fun x v => Host.reduceAdd x v reducesTo_S4096x50x32_S4096x32_d1 h_S_) : (⟨S4096x50x32, .f32⟩ : BufTy).Contents (Elt F) → (⟨S_, .f32⟩ : BufTy).Contents (Elt F) → (⟨S4096x32, .f32⟩ : BufTy).Contents (Elt F)),
    unary main_v28 main_v33 (broadcastInDim S4096x32 ![0, 1] bcast_S4096x1_S4096x32_0_1 : (⟨S4096x1, .f32⟩ : BufTy).Contents (Elt F) → (⟨S4096x32, .f32⟩ : BufTy).Contents (Elt F)),
    binary main_v32 main_v33 main_v34 (Host.divf : (⟨S4096x32, .f32⟩ : BufTy).Contents (Elt F) → (⟨S4096x32, .f32⟩ : BufTy).Contents (Elt F) → (⟨S4096x32, .f32⟩ : BufTy).Contents (Elt F)),
    nary ![main_v17, main_v34, main_arg3] main_v35 (fun u => concatenate S4096x877 1 [⟨S4096x832, u 0⟩, ⟨S4096x32, u 1⟩, ⟨S4096x13, u 2⟩] concatenates_S4096x832_S4096x32_S4096x13_S4096x877_d1) ]

theorem ops_sub : (ops : List (HloOp τ sig (Elt F))).Forall fun op => op.bufs ⊆ tcRefs τ sig :=
  ⟨
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., unary_bufs_sub ..,
    unary_bufs_sub .., unary_bufs_sub .., binary_bufs_sub .., unary_bufs_sub .., nullary_bufs_sub .., unary_bufs_sub ..,
    unary_bufs_sub .., binary_bufs_sub .., unary_bufs_sub .., unary_bufs_sub .., unary_bufs_sub .., unary_bufs_sub ..,
    binary_bufs_sub .., nullary_bufs_sub .., binary_bufs_sub .., unary_bufs_sub .., binary_bufs_sub .., nary_bufs_sub ..⟩

end Cert.ReferenceIdeal.HandRun

end
-- ==== Proof.RefRun.lean ====
/-
  The reference program's run, read back.

  Its `main` is a straight line of 66 host operations once the three outlined functions (the index normalisation's select,
  the fill-mode `take`, the clamp of the lengths) are opened at their calls over the calls' own buffers. Run as a sequence,
  every weakly fair execution ends with each buffer at the fold of those operations over the launch contents; no
  operation writes an argument, so the six arguments end as they began: that is the reference's frame.
-/
import proofs.«209320_g71347996721220_cont_9to1c4b_157_42_alg».proof.Defs
import proofs.«209320_g71347996721220_cont_9to1c4b_157_42_alg».proof.Proof.Gen.Pre_input_domain
import proofs.«209320_g71347996721220_cont_9to1c4b_157_42_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
set_option maxHeartbeats 4000000 in
/-- `main` is that straight line: the functions' bodies unfolded at their calls, sequencing reassociated. -/
theorem main_eq (c : Dev nD) : main (F := F) c = seq ops := by
  simp only [main, fn_take.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of `main` terminates, and every final state has each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation's result buffer is an argument: each argument is read back as it was. -/

set_option maxRecDepth 8192 in
set_option maxHeartbeats 4000000 in
theorem arg0_eq (V : Valuation τ sig (Elt F)) : after ops V (main_arg0 : DevRef τ sig) = V (main_arg0 : DevRef τ sig) := by
  after_results_simp

set_option maxRecDepth 8192 in
set_option maxHeartbeats 4000000 in
theorem arg1_eq (V : Valuation τ sig (Elt F)) : after ops V (main_arg1 : DevRef τ sig) = V (main_arg1 : DevRef τ sig) := by
  after_results_simp

set_option maxRecDepth 8192 in
set_option maxHeartbeats 4000000 in
theorem arg2_eq (V : Valuation τ sig (Elt F)) : after ops V (main_arg2 : DevRef τ sig) = V (main_arg2 : DevRef τ sig) := by
  after_results_simp

set_option maxRecDepth 8192 in
set_option maxHeartbeats 4000000 in
theorem arg3_eq (V : Valuation τ sig (Elt F)) : after ops V (main_arg3 : DevRef τ sig) = V (main_arg3 : DevRef τ sig) := by
  after_results_simp

set_option maxRecDepth 8192 in
set_option maxHeartbeats 4000000 in
theorem arg4_eq (V : Valuation τ sig (Elt F)) : after ops V (main_arg4 : DevRef τ sig) = V (main_arg4 : DevRef τ sig) := by
  after_results_simp

set_option maxRecDepth 8192 in
set_option maxHeartbeats 4000000 in
theorem arg5_eq (V : Valuation τ sig (Elt F)) : after ops V (main_arg5 : DevRef τ sig) = V (main_arg5 : DevRef τ sig) := by
  after_results_simp

end Cert.ReferenceIdeal.HandRun

namespace Cert.Proof.Ref

open Cert.ReferenceIdeal Cert.ReferenceIdeal.Gen Cert.Pre_input_domain.Gen Idealize.ShloMosaic Idealize.ShloMosaic.TcCoe Idealize.SL.Sem
open Cert.ReferenceIdeal.HandRun

/-- The reference runs to the end from any launch memory, faults nowhere, and leaves its six arguments unchanged. -/
theorem frame : Cert.frame_ReferenceIdeal := fun m ρ _ =>
  (θ_run Cert.ReferenceIdeal.defs _ _).mono
    (fun _ h c => ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main (F := Ideal) m ρ)

end Cert.Proof.Ref

end
-- ==== Proof.PreRanges.lean ====
/-
  What the precondition says of the two index arrays: every word of `sparse_idx` and of `seq_idx`, read as a natural number,
  is below 100000. The precondition is a conjunction of six `all`s; the fourth and fifth are the all of
  `(x ≥ 0) and (x ≤ 99999)` (signed) over the two arrays, and a signed word between 0 and 99999 is its own value.
-/
import proofs.«209320_g71347996721220_cont_9to1c4b_157_42_alg».proof.Pre_input_domain
import proofs.«209320_g71347996721220_cont_9to1c4b_157_42_alg».proof.Proof.Gen.Pre_input_domain
import Idealize.ShloMosaic.Lib.ReduceAll
import Idealize.ShloMosaic.Lib.ValueIdx
import Idealize.ShloMosaic.Lib.Affine

noncomputable section

namespace Cert.Proof.PreRanges

open Idealize.ShloMosaic Cert.Pre_input_domain Cert.Pre_input_domain.Gen

instance : Subsingleton S_.Idx := ⟨fun a b => funext fun d => d.elim0⟩

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A signed word between 0 and 99999 is, as a natural number, below 100000. -/
theorem key (v : BitVec 32) (e : IntOp.andi (IntOp.cmpi .sge v 0#32) (IntOp.cmpi .sle v 99999#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F]

theorem ranges (a0 : IVec S4096x26 32) (a1 : IVec S4096x50 32) (a2 : IVec S4096 32) (a3 : FVec F S4096x13 .f32)
    (a4 : FVec F S26x100000x32 .f32) (a5 : FVec F S100000x32 .f32)
    (h : Cert.Pre_input_domain.fn (F := F) a0 a1 a2 a3 a4 a5 = fun _ => 1#1) :
    (∀ y, (a0 y).toNat < 100000) ∧ (∀ y, (a1 y).toNat < 100000) := by
  have e := congrFun h ValueIdx.ix0
  unfold Cert.Pre_input_domain.fn Cert.Pre_input_domain.fn_part1 Cert.Pre_input_domain.fn_part2 at e
  dsimp only at e
  obtain ⟨e1, -⟩ := IntOp.andi_eq_one.mp e
  obtain ⟨e2, e26⟩ := IntOp.andi_eq_one.mp e1
  obtain ⟨-, e19⟩ := IntOp.andi_eq_one.mp e2
  refine ⟨fun y => key _ ?_, fun y => key _ ?_⟩
  · exact Host.reduce_andi_all _ _ _ _ ValueIdx.ix0 e19 y
  · exact Host.reduce_andi_all _ _ _ _ ValueIdx.ix0 e26 y

end Cert.Proof.PreRanges

end
-- ==== Proof.TileIdeal.lean ====
/-
  One vector subcore's task of the idealized kernel, at a symbolic tile: the pieces proved so far.

  The tile copies one column of a table into its row scratch and a list of row numbers into its index scratch, and then
  gathers: sixteen row numbers at a time name sixteen entries of the column. Every row number is below the table's
  100000 rows (the precondition's range, carried to the index scratch by the copy), which is what each indexed load
  asks. An indexed load reads the row scratch and changes nothing.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0

abbrev Bf {sp : Space} {S : Shape} {e : EltTy} (M : Memref sig .scVector sp S e) : Type := Buf (Elt F) (M.view.loc (V d (cV L) (jV L)))

/-- An indexed load from the row scratch, held whole: the library's rule at the spelling the run holds the scratch in
    (the whole-rectangle access of a whole memref is the memref's own view). -/
theorem wp_gather {t : Shape} {α : Type} {idxs : Fin S100000.rank → IVec t 32} {h : ∀ a x, (idxs a x).toNat < S100000.size a}
    {hl : (rowW).view.Loads} {k : Vec F t .f32 → Prog (TpuEff nD τ sig (Elt F) Λ₀ (V d (cV L) (jV L)).2) α}
    {Q : α → sProp 𝕄} (f : Bf (F := F) d L rowW) :
    ((rowW).view.loc (V d (cV L) (jV L)) ↦{fullShare} f)
      ⊢ iprop((((rowW).view.loc (V d (cV L) (jV L)) ↦{fullShare} f)
          -∗ wp frame (wpE (defs₀ (F := F)) 𝒱₀ (V d (cV L) (jV L)) none) Set.univ (k (loadIdx (((rowW).access (.whole S100000)).read (Elt F) f) idxs h)) Q)
        -∗ wp frame (wpE (defs₀ (F := F)) 𝒱₀ (V d (cV L) (jV L)) none) Set.univ (SparseCore.vectorLoadIdx rowW idxs h hl >>= k) Q) :=
  SparseCore.wp_vectorLoadIdx 𝒱₀ (V d (cV L) (jV L)) none Set.univ (base := rowW) (S := Finset.univ) (q := fullShare) (Finset.subset_univ _)

set_option maxHeartbeats 8000000 in
/-- One trip of the inner loop of the sparse part: sixteen vectors of sixteen indices are read from the index scratch, each
    names sixteen entries of the row scratch (in range, since every word of the index scratch is below 100000), and the
    sixteen entries are stored into the result scratch. The row and the indices are left as they were. -/
theorem t7_region (k0_t7 : Fin k0_t7_loop.trips)
    (g0 : Bf (F := F) d L rowW) (s1 : Bf (F := F) d L sidW) (hs1 : ∀ x, (s1 x).toNat < 100000) (Q : Unit → sProp 𝕄) :
    iprop(((rowW).view.loc (V d (cV L) (jV L)) ↦{fullShare} g0) ∗ ((sidW).view.loc (V d (cV L) (jV L)) ↦{fullShare} s1)
        ∗ (∃ g5, (resW).view.loc (V d (cV L) (jV L)) ↦{fullShare} g5)
        ∗ ((((rowW).view.loc (V d (cV L) (jV L)) ↦{fullShare} g0) ∗ ((sidW).view.loc (V d (cV L) (jV L)) ↦{fullShare} s1)
            ∗ (∃ g5, (resW).view.loc (V d (cV L) (jV L)) ↦{fullShare} g5)) -∗ Q ()))
      ⊢ wp frame (wpE (defs₀ (F := F)) 𝒱₀ (V d (cV L) (jV L)) none) Set.univ
          (k0_t7_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k0_t7 ()) Q := by
  unfold k0_t7_body
  iintro ⟨Hrow, Hsid, ⟨%g5, Hres⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hsid]; · iexact Hsid
  iexists _; iexact Hres

end Tile
end Cert.Proof.TileI
end
-- ==== Proof.TileIdealQ.lean ====
/-
  The four inner loops of the pooled part of a vector subcore's task (idealized kernel): one trip of each, at a symbolic
  tile. Two read the first index block, two the second; otherwise they are one computation.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t2_region (c0 c1 : BitVec 32) (k1 : Fin k0_t1_loop.trips) (v24 : BitVec 32) (k : Fin k0_t2_loop.trips)
    (g0 : Bf (F := F) d L rowW) (s : Bf (F := F) d L qb0W) (hs1 : ∀ x, (s x).toNat < 100000)
    (ln : Bf (F := F) d L lnvW) (Q : Unit → sProp 𝕄) :
    iprop(((rowW).view.loc (V d (cV L) (jV L)) ↦{fullShare} g0) ∗ ((qb0W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb0W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t2_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 c1 k1 v24 k ()) Q := by
  unfold k0_t2_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t3_region (k1 : Fin k0_t1_loop.trips) (v36 c0 : BitVec 32) (k : Fin k0_t3_loop.trips)
    (g0 : Bf (F := F) d L rowW) (s : Bf (F := F) d L qb1W) (hs1 : ∀ x, (s x).toNat < 100000)
    (ln : Bf (F := F) d L lnvW) (Q : Unit → sProp 𝕄) :
    iprop(((rowW).view.loc (V d (cV L) (jV L)) ↦{fullShare} g0) ∗ ((qb1W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb1W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t3_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 v36 c0 k ()) Q := by
  unfold k0_t3_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t4_region (c0 : BitVec 32) (k : Fin k0_t4_loop.trips)
    (g0 : Bf (F := F) d L rowW) (s : Bf (F := F) d L qb0W) (hs1 : ∀ x, (s x).toNat < 100000)
    (ln : Bf (F := F) d L lnvW) (Q : Unit → sProp 𝕄) :
    iprop(((rowW).view.loc (V d (cV L) (jV L)) ↦{fullShare} g0) ∗ ((qb0W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb0W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t4_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 k ()) Q := by
  unfold k0_t4_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t5_region  (k : Fin k0_t5_loop.trips)
    (g0 : Bf (F := F) d L rowW) (s : Bf (F := F) d L qb1W) (hs1 : ∀ x, (s x).toNat < 100000)
    (ln : Bf (F := F) d L lnvW) (Q : Unit → sProp 𝕄) :
    iprop(((rowW).view.loc (V d (cV L) (jV L)) ↦{fullShare} g0) ∗ ((qb1W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb1W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t5_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5  k ()) Q := by
  unfold k0_t5_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

end Tile
end Cert.Proof.TileI
end
-- ==== Proof.TileIdeal6.lean ====
/-
  One field's trip of the sparse part of a vector subcore's task (idealized kernel), at a symbolic tile and field.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

/-- The tile's block of the sparse output at field `t`: 32 rows of 128, as the body slices it. -/
abbrev souBlk (L : grid0.Coords) (t : Fin k0_t6_loop.trips) : Memref sig .scVector .hbm S32x128 .f32 :=
  (souW).slice (Rect.unit (s := S26624x128) (k0_off247 L t) S32x128.size (k0_off247_inb L t)) (fun _ => rfl)

/-- What one field's trip holds and gives back: read shares of the tables and of the index lists (every index below
    100000), the three scratches at anything, the tile's block of the output for that field at anything, the three
    semaphores of the trip's copies at zero, and what the thread owes. -/
def res6 (q : PosShare TreeShare) (O : CellTallies nD τ sig (HIx 1)) (W : Waits sig (HIx 1))
    (f0 : Bf (F := F) d L tabW) (f1 : Bf (F := F) d L sixW) (t : Fin k0_t6_loop.trips) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1)
    ∗ (∃ g5, (resW).view.loc (V d (cV L) (jV L)) ↦{fullShare} g5)
    ∗ (∃ fs, (souBlk L t).view.loc (V d (cV L) (jV L)) ↦[(souBlk L t).view.set]{fullShare} fs)
    ∗ semVal (V d (cV L) (jV L), SemLoc.dma cc0_scoped3.sem) 0 ∗ semVal (V d (cV L) (jV L), SemLoc.dma cc0_scoped4.sem) 0
    ∗ semVal (V d (cV L) (jV L), SemLoc.dma cc0_scoped5.sem) 0
    ∗ ∃ W', ⌜∀ p ∈ W', p ∈ W ∨ p.2 = none⌝ ∗ owes (V d (cV L) (jV L)) O W')

/-- Between trips of the inner loop: the row scratch and the index scratch at some contents, every index below 100000,
    and the result scratch at anything. -/
def inv7 (_ : Nat) (_ : Unit) : sProp 𝕄 :=
  iprop(∃ (g0 : Bf (F := F) d L rowW) (s1 : Bf (F := F) d L sidW),
    ((rowW).view.loc (V d (cV L) (jV L)) ↦{fullShare} g0) ∗ ((sidW).view.loc (V d (cV L) (jV L)) ↦{fullShare} s1)
    ∗ (∃ g5, (resW).view.loc (V d (cV L) (jV L)) ↦{fullShare} g5) ∗ ⌜∀ x, (s1 x).toNat < 100000⌝)

set_option maxHeartbeats 8000000 in
/-- One field of the sparse part: column `d` of the field's table and the field's row numbers are copied in (the row numbers
    are below 100000 because the list they are copied from is), the inner loop gathers the 4096 entries into the result
    scratch, and the result is copied out to the tile's block of the output for that field. -/
theorem t6_region (q : PosShare TreeShare) (O : CellTallies nD τ sig (HIx 1)) (W : Waits sig (HIx 1))
    (f0 : Bf (F := F) d L tabW) (f1 : Bf (F := F) d L sixW) (hf1 : ∀ x, (f1 x).toNat < 100000)
    (k0_t6 : Fin k0_t6_loop.trips) (Q : Unit → sProp 𝕄) :
    iprop(res6 d L q O W f0 f1 k0_t6 ∗ (res6 d L q O W f0 f1 k0_t6 -∗ Q ()))
      ⊢ wp frame (wpE (defs₀ (F := F)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k0_t6 ()) Q := by
  unfold k0_t6_body res6
  iintro ⟨⟨Hmw, Htab, Hsix, ⟨%g0, Hrow⟩, ⟨%g1, Hsid⟩, ⟨%g5, Hres⟩, ⟨%fs, Hsou⟩, Hc3, Hc4, Hc5, ⟨%W', %hW', HO⟩⟩, Hk⟩
  sl_exec
  sl_for (inv7 (F := F) d L) $$ [Hrow Hsid Hres]
  case region =>
    intro k acc
    unfold inv7
    iintro ⟨%g0', %s1', Hrow, Hsid, Hres, %hs1'⟩
    iapply (t7_region d L k g0' s1' hs1' _)
    isplitl [Hrow]; · iexact Hrow
    isplitl [Hsid]; · iexact Hsid
    isplitl [Hres]; · iexact Hres
    iintro ⟨Hrow, Hsid, Hres⟩
    iexists g0', s1'
    isplitl [Hrow]; · iexact Hrow
    isplitl [Hsid]; · iexact Hsid
    isplitl [Hres]; · iexact Hres
    ipureintro; exact hs1'
  · unfold inv7
    iexists _, _
    isplitl [Hrow]; · iexact Hrow
    isplitl [Hsid]; · iexact Hsid
    isplitl [Hres]; · iexists _; iexact Hres
    ipureintro
    intro x
    rw [View.write_whole_univ]
    exact hf1 _
  iintro %_ HI
  unfold inv7
  icases HI with ⟨%g0', %s1', Hrow, Hsid, ⟨%g5', Hres⟩, %hs1'⟩
  sl_exec
  sl_step
  iapply Hk
  isplitl [Hmw]; · iexact Hmw
  isplitl [Htab]; · iexact Htab
  isplitl [Hsix]; · iexact Hsix
  isplitl [Hrow]; · iexists _; iexact Hrow
  isplitl [Hsid]; · iexists _; iexact Hsid
  isplitl [Hres]; · iexists _; iexact Hres
  isplitl [Hsou]; · iexists _; iexact Hsou
  isplitl [Hc3]; · iexact Hc3
  isplitl [Hc4]; · iexact Hc4
  isplitl [Hc5]; · iexact Hc5
  iexists (insert (SemLoc.dma cc0_scoped5.sem, (default : HIx 1)) (insert (SemLoc.dma cc0_scoped4.sem, (default : HIx 1))
    (insert (SemLoc.dma cc0_scoped3.sem, (default : HIx 1)) W')))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile
end Cert.Proof.TileI
end
-- ==== Proof.TileIdeal1.lean ====
/-
  One trip of the outer loop of the pooled part of a vector subcore's task (idealized kernel), at a symbolic tile: the
  double-buffered copies of the index blocks, with one copy in flight from trip to trip.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

/-- Between trips of an inner loop of the pooled part reading the first index scratch: the row and the lengths at fixed
    contents, the pooled-result scratch at anything, the index scratch at some block every word of which is below 100000. -/
def invQ0 (g0 : Bf (F := F) d L rowW) (ln : Bf (F := F) d L lnvW) (_ : Nat) (_ : Unit) : sProp 𝕄 :=
  iprop(((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ ∃ s, ((qb0W).view.loc (V d (cV L) (jV L)) ↦{fullShare} s) ∗ ⌜∀ x, (s x).toNat < 100000⌝)

/-- Between trips of an inner loop of the pooled part reading the second index scratch: the row and the lengths at fixed
    contents, the pooled-result scratch at anything, the index scratch at some block every word of which is below 100000. -/
def invQ1 (g0 : Bf (F := F) d L rowW) (ln : Bf (F := F) d L lnvW) (_ : Nat) (_ : Unit) : sProp 𝕄 :=
  iprop(((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ ∃ s, ((qb1W).view.loc (V d (cV L) (jV L)) ↦{fullShare} s) ∗ ⌜∀ x, (s x).toNat < 100000⌝)

/-- Between trips of the outer loop of the pooled part. A copy of an index block into the first index scratch is in flight:
    when it lands the scratch holds a block every word of which is below 100000, and the part of the index array lent to it
    comes back. The rest of the index array, the second index scratch, the row and the lengths (at fixed contents), the
    pooled-result scratch, the second block semaphore at zero, and what the thread owes. -/
def res1 (q : PosShare TreeShare) (O : CellTallies nD τ sig (HIx 1)) (W : Waits sig (HIx 1))
    (f3 : Bf (F := F) d L qixW) (g0 : Bf (F := F) d L rowW) (ln : Bf (F := F) d L lnvW) : sProp 𝕄 :=
  iprop(Transfers.MayWaits (V d (cV L) (jV L)) (none : HIx 1) O
    ∗ (∃ (S : Finset (Idx ((qixW).view.loc (V d (cV L) (jV L))))) (g2 w : Bf (F := F) d L qb0W),
        Transfers.Flight countersEmb (V d (cV L) (jV L)) (SemLoc.dma cc0_scratch7.sem) (default : HIx 1) 204800
            iprop(((qb0W).view.loc (V d (cV L) (jV L)) ↦{fullShare} View.write (Elt F) (qb0W).view g2 w Finset.univ)
              ∗ ((qixW).view.loc (V d (cV L) (jV L)) ↦[S]{q} f3))
        ∗ ((qixW).view.loc (V d (cV L) (jV L)) ↦[Finset.univ \ S]{q} f3) ∗ ⌜∀ x, (w x).toNat < 100000⌝)
    ∗ (∃ g3, (qb1W).view.loc (V d (cV L) (jV L)) ↦{fullShare} g3)
    ∗ ((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ semVal (V d (cV L) (jV L), SemLoc.dma cc0_scratch8.sem) 0
    ∗ ∃ W', ⌜∀ p ∈ W', p ∈ W ∨ p.2 = none⌝ ∗ owes (V d (cV L) (jV L)) O W')

set_option maxHeartbeats 16000000 in
/-- One trip of the outer loop of the pooled part, two blocks of 128 batch rows: the block in flight lands in the first index
    scratch, the next block's copy into the second is started, the first is pooled; the second lands, the copy of the block
    after it into the first is started, the second is pooled. A block is read only after its copy has been waited for, and
    a scratch is copied into only after its pooling has ended. -/
theorem t1_region (q : PosShare TreeShare) (O : CellTallies nD τ sig (HIx 1)) (W : Waits sig (HIx 1))
    (f3 : Bf (F := F) d L qixW) (hf3 : ∀ x, (f3 x).toNat < 100000) (g0 : Bf (F := F) d L rowW) (ln : Bf (F := F) d L lnvW)
    (k1 : Fin k0_t1_loop.trips) (Q : Unit → sProp 𝕄) :
    iprop(res1 d L q O W f3 g0 ln ∗ (res1 d L q O W f3 g0 ln -∗ Q ()))
      ⊢ wp frame (wpE (defs₀ (F := F)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 ()) Q := by
  unfold k0_t1_body res1
  iintro ⟨⟨Hmw, ⟨%S, %g2, %w, Hs7, Hqix, %hw⟩, ⟨%g3, Hqb1⟩, Hrow, Hlnv, ⟨%p, Hpre⟩, Hs8, ⟨%W', %hW', HO⟩⟩, Hk⟩
  sl_exec
  sl_for (invQ0 (F := F) d L g0 ln) $$ [Hrow Hlnv Hpre Hs7_dst]
  case region =>
    intro k acc
    unfold invQ0
    iintro ⟨Hrow, Hlnv, Hpre, ⟨%s, Hqb, %hs⟩⟩
    iapply (t2_region d L _ _ k1 _ k g0 s hs ln _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ0
    isplitl [Hrow]; · iexact Hrow
    isplitl [Hlnv]; · iexact Hlnv
    isplitl [Hpre]; · iexists _; iexact Hpre
    iexists _; isplitl [Hs7_dst]; · iexact Hs7_dst
    ipureintro; intro x; rw [View.write_whole_univ]; exact hw x
  iintro %_ HI
  unfold invQ0
  icases HI with ⟨Hrow, Hlnv, ⟨%p2, Hpre⟩, ⟨%s0, Hqb0, %hs0⟩⟩
  sl_exec
  sl_for (invQ1 (F := F) d L g0 ln) $$ [Hrow Hlnv Hpre Hqb1]
  case region =>
    intro k acc
    unfold invQ1
    iintro ⟨Hrow, Hlnv, Hpre, ⟨%s, Hqb, %hs⟩⟩
    iapply (t3_region d L k1 _ _ k g0 s hs ln _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ1
    isplitl [Hrow]; · iexact Hrow
    isplitl [Hlnv]; · iexact Hlnv
    isplitl [Hpre]; · iexists _; iexact Hpre
    iexists _; isplitl [Hqb1]; · iexact Hqb1
    ipureintro; intro x; rw [View.write_whole_univ]; exact hf3 _
  iintro %_ HI
  unfold invQ1
  icases HI with ⟨Hrow, Hlnv, ⟨%p3, Hpre⟩, ⟨%s1, Hqb1, %hs1⟩⟩
  sl_exec
  sl_step
  iapply Hk
  isplitl [Hmw]; · iexact Hmw
  isplitl [Hs7 Hqix]
  · iexists _, _, _
    isplitl [Hs7]; · iexact Hs7
    isplitl [Hqix]; · iexact Hqix
    ipureintro; intro x; exact hf3 _
  isplitl [Hqb1]; · iexists _; iexact Hqb1
  isplitl [Hrow]; · iexact Hrow
  isplitl [Hlnv]; · iexact Hlnv
  isplitl [Hpre]; · iexists _; iexact Hpre
  isplitl [Hs8]; · iexact Hs8
  iexists (insert (SemLoc.dma cc0_scratch8.sem, (default : HIx 1)) (insert (SemLoc.dma cc0_scratch7.sem, (default : HIx 1)) W'))
  isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Tile
end Cert.Proof.TileI
end
-- ==== Proof.TileIdealTop.lean ====
/-
  A vector subcore's whole task (idealized kernel), at a symbolic tile: the loops' trips put together.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

/-- The tile's block of the pooled output: 32 rows of 128, as the body slices it. -/
abbrev pouBlk (L : grid0.Coords) : Memref sig .scVector .hbm S32x128 .f32 :=
  (pouW).slice (Rect.unit (s := S1024x128) (k0_off212 L) S32x128.size (k0_off212_inb L)) (fun _ => rfl)

/-- The outer loop of the pooled part at contents the loop need not name. -/
def res1E (q : PosShare TreeShare) (O : CellTallies nD τ sig (HIx 1)) (W : Waits sig (HIx 1)) (f3 : Bf (F := F) d L qixW)
    (_ : Nat) (_ : Unit) : sProp 𝕄 :=
  iprop(∃ g0 ln, res1 d L q O W f3 g0 ln)

theorem t1_regionE (q : PosShare TreeShare) (O : CellTallies nD τ sig (HIx 1)) (W : Waits sig (HIx 1))
    (f3 : Bf (F := F) d L qixW) (hf3 : ∀ x, (f3 x).toNat < 100000) (k1 : Fin k0_t1_loop.trips) (acc : Unit) :
    res1E d L q O W f3 k1.val acc
      ⊢ wp frame (wpE (defs₀ (F := F)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 acc) (res1E d L q O W f3 (k1.val + 1)) := by
  unfold res1E
  iintro ⟨%g0, %ln, H⟩
  iapply (t1_region d L q O W f3 hf3 g0 ln k1 _)
  isplitl [H]; · iexact H
  iintro H
  iexists g0, ln; iexact H

/-- The sparse part between fields: what a field's trip needs, with all 26 of the tile's output blocks. -/
def inv6 (q : PosShare TreeShare) (O : CellTallies nD τ sig (HIx 1)) (W : Waits sig (HIx 1))
    (f0 : Bf (F := F) d L tabW) (f1 : Bf (F := F) d L sixW) (_ : Nat) (_ : Unit) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1) ∗ (∃ g5, (resW).view.loc (V d (cV L) (jV L)) ↦{fullShare} g5)
    ∗ (bigSep Finset.univ fun t : Fin k0_t6_loop.trips => iprop(∃ fs, (souBlk L t).view.loc (V d (cV L) (jV L)) ↦[(souBlk L t).view.set]{fullShare} fs))
    ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
    ∗ ∃ W', ⌜∀ p ∈ W', p ∈ W ∨ p.2 = none⌝ ∗ owes (V d (cV L) (jV L)) O W')

theorem t6_regionE (q : PosShare TreeShare) (O : CellTallies nD τ sig (HIx 1)) (W : Waits sig (HIx 1))
    (f0 : Bf (F := F) d L tabW) (f1 : Bf (F := F) d L sixW) (hf1 : ∀ x, (f1 x).toNat < 100000)
    (t : Fin k0_t6_loop.trips) (acc : Unit) :
    inv6 d L q O W f0 f1 t.val acc
      ⊢ wp frame (wpE (defs₀ (F := F)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 t acc) (inv6 d L q O W f0 f1 (t.val + 1)) := by
  unfold inv6
  rw [SparseCore.bigSep_erase' (Finset.mem_univ t)]
  iintro ⟨Hmw, Htab, Hsix, Hrow, Hsid, Hres, ⟨Hb, Hrest⟩, Hc3, Hc4, Hc5, HO⟩
  iapply (t6_region d L q O W f0 f1 hf1 t _)
  isplitl [Hmw Htab Hsix Hrow Hsid Hres Hb Hc3 Hc4 Hc5 HO]
  · unfold res6
    isplitl [Hmw]; · iexact Hmw
    isplitl [Htab]; · iexact Htab
    isplitl [Hsix]; · iexact Hsix
    isplitl [Hrow]; · iexact Hrow
    isplitl [Hsid]; · iexact Hsid
    isplitl [Hres]; · iexact Hres
    isplitl [Hb]; · iexact Hb
    isplitl [Hc3]; · iexact Hc3
    isplitl [Hc4]; · iexact Hc4
    isplitl [Hc5]; · iexact Hc5
    iexact HO
  unfold res6
  iintro ⟨Hmw, Htab, Hsix, Hrow, Hsid, Hres, Hb, Hc3, Hc4, Hc5, HO⟩
  isplitl [Hmw]; · iexact Hmw
  isplitl [Htab]; · iexact Htab
  isplitl [Hsix]; · iexact Hsix
  isplitl [Hrow]; · iexact Hrow
  isplitl [Hsid]; · iexact Hsid
  isplitl [Hres]; · iexact Hres
  isplitl [Hb Hrest]
  · isplitl [Hb]; · iexact Hb
    iexact Hrest
  isplitl [Hc3]; · iexact Hc3
  isplitl [Hc4]; · iexact Hc4
  isplitl [Hc5]; · iexact Hc5
  iexact HO

/-- What a tile holds besides what it owes: a read share of each of the five inputs, its block of the pooled output and its
    26 blocks of the sparse output at anything, its seven scratches at anything, its eight copy semaphores at zero. -/
def tileRes (q : PosShare TreeShare) (f0 : Bf (F := F) d L tabW) (f1 : Bf (F := F) d L sixW) (f2 : Bf (F := F) d L seqW)
    (f3 : Bf (F := F) d L qixW) (f4 : Bf (F := F) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, (pouBlk L).view.loc (V d (cV L) (jV L)) ↦[(pouBlk L).view.set]{fullShare} fp)
    ∗ (bigSep Finset.univ fun t : Fin k0_t6_loop.trips => iprop(∃ fs, (souBlk L t).view.loc (V d (cV L) (jV L)) ↦[(souBlk L t).view.set]{fullShare} fs))
    ∗ (∃ g0, (rowW).view.loc (V d (cV L) (jV L)) ↦{fullShare} g0) ∗ (∃ g1, (sidW).view.loc (V d (cV L) (jV L)) ↦{fullShare} g1) ∗ (∃ g2, (qb0W).view.loc (V d (cV L) (jV L)) ↦{fullShare} g2) ∗ (∃ g3, (qb1W).view.loc (V d (cV L) (jV L)) ↦{fullShare} g3) ∗ (∃ g4, (lnvW).view.loc (V d (cV L) (jV L)) ↦{fullShare} g4) ∗ (∃ g5, (resW).view.loc (V d (cV L) (jV L)) ↦{fullShare} g5) ∗ (∃ g6, (preW).view.loc (V d (cV L) (jV L)) ↦{fullShare} g6)
    ∗ semVal (V d (cV L) (jV L), SemLoc.dma cc0_scratch7.sem) 0 ∗ semVal (V d (cV L) (jV L), SemLoc.dma cc0_scratch8.sem) 0 ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0)

set_option maxHeartbeats 16000000 in
/-- A vector subcore's whole task: from what the tile holds and owes, every step of the body can be taken, and at the
    return the tile holds the same (its outputs' blocks and scratches at whatever it left there) and owes the same. -/
theorem tile_body (q : PosShare TreeShare) (O : CellTallies nD τ sig (HIx 1)) (W : Waits sig (HIx 1))
    (f0 : Bf (F := F) d L tabW) (f1 : Bf (F := F) d L sixW) (f2 : Bf (F := F) d L seqW)
    (f3 : Bf (F := F) d L qixW) (f4 : Bf (F := F) d L lenW)
    (hf1 : ∀ x, (f1 x).toNat < 100000) (hf3 : ∀ x, (f3 x).toNat < 100000) :
    iprop(Transfers.MayWaits (V d (cV L) (jV L)) (none : HIx 1) O ∗ tileRes d L q f0 f1 f2 f3 f4 ∗ owes (V d (cV L) (jV L)) O W)
      ⊢ wp frame (wpE (defs₀ (F := F)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tileRes d L q f0 f1 f2 f3 f4 ∗ ∃ W', ⌜∀ p ∈ W', p ∈ W ∨ p.2 = none⌝ ∗ owes (V d (cV L) (jV L)) O W') := by
  rw [cc0_k_eq_skeleton]; unfold cc0_k_skel tileRes
  iintro ⟨Hmw, ⟨Htab, Hsix, Hseq, Hqix, Hlen, ⟨%fp, Hpou⟩, Hsou, ⟨%g0, Hrow⟩, ⟨%g1, Hsid⟩, ⟨%g2, Hqb0⟩, ⟨%g3, Hqb1⟩, ⟨%g4, Hlnv⟩, ⟨%g5, Hres⟩, ⟨%g6, Hpre⟩,
    Hs7, Hs8, Hc0, Hc1, Hc2, Hc3, Hc4, Hc5⟩, HO⟩
  sl_exec
  sl_for (res1E (F := F) d L q O W f3) $$ [Hmw Hs7 Hqix Hqb1 Hrow Hlnv Hpre Hs8 HO]
  case region => exact fun k acc => t1_regionE d L q O W f3 hf3 k acc
  · unfold res1E res1
    iexists _, _
    isplitl [Hmw]; · iexact Hmw
    isplitl [Hs7 Hqix]
    · iexists _, _, _
      isplitl [Hs7]; · iexact Hs7
      isplitl [Hqix]; · iexact Hqix
      ipureintro; intro x; exact hf3 _
    isplitl [Hqb1]; · iexists _; iexact Hqb1
    isplitl [Hrow]; · iexact Hrow
    isplitl [Hlnv]; · iexact Hlnv
    isplitl [Hpre]; · iexists _; iexact Hpre
    isplitl [Hs8]; · iexact Hs8
    iexists (insert (SemLoc.dma cc0_scoped1.sem, (default : HIx 1)) (insert (SemLoc.dma cc0_scoped0.sem, (default : HIx 1)) W))
    isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %_ HI
  unfold res1E res1
  icases HI with ⟨%r0, %l0, Hmw, ⟨%S, %g2', %w, Hs7, Hqix, %hw⟩, ⟨%g3', Hqb1⟩, Hrow, Hlnv, ⟨%p, Hpre⟩, Hs8, ⟨%W1, %hW1, HO⟩⟩
  sl_exec
  sl_for (invQ0 (F := F) d L r0 l0) $$ [Hrow Hlnv Hpre Hs7_dst]
  case region =>
    intro k acc
    unfold invQ0
    iintro ⟨Hrow, Hlnv, Hpre, ⟨%s, Hqb, %hs⟩⟩
    iapply (t4_region d L _ k r0 s hs l0 _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ0
    isplitl [Hrow]; · iexact Hrow
    isplitl [Hlnv]; · iexact Hlnv
    isplitl [Hpre]; · iexists _; iexact Hpre
    iexists _; isplitl [Hs7_dst]; · iexact Hs7_dst
    ipureintro; intro x; rw [View.write_whole_univ]; exact hw x
  iintro %_ HI
  unfold invQ0
  icases HI with ⟨Hrow, Hlnv, ⟨%p2, Hpre⟩, ⟨%s0, Hqb0, %hs0⟩⟩
  sl_exec
  sl_for (invQ1 (F := F) d L r0 l0) $$ [Hrow Hlnv Hpre Hqb1]
  case region =>
    intro k acc
    unfold invQ1
    iintro ⟨Hrow, Hlnv, Hpre, ⟨%s, Hqb, %hs⟩⟩
    iapply (t5_region d L k r0 s hs l0 _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ1
    isplitl [Hrow]; · iexact Hrow
    isplitl [Hlnv]; · iexact Hlnv
    isplitl [Hpre]; · iexists _; iexact Hpre
    iexists _; isplitl [Hqb1]; · iexact Hqb1
    ipureintro; intro x; rw [View.write_whole_univ]; exact hf3 _
  iintro %_ HI
  unfold invQ1
  icases HI with ⟨Hrow, Hlnv, ⟨%p3, Hpre⟩, ⟨%s1, Hqb1, %hs1⟩⟩
  sl_exec
  sl_for (inv6 (F := F) d L q O W f0 f1) $$ [Hmw Htab Hsix Hrow Hsid Hres Hsou Hc3 Hc4 Hc5 HO]
  case region => exact fun t acc => t6_regionE d L q O W f0 f1 hf1 t acc
  · unfold inv6
    isplitl [Hmw]; · iexact Hmw
    isplitl [Htab]; · iexact Htab
    isplitl [Hsix]; · iexact Hsix
    isplitl [Hrow]; · iexists _; iexact Hrow
    isplitl [Hsid]; · iexists _; iexact Hsid
    isplitl [Hres]; · iexists _; iexact Hres
    isplitl [Hsou]; · iexact Hsou
    isplitl [Hc3]; · iexact Hc3
    isplitl [Hc4]; · iexact Hc4
    isplitl [Hc5]; · iexact Hc5
    iexists (insert (SemLoc.dma cc0_scoped2.sem, (default : HIx 1)) (insert (SemLoc.dma cc0_scratch8.sem, (default : HIx 1)) (insert (SemLoc.dma cc0_scratch7.sem, (default : HIx 1)) W1)))
    isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW1 p hp
    · iexact HO
  iintro %_ HI
  unfold inv6
  icases HI with ⟨Hmw, Htab, Hsix, ⟨%r1, Hrow⟩, ⟨%i1, Hsid⟩, ⟨%e1, Hres⟩, Hsou, Hc3, Hc4, Hc5, ⟨%W2, %hW2, HO⟩⟩
  sl_exec
  sl_step
  isplitr [HO]
  · isplitl [Htab]; · iexact Htab
    isplitl [Hsix]; · iexact Hsix
    isplitl [Hseq]; · iexact Hseq
    isplitl [Hqix]; · iexact Hqix
    isplitl [Hlen]; · iexact Hlen
    isplitl [Hpou]; · iexists _; iexact Hpou
    isplitl [Hsou]; · iexact Hsou
    isplitl [Hrow]; · iexists _; iexact Hrow
    isplitl [Hsid]; · iexists _; iexact Hsid
    isplitl [Hqb0]; · iexists _; iexact Hqb0
    isplitl [Hqb1]; · iexists _; iexact Hqb1
    isplitl [Hlnv]; · iexists _; iexact Hlnv
    isplitl [Hres]; · iexists _; iexact Hres
    isplitl [Hpre]; · iexists _; iexact Hpre
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    iexact Hc5
  iexists W2; isplitr
  · ipureintro; exact hW2
  · iexact HO

end Tile
end Cert.Proof.TileI
end
-- ==== Proof.LaunchIdeal1.lean ====
/-
  The launch of the idealized kernel, first part: a vector subcore's own storage as the launch deals it, and its task in the
  shape the launch asks for.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Tile
variable (d : Dev nD) (L : grid0.Coords)

omit [FloatOps F] in
/-- The subcore's own semaphores at zero are the eight the kernel copies on, at zero, and the rest. -/
theorem ownSems0_V :
    (ownSems0 (V d (cV L) (jV L)) : sProp 𝕄)
      = iprop(semVal (V d (cV L) (jV L), SemLoc.dma cc0_scratch7.sem) 0 ∗ semVal (V d (cV L) (jV L), SemLoc.dma cc0_scratch8.sem) 0 ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
          ∗ bigSep (((((((((ownCells (V d (cV L) (jV L))).erase (V d (cV L) (jV L), SemLoc.dma cc0_scratch7.sem)).erase (V d (cV L) (jV L), SemLoc.dma cc0_scratch8.sem)).erase (V d (cV L) (jV L), SemLoc.dma cc0_scoped0.sem)).erase (V d (cV L) (jV L), SemLoc.dma cc0_scoped1.sem)).erase (V d (cV L) (jV L), SemLoc.dma cc0_scoped2.sem)).erase (V d (cV L) (jV L), SemLoc.dma cc0_scoped3.sem)).erase (V d (cV L) (jV L), SemLoc.dma cc0_scoped4.sem)).erase (V d (cV L) (jV L), SemLoc.dma cc0_scoped5.sem)) fun g => semVal g 0) := by
  unfold SparseCore.Cfg.ownSems0
  rw [SparseCore.bigSep_erase' ((mem_ownCells (g := (V d (cV L) (jV L), SemLoc.dma cc0_scratch7.sem))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (V d (cV L) (jV L), SemLoc.dma cc0_scratch8.sem))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped0.sem))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped1.sem))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped2.sem))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped3.sem))).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped4.sem))).mpr ⟨rfl, by show (SemLoc.dma cc0_scoped4.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped5.sem))).mpr ⟨rfl, by show (SemLoc.dma cc0_scoped5.sem : SemLoc sig).isScoped .scVector = true; decide⟩⟩⟩⟩⟩⟩⟩⟩)]

omit [FloatOps F] in
/-- The subcore's own buffers at some contents are the seven scratches, at some contents, and the rest. -/
theorem ownBufs_V :
    (ownBufs (V d (cV L) (jV L)) : sProp 𝕄)
      = iprop((∃ f, (rowW).view.loc (V d (cV L) (jV L)) ↦{fullShare} f) ∗ (∃ f, (sidW).view.loc (V d (cV L) (jV L)) ↦{fullShare} f) ∗ (∃ f, (qb0W).view.loc (V d (cV L) (jV L)) ↦{fullShare} f) ∗ (∃ f, (qb1W).view.loc (V d (cV L) (jV L)) ↦{fullShare} f) ∗ (∃ f, (lnvW).view.loc (V d (cV L) (jV L)) ↦{fullShare} f) ∗ (∃ f, (resW).view.loc (V d (cV L) (jV L)) ↦{fullShare} f) ∗ (∃ f, (preW).view.loc (V d (cV L) (jV L)) ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- What a tile is handed for its task and hands back: a read share of each of the five inputs, its block of the pooled output
    and its 26 blocks of the sparse output at anything. -/
def tilePay (q : PosShare TreeShare) (f0 : Bf (F := F) d L tabW) (f1 : Bf (F := F) d L sixW) (f2 : Bf (F := F) d L seqW)
    (f3 : Bf (F := F) d L qixW) (f4 : Bf (F := F) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, (pouBlk L).view.loc (V d (cV L) (jV L)) ↦[(pouBlk L).view.set]{fullShare} fp)
    ∗ (bigSep Finset.univ fun t : Fin k0_t6_loop.trips => iprop(∃ fs, (souBlk L t).view.loc (V d (cV L) (jV L)) ↦[(souBlk L t).view.set]{fullShare} fs)))

set_option maxHeartbeats 4000000 in
/-- The task in the shape the launch asks for: from the levels, the tile's payload, its scoped buffers and semaphores as the
    launch deals them and what it owes, to the payload, the scoped storage and what it owes. -/
theorem tile_task (hF : (K (F := F)).Facts) (q : PosShare TreeShare) (f0 : Bf (F := F) d L tabW) (f1 : Bf (F := F) d L sixW)
    (f2 : Bf (F := F) d L seqW) (f3 : Bf (F := F) d L qixW) (f4 : Bf (F := F) d L lenW)
    (hf1 : ∀ x, (f1 x).toNat < 100000) (hf3 : ∀ x, (f3 x).toNat < 100000)
    (O : CellTallies nD τ sig (HIx 1)) (W : Waits sig (HIx 1)) (hO : ∀ g, O g none = 0) :
    iprop(levAts (K (F := F)).L (K (F := F)).lev ∗ emp ∗ tilePay d L q f0 f1 f2 f3 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tilePay d L q f0 f1 f2 f3 f4 ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePay
  iintro ⟨#Hlv, -, ⟨Htab, Hsix, Hseq, Hqix, Hlen, Hpou, Hsou⟩, ⟨Hrow, Hsid, Hqb0, Hqb1, Hlnv, Hres, Hpre, Hbufs⟩,
    ⟨Hs7, Hs8, Hc0, Hc1, Hc2, Hc3, Hc4, Hc5, Hsems⟩, HO⟩
  ihave Hmw := ((K (F := F)).mayWaits_none (thr := V d (cV L) (jV L)) hO) $$ Hlv
  ihave H := (tile_body d L q O W f0 f1 f2 f3 f4 hf1 hf3) $$ [Hmw Htab Hsix Hseq Hqix Hlen Hpou Hsou Hrow Hsid Hqb0 Hqb1 Hlnv Hres Hpre Hs7 Hs8 Hc0 Hc1 Hc2 Hc3 Hc4 Hc5 HO]
  · unfold tileRes
    isplitl [Hmw]; · iexact Hmw
    isplitr [HO]
    · isplitl [Htab]; · iexact Htab
      isplitl [Hsix]; · iexact Hsix
      isplitl [Hseq]; · iexact Hseq
      isplitl [Hqix]; · iexact Hqix
      isplitl [Hlen]; · iexact Hlen
      isplitl [Hpou]; · iexact Hpou
      isplitl [Hsou]; · iexact Hsou
      isplitl [Hrow]; · iexact Hrow
      isplitl [Hsid]; · iexact Hsid
      isplitl [Hqb0]; · iexact Hqb0
      isplitl [Hqb1]; · iexact Hqb1
      isplitl [Hlnv]; · iexact Hlnv
      isplitl [Hres]; · iexact Hres
      isplitl [Hpre]; · iexact Hpre
      isplitl [Hs7]; · iexact Hs7
      isplitl [Hs8]; · iexact Hs8
      isplitl [Hc0]; · iexact Hc0
      isplitl [Hc1]; · iexact Hc1
      isplitl [Hc2]; · iexact Hc2
      isplitl [Hc3]; · iexact Hc3
      isplitl [Hc4]; · iexact Hc4
      iexact Hc5
    · iexact HO
  iapply (wp_wand frame _ Set.univ) $$ H
  iintro %a ⟨Hres, HO⟩
  unfold tileRes
  icases Hres with ⟨Htab, Hsix, Hseq, Hqix, Hlen, Hpou, Hsou, Hrow, Hsid, Hqb0, Hqb1, Hlnv, Hres, Hpre, Hs7, Hs8, Hc0, Hc1, Hc2, Hc3, Hc4, Hc5⟩
  isplitl [Htab Hsix Hseq Hqix Hlen Hpou Hsou]
  · isplitl [Htab]; · iexact Htab
    isplitl [Hsix]; · iexact Hsix
    isplitl [Hseq]; · iexact Hseq
    isplitl [Hqix]; · iexact Hqix
    isplitl [Hlen]; · iexact Hlen
    isplitl [Hpou]; · iexact Hpou
    iexact Hsou
  isplitl [Hrow Hsid Hqb0 Hqb1 Hlnv Hres Hpre Hbufs]
  · isplitl [Hrow]; · iexact Hrow
    isplitl [Hsid]; · iexact Hsid
    isplitl [Hqb0]; · iexact Hqb0
    isplitl [Hqb1]; · iexact Hqb1
    isplitl [Hlnv]; · iexact Hlnv
    isplitl [Hres]; · iexact Hres
    isplitl [Hpre]; · iexact Hpre
    iexact Hbufs
  isplitl [Hs7 Hs8 Hc0 Hc1 Hc2 Hc3 Hc4 Hc5 Hsems]
  · isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexact HO

end Tile
end Cert.Proof.TileI
end
-- ==== Proof.LaunchIdeal2.lean ====
/-
  The launch of the idealized kernel, second part: what the one call hands each SparseCore and each tile, the launch's
  obligation for the kernel, and how a SparseCore's payload splits among its tiles.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Launch

variable (Vv : Dev nD → Valuation τ sig (Elt F))

/-- A grid point from its two coordinates, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5) ⟨⟩ c s := rfl

omit [FloatOps F] in
theorem nCore_zero : (K (F := F)).nCore 0 = 2 := rfl
omit [FloatOps F] in
theorem nSub_zero : (K (F := F)).nSub 0 = 16 := rfl

/-- The grid point of tile `i` of SparseCore `c` of the call's grid. -/
abbrev Lof (c : Fin ((K (F := F)).nCore 0)) (i : Fin ((K (F := F)).nSub 0)) : grid0.Coords := coordsV ⟨c.val, c.isLt⟩ ⟨i.val, i.isLt⟩

/-- The read share of tile `i` of SparseCore `c`: the full share cut once per SparseCore, then once per tile. -/
abbrev qT (c i : ℕ) : PosShare TreeShare := Transfers.shareTokN (Transfers.shareTokN fullShare c) i

/-- An input of a device at a share, at the contents `Vv` gives it. -/
abbrev inAt (d : Dev nD) (r : Ref sig .tc) (q : PosShare TreeShare) : sProp 𝕄 :=
  ((d, Proc.devRef .tc r) : Loc nD τ sig) ↦{q} Vv d (Proc.devRef .tc r)
/-- A tile's block of the pooled output, and its blocks of the sparse output, at anything. -/
abbrev outA (d : Dev nD) (L : grid0.Coords) : sProp 𝕄 :=
  iprop(∃ fp, (pouBlk L).view.loc (V d (cV L) (jV L)) ↦[(pouBlk L).view.set]{fullShare} fp)
abbrev outB (d : Dev nD) (L : grid0.Coords) : sProp 𝕄 :=
  bigSep Finset.univ fun t : Fin k0_t6_loop.trips => iprop(∃ fs, (souBlk L t).view.loc (V d (cV L) (jV L)) ↦[(souBlk L t).view.set]{fullShare} fs)

/-- What a tile is handed and hands back. -/
def goPay (d : Dev nD) (L : grid0.Coords) (q : PosShare TreeShare) : sProp 𝕄 :=
  iprop(inAt (F := F) Vv d main_v0 q ∗ inAt (F := F) Vv d main_v2 q ∗ inAt (F := F) Vv d main_v1 q ∗ inAt (F := F) Vv d main_v5 q ∗ inAt (F := F) Vv d main_v6 q ∗ outA (F := F) d L ∗ outB (F := F) d L)

omit [FloatOps F] in
theorem tilePay_eq (d : Dev nD) (L : grid0.Coords) (q : PosShare TreeShare) :
    tilePay (F := F) d L q (Vv d (Proc.devRef .tc main_v0)) (Vv d (Proc.devRef .tc main_v2)) (Vv d (Proc.devRef .tc main_v1))
        (Vv d (Proc.devRef .tc main_v5)) (Vv d (Proc.devRef .tc main_v6))
      = goPay Vv d L q := rfl

/-- What a SparseCore is handed and hands back: its share of the inputs and its sixteen tiles' blocks. -/
def stPay (d : Dev nD) (c : Fin ((K (F := F)).nCore 0)) : sProp 𝕄 :=
  iprop(inAt (F := F) Vv d main_v0 (Transfers.shareTokN fullShare c.val) ∗ inAt (F := F) Vv d main_v2 (Transfers.shareTokN fullShare c.val) ∗ inAt (F := F) Vv d main_v1 (Transfers.shareTokN fullShare c.val) ∗ inAt (F := F) Vv d main_v5 (Transfers.shareTokN fullShare c.val) ∗ inAt (F := F) Vv d main_v6 (Transfers.shareTokN fullShare c.val)
    ∗ (bigSep Finset.univ fun i : Fin ((K (F := F)).nSub 0) => outA (F := F) d (Lof c i))
    ∗ (bigSep Finset.univ fun i : Fin ((K (F := F)).nSub 0) => outB (F := F) d (Lof c i)))

/-- The one call's payloads. -/
def P : (K (F := F)).Pay (nD := nD) (Val := Elt F) (Name := ℕ) (U := UU) where
  st := fun q d c => match q with | 0 => stPay Vv d c
  dn := fun q d c => match q with | 0 => stPay Vv d c
  go := fun q d c i => match q with | 0 => goPay Vv d (Lof c i) (qT c.val i.val)
  td := fun q d c i => match q with | 0 => goPay Vv d (Lof c i) (qT c.val i.val)
  x := fun _ _ => iprop(emp)

set_option maxHeartbeats 8000000 in
set_option synthInstance.maxHeartbeats 2000000 in
set_option synthInstance.maxSize 4096 in
instance P_storable : (P (F := F) Vv).IsStorable where
  st q d c := match q with | 0 => by show BI.Storable _ (stPay Vv d c); unfold stPay; infer_instance
  dn q d c := match q with | 0 => by show BI.Storable _ (stPay Vv d c); unfold stPay; infer_instance
  go q d c i := match q with | 0 => by show BI.Storable _ (goPay Vv d (Lof c i) (qT c.val i.val)); unfold goPay; infer_instance
  td q d c i := match q with | 0 => by show BI.Storable _ (goPay Vv d (Lof c i) (qT c.val i.val)); unfold goPay; infer_instance

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the kernel: every tile's task, from its payload and scoped storage to the same. -/
theorem tileObl (hF : (K (F := F)).Facts)
    (h2 : ∀ d x, (Vv d (Proc.devRef .tc main_v2) x : BitVec 32).toNat < 100000)
    (h5 : ∀ d x, (Vv d (Proc.devRef .tc main_v5) x : BitVec 32).toNat < 100000) :
    (K (F := F)).TileObl (D (F := F)) 𝒱 (P Vv) v₀ 0 := by
  intro d c i O W hO _ _
  simp only [show (P (F := F) Vv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) hF (qT c.val i.val) _ _ _ _ _ (h2 d) (h5 d) O W hO).trans (wp_mono frame _ _ fun _ => obl_post)

omit [FloatOps F] in
theorem inAt_split (d : Dev nD) (r : Ref sig .tc) (q : PosShare TreeShare) (n : ℕ) :
    inAt (F := F) Vv d r q ⊢ iprop(inAt (F := F) Vv d r (Transfers.shareDrop q n)
      ∗ bigSep Finset.univ fun i : Fin n => inAt (F := F) Vv d r (Transfers.shareTokN q i.val)) :=
  Transfers.pointsTo_toks_split q n
omit [FloatOps F] in
theorem inAt_join (d : Dev nD) (r : Ref sig .tc) (q : PosShare TreeShare) (n : ℕ) :
    iprop(inAt (F := F) Vv d r (Transfers.shareDrop q n)
      ∗ bigSep Finset.univ fun i : Fin n => inAt (F := F) Vv d r (Transfers.shareTokN q i.val)) ⊢ inAt (F := F) Vv d r q :=
  Transfers.pointsTo_toks_join q n

/-- A SparseCore's payload splits among its sixteen tiles — each input's share into sixteen tokens and a remainder kept
    aside — and is put back from what they return. -/
theorem vecSplit : (K (F := F)).VecSplit' (P Vv) 0 := by
  intro d c
  show stPay Vv d c ⊢ |={Set.univ}=> iprop((bigSep Finset.univ fun i : Fin ((K (F := F)).nSub 0) => goPay Vv d (Lof c i) (qT c.val i.val))
      ∗ ((bigSep Finset.univ fun i : Fin ((K (F := F)).nSub 0) => goPay Vv d (Lof c i) (qT c.val i.val)) -∗ stPay Vv d c))
  unfold stPay goPay
  rw [bigSep_sep', bigSep_sep', bigSep_sep', bigSep_sep', bigSep_sep', bigSep_sep']
  iintro ⟨H0, H1, H2, H3, H4, HA, HB⟩
  ihave S0 := (inAt_split Vv d main_v0 _ ((K (F := F)).nSub 0)) $$ H0
  icases S0 with ⟨D0, T0⟩
  ihave S1 := (inAt_split Vv d main_v2 _ ((K (F := F)).nSub 0)) $$ H1
  icases S1 with ⟨D1, T1⟩
  ihave S2 := (inAt_split Vv d main_v1 _ ((K (F := F)).nSub 0)) $$ H2
  icases S2 with ⟨D2, T2⟩
  ihave S3 := (inAt_split Vv d main_v5 _ ((K (F := F)).nSub 0)) $$ H3
  icases S3 with ⟨D3, T3⟩
  ihave S4 := (inAt_split Vv d main_v6 _ ((K (F := F)).nSub 0)) $$ H4
  icases S4 with ⟨D4, T4⟩
  imodintro
  isplitl [T0 T1 T2 T3 T4 HA HB]
  · isplitl [T0]; · iexact T0
    isplitl [T1]; · iexact T1
    isplitl [T2]; · iexact T2
    isplitl [T3]; · iexact T3
    isplitl [T4]; · iexact T4
    isplitl [HA]; · iexact HA
    iexact HB
  iintro ⟨T0, T1, T2, T3, T4, HA, HB⟩
  isplitl [D0 T0]
  · iapply (inAt_join Vv d main_v0 _ ((K (F := F)).nSub 0)); isplitl [D0]; · iexact D0
    iexact T0
  isplitl [D1 T1]
  · iapply (inAt_join Vv d main_v2 _ ((K (F := F)).nSub 0)); isplitl [D1]; · iexact D1
    iexact T1
  isplitl [D2 T2]
  · iapply (inAt_join Vv d main_v1 _ ((K (F := F)).nSub 0)); isplitl [D2]; · iexact D2
    iexact T2
  isplitl [D3 T3]
  · iapply (inAt_join Vv d main_v5 _ ((K (F := F)).nSub 0)); isplitl [D3]; · iexact D3
    iexact T3
  isplitl [D4 T4]
  · iapply (inAt_join Vv d main_v6 _ ((K (F := F)).nSub 0)); isplitl [D4]; · iexact D4
    iexact T4
  isplitl [HA]; · iexact HA
  iexact HB

end Launch
end Cert.Proof.TileI
end
-- ==== Proof.KernelIdealOps.lean ====
/-
  The host operations of KernelIdeal's `main` in order: the 7 before its SparseCore call and the 5 after it, and,
  beside each list, that each operation touches TensorCore buffers only.
-/
import proofs.«209320_g71347996721220_cont_9to1c4b_157_42_alg».proof.Proof.Gen.KernelIdeal
import Idealize.ShloMosaic.Lib.StableHlo.Run

noncomputable section

namespace Cert.KernelIdeal.HandOps

open Cert.KernelIdeal Cert.KernelIdeal.Gen Idealize.ShloMosaic Idealize.ShloMosaic.TcCoe Idealize.SL.Sem Idealize.ShloMosaic.StableHlo

variable {F : FTy → Type} [FloatOps F]

/-- The operations before the call. -/
abbrev opsPre : List (HloOp τ sig (Elt F)) :=
  [
    unary main_arg4 main_v0 ((transpose S26x32x100000 [0, 2, 1] · transposes_S26x100000x32_S26x32x100000_0_2_1) : (⟨S26x100000x32, .f32⟩ : BufTy).Contents (Elt F) → (⟨S26x32x100000, .f32⟩ : BufTy).Contents (Elt F)),
    unary main_arg5 main_v1 ((transpose S32x100000 [1, 0] · transposes_S100000x32_S32x100000_1_0) : (⟨S100000x32, .f32⟩ : BufTy).Contents (Elt F) → (⟨S32x100000, .f32⟩ : BufTy).Contents (Elt F)),
    unary main_arg0 main_v2 ((transpose S26x4096 [1, 0] · transposes_S4096x26_S26x4096_1_0) : (⟨S4096x26, .i32⟩ : BufTy).Contents (Elt F) → (⟨S26x4096, .i32⟩ : BufTy).Contents (Elt F)),
    unary main_arg1 main_v3 ((transpose S50x4096 [1, 0] · transposes_S4096x50_S50x4096_1_0) : (⟨S4096x50, .i32⟩ : BufTy).Contents (Elt F) → (⟨S50x4096, .i32⟩ : BufTy).Contents (Elt F)),
    reshape main_v3 main_v4 rfl shapeCasts_S50x4096_S50x32x128,
    unary main_v4 main_v5 ((transpose S32x50x128 [1, 0, 2] · transposes_S50x32x128_S32x50x128_1_0_2) : (⟨S50x32x128, .i32⟩ : BufTy).Contents (Elt F) → (⟨S32x50x128, .i32⟩ : BufTy).Contents (Elt F)),
    unary main_arg2 main_v6 (sitofp .f32 : (⟨S4096, .i32⟩ : BufTy).Contents (Elt F) → (⟨S4096, .f32⟩ : BufTy).Contents (Elt F)) ]

/-- The operations after the call. -/
abbrev opsPost : List (HloOp τ sig (Elt F)) :=
  [
    reshape main_v7_0 main_v8 rfl shapeCasts_S26624x128_S832x4096,
    unary main_v8 main_v9 ((transpose S4096x832 [1, 0] · transposes_S832x4096_S4096x832_1_0) : (⟨S832x4096, .f32⟩ : BufTy).Contents (Elt F) → (⟨S4096x832, .f32⟩ : BufTy).Contents (Elt F)),
    reshape main_v7_1 main_v10 rfl shapeCasts_S1024x128_S32x4096,
    unary main_v10 main_v11 ((transpose S4096x32 [1, 0] · transposes_S32x4096_S4096x32_1_0) : (⟨S32x4096, .f32⟩ : BufTy).Contents (Elt F) → (⟨S4096x32, .f32⟩ : BufTy).Contents (Elt F)),
    nary ![main_v9, main_v11, main_arg3] main_v12 (fun u => concatenate S4096x877 1 [⟨S4096x832, u 0⟩, ⟨S4096x32, u 1⟩, ⟨S4096x13, u 2⟩] concatenates_S4096x832_S4096x32_S4096x13_S4096x877_d1) ]

theorem opsPre_sub : (opsPre : List (HloOp τ sig (Elt F))).Forall fun op => op.bufs ⊆ tcRefs τ sig :=
  ⟨unary_bufs_sub .., unary_bufs_sub .., unary_bufs_sub .., unary_bufs_sub .., reshape_bufs_sub .., unary_bufs_sub .., unary_bufs_sub ..⟩

theorem opsPost_sub : (opsPost : List (HloOp τ sig (Elt F))).Forall fun op => op.bufs ⊆ tcRefs τ sig :=
  ⟨reshape_bufs_sub .., unary_bufs_sub .., reshape_bufs_sub .., unary_bufs_sub .., nary_bufs_sub ..⟩

end Cert.KernelIdeal.HandOps

end
-- ==== Proof.LaunchIdeal3.lean ====
/-
  The launch of the idealized kernel, third part: `main` as two stretches of host operations around the call, the tiles'
  row blocks of the two outputs as parts of their arrays (pairwise disjoint), and the carving of such a family out of a
  whole array and back.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.KernelIdealOps

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Launch

open Cert.KernelIdeal.HandOps
open Idealize.ShloMosaic.StableHlo (held held_sub_split wp_seq tcRefs devRef_mem_tcRefs after launchContents seq)

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- `main` is its first stretch of host operations, the call, and its second stretch. -/
theorem main_eq (d : Dev nD) :
    main (F := F) d = (seq opsPre >>= fun _ => (sc (F := F)).run d 0 >>= fun _ => seq opsPost) := by
  simp only [main, seq, bind_assoc, pure_bind]

/-- The pooled output's 1024 rows in 32 parts of 32; the sparse output's 26624 rows in 832 parts of 32. -/
theorem hdivP : 32 ∣ S1024x128.size 0 := ⟨32, rfl⟩
theorem hdivS : 832 ∣ S26624x128.size 0 := ⟨32, rfl⟩

/-- The part of the pooled output a tile writes, and the part of the sparse output it writes for field `t`. -/
abbrev pIdx (L : grid0.Coords) : ℕ := 2 * (L 1).val + (L 0).val
theorem pIdx_lt (L : grid0.Coords) : pIdx L < 32 := by
  have h0 : (L 0).val < 2 := (L 0).isLt
  have h1 : (L 1).val < 16 := (L 1).isLt
  show 2 * (L 1).val + (L 0).val < 32; omega
theorem sIdx_lt (L : grid0.Coords) (t : Fin k0_t6_loop.trips) : 32 * t.val + pIdx L < 832 := by
  have h0 : (L 0).val < 2 := (L 0).isLt
  have h1 : (L 1).val < 16 := (L 1).isLt
  have ht : t.val < 26 := t.isLt
  show 32 * t.val + (2 * (L 1).val + (L 0).val) < 832; omega

theorem pouRect_eq (L : grid0.Coords) :
    Rect.unit (s := S1024x128) (k0_off212 L) S32x128.size (k0_off212_inb L) = Rect.part (s := S1024x128) (a₀ := 0) hdivP ⟨pIdx L, pIdx_lt L⟩ := by
  unfold Rect.part Rect.block
  congr 1 <;> funext a
  · rw [k0_off212_eq]
    match a with
    | 0 => simp [Shape.partIx, Shape.partSize, pIdx]; omega
    | 1 => simp [Shape.partIx, Shape.partSize]
  · match a with
    | 0 => simp [Shape.partSize]
    | 1 => simp [Shape.partSize]

theorem souRect_eq (L : grid0.Coords) (t : Fin k0_t6_loop.trips) :
    Rect.unit (s := S26624x128) (k0_off247 L t) S32x128.size (k0_off247_inb L t)
      = Rect.part (s := S26624x128) (a₀ := 0) hdivS ⟨32 * t.val + pIdx L, sIdx_lt L t⟩ := by
  unfold Rect.part Rect.block
  congr 1 <;> funext a
  · rw [k0_off247_eq]
    match a with
    | 0 => simp [Shape.partIx, Shape.partSize, pIdx]; omega
    | 1 => simp [Shape.partIx, Shape.partSize]
  · match a with
    | 0 => simp [Shape.partSize]
    | 1 => simp [Shape.partSize]

omit [FloatOps F] in
theorem pouSet_eq (L : grid0.Coords) :
    (pouBlk L).view.set = (Rect.part (s := S1024x128) (a₀ := 0) hdivP ⟨pIdx L, pIdx_lt L⟩).set := by
  show ((View.whole (main_v7_1_scv : Ref sig .scVector)).slice (Rect.unit (s := S1024x128) (k0_off212 L) S32x128.size (k0_off212_inb L))).set = _
  rw [View.set_slice, pouRect_eq]; exact Finset.map_refl
omit [FloatOps F] in
theorem souSet_eq (L : grid0.Coords) (t : Fin k0_t6_loop.trips) :
    (souBlk L t).view.set = (Rect.part (s := S26624x128) (a₀ := 0) hdivS ⟨32 * t.val + pIdx L, sIdx_lt L t⟩).set := by
  show ((View.whole (main_v7_0_scv : Ref sig .scVector)).slice (Rect.unit (s := S26624x128) (k0_off247 L t) S32x128.size (k0_off247_inb L t))).set = _
  rw [View.set_slice, souRect_eq]; exact Finset.map_refl

omit [FloatOps F] in
/-- Two tiles' blocks of the pooled output are disjoint; so are two (tile, field) blocks of the sparse output. -/
theorem pou_disj {L L' : grid0.Coords} (h : pIdx L ≠ pIdx L') : Disjoint (pouBlk L).view.set (pouBlk L').view.set := by
  rw [pouSet_eq, pouSet_eq]; exact Rect.part_disjoint hdivP (fun e => h (congrArg Fin.val e))
omit [FloatOps F] in
theorem sou_disj {L L' : grid0.Coords} {t t' : Fin k0_t6_loop.trips} (h : 32 * t.val + pIdx L ≠ 32 * t'.val + pIdx L') :
    Disjoint (souBlk L t).view.set (souBlk L' t').view.set := by
  rw [souSet_eq, souSet_eq]; exact Rect.part_disjoint hdivS (fun e => h (congrArg Fin.val e))

omit [FloatOps F] in
/-- From a whole array: a finite family of pairwise disjoint element sets of it, each at anything — and, from such a family,
    the whole array back at something. -/
theorem carve {ℓ : Loc nD τ sig} {ι : Type} [Fintype ι] [DecidableEq ι] (Kset : ι → Finset (Idx ℓ))
    (hd : ∀ t t', t ≠ t' → Disjoint (Kset t) (Kset t')) (f : Buf (Elt F) ℓ) :
    (ℓ ↦{fullShare} f : sProp 𝕄)
      ⊢ iprop((bigSep Finset.univ fun t => iprop(∃ g, ℓ ↦[Kset t]{fullShare} g))
          ∗ ((bigSep Finset.univ fun t => iprop(∃ g, ℓ ↦[Kset t]{fullShare} g)) -∗ ∃ g, ℓ ↦{fullShare} g)) := by
  iintro H
  ihave H' := (pointsTo_split_subset (Finset.subset_univ (Finset.univ.biUnion Kset))).1 $$ H
  icases H' with ⟨HI, Hrest⟩
  ihave HI' := (Entails.of_eq (pointsTo_biUnion Finset.univ Kset (fun t _ t' _ h => hd t t' h))) $$ HI
  isplitl [HI']
  · have hm : (bigSep Finset.univ fun t => (ℓ ↦[Kset t]{fullShare} f : sProp 𝕄))
        ⊢ bigSep Finset.univ fun t => iprop(∃ g, ℓ ↦[Kset t]{fullShare} g) :=
      bigSep_mono fun t _ => sProp.exists_intro (Φ := fun g => (ℓ ↦[Kset t]{fullShare} g : sProp 𝕄)) f
    iapply hm; iexact HI'
  iintro Hb
  ihave Hb' := (@bigSep_exists_pi 𝕄 _ ι _ (fun _ => Buf (Elt F) ℓ) (fun _ => ⟨f⟩) Finset.univ
    (fun t (g : Buf (Elt F) ℓ) => (ℓ ↦[Kset t]{fullShare} g : sProp 𝕄))) $$ Hb
  icases Hb' with ⟨%gs, Hb'⟩
  ihave Hj := (pointsTo_biUnion_join Finset.univ Kset gs f (fun t _ t' _ h => hd t t' h)) $$ Hb'
  icases Hj with ⟨%g, -, Hg⟩
  ihave Hw := (pointsTo_join_subset (Finset.subset_univ (Finset.univ.biUnion Kset))) $$ [Hg Hrest]
  · isplitl [Hg]; · iexact Hg
    iexact Hrest
  iexists _; iexact Hw

end Launch
end Cert.Proof.TileI
end
-- ==== Proof.LaunchIdeal4.lean ====
/-
  The launch of the idealized kernel, fourth part: `main` on the TensorCore around the call, the read-off of the final
  state, and the run of all the device's threads.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.KernelIdealOps
import proofs.«209320_g71347996721220_cont_9to1c4b_157_42_alg».proof.Proof.LaunchIdeal3

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

variable [FloatOps F]

section Launch

open Cert.KernelIdeal.HandOps
open Idealize.ShloMosaic.StableHlo (held held_sub_split held_congr wp_seq tcRefs devRef_mem_tcRefs after launchContents seq)

section Main
variable (m : (ℓ : Loc nD τ sig) → Buf (Elt F) ℓ) (ρ : Dev nD → PrngReg)

/-- The contents of a device's TensorCore buffers after `main`'s first stretch. -/
abbrev V1 (d : Dev nD) : Valuation τ sig (Elt F) := after opsPre (launchContents m d)

omit [FloatOps F] in
theorem unscoped_held (d : Dev nD) :
    (unscopedBufs d (fun b => m ((SparseCore.T d).loc b)) : sProp 𝕄) = held (d.tc : Thread nD τ) (tcRefs τ sig) (launchContents m d) := by
  unfold unscopedBufs held tcRefs
  rw [show (Finset.univ.filter fun b : Ref sig .tc => ¬ b.isScoped) = Finset.univ by decide, bigSep_map]; rfl

/-- The kernel's seven operands, and `main`'s six arguments, among the TensorCore's buffers. -/
abbrev T7 : Finset (DevRef τ sig) := {(Proc.devRef .tc main_v0 : DevRef τ sig), (Proc.devRef .tc main_v2 : DevRef τ sig), (Proc.devRef .tc main_v1 : DevRef τ sig), (Proc.devRef .tc main_v5 : DevRef τ sig), (Proc.devRef .tc main_v6 : DevRef τ sig), (Proc.devRef .tc main_v7_0 : DevRef τ sig), (Proc.devRef .tc main_v7_1 : DevRef τ sig)}
abbrev T6 : Finset (DevRef τ sig) := {(Proc.devRef .tc main_arg0 : DevRef τ sig), (Proc.devRef .tc main_arg1 : DevRef τ sig), (Proc.devRef .tc main_arg2 : DevRef τ sig), (Proc.devRef .tc main_arg3 : DevRef τ sig), (Proc.devRef .tc main_arg4 : DevRef τ sig), (Proc.devRef .tc main_arg5 : DevRef τ sig)}
omit [FloatOps F] in
theorem hT7 : T7 ⊆ tcRefs τ sig := by
  intro b hb; simp only [T7, Finset.mem_insert, Finset.mem_singleton] at hb
  rcases hb with rfl | rfl | rfl | rfl | rfl | rfl | rfl <;> exact devRef_mem_tcRefs _
omit [FloatOps F] in
theorem hT6 : T6 ⊆ tcRefs τ sig := by
  intro b hb; simp only [T6, Finset.mem_insert, Finset.mem_singleton] at hb
  rcases hb with rfl | rfl | rfl | rfl | rfl | rfl <;> exact devRef_mem_tcRefs _
omit [FloatOps F] in
theorem held_T7 (d : Dev nD) (W : Valuation τ sig (Elt F)) :
    (held (d.tc : Thread nD τ) T7 W : sProp 𝕄) = iprop((((d, Proc.devRef .tc main_v0) : Loc nD τ sig) ↦{fullShare} W (Proc.devRef .tc main_v0 : DevRef τ sig)) ∗ (((d, Proc.devRef .tc main_v2) : Loc nD τ sig) ↦{fullShare} W (Proc.devRef .tc main_v2 : DevRef τ sig)) ∗ (((d, Proc.devRef .tc main_v1) : Loc nD τ sig) ↦{fullShare} W (Proc.devRef .tc main_v1 : DevRef τ sig)) ∗ (((d, Proc.devRef .tc main_v5) : Loc nD τ sig) ↦{fullShare} W (Proc.devRef .tc main_v5 : DevRef τ sig)) ∗ (((d, Proc.devRef .tc main_v6) : Loc nD τ sig) ↦{fullShare} W (Proc.devRef .tc main_v6 : DevRef τ sig)) ∗ (((d, Proc.devRef .tc main_v7_0) : Loc nD τ sig) ↦{fullShare} W (Proc.devRef .tc main_v7_0 : DevRef τ sig)) ∗ (((d, Proc.devRef .tc main_v7_1) : Loc nD τ sig) ↦{fullShare} W (Proc.devRef .tc main_v7_1 : DevRef τ sig))) := by
  unfold held T7
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem held_T6 (d : Dev nD) (W : Valuation τ sig (Elt F)) :
    (held (d.tc : Thread nD τ) T6 W : sProp 𝕄) = iprop((((d, Proc.devRef .tc main_arg0) : Loc nD τ sig) ↦{fullShare} W (Proc.devRef .tc main_arg0 : DevRef τ sig)) ∗ (((d, Proc.devRef .tc main_arg1) : Loc nD τ sig) ↦{fullShare} W (Proc.devRef .tc main_arg1 : DevRef τ sig)) ∗ (((d, Proc.devRef .tc main_arg2) : Loc nD τ sig) ↦{fullShare} W (Proc.devRef .tc main_arg2 : DevRef τ sig)) ∗ (((d, Proc.devRef .tc main_arg3) : Loc nD τ sig) ↦{fullShare} W (Proc.devRef .tc main_arg3 : DevRef τ sig)) ∗ (((d, Proc.devRef .tc main_arg4) : Loc nD τ sig) ↦{fullShare} W (Proc.devRef .tc main_arg4 : DevRef τ sig)) ∗ (((d, Proc.devRef .tc main_arg5) : Loc nD τ sig) ↦{fullShare} W (Proc.devRef .tc main_arg5 : DevRef τ sig))) := by
  unfold held T6
  rw [SparseCore.bigSep_insert' (by decide), SparseCore.bigSep_insert' (by decide), SparseCore.bigSep_insert' (by decide), SparseCore.bigSep_insert' (by decide), SparseCore.bigSep_insert' (by decide), bigSep_singleton]

/-- What `main` leaves the claim: its six arguments at their launch contents. -/
abbrev FIN (d : Dev nD) : sProp 𝕄 :=
  iprop((((d, Proc.devRef .tc main_arg0) : Loc nD τ sig) ↦{fullShare} m ((d, Proc.devRef .tc main_arg0) : Loc nD τ sig)) ∗ (((d, Proc.devRef .tc main_arg1) : Loc nD τ sig) ↦{fullShare} m ((d, Proc.devRef .tc main_arg1) : Loc nD τ sig)) ∗ (((d, Proc.devRef .tc main_arg2) : Loc nD τ sig) ↦{fullShare} m ((d, Proc.devRef .tc main_arg2) : Loc nD τ sig)) ∗ (((d, Proc.devRef .tc main_arg3) : Loc nD τ sig) ↦{fullShare} m ((d, Proc.devRef .tc main_arg3) : Loc nD τ sig)) ∗ (((d, Proc.devRef .tc main_arg4) : Loc nD τ sig) ↦{fullShare} m ((d, Proc.devRef .tc main_arg4) : Loc nD τ sig)) ∗ (((d, Proc.devRef .tc main_arg5) : Loc nD τ sig) ↦{fullShare} m ((d, Proc.devRef .tc main_arg5) : Loc nD τ sig)))

theorem hfreshPre : ∀ op ∈ (opsPre : List (HloOp τ sig (Elt F))), op.fresh = ∅ := by
  intro _ h; (repeat (cases h with | head => rfl | tail _ h => ?_)); exact nomatch h
theorem hfreshPost : ∀ op ∈ (opsPost : List (HloOp τ sig (Elt F))), op.fresh = ∅ := by
  intro _ h; (repeat (cases h with | head => rfl | tail _ h => ?_)); exact nomatch h

/-- No operation of either stretch writes an argument. -/
theorem pre_arg0 (W : Valuation τ sig (Elt F)) : after opsPre W (Proc.devRef .tc main_arg0 : DevRef τ sig) = W (Proc.devRef .tc main_arg0 : DevRef τ sig) := by after_results_simp
theorem post_arg0 (W : Valuation τ sig (Elt F)) : after opsPost W (Proc.devRef .tc main_arg0 : DevRef τ sig) = W (Proc.devRef .tc main_arg0 : DevRef τ sig) := by after_results_simp
theorem pre_arg1 (W : Valuation τ sig (Elt F)) : after opsPre W (Proc.devRef .tc main_arg1 : DevRef τ sig) = W (Proc.devRef .tc main_arg1 : DevRef τ sig) := by after_results_simp
theorem post_arg1 (W : Valuation τ sig (Elt F)) : after opsPost W (Proc.devRef .tc main_arg1 : DevRef τ sig) = W (Proc.devRef .tc main_arg1 : DevRef τ sig) := by after_results_simp
theorem pre_arg2 (W : Valuation τ sig (Elt F)) : after opsPre W (Proc.devRef .tc main_arg2 : DevRef τ sig) = W (Proc.devRef .tc main_arg2 : DevRef τ sig) := by after_results_simp
theorem post_arg2 (W : Valuation τ sig (Elt F)) : after opsPost W (Proc.devRef .tc main_arg2 : DevRef τ sig) = W (Proc.devRef .tc main_arg2 : DevRef τ sig) := by after_results_simp
theorem pre_arg3 (W : Valuation τ sig (Elt F)) : after opsPre W (Proc.devRef .tc main_arg3 : DevRef τ sig) = W (Proc.devRef .tc main_arg3 : DevRef τ sig) := by after_results_simp
theorem post_arg3 (W : Valuation τ sig (Elt F)) : after opsPost W (Proc.devRef .tc main_arg3 : DevRef τ sig) = W (Proc.devRef .tc main_arg3 : DevRef τ sig) := by after_results_simp
theorem pre_arg4 (W : Valuation τ sig (Elt F)) : after opsPre W (Proc.devRef .tc main_arg4 : DevRef τ sig) = W (Proc.devRef .tc main_arg4 : DevRef τ sig) := by after_results_simp
theorem post_arg4 (W : Valuation τ sig (Elt F)) : after opsPost W (Proc.devRef .tc main_arg4 : DevRef τ sig) = W (Proc.devRef .tc main_arg4 : DevRef τ sig) := by after_results_simp
theorem pre_arg5 (W : Valuation τ sig (Elt F)) : after opsPre W (Proc.devRef .tc main_arg5 : DevRef τ sig) = W (Proc.devRef .tc main_arg5 : DevRef τ sig) := by after_results_simp
theorem post_arg5 (W : Valuation τ sig (Elt F)) : after opsPost W (Proc.devRef .tc main_arg5 : DevRef τ sig) = W (Proc.devRef .tc main_arg5 : DevRef τ sig) := by after_results_simp

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (V1 m)).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Main

omit [FloatOps F] in
/-- A held wand applied. -/
theorem wand_app {A B : sProp 𝕄} : iprop((A -∗ B) ∗ A) ⊢ B := BI.wand_elim (BI.Entails.refl _)

/-- A valuation with the two outputs at new contents. -/
def updOut (W : Valuation τ sig (Elt F)) (g0 : ((Proc.devRef .tc main_v7_0 : DevRef τ sig)).ty.Contents (Elt F)) (g1 : ((Proc.devRef .tc main_v7_1 : DevRef τ sig)).ty.Contents (Elt F)) :
    Valuation τ sig (Elt F) :=
  Function.update (Function.update W (Proc.devRef .tc main_v7_0 : DevRef τ sig) g0) (Proc.devRef .tc main_v7_1 : DevRef τ sig) g1

omit [FloatOps F] in
theorem updOut_v70 (W : Valuation τ sig (Elt F)) (g0 g1) : updOut W g0 g1 (Proc.devRef .tc main_v7_0 : DevRef τ sig) = g0 := by
  unfold updOut; rw [Function.update_of_ne (by decide), Function.update_self]
omit [FloatOps F] in
theorem updOut_v71 (W : Valuation τ sig (Elt F)) (g0 g1) : updOut W g0 g1 (Proc.devRef .tc main_v7_1 : DevRef τ sig) = g1 := by
  unfold updOut; rw [Function.update_self]
omit [FloatOps F] in
theorem updOut_of_ne (W : Valuation τ sig (Elt F)) (g0 g1) {b : DevRef τ sig} (h0 : b ≠ (Proc.devRef .tc main_v7_0 : DevRef τ sig)) (h1 : b ≠ (Proc.devRef .tc main_v7_1 : DevRef τ sig)) :
    updOut W g0 g1 b = W b := by
  unfold updOut; rw [Function.update_of_ne h1, Function.update_of_ne h0]

omit [FloatOps F] in
/-- The held set at the updated valuation, from the kernel's operands back and the rest. -/
theorem reheld (d : Dev nD) (W : Valuation τ sig (Elt F)) (g0 g1) :
    iprop((((d, Proc.devRef .tc main_v0) : Loc nD τ sig) ↦{fullShare} W (Proc.devRef .tc main_v0 : DevRef τ sig)) ∗ (((d, Proc.devRef .tc main_v2) : Loc nD τ sig) ↦{fullShare} W (Proc.devRef .tc main_v2 : DevRef τ sig)) ∗ (((d, Proc.devRef .tc main_v1) : Loc nD τ sig) ↦{fullShare} W (Proc.devRef .tc main_v1 : DevRef τ sig)) ∗ (((d, Proc.devRef .tc main_v5) : Loc nD τ sig) ↦{fullShare} W (Proc.devRef .tc main_v5 : DevRef τ sig)) ∗ (((d, Proc.devRef .tc main_v6) : Loc nD τ sig) ↦{fullShare} W (Proc.devRef .tc main_v6 : DevRef τ sig))
        ∗ (((d, Proc.devRef .tc main_v7_0) : Loc nD τ sig) ↦{fullShare} g0) ∗ (((d, Proc.devRef .tc main_v7_1) : Loc nD τ sig) ↦{fullShare} g1)
        ∗ held (d.tc : Thread nD τ) (tcRefs τ sig \ T7) W)
      ⊢ (held (d.tc : Thread nD τ) (tcRefs τ sig) (updOut W g0 g1) : sProp 𝕄) := by
  rw [held_sub_split (d.tc : Thread nD τ) hT7 (updOut W g0 g1), held_T7, updOut_v70, updOut_v71,
    updOut_of_ne W g0 g1 (by decide) (by decide), updOut_of_ne W g0 g1 (by decide) (by decide), updOut_of_ne W g0 g1 (by decide) (by decide), updOut_of_ne W g0 g1 (by decide) (by decide), updOut_of_ne W g0 g1 (by decide) (by decide),
    held_congr (d.tc : Thread nD τ) (V := updOut W g0 g1) (V' := W) (S := tcRefs τ sig \ T7) (fun b hb => updOut_of_ne W g0 g1
      (fun e => (Finset.mem_sdiff.mp hb).2 (e ▸ (by decide : (Proc.devRef .tc main_v7_0 : DevRef τ sig) ∈ T7)))
      (fun e => (Finset.mem_sdiff.mp hb).2 (e ▸ (by decide : (Proc.devRef .tc main_v7_1 : DevRef τ sig) ∈ T7))))]
  iintro ⟨I0, I1, I2, I3, I4, O0, O1, Hr⟩
  isplitl [I0 I1 I2 I3 I4 O0 O1]
  · isplitl [I0]; · iexact I0
    isplitl [I1]; · iexact I1
    isplitl [I2]; · iexact I2
    isplitl [I3]; · iexact I3
    isplitl [I4]; · iexact I4
    isplitl [O0]; · iexact O0
    iexact O1
  iexact Hr

section Main2

/-- The two output arrays of a device, and the families of the tiles' blocks in them. -/
abbrev ℓP (d : Dev nD) : Loc nD τ sig := (d, Proc.devRef .tc main_v7_1)
abbrev ℓS (d : Dev nD) : Loc nD τ sig := (d, Proc.devRef .tc main_v7_0)
abbrev Kp (d : Dev nD) (ci : Fin 2 × Fin 16) : Finset (Idx (ℓP d)) := (pouBlk (Lof (F := F) ci.1 ci.2)).view.set
abbrev Ks (d : Dev nD) (cit : (Fin 2 × Fin 16) × Fin k0_t6_loop.trips) : Finset (Idx (ℓS d)) :=
  (souBlk (Lof (F := F) cit.1.1 cit.1.2) cit.2).view.set

omit [FloatOps F] in
theorem hdP (d : Dev nD) : ∀ ci ci' : Fin 2 × Fin 16, ci ≠ ci' → Disjoint (Kp (F := F) d ci) (Kp (F := F) d ci') := by
  intro ci ci' h
  refine pou_disj (fun e => h ?_)
  have e' : 2 * ci.2.val + ci.1.val = 2 * ci'.2.val + ci'.1.val := e
  have h1 := ci.1.isLt; have h1' := ci'.1.isLt
  exact Prod.ext (Fin.ext (by omega)) (Fin.ext (by omega))
omit [FloatOps F] in
theorem hdS (d : Dev nD) : ∀ cit cit' : (Fin 2 × Fin 16) × Fin k0_t6_loop.trips, cit ≠ cit' → Disjoint (Ks (F := F) d cit) (Ks (F := F) d cit') := by
  intro cit cit' h
  refine sou_disj (fun e => h ?_)
  have e' : 32 * cit.2.val + (2 * cit.1.2.val + cit.1.1.val) = 32 * cit'.2.val + (2 * cit'.1.2.val + cit'.1.1.val) := e
  have h1 := cit.1.1.isLt; have h1' := cit'.1.1.isLt
  have h2 := cit.1.2.isLt; have h2' := cit'.1.2.isLt
  exact Prod.ext (Prod.ext (Fin.ext (by omega)) (Fin.ext (by omega))) (Fin.ext (by omega))

omit [FloatOps F] in
theorem nestP (d : Dev nD) :
    (bigSep Finset.univ fun ci : Fin 2 × Fin 16 => iprop(∃ g, ℓP d ↦[Kp (F := F) d ci]{fullShare} g))
      = ((bigSep Finset.univ fun c : Fin ((K (F := F)).nCore 0) => bigSep Finset.univ fun i : Fin ((K (F := F)).nSub 0) => outA (F := F) d (Lof c i)) : sProp 𝕄) := by
  rw [← Finset.univ_product_univ, SparseCore.bigSep_product]
omit [FloatOps F] in
theorem nestS (d : Dev nD) :
    (bigSep Finset.univ fun cit : (Fin 2 × Fin 16) × Fin k0_t6_loop.trips => iprop(∃ g, ℓS d ↦[Ks (F := F) d cit]{fullShare} g))
      = ((bigSep Finset.univ fun c : Fin ((K (F := F)).nCore 0) => bigSep Finset.univ fun i : Fin ((K (F := F)).nSub 0) => outB (F := F) d (Lof c i)) : sProp 𝕄) := by
  rw [← Finset.univ_product_univ, SparseCore.bigSep_product, ← Finset.univ_product_univ, SparseCore.bigSep_product]

omit [FloatOps F] in
/-- What the call hands all the SparseCores of a device, conjunct by conjunct. -/
theorem st_eq (Vv : Dev nD → Valuation τ sig (Elt F)) (d : Dev nD) :
    (bigSep Finset.univ fun c : Fin ((K (F := F)).nCore 0) => (P Vv).st 0 d c)
      = iprop((bigSep Finset.univ fun c : Fin ((K (F := F)).nCore 0) => inAt (F := F) Vv d main_v0 (Transfers.shareTokN fullShare c.val)) ∗ (bigSep Finset.univ fun c : Fin ((K (F := F)).nCore 0) => inAt (F := F) Vv d main_v2 (Transfers.shareTokN fullShare c.val)) ∗ (bigSep Finset.univ fun c : Fin ((K (F := F)).nCore 0) => inAt (F := F) Vv d main_v1 (Transfers.shareTokN fullShare c.val)) ∗ (bigSep Finset.univ fun c : Fin ((K (F := F)).nCore 0) => inAt (F := F) Vv d main_v5 (Transfers.shareTokN fullShare c.val)) ∗ (bigSep Finset.univ fun c : Fin ((K (F := F)).nCore 0) => inAt (F := F) Vv d main_v6 (Transfers.shareTokN fullShare c.val)) ∗ (bigSep Finset.univ fun c : Fin ((K (F := F)).nCore 0) => bigSep Finset.univ fun i : Fin ((K (F := F)).nSub 0) => outA (F := F) d (Lof c i)) ∗ (bigSep Finset.univ fun c : Fin ((K (F := F)).nCore 0) => bigSep Finset.univ fun i : Fin ((K (F := F)).nSub 0) => outB (F := F) d (Lof c i))) := by
  show (bigSep Finset.univ fun c => stPay Vv d c) = _
  unfold stPay
  rw [bigSep_sep', bigSep_sep', bigSep_sep', bigSep_sep', bigSep_sep', bigSep_sep']

omit [FloatOps F] in
/-- What the SparseCores hand back, conjunct by conjunct: the same. -/
theorem dn_eq (Vv : Dev nD → Valuation τ sig (Elt F)) (d : Dev nD) :
    (bigSep Finset.univ fun c : Fin ((K (F := F)).nCore 0) => (P Vv).dn 0 d c)
      = iprop((bigSep Finset.univ fun c : Fin ((K (F := F)).nCore 0) => inAt (F := F) Vv d main_v0 (Transfers.shareTokN fullShare c.val)) ∗ (bigSep Finset.univ fun c : Fin ((K (F := F)).nCore 0) => inAt (F := F) Vv d main_v2 (Transfers.shareTokN fullShare c.val)) ∗ (bigSep Finset.univ fun c : Fin ((K (F := F)).nCore 0) => inAt (F := F) Vv d main_v1 (Transfers.shareTokN fullShare c.val)) ∗ (bigSep Finset.univ fun c : Fin ((K (F := F)).nCore 0) => inAt (F := F) Vv d main_v5 (Transfers.shareTokN fullShare c.val)) ∗ (bigSep Finset.univ fun c : Fin ((K (F := F)).nCore 0) => inAt (F := F) Vv d main_v6 (Transfers.shareTokN fullShare c.val)) ∗ (bigSep Finset.univ fun c : Fin ((K (F := F)).nCore 0) => bigSep Finset.univ fun i : Fin ((K (F := F)).nSub 0) => outA (F := F) d (Lof c i)) ∗ (bigSep Finset.univ fun c : Fin ((K (F := F)).nCore 0) => bigSep Finset.univ fun i : Fin ((K (F := F)).nSub 0) => outB (F := F) d (Lof c i))) := by
  show (bigSep Finset.univ fun c => stPay Vv d c) = _
  unfold stPay
  rw [bigSep_sep', bigSep_sep', bigSep_sep', bigSep_sep', bigSep_sep', bigSep_sep']

variable (m : (ℓ : Loc nD τ sig) → Buf (Elt F) ℓ) (ρ : Dev nD → PrngReg)

/-- Each argument after both stretches, the outputs at anything in between, is at its launch contents. -/
theorem fin_arg0 (d : Dev nD) (g0 g1) :
    after opsPost (updOut (after opsPre (launchContents m d)) g0 g1) (Proc.devRef .tc main_arg0 : DevRef τ sig) = m ((d, Proc.devRef .tc main_arg0) : Loc nD τ sig) := by
  rw [post_arg0, updOut_of_ne _ g0 g1 (by decide) (by decide), pre_arg0]
theorem fin_arg1 (d : Dev nD) (g0 g1) :
    after opsPost (updOut (after opsPre (launchContents m d)) g0 g1) (Proc.devRef .tc main_arg1 : DevRef τ sig) = m ((d, Proc.devRef .tc main_arg1) : Loc nD τ sig) := by
  rw [post_arg1, updOut_of_ne _ g0 g1 (by decide) (by decide), pre_arg1]
theorem fin_arg2 (d : Dev nD) (g0 g1) :
    after opsPost (updOut (after opsPre (launchContents m d)) g0 g1) (Proc.devRef .tc main_arg2 : DevRef τ sig) = m ((d, Proc.devRef .tc main_arg2) : Loc nD τ sig) := by
  rw [post_arg2, updOut_of_ne _ g0 g1 (by decide) (by decide), pre_arg2]
theorem fin_arg3 (d : Dev nD) (g0 g1) :
    after opsPost (updOut (after opsPre (launchContents m d)) g0 g1) (Proc.devRef .tc main_arg3 : DevRef τ sig) = m ((d, Proc.devRef .tc main_arg3) : Loc nD τ sig) := by
  rw [post_arg3, updOut_of_ne _ g0 g1 (by decide) (by decide), pre_arg3]
theorem fin_arg4 (d : Dev nD) (g0 g1) :
    after opsPost (updOut (after opsPre (launchContents m d)) g0 g1) (Proc.devRef .tc main_arg4 : DevRef τ sig) = m ((d, Proc.devRef .tc main_arg4) : Loc nD τ sig) := by
  rw [post_arg4, updOut_of_ne _ g0 g1 (by decide) (by decide), pre_arg4]
theorem fin_arg5 (d : Dev nD) (g0 g1) :
    after opsPost (updOut (after opsPre (launchContents m d)) g0 g1) (Proc.devRef .tc main_arg5 : DevRef τ sig) = m ((d, Proc.devRef .tc main_arg5) : Loc nD τ sig) := by
  rw [post_arg5, updOut_of_ne _ g0 g1 (by decide) (by decide), pre_arg5]

set_option maxHeartbeats 8000000 in
/-- `main` on a device's TensorCore: the first stretch of host operations; the call, handing each SparseCore its token of
    every input and its tiles' blocks of the outputs, the rest kept aside, and taking them back; the second stretch; the six
    arguments are where they were. -/
theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) _ opsPre (List.forall_iff_forall_mem.1 opsPre_sub) hfreshPre (launchContents m d)) $$ [Hb Hheld]
  · isplitl [Hb]; · iexact Hb
    iexact Hheld
  iintro ⟨Hb, Hheld⟩
  ihave Hs := (Entails.of_eq (held_sub_split (d.tc : Thread nD τ) hT7 (after opsPre (launchContents m d)))) $$ Hheld
  icases Hs with ⟨H7, Hrest⟩
  ihave H7' := (Entails.of_eq (held_T7 d (after opsPre (launchContents m d)))) $$ H7
  icases H7' with ⟨I0, I1, I2, I3, I4, O0, O1⟩
  ihave S0 := (inAt_split (V1 m) d main_v0 fullShare 2) $$ I0
  icases S0 with ⟨D0, T0⟩
  ihave S1 := (inAt_split (V1 m) d main_v2 fullShare 2) $$ I1
  icases S1 with ⟨D1, T1⟩
  ihave S2 := (inAt_split (V1 m) d main_v1 fullShare 2) $$ I2
  icases S2 with ⟨D2, T2⟩
  ihave S3 := (inAt_split (V1 m) d main_v5 fullShare 2) $$ I3
  icases S3 with ⟨D3, T3⟩
  ihave S4 := (inAt_split (V1 m) d main_v6 fullShare 2) $$ I4
  icases S4 with ⟨D4, T4⟩
  ihave C0 := (carve (Ks (F := F) d) (hdS d) _) $$ O0
  icases C0 with ⟨B0, J0⟩
  ihave C1 := (carve (Kp (F := F) d) (hdP d) _) $$ O1
  icases C1 with ⟨B1, J1⟩
  ihave B0' := (Entails.of_eq (nestS (F := F) d)) $$ B0
  ihave B1' := (Entails.of_eq (nestP (F := F) d)) $$ B1
  rw [wp_bind]
  iapply ((K (F := F)).wp_run (D (F := F)) 𝒱 (EH := EH) (P := P (V1 m)) κ d 0) $$ [Hst T0 T1 T2 T3 T4 B0' B1' Hb Hrest D0 D1 D2 D3 D4 J0 J1]
  isplitr; · iexact Hctx
  isplitl [Hst]; · iexact Hst
  isplitl [T0 T1 T2 T3 T4 B0' B1']
  · rw [st_eq]
    isplitl [T0]; · iexact T0
    isplitl [T1]; · iexact T1
    isplitl [T2]; · iexact T2
    isplitl [T3]; · iexact T3
    isplitl [T4]; · iexact T4
    isplitl [B1']; · iexact B1'
    iexact B0'
  iintro ⟨Hst, Hdn⟩
  ihave Hdn' := (Entails.of_eq (dn_eq (F := F) (V1 m) d)) $$ Hdn
  icases Hdn' with ⟨T0, T1, T2, T3, T4, B1', B0'⟩
  ihave I0 := (inAt_join (V1 m) d main_v0 fullShare 2) $$ [D0 T0]
  · isplitl [D0]; · iexact D0
    iexact T0
  ihave I1 := (inAt_join (V1 m) d main_v2 fullShare 2) $$ [D1 T1]
  · isplitl [D1]; · iexact D1
    iexact T1
  ihave I2 := (inAt_join (V1 m) d main_v1 fullShare 2) $$ [D2 T2]
  · isplitl [D2]; · iexact D2
    iexact T2
  ihave I3 := (inAt_join (V1 m) d main_v5 fullShare 2) $$ [D3 T3]
  · isplitl [D3]; · iexact D3
    iexact T3
  ihave I4 := (inAt_join (V1 m) d main_v6 fullShare 2) $$ [D4 T4]
  · isplitl [D4]; · iexact D4
    iexact T4
  ihave B0 := (Entails.of_eq (nestS (F := F) d).symm) $$ B0'
  ihave B1 := (Entails.of_eq (nestP (F := F) d).symm) $$ B1'
  ihave O0 := wand_app $$ [J0 B0]
  · isplitl [J0]; · iexact J0
    iexact B0
  ihave O1 := wand_app $$ [J1 B1]
  · isplitl [J1]; · iexact J1
    iexact B1
  icases O0 with ⟨%g0, O0⟩
  icases O1 with ⟨%g1, O1⟩
  ihave Hheld := (reheld d (after opsPre (launchContents m d)) g0 g1) $$ [I0 I1 I2 I3 I4 O0 O1 Hrest]
  · isplitl [I0]; · iexact I0
    isplitl [I1]; · iexact I1
    isplitl [I2]; · iexact I2
    isplitl [I3]; · iexact I3
    isplitl [I4]; · iexact I4
    isplitl [O0]; · iexact O0
    isplitl [O1]; · iexact O1
    iexact Hrest
  rw [show seq (opsPost (F := F)) = (seq opsPost >>= fun u => Pure.pure u) from (bind_pure _).symm]
  iapply (wp_seq 𝒱 none Set.univ d (tcRefs τ sig) _ opsPost (List.forall_iff_forall_mem.1 opsPost_sub) hfreshPost
      (updOut (after opsPre (launchContents m d)) g0 g1)) $$ [Hb Hheld]
  · isplitl [Hb]; · iexact Hb
    iexact Hheld
  iintro ⟨Hb, Hheld⟩
  ihave Hs := (Entails.of_eq (held_sub_split (d.tc : Thread nD τ) hT6 (after opsPost (updOut (after opsPre (launchContents m d)) g0 g1)))) $$ Hheld
  icases Hs with ⟨H6, -⟩
  ihave H6' := (Entails.of_eq (held_T6 d (after opsPost (updOut (after opsPre (launchContents m d)) g0 g1)))) $$ H6
  rw [wp_pure]; imodintro
  isplitl [Hst]; · iexact Hst
  unfold FIN
  rw [← fin_arg0 m d g0 g1, ← fin_arg1 m d g0 g1, ← fin_arg2 m d g0 g1, ← fin_arg3 m d g0 g1, ← fin_arg4 m d g0 g1, ← fin_arg5 m d g0 g1]
  iexact H6'

end Main2

section Run
variable (m : (ℓ : Loc nD τ sig) → Buf (Elt F) ℓ) (ρ : Dev nD → PrngReg)

/-- The six arguments in a final state are the launch's. -/
def fq (d : Dev nD) (s' : Phys nD τ sig (Elt F)) : Prop :=
  s'.mem.mem ((d, Proc.devRef .tc main_arg0) : Loc nD τ sig) = m ((d, Proc.devRef .tc main_arg0) : Loc nD τ sig) ∧ s'.mem.mem ((d, Proc.devRef .tc main_arg1) : Loc nD τ sig) = m ((d, Proc.devRef .tc main_arg1) : Loc nD τ sig) ∧ s'.mem.mem ((d, Proc.devRef .tc main_arg2) : Loc nD τ sig) = m ((d, Proc.devRef .tc main_arg2) : Loc nD τ sig) ∧ s'.mem.mem ((d, Proc.devRef .tc main_arg3) : Loc nD τ sig) = m ((d, Proc.devRef .tc main_arg3) : Loc nD τ sig) ∧ s'.mem.mem ((d, Proc.devRef .tc main_arg4) : Loc nD τ sig) = m ((d, Proc.devRef .tc main_arg4) : Loc nD τ sig) ∧ s'.mem.mem ((d, Proc.devRef .tc main_arg5) : Loc nD τ sig) = m ((d, Proc.devRef .tc main_arg5) : Loc nD τ sig)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (persistent_entails_right (SI_pointsTo_agree (st := s') (ℓ := ((d, Proc.devRef .tc main_arg0) : Loc nD τ sig)) (I := Finset.univ) (q := fullShare) (f := m ((d, Proc.devRef .tc main_arg0) : Loc nD τ sig)))) $$ [HSI H0]
  · isplitl [HSI] <;> iassumption
  icases H with ⟨%h0, HSI, -⟩
  ihave H := (persistent_entails_right (SI_pointsTo_agree (st := s') (ℓ := ((d, Proc.devRef .tc main_arg1) : Loc nD τ sig)) (I := Finset.univ) (q := fullShare) (f := m ((d, Proc.devRef .tc main_arg1) : Loc nD τ sig)))) $$ [HSI H1]
  · isplitl [HSI] <;> iassumption
  icases H with ⟨%h1, HSI, -⟩
  ihave H := (persistent_entails_right (SI_pointsTo_agree (st := s') (ℓ := ((d, Proc.devRef .tc main_arg2) : Loc nD τ sig)) (I := Finset.univ) (q := fullShare) (f := m ((d, Proc.devRef .tc main_arg2) : Loc nD τ sig)))) $$ [HSI H2]
  · isplitl [HSI] <;> iassumption
  icases H with ⟨%h2, HSI, -⟩
  ihave H := (persistent_entails_right (SI_pointsTo_agree (st := s') (ℓ := ((d, Proc.devRef .tc main_arg3) : Loc nD τ sig)) (I := Finset.univ) (q := fullShare) (f := m ((d, Proc.devRef .tc main_arg3) : Loc nD τ sig)))) $$ [HSI H3]
  · isplitl [HSI] <;> iassumption
  icases H with ⟨%h3, HSI, -⟩
  ihave H := (persistent_entails_right (SI_pointsTo_agree (st := s') (ℓ := ((d, Proc.devRef .tc main_arg4) : Loc nD τ sig)) (I := Finset.univ) (q := fullShare) (f := m ((d, Proc.devRef .tc main_arg4) : Loc nD τ sig)))) $$ [HSI H4]
  · isplitl [HSI] <;> iassumption
  icases H with ⟨%h4, HSI, -⟩
  ihave H := (SI_pointsTo_agree (st := s') (ℓ := ((d, Proc.devRef .tc main_arg5) : Loc nD τ sig)) (I := Finset.univ) (q := fullShare) (f := m ((d, Proc.devRef .tc main_arg5) : Loc nD τ sig))) $$ [HSI H5]
  · isplitl [HSI] <;> iassumption
  icases H with %h5
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

/-- The claim's post: on every device the six arguments end as they began. -/
def QC : PUnit × MemSt nD τ sig (Elt F) → Prop := fun r => ∀ c : Dev nD,
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)

/-- From any launch memory whose two index arrays (as `main`'s first stretch re-lays them) hold only words below 100000:
    every weakly fair execution of all the device's threads terminates, nothing faulting, the arguments unchanged. -/
theorem run_main [∀ e, Nonempty (Elt F e)]
    (h2 : ∀ d x, (V1 m d (Proc.devRef .tc main_v2) x : BitVec 32).toNat < 100000)
    (h5 : ∀ d x, (V1 m d (Proc.devRef .tc main_v5) x : BitVec 32).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (V1 m)) facts v₀
    (fun q hq => match q with | 0 => nomatch hq)
    (fun q _ => match q with | 0 => tileObl (V1 m) facts h2 h5)
    (fun q _ => match q with | 0 => SparseCore.Cfg.VecSplit.of_plain (vecSplit (V1 m)))
    m ρ main (fun _ => iprop(emp)) (FIN m) (u₀ (F := F)) (sep_elim_left.trans (hu₀ m)) (hmain m ρ) (fq m) (hfin m) (QC m) (fun _ h => h)

/-- The re-laid index arrays hold what the arguments hold: if every word of `sparse_idx` and `seq_idx` is below 100000, so is
    every word of their transposes and reshapes. -/
theorem relaid (d : Dev nD)
    (h0 : ∀ y, (m ((d, Proc.devRef .tc main_arg0) : Loc nD τ sig) y : BitVec 32).toNat < 100000) (h1 : ∀ y, (m ((d, Proc.devRef .tc main_arg1) : Loc nD τ sig) y : BitVec 32).toNat < 100000) :
    (∀ x, (V1 m d (Proc.devRef .tc main_v2) x : BitVec 32).toNat < 100000)
      ∧ (∀ x, (V1 m d (Proc.devRef .tc main_v5) x : BitVec 32).toNat < 100000) := by
  constructor
  · intro x
    have e : V1 m d (Proc.devRef .tc main_v2) = transpose S26x4096 [1, 0] (m ((d, Proc.devRef .tc main_arg0) : Loc nD τ sig)) transposes_S4096x26_S26x4096_1_0 := by
      unfold V1; after_results
    rw [e]; exact h0 _
  · intro x
    have e : V1 m d (Proc.devRef .tc main_v5)
        = transpose S32x50x128 [1, 0, 2] (shapeCast S50x32x128 (transpose S50x4096 [1, 0] (m ((d, Proc.devRef .tc main_arg1) : Loc nD τ sig)) transposes_S4096x50_S50x4096_1_0)
            shapeCasts_S50x4096_S50x32x128) transposes_S50x32x128_S32x50x128_1_0_2 := by
      unfold V1; after_results; rfl
    rw [e]; exact h1 _

end Run

end Launch
end Cert.Proof.TileI
end
-- ==== Proof.FrameIdeal.lean ====
/-
  The idealized kernel's frame: under the precondition every weakly fair execution of all the device's threads
  terminates, nothing faulting, and the six arguments end unchanged. The precondition's ranges for the two index arrays
  are what every indexed load of a tile asks.
-/
import proofs.«209320_g71347996721220_cont_9to1c4b_157_42_alg».proof.Defs
import proofs.«209320_g71347996721220_cont_9to1c4b_157_42_alg».proof.Proof.PreRanges
import proofs.«209320_g71347996721220_cont_9to1c4b_157_42_alg».proof.Proof.LaunchIdeal4

noncomputable section

namespace Cert.Proof.FrameI

open Idealize.ShloMosaic Idealize.SL.Sem Cert.KernelIdeal Cert.KernelIdeal.Gen Cert.Pre_input_domain.Gen Cert.Proof.TileI

theorem frame : Cert.frame_KernelIdeal := fun m ρ hpre => by
  have hr := fun d => Cert.Proof.PreRanges.ranges (F := Ideal) _ _ _ _ _ _ (hpre d)
  exact (θ_run Cert.KernelIdeal.defs _ _).mono (fun _ h c => h c)
    (run_main (F := Ideal) m ρ (fun d => (relaid m d (hr d).1 (hr d).2).1) (fun d => (relaid m d (hr d).1 (hr d).2).2))

end Cert.Proof.FrameI

end
-- ==== Proof.TileBits.lean ====
/-
  One vector subcore's task of the kernel at the word level, at a symbolic tile: the pieces proved so far.

  The tile copies one column of a table into its row scratch and a list of row numbers into its index scratch, and then
  gathers: sixteen row numbers at a time name sixteen entries of the column. Every row number is below the table's
  100000 rows (the precondition's range, carried to the index scratch by the copy), which is what each indexed load
  asks. An indexed load reads the row scratch and changes nothing.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0

abbrev Bf {sp : Space} {S : Shape} {e : EltTy} (M : Memref sig .scVector sp S e) : Type := Buf (Elt F) (M.view.loc (V d (cV L) (jV L)))

/-- An indexed load from the row scratch, held whole: the library's rule at the spelling the run holds the scratch in
    (the whole-rectangle access of a whole memref is the memref's own view). -/
theorem wp_gather {t : Shape} {α : Type} {idxs : Fin S100000.rank → IVec t 32} {h : ∀ a x, (idxs a x).toNat < S100000.size a}
    {hl : (rowW).view.Loads} {k : Vec F t .f32 → Prog (TpuEff nD τ sig (Elt F) Λ₀ (V d (cV L) (jV L)).2) α}
    {Q : α → sProp 𝕄} (f : Bf (F := F) d L rowW) :
    ((rowW).view.loc (V d (cV L) (jV L)) ↦{fullShare} f)
      ⊢ iprop((((rowW).view.loc (V d (cV L) (jV L)) ↦{fullShare} f)
          -∗ wp frame (wpE (defs₀ (F := F)) 𝒱₀ (V d (cV L) (jV L)) none) Set.univ (k (loadIdx (((rowW).access (.whole S100000)).read (Elt F) f) idxs h)) Q)
        -∗ wp frame (wpE (defs₀ (F := F)) 𝒱₀ (V d (cV L) (jV L)) none) Set.univ (SparseCore.vectorLoadIdx rowW idxs h hl >>= k) Q) :=
  SparseCore.wp_vectorLoadIdx 𝒱₀ (V d (cV L) (jV L)) none Set.univ (base := rowW) (S := Finset.univ) (q := fullShare) (Finset.subset_univ _)

set_option maxHeartbeats 8000000 in
/-- One trip of the inner loop of the sparse part: sixteen vectors of sixteen indices are read from the index scratch, each
    names sixteen entries of the row scratch (in range, since every word of the index scratch is below 100000), and the
    sixteen entries are stored into the result scratch. The row and the indices are left as they were. -/
theorem t7_region (k0_t7 : Fin k0_t7_loop.trips)
    (g0 : Bf (F := F) d L rowW) (s1 : Bf (F := F) d L sidW) (hs1 : ∀ x, (s1 x).toNat < 100000) (Q : Unit → sProp 𝕄) :
    iprop(((rowW).view.loc (V d (cV L) (jV L)) ↦{fullShare} g0) ∗ ((sidW).view.loc (V d (cV L) (jV L)) ↦{fullShare} s1)
        ∗ (∃ g5, (resW).view.loc (V d (cV L) (jV L)) ↦{fullShare} g5)
        ∗ ((((rowW).view.loc (V d (cV L) (jV L)) ↦{fullShare} g0) ∗ ((sidW).view.loc (V d (cV L) (jV L)) ↦{fullShare} s1)
            ∗ (∃ g5, (resW).view.loc (V d (cV L) (jV L)) ↦{fullShare} g5)) -∗ Q ()))
      ⊢ wp frame (wpE (defs₀ (F := F)) 𝒱₀ (V d (cV L) (jV L)) none) Set.univ
          (k0_t7_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k0_t7 ()) Q := by
  unfold k0_t7_body
  iintro ⟨Hrow, Hsid, ⟨%g5, Hres⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hsid]; · iexact Hsid
  iexists _; iexact Hres

end Tile
end Cert.Proof.TileB
end
-- ==== Proof.TileBitsQ.lean ====
/-
  The four inner loops of the pooled part of a vector subcore's task (kernel at the word level): one trip of each, at a symbolic
  tile. Two read the first index block, two the second; otherwise they are one computation.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t2_region (c0 c1 : BitVec 32) (k1 : Fin k0_t1_loop.trips) (v24 : BitVec 32) (k : Fin k0_t2_loop.trips)
    (g0 : Bf (F := F) d L rowW) (s : Bf (F := F) d L qb0W) (hs1 : ∀ x, (s x).toNat < 100000)
    (ln : Bf (F := F) d L lnvW) (Q : Unit → sProp 𝕄) :
    iprop(((rowW).view.loc (V d (cV L) (jV L)) ↦{fullShare} g0) ∗ ((qb0W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb0W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t2_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 c1 k1 v24 k ()) Q := by
  unfold k0_t2_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t3_region (k1 : Fin k0_t1_loop.trips) (v36 c0 : BitVec 32) (k : Fin k0_t3_loop.trips)
    (g0 : Bf (F := F) d L rowW) (s : Bf (F := F) d L qb1W) (hs1 : ∀ x, (s x).toNat < 100000)
    (ln : Bf (F := F) d L lnvW) (Q : Unit → sProp 𝕄) :
    iprop(((rowW).view.loc (V d (cV L) (jV L)) ↦{fullShare} g0) ∗ ((qb1W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb1W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t3_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 v36 c0 k ()) Q := by
  unfold k0_t3_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t4_region (c0 : BitVec 32) (k : Fin k0_t4_loop.trips)
    (g0 : Bf (F := F) d L rowW) (s : Bf (F := F) d L qb0W) (hs1 : ∀ x, (s x).toNat < 100000)
    (ln : Bf (F := F) d L lnvW) (Q : Unit → sProp 𝕄) :
    iprop(((rowW).view.loc (V d (cV L) (jV L)) ↦{fullShare} g0) ∗ ((qb0W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb0W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t4_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 k ()) Q := by
  unfold k0_t4_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

set_option maxHeartbeats 16000000 in
/-- One trip of an inner loop of the pooled part: for sixteen batch rows, fifty times a vector of sixteen row numbers is read
    from the index block (each below 100000, so in range of the row scratch), the sixteen entries it names are read, weighted
    and added; the sixteen means are stored into the pooled-result scratch. The row, the index block and the lengths are
    left as they were. -/
theorem t5_region  (k : Fin k0_t5_loop.trips)
    (g0 : Bf (F := F) d L rowW) (s : Bf (F := F) d L qb1W) (hs1 : ∀ x, (s x).toNat < 100000)
    (ln : Bf (F := F) d L lnvW) (Q : Unit → sProp 𝕄) :
    iprop(((rowW).view.loc (V d (cV L) (jV L)) ↦{fullShare} g0) ∗ ((qb1W).view.loc (V d (cV L) (jV L)) ↦{fullShare} s)
        ∗ ((lnvW).view.loc (V d (cV L) (jV L)) ↦{fullShare} ln) ∗ (∃ p, (preW).view.loc (V d (cV L) (jV L)) ↦{fullShare} p)
        ∗ ((((rowW).view.loc (V d (cV L) (jV L)) ↦{fullShare} g0) ∗ ((qb1W).view.loc (V d (cV L) (jV L)) ↦{fullShare} s)
            ∗ ((lnvW).view.loc (V d (cV L) (jV L)) ↦{fullShare} ln) ∗ (∃ p, (preW).view.loc (V d (cV L) (jV L)) ↦{fullShare} p)) -∗ Q ()))
      ⊢ wp frame (wpE (defs₀ (F := F)) 𝒱₀ (V d (cV L) (jV L)) none) Set.univ
          (k0_t5_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5  k ()) Q := by
  unfold k0_t5_body
  iintro ⟨Hrow, Hqb, Hlnv, ⟨%p, Hpre⟩, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _; iexact Hpre

end Tile
end Cert.Proof.TileB
end
-- ==== Proof.TileBits6.lean ====
/-
  One field's trip of the sparse part of a vector subcore's task (kernel at the word level), at a symbolic tile and field.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

/-- The tile's block of the sparse output at field `t`: 32 rows of 128, as the body slices it. -/
abbrev souBlk (L : grid0.Coords) (t : Fin k0_t6_loop.trips) : Memref sig .scVector .hbm S32x128 .f32 :=
  (souW).slice (Rect.unit (s := S26624x128) (k0_off247 L t) S32x128.size (k0_off247_inb L t)) (fun _ => rfl)

/-- What one field's trip holds and gives back: read shares of the tables and of the index lists (every index below
    100000), the three scratches at anything, the tile's block of the output for that field at anything, the three
    semaphores of the trip's copies at zero, and what the thread owes. -/
def res6 (q : PosShare TreeShare) (O : CellTallies nD τ sig (HIx 1)) (W : Waits sig (HIx 1))
    (f0 : Bf (F := F) d L tabW) (f1 : Bf (F := F) d L sixW) (t : Fin k0_t6_loop.trips) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1)
    ∗ (∃ g5, (resW).view.loc (V d (cV L) (jV L)) ↦{fullShare} g5)
    ∗ (∃ fs, (souBlk L t).view.loc (V d (cV L) (jV L)) ↦[(souBlk L t).view.set]{fullShare} fs)
    ∗ semVal (V d (cV L) (jV L), SemLoc.dma cc0_scoped3.sem) 0 ∗ semVal (V d (cV L) (jV L), SemLoc.dma cc0_scoped4.sem) 0
    ∗ semVal (V d (cV L) (jV L), SemLoc.dma cc0_scoped5.sem) 0
    ∗ ∃ W', ⌜∀ p ∈ W', p ∈ W ∨ p.2 = none⌝ ∗ owes (V d (cV L) (jV L)) O W')

/-- Between trips of the inner loop: the row scratch and the index scratch at some contents, every index below 100000,
    and the result scratch at anything. -/
def inv7 (_ : Nat) (_ : Unit) : sProp 𝕄 :=
  iprop(∃ (g0 : Bf (F := F) d L rowW) (s1 : Bf (F := F) d L sidW),
    ((rowW).view.loc (V d (cV L) (jV L)) ↦{fullShare} g0) ∗ ((sidW).view.loc (V d (cV L) (jV L)) ↦{fullShare} s1)
    ∗ (∃ g5, (resW).view.loc (V d (cV L) (jV L)) ↦{fullShare} g5) ∗ ⌜∀ x, (s1 x).toNat < 100000⌝)

set_option maxHeartbeats 8000000 in
/-- One field of the sparse part: column `d` of the field's table and the field's row numbers are copied in (the row numbers
    are below 100000 because the list they are copied from is), the inner loop gathers the 4096 entries into the result
    scratch, and the result is copied out to the tile's block of the output for that field. -/
theorem t6_region (q : PosShare TreeShare) (O : CellTallies nD τ sig (HIx 1)) (W : Waits sig (HIx 1))
    (f0 : Bf (F := F) d L tabW) (f1 : Bf (F := F) d L sixW) (hf1 : ∀ x, (f1 x).toNat < 100000)
    (k0_t6 : Fin k0_t6_loop.trips) (Q : Unit → sProp 𝕄) :
    iprop(res6 d L q O W f0 f1 k0_t6 ∗ (res6 d L q O W f0 f1 k0_t6 -∗ Q ()))
      ⊢ wp frame (wpE (defs₀ (F := F)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k0_t6 ()) Q := by
  unfold k0_t6_body res6
  iintro ⟨⟨Hmw, Htab, Hsix, ⟨%g0, Hrow⟩, ⟨%g1, Hsid⟩, ⟨%g5, Hres⟩, ⟨%fs, Hsou⟩, Hc3, Hc4, Hc5, ⟨%W', %hW', HO⟩⟩, Hk⟩
  sl_exec
  sl_for (inv7 (F := F) d L) $$ [Hrow Hsid Hres]
  case region =>
    intro k acc
    unfold inv7
    iintro ⟨%g0', %s1', Hrow, Hsid, Hres, %hs1'⟩
    iapply (t7_region d L k g0' s1' hs1' _)
    isplitl [Hrow]; · iexact Hrow
    isplitl [Hsid]; · iexact Hsid
    isplitl [Hres]; · iexact Hres
    iintro ⟨Hrow, Hsid, Hres⟩
    iexists g0', s1'
    isplitl [Hrow]; · iexact Hrow
    isplitl [Hsid]; · iexact Hsid
    isplitl [Hres]; · iexact Hres
    ipureintro; exact hs1'
  · unfold inv7
    iexists _, _
    isplitl [Hrow]; · iexact Hrow
    isplitl [Hsid]; · iexact Hsid
    isplitl [Hres]; · iexists _; iexact Hres
    ipureintro
    intro x
    rw [View.write_whole_univ]
    exact hf1 _
  iintro %_ HI
  unfold inv7
  icases HI with ⟨%g0', %s1', Hrow, Hsid, ⟨%g5', Hres⟩, %hs1'⟩
  sl_exec
  sl_step
  iapply Hk
  isplitl [Hmw]; · iexact Hmw
  isplitl [Htab]; · iexact Htab
  isplitl [Hsix]; · iexact Hsix
  isplitl [Hrow]; · iexists _; iexact Hrow
  isplitl [Hsid]; · iexists _; iexact Hsid
  isplitl [Hres]; · iexists _; iexact Hres
  isplitl [Hsou]; · iexists _; iexact Hsou
  isplitl [Hc3]; · iexact Hc3
  isplitl [Hc4]; · iexact Hc4
  isplitl [Hc5]; · iexact Hc5
  iexists (insert (SemLoc.dma cc0_scoped5.sem, (default : HIx 1)) (insert (SemLoc.dma cc0_scoped4.sem, (default : HIx 1))
    (insert (SemLoc.dma cc0_scoped3.sem, (default : HIx 1)) W')))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

end Tile
end Cert.Proof.TileB
end
-- ==== Proof.TileBits1.lean ====
/-
  One trip of the outer loop of the pooled part of a vector subcore's task (kernel at the word level), at a symbolic tile: the
  double-buffered copies of the index blocks, with one copy in flight from trip to trip.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

/-- Between trips of an inner loop of the pooled part reading the first index scratch: the row and the lengths at fixed
    contents, the pooled-result scratch at anything, the index scratch at some block every word of which is below 100000. -/
def invQ0 (g0 : Bf (F := F) d L rowW) (ln : Bf (F := F) d L lnvW) (_ : Nat) (_ : Unit) : sProp 𝕄 :=
  iprop(((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ ∃ s, ((qb0W).view.loc (V d (cV L) (jV L)) ↦{fullShare} s) ∗ ⌜∀ x, (s x).toNat < 100000⌝)

/-- Between trips of an inner loop of the pooled part reading the second index scratch: the row and the lengths at fixed
    contents, the pooled-result scratch at anything, the index scratch at some block every word of which is below 100000. -/
def invQ1 (g0 : Bf (F := F) d L rowW) (ln : Bf (F := F) d L lnvW) (_ : Nat) (_ : Unit) : sProp 𝕄 :=
  iprop(((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ ∃ s, ((qb1W).view.loc (V d (cV L) (jV L)) ↦{fullShare} s) ∗ ⌜∀ x, (s x).toNat < 100000⌝)

/-- Between trips of the outer loop of the pooled part. A copy of an index block into the first index scratch is in flight:
    when it lands the scratch holds a block every word of which is below 100000, and the part of the index array lent to it
    comes back. The rest of the index array, the second index scratch, the row and the lengths (at fixed contents), the
    pooled-result scratch, the second block semaphore at zero, and what the thread owes. -/
def res1 (q : PosShare TreeShare) (O : CellTallies nD τ sig (HIx 1)) (W : Waits sig (HIx 1))
    (f3 : Bf (F := F) d L qixW) (g0 : Bf (F := F) d L rowW) (ln : Bf (F := F) d L lnvW) : sProp 𝕄 :=
  iprop(Transfers.MayWaits (V d (cV L) (jV L)) (none : HIx 1) O
    ∗ (∃ (S : Finset (Idx ((qixW).view.loc (V d (cV L) (jV L))))) (g2 w : Bf (F := F) d L qb0W),
        Transfers.Flight countersEmb (V d (cV L) (jV L)) (SemLoc.dma cc0_scratch7.sem) (default : HIx 1) 204800
            iprop(((qb0W).view.loc (V d (cV L) (jV L)) ↦{fullShare} View.write (Elt F) (qb0W).view g2 w Finset.univ)
              ∗ ((qixW).view.loc (V d (cV L) (jV L)) ↦[S]{q} f3))
        ∗ ((qixW).view.loc (V d (cV L) (jV L)) ↦[Finset.univ \ S]{q} f3) ∗ ⌜∀ x, (w x).toNat < 100000⌝)
    ∗ (∃ g3, (qb1W).view.loc (V d (cV L) (jV L)) ↦{fullShare} g3)
    ∗ ((rowW).view.loc (V d (cV L) (jV L)) ↦{fullShare} g0) ∗ ((lnvW).view.loc (V d (cV L) (jV L)) ↦{fullShare} ln)
    ∗ (∃ p, (preW).view.loc (V d (cV L) (jV L)) ↦{fullShare} p)
    ∗ semVal (V d (cV L) (jV L), SemLoc.dma cc0_scratch8.sem) 0
    ∗ ∃ W', ⌜∀ p ∈ W', p ∈ W ∨ p.2 = none⌝ ∗ owes (V d (cV L) (jV L)) O W')

set_option maxHeartbeats 16000000 in
/-- One trip of the outer loop of the pooled part, two blocks of 128 batch rows: the block in flight lands in the first index
    scratch, the next block's copy into the second is started, the first is pooled; the second lands, the copy of the block
    after it into the first is started, the second is pooled. A block is read only after its copy has been waited for, and
    a scratch is copied into only after its pooling has ended. -/
theorem t1_region (q : PosShare TreeShare) (O : CellTallies nD τ sig (HIx 1)) (W : Waits sig (HIx 1))
    (f3 : Bf (F := F) d L qixW) (hf3 : ∀ x, (f3 x).toNat < 100000) (g0 : Bf (F := F) d L rowW) (ln : Bf (F := F) d L lnvW)
    (k1 : Fin k0_t1_loop.trips) (Q : Unit → sProp 𝕄) :
    iprop(res1 d L q O W f3 g0 ln ∗ (res1 d L q O W f3 g0 ln -∗ Q ()))
      ⊢ wp frame (wpE (defs₀ (F := F)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 ()) Q := by
  unfold k0_t1_body res1
  iintro ⟨⟨Hmw, ⟨%S, %g2, %w, Hs7, Hqix, %hw⟩, ⟨%g3, Hqb1⟩, Hrow, Hlnv, ⟨%p, Hpre⟩, Hs8, ⟨%W', %hW', HO⟩⟩, Hk⟩
  sl_exec
  sl_for (invQ0 (F := F) d L g0 ln) $$ [Hrow Hlnv Hpre Hs7_dst]
  case region =>
    intro k acc
    unfold invQ0
    iintro ⟨Hrow, Hlnv, Hpre, ⟨%s, Hqb, %hs⟩⟩
    iapply (t2_region d L _ _ k1 _ k g0 s hs ln _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ0
    isplitl [Hrow]; · iexact Hrow
    isplitl [Hlnv]; · iexact Hlnv
    isplitl [Hpre]; · iexists _; iexact Hpre
    iexists _; isplitl [Hs7_dst]; · iexact Hs7_dst
    ipureintro; intro x; rw [View.write_whole_univ]; exact hw x
  iintro %_ HI
  unfold invQ0
  icases HI with ⟨Hrow, Hlnv, ⟨%p2, Hpre⟩, ⟨%s0, Hqb0, %hs0⟩⟩
  sl_exec
  sl_for (invQ1 (F := F) d L g0 ln) $$ [Hrow Hlnv Hpre Hqb1]
  case region =>
    intro k acc
    unfold invQ1
    iintro ⟨Hrow, Hlnv, Hpre, ⟨%s, Hqb, %hs⟩⟩
    iapply (t3_region d L k1 _ _ k g0 s hs ln _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ1
    isplitl [Hrow]; · iexact Hrow
    isplitl [Hlnv]; · iexact Hlnv
    isplitl [Hpre]; · iexists _; iexact Hpre
    iexists _; isplitl [Hqb1]; · iexact Hqb1
    ipureintro; intro x; rw [View.write_whole_univ]; exact hf3 _
  iintro %_ HI
  unfold invQ1
  icases HI with ⟨Hrow, Hlnv, ⟨%p3, Hpre⟩, ⟨%s1, Hqb1, %hs1⟩⟩
  sl_exec
  sl_step
  iapply Hk
  isplitl [Hmw]; · iexact Hmw
  isplitl [Hs7 Hqix]
  · iexists _, _, _
    isplitl [Hs7]; · iexact Hs7
    isplitl [Hqix]; · iexact Hqix
    ipureintro; intro x; exact hf3 _
  isplitl [Hqb1]; · iexists _; iexact Hqb1
  isplitl [Hrow]; · iexact Hrow
  isplitl [Hlnv]; · iexact Hlnv
  isplitl [Hpre]; · iexists _; iexact Hpre
  isplitl [Hs8]; · iexact Hs8
  iexists (insert (SemLoc.dma cc0_scratch8.sem, (default : HIx 1)) (insert (SemLoc.dma cc0_scratch7.sem, (default : HIx 1)) W'))
  isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Tile
end Cert.Proof.TileB
end
-- ==== Proof.TileBitsTop.lean ====
/-
  A vector subcore's whole task (kernel at the word level), at a symbolic tile: the loops' trips put together.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ
import proofs.«209320_g71347996721220_cont_9to1c4b_157_42_alg».proof.Proof.TileBits6
import proofs.«209320_g71347996721220_cont_9to1c4b_157_42_alg».proof.Proof.TileBits1

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

/-- The tile's block of the pooled output: 32 rows of 128, as the body slices it. -/
abbrev pouBlk (L : grid0.Coords) : Memref sig .scVector .hbm S32x128 .f32 :=
  (pouW).slice (Rect.unit (s := S1024x128) (k0_off212 L) S32x128.size (k0_off212_inb L)) (fun _ => rfl)

/-- The outer loop of the pooled part at contents the loop need not name. -/
def res1E (q : PosShare TreeShare) (O : CellTallies nD τ sig (HIx 1)) (W : Waits sig (HIx 1)) (f3 : Bf (F := F) d L qixW)
    (_ : Nat) (_ : Unit) : sProp 𝕄 :=
  iprop(∃ g0 ln, res1 d L q O W f3 g0 ln)

theorem t1_regionE (q : PosShare TreeShare) (O : CellTallies nD τ sig (HIx 1)) (W : Waits sig (HIx 1))
    (f3 : Bf (F := F) d L qixW) (hf3 : ∀ x, (f3 x).toNat < 100000) (k1 : Fin k0_t1_loop.trips) (acc : Unit) :
    res1E d L q O W f3 k1.val acc
      ⊢ wp frame (wpE (defs₀ (F := F)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 acc) (res1E d L q O W f3 (k1.val + 1)) := by
  unfold res1E
  iintro ⟨%g0, %ln, H⟩
  iapply (t1_region d L q O W f3 hf3 g0 ln k1 _)
  isplitl [H]; · iexact H
  iintro H
  iexists g0, ln; iexact H

/-- The sparse part between fields: what a field's trip needs, with all 26 of the tile's output blocks. -/
def inv6 (q : PosShare TreeShare) (O : CellTallies nD τ sig (HIx 1)) (W : Waits sig (HIx 1))
    (f0 : Bf (F := F) d L tabW) (f1 : Bf (F := F) d L sixW) (_ : Nat) (_ : Unit) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1) ∗ (∃ g5, (resW).view.loc (V d (cV L) (jV L)) ↦{fullShare} g5)
    ∗ (bigSep Finset.univ fun t : Fin k0_t6_loop.trips => iprop(∃ fs, (souBlk L t).view.loc (V d (cV L) (jV L)) ↦[(souBlk L t).view.set]{fullShare} fs))
    ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
    ∗ ∃ W', ⌜∀ p ∈ W', p ∈ W ∨ p.2 = none⌝ ∗ owes (V d (cV L) (jV L)) O W')

theorem t6_regionE (q : PosShare TreeShare) (O : CellTallies nD τ sig (HIx 1)) (W : Waits sig (HIx 1))
    (f0 : Bf (F := F) d L tabW) (f1 : Bf (F := F) d L sixW) (hf1 : ∀ x, (f1 x).toNat < 100000)
    (t : Fin k0_t6_loop.trips) (acc : Unit) :
    inv6 d L q O W f0 f1 t.val acc
      ⊢ wp frame (wpE (defs₀ (F := F)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 t acc) (inv6 d L q O W f0 f1 (t.val + 1)) := by
  unfold inv6
  rw [SparseCore.bigSep_erase' (Finset.mem_univ t)]
  iintro ⟨Hmw, Htab, Hsix, Hrow, Hsid, Hres, ⟨Hb, Hrest⟩, Hc3, Hc4, Hc5, HO⟩
  iapply (t6_region d L q O W f0 f1 hf1 t _)
  isplitl [Hmw Htab Hsix Hrow Hsid Hres Hb Hc3 Hc4 Hc5 HO]
  · unfold res6
    isplitl [Hmw]; · iexact Hmw
    isplitl [Htab]; · iexact Htab
    isplitl [Hsix]; · iexact Hsix
    isplitl [Hrow]; · iexact Hrow
    isplitl [Hsid]; · iexact Hsid
    isplitl [Hres]; · iexact Hres
    isplitl [Hb]; · iexact Hb
    isplitl [Hc3]; · iexact Hc3
    isplitl [Hc4]; · iexact Hc4
    isplitl [Hc5]; · iexact Hc5
    iexact HO
  unfold res6
  iintro ⟨Hmw, Htab, Hsix, Hrow, Hsid, Hres, Hb, Hc3, Hc4, Hc5, HO⟩
  isplitl [Hmw]; · iexact Hmw
  isplitl [Htab]; · iexact Htab
  isplitl [Hsix]; · iexact Hsix
  isplitl [Hrow]; · iexact Hrow
  isplitl [Hsid]; · iexact Hsid
  isplitl [Hres]; · iexact Hres
  isplitl [Hb Hrest]
  · isplitl [Hb]; · iexact Hb
    iexact Hrest
  isplitl [Hc3]; · iexact Hc3
  isplitl [Hc4]; · iexact Hc4
  isplitl [Hc5]; · iexact Hc5
  iexact HO

/-- What a tile holds besides what it owes: a read share of each of the five inputs, its block of the pooled output and its
    26 blocks of the sparse output at anything, its seven scratches at anything, its eight copy semaphores at zero. -/
def tileRes (q : PosShare TreeShare) (f0 : Bf (F := F) d L tabW) (f1 : Bf (F := F) d L sixW) (f2 : Bf (F := F) d L seqW)
    (f3 : Bf (F := F) d L qixW) (f4 : Bf (F := F) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, (pouBlk L).view.loc (V d (cV L) (jV L)) ↦[(pouBlk L).view.set]{fullShare} fp)
    ∗ (bigSep Finset.univ fun t : Fin k0_t6_loop.trips => iprop(∃ fs, (souBlk L t).view.loc (V d (cV L) (jV L)) ↦[(souBlk L t).view.set]{fullShare} fs))
    ∗ (∃ g0, (rowW).view.loc (V d (cV L) (jV L)) ↦{fullShare} g0) ∗ (∃ g1, (sidW).view.loc (V d (cV L) (jV L)) ↦{fullShare} g1) ∗ (∃ g2, (qb0W).view.loc (V d (cV L) (jV L)) ↦{fullShare} g2) ∗ (∃ g3, (qb1W).view.loc (V d (cV L) (jV L)) ↦{fullShare} g3) ∗ (∃ g4, (lnvW).view.loc (V d (cV L) (jV L)) ↦{fullShare} g4) ∗ (∃ g5, (resW).view.loc (V d (cV L) (jV L)) ↦{fullShare} g5) ∗ (∃ g6, (preW).view.loc (V d (cV L) (jV L)) ↦{fullShare} g6)
    ∗ semVal (V d (cV L) (jV L), SemLoc.dma cc0_scratch7.sem) 0 ∗ semVal (V d (cV L) (jV L), SemLoc.dma cc0_scratch8.sem) 0 ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0)

set_option maxHeartbeats 16000000 in
/-- A vector subcore's whole task: from what the tile holds and owes, every step of the body can be taken, and at the
    return the tile holds the same (its outputs' blocks and scratches at whatever it left there) and owes the same. -/
theorem tile_body (q : PosShare TreeShare) (O : CellTallies nD τ sig (HIx 1)) (W : Waits sig (HIx 1))
    (f0 : Bf (F := F) d L tabW) (f1 : Bf (F := F) d L sixW) (f2 : Bf (F := F) d L seqW)
    (f3 : Bf (F := F) d L qixW) (f4 : Bf (F := F) d L lenW)
    (hf1 : ∀ x, (f1 x).toNat < 100000) (hf3 : ∀ x, (f3 x).toNat < 100000) :
    iprop(Transfers.MayWaits (V d (cV L) (jV L)) (none : HIx 1) O ∗ tileRes d L q f0 f1 f2 f3 f4 ∗ owes (V d (cV L) (jV L)) O W)
      ⊢ wp frame (wpE (defs₀ (F := F)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tileRes d L q f0 f1 f2 f3 f4 ∗ ∃ W', ⌜∀ p ∈ W', p ∈ W ∨ p.2 = none⌝ ∗ owes (V d (cV L) (jV L)) O W') := by
  rw [cc0_k_eq_skeleton]; unfold cc0_k_skel tileRes
  iintro ⟨Hmw, ⟨Htab, Hsix, Hseq, Hqix, Hlen, ⟨%fp, Hpou⟩, Hsou, ⟨%g0, Hrow⟩, ⟨%g1, Hsid⟩, ⟨%g2, Hqb0⟩, ⟨%g3, Hqb1⟩, ⟨%g4, Hlnv⟩, ⟨%g5, Hres⟩, ⟨%g6, Hpre⟩,
    Hs7, Hs8, Hc0, Hc1, Hc2, Hc3, Hc4, Hc5⟩, HO⟩
  sl_exec
  sl_for (res1E (F := F) d L q O W f3) $$ [Hmw Hs7 Hqix Hqb1 Hrow Hlnv Hpre Hs8 HO]
  case region => exact fun k acc => t1_regionE d L q O W f3 hf3 k acc
  · unfold res1E res1
    iexists _, _
    isplitl [Hmw]; · iexact Hmw
    isplitl [Hs7 Hqix]
    · iexists _, _, _
      isplitl [Hs7]; · iexact Hs7
      isplitl [Hqix]; · iexact Hqix
      ipureintro; intro x; exact hf3 _
    isplitl [Hqb1]; · iexists _; iexact Hqb1
    isplitl [Hrow]; · iexact Hrow
    isplitl [Hlnv]; · iexact Hlnv
    isplitl [Hpre]; · iexists _; iexact Hpre
    isplitl [Hs8]; · iexact Hs8
    iexists (insert (SemLoc.dma cc0_scoped1.sem, (default : HIx 1)) (insert (SemLoc.dma cc0_scoped0.sem, (default : HIx 1)) W))
    isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %_ HI
  unfold res1E res1
  icases HI with ⟨%r0, %l0, Hmw, ⟨%S, %g2', %w, Hs7, Hqix, %hw⟩, ⟨%g3', Hqb1⟩, Hrow, Hlnv, ⟨%p, Hpre⟩, Hs8, ⟨%W1, %hW1, HO⟩⟩
  sl_exec
  sl_for (invQ0 (F := F) d L r0 l0) $$ [Hrow Hlnv Hpre Hs7_dst]
  case region =>
    intro k acc
    unfold invQ0
    iintro ⟨Hrow, Hlnv, Hpre, ⟨%s, Hqb, %hs⟩⟩
    iapply (t4_region d L _ k r0 s hs l0 _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ0
    isplitl [Hrow]; · iexact Hrow
    isplitl [Hlnv]; · iexact Hlnv
    isplitl [Hpre]; · iexists _; iexact Hpre
    iexists _; isplitl [Hs7_dst]; · iexact Hs7_dst
    ipureintro; intro x; rw [View.write_whole_univ]; exact hw x
  iintro %_ HI
  unfold invQ0
  icases HI with ⟨Hrow, Hlnv, ⟨%p2, Hpre⟩, ⟨%s0, Hqb0, %hs0⟩⟩
  sl_exec
  sl_for (invQ1 (F := F) d L r0 l0) $$ [Hrow Hlnv Hpre Hqb1]
  case region =>
    intro k acc
    unfold invQ1
    iintro ⟨Hrow, Hlnv, Hpre, ⟨%s, Hqb, %hs⟩⟩
    iapply (t5_region d L k r0 s hs l0 _)
    isplitl [Hrow]; · iexact Hrow
    isplitl [Hqb]; · iexact Hqb
    isplitl [Hlnv]; · iexact Hlnv
    isplitl [Hpre]; · iexact Hpre
    iintro ⟨Hrow, Hqb, Hlnv, Hpre⟩
    isplitl [Hrow]; · iexact Hrow
    isplitl [Hlnv]; · iexact Hlnv
    isplitl [Hpre]; · iexact Hpre
    iexists s; isplitl [Hqb]; · iexact Hqb
    ipureintro; exact hs
  · unfold invQ1
    isplitl [Hrow]; · iexact Hrow
    isplitl [Hlnv]; · iexact Hlnv
    isplitl [Hpre]; · iexists _; iexact Hpre
    iexists _; isplitl [Hqb1]; · iexact Hqb1
    ipureintro; intro x; rw [View.write_whole_univ]; exact hf3 _
  iintro %_ HI
  unfold invQ1
  icases HI with ⟨Hrow, Hlnv, ⟨%p3, Hpre⟩, ⟨%s1, Hqb1, %hs1⟩⟩
  sl_exec
  sl_for (inv6 (F := F) d L q O W f0 f1) $$ [Hmw Htab Hsix Hrow Hsid Hres Hsou Hc3 Hc4 Hc5 HO]
  case region => exact fun t acc => t6_regionE d L q O W f0 f1 hf1 t acc
  · unfold inv6
    isplitl [Hmw]; · iexact Hmw
    isplitl [Htab]; · iexact Htab
    isplitl [Hsix]; · iexact Hsix
    isplitl [Hrow]; · iexists _; iexact Hrow
    isplitl [Hsid]; · iexists _; iexact Hsid
    isplitl [Hres]; · iexists _; iexact Hres
    isplitl [Hsou]; · iexact Hsou
    isplitl [Hc3]; · iexact Hc3
    isplitl [Hc4]; · iexact Hc4
    isplitl [Hc5]; · iexact Hc5
    iexists (insert (SemLoc.dma cc0_scoped2.sem, (default : HIx 1)) (insert (SemLoc.dma cc0_scratch8.sem, (default : HIx 1)) (insert (SemLoc.dma cc0_scratch7.sem, (default : HIx 1)) W1)))
    isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW1 p hp
    · iexact HO
  iintro %_ HI
  unfold inv6
  icases HI with ⟨Hmw, Htab, Hsix, ⟨%r1, Hrow⟩, ⟨%i1, Hsid⟩, ⟨%e1, Hres⟩, Hsou, Hc3, Hc4, Hc5, ⟨%W2, %hW2, HO⟩⟩
  sl_exec
  sl_step
  isplitr [HO]
  · isplitl [Htab]; · iexact Htab
    isplitl [Hsix]; · iexact Hsix
    isplitl [Hseq]; · iexact Hseq
    isplitl [Hqix]; · iexact Hqix
    isplitl [Hlen]; · iexact Hlen
    isplitl [Hpou]; · iexists _; iexact Hpou
    isplitl [Hsou]; · iexact Hsou
    isplitl [Hrow]; · iexists _; iexact Hrow
    isplitl [Hsid]; · iexists _; iexact Hsid
    isplitl [Hqb0]; · iexists _; iexact Hqb0
    isplitl [Hqb1]; · iexists _; iexact Hqb1
    isplitl [Hlnv]; · iexists _; iexact Hlnv
    isplitl [Hres]; · iexists _; iexact Hres
    isplitl [Hpre]; · iexists _; iexact Hpre
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    iexact Hc5
  iexists W2; isplitr
  · ipureintro; exact hW2
  · iexact HO

end Tile
end Cert.Proof.TileB
end
-- ==== Proof.LaunchBits1.lean ====
/-
  The launch of the kernel at the word level, first part: a vector subcore's own storage as the launch deals it, and its task in the
  shape the launch asks for.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ
import proofs.«209320_g71347996721220_cont_9to1c4b_157_42_alg».proof.Proof.TileBits6
import proofs.«209320_g71347996721220_cont_9to1c4b_157_42_alg».proof.Proof.TileBits1
import proofs.«209320_g71347996721220_cont_9to1c4b_157_42_alg».proof.Proof.TileBitsTop

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Tile
variable (d : Dev nD) (L : grid0.Coords)

omit [FloatOps F] in
/-- The subcore's own semaphores at zero are the eight the kernel copies on, at zero, and the rest. -/
theorem ownSems0_V :
    (ownSems0 (V d (cV L) (jV L)) : sProp 𝕄)
      = iprop(semVal (V d (cV L) (jV L), SemLoc.dma cc0_scratch7.sem) 0 ∗ semVal (V d (cV L) (jV L), SemLoc.dma cc0_scratch8.sem) 0 ∗ semVal (V d (cV L) (jV L), SemLoc.dma cc0_scoped0.sem) 0 ∗ semVal (V d (cV L) (jV L), SemLoc.dma cc0_scoped1.sem) 0 ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
          ∗ bigSep (((((((((ownCells (V d (cV L) (jV L))).erase (V d (cV L) (jV L), SemLoc.dma cc0_scratch7.sem)).erase (V d (cV L) (jV L), SemLoc.dma cc0_scratch8.sem)).erase (V d (cV L) (jV L), SemLoc.dma cc0_scoped0.sem)).erase (V d (cV L) (jV L), SemLoc.dma cc0_scoped1.sem)).erase (V d (cV L) (jV L), SemLoc.dma cc0_scoped2.sem)).erase (V d (cV L) (jV L), SemLoc.dma cc0_scoped3.sem)).erase (V d (cV L) (jV L), SemLoc.dma cc0_scoped4.sem)).erase (V d (cV L) (jV L), SemLoc.dma cc0_scoped5.sem)) fun g => semVal g 0) := by
  unfold SparseCore.Cfg.ownSems0
  rw [SparseCore.bigSep_erase' ((mem_ownCells (g := (V d (cV L) (jV L), SemLoc.dma cc0_scratch7.sem))).mpr ⟨rfl, by show (SemLoc.dma cc0_scratch7.sem : SemLoc sig).isScoped .scVector = true; decide⟩),
    SparseCore.bigSep_erase' (Finset.mem_erase.mpr ⟨fun e => absurd (Prod.mk.inj e).2 (by decide), (mem_ownCells (g := (V d (cV L) (jV L), SemLoc.dma cc0_scratch8.sem))).mpr ⟨rfl, by show (SemLoc.dma cc0_scratch8.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped0.sem))).mpr ⟨rfl, by show (SemLoc.dma cc0_scoped0.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped1.sem))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped2.sem))).mpr ⟨rfl, by show (SemLoc.dma cc0_scoped2.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped3.sem))).mpr ⟨rfl, by show (SemLoc.dma cc0_scoped3.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped4.sem))).mpr ⟨rfl, by show (SemLoc.dma cc0_scoped4.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped5.sem))).mpr ⟨rfl, by show (SemLoc.dma cc0_scoped5.sem : SemLoc sig).isScoped .scVector = true; decide⟩⟩⟩⟩⟩⟩⟩⟩)]

omit [FloatOps F] in
/-- The subcore's own buffers at some contents are the seven scratches, at some contents, and the rest. -/
theorem ownBufs_V :
    (ownBufs (V d (cV L) (jV L)) : sProp 𝕄)
      = iprop((∃ f, (rowW).view.loc (V d (cV L) (jV L)) ↦{fullShare} f) ∗ (∃ f, (sidW).view.loc (V d (cV L) (jV L)) ↦{fullShare} f) ∗ (∃ f, (qb0W).view.loc (V d (cV L) (jV L)) ↦{fullShare} f) ∗ (∃ f, (qb1W).view.loc (V d (cV L) (jV L)) ↦{fullShare} f) ∗ (∃ f, (lnvW).view.loc (V d (cV L) (jV L)) ↦{fullShare} f) ∗ (∃ f, (resW).view.loc (V d (cV L) (jV L)) ↦{fullShare} f) ∗ (∃ f, (preW).view.loc (V d (cV L) (jV L)) ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩)]

/-- What a tile is handed for its task and hands back: a read share of each of the five inputs, its block of the pooled output
    and its 26 blocks of the sparse output at anything. -/
def tilePay (q : PosShare TreeShare) (f0 : Bf (F := F) d L tabW) (f1 : Bf (F := F) d L sixW) (f2 : Bf (F := F) d L seqW)
    (f3 : Bf (F := F) d L qixW) (f4 : Bf (F := F) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, (pouBlk L).view.loc (V d (cV L) (jV L)) ↦[(pouBlk L).view.set]{fullShare} fp)
    ∗ (bigSep Finset.univ fun t : Fin k0_t6_loop.trips => iprop(∃ fs, (souBlk L t).view.loc (V d (cV L) (jV L)) ↦[(souBlk L t).view.set]{fullShare} fs)))

set_option maxHeartbeats 4000000 in
/-- The task in the shape the launch asks for: from the levels, the tile's payload, its scoped buffers and semaphores as the
    launch deals them and what it owes, to the payload, the scoped storage and what it owes. -/
theorem tile_task (hF : (K (F := F)).Facts) (q : PosShare TreeShare) (f0 : Bf (F := F) d L tabW) (f1 : Bf (F := F) d L sixW)
    (f2 : Bf (F := F) d L seqW) (f3 : Bf (F := F) d L qixW) (f4 : Bf (F := F) d L lenW)
    (hf1 : ∀ x, (f1 x).toNat < 100000) (hf3 : ∀ x, (f3 x).toNat < 100000)
    (O : CellTallies nD τ sig (HIx 1)) (W : Waits sig (HIx 1)) (hO : ∀ g, O g none = 0) :
    iprop(levAts (K (F := F)).L (K (F := F)).lev ∗ emp ∗ tilePay d L q f0 f1 f2 f3 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tilePay d L q f0 f1 f2 f3 f4 ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePay
  iintro ⟨#Hlv, -, ⟨Htab, Hsix, Hseq, Hqix, Hlen, Hpou, Hsou⟩, ⟨Hrow, Hsid, Hqb0, Hqb1, Hlnv, Hres, Hpre, Hbufs⟩,
    ⟨Hs7, Hs8, Hc0, Hc1, Hc2, Hc3, Hc4, Hc5, Hsems⟩, HO⟩
  ihave Hmw := ((K (F := F)).mayWaits_none (thr := V d (cV L) (jV L)) hO) $$ Hlv
  ihave H := (tile_body d L q O W f0 f1 f2 f3 f4 hf1 hf3) $$ [Hmw Htab Hsix Hseq Hqix Hlen Hpou Hsou Hrow Hsid Hqb0 Hqb1 Hlnv Hres Hpre Hs7 Hs8 Hc0 Hc1 Hc2 Hc3 Hc4 Hc5 HO]
  · unfold tileRes
    isplitl [Hmw]; · iexact Hmw
    isplitr [HO]
    · isplitl [Htab]; · iexact Htab
      isplitl [Hsix]; · iexact Hsix
      isplitl [Hseq]; · iexact Hseq
      isplitl [Hqix]; · iexact Hqix
      isplitl [Hlen]; · iexact Hlen
      isplitl [Hpou]; · iexact Hpou
      isplitl [Hsou]; · iexact Hsou
      isplitl [Hrow]; · iexact Hrow
      isplitl [Hsid]; · iexact Hsid
      isplitl [Hqb0]; · iexact Hqb0
      isplitl [Hqb1]; · iexact Hqb1
      isplitl [Hlnv]; · iexact Hlnv
      isplitl [Hres]; · iexact Hres
      isplitl [Hpre]; · iexact Hpre
      isplitl [Hs7]; · iexact Hs7
      isplitl [Hs8]; · iexact Hs8
      isplitl [Hc0]; · iexact Hc0
      isplitl [Hc1]; · iexact Hc1
      isplitl [Hc2]; · iexact Hc2
      isplitl [Hc3]; · iexact Hc3
      isplitl [Hc4]; · iexact Hc4
      iexact Hc5
    · iexact HO
  iapply (wp_wand frame _ Set.univ) $$ H
  iintro %a ⟨Hres, HO⟩
  unfold tileRes
  icases Hres with ⟨Htab, Hsix, Hseq, Hqix, Hlen, Hpou, Hsou, Hrow, Hsid, Hqb0, Hqb1, Hlnv, Hres, Hpre, Hs7, Hs8, Hc0, Hc1, Hc2, Hc3, Hc4, Hc5⟩
  isplitl [Htab Hsix Hseq Hqix Hlen Hpou Hsou]
  · isplitl [Htab]; · iexact Htab
    isplitl [Hsix]; · iexact Hsix
    isplitl [Hseq]; · iexact Hseq
    isplitl [Hqix]; · iexact Hqix
    isplitl [Hlen]; · iexact Hlen
    isplitl [Hpou]; · iexact Hpou
    iexact Hsou
  isplitl [Hrow Hsid Hqb0 Hqb1 Hlnv Hres Hpre Hbufs]
  · isplitl [Hrow]; · iexact Hrow
    isplitl [Hsid]; · iexact Hsid
    isplitl [Hqb0]; · iexact Hqb0
    isplitl [Hqb1]; · iexact Hqb1
    isplitl [Hlnv]; · iexact Hlnv
    isplitl [Hres]; · iexact Hres
    isplitl [Hpre]; · iexact Hpre
    iexact Hbufs
  isplitl [Hs7 Hs8 Hc0 Hc1 Hc2 Hc3 Hc4 Hc5 Hsems]
  · isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexact HO

end Tile
end Cert.Proof.TileB
end
-- ==== Proof.LaunchBits2.lean ====
/-
  The launch of the kernel at the word level, second part: what the one call hands each SparseCore and each tile, the launch's
  obligation for the kernel, and how a SparseCore's payload splits among its tiles.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ
import proofs.«209320_g71347996721220_cont_9to1c4b_157_42_alg».proof.Proof.TileBits6
import proofs.«209320_g71347996721220_cont_9to1c4b_157_42_alg».proof.Proof.TileBits1
import proofs.«209320_g71347996721220_cont_9to1c4b_157_42_alg».proof.Proof.TileBitsTop
import proofs.«209320_g71347996721220_cont_9to1c4b_157_42_alg».proof.Proof.LaunchBits1

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Launch

variable (Vv : Dev nD → Valuation τ sig (Elt F))

/-- A grid point from its two coordinates, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5) ⟨⟩ c s := rfl

omit [FloatOps F] in
theorem nCore_zero : (K (F := F)).nCore 0 = 2 := rfl
omit [FloatOps F] in
theorem nSub_zero : (K (F := F)).nSub 0 = 16 := rfl

/-- The grid point of tile `i` of SparseCore `c` of the call's grid. -/
abbrev Lof (c : Fin ((K (F := F)).nCore 0)) (i : Fin ((K (F := F)).nSub 0)) : grid0.Coords := coordsV ⟨c.val, c.isLt⟩ ⟨i.val, i.isLt⟩

/-- The read share of tile `i` of SparseCore `c`: the full share cut once per SparseCore, then once per tile. -/
abbrev qT (c i : ℕ) : PosShare TreeShare := Transfers.shareTokN (Transfers.shareTokN fullShare c) i

/-- An input of a device at a share, at the contents `Vv` gives it. -/
abbrev inAt (d : Dev nD) (r : Ref sig .tc) (q : PosShare TreeShare) : sProp 𝕄 :=
  ((d, Proc.devRef .tc r) : Loc nD τ sig) ↦{q} Vv d (Proc.devRef .tc r)
/-- A tile's block of the pooled output, and its blocks of the sparse output, at anything. -/
abbrev outA (d : Dev nD) (L : grid0.Coords) : sProp 𝕄 :=
  iprop(∃ fp, (pouBlk L).view.loc (V d (cV L) (jV L)) ↦[(pouBlk L).view.set]{fullShare} fp)
abbrev outB (d : Dev nD) (L : grid0.Coords) : sProp 𝕄 :=
  bigSep Finset.univ fun t : Fin k0_t6_loop.trips => iprop(∃ fs, (souBlk L t).view.loc (V d (cV L) (jV L)) ↦[(souBlk L t).view.set]{fullShare} fs)

/-- What a tile is handed and hands back. -/
def goPay (d : Dev nD) (L : grid0.Coords) (q : PosShare TreeShare) : sProp 𝕄 :=
  iprop(inAt (F := F) Vv d main_v0 q ∗ inAt (F := F) Vv d main_v2 q ∗ inAt (F := F) Vv d main_v1 q ∗ inAt (F := F) Vv d main_v5 q ∗ inAt (F := F) Vv d main_v6 q ∗ outA (F := F) d L ∗ outB (F := F) d L)

omit [FloatOps F] in
theorem tilePay_eq (d : Dev nD) (L : grid0.Coords) (q : PosShare TreeShare) :
    tilePay (F := F) d L q (Vv d (Proc.devRef .tc main_v0)) (Vv d (Proc.devRef .tc main_v2)) (Vv d (Proc.devRef .tc main_v1))
        (Vv d (Proc.devRef .tc main_v5)) (Vv d (Proc.devRef .tc main_v6))
      = goPay Vv d L q := rfl

/-- What a SparseCore is handed and hands back: its share of the inputs and its sixteen tiles' blocks. -/
def stPay (d : Dev nD) (c : Fin ((K (F := F)).nCore 0)) : sProp 𝕄 :=
  iprop(inAt (F := F) Vv d main_v0 (Transfers.shareTokN fullShare c.val) ∗ inAt (F := F) Vv d main_v2 (Transfers.shareTokN fullShare c.val) ∗ inAt (F := F) Vv d main_v1 (Transfers.shareTokN fullShare c.val) ∗ inAt (F := F) Vv d main_v5 (Transfers.shareTokN fullShare c.val) ∗ inAt (F := F) Vv d main_v6 (Transfers.shareTokN fullShare c.val)
    ∗ (bigSep Finset.univ fun i : Fin ((K (F := F)).nSub 0) => outA (F := F) d (Lof c i))
    ∗ (bigSep Finset.univ fun i : Fin ((K (F := F)).nSub 0) => outB (F := F) d (Lof c i)))

/-- The one call's payloads. -/
def P : (K (F := F)).Pay (nD := nD) (Val := Elt F) (Name := ℕ) (U := UU) where
  st := fun q d c => match q with | 0 => stPay Vv d c
  dn := fun q d c => match q with | 0 => stPay Vv d c
  go := fun q d c i => match q with | 0 => goPay Vv d (Lof c i) (qT c.val i.val)
  td := fun q d c i => match q with | 0 => goPay Vv d (Lof c i) (qT c.val i.val)
  x := fun _ _ => iprop(emp)

set_option maxHeartbeats 8000000 in
set_option synthInstance.maxHeartbeats 2000000 in
set_option synthInstance.maxSize 4096 in
instance P_storable : (P (F := F) Vv).IsStorable where
  st q d c := match q with | 0 => by show BI.Storable _ (stPay Vv d c); unfold stPay; infer_instance
  dn q d c := match q with | 0 => by show BI.Storable _ (stPay Vv d c); unfold stPay; infer_instance
  go q d c i := match q with | 0 => by show BI.Storable _ (goPay Vv d (Lof c i) (qT c.val i.val)); unfold goPay; infer_instance
  td q d c i := match q with | 0 => by show BI.Storable _ (goPay Vv d (Lof c i) (qT c.val i.val)); unfold goPay; infer_instance

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the kernel: every tile's task, from its payload and scoped storage to the same. -/
theorem tileObl (hF : (K (F := F)).Facts)
    (h2 : ∀ d x, (Vv d (Proc.devRef .tc main_v2) x : BitVec 32).toNat < 100000)
    (h5 : ∀ d x, (Vv d (Proc.devRef .tc main_v5) x : BitVec 32).toNat < 100000) :
    (K (F := F)).TileObl (D (F := F)) 𝒱 (P Vv) v₀ 0 := by
  intro d c i O W hO _ _
  simp only [show (P (F := F) Vv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) hF (qT c.val i.val) _ _ _ _ _ (h2 d) (h5 d) O W hO).trans (wp_mono frame _ _ fun _ => obl_post)

omit [FloatOps F] in
theorem inAt_split (d : Dev nD) (r : Ref sig .tc) (q : PosShare TreeShare) (n : ℕ) :
    inAt (F := F) Vv d r q ⊢ iprop(inAt (F := F) Vv d r (Transfers.shareDrop q n)
      ∗ bigSep Finset.univ fun i : Fin n => inAt (F := F) Vv d r (Transfers.shareTokN q i.val)) :=
  Transfers.pointsTo_toks_split q n
omit [FloatOps F] in
theorem inAt_join (d : Dev nD) (r : Ref sig .tc) (q : PosShare TreeShare) (n : ℕ) :
    iprop(inAt (F := F) Vv d r (Transfers.shareDrop q n)
      ∗ bigSep Finset.univ fun i : Fin n => inAt (F := F) Vv d r (Transfers.shareTokN q i.val)) ⊢ inAt (F := F) Vv d r q :=
  Transfers.pointsTo_toks_join q n

/-- A SparseCore's payload splits among its sixteen tiles — each input's share into sixteen tokens and a remainder kept
    aside — and is put back from what they return. -/
theorem vecSplit : (K (F := F)).VecSplit' (P Vv) 0 := by
  intro d c
  show stPay Vv d c ⊢ |={Set.univ}=> iprop((bigSep Finset.univ fun i : Fin ((K (F := F)).nSub 0) => goPay Vv d (Lof c i) (qT c.val i.val))
      ∗ ((bigSep Finset.univ fun i : Fin ((K (F := F)).nSub 0) => goPay Vv d (Lof c i) (qT c.val i.val)) -∗ stPay Vv d c))
  unfold stPay goPay
  rw [bigSep_sep', bigSep_sep', bigSep_sep', bigSep_sep', bigSep_sep', bigSep_sep']
  iintro ⟨H0, H1, H2, H3, H4, HA, HB⟩
  ihave S0 := (inAt_split Vv d main_v0 _ ((K (F := F)).nSub 0)) $$ H0
  icases S0 with ⟨D0, T0⟩
  ihave S1 := (inAt_split Vv d main_v2 _ ((K (F := F)).nSub 0)) $$ H1
  icases S1 with ⟨D1, T1⟩
  ihave S2 := (inAt_split Vv d main_v1 _ ((K (F := F)).nSub 0)) $$ H2
  icases S2 with ⟨D2, T2⟩
  ihave S3 := (inAt_split Vv d main_v5 _ ((K (F := F)).nSub 0)) $$ H3
  icases S3 with ⟨D3, T3⟩
  ihave S4 := (inAt_split Vv d main_v6 _ ((K (F := F)).nSub 0)) $$ H4
  icases S4 with ⟨D4, T4⟩
  imodintro
  isplitl [T0 T1 T2 T3 T4 HA HB]
  · isplitl [T0]; · iexact T0
    isplitl [T1]; · iexact T1
    isplitl [T2]; · iexact T2
    isplitl [T3]; · iexact T3
    isplitl [T4]; · iexact T4
    isplitl [HA]; · iexact HA
    iexact HB
  iintro ⟨T0, T1, T2, T3, T4, HA, HB⟩
  isplitl [D0 T0]
  · iapply (inAt_join Vv d main_v0 _ ((K (F := F)).nSub 0)); isplitl [D0]; · iexact D0
    iexact T0
  isplitl [D1 T1]
  · iapply (inAt_join Vv d main_v2 _ ((K (F := F)).nSub 0)); isplitl [D1]; · iexact D1
    iexact T1
  isplitl [D2 T2]
  · iapply (inAt_join Vv d main_v1 _ ((K (F := F)).nSub 0)); isplitl [D2]; · iexact D2
    iexact T2
  isplitl [D3 T3]
  · iapply (inAt_join Vv d main_v5 _ ((K (F := F)).nSub 0)); isplitl [D3]; · iexact D3
    iexact T3
  isplitl [D4 T4]
  · iapply (inAt_join Vv d main_v6 _ ((K (F := F)).nSub 0)); isplitl [D4]; · iexact D4
    iexact T4
  isplitl [HA]; · iexact HA
  iexact HB

end Launch
end Cert.Proof.TileB
end
-- ==== Proof.KernelOps.lean ====
/-
  The host operations of Kernel's `main` in order: the 7 before its SparseCore call and the 5 after it, and,
  beside each list, that each operation touches TensorCore buffers only.
-/
import proofs.«209320_g71347996721220_cont_9to1c4b_157_42_alg».proof.Proof.Gen.Kernel
import Idealize.ShloMosaic.Lib.StableHlo.Run

noncomputable section

namespace Cert.Kernel.HandOps

open Cert.Kernel Cert.Kernel.Gen Idealize.ShloMosaic Idealize.ShloMosaic.TcCoe Idealize.SL.Sem Idealize.ShloMosaic.StableHlo

variable {F : FTy → Type} [FloatOps F]

/-- The operations before the call. -/
abbrev opsPre : List (HloOp τ sig (Elt F)) :=
  [
    unary main_arg4 main_v0 ((transpose S26x32x100000 [0, 2, 1] · transposes_S26x100000x32_S26x32x100000_0_2_1) : (⟨S26x100000x32, .f32⟩ : BufTy).Contents (Elt F) → (⟨S26x32x100000, .f32⟩ : BufTy).Contents (Elt F)),
    unary main_arg5 main_v1 ((transpose S32x100000 [1, 0] · transposes_S100000x32_S32x100000_1_0) : (⟨S100000x32, .f32⟩ : BufTy).Contents (Elt F) → (⟨S32x100000, .f32⟩ : BufTy).Contents (Elt F)),
    unary main_arg0 main_v2 ((transpose S26x4096 [1, 0] · transposes_S4096x26_S26x4096_1_0) : (⟨S4096x26, .i32⟩ : BufTy).Contents (Elt F) → (⟨S26x4096, .i32⟩ : BufTy).Contents (Elt F)),
    unary main_arg1 main_v3 ((transpose S50x4096 [1, 0] · transposes_S4096x50_S50x4096_1_0) : (⟨S4096x50, .i32⟩ : BufTy).Contents (Elt F) → (⟨S50x4096, .i32⟩ : BufTy).Contents (Elt F)),
    reshape main_v3 main_v4 rfl shapeCasts_S50x4096_S50x32x128,
    unary main_v4 main_v5 ((transpose S32x50x128 [1, 0, 2] · transposes_S50x32x128_S32x50x128_1_0_2) : (⟨S50x32x128, .i32⟩ : BufTy).Contents (Elt F) → (⟨S32x50x128, .i32⟩ : BufTy).Contents (Elt F)),
    unary main_arg2 main_v6 (sitofp .f32 : (⟨S4096, .i32⟩ : BufTy).Contents (Elt F) → (⟨S4096, .f32⟩ : BufTy).Contents (Elt F)) ]

/-- The operations after the call. -/
abbrev opsPost : List (HloOp τ sig (Elt F)) :=
  [
    reshape main_v7_0 main_v8 rfl shapeCasts_S26624x128_S832x4096,
    unary main_v8 main_v9 ((transpose S4096x832 [1, 0] · transposes_S832x4096_S4096x832_1_0) : (⟨S832x4096, .f32⟩ : BufTy).Contents (Elt F) → (⟨S4096x832, .f32⟩ : BufTy).Contents (Elt F)),
    reshape main_v7_1 main_v10 rfl shapeCasts_S1024x128_S32x4096,
    unary main_v10 main_v11 ((transpose S4096x32 [1, 0] · transposes_S32x4096_S4096x32_1_0) : (⟨S32x4096, .f32⟩ : BufTy).Contents (Elt F) → (⟨S4096x32, .f32⟩ : BufTy).Contents (Elt F)),
    nary ![main_v9, main_v11, main_arg3] main_v12 (fun u => concatenate S4096x877 1 [⟨S4096x832, u 0⟩, ⟨S4096x32, u 1⟩, ⟨S4096x13, u 2⟩] concatenates_S4096x832_S4096x32_S4096x13_S4096x877_d1) ]

theorem opsPre_sub : (opsPre : List (HloOp τ sig (Elt F))).Forall fun op => op.bufs ⊆ tcRefs τ sig :=
  ⟨unary_bufs_sub .., unary_bufs_sub .., unary_bufs_sub .., unary_bufs_sub .., reshape_bufs_sub .., unary_bufs_sub .., unary_bufs_sub ..⟩

theorem opsPost_sub : (opsPost : List (HloOp τ sig (Elt F))).Forall fun op => op.bufs ⊆ tcRefs τ sig :=
  ⟨reshape_bufs_sub .., unary_bufs_sub .., reshape_bufs_sub .., unary_bufs_sub .., nary_bufs_sub ..⟩

end Cert.Kernel.HandOps

end
-- ==== Proof.LaunchBits3.lean ====
/-
  The launch of the kernel at the word level, third part: `main` as two stretches of host operations around the call, the tiles'
  row blocks of the two outputs as parts of their arrays (pairwise disjoint), and the carving of such a family out of a
  whole array and back.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ
import proofs.«209320_g71347996721220_cont_9to1c4b_157_42_alg».proof.Proof.TileBits6
import proofs.«209320_g71347996721220_cont_9to1c4b_157_42_alg».proof.Proof.TileBits1
import proofs.«209320_g71347996721220_cont_9to1c4b_157_42_alg».proof.Proof.TileBitsTop
import proofs.«209320_g71347996721220_cont_9to1c4b_157_42_alg».proof.Proof.LaunchBits1
import proofs.«209320_g71347996721220_cont_9to1c4b_157_42_alg».proof.Proof.LaunchBits2
import proofs.«209320_g71347996721220_cont_9to1c4b_157_42_alg».proof.Proof.KernelOps

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Launch

open Cert.Kernel.HandOps
open Idealize.ShloMosaic.StableHlo (held held_sub_split wp_seq tcRefs devRef_mem_tcRefs after launchContents seq)

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- `main` is its first stretch of host operations, the call, and its second stretch. -/
theorem main_eq (d : Dev nD) :
    main (F := F) d = (seq opsPre >>= fun _ => (sc (F := F)).run d 0 >>= fun _ => seq opsPost) := by
  simp only [main, seq, bind_assoc, pure_bind]

/-- The pooled output's 1024 rows in 32 parts of 32; the sparse output's 26624 rows in 832 parts of 32. -/
theorem hdivP : 32 ∣ S1024x128.size 0 := ⟨32, rfl⟩
theorem hdivS : 832 ∣ S26624x128.size 0 := ⟨32, rfl⟩

/-- The part of the pooled output a tile writes, and the part of the sparse output it writes for field `t`. -/
abbrev pIdx (L : grid0.Coords) : ℕ := 2 * (L 1).val + (L 0).val
theorem pIdx_lt (L : grid0.Coords) : pIdx L < 32 := by
  have h0 : (L 0).val < 2 := (L 0).isLt
  have h1 : (L 1).val < 16 := (L 1).isLt
  show 2 * (L 1).val + (L 0).val < 32; omega
theorem sIdx_lt (L : grid0.Coords) (t : Fin k0_t6_loop.trips) : 32 * t.val + pIdx L < 832 := by
  have h0 : (L 0).val < 2 := (L 0).isLt
  have h1 : (L 1).val < 16 := (L 1).isLt
  have ht : t.val < 26 := t.isLt
  show 32 * t.val + (2 * (L 1).val + (L 0).val) < 832; omega

theorem pouRect_eq (L : grid0.Coords) :
    Rect.unit (s := S1024x128) (k0_off212 L) S32x128.size (k0_off212_inb L) = Rect.part (s := S1024x128) (a₀ := 0) hdivP ⟨pIdx L, pIdx_lt L⟩ := by
  unfold Rect.part Rect.block
  congr 1 <;> funext a
  · rw [k0_off212_eq]
    match a with
    | 0 => simp [Shape.partIx, Shape.partSize, pIdx]; omega
    | 1 => simp [Shape.partIx, Shape.partSize]
  · match a with
    | 0 => simp [Shape.partSize]
    | 1 => simp [Shape.partSize]

theorem souRect_eq (L : grid0.Coords) (t : Fin k0_t6_loop.trips) :
    Rect.unit (s := S26624x128) (k0_off247 L t) S32x128.size (k0_off247_inb L t)
      = Rect.part (s := S26624x128) (a₀ := 0) hdivS ⟨32 * t.val + pIdx L, sIdx_lt L t⟩ := by
  unfold Rect.part Rect.block
  congr 1 <;> funext a
  · rw [k0_off247_eq]
    match a with
    | 0 => simp [Shape.partIx, Shape.partSize, pIdx]; omega
    | 1 => simp [Shape.partIx, Shape.partSize]
  · match a with
    | 0 => simp [Shape.partSize]
    | 1 => simp [Shape.partSize]

omit [FloatOps F] in
theorem pouSet_eq (L : grid0.Coords) :
    (pouBlk L).view.set = (Rect.part (s := S1024x128) (a₀ := 0) hdivP ⟨pIdx L, pIdx_lt L⟩).set := by
  show ((View.whole (main_v7_1_scv : Ref sig .scVector)).slice (Rect.unit (s := S1024x128) (k0_off212 L) S32x128.size (k0_off212_inb L))).set = _
  rw [View.set_slice, pouRect_eq]; exact Finset.map_refl
omit [FloatOps F] in
theorem souSet_eq (L : grid0.Coords) (t : Fin k0_t6_loop.trips) :
    (souBlk L t).view.set = (Rect.part (s := S26624x128) (a₀ := 0) hdivS ⟨32 * t.val + pIdx L, sIdx_lt L t⟩).set := by
  show ((View.whole (main_v7_0_scv : Ref sig .scVector)).slice (Rect.unit (s := S26624x128) (k0_off247 L t) S32x128.size (k0_off247_inb L t))).set = _
  rw [View.set_slice, souRect_eq]; exact Finset.map_refl

omit [FloatOps F] in
/-- Two tiles' blocks of the pooled output are disjoint; so are two (tile, field) blocks of the sparse output. -/
theorem pou_disj {L L' : grid0.Coords} (h : pIdx L ≠ pIdx L') : Disjoint (pouBlk L).view.set (pouBlk L').view.set := by
  rw [pouSet_eq, pouSet_eq]; exact Rect.part_disjoint hdivP (fun e => h (congrArg Fin.val e))
omit [FloatOps F] in
theorem sou_disj {L L' : grid0.Coords} {t t' : Fin k0_t6_loop.trips} (h : 32 * t.val + pIdx L ≠ 32 * t'.val + pIdx L') :
    Disjoint (souBlk L t).view.set (souBlk L' t').view.set := by
  rw [souSet_eq, souSet_eq]; exact Rect.part_disjoint hdivS (fun e => h (congrArg Fin.val e))

omit [FloatOps F] in
/-- From a whole array: a finite family of pairwise disjoint element sets of it, each at anything — and, from such a family,
    the whole array back at something. -/
theorem carve {ℓ : Loc nD τ sig} {ι : Type} [Fintype ι] [DecidableEq ι] (Kset : ι → Finset (Idx ℓ))
    (hd : ∀ t t', t ≠ t' → Disjoint (Kset t) (Kset t')) (f : Buf (Elt F) ℓ) :
    (ℓ ↦{fullShare} f : sProp 𝕄)
      ⊢ iprop((bigSep Finset.univ fun t => iprop(∃ g, ℓ ↦[Kset t]{fullShare} g))
          ∗ ((bigSep Finset.univ fun t => iprop(∃ g, ℓ ↦[Kset t]{fullShare} g)) -∗ ∃ g, ℓ ↦{fullShare} g)) := by
  iintro H
  ihave H' := (pointsTo_split_subset (Finset.subset_univ (Finset.univ.biUnion Kset))).1 $$ H
  icases H' with ⟨HI, Hrest⟩
  ihave HI' := (Entails.of_eq (pointsTo_biUnion Finset.univ Kset (fun t _ t' _ h => hd t t' h))) $$ HI
  isplitl [HI']
  · have hm : (bigSep Finset.univ fun t => (ℓ ↦[Kset t]{fullShare} f : sProp 𝕄))
        ⊢ bigSep Finset.univ fun t => iprop(∃ g, ℓ ↦[Kset t]{fullShare} g) :=
      bigSep_mono fun t _ => sProp.exists_intro (Φ := fun g => (ℓ ↦[Kset t]{fullShare} g : sProp 𝕄)) f
    iapply hm; iexact HI'
  iintro Hb
  ihave Hb' := (@bigSep_exists_pi 𝕄 _ ι _ (fun _ => Buf (Elt F) ℓ) (fun _ => ⟨f⟩) Finset.univ
    (fun t (g : Buf (Elt F) ℓ) => (ℓ ↦[Kset t]{fullShare} g : sProp 𝕄))) $$ Hb
  icases Hb' with ⟨%gs, Hb'⟩
  ihave Hj := (pointsTo_biUnion_join Finset.univ Kset gs f (fun t _ t' _ h => hd t t' h)) $$ Hb'
  icases Hj with ⟨%g, -, Hg⟩
  ihave Hw := (pointsTo_join_subset (Finset.subset_univ (Finset.univ.biUnion Kset))) $$ [Hg Hrest]
  · isplitl [Hg]; · iexact Hg
    iexact Hrest
  iexists _; iexact Hw

end Launch
end Cert.Proof.TileB
end
-- ==== Proof.LaunchBits4.lean ====
/-
  The launch of the kernel at the word level, fourth part: `main` on the TensorCore around the call, the read-off of the final
  state, and the run of all the device's threads.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.TileBits
import proofs.«209320_g71347996721220_cont_9to1c4b_157_42_alg».proof.Proof.TileBitsQ
import proofs.«209320_g71347996721220_cont_9to1c4b_157_42_alg».proof.Proof.TileBits6
import proofs.«209320_g71347996721220_cont_9to1c4b_157_42_alg».proof.Proof.TileBits1
import proofs.«209320_g71347996721220_cont_9to1c4b_157_42_alg».proof.Proof.TileBitsTop
import proofs.«209320_g71347996721220_cont_9to1c4b_157_42_alg».proof.Proof.LaunchBits1
import proofs.«209320_g71347996721220_cont_9to1c4b_157_42_alg».proof.Proof.LaunchBits2
import proofs.«209320_g71347996721220_cont_9to1c4b_157_42_alg».proof.Proof.KernelOps
import proofs.«209320_g71347996721220_cont_9to1c4b_157_42_alg».proof.Proof.LaunchBits3

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabW" => (Memref.whole Cert.Kernel.main_v0_scv : Memref Cert.Kernel.sig Kind.scVector Space.hbm Cert.Kernel.S26x32x100000 EltTy.f32)
local notation "sixW" => (Memref.whole Cert.Kernel.main_v2_scv : Memref Cert.Kernel.sig Kind.scVector Space.hbm Cert.Kernel.S26x4096 EltTy.i32)
local notation "seqW" => (Memref.whole Cert.Kernel.main_v1_scv : Memref Cert.Kernel.sig Kind.scVector Space.hbm Cert.Kernel.S32x100000 EltTy.f32)
local notation "qixW" => (Memref.whole Cert.Kernel.main_v5_scv : Memref Cert.Kernel.sig Kind.scVector Space.hbm Cert.Kernel.S32x50x128 EltTy.i32)
local notation "lenW" => (Memref.whole Cert.Kernel.main_v6_scv : Memref Cert.Kernel.sig Kind.scVector Space.hbm Cert.Kernel.S4096 EltTy.f32)
local notation "souW" => (Memref.whole Cert.Kernel.main_v7_0_scv : Memref Cert.Kernel.sig Kind.scVector Space.hbm Cert.Kernel.S26624x128 EltTy.f32)
local notation "pouW" => (Memref.whole Cert.Kernel.main_v7_1_scv : Memref Cert.Kernel.sig Kind.scVector Space.hbm Cert.Kernel.S1024x128 EltTy.f32)
local notation "rowW" => (Memref.whole Cert.Kernel.cc0_scratch0 : Memref Cert.Kernel.sig Kind.scVector Space.vmem Cert.Kernel.S100000 EltTy.f32)
local notation "sidW" => (Memref.whole Cert.Kernel.cc0_scratch1 : Memref Cert.Kernel.sig Kind.scVector Space.vmem Cert.Kernel.S4096 EltTy.i32)
local notation "qb0W" => (Memref.whole Cert.Kernel.cc0_scratch2 : Memref Cert.Kernel.sig Kind.scVector Space.vmem Cert.Kernel.S50x128 EltTy.i32)
local notation "qb1W" => (Memref.whole Cert.Kernel.cc0_scratch3 : Memref Cert.Kernel.sig Kind.scVector Space.vmem Cert.Kernel.S50x128 EltTy.i32)
local notation "lnvW" => (Memref.whole Cert.Kernel.cc0_scratch4 : Memref Cert.Kernel.sig Kind.scVector Space.vmem Cert.Kernel.S4096 EltTy.f32)
local notation "resW" => (Memref.whole Cert.Kernel.cc0_scratch5 : Memref Cert.Kernel.sig Kind.scVector Space.vmem Cert.Kernel.S32x128 EltTy.f32)
local notation "preW" => (Memref.whole Cert.Kernel.cc0_scratch6 : Memref Cert.Kernel.sig Kind.scVector Space.vmem Cert.Kernel.S32x128 EltTy.f32)

variable [FloatOps F]

section Launch

open Cert.Kernel.HandOps
open Idealize.ShloMosaic.StableHlo (held held_sub_split held_congr wp_seq tcRefs devRef_mem_tcRefs after launchContents seq)

section Main
variable (m : (ℓ : Loc nD τ sig) → Buf (Elt F) ℓ) (ρ : Dev nD → PrngReg)

/-- The contents of a device's TensorCore buffers after `main`'s first stretch. -/
abbrev V1 (d : Dev nD) : Valuation τ sig (Elt F) := after opsPre (launchContents m d)

omit [FloatOps F] in
theorem unscoped_held (d : Dev nD) :
    (unscopedBufs d (fun b => m ((SparseCore.T d).loc b)) : sProp 𝕄) = held (d.tc : Thread nD τ) (tcRefs τ sig) (launchContents m d) := by
  unfold unscopedBufs held tcRefs
  rw [show (Finset.univ.filter fun b : Ref sig .tc => ¬ b.isScoped) = Finset.univ by decide, bigSep_map]; rfl

/-- The kernel's seven operands, and `main`'s six arguments, among the TensorCore's buffers. -/
abbrev T7 : Finset (DevRef τ sig) := {(Proc.devRef .tc main_v0 : DevRef τ sig), (Proc.devRef .tc main_v2 : DevRef τ sig), (Proc.devRef .tc main_v1 : DevRef τ sig), (Proc.devRef .tc main_v5 : DevRef τ sig), (Proc.devRef .tc main_v6 : DevRef τ sig), (Proc.devRef .tc main_v7_0 : DevRef τ sig), (Proc.devRef .tc main_v7_1 : DevRef τ sig)}
abbrev T6 : Finset (DevRef τ sig) := {(Proc.devRef .tc main_arg0 : DevRef τ sig), (Proc.devRef .tc main_arg1 : DevRef τ sig), (Proc.devRef .tc main_arg2 : DevRef τ sig), (Proc.devRef .tc main_arg3 : DevRef τ sig), (Proc.devRef .tc main_arg4 : DevRef τ sig), (Proc.devRef .tc main_arg5 : DevRef τ sig)}
omit [FloatOps F] in
theorem hT7 : T7 ⊆ tcRefs τ sig := by
  intro b hb; simp only [T7, Finset.mem_insert, Finset.mem_singleton] at hb
  rcases hb with rfl | rfl | rfl | rfl | rfl | rfl | rfl <;> exact devRef_mem_tcRefs _
omit [FloatOps F] in
theorem hT6 : T6 ⊆ tcRefs τ sig := by
  intro b hb; simp only [T6, Finset.mem_insert, Finset.mem_singleton] at hb
  rcases hb with rfl | rfl | rfl | rfl | rfl | rfl <;> exact devRef_mem_tcRefs _
omit [FloatOps F] in
theorem held_T7 (d : Dev nD) (W : Valuation τ sig (Elt F)) :
    (held (d.tc : Thread nD τ) T7 W : sProp 𝕄) = iprop((((d, Proc.devRef .tc main_v0) : Loc nD τ sig) ↦{fullShare} W (Proc.devRef .tc main_v0 : DevRef τ sig)) ∗ (((d, Proc.devRef .tc main_v2) : Loc nD τ sig) ↦{fullShare} W (Proc.devRef .tc main_v2 : DevRef τ sig)) ∗ (((d, Proc.devRef .tc main_v1) : Loc nD τ sig) ↦{fullShare} W (Proc.devRef .tc main_v1 : DevRef τ sig)) ∗ (((d, Proc.devRef .tc main_v5) : Loc nD τ sig) ↦{fullShare} W (Proc.devRef .tc main_v5 : DevRef τ sig)) ∗ (((d, Proc.devRef .tc main_v6) : Loc nD τ sig) ↦{fullShare} W (Proc.devRef .tc main_v6 : DevRef τ sig)) ∗ (((d, Proc.devRef .tc main_v7_0) : Loc nD τ sig) ↦{fullShare} W (Proc.devRef .tc main_v7_0 : DevRef τ sig)) ∗ (((d, Proc.devRef .tc main_v7_1) : Loc nD τ sig) ↦{fullShare} W (Proc.devRef .tc main_v7_1 : DevRef τ sig))) := by
  unfold held T7
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem held_T6 (d : Dev nD) (W : Valuation τ sig (Elt F)) :
    (held (d.tc : Thread nD τ) T6 W : sProp 𝕄) = iprop((((d, Proc.devRef .tc main_arg0) : Loc nD τ sig) ↦{fullShare} W (Proc.devRef .tc main_arg0 : DevRef τ sig)) ∗ (((d, Proc.devRef .tc main_arg1) : Loc nD τ sig) ↦{fullShare} W (Proc.devRef .tc main_arg1 : DevRef τ sig)) ∗ (((d, Proc.devRef .tc main_arg2) : Loc nD τ sig) ↦{fullShare} W (Proc.devRef .tc main_arg2 : DevRef τ sig)) ∗ (((d, Proc.devRef .tc main_arg3) : Loc nD τ sig) ↦{fullShare} W (Proc.devRef .tc main_arg3 : DevRef τ sig)) ∗ (((d, Proc.devRef .tc main_arg4) : Loc nD τ sig) ↦{fullShare} W (Proc.devRef .tc main_arg4 : DevRef τ sig)) ∗ (((d, Proc.devRef .tc main_arg5) : Loc nD τ sig) ↦{fullShare} W (Proc.devRef .tc main_arg5 : DevRef τ sig))) := by
  unfold held T6
  rw [SparseCore.bigSep_insert' (by decide), SparseCore.bigSep_insert' (by decide), SparseCore.bigSep_insert' (by decide), SparseCore.bigSep_insert' (by decide), SparseCore.bigSep_insert' (by decide), bigSep_singleton]

/-- What `main` leaves the claim: its six arguments at their launch contents. -/
abbrev FIN (d : Dev nD) : sProp 𝕄 :=
  iprop((((d, Proc.devRef .tc main_arg0) : Loc nD τ sig) ↦{fullShare} m ((d, Proc.devRef .tc main_arg0) : Loc nD τ sig)) ∗ (((d, Proc.devRef .tc main_arg1) : Loc nD τ sig) ↦{fullShare} m ((d, Proc.devRef .tc main_arg1) : Loc nD τ sig)) ∗ (((d, Proc.devRef .tc main_arg2) : Loc nD τ sig) ↦{fullShare} m ((d, Proc.devRef .tc main_arg2) : Loc nD τ sig)) ∗ (((d, Proc.devRef .tc main_arg3) : Loc nD τ sig) ↦{fullShare} m ((d, Proc.devRef .tc main_arg3) : Loc nD τ sig)) ∗ (((d, Proc.devRef .tc main_arg4) : Loc nD τ sig) ↦{fullShare} m ((d, Proc.devRef .tc main_arg4) : Loc nD τ sig)) ∗ (((d, Proc.devRef .tc main_arg5) : Loc nD τ sig) ↦{fullShare} m ((d, Proc.devRef .tc main_arg5) : Loc nD τ sig)))

theorem hfreshPre : ∀ op ∈ (opsPre : List (HloOp τ sig (Elt F))), op.fresh = ∅ := by
  intro _ h; (repeat (cases h with | head => rfl | tail _ h => ?_)); exact nomatch h
theorem hfreshPost : ∀ op ∈ (opsPost : List (HloOp τ sig (Elt F))), op.fresh = ∅ := by
  intro _ h; (repeat (cases h with | head => rfl | tail _ h => ?_)); exact nomatch h

/-- No operation of either stretch writes an argument. -/
theorem pre_arg0 (W : Valuation τ sig (Elt F)) : after opsPre W (Proc.devRef .tc main_arg0 : DevRef τ sig) = W (Proc.devRef .tc main_arg0 : DevRef τ sig) := by after_results_simp
theorem post_arg0 (W : Valuation τ sig (Elt F)) : after opsPost W (Proc.devRef .tc main_arg0 : DevRef τ sig) = W (Proc.devRef .tc main_arg0 : DevRef τ sig) := by after_results_simp
theorem pre_arg1 (W : Valuation τ sig (Elt F)) : after opsPre W (Proc.devRef .tc main_arg1 : DevRef τ sig) = W (Proc.devRef .tc main_arg1 : DevRef τ sig) := by after_results_simp
theorem post_arg1 (W : Valuation τ sig (Elt F)) : after opsPost W (Proc.devRef .tc main_arg1 : DevRef τ sig) = W (Proc.devRef .tc main_arg1 : DevRef τ sig) := by after_results_simp
theorem pre_arg2 (W : Valuation τ sig (Elt F)) : after opsPre W (Proc.devRef .tc main_arg2 : DevRef τ sig) = W (Proc.devRef .tc main_arg2 : DevRef τ sig) := by after_results_simp
theorem post_arg2 (W : Valuation τ sig (Elt F)) : after opsPost W (Proc.devRef .tc main_arg2 : DevRef τ sig) = W (Proc.devRef .tc main_arg2 : DevRef τ sig) := by after_results_simp
theorem pre_arg3 (W : Valuation τ sig (Elt F)) : after opsPre W (Proc.devRef .tc main_arg3 : DevRef τ sig) = W (Proc.devRef .tc main_arg3 : DevRef τ sig) := by after_results_simp
theorem post_arg3 (W : Valuation τ sig (Elt F)) : after opsPost W (Proc.devRef .tc main_arg3 : DevRef τ sig) = W (Proc.devRef .tc main_arg3 : DevRef τ sig) := by after_results_simp
theorem pre_arg4 (W : Valuation τ sig (Elt F)) : after opsPre W (Proc.devRef .tc main_arg4 : DevRef τ sig) = W (Proc.devRef .tc main_arg4 : DevRef τ sig) := by after_results_simp
theorem post_arg4 (W : Valuation τ sig (Elt F)) : after opsPost W (Proc.devRef .tc main_arg4 : DevRef τ sig) = W (Proc.devRef .tc main_arg4 : DevRef τ sig) := by after_results_simp
theorem pre_arg5 (W : Valuation τ sig (Elt F)) : after opsPre W (Proc.devRef .tc main_arg5 : DevRef τ sig) = W (Proc.devRef .tc main_arg5 : DevRef τ sig) := by after_results_simp
theorem post_arg5 (W : Valuation τ sig (Elt F)) : after opsPost W (Proc.devRef .tc main_arg5 : DevRef τ sig) = W (Proc.devRef .tc main_arg5 : DevRef τ sig) := by after_results_simp

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (V1 m)).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Main

omit [FloatOps F] in
/-- A held wand applied. -/
theorem wand_app {A B : sProp 𝕄} : iprop((A -∗ B) ∗ A) ⊢ B := BI.wand_elim (BI.Entails.refl _)

/-- A valuation with the two outputs at new contents. -/
def updOut (W : Valuation τ sig (Elt F)) (g0 : ((Proc.devRef .tc main_v7_0 : DevRef τ sig)).ty.Contents (Elt F)) (g1 : ((Proc.devRef .tc main_v7_1 : DevRef τ sig)).ty.Contents (Elt F)) :
    Valuation τ sig (Elt F) :=
  Function.update (Function.update W (Proc.devRef .tc main_v7_0 : DevRef τ sig) g0) (Proc.devRef .tc main_v7_1 : DevRef τ sig) g1

omit [FloatOps F] in
theorem updOut_v70 (W : Valuation τ sig (Elt F)) (g0 g1) : updOut W g0 g1 (Proc.devRef .tc main_v7_0 : DevRef τ sig) = g0 := by
  unfold updOut; rw [Function.update_of_ne (by decide), Function.update_self]
omit [FloatOps F] in
theorem updOut_v71 (W : Valuation τ sig (Elt F)) (g0 g1) : updOut W g0 g1 (Proc.devRef .tc main_v7_1 : DevRef τ sig) = g1 := by
  unfold updOut; rw [Function.update_self]
omit [FloatOps F] in
theorem updOut_of_ne (W : Valuation τ sig (Elt F)) (g0 g1) {b : DevRef τ sig} (h0 : b ≠ (Proc.devRef .tc main_v7_0 : DevRef τ sig)) (h1 : b ≠ (Proc.devRef .tc main_v7_1 : DevRef τ sig)) :
    updOut W g0 g1 b = W b := by
  unfold updOut; rw [Function.update_of_ne h1, Function.update_of_ne h0]

omit [FloatOps F] in
/-- The held set at the updated valuation, from the kernel's operands back and the rest. -/
theorem reheld (d : Dev nD) (W : Valuation τ sig (Elt F)) (g0 g1) :
    iprop((((d, Proc.devRef .tc main_v0) : Loc nD τ sig) ↦{fullShare} W (Proc.devRef .tc main_v0 : DevRef τ sig)) ∗ (((d, Proc.devRef .tc main_v2) : Loc nD τ sig) ↦{fullShare} W (Proc.devRef .tc main_v2 : DevRef τ sig)) ∗ (((d, Proc.devRef .tc main_v1) : Loc nD τ sig) ↦{fullShare} W (Proc.devRef .tc main_v1 : DevRef τ sig)) ∗ (((d, Proc.devRef .tc main_v5) : Loc nD τ sig) ↦{fullShare} W (Proc.devRef .tc main_v5 : DevRef τ sig)) ∗ (((d, Proc.devRef .tc main_v6) : Loc nD τ sig) ↦{fullShare} W (Proc.devRef .tc main_v6 : DevRef τ sig))
        ∗ (((d, Proc.devRef .tc main_v7_0) : Loc nD τ sig) ↦{fullShare} g0) ∗ (((d, Proc.devRef .tc main_v7_1) : Loc nD τ sig) ↦{fullShare} g1)
        ∗ held (d.tc : Thread nD τ) (tcRefs τ sig \ T7) W)
      ⊢ (held (d.tc : Thread nD τ) (tcRefs τ sig) (updOut W g0 g1) : sProp 𝕄) := by
  rw [held_sub_split (d.tc : Thread nD τ) hT7 (updOut W g0 g1), held_T7, updOut_v70, updOut_v71,
    updOut_of_ne W g0 g1 (by decide) (by decide), updOut_of_ne W g0 g1 (by decide) (by decide), updOut_of_ne W g0 g1 (by decide) (by decide), updOut_of_ne W g0 g1 (by decide) (by decide), updOut_of_ne W g0 g1 (by decide) (by decide),
    held_congr (d.tc : Thread nD τ) (V := updOut W g0 g1) (V' := W) (S := tcRefs τ sig \ T7) (fun b hb => updOut_of_ne W g0 g1
      (fun e => (Finset.mem_sdiff.mp hb).2 (e ▸ (by decide : (Proc.devRef .tc main_v7_0 : DevRef τ sig) ∈ T7)))
      (fun e => (Finset.mem_sdiff.mp hb).2 (e ▸ (by decide : (Proc.devRef .tc main_v7_1 : DevRef τ sig) ∈ T7))))]
  iintro ⟨I0, I1, I2, I3, I4, O0, O1, Hr⟩
  isplitl [I0 I1 I2 I3 I4 O0 O1]
  · isplitl [I0]; · iexact I0
    isplitl [I1]; · iexact I1
    isplitl [I2]; · iexact I2
    isplitl [I3]; · iexact I3
    isplitl [I4]; · iexact I4
    isplitl [O0]; · iexact O0
    iexact O1
  iexact Hr

section Main2

/-- The two output arrays of a device, and the families of the tiles' blocks in them. -/
abbrev ℓP (d : Dev nD) : Loc nD τ sig := (d, Proc.devRef .tc main_v7_1)
abbrev ℓS (d : Dev nD) : Loc nD τ sig := (d, Proc.devRef .tc main_v7_0)
abbrev Kp (d : Dev nD) (ci : Fin 2 × Fin 16) : Finset (Idx (ℓP d)) := (pouBlk (Lof (F := F) ci.1 ci.2)).view.set
abbrev Ks (d : Dev nD) (cit : (Fin 2 × Fin 16) × Fin k0_t6_loop.trips) : Finset (Idx (ℓS d)) :=
  (souBlk (Lof (F := F) cit.1.1 cit.1.2) cit.2).view.set

omit [FloatOps F] in
theorem hdP (d : Dev nD) : ∀ ci ci' : Fin 2 × Fin 16, ci ≠ ci' → Disjoint (Kp (F := F) d ci) (Kp (F := F) d ci') := by
  intro ci ci' h
  refine pou_disj (fun e => h ?_)
  have e' : 2 * ci.2.val + ci.1.val = 2 * ci'.2.val + ci'.1.val := e
  have h1 := ci.1.isLt; have h1' := ci'.1.isLt
  exact Prod.ext (Fin.ext (by omega)) (Fin.ext (by omega))
omit [FloatOps F] in
theorem hdS (d : Dev nD) : ∀ cit cit' : (Fin 2 × Fin 16) × Fin k0_t6_loop.trips, cit ≠ cit' → Disjoint (Ks (F := F) d cit) (Ks (F := F) d cit') := by
  intro cit cit' h
  refine sou_disj (fun e => h ?_)
  have e' : 32 * cit.2.val + (2 * cit.1.2.val + cit.1.1.val) = 32 * cit'.2.val + (2 * cit'.1.2.val + cit'.1.1.val) := e
  have h1 := cit.1.1.isLt; have h1' := cit'.1.1.isLt
  have h2 := cit.1.2.isLt; have h2' := cit'.1.2.isLt
  exact Prod.ext (Prod.ext (Fin.ext (by omega)) (Fin.ext (by omega))) (Fin.ext (by omega))

omit [FloatOps F] in
theorem nestP (d : Dev nD) :
    (bigSep Finset.univ fun ci : Fin 2 × Fin 16 => iprop(∃ g, ℓP d ↦[Kp (F := F) d ci]{fullShare} g))
      = ((bigSep Finset.univ fun c : Fin ((K (F := F)).nCore 0) => bigSep Finset.univ fun i : Fin ((K (F := F)).nSub 0) => outA (F := F) d (Lof c i)) : sProp 𝕄) := by
  rw [← Finset.univ_product_univ, SparseCore.bigSep_product]
omit [FloatOps F] in
theorem nestS (d : Dev nD) :
    (bigSep Finset.univ fun cit : (Fin 2 × Fin 16) × Fin k0_t6_loop.trips => iprop(∃ g, ℓS d ↦[Ks (F := F) d cit]{fullShare} g))
      = ((bigSep Finset.univ fun c : Fin ((K (F := F)).nCore 0) => bigSep Finset.univ fun i : Fin ((K (F := F)).nSub 0) => outB (F := F) d (Lof c i)) : sProp 𝕄) := by
  rw [← Finset.univ_product_univ, SparseCore.bigSep_product, ← Finset.univ_product_univ, SparseCore.bigSep_product]

omit [FloatOps F] in
/-- What the call hands all the SparseCores of a device, conjunct by conjunct. -/
theorem st_eq (Vv : Dev nD → Valuation τ sig (Elt F)) (d : Dev nD) :
    (bigSep Finset.univ fun c : Fin ((K (F := F)).nCore 0) => (P Vv).st 0 d c)
      = iprop((bigSep Finset.univ fun c : Fin ((K (F := F)).nCore 0) => inAt (F := F) Vv d main_v0 (Transfers.shareTokN fullShare c.val)) ∗ (bigSep Finset.univ fun c : Fin ((K (F := F)).nCore 0) => inAt (F := F) Vv d main_v2 (Transfers.shareTokN fullShare c.val)) ∗ (bigSep Finset.univ fun c : Fin ((K (F := F)).nCore 0) => inAt (F := F) Vv d main_v1 (Transfers.shareTokN fullShare c.val)) ∗ (bigSep Finset.univ fun c : Fin ((K (F := F)).nCore 0) => inAt (F := F) Vv d main_v5 (Transfers.shareTokN fullShare c.val)) ∗ (bigSep Finset.univ fun c : Fin ((K (F := F)).nCore 0) => inAt (F := F) Vv d main_v6 (Transfers.shareTokN fullShare c.val)) ∗ (bigSep Finset.univ fun c : Fin ((K (F := F)).nCore 0) => bigSep Finset.univ fun i : Fin ((K (F := F)).nSub 0) => outA (F := F) d (Lof c i)) ∗ (bigSep Finset.univ fun c : Fin ((K (F := F)).nCore 0) => bigSep Finset.univ fun i : Fin ((K (F := F)).nSub 0) => outB (F := F) d (Lof c i))) := by
  show (bigSep Finset.univ fun c => stPay Vv d c) = _
  unfold stPay
  rw [bigSep_sep', bigSep_sep', bigSep_sep', bigSep_sep', bigSep_sep', bigSep_sep']

omit [FloatOps F] in
/-- What the SparseCores hand back, conjunct by conjunct: the same. -/
theorem dn_eq (Vv : Dev nD → Valuation τ sig (Elt F)) (d : Dev nD) :
    (bigSep Finset.univ fun c : Fin ((K (F := F)).nCore 0) => (P Vv).dn 0 d c)
      = iprop((bigSep Finset.univ fun c : Fin ((K (F := F)).nCore 0) => inAt (F := F) Vv d main_v0 (Transfers.shareTokN fullShare c.val)) ∗ (bigSep Finset.univ fun c : Fin ((K (F := F)).nCore 0) => inAt (F := F) Vv d main_v2 (Transfers.shareTokN fullShare c.val)) ∗ (bigSep Finset.univ fun c : Fin ((K (F := F)).nCore 0) => inAt (F := F) Vv d main_v1 (Transfers.shareTokN fullShare c.val)) ∗ (bigSep Finset.univ fun c : Fin ((K (F := F)).nCore 0) => inAt (F := F) Vv d main_v5 (Transfers.shareTokN fullShare c.val)) ∗ (bigSep Finset.univ fun c : Fin ((K (F := F)).nCore 0) => inAt (F := F) Vv d main_v6 (Transfers.shareTokN fullShare c.val)) ∗ (bigSep Finset.univ fun c : Fin ((K (F := F)).nCore 0) => bigSep Finset.univ fun i : Fin ((K (F := F)).nSub 0) => outA (F := F) d (Lof c i)) ∗ (bigSep Finset.univ fun c : Fin ((K (F := F)).nCore 0) => bigSep Finset.univ fun i : Fin ((K (F := F)).nSub 0) => outB (F := F) d (Lof c i))) := by
  show (bigSep Finset.univ fun c => stPay Vv d c) = _
  unfold stPay
  rw [bigSep_sep', bigSep_sep', bigSep_sep', bigSep_sep', bigSep_sep', bigSep_sep']

variable (m : (ℓ : Loc nD τ sig) → Buf (Elt F) ℓ) (ρ : Dev nD → PrngReg)

/-- Each argument after both stretches, the outputs at anything in between, is at its launch contents. -/
theorem fin_arg0 (d : Dev nD) (g0 g1) :
    after opsPost (updOut (after opsPre (launchContents m d)) g0 g1) (Proc.devRef .tc main_arg0 : DevRef τ sig) = m ((d, Proc.devRef .tc main_arg0) : Loc nD τ sig) := by
  rw [post_arg0, updOut_of_ne _ g0 g1 (by decide) (by decide), pre_arg0]
theorem fin_arg1 (d : Dev nD) (g0 g1) :
    after opsPost (updOut (after opsPre (launchContents m d)) g0 g1) (Proc.devRef .tc main_arg1 : DevRef τ sig) = m ((d, Proc.devRef .tc main_arg1) : Loc nD τ sig) := by
  rw [post_arg1, updOut_of_ne _ g0 g1 (by decide) (by decide), pre_arg1]
theorem fin_arg2 (d : Dev nD) (g0 g1) :
    after opsPost (updOut (after opsPre (launchContents m d)) g0 g1) (Proc.devRef .tc main_arg2 : DevRef τ sig) = m ((d, Proc.devRef .tc main_arg2) : Loc nD τ sig) := by
  rw [post_arg2, updOut_of_ne _ g0 g1 (by decide) (by decide), pre_arg2]
theorem fin_arg3 (d : Dev nD) (g0 g1) :
    after opsPost (updOut (after opsPre (launchContents m d)) g0 g1) (Proc.devRef .tc main_arg3 : DevRef τ sig) = m ((d, Proc.devRef .tc main_arg3) : Loc nD τ sig) := by
  rw [post_arg3, updOut_of_ne _ g0 g1 (by decide) (by decide), pre_arg3]
theorem fin_arg4 (d : Dev nD) (g0 g1) :
    after opsPost (updOut (after opsPre (launchContents m d)) g0 g1) (Proc.devRef .tc main_arg4 : DevRef τ sig) = m ((d, Proc.devRef .tc main_arg4) : Loc nD τ sig) := by
  rw [post_arg4, updOut_of_ne _ g0 g1 (by decide) (by decide), pre_arg4]
theorem fin_arg5 (d : Dev nD) (g0 g1) :
    after opsPost (updOut (after opsPre (launchContents m d)) g0 g1) (Proc.devRef .tc main_arg5 : DevRef τ sig) = m ((d, Proc.devRef .tc main_arg5) : Loc nD τ sig) := by
  rw [post_arg5, updOut_of_ne _ g0 g1 (by decide) (by decide), pre_arg5]

set_option maxHeartbeats 8000000 in
/-- `main` on a device's TensorCore: the first stretch of host operations; the call, handing each SparseCore its token of
    every input and its tiles' blocks of the outputs, the rest kept aside, and taking them back; the second stretch; the six
    arguments are where they were. -/
theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) _ opsPre (List.forall_iff_forall_mem.1 opsPre_sub) hfreshPre (launchContents m d)) $$ [Hb Hheld]
  · isplitl [Hb]; · iexact Hb
    iexact Hheld
  iintro ⟨Hb, Hheld⟩
  ihave Hs := (Entails.of_eq (held_sub_split (d.tc : Thread nD τ) hT7 (after opsPre (launchContents m d)))) $$ Hheld
  icases Hs with ⟨H7, Hrest⟩
  ihave H7' := (Entails.of_eq (held_T7 d (after opsPre (launchContents m d)))) $$ H7
  icases H7' with ⟨I0, I1, I2, I3, I4, O0, O1⟩
  ihave S0 := (inAt_split (V1 m) d main_v0 fullShare 2) $$ I0
  icases S0 with ⟨D0, T0⟩
  ihave S1 := (inAt_split (V1 m) d main_v2 fullShare 2) $$ I1
  icases S1 with ⟨D1, T1⟩
  ihave S2 := (inAt_split (V1 m) d main_v1 fullShare 2) $$ I2
  icases S2 with ⟨D2, T2⟩
  ihave S3 := (inAt_split (V1 m) d main_v5 fullShare 2) $$ I3
  icases S3 with ⟨D3, T3⟩
  ihave S4 := (inAt_split (V1 m) d main_v6 fullShare 2) $$ I4
  icases S4 with ⟨D4, T4⟩
  ihave C0 := (carve (Ks (F := F) d) (hdS d) _) $$ O0
  icases C0 with ⟨B0, J0⟩
  ihave C1 := (carve (Kp (F := F) d) (hdP d) _) $$ O1
  icases C1 with ⟨B1, J1⟩
  ihave B0' := (Entails.of_eq (nestS (F := F) d)) $$ B0
  ihave B1' := (Entails.of_eq (nestP (F := F) d)) $$ B1
  rw [wp_bind]
  iapply ((K (F := F)).wp_run (D (F := F)) 𝒱 (EH := EH) (P := P (V1 m)) κ d 0) $$ [Hst T0 T1 T2 T3 T4 B0' B1' Hb Hrest D0 D1 D2 D3 D4 J0 J1]
  isplitr; · iexact Hctx
  isplitl [Hst]; · iexact Hst
  isplitl [T0 T1 T2 T3 T4 B0' B1']
  · rw [st_eq]
    isplitl [T0]; · iexact T0
    isplitl [T1]; · iexact T1
    isplitl [T2]; · iexact T2
    isplitl [T3]; · iexact T3
    isplitl [T4]; · iexact T4
    isplitl [B1']; · iexact B1'
    iexact B0'
  iintro ⟨Hst, Hdn⟩
  ihave Hdn' := (Entails.of_eq (dn_eq (F := F) (V1 m) d)) $$ Hdn
  icases Hdn' with ⟨T0, T1, T2, T3, T4, B1', B0'⟩
  ihave I0 := (inAt_join (V1 m) d main_v0 fullShare 2) $$ [D0 T0]
  · isplitl [D0]; · iexact D0
    iexact T0
  ihave I1 := (inAt_join (V1 m) d main_v2 fullShare 2) $$ [D1 T1]
  · isplitl [D1]; · iexact D1
    iexact T1
  ihave I2 := (inAt_join (V1 m) d main_v1 fullShare 2) $$ [D2 T2]
  · isplitl [D2]; · iexact D2
    iexact T2
  ihave I3 := (inAt_join (V1 m) d main_v5 fullShare 2) $$ [D3 T3]
  · isplitl [D3]; · iexact D3
    iexact T3
  ihave I4 := (inAt_join (V1 m) d main_v6 fullShare 2) $$ [D4 T4]
  · isplitl [D4]; · iexact D4
    iexact T4
  ihave B0 := (Entails.of_eq (nestS (F := F) d).symm) $$ B0'
  ihave B1 := (Entails.of_eq (nestP (F := F) d).symm) $$ B1'
  ihave O0 := wand_app $$ [J0 B0]
  · isplitl [J0]; · iexact J0
    iexact B0
  ihave O1 := wand_app $$ [J1 B1]
  · isplitl [J1]; · iexact J1
    iexact B1
  icases O0 with ⟨%g0, O0⟩
  icases O1 with ⟨%g1, O1⟩
  ihave Hheld := (reheld d (after opsPre (launchContents m d)) g0 g1) $$ [I0 I1 I2 I3 I4 O0 O1 Hrest]
  · isplitl [I0]; · iexact I0
    isplitl [I1]; · iexact I1
    isplitl [I2]; · iexact I2
    isplitl [I3]; · iexact I3
    isplitl [I4]; · iexact I4
    isplitl [O0]; · iexact O0
    isplitl [O1]; · iexact O1
    iexact Hrest
  rw [show seq (opsPost (F := F)) = (seq opsPost >>= fun u => Pure.pure u) from (bind_pure _).symm]
  iapply (wp_seq 𝒱 none Set.univ d (tcRefs τ sig) _ opsPost (List.forall_iff_forall_mem.1 opsPost_sub) hfreshPost
      (updOut (after opsPre (launchContents m d)) g0 g1)) $$ [Hb Hheld]
  · isplitl [Hb]; · iexact Hb
    iexact Hheld
  iintro ⟨Hb, Hheld⟩
  ihave Hs := (Entails.of_eq (held_sub_split (d.tc : Thread nD τ) hT6 (after opsPost (updOut (after opsPre (launchContents m d)) g0 g1)))) $$ Hheld
  icases Hs with ⟨H6, -⟩
  ihave H6' := (Entails.of_eq (held_T6 d (after opsPost (updOut (after opsPre (launchContents m d)) g0 g1)))) $$ H6
  rw [wp_pure]; imodintro
  isplitl [Hst]; · iexact Hst
  unfold FIN
  rw [← fin_arg0 m d g0 g1, ← fin_arg1 m d g0 g1, ← fin_arg2 m d g0 g1, ← fin_arg3 m d g0 g1, ← fin_arg4 m d g0 g1, ← fin_arg5 m d g0 g1]
  iexact H6'

end Main2

section Run
variable (m : (ℓ : Loc nD τ sig) → Buf (Elt F) ℓ) (ρ : Dev nD → PrngReg)

/-- The six arguments in a final state are the launch's. -/
def fq (d : Dev nD) (s' : Phys nD τ sig (Elt F)) : Prop :=
  s'.mem.mem ((d, Proc.devRef .tc main_arg0) : Loc nD τ sig) = m ((d, Proc.devRef .tc main_arg0) : Loc nD τ sig) ∧ s'.mem.mem ((d, Proc.devRef .tc main_arg1) : Loc nD τ sig) = m ((d, Proc.devRef .tc main_arg1) : Loc nD τ sig) ∧ s'.mem.mem ((d, Proc.devRef .tc main_arg2) : Loc nD τ sig) = m ((d, Proc.devRef .tc main_arg2) : Loc nD τ sig) ∧ s'.mem.mem ((d, Proc.devRef .tc main_arg3) : Loc nD τ sig) = m ((d, Proc.devRef .tc main_arg3) : Loc nD τ sig) ∧ s'.mem.mem ((d, Proc.devRef .tc main_arg4) : Loc nD τ sig) = m ((d, Proc.devRef .tc main_arg4) : Loc nD τ sig) ∧ s'.mem.mem ((d, Proc.devRef .tc main_arg5) : Loc nD τ sig) = m ((d, Proc.devRef .tc main_arg5) : Loc nD τ sig)

omit [FloatOps F] in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (persistent_entails_right (SI_pointsTo_agree (st := s') (ℓ := ((d, Proc.devRef .tc main_arg0) : Loc nD τ sig)) (I := Finset.univ) (q := fullShare) (f := m ((d, Proc.devRef .tc main_arg0) : Loc nD τ sig)))) $$ [HSI H0]
  · isplitl [HSI] <;> iassumption
  icases H with ⟨%h0, HSI, -⟩
  ihave H := (persistent_entails_right (SI_pointsTo_agree (st := s') (ℓ := ((d, Proc.devRef .tc main_arg1) : Loc nD τ sig)) (I := Finset.univ) (q := fullShare) (f := m ((d, Proc.devRef .tc main_arg1) : Loc nD τ sig)))) $$ [HSI H1]
  · isplitl [HSI] <;> iassumption
  icases H with ⟨%h1, HSI, -⟩
  ihave H := (persistent_entails_right (SI_pointsTo_agree (st := s') (ℓ := ((d, Proc.devRef .tc main_arg2) : Loc nD τ sig)) (I := Finset.univ) (q := fullShare) (f := m ((d, Proc.devRef .tc main_arg2) : Loc nD τ sig)))) $$ [HSI H2]
  · isplitl [HSI] <;> iassumption
  icases H with ⟨%h2, HSI, -⟩
  ihave H := (persistent_entails_right (SI_pointsTo_agree (st := s') (ℓ := ((d, Proc.devRef .tc main_arg3) : Loc nD τ sig)) (I := Finset.univ) (q := fullShare) (f := m ((d, Proc.devRef .tc main_arg3) : Loc nD τ sig)))) $$ [HSI H3]
  · isplitl [HSI] <;> iassumption
  icases H with ⟨%h3, HSI, -⟩
  ihave H := (persistent_entails_right (SI_pointsTo_agree (st := s') (ℓ := ((d, Proc.devRef .tc main_arg4) : Loc nD τ sig)) (I := Finset.univ) (q := fullShare) (f := m ((d, Proc.devRef .tc main_arg4) : Loc nD τ sig)))) $$ [HSI H4]
  · isplitl [HSI] <;> iassumption
  icases H with ⟨%h4, HSI, -⟩
  ihave H := (SI_pointsTo_agree (st := s') (ℓ := ((d, Proc.devRef .tc main_arg5) : Loc nD τ sig)) (I := Finset.univ) (q := fullShare) (f := m ((d, Proc.devRef .tc main_arg5) : Loc nD τ sig))) $$ [HSI H5]
  · isplitl [HSI] <;> iassumption
  icases H with %h5
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

/-- The claim's post: on every device the six arguments end as they began. -/
def QC : PUnit × MemSt nD τ sig (Elt F) → Prop := fun r => ∀ c : Dev nD,
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)

/-- From any launch memory whose two index arrays (as `main`'s first stretch re-lays them) hold only words below 100000:
    every weakly fair execution of all the device's threads terminates, nothing faulting, the arguments unchanged. -/
theorem run_main [∀ e, Nonempty (Elt F e)]
    (h2 : ∀ d x, (V1 m d (Proc.devRef .tc main_v2) x : BitVec 32).toNat < 100000)
    (h5 : ∀ d x, (V1 m d (Proc.devRef .tc main_v5) x : BitVec 32).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (V1 m)) facts v₀
    (fun q hq => match q with | 0 => nomatch hq)
    (fun q _ => match q with | 0 => tileObl (V1 m) facts h2 h5)
    (fun q _ => match q with | 0 => SparseCore.Cfg.VecSplit.of_plain (vecSplit (V1 m)))
    m ρ main (fun _ => iprop(emp)) (FIN m) (u₀ (F := F)) (sep_elim_left.trans (hu₀ m)) (hmain m ρ) (fq m) (hfin m) (QC m) (fun _ h => h)

/-- The re-laid index arrays hold what the arguments hold: if every word of `sparse_idx` and `seq_idx` is below 100000, so is
    every word of their transposes and reshapes. -/
theorem relaid (d : Dev nD)
    (h0 : ∀ y, (m ((d, Proc.devRef .tc main_arg0) : Loc nD τ sig) y : BitVec 32).toNat < 100000) (h1 : ∀ y, (m ((d, Proc.devRef .tc main_arg1) : Loc nD τ sig) y : BitVec 32).toNat < 100000) :
    (∀ x, (V1 m d (Proc.devRef .tc main_v2) x : BitVec 32).toNat < 100000)
      ∧ (∀ x, (V1 m d (Proc.devRef .tc main_v5) x : BitVec 32).toNat < 100000) := by
  constructor
  · intro x
    have e : V1 m d (Proc.devRef .tc main_v2) = transpose S26x4096 [1, 0] (m ((d, Proc.devRef .tc main_arg0) : Loc nD τ sig)) transposes_S4096x26_S26x4096_1_0 := by
      unfold V1; after_results
    rw [e]; exact h0 _
  · intro x
    have e : V1 m d (Proc.devRef .tc main_v5)
        = transpose S32x50x128 [1, 0, 2] (shapeCast S50x32x128 (transpose S50x4096 [1, 0] (m ((d, Proc.devRef .tc main_arg1) : Loc nD τ sig)) transposes_S4096x50_S50x4096_1_0)
            shapeCasts_S50x4096_S50x32x128) transposes_S50x32x128_S32x50x128_1_0_2 := by
      unfold V1; after_results; rfl
    rw [e]; exact h1 _

end Run

end Launch
end Cert.Proof.TileB
end
-- ==== Proof.FrameBits.lean ====
/-
  The kernel at the word level's frame: under the precondition every weakly fair execution of all the device's threads
  terminates, nothing faulting, and the six arguments end unchanged. The precondition's ranges for the two index arrays
  are what every indexed load of a tile asks.
-/
import proofs.«209320_g71347996721220_cont_9to1c4b_157_42_alg».proof.Defs
import proofs.«209320_g71347996721220_cont_9to1c4b_157_42_alg».proof.Proof.PreRanges
import proofs.«209320_g71347996721220_cont_9to1c4b_157_42_alg».proof.Proof.LaunchBits4

noncomputable section

namespace Cert.Proof.FrameB

open Idealize.ShloMosaic Idealize.SL.Sem Cert.Kernel Cert.Kernel.Gen Cert.Pre_input_domain.Gen Cert.Proof.TileB

theorem frame : Cert.frame_Kernel := fun m ρ hpre => by
  have hr := fun d => Cert.Proof.PreRanges.ranges (F := Bits) _ _ _ _ _ _ (hpre d)
  exact (θ_run Cert.Kernel.defs _ _).mono (fun _ h c => h c)
    (run_main (F := Bits) m ρ (fun d => (relaid m d (hr d).1 (hr d).2).1) (fun d => (relaid m d (hr d).1 (hr d).2).2))

end Cert.Proof.FrameB

end
-- ==== Proof.Spec.lean ====
/-
  The function both programs compute, index by index, of the six argument arrays.

  Column `c` of row `b` of the result is
  * for `c < 832`: entry `c % 32` of row `sparse_idx[b, c / 32]` of table `c / 32` (26 tables of 100000 rows of 32);
  * for `832 ≤ c < 864`: with `d = c - 832`, the mean over the first `len b` of the 50 positions `j` of entry `d` of row
    `seq_idx[b, j]` of the sequence table — the sum of those entries, each times 1 where `j < len b` and 0 elsewhere, divided by
    `max 1 (len b)`;
  * for `864 ≤ c`: `dense[b, c - 864]`.
  A table row is named by a 32-bit word read as a natural number; the precondition keeps every such word below 100000, and
  outside it the row is clamped to the last one so that the function is total.

  Two laws join the two programs' arithmetic to this form: the mask written with a maximum and a minimum over the difference
  `len - j` is the indicator of `j < len` for integers, and a product with the reciprocal `1 / n` is the quotient by `n` for a
  real `n ≠ 0`.
-/
import Idealize.ShloMosaic.PureOps.Ideal
import Idealize.ShloMosaic.Lib.ValueIdx

noncomputable section

namespace Cert.Spec

open Idealize.ShloMosaic Idealize.ShloMosaic.ValueIdx

/-- The table row a 32-bit word names: its value as a natural number, clamped to the table's 100000 rows. -/
def row (w : BitVec 32) : Fin 100000 := ⟨min w.toNat 99999, by omega⟩

theorem row_val_of_lt {w : BitVec 32} (h : w.toNat < 100000) : (row w).val = w.toNat := by
  show min w.toNat 99999 = w.toNat; omega

/-- 1 where position `j` comes before the sequence's length (a signed word), else 0. -/
def mask (len : BitVec 32) (j : Fin 50) : EReal := if (j.val : ℤ) < len.toInt then 1 else 0

/-- The divisor of the mean: the length, at least 1. -/
def denom (len : BitVec 32) : EReal := (((max 1 len.toInt : ℤ) : ℝ) : EReal)

/-- Entry `d` of the masked mean of the sequence rows of batch row `b`. -/
def pooled (seqIdx : (⟨2, ![4096, 50]⟩ : Shape).Idx → BitVec 32) (lens : (⟨1, ![4096]⟩ : Shape).Idx → BitVec 32)
    (seqTab : (⟨2, ![100000, 32]⟩ : Shape).Idx → EReal) (b : Fin 4096) (d : Fin 32) : EReal :=
  (∑ j : Fin 50, seqTab (ix2 (row (seqIdx (ix2 b j))) d) * mask (lens (ix1 b)) j) / denom (lens (ix1 b))

/-- The result array as one function of the argument arrays. -/
def G (sparseIdx : (⟨2, ![4096, 26]⟩ : Shape).Idx → BitVec 32) (seqIdx : (⟨2, ![4096, 50]⟩ : Shape).Idx → BitVec 32)
    (lens : (⟨1, ![4096]⟩ : Shape).Idx → BitVec 32) (dense : (⟨2, ![4096, 13]⟩ : Shape).Idx → EReal)
    (tabs : (⟨3, ![26, 100000, 32]⟩ : Shape).Idx → EReal) (seqTab : (⟨2, ![100000, 32]⟩ : Shape).Idx → EReal) :
    (⟨2, ![4096, 877]⟩ : Shape).Idx → EReal := fun i =>
  let b : Fin 4096 := i 0
  let c : Fin 877 := i 1
  if h : c.val < 832 then
    let f : Fin 26 := ⟨c.val / 32, by omega⟩
    tabs (ix3 f (row (sparseIdx (ix2 b f))) ⟨c.val % 32, by omega⟩)
  else if h2 : c.val < 864 then pooled seqIdx lens seqTab b ⟨c.val - 832, by omega⟩
  else dense (ix2 b ⟨c.val - 864, by have := c.isLt; omega⟩)

/-- For integers, clamping the difference `len - j` to the interval from 0 to 1 gives the indicator of `j < len`. -/
theorem clamp_eq_mask (len : BitVec 32) (j : Fin 50) :
    min (max ((((len.toInt : ℝ) : EReal)) - (((j.val : ℝ)) : EReal)) 0) 1 = mask len j := by
  unfold mask
  rw [← EReal.coe_sub]
  split
  · rename_i h
    have h1 : (1 : ℝ) ≤ (len.toInt : ℝ) - (j.val : ℝ) := by
      have : (j.val : ℤ) + 1 ≤ len.toInt := h
      have h' : (((j.val : ℤ) + 1 : ℤ) : ℝ) ≤ (len.toInt : ℝ) := by exact_mod_cast this
      push_cast at h'; linarith
    have e1 : (0 : EReal) ≤ (((len.toInt : ℝ) - (j.val : ℝ) : ℝ) : EReal) := EReal.coe_nonneg.mpr (by linarith)
    have e2 : (1 : EReal) ≤ (((len.toInt : ℝ) - (j.val : ℝ) : ℝ) : EReal) := by
      rw [← EReal.coe_one]; exact EReal.coe_le_coe_iff.mpr h1
    rw [max_eq_left e1, min_eq_right e2]
  · rename_i h
    have h1 : (len.toInt : ℝ) - (j.val : ℝ) ≤ 0 := by
      have : len.toInt ≤ (j.val : ℤ) := not_lt.mp h
      have h' : (len.toInt : ℝ) ≤ ((j.val : ℤ) : ℝ) := by exact_mod_cast this
      push_cast at h'; linarith
    have e1 : (((len.toInt : ℝ) - (j.val : ℝ) : ℝ) : EReal) ≤ 0 := EReal.coe_nonpos.mpr h1
    have e2 : (0 : EReal) ≤ 1 := by exact_mod_cast (zero_le_one : (0 : ℝ) ≤ 1)
    rw [max_eq_right e1, min_eq_left e2]

/-- A product with the reciprocal of a nonzero real is the quotient by it, on every extended real. -/
theorem mul_one_div_eq_div (x : EReal) {n : ℝ} (hn : n ≠ 0) :
    x * Ideal.div 1 (n : EReal) = Ideal.div x (n : EReal) := by
  rw [Ideal.div_coe hn, Ideal.div_coe hn, one_mul]

end Cert.Spec

end
-- ==== Proof.RefValue.lean ====
/-
  The reference's half of the value claim: the fold of the reference's operations over a launch memory whose two index
  arrays hold words below 100000 has, at the result buffer, the function `Cert.Spec.G` of the six arguments.

  The result buffer is the concatenation along the columns of three blocks. Columns below 832: the gather of the 26
  tables by the pairs (table number, normalised word), reshaped from [4096, 26, 32] to [4096, 832] — column `32 f + e`
  is entry `e` of the row the word `sparse_idx[b, f]` names in table `f`; the table number is an iota, the
  normalisation `select (w < 0) (w + n) w` is the identity on a word below 100000 read signed, and the gather's clamp
  is the identity on a start index in range. Columns 832 to 863: the fill-mode take of the sequence table (its in-range
  test is 1 at every index, so its select keeps the gathered entry), times the mask (the comparison `j < len` as 0 or 1),
  summed over the 50 positions from the initial value 0, divided by `max 1 len` as a real number, which is not zero, so
  that the ideal quotient is the extended reals' `x / y`. Columns from 864: the dense argument, unchanged.
  Each operation is read at an index written by its coordinates.
-/
import proofs.«209320_g71347996721220_cont_9to1c4b_157_42_alg».proof.Proof.RefRun
import proofs.«209320_g71347996721220_cont_9to1c4b_157_42_alg».proof.Proof.Spec
import Idealize.ShloMosaic.Lib.IdealHost
import Idealize.ShloMosaic.Lib.Pipeline.Value

noncomputable section

namespace Cert.Proof.RefValue

open Idealize.ShloMosaic Idealize.ShloMosaic.TcCoe Idealize.SL.Sem Idealize.ShloMosaic.StableHlo
open Cert.ReferenceIdeal Cert.ReferenceIdeal.Gen
open Cert.ReferenceIdeal.HandRun Idealize.ShloMosaic.ValueIdx

/-! ## Words -/

/-- A word below 100000 read signed is its value as a natural number. -/
theorem toInt_of_lt {w : BitVec 32} (h : w.toNat < 100000) : w.toInt = (w.toNat : ℤ) := by
  rw [BitVec.toInt_eq_toNat_cond, if_pos (by omega)]

/-- The index normalisation `select (w < 0) (w + n) w` is the identity on a word below 100000. -/
theorem norm_word {w : BitVec 32} (n : BitVec 32) (h : w.toNat < 100000) :
    Scalar.select (IntOp.cmpi .slt w 0#32) (IntOp.addi w n) w = w := by
  have h0 : (0#32 : BitVec 32).toInt = 0 := by decide
  unfold Scalar.select
  rw [if_neg]
  intro e
  have := IntOp.cmpi_slt.mp e
  rw [toInt_of_lt h, h0] at this
  omega

/-- A word below 100000 lies in the range the fill-mode take tests. -/
theorem inrange_word {w : BitVec 32} (h : w.toNat < 100000) :
    IntOp.andi (IntOp.cmpi .sge w 0#32) (IntOp.cmpi .sle w 99999#32) = 1#1 := by
  have h0 : (0#32 : BitVec 32).toInt = 0 := by decide
  have h9 : (99999#32 : BitVec 32).toInt = 99999 := by decide
  refine IntOp.andi_eq_one.mpr ⟨IntOp.cmpi_sge.mpr ?_, IntOp.cmpi_sle.mpr ?_⟩
  · rw [toInt_of_lt h, h0]; omega
  · rw [toInt_of_lt h, h9]; omega

/-- The clamped start index of a word below 100000 is the row it names. -/
theorem start_eq_row {w : BitVec 32} (h : w.toNat < 100000) (p : min w.toInt.toNat 99999 < 100000) :
    (⟨min w.toInt.toNat 99999, p⟩ : Fin 100000) = Cert.Spec.row w :=
  Fin.ext (by show min w.toInt.toNat 99999 = min w.toNat 99999; rw [toInt_of_lt h, Int.toNat_natCast])

/-- The signed maximum of 1 and a word, read signed. -/
theorem maxsi_one_toInt (len : BitVec 32) : (IntOp.maxsi 1#32 len).toInt = max 1 len.toInt := by
  have h1 : (1#32 : BitVec 32).toInt = 1 := by decide
  unfold IntOp.maxsi
  by_cases h : len.slt 1#32 = true
  · rw [if_pos h]; rw [BitVec.slt_iff_toInt_lt, h1] at h; rw [h1]; omega
  · rw [if_neg h]; rw [BitVec.slt_iff_toInt_lt, h1] at h; omega

/-- The comparison `j < len` as a 0/1 number is the mask. -/
theorem mask_word (len : BitVec 32) (j : Fin 50) :
    (((IntOp.cmpi .slt (BitVec.ofNat 32 j.val) len).toNat : ℝ) : EReal) = Cert.Spec.mask len j := by
  have hjn : (BitVec.ofNat 32 j.val).toNat = j.val := by
    rw [BitVec.toNat_ofNat]; exact Nat.mod_eq_of_lt (by have := j.isLt; omega)
  have hj : (BitVec.ofNat 32 j.val).toInt = (j.val : ℤ) := by
    rw [toInt_of_lt (by rw [hjn]; have := j.isLt; omega), hjn]
  unfold Cert.Spec.mask
  by_cases h : (j.val : ℤ) < len.toInt
  · rw [if_pos h, IntOp.cmpi_slt.mpr (by rw [hj]; exact h)]
    norm_num
  · have hz : IntOp.cmpi .slt (BitVec.ofNat 32 j.val) len = 0#1 :=
      eq_zero_of_ne_one fun e => h (by rw [← hj]; exact IntOp.cmpi_slt.mp e)
    rw [if_neg h, hz]
    norm_num

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- A reduce by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun i _ => hx i

/-! ## Elementwise operations at an index -/

section Apply
variable {s : Shape} {w : Nat}
theorem cmpi_apply (p : CmpIPredicate) (x y : IVec s w) (i : s.Idx) : cmpi p x y i = IntOp.cmpi p (x i) (y i) := rfl
theorem andi_apply (x y : IVec s w) (i : s.Idx) : andi x y i = IntOp.andi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem constantI_apply (b : BitVec w) (i : s.Idx) : constantI s w b i = b := rfl
theorem bc_constantI {t : Shape} (dims : Fin s.rank → Fin t.rank) (h : s.BroadcastsInDim t dims) (v : BitVec w) (j : t.Idx) :
    broadcastInDim t dims h (constantI s w v) j = v := rfl
theorem uitofp_apply (x : IVec s w) (i : s.Idx) : (uitofp .f32 x : FVec Ideal s .f32) i = (((x i).toNat : ℝ) : EReal) := rfl
theorem sitofp_apply' (x : IVec s w) (i : s.Idx) : (sitofp .f32 x : FVec Ideal s .f32) i = (((x i).toInt : ℝ) : EReal) := rfl
end Apply

/-! ## The program's broadcasts at an index -/

section Layout
variable {α : Type}

theorem bc_4096x50x1_x32 (h : S4096x50x1.BroadcastsInDim S4096x50x32 ![0, 1, 2]) (x : S4096x50x1.Idx → α)
    (b : Fin 4096) (j : Fin 50) (d : Fin 32) : broadcastInDim S4096x50x32 ![0, 1, 2] h x (ix3 b j d) = x (ix3 b j (0 : Fin 1)) :=
  broadcastInDim_apply _ h x _ _ fun a => match a with | ⟨0, _⟩ => rfl | ⟨1, _⟩ => rfl | ⟨2, _⟩ => rfl
theorem bc_4096x50_x1 (h : S4096x50.BroadcastsInDim S4096x50x1 ![0, 1]) (x : S4096x50.Idx → α)
    (b : Fin 4096) (j : Fin 50) (z : Fin 1) : broadcastInDim S4096x50x1 ![0, 1] h x (ix3 b j z) = x (ix2 b j) :=
  broadcastInDim_apply _ h x _ _ fun a => match a with | ⟨0, _⟩ => rfl | ⟨1, _⟩ => rfl
theorem bc_1x50_4096x50 (h : S1x50.BroadcastsInDim S4096x50 ![0, 1]) (x : S1x50.Idx → α)
    (b : Fin 4096) (j : Fin 50) : broadcastInDim S4096x50 ![0, 1] h x (ix2 b j) = x (ix2 (0 : Fin 1) j) :=
  broadcastInDim_apply _ h x _ _ fun a => match a with | ⟨0, _⟩ => rfl | ⟨1, _⟩ => rfl
theorem bc_50_1x50 (h : S50.BroadcastsInDim S1x50 ![1]) (x : S50.Idx → α)
    (z : Fin 1) (j : Fin 50) : broadcastInDim S1x50 ![1] h x (ix2 z j) = x (ix1 j) :=
  broadcastInDim_apply _ h x _ _ fun a => match a with | ⟨0, _⟩ => rfl
theorem bc_4096x1_x50 (h : S4096x1.BroadcastsInDim S4096x50 ![0, 1]) (x : S4096x1.Idx → α)
    (b : Fin 4096) (j : Fin 50) : broadcastInDim S4096x50 ![0, 1] h x (ix2 b j) = x (ix2 b (0 : Fin 1)) :=
  broadcastInDim_apply _ h x _ _ fun a => match a with | ⟨0, _⟩ => rfl | ⟨1, _⟩ => rfl
theorem bc_4096_x1 (h : S4096.BroadcastsInDim S4096x1 ![0]) (x : S4096.Idx → α)
    (b : Fin 4096) (z : Fin 1) : broadcastInDim S4096x1 ![0] h x (ix2 b z) = x (ix1 b) :=
  broadcastInDim_apply _ h x _ _ fun a => match a with | ⟨0, _⟩ => rfl
theorem bc_4096x1_x32 (h : S4096x1.BroadcastsInDim S4096x32 ![0, 1]) (x : S4096x1.Idx → α)
    (b : Fin 4096) (d : Fin 32) : broadcastInDim S4096x32 ![0, 1] h x (ix2 b d) = x (ix2 b (0 : Fin 1)) :=
  broadcastInDim_apply _ h x _ _ fun a => match a with | ⟨0, _⟩ => rfl | ⟨1, _⟩ => rfl
theorem bc_4096x50_x32 (h : S4096x50.BroadcastsInDim S4096x50x32 ![0, 1]) (x : S4096x50.Idx → α)
    (b : Fin 4096) (j : Fin 50) (d : Fin 32) : broadcastInDim S4096x50x32 ![0, 1] h x (ix3 b j d) = x (ix2 b j) :=
  broadcastInDim_apply _ h x _ _ fun a => match a with | ⟨0, _⟩ => rfl | ⟨1, _⟩ => rfl
theorem bc_1x1x1_4096x50x1 (h : S1x1x1.BroadcastsInDim S4096x50x1 ![0, 1, 2]) (x : S1x1x1.Idx → α)
    (b : Fin 4096) (j : Fin 50) (z : Fin 1) :
    broadcastInDim S4096x50x1 ![0, 1, 2] h x (ix3 b j z) = x (ix3 (0 : Fin 1) (0 : Fin 1) (0 : Fin 1)) :=
  broadcastInDim_apply _ h x _ _ fun a => match a with | ⟨0, _⟩ => rfl | ⟨1, _⟩ => rfl | ⟨2, _⟩ => rfl
theorem bc_26_1x26 (h : S26.BroadcastsInDim S1x26 ![1]) (x : S26.Idx → α)
    (z : Fin 1) (f : Fin 26) : broadcastInDim S1x26 ![1] h x (ix2 z f) = x (ix1 f) :=
  broadcastInDim_apply _ h x _ _ fun a => match a with | ⟨0, _⟩ => rfl
theorem bc_1x26_4096x26 (h : S1x26.BroadcastsInDim S4096x26 ![0, 1]) (x : S1x26.Idx → α)
    (b : Fin 4096) (f : Fin 26) : broadcastInDim S4096x26 ![0, 1] h x (ix2 b f) = x (ix2 (0 : Fin 1) f) :=
  broadcastInDim_apply _ h x _ _ fun a => match a with | ⟨0, _⟩ => rfl | ⟨1, _⟩ => rfl
theorem bc_4096x26_x1 (h : S4096x26.BroadcastsInDim S4096x26x1 ![0, 1]) (x : S4096x26.Idx → α)
    (b : Fin 4096) (f : Fin 26) (z : Fin 1) : broadcastInDim S4096x26x1 ![0, 1] h x (ix3 b f z) = x (ix2 b f) :=
  broadcastInDim_apply _ h x _ _ fun a => match a with | ⟨0, _⟩ => rfl | ⟨1, _⟩ => rfl

end Layout

/-! ## The two gathers at an index -/

section Gather
variable {α : Type}

/-- The sequence table's gather at `(b, j, d)`: entry `d` of the row the start index `idx[b, j, 0]` names, read signed
    and clamped to the table. -/
theorem gather_seq_apply (x : S100000x32.Idx → α) (idx : IVec S4096x50x1 32) (b : Fin 4096) (j : Fin 50) (d : Fin 32) :
    Host.gather gather_S100000x32_S4096x50x1_S4096x50x32_2_0_n_n_0_2_132 x idx (ix3 b j d)
      = x (ix2 (⟨min (idx (ix3 b j (0 : Fin 1))).toInt.toNat 99999, by omega⟩ : Fin 100000) d) := by
  unfold Host.gather
  congr 1
  funext a
  refine Fin.ext ?_
  match a with
  | ⟨0, _⟩ =>
    show (gather_S100000x32_S4096x50x1_S4096x50x32_2_0_n_n_0_2_132).start (ix3 b j d) idx (0 : Fin 2) + (gather_S100000x32_S4096x50x1_S4096x50x32_2_0_n_n_0_2_132).batchCoord (ix3 b j d) (0 : Fin 2) + (gather_S100000x32_S4096x50x1_S4096x50x32_2_0_n_n_0_2_132).offCoord (ix3 b j d) (0 : Fin 2) = _
    rw [GatherDims.batchCoord_eq_zero _ _ _ (show (0 : Fin 2) ∉ (gather_S100000x32_S4096x50x1_S4096x50x32_2_0_n_n_0_2_132).operandBatchingDims by decide),
      GatherDims.offCoord_eq_zero _ _ _ (show (0 : Fin 2) ∉ (gather_S100000x32_S4096x50x1_S4096x50x32_2_0_n_n_0_2_132).sKept by decide)]
    simp only [Nat.add_zero]
    unfold GatherDims.start
    rw [dif_pos (show (0 : Fin 2) ∈ (gather_S100000x32_S4096x50x1_S4096x50x32_2_0_n_n_0_2_132).startIndexMap by decide)]
    have hsi : (gather_S100000x32_S4096x50x1_S4096x50x32_2_0_n_n_0_2_132).siIdx (ix3 b j d) ⟨List.idxOf (0 : Fin 2) (gather_S100000x32_S4096x50x1_S4096x50x32_2_0_n_n_0_2_132).startIndexMap,
        List.idxOf_lt_length_iff.2 (show (0 : Fin 2) ∈ (gather_S100000x32_S4096x50x1_S4096x50x32_2_0_n_n_0_2_132).startIndexMap by decide)⟩ = ix3 b j (0 : Fin 1) := by
      funext c; refine Fin.ext ?_
      match c with
      | ⟨0, _⟩ => rfl
      | ⟨1, _⟩ => rfl
      | ⟨2, _⟩ => rfl
    rw [hsi]
    rfl
  | ⟨1, _⟩ =>
    show (gather_S100000x32_S4096x50x1_S4096x50x32_2_0_n_n_0_2_132).start (ix3 b j d) idx (1 : Fin 2) + (gather_S100000x32_S4096x50x1_S4096x50x32_2_0_n_n_0_2_132).batchCoord (ix3 b j d) (1 : Fin 2) + (gather_S100000x32_S4096x50x1_S4096x50x32_2_0_n_n_0_2_132).offCoord (ix3 b j d) (1 : Fin 2) = _
    rw [GatherDims.batchCoord_eq_zero _ _ _ (show (1 : Fin 2) ∉ (gather_S100000x32_S4096x50x1_S4096x50x32_2_0_n_n_0_2_132).operandBatchingDims by decide)]
    unfold GatherDims.start
    rw [dif_neg (show (1 : Fin 2) ∉ (gather_S100000x32_S4096x50x1_S4096x50x32_2_0_n_n_0_2_132).startIndexMap by decide)]
    simp only [Nat.add_zero, Nat.zero_add]
    rfl

/-- The sparse tables' gather at `(b, f, e)`: entry `e` of the row `idx[b, f, 1]` of the table `idx[b, f, 0]`, both read signed
    and clamped. -/
theorem gather_tab_apply (x : S26x100000x32.Idx → α) (idx : IVec S4096x26x2 32) (b : Fin 4096) (f : Fin 26) (e : Fin 32) :
    Host.gather gather_S26x100000x32_S4096x26x2_S4096x26x32_2_01_n_n_01_2_1132 x idx (ix3 b f e)
      = x (ix3 (⟨min (idx (ix3 b f (0 : Fin 2))).toInt.toNat 25, by omega⟩ : Fin 26)
          (⟨min (idx (ix3 b f (1 : Fin 2))).toInt.toNat 99999, by omega⟩ : Fin 100000) e) := by
  unfold Host.gather
  congr 1
  funext a
  refine Fin.ext ?_
  match a with
  | ⟨0, _⟩ =>
    show (gather_S26x100000x32_S4096x26x2_S4096x26x32_2_01_n_n_01_2_1132).start (ix3 b f e) idx (0 : Fin 3) + (gather_S26x100000x32_S4096x26x2_S4096x26x32_2_01_n_n_01_2_1132).batchCoord (ix3 b f e) (0 : Fin 3) + (gather_S26x100000x32_S4096x26x2_S4096x26x32_2_01_n_n_01_2_1132).offCoord (ix3 b f e) (0 : Fin 3) = _
    rw [GatherDims.batchCoord_eq_zero _ _ _ (show (0 : Fin 3) ∉ (gather_S26x100000x32_S4096x26x2_S4096x26x32_2_01_n_n_01_2_1132).operandBatchingDims by decide),
      GatherDims.offCoord_eq_zero _ _ _ (show (0 : Fin 3) ∉ (gather_S26x100000x32_S4096x26x2_S4096x26x32_2_01_n_n_01_2_1132).sKept by decide)]
    simp only [Nat.add_zero]
    unfold GatherDims.start
    rw [dif_pos (show (0 : Fin 3) ∈ (gather_S26x100000x32_S4096x26x2_S4096x26x32_2_01_n_n_01_2_1132).startIndexMap by decide)]
    have hsi : (gather_S26x100000x32_S4096x26x2_S4096x26x32_2_01_n_n_01_2_1132).siIdx (ix3 b f e) ⟨List.idxOf (0 : Fin 3) (gather_S26x100000x32_S4096x26x2_S4096x26x32_2_01_n_n_01_2_1132).startIndexMap,
        List.idxOf_lt_length_iff.2 (show (0 : Fin 3) ∈ (gather_S26x100000x32_S4096x26x2_S4096x26x32_2_01_n_n_01_2_1132).startIndexMap by decide)⟩ = ix3 b f (0 : Fin 2) := by
      funext c; refine Fin.ext ?_
      match c with
      | ⟨0, _⟩ => rfl
      | ⟨1, _⟩ => rfl
      | ⟨2, _⟩ => rfl
    rw [hsi]
    rfl
  | ⟨1, _⟩ =>
    show (gather_S26x100000x32_S4096x26x2_S4096x26x32_2_01_n_n_01_2_1132).start (ix3 b f e) idx (1 : Fin 3) + (gather_S26x100000x32_S4096x26x2_S4096x26x32_2_01_n_n_01_2_1132).batchCoord (ix3 b f e) (1 : Fin 3) + (gather_S26x100000x32_S4096x26x2_S4096x26x32_2_01_n_n_01_2_1132).offCoord (ix3 b f e) (1 : Fin 3) = _
    rw [GatherDims.batchCoord_eq_zero _ _ _ (show (1 : Fin 3) ∉ (gather_S26x100000x32_S4096x26x2_S4096x26x32_2_01_n_n_01_2_1132).operandBatchingDims by decide),
      GatherDims.offCoord_eq_zero _ _ _ (show (1 : Fin 3) ∉ (gather_S26x100000x32_S4096x26x2_S4096x26x32_2_01_n_n_01_2_1132).sKept by decide)]
    simp only [Nat.add_zero]
    unfold GatherDims.start
    rw [dif_pos (show (1 : Fin 3) ∈ (gather_S26x100000x32_S4096x26x2_S4096x26x32_2_01_n_n_01_2_1132).startIndexMap by decide)]
    have hsi : (gather_S26x100000x32_S4096x26x2_S4096x26x32_2_01_n_n_01_2_1132).siIdx (ix3 b f e) ⟨List.idxOf (1 : Fin 3) (gather_S26x100000x32_S4096x26x2_S4096x26x32_2_01_n_n_01_2_1132).startIndexMap,
        List.idxOf_lt_length_iff.2 (show (1 : Fin 3) ∈ (gather_S26x100000x32_S4096x26x2_S4096x26x32_2_01_n_n_01_2_1132).startIndexMap by decide)⟩ = ix3 b f (1 : Fin 2) := by
      funext c; refine Fin.ext ?_
      match c with
      | ⟨0, _⟩ => rfl
      | ⟨1, _⟩ => rfl
      | ⟨2, _⟩ => rfl
    rw [hsi]
    rfl
  | ⟨2, _⟩ =>
    show (gather_S26x100000x32_S4096x26x2_S4096x26x32_2_01_n_n_01_2_1132).start (ix3 b f e) idx (2 : Fin 3) + (gather_S26x100000x32_S4096x26x2_S4096x26x32_2_01_n_n_01_2_1132).batchCoord (ix3 b f e) (2 : Fin 3) + (gather_S26x100000x32_S4096x26x2_S4096x26x32_2_01_n_n_01_2_1132).offCoord (ix3 b f e) (2 : Fin 3) = _
    rw [GatherDims.batchCoord_eq_zero _ _ _ (show (2 : Fin 3) ∉ (gather_S26x100000x32_S4096x26x2_S4096x26x32_2_01_n_n_01_2_1132).operandBatchingDims by decide)]
    unfold GatherDims.start
    rw [dif_neg (show (2 : Fin 3) ∉ (gather_S26x100000x32_S4096x26x2_S4096x26x32_2_01_n_n_01_2_1132).startIndexMap by decide)]
    simp only [Nat.add_zero, Nat.zero_add]
    rfl

/-- The same with the row named: `r` is the start index read signed and clamped. -/
theorem gather_seq_apply' (x : S100000x32.Idx → α) (idx : IVec S4096x50x1 32) (b : Fin 4096) (j : Fin 50) (d : Fin 32)
    (r : Fin 100000) (hr : min (idx (ix3 b j (0 : Fin 1))).toInt.toNat 99999 = r.val) :
    Host.gather gather_S100000x32_S4096x50x1_S4096x50x32_2_0_n_n_0_2_132 x idx (ix3 b j d) = x (ix2 r d) := by
  rw [gather_seq_apply]
  exact congrArg (fun t => x (ix2 t d)) (Fin.ext hr)

/-- The same with the table and the row named. -/
theorem gather_tab_apply' (x : S26x100000x32.Idx → α) (idx : IVec S4096x26x2 32) (b : Fin 4096) (f : Fin 26) (e : Fin 32)
    (t : Fin 26) (r : Fin 100000) (ht : min (idx (ix3 b f (0 : Fin 2))).toInt.toNat 25 = t.val)
    (hr : min (idx (ix3 b f (1 : Fin 2))).toInt.toNat 99999 = r.val) :
    Host.gather gather_S26x100000x32_S4096x26x2_S4096x26x32_2_01_n_n_01_2_1132 x idx (ix3 b f e) = x (ix3 t r e) := by
  rw [gather_tab_apply]
  exact congrArg₂ (fun t r => x (ix3 t r e)) (Fin.ext ht) (Fin.ext hr)

end Gather

/-! ## The six arguments of a valuation, at their array types -/

abbrev sparseIdxOf (V : Valuation τ sig (Elt Ideal)) : S4096x26.Idx → BitVec 32 := V (main_arg0 : DevRef τ sig)
abbrev seqIdxOf (V : Valuation τ sig (Elt Ideal)) : S4096x50.Idx → BitVec 32 := V (main_arg1 : DevRef τ sig)
abbrev lensOf (V : Valuation τ sig (Elt Ideal)) : S4096.Idx → BitVec 32 := V (main_arg2 : DevRef τ sig)
abbrev denseOf (V : Valuation τ sig (Elt Ideal)) : S4096x13.Idx → EReal := V (main_arg3 : DevRef τ sig)
abbrev tabsOf (V : Valuation τ sig (Elt Ideal)) : S26x100000x32.Idx → EReal := V (main_arg4 : DevRef τ sig)
abbrev seqTabOf (V : Valuation τ sig (Elt Ideal)) : S100000x32.Idx → EReal := V (main_arg5 : DevRef τ sig)

/-! ## The index pair's concatenation at an index -/

section Cat
variable {α : Type}

theorem cat_idx_left (h : Shape.Concatenates [S4096x26x1, S4096x26x1] S4096x26x2 2) (x y : S4096x26x1.Idx → α)
    (b : Fin 4096) (f : Fin 26) :
    concatenate S4096x26x2 2 [⟨S4096x26x1, x⟩, ⟨S4096x26x1, y⟩] h (ix3 b f (0 : Fin 2)) = x (ix3 b f (0 : Fin 1)) :=
  concatenate_apply_piece (t := S4096x26x2) 2 [⟨S4096x26x1, x⟩, ⟨S4096x26x1, y⟩] h _ 0 (by show (0 : ℕ) < 2; omega) S4096x26x1 x rfl rfl 0 rfl (ix3 b f (0 : Fin 1))
    (fun a ha => match a with | ⟨0, _⟩ => rfl | ⟨1, _⟩ => rfl | ⟨2, _⟩ => absurd rfl ha) rfl

theorem cat_idx_right (h : Shape.Concatenates [S4096x26x1, S4096x26x1] S4096x26x2 2) (x y : S4096x26x1.Idx → α)
    (b : Fin 4096) (f : Fin 26) :
    concatenate S4096x26x2 2 [⟨S4096x26x1, x⟩, ⟨S4096x26x1, y⟩] h (ix3 b f (1 : Fin 2)) = y (ix3 b f (0 : Fin 1)) :=
  concatenate_apply_piece (t := S4096x26x2) 2 [⟨S4096x26x1, x⟩, ⟨S4096x26x1, y⟩] h _ 1 (by show (1 : ℕ) < 2; omega) S4096x26x1 y rfl rfl 1 rfl (ix3 b f (0 : Fin 1))
    (fun a ha => match a with | ⟨0, _⟩ => rfl | ⟨1, _⟩ => rfl | ⟨2, _⟩ => absurd rfl ha) rfl

theorem cat3_left (h : Shape.Concatenates [S4096x832, S4096x32, S4096x13] S4096x877 1) (x : S4096x832.Idx → α)
    (y : S4096x32.Idx → α) (z : S4096x13.Idx → α) (b : Fin 4096) (c : Fin 877) (hc : c.val < 832) :
    concatenate S4096x877 1 [⟨S4096x832, x⟩, ⟨S4096x32, y⟩, ⟨S4096x13, z⟩] h (ix2 b c) = x (ix2 b ⟨c.val, hc⟩) :=
  concatenate_apply_piece (t := S4096x877) 1 [⟨S4096x832, x⟩, ⟨S4096x32, y⟩, ⟨S4096x13, z⟩] h _ 0
    (by show (0 : ℕ) < 3; omega) S4096x832 x rfl rfl 0 rfl (ix2 b ⟨c.val, hc⟩)
    (fun a ha => match a with | ⟨0, _⟩ => rfl | ⟨1, _⟩ => absurd rfl ha) (by show 0 + c.val = c.val; omega)

theorem cat3_mid (h : Shape.Concatenates [S4096x832, S4096x32, S4096x13] S4096x877 1) (x : S4096x832.Idx → α)
    (y : S4096x32.Idx → α) (z : S4096x13.Idx → α) (b : Fin 4096) (c : Fin 877) (h1 : 832 ≤ c.val) (h2 : c.val < 864) :
    concatenate S4096x877 1 [⟨S4096x832, x⟩, ⟨S4096x32, y⟩, ⟨S4096x13, z⟩] h (ix2 b c)
      = y (ix2 b (⟨c.val - 832, by omega⟩ : Fin 32)) :=
  concatenate_apply_piece (t := S4096x877) 1 [⟨S4096x832, x⟩, ⟨S4096x32, y⟩, ⟨S4096x13, z⟩] h _ 1
    (by show (1 : ℕ) < 3; omega) S4096x32 y rfl rfl 832 rfl (ix2 b (⟨c.val - 832, by omega⟩ : Fin 32))
    (fun a ha => match a with | ⟨0, _⟩ => rfl | ⟨1, _⟩ => absurd rfl ha) (by show 832 + (c.val - 832) = c.val; omega)

theorem cat3_right (h : Shape.Concatenates [S4096x832, S4096x32, S4096x13] S4096x877 1) (x : S4096x832.Idx → α)
    (y : S4096x32.Idx → α) (z : S4096x13.Idx → α) (b : Fin 4096) (c : Fin 877) (h1 : 864 ≤ c.val) :
    concatenate S4096x877 1 [⟨S4096x832, x⟩, ⟨S4096x32, y⟩, ⟨S4096x13, z⟩] h (ix2 b c)
      = z (ix2 b (⟨c.val - 864, by have := c.isLt; omega⟩ : Fin 13)) :=
  concatenate_apply_piece (t := S4096x877) 1 [⟨S4096x832, x⟩, ⟨S4096x32, y⟩, ⟨S4096x13, z⟩] h _ 2
    (by show (2 : ℕ) < 3; omega) S4096x13 z rfl rfl 864 rfl (ix2 b (⟨c.val - 864, by have := c.isLt; omega⟩ : Fin 13))
    (fun a ha => match a with | ⟨0, _⟩ => rfl | ⟨1, _⟩ => absurd rfl ha) (by show 864 + (c.val - 864) = c.val; omega)

end Cat

/-! ## The sparse columns -/

/-- The table number `f` as a word, read signed and clamped to the 26 tables, is `f`. -/
theorem tab_word (f : Fin 26) (p : min (BitVec.ofNat 32 f.val).toInt.toNat 25 < 26) :
    (⟨min (BitVec.ofNat 32 f.val).toInt.toNat 25, p⟩ : Fin 26) = f := by
  have hfn : (BitVec.ofNat 32 f.val).toNat = f.val := by
    rw [BitVec.toNat_ofNat]; exact Nat.mod_eq_of_lt (by have := f.isLt; omega)
  refine Fin.ext ?_
  show min (BitVec.ofNat 32 f.val).toInt.toNat 25 = f.val
  rw [toInt_of_lt (by rw [hfn]; have := f.isLt; omega), Int.toNat_natCast, hfn]
  have := f.isLt; omega

set_option maxRecDepth 8192 in
set_option maxHeartbeats 4000000 in
/-- The reshaped gather at `(b, 32 f + e)`: entry `e` of row `sparse_idx[b, f]` of table `f`. -/
theorem v17_apply (V : Valuation τ sig (Elt Ideal))
    (h0 : ∀ y, (sparseIdxOf V y).toNat < 100000) (b : Fin 4096) (f : Fin 26) (e : Fin 32) :
    after (ops (F := Ideal)) V (main_v17 : DevRef τ sig) (ix2 b (⟨32 * f.val + e.val, by omega⟩ : Fin 832))
      = tabsOf V (ix3 f (Cert.Spec.row (sparseIdxOf V (ix2 b f))) e) := by
  have hf : (BitVec.ofNat 32 f.val).toNat < 100000 := by
    rw [BitVec.toNat_ofNat, Nat.mod_eq_of_lt (by have := f.isLt; omega)]; have := f.isLt; omega
  after_results_simp
  refine (shapeCast_apply _ _ _ (ix3 b f e) ?_).trans ?_
  · show (S4096x26x32.rowMajor (ix3 b f e)).val = (S4096x832.rowMajor (ix2 b (⟨32 * f.val + e.val, by omega⟩ : Fin 832))).val
    rw [Shape.rowMajor_val_three, Shape.rowMajor_val_two]
    show (b.val * 26 + f.val) * 32 + e.val = b.val * 832 + (32 * f.val + e.val)
    omega
  refine gather_tab_apply' _ _ b f e f (Cert.Spec.row (sparseIdxOf V (ix2 b f))) ?_ ?_
  · rw [cat_idx_left]
    after_results_simp
    rw [bc_4096x26_x1, bc_1x26_4096x26]
    simp only [select_apply, cmpi_apply, addi_apply, bc_constantI]
    rw [bc_26_1x26]
    show min (Scalar.select (IntOp.cmpi .slt (BitVec.ofNat 32 f.val) 0#32) (IntOp.addi (BitVec.ofNat 32 f.val) 26#32)
      (BitVec.ofNat 32 f.val)).toInt.toNat 25 = f.val
    rw [norm_word _ hf]
    exact congrArg Fin.val (tab_word f (by omega))
  · rw [cat_idx_right]
    after_results_simp
    rw [bc_4096x26_x1]
    simp only [select_apply, cmpi_apply, addi_apply, bc_constantI]
    rw [norm_word _ (h0 _), toInt_of_lt (h0 _), Int.toNat_natCast]
    rfl

/-! ## The pooled columns -/

set_option maxRecDepth 8192 in
set_option maxHeartbeats 4000000 in
/-- The quotient buffer at `(b, d)` is the masked mean: the fill-mode take's test is true everywhere, its gather reads the
    rows the words name, the mask is the indicator of `j < len`, the divisor is `max 1 len`. -/
theorem v34_apply (V : Valuation τ sig (Elt Ideal))
    (h1 : ∀ y, (seqIdxOf V y).toNat < 100000) (b : Fin 4096) (d : Fin 32) :
    after (ops (F := Ideal)) V (main_v34 : DevRef τ sig) (ix2 b d)
      = Cert.Spec.pooled (seqIdxOf V) (lensOf V) (seqTabOf V) b d := by
  have hred : S4096x50x32.Reduces [1] S4096x32 := by decide
  have hl : ∀ k : Fin 50, hred.lift (ix2 b d) k = ix3 b k d := fun k => funext fun a => Fin.ext <|
    match a with | ⟨0, _⟩ => rfl | ⟨1, _⟩ => rfl | ⟨2, _⟩ => rfl
  after_results_simp
  simp only [cast_eq]
  rw [hostDivf_apply, hostReduceAdd_apply, Ideal.hostReduceAdd_single _ hred]
  refine Eq.trans (congrArg₂ Ideal.div
    (?_ : _ = 0 + ∑ j : Fin 50, seqTabOf V (ix2 (Cert.Spec.row (seqIdxOf V (ix2 b j))) d) * Cert.Spec.mask (lensOf V (ix1 b)) j)
    (?_ : _ = Cert.Spec.denom (lensOf V (ix1 b)))) ?_
  · refine congrArg₂ (· + ·) Ideal.ofBits_zero_f32 (Finset.sum_congr rfl fun (j : Fin 50) _ => ?_)
    rw [hl j, mulf_apply]
    refine congrArg₂ (· * ·) ?_ ?_
    · rw [select_apply, bc_4096x50_x32, reduce_andi_one _ _ _ _ _ ?_ rfl, select_one]
      · refine gather_seq_apply' _ _ b j d (Cert.Spec.row (seqIdxOf V (ix2 b j))) ?_
        rw [bc_4096x50_x1]
        simp only [select_apply, cmpi_apply, addi_apply, bc_constantI]
        rw [norm_word _ (h1 _), toInt_of_lt (h1 _), Int.toNat_natCast]
        rfl
      · intro i
        obtain ⟨b', j', z, rfl⟩ : ∃ b' j' z, i = ix3 b' j' z := ⟨i 0, i 1, i 2, eq_ix3 i⟩
        simp only [andi_apply, cmpi_apply]
        rw [bc_4096x50_x1, bc_1x1x1_4096x50x1]
        simp only [select_apply, cmpi_apply, addi_apply, bc_constantI]
        rw [norm_word _ (h1 _)]
        exact inrange_word (h1 _)
    · rw [bc_4096x50x1_x32, bc_4096x50_x1, uitofp_apply, cmpi_apply, bc_1x50_4096x50, bc_50_1x50, bc_4096x1_x50, bc_4096_x1]
      exact mask_word _ _
  · rw [bc_4096x1_x32, bc_4096_x1, sitofp_apply', maxsi_apply, broadcastInDim_scalar_apply]
    show (((IntOp.maxsi 1#32 (lensOf V (ix1 b))).toInt : ℝ) : EReal) = _
    rw [maxsi_one_toInt]
    rfl
  · unfold Cert.Spec.pooled
    have hne : Cert.Spec.denom (lensOf V (ix1 b)) ≠ 0 := by
      unfold Cert.Spec.denom
      refine EReal.coe_ne_zero.mpr (Int.cast_ne_zero.mpr ?_)
      omega
    unfold Ideal.div
    rw [if_neg hne, zero_add, div_eq_mul_inv]

/-! ## The result: three blocks of columns -/

set_option maxRecDepth 8192 in
set_option maxHeartbeats 4000000 in
/-- The result buffer is the concatenation of the sparse columns, the pooled columns and the dense argument. -/
theorem v35_eq (V : Valuation τ sig (Elt Ideal)) :
    after (ops (F := Ideal)) V (main_v35 : DevRef τ sig) =
      concatenate S4096x877 1 [⟨S4096x832, after (ops (F := Ideal)) V (main_v17 : DevRef τ sig)⟩,
        ⟨S4096x32, after (ops (F := Ideal)) V (main_v34 : DevRef τ sig)⟩, ⟨S4096x13, V (main_arg3 : DevRef τ sig)⟩]
        concatenates_S4096x832_S4096x32_S4096x13_S4096x877_d1 := by
  rw [← arg3_eq V]
  simp only [after_cons, after_nil]
  rw [nary_result, nary_result_ne, nary_result_ne, nary_result_ne]
  · rfl
  all_goals decide

set_option maxRecDepth 8192 in
set_option maxHeartbeats 4000000 in
/-- The reference's half of the value claim: the fold of its operations holds `G` of the arguments at the result buffer. -/
theorem ref_value (m : (ℓ : Loc Cert.ReferenceIdeal.nD Cert.ReferenceIdeal.τ Cert.ReferenceIdeal.sig) → Buf (Elt Ideal) ℓ) (c : Dev Cert.ReferenceIdeal.nD)
    (h0 : ∀ y, (m ((c.tc : Thread Cert.ReferenceIdeal.nD Cert.ReferenceIdeal.τ).loc Cert.ReferenceIdeal.main_arg0) y : BitVec 32).toNat < 100000) (h1 : ∀ y, (m ((c.tc : Thread Cert.ReferenceIdeal.nD Cert.ReferenceIdeal.τ).loc Cert.ReferenceIdeal.main_arg1) y : BitVec 32).toNat < 100000) :
    after (Cert.ReferenceIdeal.HandRun.ops (F := Ideal)) (launchContents m c) (Cert.ReferenceIdeal.main_v35 : DevRef Cert.ReferenceIdeal.τ Cert.ReferenceIdeal.sig) =
      Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  funext i
  obtain ⟨b, cc, rfl⟩ : ∃ b cc, i = ix2 b cc := ⟨i 0, i 1, eq_ix2 i⟩
  rw [v35_eq]
  show _ = (if h : cc.val < 832 then _ else _)
  by_cases hc : cc.val < 832
  · rw [dif_pos hc, cat3_left _ _ _ _ b cc hc]
    have e : (⟨cc.val, hc⟩ : Fin 832) = ⟨32 * (cc.val / 32) + cc.val % 32, by omega⟩ := Fin.ext (Nat.div_add_mod cc.val 32).symm
    rw [e]
    exact v17_apply (launchContents m c) h0 b ⟨cc.val / 32, by omega⟩ ⟨cc.val % 32, Nat.mod_lt _ (by norm_num)⟩
  · rw [dif_neg hc]
    show _ = (if h : cc.val < 864 then _ else _)
    by_cases hc2 : cc.val < 864
    · rw [dif_pos hc2, cat3_mid _ _ _ _ b cc (by omega) hc2]
      exact v34_apply (launchContents m c) h1 b ⟨cc.val - 832, by omega⟩
    · rw [dif_neg hc2, cat3_right _ _ _ _ b cc (by omega)]

end Cert.Proof.RefValue

end
-- ==== Proof.ValueSpec.lean ====
/-
  What a tile computes, as functions of what its scratches hold.

  An indexed load of the row scratch at a word reads the entry the word names (`gatVal`). The pooled value of one batch row
  (`poolVal`): over the 50 positions `j`, the entry named by the row's `j`-th index, weighted by the difference `len − j`
  clamped between 0 and 1, summed, times `1 / max len 1`. These are the kernel's own arithmetic; Proof/Spec.lean's laws
  turn the clamp into the indicator of `j < len` and the product with the reciprocal into the quotient.
-/
import proofs.«209320_g71347996721220_cont_9to1c4b_157_42_alg».proof.Proof.Spec

noncomputable section

namespace Cert.Spec

open Idealize.ShloMosaic Idealize.ShloMosaic.ValueIdx

/-- The entry of a column that a 32-bit word names. -/
def gatVal (g0 : (⟨1, ![100000]⟩ : Shape).Idx → EReal) (w : BitVec 32) : EReal := g0 (ix1 (row w))

/-- The weight of position `j` for a sequence of (real) length `len`: `len − j` clamped between 0 and 1. -/
def clampW (len : EReal) (j : ℕ) : EReal := min (max (len - (((j : ℕ) : ℝ) : EReal)) 0) 1

/-- The pooled value of one batch row: `g0` the tile's column of the sequence table, `s` the block of 50 × 128 indices the
    row's 128-row block has, `len` the row's length, `col` the row's place in its block. -/
def poolVal (g0 : (⟨1, ![100000]⟩ : Shape).Idx → EReal) (s : (⟨2, ![50, 128]⟩ : Shape).Idx → BitVec 32) (len : EReal)
    (col : Fin 128) : EReal :=
  (∑ j : Fin 50, gatVal g0 (s (ix2 j col)) * clampW len j.val) * Ideal.div 1 (max len 1)

/-- One trip of a pooling loop, as a relation between the pooled-result scratch before (`p`) and after (`p'`): trip `k` of the
    loop over block `bb` fills places `16k … 16k+15` of row `bb` with the pooled values of batch rows `128·bb + 16k …`; the
    rest is as it was. -/
def poolStep (bb k : ℕ) (g0 : (⟨1, ![100000]⟩ : Shape).Idx → EReal) (s : (⟨2, ![50, 128]⟩ : Shape).Idx → BitVec 32)
    (ln : (⟨1, ![4096]⟩ : Shape).Idx → EReal) (p p' : (⟨2, ![32, 128]⟩ : Shape).Idx → EReal) : Prop :=
  ∀ (r : Fin 32) (l : Fin 128), p' (ix2 r l)
    = if r.val = bb ∧ 16 * k ≤ l.val ∧ l.val < 16 * k + 16 then
        poolVal g0 s (ln (ix1 ⟨(128 * bb + l.val) % 4096, Nat.mod_lt _ (by norm_num)⟩)) l
      else p (ix2 r l)

/-- One trip of the inner sparse loop, as a relation between the result scratch before and after: trip `k` fills rows `2k`
    and `2k+1` with the entries the row numbers at places `128·row + col` of the index scratch name. -/
def gatStep (k : ℕ) (g0 : (⟨1, ![100000]⟩ : Shape).Idx → EReal) (s1 : (⟨1, ![4096]⟩ : Shape).Idx → BitVec 32)
    (g5 g5' : (⟨2, ![32, 128]⟩ : Shape).Idx → EReal) : Prop :=
  ∀ (r : Fin 32) (l : Fin 128), g5' (ix2 r l)
    = if r.val / 2 = k then gatVal g0 (s1 (ix1 ⟨(128 * r.val + l.val) % 4096, Nat.mod_lt _ (by norm_num)⟩))
      else g5 (ix2 r l)

end Cert.Spec

end
-- ==== Proof.TileValueSpec.lean ====
/-
  What a tile leaves in its blocks of the two outputs, as functions of the inputs it was handed (idealized kernel).
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.LaunchIdeal3
import proofs.«209320_g71347996721220_cont_9to1c4b_157_42_alg».proof.Proof.LaunchIdeal4
import proofs.«209320_g71347996721220_cont_9to1c4b_157_42_alg».proof.Proof.ValueSpec

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Launch

/-- The block of 50 × 128 row numbers of 128-row block `bb` of the batch, out of the re-laid index array. -/
def blkOf (f3 : S32x50x128.Idx → BitVec 32) (bb : ℕ) : (⟨2, ![50, 128]⟩ : Shape).Idx → BitVec 32 :=
  fun jl => f3 (ix3 ⟨bb % 32, Nat.mod_lt _ (by norm_num)⟩ ⟨(jl 0).val, (jl 0).isLt⟩ ⟨(jl 1).val, (jl 1).isLt⟩)

/-- What a tile leaves in its block of the pooled output: at row `r`, column `l` the pooled value of batch row `128·r + l`,
    from the tile's column of the sequence table, the row's index block and its length. -/
def pouSpec (d : Dev nD) (L : grid0.Coords) (f2 : Bf (F := Ideal) d L seqW) (f3 : Bf (F := Ideal) d L qixW) (f4 : Bf (F := Ideal) d L lenW)
    (fp : Buf (Elt Ideal) ((pouBlk L).view.loc (V d (cV L) (jV L)))) : Prop :=
  ∀ (r : Fin 32) (l : Fin 128), (pouBlk L).view.read (Elt Ideal) fp (ix2 r l)
    = poolVal (fun v => f2 (ix2 ⟨pIdx L, pIdx_lt L⟩ ⟨(v 0).val, (v 0).isLt⟩)) (blkOf f3 r.val)
        (f4 (ix1 ⟨(128 * r.val + l.val) % 4096, Nat.mod_lt _ (by norm_num)⟩)) l

/-- What a tile leaves in its block of the sparse output for field `t`: at row `r`, column `l` the tile's entry of the row of
    table `t` that batch row `128·r + l`'s index for the field names. -/
def souSpec (d : Dev nD) (L : grid0.Coords) (f0 : Bf (F := Ideal) d L tabW) (f1 : Bf (F := Ideal) d L sixW) (t : Fin k0_t6_loop.trips)
    (fs : Buf (Elt Ideal) ((souBlk L t).view.loc (V d (cV L) (jV L)))) : Prop :=
  ∀ (r : Fin 32) (l : Fin 128), (souBlk L t).view.read (Elt Ideal) fs (ix2 r l)
    = f0 (ix3 ⟨t.val, t.isLt⟩ ⟨pIdx L, pIdx_lt L⟩
        (row (f1 (ix2 ⟨t.val, t.isLt⟩ ⟨(128 * r.val + l.val) % 4096, Nat.mod_lt _ (by norm_num)⟩))))

/-- What a tile hands back, with what its blocks hold. -/
def tilePayV (d : Dev nD) (L : grid0.Coords) (q : PosShare TreeShare) (f0 : Bf (F := Ideal) d L tabW) (f1 : Bf (F := Ideal) d L sixW)
    (f2 : Bf (F := Ideal) d L seqW) (f3 : Bf (F := Ideal) d L qixW) (f4 : Bf (F := Ideal) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, ((pouBlk L).view.loc (V d (cV L) (jV L)) ↦[(pouBlk L).view.set]{fullShare} fp) ∗ ⌜pouSpec d L f2 f3 f4 fp⌝)
    ∗ (bigSep Finset.univ fun t : Fin k0_t6_loop.trips =>
        iprop(∃ fs, ((souBlk L t).view.loc (V d (cV L) (jV L)) ↦[(souBlk L t).view.set]{fullShare} fs) ∗ ⌜souSpec d L f0 f1 t fs⌝)))

end Launch
end Cert.Proof.TileI
end
-- ==== Proof.LaunchValue1.lean ====
/-
  The launch of the idealized kernel carrying contents, first part: the call's payloads with what the tiles' blocks hold, the
  launch's obligation for the kernel from the tile's task with values, and the split among a SparseCore's tiles.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.LaunchIdeal3
import proofs.«209320_g71347996721220_cont_9to1c4b_157_42_alg».proof.Proof.LaunchIdeal4
import proofs.«209320_g71347996721220_cont_9to1c4b_157_42_alg».proof.Proof.ValueSpec
import proofs.«209320_g71347996721220_cont_9to1c4b_157_42_alg».proof.Proof.TileValueSpec

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Launch

variable (Vv : Dev nD → Valuation τ sig (Elt Ideal))

/-- A tile's blocks of the two outputs with what they hold (in terms of the inputs' contents `Vv`). -/
abbrev outAV (d : Dev nD) (L : grid0.Coords) : sProp 𝕄 :=
  iprop(∃ fp, ((pouBlk L).view.loc (V d (cV L) (jV L)) ↦[(pouBlk L).view.set]{fullShare} fp)
    ∗ ⌜pouSpec d L (Vv d (Proc.devRef .tc main_v1)) (Vv d (Proc.devRef .tc main_v5)) (Vv d (Proc.devRef .tc main_v6)) fp⌝)
abbrev outBV (d : Dev nD) (L : grid0.Coords) : sProp 𝕄 :=
  bigSep Finset.univ fun t : Fin k0_t6_loop.trips =>
    iprop(∃ fs, ((souBlk L t).view.loc (V d (cV L) (jV L)) ↦[(souBlk L t).view.set]{fullShare} fs)
      ∗ ⌜souSpec d L (Vv d (Proc.devRef .tc main_v0)) (Vv d (Proc.devRef .tc main_v2)) t fs⌝)

/-- What a tile hands back, and what a SparseCore hands back. -/
def goPayV (d : Dev nD) (L : grid0.Coords) (q : PosShare TreeShare) : sProp 𝕄 :=
  iprop(inAt (F := Ideal) Vv d main_v0 q ∗ inAt (F := Ideal) Vv d main_v2 q ∗ inAt (F := Ideal) Vv d main_v1 q ∗ inAt (F := Ideal) Vv d main_v5 q ∗ inAt (F := Ideal) Vv d main_v6 q ∗ outAV Vv d L ∗ outBV Vv d L)
def stPayV (d : Dev nD) (c : Fin ((K (F := Ideal)).nCore 0)) : sProp 𝕄 :=
  iprop(inAt (F := Ideal) Vv d main_v0 (Transfers.shareTokN fullShare c.val) ∗ inAt (F := Ideal) Vv d main_v2 (Transfers.shareTokN fullShare c.val) ∗ inAt (F := Ideal) Vv d main_v1 (Transfers.shareTokN fullShare c.val) ∗ inAt (F := Ideal) Vv d main_v5 (Transfers.shareTokN fullShare c.val) ∗ inAt (F := Ideal) Vv d main_v6 (Transfers.shareTokN fullShare c.val)
    ∗ (bigSep Finset.univ fun i : Fin ((K (F := Ideal)).nSub 0) => outAV Vv d (Lof c i))
    ∗ (bigSep Finset.univ fun i : Fin ((K (F := Ideal)).nSub 0) => outBV Vv d (Lof c i)))

theorem tilePayV_eq (d : Dev nD) (L : grid0.Coords) (q : PosShare TreeShare) :
    tilePayV d L q (Vv d (Proc.devRef .tc main_v0)) (Vv d (Proc.devRef .tc main_v2)) (Vv d (Proc.devRef .tc main_v1))
        (Vv d (Proc.devRef .tc main_v5)) (Vv d (Proc.devRef .tc main_v6))
      = goPayV Vv d L q := rfl

/-- The one call's payloads, the results with their contents. -/
def PV : (K (F := Ideal)).Pay (nD := nD) (Val := Elt Ideal) (Name := ℕ) (U := UU) where
  st := fun q d c => match q with | 0 => stPay Vv d c
  dn := fun q d c => match q with | 0 => stPayV Vv d c
  go := fun q d c i => match q with | 0 => goPay Vv d (Lof c i) (qT c.val i.val)
  td := fun q d c i => match q with | 0 => goPayV Vv d (Lof c i) (qT c.val i.val)
  x := fun _ _ => iprop(emp)

set_option maxHeartbeats 8000000 in
set_option synthInstance.maxHeartbeats 2000000 in
set_option synthInstance.maxSize 4096 in
instance PV_storable : (PV Vv).IsStorable where
  st q d c := match q with | 0 => by show BI.Storable _ (stPay Vv d c); unfold stPay; infer_instance
  dn q d c := match q with | 0 => by show BI.Storable _ (stPayV Vv d c); unfold stPayV; infer_instance
  go q d c i := match q with | 0 => by show BI.Storable _ (goPay Vv d (Lof c i) (qT c.val i.val)); unfold goPay; infer_instance
  td q d c i := match q with | 0 => by show BI.Storable _ (goPayV Vv d (Lof c i) (qT c.val i.val)); unfold goPayV; infer_instance

/-- The tile's task with values, as a proposition (proved from the loops' value lemmas). -/
def TileTaskV : Prop :=
  ∀ (d : Dev nD) (L : grid0.Coords) (q : PosShare TreeShare) (f0 : Bf (F := Ideal) d L tabW) (f1 : Bf (F := Ideal) d L sixW)
    (f2 : Bf (F := Ideal) d L seqW) (f3 : Bf (F := Ideal) d L qixW) (f4 : Bf (F := Ideal) d L lenW),
    (∀ x, (f1 x).toNat < 100000) → (∀ x, (f3 x).toNat < 100000) →
    ∀ (O : CellTallies nD τ sig (HIx 1)) (W : Waits sig (HIx 1)), (∀ g, O g none = 0) →
    iprop(levAts (K (F := Ideal)).L (K (F := Ideal)).lev ∗ emp ∗ tilePay d L q f0 f1 f2 f3 f4
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tilePayV d L q f0 f1 f2 f3 f4 ∗ scopedBufs (V d (cV L) (jV L)) ∗ scopedSems0 (V d (cV L) (jV L))
            ∗ ∃ W', ⌜∀ p ∈ W', p ∈ W ∨ p.2 = none⌝ ∗ owes (V d (cV L) (jV L)) O W')

/-- The launch's obligation for the kernel, the results with their contents. -/
theorem tileObl_v (htask : TileTaskV)
    (h2 : ∀ d x, (Vv d (Proc.devRef .tc main_v2) x : BitVec 32).toNat < 100000)
    (h5 : ∀ d x, (Vv d (Proc.devRef .tc main_v5) x : BitVec 32).toNat < 100000) :
    (K (F := Ideal)).TileObl (D (F := Ideal)) 𝒱 (PV Vv) v₀ 0 := by
  intro d c i O W hO _ _
  simp only [show (PV Vv).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  exact (htask d (coordsV ⟨_, hc.1⟩ ⟨_, hc.2⟩) (qT c.val i.val) _ _ _ _ _ (h2 d) (h5 d) O W hO).trans (wp_mono frame _ _ fun _ => obl_post)

/-- A SparseCore's payload splits among its tiles as before; what comes back carries the tiles' contents. -/
theorem vecSplit_v : (K (F := Ideal)).VecSplit' (PV Vv) 0 := by
  intro d c
  show stPay Vv d c ⊢ |={Set.univ}=> iprop((bigSep Finset.univ fun i : Fin ((K (F := Ideal)).nSub 0) => goPay Vv d (Lof c i) (qT c.val i.val))
      ∗ ((bigSep Finset.univ fun i : Fin ((K (F := Ideal)).nSub 0) => goPayV Vv d (Lof c i) (qT c.val i.val)) -∗ stPayV Vv d c))
  unfold stPay goPay stPayV goPayV
  rw [bigSep_sep', bigSep_sep', bigSep_sep', bigSep_sep', bigSep_sep', bigSep_sep',
    bigSep_sep', bigSep_sep', bigSep_sep', bigSep_sep', bigSep_sep', bigSep_sep']
  iintro ⟨H0, H1, H2, H3, H4, HA, HB⟩
  ihave S0 := (inAt_split Vv d main_v0 _ ((K (F := Ideal)).nSub 0)) $$ H0
  icases S0 with ⟨D0, T0⟩
  ihave S1 := (inAt_split Vv d main_v2 _ ((K (F := Ideal)).nSub 0)) $$ H1
  icases S1 with ⟨D1, T1⟩
  ihave S2 := (inAt_split Vv d main_v1 _ ((K (F := Ideal)).nSub 0)) $$ H2
  icases S2 with ⟨D2, T2⟩
  ihave S3 := (inAt_split Vv d main_v5 _ ((K (F := Ideal)).nSub 0)) $$ H3
  icases S3 with ⟨D3, T3⟩
  ihave S4 := (inAt_split Vv d main_v6 _ ((K (F := Ideal)).nSub 0)) $$ H4
  icases S4 with ⟨D4, T4⟩
  imodintro
  isplitl [T0 T1 T2 T3 T4 HA HB]
  · isplitl [T0]; · iexact T0
    isplitl [T1]; · iexact T1
    isplitl [T2]; · iexact T2
    isplitl [T3]; · iexact T3
    isplitl [T4]; · iexact T4
    isplitl [HA]; · iexact HA
    iexact HB
  iintro ⟨T0, T1, T2, T3, T4, HA, HB⟩
  isplitl [D0 T0]
  · iapply (inAt_join Vv d main_v0 _ ((K (F := Ideal)).nSub 0)); isplitl [D0]; · iexact D0
    iexact T0
  isplitl [D1 T1]
  · iapply (inAt_join Vv d main_v2 _ ((K (F := Ideal)).nSub 0)); isplitl [D1]; · iexact D1
    iexact T1
  isplitl [D2 T2]
  · iapply (inAt_join Vv d main_v1 _ ((K (F := Ideal)).nSub 0)); isplitl [D2]; · iexact D2
    iexact T2
  isplitl [D3 T3]
  · iapply (inAt_join Vv d main_v5 _ ((K (F := Ideal)).nSub 0)); isplitl [D3]; · iexact D3
    iexact T3
  isplitl [D4 T4]
  · iapply (inAt_join Vv d main_v6 _ ((K (F := Ideal)).nSub 0)); isplitl [D4]; · iexact D4
    iexact T4
  isplitl [HA]; · iexact HA
  iexact HB

end Launch
end Cert.Proof.TileI
end
-- ==== Proof.LaunchValue2.lean ====
/-
  The launch of the idealized kernel carrying contents, second part: carving the tiles' blocks out of the output arrays and
  joining them back with what they hold; `main` around the call with the result's value; the read-off; the run.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.LaunchIdeal3
import proofs.«209320_g71347996721220_cont_9to1c4b_157_42_alg».proof.Proof.LaunchIdeal4
import proofs.«209320_g71347996721220_cont_9to1c4b_157_42_alg».proof.Proof.ValueSpec
import proofs.«209320_g71347996721220_cont_9to1c4b_157_42_alg».proof.Proof.TileValueSpec
import proofs.«209320_g71347996721220_cont_9to1c4b_157_42_alg».proof.Proof.LaunchValue1

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Launch

open Cert.KernelIdeal.HandOps
open Idealize.ShloMosaic.StableHlo (held held_sub_split held_congr wp_seq tcRefs devRef_mem_tcRefs after launchContents seq)

/-- Carving with contents: on the way back each set comes with a fact about the contents on it (a fact that only looks at
    the contents on that set), and the joined array has all of them. -/
theorem carveV {ℓ : Loc nD τ sig} {ι : Type} [Fintype ι] [DecidableEq ι] (Kset : ι → Finset (Idx ℓ))
    (hd : ∀ t t', t ≠ t' → Disjoint (Kset t) (Kset t')) (f : Buf (Elt Ideal) ℓ) (Φ : ι → Buf (Elt Ideal) ℓ → Prop)
    (hΦ : ∀ t g g', (∀ i ∈ Kset t, g i = g' i) → Φ t g' → Φ t g) :
    (ℓ ↦{fullShare} f : sProp 𝕄)
      ⊢ iprop((bigSep Finset.univ fun t => iprop(∃ g, ℓ ↦[Kset t]{fullShare} g))
          ∗ ((bigSep Finset.univ fun t => iprop(∃ g, (ℓ ↦[Kset t]{fullShare} g) ∗ ⌜Φ t g⌝)) -∗ ∃ g, (ℓ ↦{fullShare} g) ∗ ⌜∀ t, Φ t g⌝)) := by
  iintro H
  ihave H' := (pointsTo_split_subset (Finset.subset_univ (Finset.univ.biUnion Kset))).1 $$ H
  icases H' with ⟨HI, Hrest⟩
  ihave HI' := (Entails.of_eq (pointsTo_biUnion Finset.univ Kset (fun t _ t' _ h => hd t t' h))) $$ HI
  isplitl [HI']
  · have hm : (bigSep Finset.univ fun t => (ℓ ↦[Kset t]{fullShare} f : sProp 𝕄))
        ⊢ bigSep Finset.univ fun t => iprop(∃ g, ℓ ↦[Kset t]{fullShare} g) :=
      bigSep_mono fun t _ => sProp.exists_intro (Φ := fun g => (ℓ ↦[Kset t]{fullShare} g : sProp 𝕄)) f
    iapply hm; iexact HI'
  iintro Hb
  ihave Hb' := (@bigSep_exists_pi 𝕄 _ ι _ (fun _ => Buf (Elt Ideal) ℓ) (fun _ => ⟨f⟩) Finset.univ
    (fun t (g : Buf (Elt Ideal) ℓ) => (iprop((ℓ ↦[Kset t]{fullShare} g) ∗ ⌜Φ t g⌝) : sProp 𝕄))) $$ Hb
  icases Hb' with ⟨%gs, Hb'⟩
  have hsw : (bigSep Finset.univ fun t => (iprop((ℓ ↦[Kset t]{fullShare} gs t) ∗ ⌜Φ t (gs t)⌝) : sProp 𝕄))
      ⊢ bigSep Finset.univ fun t => iprop(⌜Φ t (gs t)⌝ ∗ (ℓ ↦[Kset t]{fullShare} gs t)) :=
    bigSep_mono fun t _ => BI.sep_comm
  ihave Hb2 := hsw $$ Hb'
  ihave Hb3 := (bigSep_pure_sep Finset.univ (fun t => Φ t (gs t)) (fun t => (ℓ ↦[Kset t]{fullShare} gs t : sProp 𝕄))) $$ Hb2
  icases Hb3 with ⟨%hall, Hb4⟩
  ihave Hj := (pointsTo_biUnion_join Finset.univ Kset gs f (fun t _ t' _ h => hd t t' h)) $$ Hb4
  icases Hj with ⟨%g, %hg, Hg⟩
  ihave Hw := (pointsTo_join_subset (Finset.subset_univ (Finset.univ.biUnion Kset))) $$ [Hg Hrest]
  · isplitl [Hg]; · iexact Hg
    iexact Hrest
  iexists _
  isplitl [Hw]; · iexact Hw
  ipureintro
  intro t
  refine hΦ t _ (gs t) (fun i hi => ?_) (hall t (Finset.mem_univ t))
  rw [Finset.piecewise_eq_of_mem _ _ _ (Finset.mem_biUnion.mpr ⟨t, Finset.mem_univ t, hi⟩)]
  exact hg t (Finset.mem_univ t) i hi

variable (Vv : Dev nD → Valuation τ sig (Elt Ideal))

/-- What the blocks' specifications say of a whole output array: the tile's block of it, read through the block's view,
    holds the tile's values. -/
def ΦP (d : Dev nD) (ci : Fin 2 × Fin 16) (g : Buf (Elt Ideal) (ℓP d)) : Prop :=
  pouSpec d (Lof (F := Ideal) ci.1 ci.2) (Vv d (Proc.devRef .tc main_v1)) (Vv d (Proc.devRef .tc main_v5)) (Vv d (Proc.devRef .tc main_v6)) g
def ΦS (d : Dev nD) (cit : (Fin 2 × Fin 16) × Fin k0_t6_loop.trips) (g : Buf (Elt Ideal) (ℓS d)) : Prop :=
  souSpec d (Lof (F := Ideal) cit.1.1 cit.1.2) (Vv d (Proc.devRef .tc main_v0)) (Vv d (Proc.devRef .tc main_v2)) cit.2 g

theorem ΦP_congr (d : Dev nD) : ∀ ci g g', (∀ i ∈ Kp (F := Ideal) d ci, g i = g' i) → ΦP Vv d ci g' → ΦP Vv d ci g := by
  intro ci g g' h hs r l
  have e := View.read_congr (v := (pouBlk (Lof (F := Ideal) ci.1 ci.2)).view) (Val := Elt Ideal) (f := g) (g := g') h
  rw [e]; exact hs r l
theorem ΦS_congr (d : Dev nD) : ∀ cit g g', (∀ i ∈ Ks (F := Ideal) d cit, g i = g' i) → ΦS Vv d cit g' → ΦS Vv d cit g := by
  intro cit g g' h hs r l
  have e := View.read_congr (v := (souBlk (Lof (F := Ideal) cit.1.1 cit.1.2) cit.2).view) (Val := Elt Ideal) (f := g) (g := g') h
  rw [e]; exact hs r l

theorem nestPV (d : Dev nD) :
    (bigSep Finset.univ fun ci : Fin 2 × Fin 16 => iprop(∃ g, (ℓP d ↦[Kp (F := Ideal) d ci]{fullShare} g) ∗ ⌜ΦP Vv d ci g⌝))
      = ((bigSep Finset.univ fun c : Fin ((K (F := Ideal)).nCore 0) => bigSep Finset.univ fun i : Fin ((K (F := Ideal)).nSub 0) => outAV Vv d (Lof c i)) : sProp 𝕄) := by
  rw [← Finset.univ_product_univ, SparseCore.bigSep_product]; rfl
theorem nestSV (d : Dev nD) :
    (bigSep Finset.univ fun cit : (Fin 2 × Fin 16) × Fin k0_t6_loop.trips => iprop(∃ g, (ℓS d ↦[Ks (F := Ideal) d cit]{fullShare} g) ∗ ⌜ΦS Vv d cit g⌝))
      = ((bigSep Finset.univ fun c : Fin ((K (F := Ideal)).nCore 0) => bigSep Finset.univ fun i : Fin ((K (F := Ideal)).nSub 0) => outBV Vv d (Lof c i)) : sProp 𝕄) := by
  rw [← Finset.univ_product_univ, SparseCore.bigSep_product, ← Finset.univ_product_univ, SparseCore.bigSep_product]; rfl

theorem stV_eq (d : Dev nD) :
    (bigSep Finset.univ fun c : Fin ((K (F := Ideal)).nCore 0) => (PV Vv).st 0 d c)
      = iprop((bigSep Finset.univ fun c : Fin ((K (F := Ideal)).nCore 0) => inAt (F := Ideal) Vv d main_v0 (Transfers.shareTokN fullShare c.val)) ∗ (bigSep Finset.univ fun c : Fin ((K (F := Ideal)).nCore 0) => inAt (F := Ideal) Vv d main_v2 (Transfers.shareTokN fullShare c.val)) ∗ (bigSep Finset.univ fun c : Fin ((K (F := Ideal)).nCore 0) => inAt (F := Ideal) Vv d main_v1 (Transfers.shareTokN fullShare c.val)) ∗ (bigSep Finset.univ fun c : Fin ((K (F := Ideal)).nCore 0) => inAt (F := Ideal) Vv d main_v5 (Transfers.shareTokN fullShare c.val)) ∗ (bigSep Finset.univ fun c : Fin ((K (F := Ideal)).nCore 0) => inAt (F := Ideal) Vv d main_v6 (Transfers.shareTokN fullShare c.val)) ∗ (bigSep Finset.univ fun c : Fin ((K (F := Ideal)).nCore 0) => bigSep Finset.univ fun i : Fin ((K (F := Ideal)).nSub 0) => outA (F := Ideal) d (Lof c i)) ∗ (bigSep Finset.univ fun c : Fin ((K (F := Ideal)).nCore 0) => bigSep Finset.univ fun i : Fin ((K (F := Ideal)).nSub 0) => outB (F := Ideal) d (Lof c i))) := by
  show (bigSep Finset.univ fun c => stPay Vv d c) = _
  unfold stPay
  rw [bigSep_sep', bigSep_sep', bigSep_sep', bigSep_sep', bigSep_sep', bigSep_sep']
theorem dnV_eq (d : Dev nD) :
    (bigSep Finset.univ fun c : Fin ((K (F := Ideal)).nCore 0) => (PV Vv).dn 0 d c)
      = iprop((bigSep Finset.univ fun c : Fin ((K (F := Ideal)).nCore 0) => inAt (F := Ideal) Vv d main_v0 (Transfers.shareTokN fullShare c.val)) ∗ (bigSep Finset.univ fun c : Fin ((K (F := Ideal)).nCore 0) => inAt (F := Ideal) Vv d main_v2 (Transfers.shareTokN fullShare c.val)) ∗ (bigSep Finset.univ fun c : Fin ((K (F := Ideal)).nCore 0) => inAt (F := Ideal) Vv d main_v1 (Transfers.shareTokN fullShare c.val)) ∗ (bigSep Finset.univ fun c : Fin ((K (F := Ideal)).nCore 0) => inAt (F := Ideal) Vv d main_v5 (Transfers.shareTokN fullShare c.val)) ∗ (bigSep Finset.univ fun c : Fin ((K (F := Ideal)).nCore 0) => inAt (F := Ideal) Vv d main_v6 (Transfers.shareTokN fullShare c.val)) ∗ (bigSep Finset.univ fun c : Fin ((K (F := Ideal)).nCore 0) => bigSep Finset.univ fun i : Fin ((K (F := Ideal)).nSub 0) => outAV Vv d (Lof c i)) ∗ (bigSep Finset.univ fun c : Fin ((K (F := Ideal)).nCore 0) => bigSep Finset.univ fun i : Fin ((K (F := Ideal)).nSub 0) => outBV Vv d (Lof c i))) := by
  show (bigSep Finset.univ fun c => stPayV Vv d c) = _
  unfold stPayV
  rw [bigSep_sep', bigSep_sep', bigSep_sep', bigSep_sep', bigSep_sep', bigSep_sep']

variable (m : (ℓ : Loc nD τ sig) → Buf (Elt Ideal) ℓ) (ρ : Dev nD → PrngReg)

/-- What `main` leaves the claim: the six arguments at their launch contents, and the result at the second stretch of host
    operations applied to outputs that hold every tile's values. -/
def FINV (d : Dev nD) : sProp 𝕄 :=
  iprop(FIN m d ∗ ∃ (g0 : Buf (Elt Ideal) (ℓS d)) (g1 : Buf (Elt Ideal) (ℓP d)),
    ⌜(∀ cit, ΦS (V1 m) d cit g0) ∧ (∀ ci, ΦP (V1 m) d ci g1)⌝
    ∗ (((d, Proc.devRef .tc main_v12) : Loc nD τ sig) ↦{fullShare} after opsPost (updOut (after opsPre (launchContents m d)) g0 g1) (Proc.devRef .tc main_v12 : DevRef τ sig)))

abbrev T7' : Finset (DevRef τ sig) := {(Proc.devRef .tc main_arg0 : DevRef τ sig), (Proc.devRef .tc main_arg1 : DevRef τ sig), (Proc.devRef .tc main_arg2 : DevRef τ sig), (Proc.devRef .tc main_arg3 : DevRef τ sig), (Proc.devRef .tc main_arg4 : DevRef τ sig), (Proc.devRef .tc main_arg5 : DevRef τ sig), (Proc.devRef .tc main_v12 : DevRef τ sig)}
theorem hT7' : T7' ⊆ tcRefs τ sig := by
  intro b hb; simp only [T7', Finset.mem_insert, Finset.mem_singleton] at hb
  rcases hb with rfl | rfl | rfl | rfl | rfl | rfl | rfl <;> exact devRef_mem_tcRefs _
theorem held_T7' (d : Dev nD) (W : Valuation τ sig (Elt Ideal)) :
    (held (d.tc : Thread nD τ) T7' W : sProp 𝕄) = iprop((((d, Proc.devRef .tc main_arg0) : Loc nD τ sig) ↦{fullShare} W (Proc.devRef .tc main_arg0 : DevRef τ sig)) ∗ (((d, Proc.devRef .tc main_arg1) : Loc nD τ sig) ↦{fullShare} W (Proc.devRef .tc main_arg1 : DevRef τ sig)) ∗ (((d, Proc.devRef .tc main_arg2) : Loc nD τ sig) ↦{fullShare} W (Proc.devRef .tc main_arg2 : DevRef τ sig)) ∗ (((d, Proc.devRef .tc main_arg3) : Loc nD τ sig) ↦{fullShare} W (Proc.devRef .tc main_arg3 : DevRef τ sig)) ∗ (((d, Proc.devRef .tc main_arg4) : Loc nD τ sig) ↦{fullShare} W (Proc.devRef .tc main_arg4 : DevRef τ sig)) ∗ (((d, Proc.devRef .tc main_arg5) : Loc nD τ sig) ↦{fullShare} W (Proc.devRef .tc main_arg5 : DevRef τ sig)) ∗ (((d, Proc.devRef .tc main_v12) : Loc nD τ sig) ↦{fullShare} W (Proc.devRef .tc main_v12 : DevRef τ sig))) := by
  unfold held T7'
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

set_option maxHeartbeats 8000000 in
theorem hmain_v (κ : GSem nD τ sig → ℕ) (d : Dev nD) :
    iprop((K (F := Ideal)).ctx EH (PV (V1 m)) κ ∗ (K (F := Ideal)).tcSt EH d 0 ∗ (K (F := Ideal)).tcRes m ρ d ∗ emp)
      ⊢ wp frame (wpE ((K (F := Ideal)).defs (D (F := Ideal))) 𝒱 (SparseCore.T d) none) Set.univ (main d)
          fun _ => iprop((K (F := Ideal)).tcSt EH d 1 ∗ FINV m d) := by
  unfold SparseCore.Cfg.tcRes
  rw [unscoped_held, main_eq]
  iintro ⟨#Hctx, Hst, ⟨Hb, Hheld, -, -⟩, -⟩
  iapply (wp_seq 𝒱 none Set.univ d (tcRefs τ sig) _ opsPre (List.forall_iff_forall_mem.1 opsPre_sub) hfreshPre (launchContents m d)) $$ [Hb Hheld]
  · isplitl [Hb]; · iexact Hb
    iexact Hheld
  iintro ⟨Hb, Hheld⟩
  ihave Hs := (Entails.of_eq (held_sub_split (d.tc : Thread nD τ) hT7 (after opsPre (launchContents m d)))) $$ Hheld
  icases Hs with ⟨H7, Hrest⟩
  ihave H7' := (Entails.of_eq (held_T7 d (after opsPre (launchContents m d)))) $$ H7
  icases H7' with ⟨I0, I1, I2, I3, I4, O0, O1⟩
  ihave S0 := (inAt_split (V1 m) d main_v0 fullShare 2) $$ I0
  icases S0 with ⟨D0, T0⟩
  ihave S1 := (inAt_split (V1 m) d main_v2 fullShare 2) $$ I1
  icases S1 with ⟨D1, T1⟩
  ihave S2 := (inAt_split (V1 m) d main_v1 fullShare 2) $$ I2
  icases S2 with ⟨D2, T2⟩
  ihave S3 := (inAt_split (V1 m) d main_v5 fullShare 2) $$ I3
  icases S3 with ⟨D3, T3⟩
  ihave S4 := (inAt_split (V1 m) d main_v6 fullShare 2) $$ I4
  icases S4 with ⟨D4, T4⟩
  ihave C0 := (carveV (Ks (F := Ideal) d) (hdS d) _ (ΦS (V1 m) d) (ΦS_congr (V1 m) d)) $$ O0
  icases C0 with ⟨B0, J0⟩
  ihave C1 := (carveV (Kp (F := Ideal) d) (hdP d) _ (ΦP (V1 m) d) (ΦP_congr (V1 m) d)) $$ O1
  icases C1 with ⟨B1, J1⟩
  ihave B0' := (Entails.of_eq (nestS (F := Ideal) d)) $$ B0
  ihave B1' := (Entails.of_eq (nestP (F := Ideal) d)) $$ B1
  rw [wp_bind]
  iapply ((K (F := Ideal)).wp_run (D (F := Ideal)) 𝒱 (EH := EH) (P := PV (V1 m)) κ d 0) $$ [Hst T0 T1 T2 T3 T4 B0' B1' Hb Hrest D0 D1 D2 D3 D4 J0 J1]
  isplitr; · iexact Hctx
  isplitl [Hst]; · iexact Hst
  isplitl [T0 T1 T2 T3 T4 B0' B1']
  · rw [stV_eq]
    isplitl [T0]; · iexact T0
    isplitl [T1]; · iexact T1
    isplitl [T2]; · iexact T2
    isplitl [T3]; · iexact T3
    isplitl [T4]; · iexact T4
    isplitl [B1']; · iexact B1'
    iexact B0'
  iintro ⟨Hst, Hdn⟩
  ihave Hdn' := (Entails.of_eq (dnV_eq (V1 m) d)) $$ Hdn
  icases Hdn' with ⟨T0, T1, T2, T3, T4, B1', B0'⟩
  ihave I0 := (inAt_join (V1 m) d main_v0 fullShare 2) $$ [D0 T0]
  · isplitl [D0]; · iexact D0
    iexact T0
  ihave I1 := (inAt_join (V1 m) d main_v2 fullShare 2) $$ [D1 T1]
  · isplitl [D1]; · iexact D1
    iexact T1
  ihave I2 := (inAt_join (V1 m) d main_v1 fullShare 2) $$ [D2 T2]
  · isplitl [D2]; · iexact D2
    iexact T2
  ihave I3 := (inAt_join (V1 m) d main_v5 fullShare 2) $$ [D3 T3]
  · isplitl [D3]; · iexact D3
    iexact T3
  ihave I4 := (inAt_join (V1 m) d main_v6 fullShare 2) $$ [D4 T4]
  · isplitl [D4]; · iexact D4
    iexact T4
  ihave B0 := (Entails.of_eq (nestSV (V1 m) d).symm) $$ B0'
  ihave B1 := (Entails.of_eq (nestPV (V1 m) d).symm) $$ B1'
  ihave O0 := wand_app $$ [J0 B0]
  · isplitl [J0]; · iexact J0
    iexact B0
  ihave O1 := wand_app $$ [J1 B1]
  · isplitl [J1]; · iexact J1
    iexact B1
  icases O0 with ⟨%g0, O0, %hS⟩
  icases O1 with ⟨%g1, O1, %hP⟩
  ihave Hheld := (reheld d (after opsPre (launchContents m d)) g0 g1) $$ [I0 I1 I2 I3 I4 O0 O1 Hrest]
  · isplitl [I0]; · iexact I0
    isplitl [I1]; · iexact I1
    isplitl [I2]; · iexact I2
    isplitl [I3]; · iexact I3
    isplitl [I4]; · iexact I4
    isplitl [O0]; · iexact O0
    isplitl [O1]; · iexact O1
    iexact Hrest
  rw [show seq (opsPost (F := Ideal)) = (seq opsPost >>= fun u => Pure.pure u) from (bind_pure _).symm]
  iapply (wp_seq 𝒱 none Set.univ d (tcRefs τ sig) _ opsPost (List.forall_iff_forall_mem.1 opsPost_sub) hfreshPost
      (updOut (after opsPre (launchContents m d)) g0 g1)) $$ [Hb Hheld]
  · isplitl [Hb]; · iexact Hb
    iexact Hheld
  iintro ⟨Hb, Hheld⟩
  ihave Hs := (Entails.of_eq (held_sub_split (d.tc : Thread nD τ) hT7' (after opsPost (updOut (after opsPre (launchContents m d)) g0 g1)))) $$ Hheld
  icases Hs with ⟨H6, -⟩
  ihave H6' := (Entails.of_eq (held_T7' d (after opsPost (updOut (after opsPre (launchContents m d)) g0 g1)))) $$ H6
  icases H6' with ⟨A0, A1, A2, A3, A4, A5, A12⟩
  rw [wp_pure]; imodintro
  isplitl [Hst]; · iexact Hst
  unfold FINV FIN
  isplitl [A0 A1 A2 A3 A4 A5]
  · rw [← fin_arg0 m d g0 g1, ← fin_arg1 m d g0 g1, ← fin_arg2 m d g0 g1, ← fin_arg3 m d g0 g1, ← fin_arg4 m d g0 g1, ← fin_arg5 m d g0 g1]
    isplitl [A0]; · iexact A0
    isplitl [A1]; · iexact A1
    isplitl [A2]; · iexact A2
    isplitl [A3]; · iexact A3
    isplitl [A4]; · iexact A4
    iexact A5
  iexists g0, g1
  isplitr
  · ipureintro; exact ⟨hS, hP⟩
  iexact A12

section RunV
variable (m : (ℓ : Loc nD τ sig) → Buf (Elt Ideal) ℓ) (ρ : Dev nD → PrngReg)

/-- The final state: the arguments are the launch's, and the result is the second stretch applied to outputs that hold every
    tile's values. -/
def fqV (d : Dev nD) (s' : Phys nD τ sig (Elt Ideal)) : Prop :=
  fq m d s' ∧ ∃ (g0 : Buf (Elt Ideal) (ℓS d)) (g1 : Buf (Elt Ideal) (ℓP d)),
    ((∀ cit, ΦS (V1 m) d cit g0) ∧ (∀ ci, ΦP (V1 m) d ci g1))
    ∧ s'.mem.mem ((d, Proc.devRef .tc main_v12) : Loc nD τ sig) = after opsPost (updOut (after opsPre (launchContents m d)) g0 g1) (Proc.devRef .tc main_v12 : DevRef τ sig)

theorem hfin_v (d : Dev nD) (s' : Phys nD τ sig (Elt Ideal)) : iprop(FINV m d ∗ SI s') ⊢ (⌜fqV m d s'⌝ : sProp 𝕄) := by
  unfold FINV
  iintro ⟨⟨HF, ⟨%g0, %g1, %hsp, H12⟩⟩, HSI⟩
  ihave H := (persistent_entails_right (SI_pointsTo_agree (st := s') (ℓ := ((d, Proc.devRef .tc main_v12) : Loc nD τ sig)) (I := Finset.univ) (q := fullShare)
    (f := after opsPost (updOut (after opsPre (launchContents m d)) g0 g1) (Proc.devRef .tc main_v12 : DevRef τ sig)))) $$ [HSI H12]
  · isplitl [HSI] <;> iassumption
  icases H with ⟨%h12, HSI, -⟩
  ihave %hf := (hfin m d s') $$ [HF HSI]
  · isplitl [HF]; · iexact HF
    iexact HSI
  ipureintro
  exact ⟨hf, g0, g1, hsp, funext fun i => h12 i (Finset.mem_univ i)⟩

/-- The claim's post with the result's value. -/
def QCV : PUnit × MemSt nD τ sig (Elt Ideal) → Prop := fun r => ∀ d : Dev nD,
  (r.2.mem ((d, Proc.devRef .tc main_arg0) : Loc nD τ sig) = m ((d, Proc.devRef .tc main_arg0) : Loc nD τ sig) ∧ r.2.mem ((d, Proc.devRef .tc main_arg1) : Loc nD τ sig) = m ((d, Proc.devRef .tc main_arg1) : Loc nD τ sig) ∧ r.2.mem ((d, Proc.devRef .tc main_arg2) : Loc nD τ sig) = m ((d, Proc.devRef .tc main_arg2) : Loc nD τ sig) ∧ r.2.mem ((d, Proc.devRef .tc main_arg3) : Loc nD τ sig) = m ((d, Proc.devRef .tc main_arg3) : Loc nD τ sig) ∧ r.2.mem ((d, Proc.devRef .tc main_arg4) : Loc nD τ sig) = m ((d, Proc.devRef .tc main_arg4) : Loc nD τ sig) ∧ r.2.mem ((d, Proc.devRef .tc main_arg5) : Loc nD τ sig) = m ((d, Proc.devRef .tc main_arg5) : Loc nD τ sig))
  ∧ ∃ (g0 : Buf (Elt Ideal) (ℓS d)) (g1 : Buf (Elt Ideal) (ℓP d)),
    ((∀ cit, ΦS (V1 m) d cit g0) ∧ (∀ ci, ΦP (V1 m) d ci g1))
    ∧ r.2.mem ((d, Proc.devRef .tc main_v12) : Loc nD τ sig) = after opsPost (updOut (after opsPre (launchContents m d)) g0 g1) (Proc.devRef .tc main_v12 : DevRef τ sig)

theorem hu₀_v : (ownU (u₀ (F := Ideal)) : sProp 𝕄)
    ⊢ |={Set.univ}=> iprop(BI.own (EH (initOf (K (F := Ideal)).hsCells (K (F := Ideal)).hsToks)) ∗ (bigSep Finset.univ fun _ : Dev nD => iprop(emp))
        ∗ bigSep Finset.univ fun thr : Thread nD τ => bigSep Finset.univ fun q : Fin 1 => (PV (V1 m)).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The run with the result's value, from the tile's task with values. -/
theorem run_main_v (htask : TileTaskV)
    (h2 : ∀ d x, (V1 m d (Proc.devRef .tc main_v2) x : BitVec 32).toNat < 100000)
    (h5 : ∀ d x, (V1 m d (Proc.devRef .tc main_v5) x : BitVec 32).toNat < 100000) :
    θ_run (Cert.KernelIdeal.defs (F := Ideal)) (Cert.KernelIdeal.threads (F := Ideal)) ⟨m, fun _ => 0, ρ⟩ (QCV m) :=
  SparseCore.Cfg.θ_run_sc (K := K (F := Ideal)) (D := D (F := Ideal)) (𝒱 := 𝒱) (EH := EH) (P := PV (V1 m)) facts v₀
    (fun q hq => match q with | 0 => nomatch hq)
    (fun q _ => match q with | 0 => tileObl_v (V1 m) htask h2 h5)
    (fun q _ => match q with | 0 => SparseCore.Cfg.VecSplit.of_plain (vecSplit_v (V1 m)))
    m ρ main (fun _ => iprop(emp)) (FINV m) (u₀ (F := Ideal)) (sep_elim_left.trans (hu₀_v m)) (hmain_v m ρ) (fqV m) (hfin_v m) (QCV m)
    (fun _ h d => ⟨(h d).1, (h d).2⟩)

/-- That the second stretch of host operations, applied to outputs holding every tile's values, gives the specification: the
    pure half of the kernel's value (index mathematics only). -/
def FinalValue : Prop :=
  ∀ (m : (ℓ : Loc nD τ sig) → Buf (Elt Ideal) ℓ) (d : Dev nD) (g0 : Buf (Elt Ideal) (ℓS d)) (g1 : Buf (Elt Ideal) (ℓP d)),
    (∀ cit, ΦS (V1 m) d cit g0) → (∀ ci, ΦP (V1 m) d ci g1) →
    after opsPost (updOut (after opsPre (launchContents m d)) g0 g1) (Proc.devRef .tc main_v12 : DevRef τ sig)
      = Cert.Spec.G (m ((d, Proc.devRef .tc main_arg0) : Loc nD τ sig)) (m ((d, Proc.devRef .tc main_arg1) : Loc nD τ sig)) (m ((d, Proc.devRef .tc main_arg2) : Loc nD τ sig)) (m ((d, Proc.devRef .tc main_arg3) : Loc nD τ sig)) (m ((d, Proc.devRef .tc main_arg4) : Loc nD τ sig)) (m ((d, Proc.devRef .tc main_arg5) : Loc nD τ sig))

end RunV

end Launch
end Cert.Proof.TileI
end
-- ==== Proof.HostTail.lean ====
/-
  The kernel program's last host operations, read index by index.

  The sparse output (26624 rows of 128) is reshaped to 832 rows of 4096 and transposed; the pooled output (1024 rows of 128) is
  reshaped to 32 rows of 4096 and transposed; the two are joined with the dense features along the columns, 832 + 32 + 13 = 877.
  A reshape keeps the row-major place: place `4096·c + b` is row `32·c + b / 128`, column `b % 128` of an array 128 wide.
  So column `c` of batch row `b` of the result is
  * for `c < 832`: the sparse output at row `32·c + b / 128`, column `b % 128` — block `c = 32·(c / 32) + c % 32`, row `b / 128`
    of the block, and `128·(b / 128) + b % 128 = b`: entry `c % 32` of the row of table `c / 32` that `sparse_idx[b, c / 32]` names;
  * for `832 ≤ c < 864`, `d = c - 832`: the pooled output at row `32·d + b / 128`, column `b % 128`: the pooled value of entry `d`
    for batch row `b`, where the weight `len - j` clamped between 0 and 1 is the indicator of `j < len`, and the product with
    `1 / max len 1` is the quotient by `max 1 len`, a nonzero integer;
  * for `864 ≤ c`: the dense feature `c - 864`.
  That is the specification's function.
-/
import proofs.«209320_g71347996721220_cont_9to1c4b_157_42_alg».proof.Proof.Spec
import proofs.«209320_g71347996721220_cont_9to1c4b_157_42_alg».proof.Proof.ValueSpec
import proofs.«209320_g71347996721220_cont_9to1c4b_157_42_alg».proof.KernelIdeal
import proofs.«209320_g71347996721220_cont_9to1c4b_157_42_alg».proof.Proof.Gen.KernelIdeal
import Idealize.ShloMosaic.Lib.ValueIdx
import Idealize.ShloMosaic.Lib.Pipeline.Value
import Idealize.ShloMosaic.Lib.ValueLayout

noncomputable section

namespace Cert.Proof.HostTail

open Idealize.ShloMosaic Idealize.ShloMosaic.ValueIdx Cert.Spec Cert.KernelIdeal Cert.KernelIdeal.Gen

/-- The sparse output reshaped to 832 rows of 4096 and transposed reads, at batch row `b` and column `c`, the sparse output at
    row `32·c + b / 128`, column `b % 128`: both places are `4096·c + b` in row-major order. The row is written with `c` split
    into its table `c / 32` and entry `c % 32`. -/
theorem sparse_read (g0 : FVec Ideal S26624x128 .f32) (b : Fin 4096) (c : Fin 832) :
    transpose S4096x832 [1, 0] (shapeCast S832x4096 g0 shapeCasts_S26624x128_S832x4096) transposes_S832x4096_S4096x832_1_0 (ix2 b c)
      = g0 (ix2 ⟨32 * (32 * (c.val / 32) + c.val % 32) + b.val / 128, by omega⟩ ⟨b.val % 128, Nat.mod_lt _ (by norm_num)⟩) := by
  refine (transpose_ix2_apply _ _ b c).trans ?_
  refine shapeCast_apply _ _ _ _ ?_
  rw [Shape.rowMajor_val_two, Shape.rowMajor_val_two]
  show (32 * (32 * (c.val / 32) + c.val % 32) + b.val / 128) * 128 + b.val % 128 = c.val * 4096 + b.val
  omega

/-- The pooled output reshaped to 32 rows of 4096 and transposed reads, at batch row `b` and column `d`, the pooled output at
    row `32·d + b / 128`, column `b % 128`. -/
theorem pooled_read (g1 : FVec Ideal S1024x128 .f32) (b : Fin 4096) (d : Fin 32) :
    transpose S4096x32 [1, 0] (shapeCast S32x4096 g1 shapeCasts_S1024x128_S32x4096) transposes_S32x4096_S4096x32_1_0 (ix2 b d)
      = g1 (ix2 ⟨32 * d.val + b.val / 128, by omega⟩ ⟨b.val % 128, Nat.mod_lt _ (by norm_num)⟩) := by
  refine (transpose_ix2_apply _ _ b d).trans ?_
  refine shapeCast_apply _ _ _ _ ?_
  rw [Shape.rowMajor_val_two, Shape.rowMajor_val_two]
  show (32 * d.val + b.val / 128) * 128 + b.val % 128 = d.val * 4096 + b.val
  omega

/-- The three blocks joined along the columns read, at column `c`: the first block at `c` below 832, the second at `c - 832`
    below 864, the third at `c - 864` from there on. -/
theorem join_read (X0 : FVec Ideal S4096x832 .f32) (X1 : FVec Ideal S4096x32 .f32) (X2 : FVec Ideal S4096x13 .f32)
    (b : Fin 4096) (c : Fin 877) :
    concatenate S4096x877 1 [⟨S4096x832, X0⟩, ⟨S4096x32, X1⟩, ⟨S4096x13, X2⟩] concatenates_S4096x832_S4096x32_S4096x13_S4096x877_d1 (ix2 b c)
      = if h : c.val < 832 then X0 (ix2 b ⟨c.val, h⟩)
        else if h2 : c.val < 864 then X1 (ix2 b ⟨c.val - 832, by omega⟩)
        else X2 (ix2 b ⟨c.val - 864, by omega⟩) := by
  by_cases h : c.val < 832
  · rw [dif_pos h]
    refine concatenate_apply_piece (t := S4096x877) 1 [⟨S4096x832, X0⟩, ⟨S4096x32, X1⟩, ⟨S4096x13, X2⟩] concatenates_S4096x832_S4096x32_S4096x13_S4096x877_d1 (ix2 b c) 0 (by show (0 : ℕ) < 3; omega) S4096x832 X0 rfl rfl 0 rfl (ix2 b ⟨c.val, h⟩) ?_ ?_
    · intro a ha
      match a, ha with
      | ⟨0, _⟩, _ => rfl
      | ⟨1, _⟩, ha => exact absurd rfl ha
    · show 0 + c.val = c.val
      omega
  · rw [dif_neg h]
    by_cases h2 : c.val < 864
    · rw [dif_pos h2]
      refine concatenate_apply_piece (t := S4096x877) 1 [⟨S4096x832, X0⟩, ⟨S4096x32, X1⟩, ⟨S4096x13, X2⟩] concatenates_S4096x832_S4096x32_S4096x13_S4096x877_d1 (ix2 b c) 1 (by show (1 : ℕ) < 3; omega) S4096x32 X1 rfl rfl 832 rfl (ix2 b ⟨c.val - 832, by omega⟩) ?_ ?_
      · intro a ha
        match a, ha with
        | ⟨0, _⟩, _ => rfl
        | ⟨1, _⟩, ha => exact absurd rfl ha
      · show 832 + (c.val - 832) = c.val
        omega
    · rw [dif_neg h2]
      refine concatenate_apply_piece (t := S4096x877) 1 [⟨S4096x832, X0⟩, ⟨S4096x32, X1⟩, ⟨S4096x13, X2⟩] concatenates_S4096x832_S4096x32_S4096x13_S4096x877_d1 (ix2 b c) 2 (by show (2 : ℕ) < 3; omega) S4096x13 X2 rfl rfl 864 rfl (ix2 b ⟨c.val - 864, by omega⟩) ?_ ?_
      · intro a ha
        match a, ha with
        | ⟨0, _⟩, _ => rfl
        | ⟨1, _⟩, ha => exact absurd rfl ha
      · show 864 + (c.val - 864) = c.val
        omega

/-- The kernel program's result as the specification.
    `a0 … a5` are the six arguments. `g0` (26624 × 128) and `g1` (1024 × 128) are what the SparseCore call left in its two outputs:
    block `32·t + d` (32 rows) of `g0` holds, at place `128·r + l`, entry `d` of the row of table `t` that `sparse_idx[128·r + l, t]` names;
    block `d` of `g1` holds the pooled values of entry `d`, computed from column `d` of the sequence table, the index block of the
    batch row's 128-block and the row's length as a real. Then reshaping, transposing and joining with the dense features gives `G`. -/
theorem host_tail_value (a0 : IVec S4096x26 32) (a1 : IVec S4096x50 32) (a2 : IVec S4096 32) (a3 : FVec Ideal S4096x13 .f32)
    (a4 : FVec Ideal S26x100000x32 .f32) (a5 : FVec Ideal S100000x32 .f32)
    (g0 : FVec Ideal S26624x128 .f32) (g1 : FVec Ideal S1024x128 .f32)
    (hg0 : ∀ (t : Fin 26) (dd : Fin 32) (r : Fin 32) (l : Fin 128),
      g0 (ix2 ⟨32 * (32 * t.val + dd.val) + r.val, by omega⟩ l)
        = a4 (ix3 t (row (a0 (ix2 ⟨128 * r.val + l.val, by omega⟩ t))) dd))
    (hg1 : ∀ (dd : Fin 32) (r : Fin 32) (l : Fin 128),
      g1 (ix2 ⟨32 * dd.val + r.val, by omega⟩ l)
        = poolVal (fun v => a5 (ix2 (v 0) dd)) (fun jl => a1 (ix2 ⟨(128 * r.val + (jl 1).val) % 4096, Nat.mod_lt _ (by norm_num)⟩ ⟨(jl 0).val, (jl 0).isLt⟩))
            (((a2 (ix1 ⟨128 * r.val + l.val, by omega⟩)).toInt : ℝ) : EReal) l) :
    concatenate S4096x877 1
        [⟨S4096x832, transpose S4096x832 [1, 0] (shapeCast S832x4096 g0 shapeCasts_S26624x128_S832x4096) transposes_S832x4096_S4096x832_1_0⟩,
         ⟨S4096x32, transpose S4096x32 [1, 0] (shapeCast S32x4096 g1 shapeCasts_S1024x128_S32x4096) transposes_S32x4096_S4096x32_1_0⟩,
         ⟨S4096x13, a3⟩] concatenates_S4096x832_S4096x32_S4096x13_S4096x877_d1
      = G a0 a1 a2 a3 a4 a5 := by
  funext i
  obtain ⟨b, c, rfl⟩ : ∃ b c, i = ix2 b c := ⟨i 0, i 1, eq_ix2 i⟩
  rw [join_read]
  have hb : (⟨128 * (b.val / 128) + b.val % 128, by omega⟩ : Fin 4096) = b := Fin.ext (Nat.div_add_mod b.val 128)
  by_cases h1 : c.val < 832
  · rw [dif_pos h1, sparse_read]
    refine (hg0 ⟨c.val / 32, by omega⟩ ⟨c.val % 32, Nat.mod_lt _ (by norm_num)⟩ ⟨b.val / 128, by omega⟩ ⟨b.val % 128, Nat.mod_lt _ (by norm_num)⟩).trans ?_
    rw [show G a0 a1 a2 a3 a4 a5 (ix2 b c) = a4 (ix3 ⟨c.val / 32, by omega⟩ (row (a0 (ix2 b ⟨c.val / 32, by omega⟩))) ⟨c.val % 32, by omega⟩) from dif_pos h1]
    show a4 (ix3 ⟨c.val / 32, by omega⟩ (row (a0 (ix2 ⟨128 * (b.val / 128) + b.val % 128, by omega⟩ ⟨c.val / 32, by omega⟩))) ⟨c.val % 32, by omega⟩)
        = a4 (ix3 ⟨c.val / 32, by omega⟩ (row (a0 (ix2 b ⟨c.val / 32, by omega⟩))) ⟨c.val % 32, by omega⟩)
    rw [hb]
  · rw [dif_neg h1]
    by_cases h2 : c.val < 864
    · rw [dif_pos h2, pooled_read]
      refine (hg1 ⟨c.val - 832, by omega⟩ ⟨b.val / 128, by omega⟩ ⟨b.val % 128, Nat.mod_lt _ (by norm_num)⟩).trans ?_
      rw [show G a0 a1 a2 a3 a4 a5 (ix2 b c) = pooled a1 a2 a5 b ⟨c.val - 832, by omega⟩ from (dif_neg h1).trans (dif_pos h2)]
      have hb' : (⟨(128 * (b.val / 128) + b.val % 128) % 4096, Nat.mod_lt _ (by norm_num)⟩ : Fin 4096) = b :=
        Fin.ext (by show (128 * (b.val / 128) + b.val % 128) % 4096 = b.val; omega)
      show (∑ j : Fin 50, a5 (ix2 (row (a1 (ix2 ⟨(128 * (b.val / 128) + b.val % 128) % 4096, Nat.mod_lt _ (by norm_num)⟩ j))) ⟨c.val - 832, by omega⟩)
              * min (max ((((a2 (ix1 ⟨128 * (b.val / 128) + b.val % 128, by omega⟩)).toInt : ℝ) : EReal) - (((j.val : ℝ)) : EReal)) 0) 1)
            * Ideal.div 1 (max (((a2 (ix1 ⟨128 * (b.val / 128) + b.val % 128, by omega⟩)).toInt : ℝ) : EReal) 1)
          = (∑ j : Fin 50, a5 (ix2 (row (a1 (ix2 b j))) ⟨c.val - 832, by omega⟩) * mask (a2 (ix1 b)) j) / denom (a2 (ix1 b))
      rw [hb, hb']
      simp only [clamp_eq_mask]
      have hmax : max ((((a2 (ix1 b)).toInt : ℝ)) : EReal) 1 = (((max 1 (a2 (ix1 b)).toInt : ℤ) : ℝ) : EReal) := by
        rw [Int.cast_max, Int.cast_one, EReal.coe_strictMono.monotone.map_max, EReal.coe_one, max_comm]
      have hne : (((max 1 (a2 (ix1 b)).toInt : ℤ)) : ℝ) ≠ 0 :=
        Int.cast_ne_zero.mpr (lt_of_lt_of_le Int.one_pos (le_max_left 1 _)).ne'
      rw [hmax, mul_one_div_eq_div _ hne]
      unfold denom Ideal.div
      rw [if_neg (by exact_mod_cast hne), div_eq_mul_inv]
    · rw [dif_neg h2]
      exact ((dif_neg h1).trans (dif_neg h2)).symm

end Cert.Proof.HostTail

end
-- ==== Proof.FinalValue.lean ====
/-
  The kernel program's result is the specification's function, given what every tile leaves in its blocks of the two outputs.

  The second stretch of host operations reads the two outputs and the dense features: it reshapes and transposes each output and
  joins the three along the columns. A tile's block of an output, read at row `r` and column `l`, is the whole output at row
  `32·(block number) + r`, column `l`: the tile at coordinates `(c, i)` has block `2·i + c` of the pooled output and, for field `t`,
  block `32·t + 2·i + c` of the sparse output, so entry `dd` of a field is the block of the tile `c = dd % 2`, `i = dd / 2`.
  The first stretch hands the tiles the arguments re-laid: the tables with their last two axes exchanged (`(t, dd, v)` reads
  `(t, v, dd)`), the sparse index array transposed, the sequence index array transposed, reshaped to 50 × 32 × 128 and its first
  two axes exchanged (`(bb, j, l)` reads batch row `128·bb + l`, position `j`: both are place `4096·j + 128·bb + l`), the lengths as
  reals. With these, what the tiles leave is exactly what the reshape–transpose–join needs to give the specification's function.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.TileIdealQ
import proofs.«209320_g71347996721220_cont_9to1c4b_157_42_alg».proof.Proof.TileIdeal6
import proofs.«209320_g71347996721220_cont_9to1c4b_157_42_alg».proof.Proof.TileIdeal1
import proofs.«209320_g71347996721220_cont_9to1c4b_157_42_alg».proof.Proof.TileIdealTop
import proofs.«209320_g71347996721220_cont_9to1c4b_157_42_alg».proof.Proof.LaunchIdeal1
import proofs.«209320_g71347996721220_cont_9to1c4b_157_42_alg».proof.Proof.LaunchIdeal2
import proofs.«209320_g71347996721220_cont_9to1c4b_157_42_alg».proof.Proof.LaunchIdeal3
import proofs.«209320_g71347996721220_cont_9to1c4b_157_42_alg».proof.Proof.LaunchIdeal4
import proofs.«209320_g71347996721220_cont_9to1c4b_157_42_alg».proof.Proof.ValueSpec
import proofs.«209320_g71347996721220_cont_9to1c4b_157_42_alg».proof.Proof.TileValueSpec
import proofs.«209320_g71347996721220_cont_9to1c4b_157_42_alg».proof.Proof.HostTail

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Launch

open Cert.KernelIdeal.HandOps
open Idealize.ShloMosaic.StableHlo (after launchContents)

/-- A host operation of three operands read at its result: its function at the three operands' contents. -/
theorem nary3_result {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- The second stretch's result from the two outputs and the dense features: the two reshapes, the two transposes and the join. -/
theorem post_v12 (W : Valuation τ sig (Elt Ideal)) :
    after opsPost W (Proc.devRef .tc main_v12 : DevRef τ sig)
      = concatenate S4096x877 1
        [⟨S4096x832, transpose S4096x832 [1, 0] (shapeCast S832x4096 (W (Proc.devRef .tc main_v7_0 : DevRef τ sig)) shapeCasts_S26624x128_S832x4096) transposes_S832x4096_S4096x832_1_0⟩,
         ⟨S4096x32, transpose S4096x32 [1, 0] (shapeCast S32x4096 (W (Proc.devRef .tc main_v7_1 : DevRef τ sig)) shapeCasts_S1024x128_S32x4096) transposes_S32x4096_S4096x32_1_0⟩,
         ⟨S4096x13, W (Proc.devRef .tc main_arg3 : DevRef τ sig)⟩] concatenates_S4096x832_S4096x32_S4096x13_S4096x877_d1 := by
  simp only [StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide))
  rfl

/-- The first stretch's results from the arguments: the three tables and index arrays transposed, the sequence index array
    transposed, reshaped to 50 × 32 × 128 and its first two axes exchanged, the lengths converted to reals. -/
theorem pre_v0 (W : Valuation τ sig (Elt Ideal)) :
    after opsPre W (Proc.devRef .tc main_v0 : DevRef τ sig)
      = transpose S26x32x100000 [0, 2, 1] (W (Proc.devRef .tc main_arg4 : DevRef τ sig)) transposes_S26x100000x32_S26x32x100000_0_2_1 := by
  after_results
theorem pre_v1 (W : Valuation τ sig (Elt Ideal)) :
    after opsPre W (Proc.devRef .tc main_v1 : DevRef τ sig)
      = transpose S32x100000 [1, 0] (W (Proc.devRef .tc main_arg5 : DevRef τ sig)) transposes_S100000x32_S32x100000_1_0 := by
  after_results
theorem pre_v2 (W : Valuation τ sig (Elt Ideal)) :
    after opsPre W (Proc.devRef .tc main_v2 : DevRef τ sig)
      = transpose S26x4096 [1, 0] (W (Proc.devRef .tc main_arg0 : DevRef τ sig)) transposes_S4096x26_S26x4096_1_0 := by
  after_results
theorem pre_v5 (W : Valuation τ sig (Elt Ideal)) :
    after opsPre W (Proc.devRef .tc main_v5 : DevRef τ sig)
      = transpose S32x50x128 [1, 0, 2] (shapeCast S50x32x128 (transpose S50x4096 [1, 0] (W (Proc.devRef .tc main_arg1 : DevRef τ sig)) transposes_S4096x50_S50x4096_1_0)
          shapeCasts_S50x4096_S50x32x128) transposes_S50x32x128_S32x50x128_1_0_2 := by
  after_results; rfl
theorem pre_v6 (W : Valuation τ sig (Elt Ideal)) (i : S4096.Idx) :
    after opsPre W (Proc.devRef .tc main_v6 : DevRef τ sig) i
      = (((BitVec.toInt (n := 32) (W (Proc.devRef .tc main_arg2 : DevRef τ sig) i) : ℤ) : ℝ) : EReal) := by
  after_results; rfl

/-- The second stretch of host operations, applied to outputs in which every tile's blocks hold the tile's values, gives the
    specification. -/
theorem final_value (m : (ℓ : Loc nD τ sig) → Buf (Elt Ideal) ℓ) (d : Dev nD)
    (g0 : Buf (Elt Ideal) ((d, Proc.devRef .tc main_v7_0) : Loc nD τ sig)) (g1 : Buf (Elt Ideal) ((d, Proc.devRef .tc main_v7_1) : Loc nD τ sig))
    (hS : ∀ (c : Fin 2) (i : Fin 16) (t : Fin k0_t6_loop.trips),
      souSpec d (Lof (F := Ideal) c i) (after opsPre (launchContents m d) (Proc.devRef .tc main_v0 : DevRef τ sig)) (after opsPre (launchContents m d) (Proc.devRef .tc main_v2 : DevRef τ sig)) t g0)
    (hP : ∀ (c : Fin 2) (i : Fin 16),
      pouSpec d (Lof (F := Ideal) c i) (after opsPre (launchContents m d) (Proc.devRef .tc main_v1 : DevRef τ sig)) (after opsPre (launchContents m d) (Proc.devRef .tc main_v5 : DevRef τ sig))
        (after opsPre (launchContents m d) (Proc.devRef .tc main_v6 : DevRef τ sig)) g1) :
    after opsPost (updOut (after opsPre (launchContents m d)) g0 g1) (Proc.devRef .tc main_v12 : DevRef τ sig)
      = Cert.Spec.G (m ((d, Proc.devRef .tc main_arg0) : Loc nD τ sig)) (m ((d, Proc.devRef .tc main_arg1) : Loc nD τ sig)) (m ((d, Proc.devRef .tc main_arg2) : Loc nD τ sig)) (m ((d, Proc.devRef .tc main_arg3) : Loc nD τ sig)) (m ((d, Proc.devRef .tc main_arg4) : Loc nD τ sig)) (m ((d, Proc.devRef .tc main_arg5) : Loc nD τ sig)) := by
  rw [post_v12, updOut_v70, updOut_v71, updOut_of_ne _ g0 g1 (by decide) (by decide), pre_arg3]
  refine Cert.Proof.HostTail.host_tail_value _ _ _ _ _ _ g0 g1 ?_ ?_
  · intro t dd r l
    have hc : dd.val % 2 < 2 := Nat.mod_lt _ (by norm_num)
    have hi : dd.val / 2 < 16 := by omega
    have h := hS ⟨dd.val % 2, hc⟩ ⟨dd.val / 2, hi⟩ ⟨t.val, t.isLt⟩ r l
    rw [View.read_apply, cast_eq] at h
    have he : (souBlk (Lof (F := Ideal) ⟨dd.val % 2, hc⟩ ⟨dd.val / 2, hi⟩) ⟨t.val, t.isLt⟩).view.emb (ix2 r l)
        = ix2 (n0 := 26624) (n1 := 128) ⟨32 * (32 * t.val + dd.val) + r.val, by omega⟩ l := by
      funext a
      apply Fin.ext
      show k0_off247 (Lof (F := Ideal) ⟨dd.val % 2, hc⟩ ⟨dd.val / 2, hi⟩) ⟨t.val, t.isLt⟩ a + 1 * ((ix2 r l) a).val = _
      rw [k0_off247_eq]
      match a with
      | ⟨0, _⟩ => show 1024 * t.val + 64 * (dd.val / 2) + 32 * (dd.val % 2) + 1 * r.val = 32 * (32 * t.val + dd.val) + r.val; omega
      | ⟨1, _⟩ => show 0 + 1 * l.val = l.val; omega
    have hd : (⟨pIdx (Lof (F := Ideal) ⟨dd.val % 2, hc⟩ ⟨dd.val / 2, hi⟩), pIdx_lt _⟩ : Fin 32) = dd :=
      Fin.ext (by show 2 * (dd.val / 2) + dd.val % 2 = dd.val; omega)
    have hb : (⟨(128 * r.val + l.val) % 4096, Nat.mod_lt _ (by norm_num)⟩ : Fin 4096) = ⟨128 * r.val + l.val, by omega⟩ :=
      Fin.ext (by show (128 * r.val + l.val) % 4096 = 128 * r.val + l.val; omega)
    rw [he, pre_v0, pre_v2, transpose_ix3_021_apply, transpose_ix2_apply, hd, hb] at h
    exact h
  · intro dd r l
    have hc : dd.val % 2 < 2 := Nat.mod_lt _ (by norm_num)
    have hi : dd.val / 2 < 16 := by omega
    have h := hP ⟨dd.val % 2, hc⟩ ⟨dd.val / 2, hi⟩ r l
    rw [View.read_apply, cast_eq] at h
    have he : (pouBlk (Lof (F := Ideal) ⟨dd.val % 2, hc⟩ ⟨dd.val / 2, hi⟩)).view.emb (ix2 r l)
        = ix2 (n0 := 1024) (n1 := 128) ⟨32 * dd.val + r.val, by omega⟩ l := by
      funext a
      apply Fin.ext
      show k0_off212 (Lof (F := Ideal) ⟨dd.val % 2, hc⟩ ⟨dd.val / 2, hi⟩) a + 1 * ((ix2 r l) a).val = _
      rw [k0_off212_eq]
      match a with
      | ⟨0, _⟩ => show 64 * (dd.val / 2) + 32 * (dd.val % 2) + 1 * r.val = 32 * dd.val + r.val; omega
      | ⟨1, _⟩ => show 0 + 1 * l.val = l.val; omega
    have hd : (⟨pIdx (Lof (F := Ideal) ⟨dd.val % 2, hc⟩ ⟨dd.val / 2, hi⟩), pIdx_lt _⟩ : Fin 32) = dd :=
      Fin.ext (by show 2 * (dd.val / 2) + dd.val % 2 = dd.val; omega)
    have hb : (⟨(128 * r.val + l.val) % 4096, Nat.mod_lt _ (by norm_num)⟩ : Fin 4096) = ⟨128 * r.val + l.val, by omega⟩ :=
      Fin.ext (by show (128 * r.val + l.val) % 4096 = 128 * r.val + l.val; omega)
    rw [he, pre_v1, pre_v5, pre_v6] at h
    refine h.trans ?_
    congr 1
    · funext v
      rw [transpose_ix2_apply, hd]
      rfl
    · funext jl
      have hj0 : (jl 0).val < 50 := idx2_lt0 jl
      have hj1 : (jl 1).val < 128 := idx2_lt1 jl
      show transpose S32x50x128 [1, 0, 2] (shapeCast S50x32x128 (transpose S50x4096 [1, 0] (launchContents m d (Proc.devRef .tc main_arg1 : DevRef τ sig)) transposes_S4096x50_S50x4096_1_0)
              shapeCasts_S50x4096_S50x32x128) transposes_S50x32x128_S32x50x128_1_0_2
            (ix3 ⟨r.val % 32, Nat.mod_lt _ (by norm_num)⟩ ⟨(jl 0).val, (jl 0).isLt⟩ ⟨(jl 1).val, (jl 1).isLt⟩) = _
      refine (transpose_apply _ _ _ _ (ix3 (n0 := 50) (n1 := 32) (n2 := 128) ⟨(jl 0).val, hj0⟩ ⟨r.val % 32, Nat.mod_lt _ (by norm_num)⟩ ⟨(jl 1).val, hj1⟩) ?_).trans ?_
      · intro b
        match b with
        | ⟨0, _⟩ => rfl
        | ⟨1, _⟩ => rfl
        | ⟨2, _⟩ => rfl
      refine (shapeCast_apply _ _ _ (ix2 (n0 := 50) (n1 := 4096) ⟨(jl 0).val, hj0⟩ ⟨128 * (r.val % 32) + (jl 1).val, by omega⟩) ?_).trans ?_
      · rw [Shape.rowMajor_val_two, Shape.rowMajor_val_three]
        show (jl 0).val * 4096 + (128 * (r.val % 32) + (jl 1).val) = ((jl 0).val * 32 + r.val % 32) * 128 + (jl 1).val
        omega
      rw [transpose_ix2_apply]
      have hbb : (⟨128 * (r.val % 32) + (jl 1).val, by omega⟩ : Fin 4096) = ⟨(128 * r.val + (jl 1).val) % 4096, Nat.mod_lt _ (by norm_num)⟩ :=
        Fin.ext (by show 128 * (r.val % 32) + (jl 1).val = (128 * r.val + (jl 1).val) % 4096; omega)
      rw [hbb]
    · rw [hb]

end Launch
end Cert.Proof.TileI
end
-- ==== Proof.TileValueDefs.lean ====
/-
  The slices a tile's copies take of its inputs, and what the tile leaves in its blocks stated through what those copies
  bring in (idealized kernel).
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import proofs.«209320_g71347996721220_cont_9to1c4b_157_42_alg».proof.Proof.TileIdeal6
import proofs.«209320_g71347996721220_cont_9to1c4b_157_42_alg».proof.Proof.TileIdealTop
import proofs.«209320_g71347996721220_cont_9to1c4b_157_42_alg».proof.Proof.LaunchIdeal3
import proofs.«209320_g71347996721220_cont_9to1c4b_157_42_alg».proof.Proof.TileValueSpec

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- Column `d` of table `t` and the row numbers of field `t`, as the trip's copies slice them out of the inputs. -/
abbrev tabRow (L : grid0.Coords) (t : Fin k0_t6_loop.trips) : Memref sig .scVector .hbm S100000 .f32 :=
  ((tabW).slice (Rect.unit (s := S26x32x100000) (k0_off213 L t) S1x1x100000.size (k0_off213_inb L t)) (fun _ => rfl)).squeeze S100000 squeezes_S1x1x100000_S100000
abbrev sixRow (t : Fin k0_t6_loop.trips) : Memref sig .scVector .hbm S4096 .i32 :=
  ((sixW).slice (Rect.unit (s := S26x4096) (k0_off214 t) S1x4096.size (k0_off214_inb t)) (fun _ => rfl)).squeeze S4096 squeezes_S1x4096_S4096

/-- What the trip of field `t` leaves in the tile's block for that field, through the copied column and row numbers. -/
def souSpecR (f0 : Bf (F := Ideal) d L tabW) (f1 : Bf (F := Ideal) d L sixW) (t : Fin k0_t6_loop.trips)
    (fs : Buf (Elt Ideal) ((souBlk L t).view.loc (V d (cV L) (jV L)))) : Prop :=
  ∀ (r : Fin 32) (l : Fin 128), (souBlk L t).view.read (Elt Ideal) fs (ix2 r l)
    = gatVal ((tabRow L t).view.read (Elt Ideal) f0)
        (((sixRow t).view.read (Elt Ideal) f1) (ix1 ⟨(128 * r.val + l.val) % 4096, Nat.mod_lt _ (by norm_num)⟩))

/-- The index block of 128-row block `bb`, as the copies slice it out of the re-laid index array (offsets given). -/
abbrev qixBlk (off : Fin 3 → ℕ) (inb : ∀ a, off a + S1x50x128.size a ≤ S32x50x128.size a) : Memref sig .scVector .hbm S50x128 .i32 :=
  ((qixW).slice (Rect.unit (s := S32x50x128) off S1x50x128.size inb) (fun _ => rfl)).squeeze S50x128 squeezes_S1x50x128_S50x128

/-- The tile's column of the sequence table, as the opening copy slices it. -/
abbrev seqRow (L : grid0.Coords) : Memref sig .scVector .hbm S100000 .f32 :=
  ((seqW).slice (Rect.unit (s := S32x100000) (k0_off1 L) S1x100000.size (k0_off1_inb L)) (fun _ => rfl)).squeeze S100000 squeezes_S1x100000_S100000

/-- What the tile leaves in its block of the pooled output, through the copied column. -/
def pouSpecR (f2 : Bf (F := Ideal) d L seqW) (f3 : Bf (F := Ideal) d L qixW) (f4 : Bf (F := Ideal) d L lenW)
    (fp : Buf (Elt Ideal) ((pouBlk L).view.loc (V d (cV L) (jV L)))) : Prop :=
  ∀ (r : Fin 32) (l : Fin 128), (pouBlk L).view.read (Elt Ideal) fp (ix2 r l)
    = poolVal ((seqRow L).view.read (Elt Ideal) f2) (blkOf f3 r.val)
        (f4 (ix1 ⟨(128 * r.val + l.val) % 4096, Nat.mod_lt _ (by norm_num)⟩)) l

end Tile
end Cert.Proof.TileI
end
-- ==== Proof.SparseValue.lean ====
/-
  One trip of the inner loop of the tile's sparse part, with the values it stores.

  Trip k reads sixteen vectors of sixteen words from places 256k … 256k + 255 of the index scratch; each word (below
  100000) names an entry of the row scratch, and the sixteen vectors of entries are stored at rows 2k and 2k + 1 of the
  result scratch, vector u of row 2k + p at columns 16u … 16u + 15, its words taken from place 128(2k + p) + 16u on. So
  every store agrees with one function of the place (row, column): the entry named by the word at place 128·row + column.
  The sixteen rectangles cover exactly rows 2k and 2k + 1; a place in one of them reads that function, any other place
  keeps what it held.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Pipeline.Value
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- What every store of one trip writes, as one function of the place in the result scratch: the entry of the row scratch
    named by the word at place 128·row + column of the index scratch. -/
def gatG (g0 : (⟨1, ![100000]⟩ : Shape).Idx → EReal) (s1 : (⟨1, ![4096]⟩ : Shape).Idx → BitVec 32) :
    (⟨2, ![32, 128]⟩ : Shape).Idx → EReal :=
  fun y => gatVal g0 (s1 (ix1 ⟨(128 * (y 0).val + (y 1).val) % 4096, Nat.mod_lt _ (by norm_num)⟩))

/-- A place lies in the sixteen-lane rectangle at row o, column c exactly when its row is o and its column is one of the
    sixteen from c. -/
theorem gat_mem_piece {off : Fin 2 → ℕ} {o c : ℕ} (inb : ∀ a, off a + S1x16.size a ≤ S32x128.size a) (he : off = ![o, c])
    (y : S32x128.Idx) :
    y ∈ (Rect.unit (s := S32x128) off S1x16.size inb).set ↔ (y 0).val = o ∧ c ≤ (y 1).val ∧ (y 1).val < c + 16 := by
  subst he
  rw [Rect.mem_set_unit, Fin.forall_fin_two]
  show (o ≤ (y 0).val ∧ (y 0).val < o + 1) ∧ (c ≤ (y 1).val ∧ (y 1).val < c + 16) ↔ _
  omega

/-- The same at the place of row r, column l. -/
theorem gat_mem_piece_ix {off : Fin 2 → ℕ} {o c : ℕ} (inb : ∀ a, off a + S1x16.size a ≤ S32x128.size a) (he : off = ![o, c])
    (r : Fin 32) (l : Fin 128) :
    ix2 r l ∈ (Rect.unit (s := S32x128) off S1x16.size inb).set ↔ r.val = o ∧ c ≤ l.val ∧ l.val < c + 16 :=
  gat_mem_piece inb he (ix2 r l)

/-- One store of the trip: sixteen words read from place m = 128·o + c of the index scratch name sixteen entries of the
    row scratch, which are stored at row o, columns c … c + 15 of the result scratch. Lane x of the store holds the entry
    named by the word at place 128·o + c + x, which is what gatG says of row o, column c + x. -/
theorem gat_piece_val (g0 : Bf (F := Ideal) d L rowW) (s1 : Bf (F := Ideal) d L sidW) (hs1 : ∀ x, (s1 x).toNat < 100000)
    {off : Fin 2 → ℕ} {offL : Fin 1 → ℕ} {o c m : ℕ}
    (inb : ∀ a, off a + S1x16.size a ≤ S32x128.size a) (inbL : ∀ a, offL a + S16.size a ≤ S4096.size a)
    (h : ∀ a x, ((![View.readAt (Elt Ideal) (sidW).view (Rect.unit (s := S4096) offL S16.size inbL).toLoadRect s1] :
        Fin S100000.rank → IVec S16 32) a x).toNat < S100000.size a)
    (hc : S16.ShapeCasts S1x16)
    (he : off = ![o, c]) (heL : offL = ![m]) (hm : m = 128 * o + c) (hlt : m + 16 ≤ 4096)
    (x : (Rect.unit (s := S32x128) off S1x16.size inb).shape.Idx) :
    shapeCast S1x16 (loadIdx (View.read (Elt Ideal) ((rowW).access (Rect.whole S100000)) g0)
        ![View.readAt (Elt Ideal) (sidW).view (Rect.unit (s := S4096) offL S16.size inbL).toLoadRect s1] h) hc x
      = gatG g0 s1 ((Rect.unit (s := S32x128) off S1x16.size inb).emb x) := by
  subst he heL hm
  have hx0 : (x 0).val = 0 := by
    have : (x 0).val < 1 := (x 0).isLt
    omega
  have hx1 : (x 1).val < 16 := (x 1).isLt
  have hrm : (S16.rowMajor (ix1 (⟨(x 1).val, hx1⟩ : Fin 16))).val = (S1x16.rowMajor x).val := by
    rw [Shape.rowMajor_val_one, Shape.rowMajor_val_two]
    show (x 1).val = (x 0).val * 16 + (x 1).val
    rw [hx0]; omega
  have hrd : View.read (Elt Ideal) ((rowW).access (Rect.whole S100000)) g0 = g0 :=
    Memref.read_access_whole (Elt Ideal) cc0_scratch0 g0
  rw [hrd, shapeCast_apply _ hc x (ix1 (⟨(x 1).val, hx1⟩ : Fin 16)) hrm]
  show g0 _ = g0 _
  refine congrArg g0 (funext ?_)
  refine Fin.forall_fin_one.mpr (Fin.ext ?_)
  show (s1 _).toNat = (row (s1 _)).val
  rw [row_val_of_lt (hs1 _)]
  refine congrArg (fun i => (s1 i).toNat) (funext ?_)
  refine Fin.forall_fin_one.mpr (Fin.ext ?_)
  show 128 * o + c + 1 * (x 1).val = (128 * (o + 1 * (x 0).val) + (c + 1 * (x 1).val)) % 4096
  rw [hx0]; omega

/-- A place whose row is not o lies outside the sixteen-lane rectangle at row o. -/
theorem gat_not_mem_piece_of_row {off : Fin 2 → ℕ} {o c : ℕ} (inb : ∀ a, off a + S1x16.size a ≤ S32x128.size a)
    (he : off = ![o, c]) (y : S32x128.Idx) (h : (y 0).val ≠ o) : y ∉ (Rect.unit (s := S32x128) off S1x16.size inb).set :=
  fun hm => h ((gat_mem_piece inb he y).mp hm).1

/-- A place some store of a list covers, all of whose stores agree with one function of the place, holds that function's
    value there. -/
theorem gat_res_of_pieces (g5 : Bf (F := Ideal) d L resW) (G : S32x128.Idx → Elt Ideal .f32)
    (Lst : List (View.Piece (Elt Ideal) S32x128 .f32)) (hG : ∀ p ∈ Lst, ∀ x : p.1.shape.Idx, p.2 x = G (p.1.emb x))
    (y : S32x128.Idx) (hc : ∃ p ∈ Lst, y ∈ p.1.set) : (resW).view.writes (Elt Ideal) g5 Lst y = G y :=
  View.read_writes_apply_of_pieces (resW).view g5 G Lst hG y hc

/-- A place no store of a list covers holds what it held. -/
theorem gat_res_of_not_mem (g5 : Bf (F := Ideal) d L resW) (Lst : List (View.Piece (Elt Ideal) S32x128 .f32))
    (y : S32x128.Idx) (h : ∀ p ∈ Lst, y ∉ p.1.set) : (resW).view.writes (Elt Ideal) g5 Lst y = g5 y :=
  View.read_writes_apply_of_forall_not_mem (resW).view g5 y Lst h

set_option maxHeartbeats 8000000 in
/-- One trip of the inner sparse loop with the values it stores: the row and index scratches are left as they were, and the
    result scratch holds, on rows 2k and 2k + 1, the entries the words at places 128·row + column name, elsewhere what it held. -/
theorem t7_region_v (k : Fin k0_t7_loop.trips)
    (g0 : Bf (F := Ideal) d L rowW) (s1 : Bf (F := Ideal) d L sidW) (hs1 : ∀ x, (s1 x).toNat < 100000)
    (g5 : Bf (F := Ideal) d L resW) (Q : Unit → sProp 𝕄) :
    iprop(((rowW).view.loc (V d (cV L) (jV L)) ↦{fullShare} g0) ∗ ((sidW).view.loc (V d (cV L) (jV L)) ↦{fullShare} s1) ∗ ((resW).view.loc (V d (cV L) (jV L)) ↦{fullShare} g5)
        ∗ ((((rowW).view.loc (V d (cV L) (jV L)) ↦{fullShare} g0) ∗ ((sidW).view.loc (V d (cV L) (jV L)) ↦{fullShare} s1)
            ∗ (∃ g5', ((resW).view.loc (V d (cV L) (jV L)) ↦{fullShare} g5') ∗ ⌜gatStep k.val g0 s1 g5 g5'⌝)) -∗ Q ()))
      ⊢ wp frame (wpE (defs₀ (F := Ideal)) 𝒱₀ (V d (cV L) (jV L)) none) Set.univ
          (k0_t7_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k ()) Q := by
  unfold k0_t7_body
  iintro ⟨Hrow, Hsid, Hres, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hsid]; · iexact Hsid
  iexists _
  isplitl [Hres]; · iexact Hres
  ipureintro
  intro r l
  have hk : k.val < 16 := lt_of_lt_of_le k.isLt Gen.k0_t7_abs.2.1
  have hr32 : r.val < 32 := r.isLt
  have hl128 : l.val < 128 := l.isLt
  by_cases hr : r.val / 2 = k.val
  · rw [if_pos hr]
    refine gat_res_of_pieces d L g5 (gatG g0 s1) _ ?_ (ix2 r l) ?_
    · exact List.forall_mem_cons.mpr ⟨gat_piece_val d L g0 s1 hs1 (Gen.k0_off246_inb k) (Gen.k0_off245_inb k) _ _ (Gen.k0_off246_eq k) (Gen.k0_off245_eq k) (by omega) (by omega),
      List.forall_mem_cons.mpr ⟨gat_piece_val d L g0 s1 hs1 (Gen.k0_off244_inb k) (Gen.k0_off243_inb k) _ _ (Gen.k0_off244_eq k) (Gen.k0_off243_eq k) (by omega) (by omega),
      List.forall_mem_cons.mpr ⟨gat_piece_val d L g0 s1 hs1 (Gen.k0_off242_inb k) (Gen.k0_off241_inb k) _ _ (Gen.k0_off242_eq k) (Gen.k0_off241_eq k) (by omega) (by omega),
      List.forall_mem_cons.mpr ⟨gat_piece_val d L g0 s1 hs1 (Gen.k0_off240_inb k) (Gen.k0_off239_inb k) _ _ (Gen.k0_off240_eq k) (Gen.k0_off239_eq k) (by omega) (by omega),
      List.forall_mem_cons.mpr ⟨gat_piece_val d L g0 s1 hs1 (Gen.k0_off238_inb k) (Gen.k0_off237_inb k) _ _ (Gen.k0_off238_eq k) (Gen.k0_off237_eq k) (by omega) (by omega),
      List.forall_mem_cons.mpr ⟨gat_piece_val d L g0 s1 hs1 (Gen.k0_off236_inb k) (Gen.k0_off235_inb k) _ _ (Gen.k0_off236_eq k) (Gen.k0_off235_eq k) (by omega) (by omega),
      List.forall_mem_cons.mpr ⟨gat_piece_val d L g0 s1 hs1 (Gen.k0_off234_inb k) (Gen.k0_off233_inb k) _ _ (Gen.k0_off234_eq k) (Gen.k0_off233_eq k) (by omega) (by omega),
      List.forall_mem_cons.mpr ⟨gat_piece_val d L g0 s1 hs1 (Gen.k0_off232_inb k) (Gen.k0_off231_inb k) _ _ (Gen.k0_off232_eq k) (Gen.k0_off231_eq k) (by omega) (by omega),
      List.forall_mem_cons.mpr ⟨gat_piece_val d L g0 s1 hs1 (Gen.k0_off230_inb k) (Gen.k0_off229_inb k) _ _ (Gen.k0_off230_eq k) (Gen.k0_off229_eq k) (by omega) (by omega),
      List.forall_mem_cons.mpr ⟨gat_piece_val d L g0 s1 hs1 (Gen.k0_off228_inb k) (Gen.k0_off227_inb k) _ _ (Gen.k0_off228_eq k) (Gen.k0_off227_eq k) (by omega) (by omega),
      List.forall_mem_cons.mpr ⟨gat_piece_val d L g0 s1 hs1 (Gen.k0_off226_inb k) (Gen.k0_off225_inb k) _ _ (Gen.k0_off226_eq k) (Gen.k0_off225_eq k) (by omega) (by omega),
      List.forall_mem_cons.mpr ⟨gat_piece_val d L g0 s1 hs1 (Gen.k0_off224_inb k) (Gen.k0_off223_inb k) _ _ (Gen.k0_off224_eq k) (Gen.k0_off223_eq k) (by omega) (by omega),
      List.forall_mem_cons.mpr ⟨gat_piece_val d L g0 s1 hs1 (Gen.k0_off222_inb k) (Gen.k0_off221_inb k) _ _ (Gen.k0_off222_eq k) (Gen.k0_off221_eq k) (by omega) (by omega),
      List.forall_mem_cons.mpr ⟨gat_piece_val d L g0 s1 hs1 (Gen.k0_off220_inb k) (Gen.k0_off219_inb k) _ _ (Gen.k0_off220_eq k) (Gen.k0_off219_eq k) (by omega) (by omega),
      List.forall_mem_cons.mpr ⟨gat_piece_val d L g0 s1 hs1 (Gen.k0_off218_inb k) (Gen.k0_off217_inb k) _ _ (Gen.k0_off218_eq k) (Gen.k0_off217_eq k) (by omega) (by omega),
      List.forall_mem_cons.mpr ⟨gat_piece_val d L g0 s1 hs1 (Gen.k0_off216_inb k) (Gen.k0_off215_inb k) _ _ (Gen.k0_off216_eq k) (Gen.k0_off215_eq k) (by omega) (by omega),
      List.forall_mem_nil _⟩⟩⟩⟩⟩⟩⟩⟩⟩⟩⟩⟩⟩⟩⟩⟩
    · simp only [List.exists_mem_cons_iff]
      rw [gat_mem_piece_ix (Gen.k0_off246_inb k) (Gen.k0_off246_eq k),
        gat_mem_piece_ix (Gen.k0_off244_inb k) (Gen.k0_off244_eq k),
        gat_mem_piece_ix (Gen.k0_off242_inb k) (Gen.k0_off242_eq k),
        gat_mem_piece_ix (Gen.k0_off240_inb k) (Gen.k0_off240_eq k),
        gat_mem_piece_ix (Gen.k0_off238_inb k) (Gen.k0_off238_eq k),
        gat_mem_piece_ix (Gen.k0_off236_inb k) (Gen.k0_off236_eq k),
        gat_mem_piece_ix (Gen.k0_off234_inb k) (Gen.k0_off234_eq k),
        gat_mem_piece_ix (Gen.k0_off232_inb k) (Gen.k0_off232_eq k),
        gat_mem_piece_ix (Gen.k0_off230_inb k) (Gen.k0_off230_eq k),
        gat_mem_piece_ix (Gen.k0_off228_inb k) (Gen.k0_off228_eq k),
        gat_mem_piece_ix (Gen.k0_off226_inb k) (Gen.k0_off226_eq k),
        gat_mem_piece_ix (Gen.k0_off224_inb k) (Gen.k0_off224_eq k),
        gat_mem_piece_ix (Gen.k0_off222_inb k) (Gen.k0_off222_eq k),
        gat_mem_piece_ix (Gen.k0_off220_inb k) (Gen.k0_off220_eq k),
        gat_mem_piece_ix (Gen.k0_off218_inb k) (Gen.k0_off218_eq k),
        gat_mem_piece_ix (Gen.k0_off216_inb k) (Gen.k0_off216_eq k)]
      omega
  · rw [if_neg hr]
    refine gat_res_of_not_mem d L g5 _ (ix2 r l) ?_
    exact List.forall_mem_cons.mpr ⟨gat_not_mem_piece_of_row (Gen.k0_off246_inb k) (Gen.k0_off246_eq k) _ (by show r.val ≠ _; omega),
      List.forall_mem_cons.mpr ⟨gat_not_mem_piece_of_row (Gen.k0_off244_inb k) (Gen.k0_off244_eq k) _ (by show r.val ≠ _; omega),
      List.forall_mem_cons.mpr ⟨gat_not_mem_piece_of_row (Gen.k0_off242_inb k) (Gen.k0_off242_eq k) _ (by show r.val ≠ _; omega),
      List.forall_mem_cons.mpr ⟨gat_not_mem_piece_of_row (Gen.k0_off240_inb k) (Gen.k0_off240_eq k) _ (by show r.val ≠ _; omega),
      List.forall_mem_cons.mpr ⟨gat_not_mem_piece_of_row (Gen.k0_off238_inb k) (Gen.k0_off238_eq k) _ (by show r.val ≠ _; omega),
      List.forall_mem_cons.mpr ⟨gat_not_mem_piece_of_row (Gen.k0_off236_inb k) (Gen.k0_off236_eq k) _ (by show r.val ≠ _; omega),
      List.forall_mem_cons.mpr ⟨gat_not_mem_piece_of_row (Gen.k0_off234_inb k) (Gen.k0_off234_eq k) _ (by show r.val ≠ _; omega),
      List.forall_mem_cons.mpr ⟨gat_not_mem_piece_of_row (Gen.k0_off232_inb k) (Gen.k0_off232_eq k) _ (by show r.val ≠ _; omega),
      List.forall_mem_cons.mpr ⟨gat_not_mem_piece_of_row (Gen.k0_off230_inb k) (Gen.k0_off230_eq k) _ (by show r.val ≠ _; omega),
      List.forall_mem_cons.mpr ⟨gat_not_mem_piece_of_row (Gen.k0_off228_inb k) (Gen.k0_off228_eq k) _ (by show r.val ≠ _; omega),
      List.forall_mem_cons.mpr ⟨gat_not_mem_piece_of_row (Gen.k0_off226_inb k) (Gen.k0_off226_eq k) _ (by show r.val ≠ _; omega),
      List.forall_mem_cons.mpr ⟨gat_not_mem_piece_of_row (Gen.k0_off224_inb k) (Gen.k0_off224_eq k) _ (by show r.val ≠ _; omega),
      List.forall_mem_cons.mpr ⟨gat_not_mem_piece_of_row (Gen.k0_off222_inb k) (Gen.k0_off222_eq k) _ (by show r.val ≠ _; omega),
      List.forall_mem_cons.mpr ⟨gat_not_mem_piece_of_row (Gen.k0_off220_inb k) (Gen.k0_off220_eq k) _ (by show r.val ≠ _; omega),
      List.forall_mem_cons.mpr ⟨gat_not_mem_piece_of_row (Gen.k0_off218_inb k) (Gen.k0_off218_eq k) _ (by show r.val ≠ _; omega),
      List.forall_mem_cons.mpr ⟨gat_not_mem_piece_of_row (Gen.k0_off216_inb k) (Gen.k0_off216_eq k) _ (by show r.val ≠ _; omega),
      List.forall_mem_nil _⟩⟩⟩⟩⟩⟩⟩⟩⟩⟩⟩⟩⟩⟩⟩⟩

end Tile
end Cert.Proof.TileI
end
-- ==== Proof.SliceReads.lean ====
/-
  What the sources of a tile's copies read off the inputs.

  Each copy's source is a unit-stride slice of an input array, one element wide on its leading axes, with those unit axes
  squeezed away: a column of one table, a row of the field index lists, a column of the sequence table, a block of the
  re-laid index array. Squeezing keeps row-major order, so the slice read at v is the array at the slice's offsets plus v
  on the kept axes: (t, d, v), (t, b), (d, v), (bb, j, l). With these the tile's block specifications stated through the
  copied column and row numbers are the ones stated through the input arrays.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Pipeline.Value
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import proofs.«209320_g71347996721220_cont_9to1c4b_157_42_alg».proof.Proof.TileIdeal6
import proofs.«209320_g71347996721220_cont_9to1c4b_157_42_alg».proof.Proof.TileIdealTop
import proofs.«209320_g71347996721220_cont_9to1c4b_157_42_alg».proof.Proof.LaunchIdeal3
import proofs.«209320_g71347996721220_cont_9to1c4b_157_42_alg».proof.Proof.TileValueSpec
import proofs.«209320_g71347996721220_cont_9to1c4b_157_42_alg».proof.Proof.TileValueDefs

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- Two places of a rank-3 array with the same three coordinates are the same place. -/
theorem slc_idx3_ext {n0 n1 n2 : ℕ} (i j : (⟨3, ![n0, n1, n2]⟩ : Shape).Idx) (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-- Two places of a rank-2 array with the same two coordinates are the same place. -/
theorem slc_idx2_ext {n0 n1 : ℕ} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Column b of table a, sliced out of the tables as one row of 100000 and squeezed, reads at v the tables' entry (a, b, v). -/
theorem slc_tab (f0 : Bf (F := Ideal) d L tabW) {off : Fin 3 → ℕ} {a b : ℕ}
    (inb : ∀ x, off x + S1x1x100000.size x ≤ S26x32x100000.size x) (he : off = ![a, b, 0]) (ha : a < 26) (hb : b < 32) :
    (((tabW).slice (Rect.unit (s := S26x32x100000) off S1x1x100000.size inb) (fun _ => rfl)).squeeze S100000
        squeezes_S1x1x100000_S100000).view.read (Elt Ideal) f0
      = fun v => f0 (ix3 ⟨a, ha⟩ ⟨b, hb⟩ ⟨(v 0).val, (v 0).isLt⟩) := by
  subst he
  funext v
  have hsq := Memref.read_squeeze_slice (Val := Elt Ideal) (tabW) (Rect.unit (s := S26x32x100000) ![a, b, 0] S1x1x100000.size inb)
    (fun _ => rfl) squeezes_S1x1x100000_S100000 squeezes_S1x1x100000_S100000.numel_eq f0
  rw [hsq, shapeCast_apply _ _ v (ix3 (0 : Fin 1) (0 : Fin 1) (⟨(v 0).val, (v 0).isLt⟩ : Fin 100000)) (by
    rw [Shape.rowMajor_val_three, Shape.rowMajor_val_one]
    show (0 * 1 + 0) * 100000 + (v 0).val = (v 0).val
    omega)]
  rw [View.readAt_apply]
  show f0 _ = f0 _
  refine congrArg f0 (slc_idx3_ext _ _ ?_ ?_ ?_)
  · show a + 1 * 0 = a
    omega
  · show b + 1 * 0 = b
    omega
  · show 0 + 1 * (v 0).val = (v 0).val
    omega

/-- Row a of the field index lists, sliced out as one row of 4096 and squeezed, reads at b the lists' entry (a, b). -/
theorem slc_six (f1 : Bf (F := Ideal) d L sixW) {off : Fin 2 → ℕ} {a : ℕ}
    (inb : ∀ x, off x + S1x4096.size x ≤ S26x4096.size x) (he : off = ![a, 0]) (ha : a < 26) :
    (((sixW).slice (Rect.unit (s := S26x4096) off S1x4096.size inb) (fun _ => rfl)).squeeze S4096
        squeezes_S1x4096_S4096).view.read (Elt Ideal) f1
      = fun b => f1 (ix2 ⟨a, ha⟩ ⟨(b 0).val, (b 0).isLt⟩) := by
  subst he
  funext v
  have hsq := Memref.read_squeeze_slice (Val := Elt Ideal) (sixW) (Rect.unit (s := S26x4096) ![a, 0] S1x4096.size inb)
    (fun _ => rfl) squeezes_S1x4096_S4096 squeezes_S1x4096_S4096.numel_eq f1
  rw [hsq, shapeCast_apply _ _ v (ix2 (0 : Fin 1) (⟨(v 0).val, (v 0).isLt⟩ : Fin 4096)) (by
    rw [Shape.rowMajor_val_two, Shape.rowMajor_val_one]
    show 0 * 4096 + (v 0).val = (v 0).val
    omega)]
  rw [View.readAt_apply]
  show f1 _ = f1 _
  refine congrArg f1 (slc_idx2_ext _ _ ?_ ?_)
  · show a + 1 * 0 = a
    omega
  · show 0 + 1 * (v 0).val = (v 0).val
    omega

/-- Column a of the sequence table, sliced out as one row of 100000 and squeezed, reads at v the table's entry (a, v). -/
theorem slc_seq (f2 : Bf (F := Ideal) d L seqW) {off : Fin 2 → ℕ} {a : ℕ}
    (inb : ∀ x, off x + S1x100000.size x ≤ S32x100000.size x) (he : off = ![a, 0]) (ha : a < 32) :
    (((seqW).slice (Rect.unit (s := S32x100000) off S1x100000.size inb) (fun _ => rfl)).squeeze S100000
        squeezes_S1x100000_S100000).view.read (Elt Ideal) f2
      = fun v => f2 (ix2 ⟨a, ha⟩ ⟨(v 0).val, (v 0).isLt⟩) := by
  subst he
  funext v
  have hsq := Memref.read_squeeze_slice (Val := Elt Ideal) (seqW) (Rect.unit (s := S32x100000) ![a, 0] S1x100000.size inb)
    (fun _ => rfl) squeezes_S1x100000_S100000 squeezes_S1x100000_S100000.numel_eq f2
  rw [hsq, shapeCast_apply _ _ v (ix2 (0 : Fin 1) (⟨(v 0).val, (v 0).isLt⟩ : Fin 100000)) (by
    rw [Shape.rowMajor_val_two, Shape.rowMajor_val_one]
    show 0 * 100000 + (v 0).val = (v 0).val
    omega)]
  rw [View.readAt_apply]
  show f2 _ = f2 _
  refine congrArg f2 (slc_idx2_ext _ _ ?_ ?_)
  · show a + 1 * 0 = a
    omega
  · show 0 + 1 * (v 0).val = (v 0).val
    omega

/-- Block a of the re-laid index array, sliced out as one block of 50 × 128 and squeezed, reads at (j, l) the array's entry
    (a, j, l): it is the block of 128-row block a. -/
theorem slc_qix (f3 : Bf (F := Ideal) d L qixW) {off : Fin 3 → ℕ} {a : ℕ}
    (inb : ∀ x, off x + S1x50x128.size x ≤ S32x50x128.size x) (he : off = ![a, 0, 0]) (ha : a < 32) :
    (qixBlk off inb).view.read (Elt Ideal) f3 = blkOf f3 a := by
  subst he
  funext v
  have hsq := Memref.read_squeeze_slice (Val := Elt Ideal) (qixW) (Rect.unit (s := S32x50x128) ![a, 0, 0] S1x50x128.size inb)
    (fun _ => rfl) squeezes_S1x50x128_S50x128 squeezes_S1x50x128_S50x128.numel_eq f3
  rw [hsq, shapeCast_apply _ _ v (ix3 (0 : Fin 1) (⟨(v 0).val, (v 0).isLt⟩ : Fin 50) (⟨(v 1).val, (v 1).isLt⟩ : Fin 128)) (by
    rw [Shape.rowMajor_val_three, Shape.rowMajor_val_two]
    show (0 * 50 + (v 0).val) * 128 + (v 1).val = (v 0).val * 128 + (v 1).val
    omega)]
  rw [View.readAt_apply]
  show f3 _ = f3 _
  refine congrArg f3 (slc_idx3_ext _ _ ?_ ?_ ?_)
  · show a + 1 * 0 = a % 32
    omega
  · show 0 + 1 * (v 0).val = (v 0).val
    omega
  · show 0 + 1 * (v 1).val = (v 1).val
    omega

/- What a copy's source, a squeezed one-row (or one-block) slice of an input, reads off the input. -/
theorem tabRow_read (f0 : Bf (F := Ideal) d L tabW) (t : Fin k0_t6_loop.trips) :
    (tabRow L t).view.read (Elt Ideal) f0 = fun v => f0 (ix3 ⟨t.val, t.isLt⟩ ⟨pIdx L, pIdx_lt L⟩ ⟨(v 0).val, (v 0).isLt⟩) := by
  exact slc_tab d L f0 (k0_off213_inb L t) (Gen.k0_off213_eq L t) t.isLt (pIdx_lt L)
theorem sixRow_read (f1 : Bf (F := Ideal) d L sixW) (t : Fin k0_t6_loop.trips) :
    (sixRow t).view.read (Elt Ideal) f1 = fun b => f1 (ix2 ⟨t.val, t.isLt⟩ ⟨(b 0).val, (b 0).isLt⟩) := by
  exact slc_six d L f1 (k0_off214_inb t) (Gen.k0_off214_eq t) t.isLt
theorem seqRow_read (f2 : Bf (F := Ideal) d L seqW) :
    (seqRow L).view.read (Elt Ideal) f2 = fun v => f2 (ix2 ⟨pIdx L, pIdx_lt L⟩ ⟨(v 0).val, (v 0).isLt⟩) := by
  exact slc_seq d L f2 (k0_off1_inb L) (Gen.k0_off1_eq L) (pIdx_lt L)
theorem blk_read3_0 (f3 : Bf (F := Ideal) d L qixW) (k1 : Fin k0_t1_loop.trips) :
    (qixBlk (k0_off3 k1 0#32) (k0_off3_inb k1 0)).view.read (Elt Ideal) f3 = blkOf f3 (2 * k1.val + 1) := by
  have hk : k1.val < 15 := lt_of_lt_of_le k1.isLt Gen.k0_t1_abs.2.1
  exact slc_qix d L f3 (k0_off3_inb k1 0) (Gen.k0_off3_eq k1 0) (by show 2 * k1.val + 0 + 1 < 32; omega)
theorem blk_read3_1 (f3 : Bf (F := Ideal) d L qixW) (k1 : Fin k0_t1_loop.trips) :
    (qixBlk (k0_off3 k1 1#32) (k0_off3_inb k1 1)).view.read (Elt Ideal) f3 = blkOf f3 (2 * k1.val + 2) := by
  have hk : k1.val < 15 := lt_of_lt_of_le k1.isLt Gen.k0_t1_abs.2.1
  exact slc_qix d L f3 (k0_off3_inb k1 1) (Gen.k0_off3_eq k1 1) (by show 2 * k1.val + 1 + 1 < 32; omega)
theorem blk_read_lit0 (f3 : Bf (F := Ideal) d L qixW) :
    (qixBlk ![0, 0, 0] inb_S32x50x128_S1x50x128_0_0_0).view.read (Elt Ideal) f3 = blkOf f3 0 := by
  exact slc_qix d L f3 inb_S32x50x128_S1x50x128_0_0_0 rfl (by norm_num)
theorem blk_read_lit31 (f3 : Bf (F := Ideal) d L qixW) :
    (qixBlk ![31, 0, 0] inb_S32x50x128_S1x50x128_31_0_0).view.read (Elt Ideal) f3 = blkOf f3 31 := by
  exact slc_qix d L f3 inb_S32x50x128_S1x50x128_31_0_0 rfl (by norm_num)

/- The specifications through the copies are the specifications through the inputs. -/
theorem souSpec_of_R (f0 : Bf (F := Ideal) d L tabW) (f1 : Bf (F := Ideal) d L sixW) (t : Fin k0_t6_loop.trips)
    (fs : Buf (Elt Ideal) ((souBlk L t).view.loc (V d (cV L) (jV L)))) (h : souSpecR d L f0 f1 t fs) : souSpec d L f0 f1 t fs := by
  intro r l
  rw [h r l, tabRow_read, sixRow_read]
  rfl
theorem pouSpec_of_R (f2 : Bf (F := Ideal) d L seqW) (f3 : Bf (F := Ideal) d L qixW) (f4 : Bf (F := Ideal) d L lenW)
    (fp : Buf (Elt Ideal) ((pouBlk L).view.loc (V d (cV L) (jV L)))) (h : pouSpecR d L f2 f3 f4 fp) : pouSpec d L f2 f3 f4 fp := by
  intro r l
  rw [h r l, seqRow_read]

end Tile
end Cert.Proof.TileI
end
-- ==== Proof.Consts.lean ====
/-
  The float literals of the pooled part: the binary32 pattern of `float(j)` denotes the real `j`, for j = 0 … 49 (the
  positions of a sequence). `1.0` is the pattern of j = 1.
-/
import Idealize.ShloMosaic.PureOps.Ideal

noncomputable section

namespace Cert.Consts

open Idealize.ShloMosaic

theorem ofBits_0 : Ideal.ofBits .f32 0x00000000#32 = (((0 : ℕ) : ℝ) : EReal) := by
  simp [Ideal.ofBits, Ideal.ieee, -EReal.coe_mul]
theorem ofBits_1 : Ideal.ofBits .f32 0x3F800000#32 = (((1 : ℕ) : ℝ) : EReal) := by
  simp [Ideal.ofBits, Ideal.ieee, -EReal.coe_mul]; norm_num
theorem ofBits_2 : Ideal.ofBits .f32 0x40000000#32 = (((2 : ℕ) : ℝ) : EReal) := by
  simp [Ideal.ofBits, Ideal.ieee, -EReal.coe_mul]; norm_num
theorem ofBits_3 : Ideal.ofBits .f32 0x40400000#32 = (((3 : ℕ) : ℝ) : EReal) := by
  simp [Ideal.ofBits, Ideal.ieee, -EReal.coe_mul]; norm_num
theorem ofBits_4 : Ideal.ofBits .f32 0x40800000#32 = (((4 : ℕ) : ℝ) : EReal) := by
  simp [Ideal.ofBits, Ideal.ieee, -EReal.coe_mul]; norm_num
theorem ofBits_5 : Ideal.ofBits .f32 0x40A00000#32 = (((5 : ℕ) : ℝ) : EReal) := by
  simp [Ideal.ofBits, Ideal.ieee, -EReal.coe_mul]; norm_num
theorem ofBits_6 : Ideal.ofBits .f32 0x40C00000#32 = (((6 : ℕ) : ℝ) : EReal) := by
  simp [Ideal.ofBits, Ideal.ieee, -EReal.coe_mul]; norm_num
theorem ofBits_7 : Ideal.ofBits .f32 0x40E00000#32 = (((7 : ℕ) : ℝ) : EReal) := by
  simp [Ideal.ofBits, Ideal.ieee, -EReal.coe_mul]; norm_num
theorem ofBits_8 : Ideal.ofBits .f32 0x41000000#32 = (((8 : ℕ) : ℝ) : EReal) := by
  simp [Ideal.ofBits, Ideal.ieee, -EReal.coe_mul]; norm_num
theorem ofBits_9 : Ideal.ofBits .f32 0x41100000#32 = (((9 : ℕ) : ℝ) : EReal) := by
  simp [Ideal.ofBits, Ideal.ieee, -EReal.coe_mul]; norm_num
theorem ofBits_10 : Ideal.ofBits .f32 0x41200000#32 = (((10 : ℕ) : ℝ) : EReal) := by
  simp [Ideal.ofBits, Ideal.ieee, -EReal.coe_mul]; norm_num
theorem ofBits_11 : Ideal.ofBits .f32 0x41300000#32 = (((11 : ℕ) : ℝ) : EReal) := by
  simp [Ideal.ofBits, Ideal.ieee, -EReal.coe_mul]; norm_num
theorem ofBits_12 : Ideal.ofBits .f32 0x41400000#32 = (((12 : ℕ) : ℝ) : EReal) := by
  simp [Ideal.ofBits, Ideal.ieee, -EReal.coe_mul]; norm_num
theorem ofBits_13 : Ideal.ofBits .f32 0x41500000#32 = (((13 : ℕ) : ℝ) : EReal) := by
  simp [Ideal.ofBits, Ideal.ieee, -EReal.coe_mul]; norm_num
theorem ofBits_14 : Ideal.ofBits .f32 0x41600000#32 = (((14 : ℕ) : ℝ) : EReal) := by
  simp [Ideal.ofBits, Ideal.ieee, -EReal.coe_mul]; norm_num
theorem ofBits_15 : Ideal.ofBits .f32 0x41700000#32 = (((15 : ℕ) : ℝ) : EReal) := by
  simp [Ideal.ofBits, Ideal.ieee, -EReal.coe_mul]; norm_num
theorem ofBits_16 : Ideal.ofBits .f32 0x41800000#32 = (((16 : ℕ) : ℝ) : EReal) := by
  simp [Ideal.ofBits, Ideal.ieee, -EReal.coe_mul]; norm_num
theorem ofBits_17 : Ideal.ofBits .f32 0x41880000#32 = (((17 : ℕ) : ℝ) : EReal) := by
  simp [Ideal.ofBits, Ideal.ieee, -EReal.coe_mul]; norm_num
theorem ofBits_18 : Ideal.ofBits .f32 0x41900000#32 = (((18 : ℕ) : ℝ) : EReal) := by
  simp [Ideal.ofBits, Ideal.ieee, -EReal.coe_mul]; norm_num
theorem ofBits_19 : Ideal.ofBits .f32 0x41980000#32 = (((19 : ℕ) : ℝ) : EReal) := by
  simp [Ideal.ofBits, Ideal.ieee, -EReal.coe_mul]; norm_num
theorem ofBits_20 : Ideal.ofBits .f32 0x41A00000#32 = (((20 : ℕ) : ℝ) : EReal) := by
  simp [Ideal.ofBits, Ideal.ieee, -EReal.coe_mul]; norm_num
theorem ofBits_21 : Ideal.ofBits .f32 0x41A80000#32 = (((21 : ℕ) : ℝ) : EReal) := by
  simp [Ideal.ofBits, Ideal.ieee, -EReal.coe_mul]; norm_num
theorem ofBits_22 : Ideal.ofBits .f32 0x41B00000#32 = (((22 : ℕ) : ℝ) : EReal) := by
  simp [Ideal.ofBits, Ideal.ieee, -EReal.coe_mul]; norm_num
theorem ofBits_23 : Ideal.ofBits .f32 0x41B80000#32 = (((23 : ℕ) : ℝ) : EReal) := by
  simp [Ideal.ofBits, Ideal.ieee, -EReal.coe_mul]; norm_num
theorem ofBits_24 : Ideal.ofBits .f32 0x41C00000#32 = (((24 : ℕ) : ℝ) : EReal) := by
  simp [Ideal.ofBits, Ideal.ieee, -EReal.coe_mul]; norm_num
theorem ofBits_25 : Ideal.ofBits .f32 0x41C80000#32 = (((25 : ℕ) : ℝ) : EReal) := by
  simp [Ideal.ofBits, Ideal.ieee, -EReal.coe_mul]; norm_num
theorem ofBits_26 : Ideal.ofBits .f32 0x41D00000#32 = (((26 : ℕ) : ℝ) : EReal) := by
  simp [Ideal.ofBits, Ideal.ieee, -EReal.coe_mul]; norm_num
theorem ofBits_27 : Ideal.ofBits .f32 0x41D80000#32 = (((27 : ℕ) : ℝ) : EReal) := by
  simp [Ideal.ofBits, Ideal.ieee, -EReal.coe_mul]; norm_num
theorem ofBits_28 : Ideal.ofBits .f32 0x41E00000#32 = (((28 : ℕ) : ℝ) : EReal) := by
  simp [Ideal.ofBits, Ideal.ieee, -EReal.coe_mul]; norm_num
theorem ofBits_29 : Ideal.ofBits .f32 0x41E80000#32 = (((29 : ℕ) : ℝ) : EReal) := by
  simp [Ideal.ofBits, Ideal.ieee, -EReal.coe_mul]; norm_num
theorem ofBits_30 : Ideal.ofBits .f32 0x41F00000#32 = (((30 : ℕ) : ℝ) : EReal) := by
  simp [Ideal.ofBits, Ideal.ieee, -EReal.coe_mul]; norm_num
theorem ofBits_31 : Ideal.ofBits .f32 0x41F80000#32 = (((31 : ℕ) : ℝ) : EReal) := by
  simp [Ideal.ofBits, Ideal.ieee, -EReal.coe_mul]; norm_num
theorem ofBits_32 : Ideal.ofBits .f32 0x42000000#32 = (((32 : ℕ) : ℝ) : EReal) := by
  simp [Ideal.ofBits, Ideal.ieee, -EReal.coe_mul]; norm_num
theorem ofBits_33 : Ideal.ofBits .f32 0x42040000#32 = (((33 : ℕ) : ℝ) : EReal) := by
  simp [Ideal.ofBits, Ideal.ieee, -EReal.coe_mul]; norm_num
theorem ofBits_34 : Ideal.ofBits .f32 0x42080000#32 = (((34 : ℕ) : ℝ) : EReal) := by
  simp [Ideal.ofBits, Ideal.ieee, -EReal.coe_mul]; norm_num
theorem ofBits_35 : Ideal.ofBits .f32 0x420C0000#32 = (((35 : ℕ) : ℝ) : EReal) := by
  simp [Ideal.ofBits, Ideal.ieee, -EReal.coe_mul]; norm_num
theorem ofBits_36 : Ideal.ofBits .f32 0x42100000#32 = (((36 : ℕ) : ℝ) : EReal) := by
  simp [Ideal.ofBits, Ideal.ieee, -EReal.coe_mul]; norm_num
theorem ofBits_37 : Ideal.ofBits .f32 0x42140000#32 = (((37 : ℕ) : ℝ) : EReal) := by
  simp [Ideal.ofBits, Ideal.ieee, -EReal.coe_mul]; norm_num
theorem ofBits_38 : Ideal.ofBits .f32 0x42180000#32 = (((38 : ℕ) : ℝ) : EReal) := by
  simp [Ideal.ofBits, Ideal.ieee, -EReal.coe_mul]; norm_num
theorem ofBits_39 : Ideal.ofBits .f32 0x421C0000#32 = (((39 : ℕ) : ℝ) : EReal) := by
  simp [Ideal.ofBits, Ideal.ieee, -EReal.coe_mul]; norm_num
theorem ofBits_40 : Ideal.ofBits .f32 0x42200000#32 = (((40 : ℕ) : ℝ) : EReal) := by
  simp [Ideal.ofBits, Ideal.ieee, -EReal.coe_mul]; norm_num
theorem ofBits_41 : Ideal.ofBits .f32 0x42240000#32 = (((41 : ℕ) : ℝ) : EReal) := by
  simp [Ideal.ofBits, Ideal.ieee, -EReal.coe_mul]; norm_num
theorem ofBits_42 : Ideal.ofBits .f32 0x42280000#32 = (((42 : ℕ) : ℝ) : EReal) := by
  simp [Ideal.ofBits, Ideal.ieee, -EReal.coe_mul]; norm_num
theorem ofBits_43 : Ideal.ofBits .f32 0x422C0000#32 = (((43 : ℕ) : ℝ) : EReal) := by
  simp [Ideal.ofBits, Ideal.ieee, -EReal.coe_mul]; norm_num
theorem ofBits_44 : Ideal.ofBits .f32 0x42300000#32 = (((44 : ℕ) : ℝ) : EReal) := by
  simp [Ideal.ofBits, Ideal.ieee, -EReal.coe_mul]; norm_num
theorem ofBits_45 : Ideal.ofBits .f32 0x42340000#32 = (((45 : ℕ) : ℝ) : EReal) := by
  simp [Ideal.ofBits, Ideal.ieee, -EReal.coe_mul]; norm_num
theorem ofBits_46 : Ideal.ofBits .f32 0x42380000#32 = (((46 : ℕ) : ℝ) : EReal) := by
  simp [Ideal.ofBits, Ideal.ieee, -EReal.coe_mul]; norm_num
theorem ofBits_47 : Ideal.ofBits .f32 0x423C0000#32 = (((47 : ℕ) : ℝ) : EReal) := by
  simp [Ideal.ofBits, Ideal.ieee, -EReal.coe_mul]; norm_num
theorem ofBits_48 : Ideal.ofBits .f32 0x42400000#32 = (((48 : ℕ) : ℝ) : EReal) := by
  simp [Ideal.ofBits, Ideal.ieee, -EReal.coe_mul]; norm_num
theorem ofBits_49 : Ideal.ofBits .f32 0x42440000#32 = (((49 : ℕ) : ℝ) : EReal) := by
  simp [Ideal.ofBits, Ideal.ieee, -EReal.coe_mul]; norm_num

end Cert.Consts

end
-- ==== Proof.PoolValue.lean ====
/-
  One trip of the first pooling loop of a tile's task (idealized kernel), with the value it stores.

  The trip reads sixteen lengths, at places 256·k1 + 16·k + a of the lengths scratch (a = 0 … 15), and for each of the fifty
  positions j the sixteen words at row j, places 16·k + a, of the index block. Each word is below 100000 and names an entry of
  the row scratch. Lane a adds up, from 0 and in the order j = 0, 1, …, 49, the entry named at position j times the
  difference len − j clamped between 0 and 1; the sum times 1 / max len 1 is stored at row 2·k1, place 16·k + a, of the
  pooled-result scratch, and nothing else of that scratch changes. This is `poolVal` of batch row 128·(2·k1) + 16·k + a:
  a sum over the fifty positions written out from position 0 up is the kernel's chain of additions, and the binary32
  literals float(j) denote the reals j.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import Idealize.ShloMosaic.Lib.Pipeline.Value
import Idealize.ShloMosaic.Lib.WritesUnit
import proofs.«209320_g71347996721220_cont_9to1c4b_157_42_alg».proof.Proof.Consts

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- The store offset of the loop in closed form: row `2·k1` of the pooled-result scratch, places from `16k`. -/
theorem off55_eq : ∀ (k1 : Fin k0_t1_loop.trips) (k : Fin k0_t2_loop.trips), k0_off55 k1 k = ![2 * k1.val, 16 * k.val] := by decide +kernel

/-- Lane `a` of the sixteen lengths read at place `c` of the lengths scratch is the length at place `c + a`. -/
theorem len_lane (ln : Bf (F := Ideal) d L lnvW) {off : Fin 1 → ℕ} {c : ℕ} (hoff : off = ![c])
    (inb : ∀ b, off b + S16.size b ≤ S4096.size b) (a : Fin 16) :
    View.readAt (Elt Ideal) (lnvW).view (Rect.unit (s := S4096) off S16.size inb).toLoadRect ln (ix1 a)
      = ln (ix1 ⟨c + a.val, by subst hoff; have h := inb 0; change c + 16 ≤ 4096 at h; omega⟩) := by
  subst hoff
  show ln _ = ln _
  congr 1
  funext i
  match i with
  | ⟨0, _⟩ => exact Fin.ext (show c + 1 * a.val = c + a.val by omega)

/-- An indexed load of the row scratch at sixteen words, each below 100000: lane `a` is the entry its word names. -/
theorem loadIdx_gat (g0 : Bf (F := Ideal) d L rowW) (w : IVec S16 32) (a : Fin 16) : ∀ h,
    loadIdx (F := Ideal) (View.read (Elt Ideal) ((rowW).access (Rect.whole S100000)) g0) ![w] h (ix1 a) = gatVal g0 (w (ix1 a)) := by
  intro h
  have hw : (w (ix1 a)).toNat < 100000 := h 0 (ix1 a)
  have e0 : View.read (Elt Ideal) ((rowW).access (Rect.whole S100000)) g0 = g0 :=
    Memref.read_access_whole (Elt Ideal) cc0_scratch0 g0
  unfold loadIdx
  rw [e0]
  show g0 _ = g0 _
  congr 1
  funext i
  match i with
  | ⟨0, _⟩ =>
    refine Fin.ext ?_
    show (w (ix1 a)).toNat = (row (w (ix1 a))).val
    rw [row_val_of_lt hw]

/-- Lane `a` of the sixteen words read at row `j`, places from `c`, of the first index block: the word at place `c + a` of row `j`. -/
theorem idx_lane0 (s : Bf (F := Ideal) d L qb0W) {off : Fin 2 → ℕ} {j c : ℕ} (hoff : off = ![j, c])
    (inb : ∀ b, off b + S1x16.size b ≤ S50x128.size b) (a : Fin 16) :
    shapeCast S16 (View.readAt (Elt Ideal) (qb0W).view (Rect.unit (s := S50x128) off S1x16.size inb).toLoadRect s) shapeCasts_S1x16_S16 (ix1 a)
      = s (ix2 ⟨j, by subst hoff; have h0 := inb 0; change j + 1 ≤ 50 at h0; omega⟩
          ⟨c + a.val, by subst hoff; have h1 := inb 1; change c + 16 ≤ 128 at h1; omega⟩) := by
  subst hoff
  refine (shapeCast_apply _ shapeCasts_S1x16_S16 (ix1 a) (ix2 (0 : Fin 1) a) ?_).trans ?_
  · rw [Shape.rowMajor_val_two, Shape.rowMajor_val_one]
    show 0 * 16 + a.val = a.val
    omega
  · show s _ = s _
    congr 1
    funext i
    match i with
    | ⟨0, _⟩ => exact Fin.ext (show j + 1 * 0 = j by omega)
    | ⟨1, _⟩ => exact Fin.ext (show c + 1 * a.val = c + a.val by omega)

/-- A sum over the fifty positions written out from position 0 up, the order in which the kernel adds. -/
theorem sum50 (F : Fin 50 → EReal) :
    ∑ j : Fin 50, F j = 0 + F ⟨0, by norm_num⟩ + F ⟨1, by norm_num⟩ + F ⟨2, by norm_num⟩ + F ⟨3, by norm_num⟩ + F ⟨4, by norm_num⟩ + F ⟨5, by norm_num⟩ + F ⟨6, by norm_num⟩ + F ⟨7, by norm_num⟩ + F ⟨8, by norm_num⟩ + F ⟨9, by norm_num⟩ + F ⟨10, by norm_num⟩ + F ⟨11, by norm_num⟩ + F ⟨12, by norm_num⟩ + F ⟨13, by norm_num⟩ + F ⟨14, by norm_num⟩ + F ⟨15, by norm_num⟩ + F ⟨16, by norm_num⟩ + F ⟨17, by norm_num⟩ + F ⟨18, by norm_num⟩ + F ⟨19, by norm_num⟩ + F ⟨20, by norm_num⟩ + F ⟨21, by norm_num⟩ + F ⟨22, by norm_num⟩ + F ⟨23, by norm_num⟩ + F ⟨24, by norm_num⟩ + F ⟨25, by norm_num⟩ + F ⟨26, by norm_num⟩ + F ⟨27, by norm_num⟩ + F ⟨28, by norm_num⟩ + F ⟨29, by norm_num⟩ + F ⟨30, by norm_num⟩ + F ⟨31, by norm_num⟩ + F ⟨32, by norm_num⟩ + F ⟨33, by norm_num⟩ + F ⟨34, by norm_num⟩ + F ⟨35, by norm_num⟩ + F ⟨36, by norm_num⟩ + F ⟨37, by norm_num⟩ + F ⟨38, by norm_num⟩ + F ⟨39, by norm_num⟩ + F ⟨40, by norm_num⟩ + F ⟨41, by norm_num⟩ + F ⟨42, by norm_num⟩ + F ⟨43, by norm_num⟩ + F ⟨44, by norm_num⟩ + F ⟨45, by norm_num⟩ + F ⟨46, by norm_num⟩ + F ⟨47, by norm_num⟩ + F ⟨48, by norm_num⟩ + F ⟨49, by norm_num⟩ := by
  have e : ∑ j : Fin 50, F j = ∑ j ∈ Finset.range 50, (if h : j < 50 then F ⟨j, h⟩ else 0) := by
    rw [Finset.sum_range]
    exact Finset.sum_congr rfl fun j _ => by rw [dif_pos j.isLt]
  rw [e]
  simp only [Finset.sum_range_succ, Finset.sum_range_zero, Nat.reduceLT, ↓reduceDIte]

/-- One store of sixteen lanes at row `bb`, places from `16k`, of the pooled-result scratch, each lane the pooled value of its
    batch row (whose length sits at place `128·bb + 16k + lane` of the lengths scratch), is one trip of a pooling loop. -/
theorem poolStep_of_store (bb k c4 : ℕ) (hbb : bb < 32) (hk : k < 8) (hc4 : c4 = 128 * bb + 16 * k) (g0 : Bf (F := Ideal) d L rowW)
    (s : (⟨2, ![50, 128]⟩ : Shape).Idx → BitVec 32) (ln : Bf (F := Ideal) d L lnvW) (p : Bf (F := Ideal) d L preW)
    (off : Fin 2 → ℕ) (inb : ∀ a, off a + S1x16.size a ≤ S32x128.size a) (hoff : off = ![bb, 16 * k])
    (w : S16.Idx → EReal)
    (hw : ∀ a : Fin 16, w (ix1 a) = poolVal g0 s (ln (ix1 ⟨c4 + a.val, by omega⟩)) ⟨16 * k + a.val, by omega⟩) :
    poolStep bb k g0 s ln p
      ((preW).view.writes (Elt Ideal) p [⟨Rect.unit off S1x16.size inb, shapeCast S1x16 w shapeCasts_S16_S1x16⟩]) := by
  intro r l
  refine (View.read_writes_cons_unit (preW).view p inb (shapeCast S1x16 w shapeCasts_S16_S1x16) [] (ix2 r l) hoff).trans ?_
  by_cases hm : r.val = bb ∧ 16 * k ≤ l.val ∧ l.val < 16 * k + 16
  · have h : ∀ a : Fin 2, (![bb, 16 * k] : Fin 2 → ℕ) a ≤ ((ix2 r l) a).val
        ∧ ((ix2 r l) a).val < (![bb, 16 * k] : Fin 2 → ℕ) a + S1x16.size a :=
      Fin.forall_fin_two.mpr ⟨⟨by show bb ≤ r.val; omega, by show r.val < bb + 1; omega⟩,
        ⟨by show 16 * k ≤ l.val; omega, by show l.val < 16 * k + 16; omega⟩⟩
    have e1 : shapeCast S1x16 w shapeCasts_S16_S1x16 (Rect.unitLocal (s := S32x128) (off := ![bb, 16 * k]) (size := S1x16.size) (ix2 r l) h)
        = w (ix1 ⟨l.val - 16 * k, by omega⟩) := by
      refine shapeCast_apply w shapeCasts_S16_S1x16 _ (ix1 ⟨l.val - 16 * k, by omega⟩) ?_
      rw [Shape.rowMajor_val_two, Shape.rowMajor_val_one]
      show l.val - 16 * k = (r.val - bb) * 16 + (l.val - 16 * k)
      have : r.val - bb = 0 := by omega
      rw [this]; omega
    rw [if_pos hm]
    refine (dif_pos h).trans ?_
    refine e1.trans ?_
    rw [hw]
    have hl := l.isLt
    have e2 : c4 + (l.val - 16 * k) = (128 * bb + l.val) % 4096 := by
      rw [Nat.mod_eq_of_lt (by omega)]; omega
    have e3 : 16 * k + (l.val - 16 * k) = l.val := by omega
    have e4 : (⟨c4 + (l.val - 16 * k), by omega⟩ : Fin 4096) = ⟨(128 * bb + l.val) % 4096, Nat.mod_lt _ (by norm_num)⟩ := Fin.ext e2
    have e5 : (⟨16 * k + (l.val - 16 * k), by omega⟩ : Fin 128) = l := Fin.ext e3
    rw [e4, e5]
  · have h : ¬ ∀ a : Fin 2, (![bb, 16 * k] : Fin 2 → ℕ) a ≤ ((ix2 r l) a).val
        ∧ ((ix2 r l) a).val < (![bb, 16 * k] : Fin 2 → ℕ) a + S1x16.size a := by
      intro h
      apply hm
      have h0 := h 0
      have h1 := h 1
      change bb ≤ r.val ∧ r.val < bb + 1 at h0
      change 16 * k ≤ l.val ∧ l.val < 16 * k + 16 at h1
      omega
    rw [if_neg hm]
    refine (dif_neg h).trans ?_
    rfl

set_option maxHeartbeats 16000000 in
/-- One trip of the first pooling loop: the row scratch, the index block and the lengths come back as they were, and the
    pooled-result scratch differs from what it was exactly at row `2·k1`, places `16k … 16k+15`, which hold the pooled values of
    batch rows `128·(2·k1) + 16k …` (`poolStep`). -/
theorem t2_region_v (c0 c1 : BitVec 32) (k1 : Fin k0_t1_loop.trips) (v24 : BitVec 32) (k : Fin k0_t2_loop.trips)
    (g0 : Bf (F := Ideal) d L rowW) (s : Bf (F := Ideal) d L qb0W) (hs1 : ∀ x, (s x).toNat < 100000)
    (ln : Bf (F := Ideal) d L lnvW) (p : Bf (F := Ideal) d L preW) (Q : Unit → sProp 𝕄) :
    iprop(((rowW).view.loc (V d (cV L) (jV L)) ↦{fullShare} g0) ∗ ((qb0W).view.loc (V d (cV L) (jV L)) ↦{fullShare} s) ∗ ((lnvW).view.loc (V d (cV L) (jV L)) ↦{fullShare} ln) ∗ ((preW).view.loc (V d (cV L) (jV L)) ↦{fullShare} p)
        ∗ ((((rowW).view.loc (V d (cV L) (jV L)) ↦{fullShare} g0) ∗ ((qb0W).view.loc (V d (cV L) (jV L)) ↦{fullShare} s) ∗ ((lnvW).view.loc (V d (cV L) (jV L)) ↦{fullShare} ln)
            ∗ (∃ p', ((preW).view.loc (V d (cV L) (jV L)) ↦{fullShare} p') ∗ ⌜poolStep (2 * k1.val) k.val g0 s ln p p'⌝)) -∗ Q ()))
      ⊢ wp frame (wpE (defs₀ (F := Ideal)) 𝒱₀ (V d (cV L) (jV L)) none) Set.univ
          (k0_t2_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 c1 k1 v24 k ()) Q := by
  unfold k0_t2_body
  iintro ⟨Hrow, Hqb, Hlnv, Hpre, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _
  isplitl [Hpre]; · iexact Hpre
  ipureintro
  have h1 : k1.val < 15 := lt_of_lt_of_le k1.isLt k0_t1_abs.2.1
  have h2 : k.val < 8 := lt_of_lt_of_le k.isLt k0_t2_abs.2.1
  refine poolStep_of_store d L (2 * k1.val) k.val (256 * k1.val + 16 * k.val) (by omega) h2 (by omega) g0 s ln p _ _ (off55_eq k1 k) _ ?_
  intro a
  delta t2_region_v.sl.r t2_region_v.sl.r_1 t2_region_v.sl.r_2 t2_region_v.sl.r_3 t2_region_v.sl.r_4 t2_region_v.sl.r_5 t2_region_v.sl.r_6 t2_region_v.sl.r_7 t2_region_v.sl.r_8 t2_region_v.sl.r_9 t2_region_v.sl.r_10 t2_region_v.sl.r_11 t2_region_v.sl.r_12 t2_region_v.sl.r_13 t2_region_v.sl.r_14 t2_region_v.sl.r_15 t2_region_v.sl.r_16 t2_region_v.sl.r_17 t2_region_v.sl.r_18 t2_region_v.sl.r_19 t2_region_v.sl.r_20 t2_region_v.sl.r_21 t2_region_v.sl.r_22 t2_region_v.sl.r_23 t2_region_v.sl.r_24 t2_region_v.sl.r_25 t2_region_v.sl.r_26 t2_region_v.sl.r_27 t2_region_v.sl.r_28 t2_region_v.sl.r_29 t2_region_v.sl.r_30 t2_region_v.sl.r_31 t2_region_v.sl.r_32 t2_region_v.sl.r_33 t2_region_v.sl.r_34 t2_region_v.sl.r_35 t2_region_v.sl.v56 t2_region_v.sl.v69 t2_region_v.sl.v82 t2_region_v.sl.v95 t2_region_v.sl.v108 t2_region_v.sl.v121 t2_region_v.sl.v134 t2_region_v.sl.v147 t2_region_v.sl.v160 t2_region_v.sl.v173 t2_region_v.sl.v186 t2_region_v.sl.v199 t2_region_v.sl.v212 t2_region_v.sl.v225 t2_region_v.sl.v238 t2_region_v.sl.v251 t2_region_v.sl.v264 t2_region_v.sl.v277 t2_region_v.sl.v290 t2_region_v.sl.v303 t2_region_v.sl.v316 t2_region_v.sl.v329 t2_region_v.sl.v342 t2_region_v.sl.v355 t2_region_v.sl.v368 t2_region_v.sl.v381 t2_region_v.sl.v394 t2_region_v.sl.v407 t2_region_v.sl.v420 t2_region_v.sl.v433 t2_region_v.sl.v446 t2_region_v.sl.v459 t2_region_v.sl.v472 t2_region_v.sl.v485 t2_region_v.sl.v498 t2_region_v.sl.v511 t2_region_v.sl.v524 t2_region_v.sl.v537 t2_region_v.sl.v550 t2_region_v.sl.v563 t2_region_v.sl.v576 t2_region_v.sl.v589 t2_region_v.sl.v602 t2_region_v.sl.v615 t2_region_v.sl.v628 t2_region_v.sl.v641 t2_region_v.sl.v654 t2_region_v.sl.v667 t2_region_v.sl.v680 t2_region_v.sl.v693 t2_region_v.sl.cst_77 t2_region_v.sl.cst_89 t2_region_v.sl.cst_102 t2_region_v.sl.cst_114 t2_region_v.sl.cst_126 t2_region_v.sl.cst_140 t2_region_v.sl.cst_152 t2_region_v.sl.cst_164 t2_region_v.sl.cst_177 t2_region_v.sl.cst_189 t2_region_v.sl.cst_204 t2_region_v.sl.cst_216 t2_region_v.sl.cst_228 t2_region_v.sl.cst_240 t2_region_v.sl.cst_252 t2_region_v.sl.cst_264
  generalize_proofs
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, addf_apply, mulf_apply, subf_apply, maximumf_apply, minimumf_apply, divf_apply, broadcast_apply,
    Ideal.ofBits_def, Cert.Consts.ofBits_0, Cert.Consts.ofBits_1, Cert.Consts.ofBits_2, Cert.Consts.ofBits_3, Cert.Consts.ofBits_4, Cert.Consts.ofBits_5, Cert.Consts.ofBits_6, Cert.Consts.ofBits_7, Cert.Consts.ofBits_8, Cert.Consts.ofBits_9, Cert.Consts.ofBits_10, Cert.Consts.ofBits_11, Cert.Consts.ofBits_12, Cert.Consts.ofBits_13, Cert.Consts.ofBits_14, Cert.Consts.ofBits_15, Cert.Consts.ofBits_16, Cert.Consts.ofBits_17, Cert.Consts.ofBits_18, Cert.Consts.ofBits_19, Cert.Consts.ofBits_20, Cert.Consts.ofBits_21, Cert.Consts.ofBits_22, Cert.Consts.ofBits_23, Cert.Consts.ofBits_24, Cert.Consts.ofBits_25, Cert.Consts.ofBits_26, Cert.Consts.ofBits_27, Cert.Consts.ofBits_28, Cert.Consts.ofBits_29, Cert.Consts.ofBits_30, Cert.Consts.ofBits_31, Cert.Consts.ofBits_32, Cert.Consts.ofBits_33, Cert.Consts.ofBits_34, Cert.Consts.ofBits_35, Cert.Consts.ofBits_36, Cert.Consts.ofBits_37, Cert.Consts.ofBits_38, Cert.Consts.ofBits_39, Cert.Consts.ofBits_40, Cert.Consts.ofBits_41, Cert.Consts.ofBits_42, Cert.Consts.ofBits_43, Cert.Consts.ofBits_44, Cert.Consts.ofBits_45, Cert.Consts.ofBits_46, Cert.Consts.ofBits_47, Cert.Consts.ofBits_48, Cert.Consts.ofBits_49]
  simp only [loadIdx_gat d L g0, len_lane d L ln (Gen.k0_off4_eq k1 k), idx_lane0 d L s (Gen.k0_off5_eq k), idx_lane0 d L s (Gen.k0_off6_eq k), idx_lane0 d L s (Gen.k0_off7_eq k), idx_lane0 d L s (Gen.k0_off8_eq k), idx_lane0 d L s (Gen.k0_off9_eq k), idx_lane0 d L s (Gen.k0_off10_eq k), idx_lane0 d L s (Gen.k0_off11_eq k), idx_lane0 d L s (Gen.k0_off12_eq k), idx_lane0 d L s (Gen.k0_off13_eq k), idx_lane0 d L s (Gen.k0_off14_eq k), idx_lane0 d L s (Gen.k0_off15_eq k), idx_lane0 d L s (Gen.k0_off16_eq k), idx_lane0 d L s (Gen.k0_off17_eq k), idx_lane0 d L s (Gen.k0_off18_eq k), idx_lane0 d L s (Gen.k0_off19_eq k), idx_lane0 d L s (Gen.k0_off20_eq k), idx_lane0 d L s (Gen.k0_off21_eq k), idx_lane0 d L s (Gen.k0_off22_eq k), idx_lane0 d L s (Gen.k0_off23_eq k), idx_lane0 d L s (Gen.k0_off24_eq k), idx_lane0 d L s (Gen.k0_off25_eq k), idx_lane0 d L s (Gen.k0_off26_eq k), idx_lane0 d L s (Gen.k0_off27_eq k), idx_lane0 d L s (Gen.k0_off28_eq k), idx_lane0 d L s (Gen.k0_off29_eq k), idx_lane0 d L s (Gen.k0_off30_eq k), idx_lane0 d L s (Gen.k0_off31_eq k), idx_lane0 d L s (Gen.k0_off32_eq k), idx_lane0 d L s (Gen.k0_off33_eq k), idx_lane0 d L s (Gen.k0_off34_eq k), idx_lane0 d L s (Gen.k0_off35_eq k), idx_lane0 d L s (Gen.k0_off36_eq k), idx_lane0 d L s (Gen.k0_off37_eq k), idx_lane0 d L s (Gen.k0_off38_eq k), idx_lane0 d L s (Gen.k0_off39_eq k), idx_lane0 d L s (Gen.k0_off40_eq k), idx_lane0 d L s (Gen.k0_off41_eq k), idx_lane0 d L s (Gen.k0_off42_eq k), idx_lane0 d L s (Gen.k0_off43_eq k), idx_lane0 d L s (Gen.k0_off44_eq k), idx_lane0 d L s (Gen.k0_off45_eq k), idx_lane0 d L s (Gen.k0_off46_eq k), idx_lane0 d L s (Gen.k0_off47_eq k), idx_lane0 d L s (Gen.k0_off48_eq k), idx_lane0 d L s (Gen.k0_off49_eq k), idx_lane0 d L s (Gen.k0_off50_eq k), idx_lane0 d L s (Gen.k0_off51_eq k), idx_lane0 d L s (Gen.k0_off52_eq k), idx_lane0 d L s (Gen.k0_off53_eq k), idx_lane0 d L s (Gen.k0_off54_eq k)]
  simp only [poolVal, sum50, clampW]
  simp only [Nat.cast_zero, Nat.cast_one, EReal.coe_zero, EReal.coe_one]

end Tile
end Cert.Proof.TileI
end
-- ==== Proof.PoolValue3.lean ====
/-
  One trip of the second pooling loop, with the values it stores.

  Trip `k` of the loop over the odd block `2·k1 + 1` reads sixteen lengths (places `256·k1 + 128 + 16k …` of the lengths scratch),
  then for each of the fifty positions `j` reads sixteen row numbers (row `j`, places `16k …` of the second index block), reads the
  sixteen entries of the row scratch they name, weights each by the length less `j` clamped between 0 and 1, and adds from position 0
  up, starting at 0; the sum times `1 / max len 1` is stored in places `16k … 16k+15` of row `2·k1 + 1` of the pooled-result scratch.
  Lane by lane that is the pooled value of batch row `128·(2·k1 + 1) + 16k + lane`: the fifty float literals denote the reals
  0 … 49, and a sum over the fifty positions is the sum written out from position 0 up.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import Idealize.ShloMosaic.Lib.Pipeline.Value
import Idealize.ShloMosaic.Lib.WritesUnit
import proofs.«209320_g71347996721220_cont_9to1c4b_157_42_alg».proof.Proof.Consts

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- The store offset of the second pooling loop in closed form: row `2·k1 + 1` of the pooled-result scratch, places from `16k`. -/
theorem p3_off107_eq : ∀ (k1 : Fin k0_t1_loop.trips) (k : Fin k0_t3_loop.trips), k0_off107 k1 k = ![2 * k1.val + 1, 16 * k.val] := by decide +kernel

/-- Lane `a` of the sixteen lengths read at place `c` of the lengths scratch is the length at place `c + a`. -/
theorem p3_len_lane (ln : Bf (F := Ideal) d L lnvW) {off : Fin 1 → ℕ} {c : ℕ} (hoff : off = ![c])
    (inb : ∀ b, off b + S16.size b ≤ S4096.size b) (a : Fin 16) :
    View.readAt (Elt Ideal) (lnvW).view (Rect.unit (s := S4096) off S16.size inb).toLoadRect ln (ix1 a)
      = ln (ix1 ⟨c + a.val, by subst hoff; have h := inb 0; change c + 16 ≤ 4096 at h; omega⟩) := by
  subst hoff
  show ln _ = ln _
  congr 1
  funext i
  match i with
  | ⟨0, _⟩ => exact Fin.ext (show c + 1 * a.val = c + a.val by omega)

/-- An indexed load of the row scratch at sixteen words, each below 100000: lane `a` is the entry its word names. -/
theorem p3_loadIdx_gat (g0 : Bf (F := Ideal) d L rowW) (w : IVec S16 32) (a : Fin 16) : ∀ h,
    loadIdx (F := Ideal) (View.read (Elt Ideal) ((rowW).access (Rect.whole S100000)) g0) ![w] h (ix1 a) = gatVal g0 (w (ix1 a)) := by
  intro h
  have hw : (w (ix1 a)).toNat < 100000 := h 0 (ix1 a)
  have e0 : View.read (Elt Ideal) ((rowW).access (Rect.whole S100000)) g0 = g0 :=
    Memref.read_access_whole (Elt Ideal) cc0_scratch0 g0
  unfold loadIdx
  rw [e0]
  show g0 _ = g0 _
  congr 1
  funext i
  match i with
  | ⟨0, _⟩ =>
    refine Fin.ext ?_
    show (w (ix1 a)).toNat = (row (w (ix1 a))).val
    rw [row_val_of_lt hw]

/-- Lane `a` of the sixteen words read at row `j`, places from `c`, of the second index block: the word at place `c + a` of row `j`. -/
theorem p3_idx_lane1 (s : Bf (F := Ideal) d L qb1W) {off : Fin 2 → ℕ} {j c : ℕ} (hoff : off = ![j, c])
    (inb : ∀ b, off b + S1x16.size b ≤ S50x128.size b) (a : Fin 16) :
    shapeCast S16 (View.readAt (Elt Ideal) (qb1W).view (Rect.unit (s := S50x128) off S1x16.size inb).toLoadRect s) shapeCasts_S1x16_S16 (ix1 a)
      = s (ix2 ⟨j, by subst hoff; have h0 := inb 0; change j + 1 ≤ 50 at h0; omega⟩
          ⟨c + a.val, by subst hoff; have h1 := inb 1; change c + 16 ≤ 128 at h1; omega⟩) := by
  subst hoff
  refine (shapeCast_apply _ shapeCasts_S1x16_S16 (ix1 a) (ix2 (0 : Fin 1) a) ?_).trans ?_
  · rw [Shape.rowMajor_val_two, Shape.rowMajor_val_one]
    show 0 * 16 + a.val = a.val
    omega
  · show s _ = s _
    congr 1
    funext i
    match i with
    | ⟨0, _⟩ => exact Fin.ext (show j + 1 * 0 = j by omega)
    | ⟨1, _⟩ => exact Fin.ext (show c + 1 * a.val = c + a.val by omega)

/-- A sum over the fifty positions written out from position 0 up, the order in which the kernel adds. -/
theorem p3_sum50 (F : Fin 50 → EReal) :
    ∑ j : Fin 50, F j = 0 + F ⟨0, by norm_num⟩ + F ⟨1, by norm_num⟩ + F ⟨2, by norm_num⟩ + F ⟨3, by norm_num⟩ + F ⟨4, by norm_num⟩ + F ⟨5, by norm_num⟩ + F ⟨6, by norm_num⟩ + F ⟨7, by norm_num⟩ + F ⟨8, by norm_num⟩ + F ⟨9, by norm_num⟩ + F ⟨10, by norm_num⟩ + F ⟨11, by norm_num⟩ + F ⟨12, by norm_num⟩ + F ⟨13, by norm_num⟩ + F ⟨14, by norm_num⟩ + F ⟨15, by norm_num⟩ + F ⟨16, by norm_num⟩ + F ⟨17, by norm_num⟩ + F ⟨18, by norm_num⟩ + F ⟨19, by norm_num⟩ + F ⟨20, by norm_num⟩ + F ⟨21, by norm_num⟩ + F ⟨22, by norm_num⟩ + F ⟨23, by norm_num⟩ + F ⟨24, by norm_num⟩ + F ⟨25, by norm_num⟩ + F ⟨26, by norm_num⟩ + F ⟨27, by norm_num⟩ + F ⟨28, by norm_num⟩ + F ⟨29, by norm_num⟩ + F ⟨30, by norm_num⟩ + F ⟨31, by norm_num⟩ + F ⟨32, by norm_num⟩ + F ⟨33, by norm_num⟩ + F ⟨34, by norm_num⟩ + F ⟨35, by norm_num⟩ + F ⟨36, by norm_num⟩ + F ⟨37, by norm_num⟩ + F ⟨38, by norm_num⟩ + F ⟨39, by norm_num⟩ + F ⟨40, by norm_num⟩ + F ⟨41, by norm_num⟩ + F ⟨42, by norm_num⟩ + F ⟨43, by norm_num⟩ + F ⟨44, by norm_num⟩ + F ⟨45, by norm_num⟩ + F ⟨46, by norm_num⟩ + F ⟨47, by norm_num⟩ + F ⟨48, by norm_num⟩ + F ⟨49, by norm_num⟩ := by
  have e : ∑ j : Fin 50, F j = ∑ j ∈ Finset.range 50, (if h : j < 50 then F ⟨j, h⟩ else 0) := by
    rw [Finset.sum_range]
    exact Finset.sum_congr rfl fun j _ => by rw [dif_pos j.isLt]
  rw [e]
  simp only [Finset.sum_range_succ, Finset.sum_range_zero, Nat.reduceLT, ↓reduceDIte]

/-- One store of sixteen lanes at row `bb`, places from `16k`, of the pooled-result scratch, each lane the pooled value of its
    batch row (whose length sits at place `128·bb + 16k + lane` of the lengths scratch), is one trip of a pooling loop. -/
theorem p3_poolStep_of_store (bb k c4 : ℕ) (hbb : bb < 32) (hk : k < 8) (hc4 : c4 = 128 * bb + 16 * k) (g0 : Bf (F := Ideal) d L rowW)
    (s : (⟨2, ![50, 128]⟩ : Shape).Idx → BitVec 32) (ln : Bf (F := Ideal) d L lnvW) (p : Bf (F := Ideal) d L preW)
    (off : Fin 2 → ℕ) (inb : ∀ a, off a + S1x16.size a ≤ S32x128.size a) (hoff : off = ![bb, 16 * k])
    (w : S16.Idx → EReal)
    (hw : ∀ a : Fin 16, w (ix1 a) = poolVal g0 s (ln (ix1 ⟨c4 + a.val, by omega⟩)) ⟨16 * k + a.val, by omega⟩) :
    poolStep bb k g0 s ln p
      ((preW).view.writes (Elt Ideal) p [⟨Rect.unit off S1x16.size inb, shapeCast S1x16 w shapeCasts_S16_S1x16⟩]) := by
  intro r l
  refine (View.read_writes_cons_unit (preW).view p inb (shapeCast S1x16 w shapeCasts_S16_S1x16) [] (ix2 r l) hoff).trans ?_
  by_cases hm : r.val = bb ∧ 16 * k ≤ l.val ∧ l.val < 16 * k + 16
  · have h : ∀ a : Fin 2, (![bb, 16 * k] : Fin 2 → ℕ) a ≤ ((ix2 r l) a).val
        ∧ ((ix2 r l) a).val < (![bb, 16 * k] : Fin 2 → ℕ) a + S1x16.size a :=
      Fin.forall_fin_two.mpr ⟨⟨by show bb ≤ r.val; omega, by show r.val < bb + 1; omega⟩,
        ⟨by show 16 * k ≤ l.val; omega, by show l.val < 16 * k + 16; omega⟩⟩
    have e1 : shapeCast S1x16 w shapeCasts_S16_S1x16 (Rect.unitLocal (s := S32x128) (off := ![bb, 16 * k]) (size := S1x16.size) (ix2 r l) h)
        = w (ix1 ⟨l.val - 16 * k, by omega⟩) := by
      refine shapeCast_apply w shapeCasts_S16_S1x16 _ (ix1 ⟨l.val - 16 * k, by omega⟩) ?_
      rw [Shape.rowMajor_val_two, Shape.rowMajor_val_one]
      show l.val - 16 * k = (r.val - bb) * 16 + (l.val - 16 * k)
      have : r.val - bb = 0 := by omega
      rw [this]; omega
    rw [if_pos hm]
    refine (dif_pos h).trans ?_
    refine e1.trans ?_
    rw [hw]
    have hl := l.isLt
    have e2 : c4 + (l.val - 16 * k) = (128 * bb + l.val) % 4096 := by
      rw [Nat.mod_eq_of_lt (by omega)]; omega
    have e3 : 16 * k + (l.val - 16 * k) = l.val := by omega
    have e4 : (⟨c4 + (l.val - 16 * k), by omega⟩ : Fin 4096) = ⟨(128 * bb + l.val) % 4096, Nat.mod_lt _ (by norm_num)⟩ := Fin.ext e2
    have e5 : (⟨16 * k + (l.val - 16 * k), by omega⟩ : Fin 128) = l := Fin.ext e3
    rw [e4, e5]
  · have h : ¬ ∀ a : Fin 2, (![bb, 16 * k] : Fin 2 → ℕ) a ≤ ((ix2 r l) a).val
        ∧ ((ix2 r l) a).val < (![bb, 16 * k] : Fin 2 → ℕ) a + S1x16.size a := by
      intro h
      apply hm
      have h0 := h 0
      have h1 := h 1
      change bb ≤ r.val ∧ r.val < bb + 1 at h0
      change 16 * k ≤ l.val ∧ l.val < 16 * k + 16 at h1
      omega
    rw [if_neg hm]
    refine (dif_neg h).trans ?_
    rfl
set_option maxHeartbeats 16000000 in
/-- One trip of the second pooling loop: the row scratch, the second index block and the lengths are left as they were, and the
    pooled-result scratch afterwards is the one before with places `16k … 16k+15` of row `2·k1 + 1` holding the pooled values of
    their batch rows. -/
theorem t3_region_v (k1 : Fin k0_t1_loop.trips) (v36 c0 : BitVec 32) (k : Fin k0_t3_loop.trips)
    (g0 : Bf (F := Ideal) d L rowW) (s : Bf (F := Ideal) d L qb1W) (hs1 : ∀ x, (s x).toNat < 100000)
    (ln : Bf (F := Ideal) d L lnvW) (p : Bf (F := Ideal) d L preW) (Q : Unit → sProp 𝕄) :
    iprop(((rowW).view.loc (V d (cV L) (jV L)) ↦{fullShare} g0) ∗ ((qb1W).view.loc (V d (cV L) (jV L)) ↦{fullShare} s) ∗ ((lnvW).view.loc (V d (cV L) (jV L)) ↦{fullShare} ln) ∗ ((preW).view.loc (V d (cV L) (jV L)) ↦{fullShare} p)
        ∗ ((((rowW).view.loc (V d (cV L) (jV L)) ↦{fullShare} g0) ∗ ((qb1W).view.loc (V d (cV L) (jV L)) ↦{fullShare} s) ∗ ((lnvW).view.loc (V d (cV L) (jV L)) ↦{fullShare} ln)
            ∗ (∃ p', ((preW).view.loc (V d (cV L) (jV L)) ↦{fullShare} p') ∗ ⌜poolStep (2 * k1.val + 1) k.val g0 s ln p p'⌝)) -∗ Q ()))
      ⊢ wp frame (wpE (defs₀ (F := Ideal)) 𝒱₀ (V d (cV L) (jV L)) none) Set.univ
          (k0_t3_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 v36 c0 k ()) Q := by
  unfold k0_t3_body
  iintro ⟨Hrow, Hqb, Hlnv, Hpre, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _
  isplitl [Hpre]; · iexact Hpre
  ipureintro
  have h1 : k1.val < 15 := lt_of_lt_of_le k1.isLt k0_t1_abs.2.1
  have h2 : k.val < 8 := lt_of_lt_of_le k.isLt k0_t3_abs.2.1
  refine p3_poolStep_of_store d L (2 * k1.val + 1) k.val (256 * k1.val + 16 * k.val + 128) (by omega) h2 (by omega) g0 s ln p _ _ (p3_off107_eq k1 k) _ ?_
  intro a
  delta t3_region_v.sl.r t3_region_v.sl.r_1 t3_region_v.sl.r_2 t3_region_v.sl.r_3 t3_region_v.sl.r_4 t3_region_v.sl.r_5 t3_region_v.sl.r_6 t3_region_v.sl.r_7 t3_region_v.sl.r_8 t3_region_v.sl.r_9 t3_region_v.sl.r_10 t3_region_v.sl.r_11 t3_region_v.sl.r_12 t3_region_v.sl.r_13 t3_region_v.sl.r_14 t3_region_v.sl.r_15 t3_region_v.sl.r_16 t3_region_v.sl.r_17 t3_region_v.sl.r_18 t3_region_v.sl.r_19 t3_region_v.sl.r_20 t3_region_v.sl.r_21 t3_region_v.sl.r_22 t3_region_v.sl.r_23 t3_region_v.sl.r_24 t3_region_v.sl.r_25 t3_region_v.sl.r_26 t3_region_v.sl.r_27 t3_region_v.sl.r_28 t3_region_v.sl.r_29 t3_region_v.sl.r_30 t3_region_v.sl.r_31 t3_region_v.sl.r_32 t3_region_v.sl.r_33 t3_region_v.sl.r_34 t3_region_v.sl.r_35 t3_region_v.sl.v56 t3_region_v.sl.v69 t3_region_v.sl.v82 t3_region_v.sl.v95 t3_region_v.sl.v108 t3_region_v.sl.v121 t3_region_v.sl.v134 t3_region_v.sl.v147 t3_region_v.sl.v160 t3_region_v.sl.v173 t3_region_v.sl.v186 t3_region_v.sl.v199 t3_region_v.sl.v212 t3_region_v.sl.v225 t3_region_v.sl.v238 t3_region_v.sl.v251 t3_region_v.sl.v264 t3_region_v.sl.v277 t3_region_v.sl.v290 t3_region_v.sl.v303 t3_region_v.sl.v316 t3_region_v.sl.v329 t3_region_v.sl.v342 t3_region_v.sl.v355 t3_region_v.sl.v368 t3_region_v.sl.v381 t3_region_v.sl.v394 t3_region_v.sl.v407 t3_region_v.sl.v420 t3_region_v.sl.v433 t3_region_v.sl.v446 t3_region_v.sl.v459 t3_region_v.sl.v472 t3_region_v.sl.v485 t3_region_v.sl.v498 t3_region_v.sl.v511 t3_region_v.sl.v524 t3_region_v.sl.v537 t3_region_v.sl.v550 t3_region_v.sl.v563 t3_region_v.sl.v576 t3_region_v.sl.v589 t3_region_v.sl.v602 t3_region_v.sl.v615 t3_region_v.sl.v628 t3_region_v.sl.v641 t3_region_v.sl.v654 t3_region_v.sl.v667 t3_region_v.sl.v680 t3_region_v.sl.v693 t3_region_v.sl.cst_77 t3_region_v.sl.cst_89 t3_region_v.sl.cst_102 t3_region_v.sl.cst_114 t3_region_v.sl.cst_126 t3_region_v.sl.cst_140 t3_region_v.sl.cst_152 t3_region_v.sl.cst_164 t3_region_v.sl.cst_177 t3_region_v.sl.cst_189 t3_region_v.sl.cst_204 t3_region_v.sl.cst_216 t3_region_v.sl.cst_228 t3_region_v.sl.cst_240 t3_region_v.sl.cst_252 t3_region_v.sl.cst_264
  generalize_proofs
  simp only [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, addf_apply, mulf_apply, subf_apply, maximumf_apply, minimumf_apply, divf_apply, broadcast_apply,
    Ideal.ofBits_def, Cert.Consts.ofBits_0, Cert.Consts.ofBits_1, Cert.Consts.ofBits_2, Cert.Consts.ofBits_3, Cert.Consts.ofBits_4, Cert.Consts.ofBits_5, Cert.Consts.ofBits_6, Cert.Consts.ofBits_7, Cert.Consts.ofBits_8, Cert.Consts.ofBits_9, Cert.Consts.ofBits_10, Cert.Consts.ofBits_11, Cert.Consts.ofBits_12, Cert.Consts.ofBits_13, Cert.Consts.ofBits_14, Cert.Consts.ofBits_15, Cert.Consts.ofBits_16, Cert.Consts.ofBits_17, Cert.Consts.ofBits_18, Cert.Consts.ofBits_19, Cert.Consts.ofBits_20, Cert.Consts.ofBits_21, Cert.Consts.ofBits_22, Cert.Consts.ofBits_23, Cert.Consts.ofBits_24, Cert.Consts.ofBits_25, Cert.Consts.ofBits_26, Cert.Consts.ofBits_27, Cert.Consts.ofBits_28, Cert.Consts.ofBits_29, Cert.Consts.ofBits_30, Cert.Consts.ofBits_31, Cert.Consts.ofBits_32, Cert.Consts.ofBits_33, Cert.Consts.ofBits_34, Cert.Consts.ofBits_35, Cert.Consts.ofBits_36, Cert.Consts.ofBits_37, Cert.Consts.ofBits_38, Cert.Consts.ofBits_39, Cert.Consts.ofBits_40, Cert.Consts.ofBits_41, Cert.Consts.ofBits_42, Cert.Consts.ofBits_43, Cert.Consts.ofBits_44, Cert.Consts.ofBits_45, Cert.Consts.ofBits_46, Cert.Consts.ofBits_47, Cert.Consts.ofBits_48, Cert.Consts.ofBits_49]
  simp only [p3_loadIdx_gat d L g0, p3_len_lane d L ln (Gen.k0_off56_eq k1 k), p3_idx_lane1 d L s (Gen.k0_off57_eq k), p3_idx_lane1 d L s (Gen.k0_off58_eq k), p3_idx_lane1 d L s (Gen.k0_off59_eq k), p3_idx_lane1 d L s (Gen.k0_off60_eq k), p3_idx_lane1 d L s (Gen.k0_off61_eq k), p3_idx_lane1 d L s (Gen.k0_off62_eq k), p3_idx_lane1 d L s (Gen.k0_off63_eq k), p3_idx_lane1 d L s (Gen.k0_off64_eq k), p3_idx_lane1 d L s (Gen.k0_off65_eq k), p3_idx_lane1 d L s (Gen.k0_off66_eq k), p3_idx_lane1 d L s (Gen.k0_off67_eq k), p3_idx_lane1 d L s (Gen.k0_off68_eq k), p3_idx_lane1 d L s (Gen.k0_off69_eq k), p3_idx_lane1 d L s (Gen.k0_off70_eq k), p3_idx_lane1 d L s (Gen.k0_off71_eq k), p3_idx_lane1 d L s (Gen.k0_off72_eq k), p3_idx_lane1 d L s (Gen.k0_off73_eq k), p3_idx_lane1 d L s (Gen.k0_off74_eq k), p3_idx_lane1 d L s (Gen.k0_off75_eq k), p3_idx_lane1 d L s (Gen.k0_off76_eq k), p3_idx_lane1 d L s (Gen.k0_off77_eq k), p3_idx_lane1 d L s (Gen.k0_off78_eq k), p3_idx_lane1 d L s (Gen.k0_off79_eq k), p3_idx_lane1 d L s (Gen.k0_off80_eq k), p3_idx_lane1 d L s (Gen.k0_off81_eq k), p3_idx_lane1 d L s (Gen.k0_off82_eq k), p3_idx_lane1 d L s (Gen.k0_off83_eq k), p3_idx_lane1 d L s (Gen.k0_off84_eq k), p3_idx_lane1 d L s (Gen.k0_off85_eq k), p3_idx_lane1 d L s (Gen.k0_off86_eq k), p3_idx_lane1 d L s (Gen.k0_off87_eq k), p3_idx_lane1 d L s (Gen.k0_off88_eq k), p3_idx_lane1 d L s (Gen.k0_off89_eq k), p3_idx_lane1 d L s (Gen.k0_off90_eq k), p3_idx_lane1 d L s (Gen.k0_off91_eq k), p3_idx_lane1 d L s (Gen.k0_off92_eq k), p3_idx_lane1 d L s (Gen.k0_off93_eq k), p3_idx_lane1 d L s (Gen.k0_off94_eq k), p3_idx_lane1 d L s (Gen.k0_off95_eq k), p3_idx_lane1 d L s (Gen.k0_off96_eq k), p3_idx_lane1 d L s (Gen.k0_off97_eq k), p3_idx_lane1 d L s (Gen.k0_off98_eq k), p3_idx_lane1 d L s (Gen.k0_off99_eq k), p3_idx_lane1 d L s (Gen.k0_off100_eq k), p3_idx_lane1 d L s (Gen.k0_off101_eq k), p3_idx_lane1 d L s (Gen.k0_off102_eq k), p3_idx_lane1 d L s (Gen.k0_off103_eq k), p3_idx_lane1 d L s (Gen.k0_off104_eq k), p3_idx_lane1 d L s (Gen.k0_off105_eq k), p3_idx_lane1 d L s (Gen.k0_off106_eq k)]
  simp only [poolVal, p3_sum50, clampW]
  simp only [Nat.cast_zero, Nat.cast_one, EReal.coe_zero, EReal.coe_one]

end Tile
end Cert.Proof.TileI
end
-- ==== Proof.PoolValue45.lean ====
/-
  Two of the four inner loops of the pooled part of a vector subcore's task (idealized kernel), with the value they store:
  one trip of the loop over block 30 (first index block) and of the loop over block 31 (second index block).

  A trip reads sixteen lengths, then fifty times a vector of sixteen row numbers and the sixteen entries of the row scratch
  they name; lane by lane it adds, from position 0 up, each entry times the difference `len − j` clamped between 0 and 1,
  and multiplies the sum by `1 / max len 1`. Its one store writes those sixteen numbers at row `bb`, places `16k … 16k+15`,
  of the pooled-result scratch. Read lane by lane — a lane of the lengths load is the length at its place, a lane of an
  indexed load is the entry its word names, a lane of an index load is the word at its place — that number is the pooled
  value of the lane's batch row, which is what one trip of a pooling loop is (`Cert.Spec.poolStep`).
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import Idealize.ShloMosaic.Lib.Pipeline.Value
import Idealize.ShloMosaic.Lib.WritesUnit
import proofs.«209320_g71347996721220_cont_9to1c4b_157_42_alg».proof.Proof.Consts

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- The store offsets of the four pooling loops in closed form: row `bb` of the pooled-result scratch, places from `16k`. -/
theorem p45_off159_eq : ∀ (k : Fin k0_t4_loop.trips), k0_off159 k = ![30, 16 * k.val] := by decide +kernel
theorem p45_off211_eq : ∀ (k : Fin k0_t5_loop.trips), k0_off211 k = ![31, 16 * k.val] := by decide +kernel

/-- Lane `a` of the sixteen lengths read at place `c` of the lengths scratch is the length at place `c + a`. -/
theorem p45_len_lane (ln : Bf (F := Ideal) d L lnvW) {off : Fin 1 → ℕ} {c : ℕ} (hoff : off = ![c])
    (inb : ∀ b, off b + S16.size b ≤ S4096.size b) (a : Fin 16) :
    View.readAt (Elt Ideal) (lnvW).view (Rect.unit (s := S4096) off S16.size inb).toLoadRect ln (ix1 a)
      = ln (ix1 ⟨c + a.val, by subst hoff; have h := inb 0; change c + 16 ≤ 4096 at h; omega⟩) := by
  subst hoff
  show ln _ = ln _
  congr 1
  funext i
  match i with
  | ⟨0, _⟩ => exact Fin.ext (show c + 1 * a.val = c + a.val by omega)

/-- An indexed load of the row scratch at sixteen words, each below 100000: lane `a` is the entry its word names. -/
theorem p45_loadIdx_gat (g0 : Bf (F := Ideal) d L rowW) (w : IVec S16 32) (a : Fin 16) : ∀ h,
    loadIdx (F := Ideal) (View.read (Elt Ideal) ((rowW).access (Rect.whole S100000)) g0) ![w] h (ix1 a) = gatVal g0 (w (ix1 a)) := by
  intro h
  have hw : (w (ix1 a)).toNat < 100000 := h 0 (ix1 a)
  have e0 : View.read (Elt Ideal) ((rowW).access (Rect.whole S100000)) g0 = g0 :=
    Memref.read_access_whole (Elt Ideal) cc0_scratch0 g0
  unfold loadIdx
  rw [e0]
  show g0 _ = g0 _
  congr 1
  funext i
  match i with
  | ⟨0, _⟩ =>
    refine Fin.ext ?_
    show (w (ix1 a)).toNat = (row (w (ix1 a))).val
    rw [row_val_of_lt hw]

/-- Lane `a` of the sixteen words read at row `j`, places from `c`, of the first index block: the word at place `c + a` of row `j`. -/
theorem p45_idx_lane0 (s : Bf (F := Ideal) d L qb0W) {off : Fin 2 → ℕ} {j c : ℕ} (hoff : off = ![j, c])
    (inb : ∀ b, off b + S1x16.size b ≤ S50x128.size b) (a : Fin 16) :
    shapeCast S16 (View.readAt (Elt Ideal) (qb0W).view (Rect.unit (s := S50x128) off S1x16.size inb).toLoadRect s) shapeCasts_S1x16_S16 (ix1 a)
      = s (ix2 ⟨j, by subst hoff; have h0 := inb 0; change j + 1 ≤ 50 at h0; omega⟩
          ⟨c + a.val, by subst hoff; have h1 := inb 1; change c + 16 ≤ 128 at h1; omega⟩) := by
  subst hoff
  refine (shapeCast_apply _ shapeCasts_S1x16_S16 (ix1 a) (ix2 (0 : Fin 1) a) ?_).trans ?_
  · rw [Shape.rowMajor_val_two, Shape.rowMajor_val_one]
    show 0 * 16 + a.val = a.val
    omega
  · show s _ = s _
    congr 1
    funext i
    match i with
    | ⟨0, _⟩ => exact Fin.ext (show j + 1 * 0 = j by omega)
    | ⟨1, _⟩ => exact Fin.ext (show c + 1 * a.val = c + a.val by omega)

/-- The same for the second index block. -/
theorem p45_idx_lane1 (s : Bf (F := Ideal) d L qb1W) {off : Fin 2 → ℕ} {j c : ℕ} (hoff : off = ![j, c])
    (inb : ∀ b, off b + S1x16.size b ≤ S50x128.size b) (a : Fin 16) :
    shapeCast S16 (View.readAt (Elt Ideal) (qb1W).view (Rect.unit (s := S50x128) off S1x16.size inb).toLoadRect s) shapeCasts_S1x16_S16 (ix1 a)
      = s (ix2 ⟨j, by subst hoff; have h0 := inb 0; change j + 1 ≤ 50 at h0; omega⟩
          ⟨c + a.val, by subst hoff; have h1 := inb 1; change c + 16 ≤ 128 at h1; omega⟩) := by
  subst hoff
  refine (shapeCast_apply _ shapeCasts_S1x16_S16 (ix1 a) (ix2 (0 : Fin 1) a) ?_).trans ?_
  · rw [Shape.rowMajor_val_two, Shape.rowMajor_val_one]
    show 0 * 16 + a.val = a.val
    omega
  · show s _ = s _
    congr 1
    funext i
    match i with
    | ⟨0, _⟩ => exact Fin.ext (show j + 1 * 0 = j by omega)
    | ⟨1, _⟩ => exact Fin.ext (show c + 1 * a.val = c + a.val by omega)

/-- A sum over the fifty positions written out from position 0 up, the order in which the kernel adds. -/
theorem p45_sum50 (F : Fin 50 → EReal) :
    ∑ j : Fin 50, F j = 0 + F ⟨0, by norm_num⟩ + F ⟨1, by norm_num⟩ + F ⟨2, by norm_num⟩ + F ⟨3, by norm_num⟩ + F ⟨4, by norm_num⟩ + F ⟨5, by norm_num⟩ + F ⟨6, by norm_num⟩ + F ⟨7, by norm_num⟩ + F ⟨8, by norm_num⟩ + F ⟨9, by norm_num⟩ + F ⟨10, by norm_num⟩ + F ⟨11, by norm_num⟩ + F ⟨12, by norm_num⟩ + F ⟨13, by norm_num⟩ + F ⟨14, by norm_num⟩ + F ⟨15, by norm_num⟩ + F ⟨16, by norm_num⟩ + F ⟨17, by norm_num⟩ + F ⟨18, by norm_num⟩ + F ⟨19, by norm_num⟩ + F ⟨20, by norm_num⟩ + F ⟨21, by norm_num⟩ + F ⟨22, by norm_num⟩ + F ⟨23, by norm_num⟩ + F ⟨24, by norm_num⟩ + F ⟨25, by norm_num⟩ + F ⟨26, by norm_num⟩ + F ⟨27, by norm_num⟩ + F ⟨28, by norm_num⟩ + F ⟨29, by norm_num⟩ + F ⟨30, by norm_num⟩ + F ⟨31, by norm_num⟩ + F ⟨32, by norm_num⟩ + F ⟨33, by norm_num⟩ + F ⟨34, by norm_num⟩ + F ⟨35, by norm_num⟩ + F ⟨36, by norm_num⟩ + F ⟨37, by norm_num⟩ + F ⟨38, by norm_num⟩ + F ⟨39, by norm_num⟩ + F ⟨40, by norm_num⟩ + F ⟨41, by norm_num⟩ + F ⟨42, by norm_num⟩ + F ⟨43, by norm_num⟩ + F ⟨44, by norm_num⟩ + F ⟨45, by norm_num⟩ + F ⟨46, by norm_num⟩ + F ⟨47, by norm_num⟩ + F ⟨48, by norm_num⟩ + F ⟨49, by norm_num⟩ := by
  have e : ∑ j : Fin 50, F j = ∑ j ∈ Finset.range 50, (if h : j < 50 then F ⟨j, h⟩ else 0) := by
    rw [Finset.sum_range]
    exact Finset.sum_congr rfl fun j _ => by rw [dif_pos j.isLt]
  rw [e]
  simp only [Finset.sum_range_succ, Finset.sum_range_zero, Nat.reduceLT, ↓reduceDIte]

/-- One store of sixteen lanes at row `bb`, places from `16k`, of the pooled-result scratch, each lane the pooled value of its
    batch row (whose length sits at place `128·bb + 16k + lane` of the lengths scratch), is one trip of a pooling loop. -/
theorem p45_poolStep_of_store (bb k c4 : ℕ) (hbb : bb < 32) (hk : k < 8) (hc4 : c4 = 128 * bb + 16 * k) (g0 : Bf (F := Ideal) d L rowW)
    (s : (⟨2, ![50, 128]⟩ : Shape).Idx → BitVec 32) (ln : Bf (F := Ideal) d L lnvW) (p : Bf (F := Ideal) d L preW)
    (off : Fin 2 → ℕ) (inb : ∀ a, off a + S1x16.size a ≤ S32x128.size a) (hoff : off = ![bb, 16 * k])
    (w : S16.Idx → EReal)
    (hw : ∀ a : Fin 16, w (ix1 a) = poolVal g0 s (ln (ix1 ⟨c4 + a.val, by omega⟩)) ⟨16 * k + a.val, by omega⟩) :
    poolStep bb k g0 s ln p
      ((preW).view.writes (Elt Ideal) p [⟨Rect.unit off S1x16.size inb, shapeCast S1x16 w shapeCasts_S16_S1x16⟩]) := by
  intro r l
  refine (View.read_writes_cons_unit (preW).view p inb (shapeCast S1x16 w shapeCasts_S16_S1x16) [] (ix2 r l) hoff).trans ?_
  by_cases hm : r.val = bb ∧ 16 * k ≤ l.val ∧ l.val < 16 * k + 16
  · have h : ∀ a : Fin 2, (![bb, 16 * k] : Fin 2 → ℕ) a ≤ ((ix2 r l) a).val
        ∧ ((ix2 r l) a).val < (![bb, 16 * k] : Fin 2 → ℕ) a + S1x16.size a :=
      Fin.forall_fin_two.mpr ⟨⟨by show bb ≤ r.val; omega, by show r.val < bb + 1; omega⟩,
        ⟨by show 16 * k ≤ l.val; omega, by show l.val < 16 * k + 16; omega⟩⟩
    have e1 : shapeCast S1x16 w shapeCasts_S16_S1x16 (Rect.unitLocal (s := S32x128) (off := ![bb, 16 * k]) (size := S1x16.size) (ix2 r l) h)
        = w (ix1 ⟨l.val - 16 * k, by omega⟩) := by
      refine shapeCast_apply w shapeCasts_S16_S1x16 _ (ix1 ⟨l.val - 16 * k, by omega⟩) ?_
      rw [Shape.rowMajor_val_two, Shape.rowMajor_val_one]
      show l.val - 16 * k = (r.val - bb) * 16 + (l.val - 16 * k)
      have : r.val - bb = 0 := by omega
      rw [this]; omega
    rw [if_pos hm]
    refine (dif_pos h).trans ?_
    refine e1.trans ?_
    rw [hw]
    have hl := l.isLt
    have e2 : c4 + (l.val - 16 * k) = (128 * bb + l.val) % 4096 := by
      rw [Nat.mod_eq_of_lt (by omega)]; omega
    have e3 : 16 * k + (l.val - 16 * k) = l.val := by omega
    have e4 : (⟨c4 + (l.val - 16 * k), by omega⟩ : Fin 4096) = ⟨(128 * bb + l.val) % 4096, Nat.mod_lt _ (by norm_num)⟩ := Fin.ext e2
    have e5 : (⟨16 * k + (l.val - 16 * k), by omega⟩ : Fin 128) = l := Fin.ext e3
    rw [e4, e5]
  · have h : ¬ ∀ a : Fin 2, (![bb, 16 * k] : Fin 2 → ℕ) a ≤ ((ix2 r l) a).val
        ∧ ((ix2 r l) a).val < (![bb, 16 * k] : Fin 2 → ℕ) a + S1x16.size a := by
      intro h
      apply hm
      have h0 := h 0
      have h1 := h 1
      change bb ≤ r.val ∧ r.val < bb + 1 at h0
      change 16 * k ≤ l.val ∧ l.val < 16 * k + 16 at h1
      omega
    rw [if_neg hm]
    refine (dif_neg h).trans ?_
    rfl
set_option maxHeartbeats 16000000 in
/-- One trip of the loop over block 30: the pooled-result scratch ends with the sixteen pooled values of batch rows
    `3840 + 16k …` at row 30, places `16k … 16k+15`; the row, the index block and the lengths are left as they were. -/
theorem t4_region_v (c0 : BitVec 32) (k : Fin k0_t4_loop.trips)
    (g0 : Bf (F := Ideal) d L rowW) (s : Bf (F := Ideal) d L qb0W) (hs1 : ∀ x, (s x).toNat < 100000)
    (ln : Bf (F := Ideal) d L lnvW) (p : Bf (F := Ideal) d L preW) (Q : Unit → sProp 𝕄) :
    iprop(((rowW).view.loc (V d (cV L) (jV L)) ↦{fullShare} g0) ∗ ((qb0W).view.loc (V d (cV L) (jV L)) ↦{fullShare} s) ∗ ((lnvW).view.loc (V d (cV L) (jV L)) ↦{fullShare} ln) ∗ ((preW).view.loc (V d (cV L) (jV L)) ↦{fullShare} p)
        ∗ ((((rowW).view.loc (V d (cV L) (jV L)) ↦{fullShare} g0) ∗ ((qb0W).view.loc (V d (cV L) (jV L)) ↦{fullShare} s) ∗ ((lnvW).view.loc (V d (cV L) (jV L)) ↦{fullShare} ln)
            ∗ (∃ p', ((preW).view.loc (V d (cV L) (jV L)) ↦{fullShare} p') ∗ ⌜poolStep (30) k.val g0 s ln p p'⌝)) -∗ Q ()))
      ⊢ wp frame (wpE (defs₀ (F := Ideal)) 𝒱₀ (V d (cV L) (jV L)) none) Set.univ
          (k0_t4_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 c0 k ()) Q := by
  unfold k0_t4_body
  iintro ⟨Hrow, Hqb, Hlnv, Hpre, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _
  isplitl [Hpre]; · iexact Hpre
  ipureintro
  have h2 : k.val < 8 := lt_of_lt_of_le k.isLt k0_t4_abs.2.1
  refine p45_poolStep_of_store d L 30 k.val (16 * k.val + 3840) (by omega) h2 (by omega) g0 s ln p _ _ (p45_off159_eq k) _ ?_
  intro a
  delta t4_region_v.sl.v382 t4_region_v.sl.v616 t4_region_v.sl.r_17 t4_region_v.sl.r_9 t4_region_v.sl.v682 t4_region_v.sl.r_15 t4_region_v.sl.v70 t4_region_v.sl.v304 t4_region_v.sl.v590 t4_region_v.sl.v57 t4_region_v.sl.v603 t4_region_v.sl.v577 t4_region_v.sl.r_14 t4_region_v.sl.v148 t4_region_v.sl.v460 t4_region_v.sl.v551 t4_region_v.sl.v629 t4_region_v.sl.r_11 t4_region_v.sl.v343 t4_region_v.sl.r_1 t4_region_v.sl.v330 t4_region_v.sl.v135 t4_region_v.sl.v538 t4_region_v.sl.r_31 t4_region_v.sl.v174 t4_region_v.sl.v356 t4_region_v.sl.r_22 t4_region_v.sl.r_18 t4_region_v.sl.v200 t4_region_v.sl.r_30 t4_region_v.sl.v239 t4_region_v.sl.r_6 t4_region_v.sl.v122 t4_region_v.sl.v668 t4_region_v.sl.v642 t4_region_v.sl.r_26 t4_region_v.sl.v447 t4_region_v.sl.r_27 t4_region_v.sl.r_16 t4_region_v.sl.v265 t4_region_v.sl.r_23 t4_region_v.sl.v83 t4_region_v.sl.r_4 t4_region_v.sl.r_19 t4_region_v.sl.r t4_region_v.sl.r_32 t4_region_v.sl.v31 t4_region_v.sl.r_34 t4_region_v.sl.v187 t4_region_v.sl.v421 t4_region_v.sl.v369 t4_region_v.sl.r_2 t4_region_v.sl.arg18 t4_region_v.sl.r_3 t4_region_v.sl.v564 t4_region_v.sl.r_5 t4_region_v.sl.r_21 t4_region_v.sl.v434 t4_region_v.sl.v252 t4_region_v.sl.v499 t4_region_v.sl.v486 t4_region_v.sl.v655 t4_region_v.sl.r_29 t4_region_v.sl.r_20 t4_region_v.sl.v278 t4_region_v.sl.v473 t4_region_v.sl.r_24 t4_region_v.sl.v512 t4_region_v.sl.v226 t4_region_v.sl.v291 t4_region_v.sl.v395 t4_region_v.sl.r_13 t4_region_v.sl.r_10 t4_region_v.sl.v96 t4_region_v.sl.v44 t4_region_v.sl.r_28 t4_region_v.sl.v525 t4_region_v.sl.r_7 t4_region_v.sl.r_8 t4_region_v.sl.v109 t4_region_v.sl.r_25 t4_region_v.sl.v161 t4_region_v.sl.v317 t4_region_v.sl.r_12 t4_region_v.sl.r_33 t4_region_v.sl.v213 t4_region_v.sl.v408 t4_region_v.sl.v683
  generalize_proofs
  simp only [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, addf_apply, mulf_apply, subf_apply, maximumf_apply, minimumf_apply, divf_apply, broadcast_apply,
    Ideal.ofBits_def, Cert.Consts.ofBits_0, Cert.Consts.ofBits_1, Cert.Consts.ofBits_2, Cert.Consts.ofBits_3, Cert.Consts.ofBits_4, Cert.Consts.ofBits_5, Cert.Consts.ofBits_6, Cert.Consts.ofBits_7, Cert.Consts.ofBits_8, Cert.Consts.ofBits_9, Cert.Consts.ofBits_10, Cert.Consts.ofBits_11, Cert.Consts.ofBits_12, Cert.Consts.ofBits_13, Cert.Consts.ofBits_14, Cert.Consts.ofBits_15, Cert.Consts.ofBits_16, Cert.Consts.ofBits_17, Cert.Consts.ofBits_18, Cert.Consts.ofBits_19, Cert.Consts.ofBits_20, Cert.Consts.ofBits_21, Cert.Consts.ofBits_22, Cert.Consts.ofBits_23, Cert.Consts.ofBits_24, Cert.Consts.ofBits_25, Cert.Consts.ofBits_26, Cert.Consts.ofBits_27, Cert.Consts.ofBits_28, Cert.Consts.ofBits_29, Cert.Consts.ofBits_30, Cert.Consts.ofBits_31, Cert.Consts.ofBits_32, Cert.Consts.ofBits_33, Cert.Consts.ofBits_34, Cert.Consts.ofBits_35, Cert.Consts.ofBits_36, Cert.Consts.ofBits_37, Cert.Consts.ofBits_38, Cert.Consts.ofBits_39, Cert.Consts.ofBits_40, Cert.Consts.ofBits_41, Cert.Consts.ofBits_42, Cert.Consts.ofBits_43, Cert.Consts.ofBits_44, Cert.Consts.ofBits_45, Cert.Consts.ofBits_46, Cert.Consts.ofBits_47, Cert.Consts.ofBits_48, Cert.Consts.ofBits_49]
  simp only [p45_loadIdx_gat d L g0, p45_len_lane d L ln (Gen.k0_off108_eq k), p45_idx_lane0 d L s (Gen.k0_off109_eq k), p45_idx_lane0 d L s (Gen.k0_off110_eq k), p45_idx_lane0 d L s (Gen.k0_off111_eq k), p45_idx_lane0 d L s (Gen.k0_off112_eq k), p45_idx_lane0 d L s (Gen.k0_off113_eq k), p45_idx_lane0 d L s (Gen.k0_off114_eq k), p45_idx_lane0 d L s (Gen.k0_off115_eq k), p45_idx_lane0 d L s (Gen.k0_off116_eq k), p45_idx_lane0 d L s (Gen.k0_off117_eq k), p45_idx_lane0 d L s (Gen.k0_off118_eq k), p45_idx_lane0 d L s (Gen.k0_off119_eq k), p45_idx_lane0 d L s (Gen.k0_off120_eq k), p45_idx_lane0 d L s (Gen.k0_off121_eq k), p45_idx_lane0 d L s (Gen.k0_off122_eq k), p45_idx_lane0 d L s (Gen.k0_off123_eq k), p45_idx_lane0 d L s (Gen.k0_off124_eq k), p45_idx_lane0 d L s (Gen.k0_off125_eq k), p45_idx_lane0 d L s (Gen.k0_off126_eq k), p45_idx_lane0 d L s (Gen.k0_off127_eq k), p45_idx_lane0 d L s (Gen.k0_off128_eq k), p45_idx_lane0 d L s (Gen.k0_off129_eq k), p45_idx_lane0 d L s (Gen.k0_off130_eq k), p45_idx_lane0 d L s (Gen.k0_off131_eq k), p45_idx_lane0 d L s (Gen.k0_off132_eq k), p45_idx_lane0 d L s (Gen.k0_off133_eq k), p45_idx_lane0 d L s (Gen.k0_off134_eq k), p45_idx_lane0 d L s (Gen.k0_off135_eq k), p45_idx_lane0 d L s (Gen.k0_off136_eq k), p45_idx_lane0 d L s (Gen.k0_off137_eq k), p45_idx_lane0 d L s (Gen.k0_off138_eq k), p45_idx_lane0 d L s (Gen.k0_off139_eq k), p45_idx_lane0 d L s (Gen.k0_off140_eq k), p45_idx_lane0 d L s (Gen.k0_off141_eq k), p45_idx_lane0 d L s (Gen.k0_off142_eq k), p45_idx_lane0 d L s (Gen.k0_off143_eq k), p45_idx_lane0 d L s (Gen.k0_off144_eq k), p45_idx_lane0 d L s (Gen.k0_off145_eq k), p45_idx_lane0 d L s (Gen.k0_off146_eq k), p45_idx_lane0 d L s (Gen.k0_off147_eq k), p45_idx_lane0 d L s (Gen.k0_off148_eq k), p45_idx_lane0 d L s (Gen.k0_off149_eq k), p45_idx_lane0 d L s (Gen.k0_off150_eq k), p45_idx_lane0 d L s (Gen.k0_off151_eq k), p45_idx_lane0 d L s (Gen.k0_off152_eq k), p45_idx_lane0 d L s (Gen.k0_off153_eq k), p45_idx_lane0 d L s (Gen.k0_off154_eq k), p45_idx_lane0 d L s (Gen.k0_off155_eq k), p45_idx_lane0 d L s (Gen.k0_off156_eq k), p45_idx_lane0 d L s (Gen.k0_off157_eq k), p45_idx_lane0 d L s (Gen.k0_off158_eq k)]
  simp only [poolVal, p45_sum50, clampW]
  simp only [Nat.cast_zero, Nat.cast_one, EReal.coe_zero, EReal.coe_one]

set_option maxHeartbeats 16000000 in
/-- One trip of the loop over block 31: the pooled-result scratch ends with the sixteen pooled values of batch rows
    `3968 + 16k …` at row 31, places `16k … 16k+15`; the row, the index block and the lengths are left as they were. -/
theorem t5_region_v  (k : Fin k0_t5_loop.trips)
    (g0 : Bf (F := Ideal) d L rowW) (s : Bf (F := Ideal) d L qb1W) (hs1 : ∀ x, (s x).toNat < 100000)
    (ln : Bf (F := Ideal) d L lnvW) (p : Bf (F := Ideal) d L preW) (Q : Unit → sProp 𝕄) :
    iprop(((rowW).view.loc (V d (cV L) (jV L)) ↦{fullShare} g0) ∗ ((qb1W).view.loc (V d (cV L) (jV L)) ↦{fullShare} s) ∗ ((lnvW).view.loc (V d (cV L) (jV L)) ↦{fullShare} ln) ∗ ((preW).view.loc (V d (cV L) (jV L)) ↦{fullShare} p)
        ∗ ((((rowW).view.loc (V d (cV L) (jV L)) ↦{fullShare} g0) ∗ ((qb1W).view.loc (V d (cV L) (jV L)) ↦{fullShare} s) ∗ ((lnvW).view.loc (V d (cV L) (jV L)) ↦{fullShare} ln)
            ∗ (∃ p', ((preW).view.loc (V d (cV L) (jV L)) ↦{fullShare} p') ∗ ⌜poolStep (31) k.val g0 s ln p p'⌝)) -∗ Q ()))
      ⊢ wp frame (wpE (defs₀ (F := Ideal)) 𝒱₀ (V d (cV L) (jV L)) none) Set.univ
          (k0_t5_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5  k ()) Q := by
  unfold k0_t5_body
  iintro ⟨Hrow, Hqb, Hlnv, Hpre, Hk⟩
  repeat (sl_exec (disch := (intro a x; obtain rfl : a = 0 := Subsingleton.elim _ _; exact hs1 _)); iapply (wp_gather d L _) $$ Hrow; iintro Hrow)
  sl_exec (disch := (intro a x; obtain rfl : a = 0 := Subsingleton.elim _ _; exact hs1 _))
  sl_step
  iapply Hk
  isplitl [Hrow]; · iexact Hrow
  isplitl [Hqb]; · iexact Hqb
  isplitl [Hlnv]; · iexact Hlnv
  iexists _
  isplitl [Hpre]; · iexact Hpre
  ipureintro
  have h2 : k.val < 8 := lt_of_lt_of_le k.isLt k0_t5_abs.2.1
  refine p45_poolStep_of_store d L 31 k.val (16 * k.val + 3968) (by omega) h2 (by omega) g0 s ln p _ _ (p45_off211_eq k) _ ?_
  intro a
  delta t5_region_v.sl.v473 t5_region_v.sl.r_24 t5_region_v.sl.r_34 t5_region_v.sl.v187 t5_region_v.sl.v83 t5_region_v.sl.r_27 t5_region_v.sl.v447 t5_region_v.sl.v265 t5_region_v.sl.r_23 t5_region_v.sl.r_16 t5_region_v.sl.r_30 t5_region_v.sl.v239 t5_region_v.sl.v200 t5_region_v.sl.r_6 t5_region_v.sl.r_3 t5_region_v.sl.arg18 t5_region_v.sl.v369 t5_region_v.sl.r_2 t5_region_v.sl.v421 t5_region_v.sl.r_11 t5_region_v.sl.v343 t5_region_v.sl.r_1 t5_region_v.sl.r_4 t5_region_v.sl.r t5_region_v.sl.r_19 t5_region_v.sl.v31 t5_region_v.sl.r_32 t5_region_v.sl.v460 t5_region_v.sl.v551 t5_region_v.sl.v148 t5_region_v.sl.v577 t5_region_v.sl.r_14 t5_region_v.sl.v603 t5_region_v.sl.v668 t5_region_v.sl.v642 t5_region_v.sl.v122 t5_region_v.sl.r_26 t5_region_v.sl.v304 t5_region_v.sl.r_31 t5_region_v.sl.v174 t5_region_v.sl.r_22 t5_region_v.sl.v356 t5_region_v.sl.r_18 t5_region_v.sl.v538 t5_region_v.sl.v135 t5_region_v.sl.v330 t5_region_v.sl.r_12 t5_region_v.sl.v629 t5_region_v.sl.v109 t5_region_v.sl.r_8 t5_region_v.sl.r_7 t5_region_v.sl.r_28 t5_region_v.sl.v525 t5_region_v.sl.v590 t5_region_v.sl.v57 t5_region_v.sl.r_13 t5_region_v.sl.v395 t5_region_v.sl.r_10 t5_region_v.sl.v382 t5_region_v.sl.v682 t5_region_v.sl.r_15 t5_region_v.sl.r_17 t5_region_v.sl.r_9 t5_region_v.sl.v616 t5_region_v.sl.v70 t5_region_v.sl.v683 t5_region_v.sl.v408 t5_region_v.sl.r_33 t5_region_v.sl.v213 t5_region_v.sl.v655 t5_region_v.sl.r_29 t5_region_v.sl.v278 t5_region_v.sl.r_20 t5_region_v.sl.r_25 t5_region_v.sl.v161 t5_region_v.sl.v317 t5_region_v.sl.v252 t5_region_v.sl.v499 t5_region_v.sl.v486 t5_region_v.sl.r_21 t5_region_v.sl.v434 t5_region_v.sl.v96 t5_region_v.sl.v44 t5_region_v.sl.v564 t5_region_v.sl.r_5 t5_region_v.sl.v226 t5_region_v.sl.v512 t5_region_v.sl.v291
  generalize_proofs
  simp only [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, addf_apply, mulf_apply, subf_apply, maximumf_apply, minimumf_apply, divf_apply, broadcast_apply,
    Ideal.ofBits_def, Cert.Consts.ofBits_0, Cert.Consts.ofBits_1, Cert.Consts.ofBits_2, Cert.Consts.ofBits_3, Cert.Consts.ofBits_4, Cert.Consts.ofBits_5, Cert.Consts.ofBits_6, Cert.Consts.ofBits_7, Cert.Consts.ofBits_8, Cert.Consts.ofBits_9, Cert.Consts.ofBits_10, Cert.Consts.ofBits_11, Cert.Consts.ofBits_12, Cert.Consts.ofBits_13, Cert.Consts.ofBits_14, Cert.Consts.ofBits_15, Cert.Consts.ofBits_16, Cert.Consts.ofBits_17, Cert.Consts.ofBits_18, Cert.Consts.ofBits_19, Cert.Consts.ofBits_20, Cert.Consts.ofBits_21, Cert.Consts.ofBits_22, Cert.Consts.ofBits_23, Cert.Consts.ofBits_24, Cert.Consts.ofBits_25, Cert.Consts.ofBits_26, Cert.Consts.ofBits_27, Cert.Consts.ofBits_28, Cert.Consts.ofBits_29, Cert.Consts.ofBits_30, Cert.Consts.ofBits_31, Cert.Consts.ofBits_32, Cert.Consts.ofBits_33, Cert.Consts.ofBits_34, Cert.Consts.ofBits_35, Cert.Consts.ofBits_36, Cert.Consts.ofBits_37, Cert.Consts.ofBits_38, Cert.Consts.ofBits_39, Cert.Consts.ofBits_40, Cert.Consts.ofBits_41, Cert.Consts.ofBits_42, Cert.Consts.ofBits_43, Cert.Consts.ofBits_44, Cert.Consts.ofBits_45, Cert.Consts.ofBits_46, Cert.Consts.ofBits_47, Cert.Consts.ofBits_48, Cert.Consts.ofBits_49]
  simp only [p45_loadIdx_gat d L g0, p45_len_lane d L ln (Gen.k0_off160_eq k), p45_idx_lane1 d L s (Gen.k0_off161_eq k), p45_idx_lane1 d L s (Gen.k0_off162_eq k), p45_idx_lane1 d L s (Gen.k0_off163_eq k), p45_idx_lane1 d L s (Gen.k0_off164_eq k), p45_idx_lane1 d L s (Gen.k0_off165_eq k), p45_idx_lane1 d L s (Gen.k0_off166_eq k), p45_idx_lane1 d L s (Gen.k0_off167_eq k), p45_idx_lane1 d L s (Gen.k0_off168_eq k), p45_idx_lane1 d L s (Gen.k0_off169_eq k), p45_idx_lane1 d L s (Gen.k0_off170_eq k), p45_idx_lane1 d L s (Gen.k0_off171_eq k), p45_idx_lane1 d L s (Gen.k0_off172_eq k), p45_idx_lane1 d L s (Gen.k0_off173_eq k), p45_idx_lane1 d L s (Gen.k0_off174_eq k), p45_idx_lane1 d L s (Gen.k0_off175_eq k), p45_idx_lane1 d L s (Gen.k0_off176_eq k), p45_idx_lane1 d L s (Gen.k0_off177_eq k), p45_idx_lane1 d L s (Gen.k0_off178_eq k), p45_idx_lane1 d L s (Gen.k0_off179_eq k), p45_idx_lane1 d L s (Gen.k0_off180_eq k), p45_idx_lane1 d L s (Gen.k0_off181_eq k), p45_idx_lane1 d L s (Gen.k0_off182_eq k), p45_idx_lane1 d L s (Gen.k0_off183_eq k), p45_idx_lane1 d L s (Gen.k0_off184_eq k), p45_idx_lane1 d L s (Gen.k0_off185_eq k), p45_idx_lane1 d L s (Gen.k0_off186_eq k), p45_idx_lane1 d L s (Gen.k0_off187_eq k), p45_idx_lane1 d L s (Gen.k0_off188_eq k), p45_idx_lane1 d L s (Gen.k0_off189_eq k), p45_idx_lane1 d L s (Gen.k0_off190_eq k), p45_idx_lane1 d L s (Gen.k0_off191_eq k), p45_idx_lane1 d L s (Gen.k0_off192_eq k), p45_idx_lane1 d L s (Gen.k0_off193_eq k), p45_idx_lane1 d L s (Gen.k0_off194_eq k), p45_idx_lane1 d L s (Gen.k0_off195_eq k), p45_idx_lane1 d L s (Gen.k0_off196_eq k), p45_idx_lane1 d L s (Gen.k0_off197_eq k), p45_idx_lane1 d L s (Gen.k0_off198_eq k), p45_idx_lane1 d L s (Gen.k0_off199_eq k), p45_idx_lane1 d L s (Gen.k0_off200_eq k), p45_idx_lane1 d L s (Gen.k0_off201_eq k), p45_idx_lane1 d L s (Gen.k0_off202_eq k), p45_idx_lane1 d L s (Gen.k0_off203_eq k), p45_idx_lane1 d L s (Gen.k0_off204_eq k), p45_idx_lane1 d L s (Gen.k0_off205_eq k), p45_idx_lane1 d L s (Gen.k0_off206_eq k), p45_idx_lane1 d L s (Gen.k0_off207_eq k), p45_idx_lane1 d L s (Gen.k0_off208_eq k), p45_idx_lane1 d L s (Gen.k0_off209_eq k), p45_idx_lane1 d L s (Gen.k0_off210_eq k)]
  simp only [poolVal, p45_sum50, clampW]
  simp only [Nat.cast_zero, Nat.cast_one, EReal.coe_zero, EReal.coe_one]

end Tile
end Cert.Proof.TileI
end
-- ==== Proof.TileValue.lean ====
/-
  A vector subcore's task with what it computes (idealized kernel), at a symbolic tile.

  The inner loops' trips each fill sixteen places of a scratch with the values the specification names (the four pooling
  trips, the sparse trip: their own modules). Here those are put together: eight trips finish a row of the pooled-result
  scratch, the outer loop finishes the rows two at a time (the index block in flight being the block of its number), the
  last two rows follow, and the scratch is copied to the tile's block of the pooled output; for each field sixteen trips
  fill the result scratch with the entries the field's row numbers name, and it is copied to the tile's block for that
  field. What a copy brings in is the slice it copies, read off the input.
-/
import proofs.«209320_g71347996721220_cont_9to1c4b_157_42_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.TileIdeal
import proofs.«209320_g71347996721220_cont_9to1c4b_157_42_alg».proof.Proof.ValueSpec
import proofs.«209320_g71347996721220_cont_9to1c4b_157_42_alg».proof.Proof.TileIdeal1
import proofs.«209320_g71347996721220_cont_9to1c4b_157_42_alg».proof.Proof.TileIdeal6
import proofs.«209320_g71347996721220_cont_9to1c4b_157_42_alg».proof.Proof.TileIdealTop
import proofs.«209320_g71347996721220_cont_9to1c4b_157_42_alg».proof.Proof.LaunchIdeal3
import proofs.«209320_g71347996721220_cont_9to1c4b_157_42_alg».proof.Proof.TileValueSpec
import proofs.«209320_g71347996721220_cont_9to1c4b_157_42_alg».proof.Proof.TileValueDefs
import proofs.«209320_g71347996721220_cont_9to1c4b_157_42_alg».proof.Proof.SparseValue
import proofs.«209320_g71347996721220_cont_9to1c4b_157_42_alg».proof.Proof.SliceReads
import proofs.«209320_g71347996721220_cont_9to1c4b_157_42_alg».proof.Proof.PoolValue
import proofs.«209320_g71347996721220_cont_9to1c4b_157_42_alg».proof.Proof.PoolValue3
import proofs.«209320_g71347996721220_cont_9to1c4b_157_42_alg».proof.Proof.PoolValue45

noncomputable section

namespace Cert.Proof.TileI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Spec Idealize.ShloMosaic.ValueIdx

local notation "𝕄" => MT nD τ sig (HIx 1) (Elt Ideal) ℕ UU ℕ

local notation "tabW" => (Memref.whole Cert.KernelIdeal.main_v0_scv : Memref Cert.KernelIdeal.sig Kind.scVector Space.hbm Cert.KernelIdeal.S26x32x100000 EltTy.f32)
local notation "sixW" => (Memref.whole Cert.KernelIdeal.main_v2_scv : Memref Cert.KernelIdeal.sig Kind.scVector Space.hbm Cert.KernelIdeal.S26x4096 EltTy.i32)
local notation "seqW" => (Memref.whole Cert.KernelIdeal.main_v1_scv : Memref Cert.KernelIdeal.sig Kind.scVector Space.hbm Cert.KernelIdeal.S32x100000 EltTy.f32)
local notation "qixW" => (Memref.whole Cert.KernelIdeal.main_v5_scv : Memref Cert.KernelIdeal.sig Kind.scVector Space.hbm Cert.KernelIdeal.S32x50x128 EltTy.i32)
local notation "lenW" => (Memref.whole Cert.KernelIdeal.main_v6_scv : Memref Cert.KernelIdeal.sig Kind.scVector Space.hbm Cert.KernelIdeal.S4096 EltTy.f32)
local notation "souW" => (Memref.whole Cert.KernelIdeal.main_v7_0_scv : Memref Cert.KernelIdeal.sig Kind.scVector Space.hbm Cert.KernelIdeal.S26624x128 EltTy.f32)
local notation "pouW" => (Memref.whole Cert.KernelIdeal.main_v7_1_scv : Memref Cert.KernelIdeal.sig Kind.scVector Space.hbm Cert.KernelIdeal.S1024x128 EltTy.f32)
local notation "rowW" => (Memref.whole Cert.KernelIdeal.cc0_scratch0 : Memref Cert.KernelIdeal.sig Kind.scVector Space.vmem Cert.KernelIdeal.S100000 EltTy.f32)
local notation "sidW" => (Memref.whole Cert.KernelIdeal.cc0_scratch1 : Memref Cert.KernelIdeal.sig Kind.scVector Space.vmem Cert.KernelIdeal.S4096 EltTy.i32)
local notation "qb0W" => (Memref.whole Cert.KernelIdeal.cc0_scratch2 : Memref Cert.KernelIdeal.sig Kind.scVector Space.vmem Cert.KernelIdeal.S50x128 EltTy.i32)
local notation "qb1W" => (Memref.whole Cert.KernelIdeal.cc0_scratch3 : Memref Cert.KernelIdeal.sig Kind.scVector Space.vmem Cert.KernelIdeal.S50x128 EltTy.i32)
local notation "lnvW" => (Memref.whole Cert.KernelIdeal.cc0_scratch4 : Memref Cert.KernelIdeal.sig Kind.scVector Space.vmem Cert.KernelIdeal.S4096 EltTy.f32)
local notation "resW" => (Memref.whole Cert.KernelIdeal.cc0_scratch5 : Memref Cert.KernelIdeal.sig Kind.scVector Space.vmem Cert.KernelIdeal.S32x128 EltTy.f32)
local notation "preW" => (Memref.whole Cert.KernelIdeal.cc0_scratch6 : Memref Cert.KernelIdeal.sig Kind.scVector Space.vmem Cert.KernelIdeal.S32x128 EltTy.f32)

section Tile
variable (d : Dev nD) (L : grid0.Coords)

/-- After `k` trips of the inner sparse loop: rows below `2k` hold the gathered entries, the rest is as at the start. -/
def gatDone (k : ℕ) (g0 : (⟨1, ![100000]⟩ : Shape).Idx → EReal) (s1 : (⟨1, ![4096]⟩ : Shape).Idx → BitVec 32)
    (g5 g5' : (⟨2, ![32, 128]⟩ : Shape).Idx → EReal) : Prop :=
  ∀ (r : Fin 32) (l : Fin 128), g5' (ix2 r l)
    = if r.val / 2 < k then gatVal g0 (s1 (ix1 ⟨(128 * r.val + l.val) % 4096, Nat.mod_lt _ (by norm_num)⟩))
      else g5 (ix2 r l)

theorem gatDone_zero (g0 s1 g5) : gatDone 0 g0 s1 g5 g5 := fun r l => by simp
theorem gatDone_succ {k : ℕ} {g0 s1 g5 a b} (h : gatDone k g0 s1 g5 a) (hs : gatStep k g0 s1 a b) : gatDone (k + 1) g0 s1 g5 b := by
  intro r l
  rw [hs r l]
  by_cases e : r.val / 2 = k
  · rw [if_pos e, if_pos (by omega)]
  · rw [if_neg e, h r l]
    by_cases e' : r.val / 2 < k
    · rw [if_pos e', if_pos (by omega)]
    · rw [if_neg e', if_neg (by omega)]

/-- Between trips of the inner sparse loop, with contents. -/
def inv7v (g0 : Bf (F := Ideal) d L rowW) (s1 : Bf (F := Ideal) d L sidW) (g5 : Bf (F := Ideal) d L resW) (k : Nat) (_ : Unit) : sProp 𝕄 :=
  iprop(((rowW).view.loc (V d (cV L) (jV L)) ↦{fullShare} g0) ∗ ((sidW).view.loc (V d (cV L) (jV L)) ↦{fullShare} s1) ∗ ∃ g5', ((resW).view.loc (V d (cV L) (jV L)) ↦{fullShare} g5') ∗ ⌜gatDone k g0 s1 g5 g5'⌝)
/-- A field's trip's resources after it: as before it, the block with what it holds. -/
def res6d (q : PosShare TreeShare) (O : CellTallies nD τ sig (HIx 1)) (W : Waits sig (HIx 1))
    (f0 : Bf (F := Ideal) d L tabW) (f1 : Bf (F := Ideal) d L sixW) (t : Fin k0_t6_loop.trips) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1)
    ∗ (∃ g5, (resW).view.loc (V d (cV L) (jV L)) ↦{fullShare} g5)
    ∗ (∃ fs, ((souBlk L t).view.loc (V d (cV L) (jV L)) ↦[(souBlk L t).view.set]{fullShare} fs) ∗ ⌜souSpecR d L f0 f1 t fs⌝)
    ∗ semVal (V d (cV L) (jV L), SemLoc.dma cc0_scoped3.sem) 0 ∗ semVal (V d (cV L) (jV L), SemLoc.dma cc0_scoped4.sem) 0
    ∗ semVal (V d (cV L) (jV L), SemLoc.dma cc0_scoped5.sem) 0
    ∗ ∃ W', ⌜∀ p ∈ W', p ∈ W ∨ p.2 = none⌝ ∗ owes (V d (cV L) (jV L)) O W')

set_option maxHeartbeats 8000000 in
/-- One field of the sparse part, with what its block of the output holds afterwards. -/
theorem t6_region_v (q : PosShare TreeShare) (O : CellTallies nD τ sig (HIx 1)) (W : Waits sig (HIx 1))
    (f0 : Bf (F := Ideal) d L tabW) (f1 : Bf (F := Ideal) d L sixW) (hf1 : ∀ x, (f1 x).toNat < 100000)
    (t : Fin k0_t6_loop.trips) (Q : Unit → sProp 𝕄) :
    iprop(res6 d L q O W f0 f1 t ∗ (res6d d L q O W f0 f1 t -∗ Q ()))
      ⊢ wp frame (wpE (defs₀ (F := Ideal)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 t ()) Q := by
  unfold k0_t6_body res6
  iintro ⟨⟨Hmw, Htab, Hsix, ⟨%g0, Hrow⟩, ⟨%g1, Hsid⟩, ⟨%g5, Hres⟩, ⟨%fs, Hsou⟩, Hc3, Hc4, Hc5, ⟨%W', %hW', HO⟩⟩, Hk⟩
  sl_exec
  have hs1 : ∀ x, ((View.write (Elt Ideal) (sidW).view g1 (t6_region_v.sl.dma0_1 d L f1 t) Finset.univ) x).toNat < 100000 := by
    intro x; rw [View.write_whole_univ]; exact hf1 _
  sl_for (inv7v d L (View.write (Elt Ideal) (rowW).view g0 (t6_region_v.sl.dma0 d L f0 t) Finset.univ)
      (View.write (Elt Ideal) (sidW).view g1 (t6_region_v.sl.dma0_1 d L f1 t) Finset.univ) g5) $$ [Hrow Hsid Hres]
  case region =>
    intro k acc
    unfold inv7v
    iintro ⟨Hrow, Hsid, ⟨%g5', Hres, %hd⟩⟩
    iapply (t7_region_v d L k _ _ hs1 g5' _)
    isplitl [Hrow]; · iexact Hrow
    isplitl [Hsid]; · iexact Hsid
    isplitl [Hres]; · iexact Hres
    iintro ⟨Hrow, Hsid, ⟨%g5'', Hres, %hst⟩⟩
    isplitl [Hrow]; · iexact Hrow
    isplitl [Hsid]; · iexact Hsid
    iexists g5''; isplitl [Hres]; · iexact Hres
    ipureintro; exact gatDone_succ hd hst
  · unfold inv7v
    isplitl [Hrow]; · iexact Hrow
    isplitl [Hsid]; · iexact Hsid
    iexists g5; isplitl [Hres]; · iexact Hres
    ipureintro; exact gatDone_zero _ _ _
  iintro %_ HI
  unfold inv7v
  icases HI with ⟨Hrow, Hsid, ⟨%g5', Hres, %hd⟩⟩
  sl_exec
  sl_step
  iapply Hk
  unfold res6d
  isplitl [Hmw]; · iexact Hmw
  isplitl [Htab]; · iexact Htab
  isplitl [Hsix]; · iexact Hsix
  isplitl [Hrow]; · iexists _; iexact Hrow
  isplitl [Hsid]; · iexists _; iexact Hsid
  isplitl [Hres]; · iexists _; iexact Hres
  isplitl [Hsou]
  · iexists _; isplitl [Hsou]; · iexact Hsou
    ipureintro
    intro r l
    have hw := View.read_writes_cons_emb (souBlk L t).view fs (Rect.whole S32x128) (t6_region_v.sl.dma0_2 d L g5') [] (ix2 r l)
    rw [Rect.emb_whole_apply] at hw
    rw [hw]
    show g5' (ix2 r l) = _
    rw [hd r l, if_pos (show r.val / 2 < k0_t7_loop.trips from by have := r.isLt; show r.val / 2 < 16; omega), View.write_whole_univ, View.write_whole_univ]
    rfl
  isplitl [Hc3]; · iexact Hc3
  isplitl [Hc4]; · iexact Hc4
  isplitl [Hc5]; · iexact Hc5
  iexists (insert (SemLoc.dma cc0_scoped5.sem, (default : HIx 1)) (insert (SemLoc.dma cc0_scoped4.sem, (default : HIx 1))
    (insert (SemLoc.dma cc0_scoped3.sem, (default : HIx 1)) W')))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp
  · iexact HO

/-- A field's block as the outer loop carries it: with what it holds once its trip is done. -/
abbrev blkV (f0 : Bf (F := Ideal) d L tabW) (f1 : Bf (F := Ideal) d L sixW) (k : ℕ) (t : Fin k0_t6_loop.trips) : sProp 𝕄 :=
  iprop(∃ fs, ((souBlk L t).view.loc (V d (cV L) (jV L)) ↦[(souBlk L t).view.set]{fullShare} fs) ∗ ⌜t.val < k → souSpecR d L f0 f1 t fs⌝)

theorem blkV_mono (f0 : Bf (F := Ideal) d L tabW) (f1 : Bf (F := Ideal) d L sixW) (t t' : Fin k0_t6_loop.trips) (hne : t' ≠ t) :
    blkV d L f0 f1 t.val t' ⊢ blkV d L f0 f1 (t.val + 1) t' := by
  iintro ⟨%fs, H, %hp⟩
  iexists fs
  isplitl [H]; · iexact H
  ipureintro
  intro h
  exact hp (by have := Fin.val_ne_of_ne hne; omega)

/-- The sparse part between fields, with contents. -/
def inv6v (q : PosShare TreeShare) (O : CellTallies nD τ sig (HIx 1)) (W : Waits sig (HIx 1))
    (f0 : Bf (F := Ideal) d L tabW) (f1 : Bf (F := Ideal) d L sixW) (k : Nat) (_ : Unit) : sProp 𝕄 :=
  iprop(Transfers.MayWaits (V d (cV L) (jV L)) (none : HIx 1) O
    ∗ ((tabW).view.loc (V d (cV L) (jV L)) ↦{q} f0) ∗ ((sixW).view.loc (V d (cV L) (jV L)) ↦{q} f1)
    ∗ (∃ g0, (rowW).view.loc (V d (cV L) (jV L)) ↦{fullShare} g0) ∗ (∃ g1, (sidW).view.loc (V d (cV L) (jV L)) ↦{fullShare} g1) ∗ (∃ g5, (resW).view.loc (V d (cV L) (jV L)) ↦{fullShare} g5)
    ∗ (bigSep Finset.univ fun t : Fin k0_t6_loop.trips => blkV d L f0 f1 k t)
    ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0
    ∗ ∃ W', ⌜∀ p ∈ W', p ∈ W ∨ p.2 = none⌝ ∗ owes (V d (cV L) (jV L)) O W')

theorem t6_regionE_v (q : PosShare TreeShare) (O : CellTallies nD τ sig (HIx 1)) (W : Waits sig (HIx 1))
    (f0 : Bf (F := Ideal) d L tabW) (f1 : Bf (F := Ideal) d L sixW) (hf1 : ∀ x, (f1 x).toNat < 100000)
    (t : Fin k0_t6_loop.trips) (acc : Unit) :
    inv6v d L q O W f0 f1 t.val acc
      ⊢ wp frame (wpE (defs₀ (F := Ideal)) 𝒱₀ (V d (cV L) (jV L)) none) Set.univ
          (k0_t6_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 t acc) (inv6v d L q O W f0 f1 (t.val + 1)) := by
  unfold inv6v
  rw [SparseCore.bigSep_erase' (Finset.mem_univ t), SparseCore.bigSep_erase' (Finset.mem_univ t)]
  iintro ⟨Hmw, Htab, Hsix, Hrow, Hsid, Hres, ⟨⟨%fs, Hb, -⟩, Hrest⟩, Hc3, Hc4, Hc5, HO⟩
  iapply (t6_region_v d L q O W f0 f1 hf1 t _)
  isplitl [Hmw Htab Hsix Hrow Hsid Hres Hb Hc3 Hc4 Hc5 HO]
  · unfold res6
    isplitl [Hmw]; · iexact Hmw
    isplitl [Htab]; · iexact Htab
    isplitl [Hsix]; · iexact Hsix
    isplitl [Hrow]; · iexact Hrow
    isplitl [Hsid]; · iexact Hsid
    isplitl [Hres]; · iexact Hres
    isplitl [Hb]; · iexists fs; iexact Hb
    isplitl [Hc3]; · iexact Hc3
    isplitl [Hc4]; · iexact Hc4
    isplitl [Hc5]; · iexact Hc5
    iexact HO
  unfold res6d
  iintro ⟨Hmw, Htab, Hsix, Hrow, Hsid, Hres, ⟨%fs', Hb, %hsp⟩, Hc3, Hc4, Hc5, HO⟩
  isplitl [Hmw]; · iexact Hmw
  isplitl [Htab]; · iexact Htab
  isplitl [Hsix]; · iexact Hsix
  isplitl [Hrow]; · iexact Hrow
  isplitl [Hsid]; · iexact Hsid
  isplitl [Hres]; · iexact Hres
  isplitl [Hb Hrest]
  · isplitl [Hb]
    · iexists fs'; isplitl [Hb]; · iexact Hb
      ipureintro; intro _; exact hsp
    have hm : (bigSep ((Finset.univ : Finset (Fin k0_t6_loop.trips)).erase t) (blkV d L f0 f1 t.val))
        ⊢ bigSep ((Finset.univ : Finset (Fin k0_t6_loop.trips)).erase t) (blkV d L f0 f1 (t.val + 1)) :=
      bigSep_mono fun t' ht' => blkV_mono d L f0 f1 t t' (Finset.ne_of_mem_erase ht')
    iapply hm; iexact Hrest
  isplitl [Hc3]; · iexact Hc3
  isplitl [Hc4]; · iexact Hc4
  isplitl [Hc5]; · iexact Hc5
  iexact HO

/-- After `k` trips of a pooling loop over block `bb`: places below `16k` of row `bb` are done, the rest as at the start. -/
def poolPart (bb k : ℕ) (g0 : (⟨1, ![100000]⟩ : Shape).Idx → EReal) (s : (⟨2, ![50, 128]⟩ : Shape).Idx → BitVec 32)
    (ln : (⟨1, ![4096]⟩ : Shape).Idx → EReal) (p p' : (⟨2, ![32, 128]⟩ : Shape).Idx → EReal) : Prop :=
  ∀ (r : Fin 32) (l : Fin 128), p' (ix2 r l)
    = if r.val = bb ∧ l.val < 16 * k then
        poolVal g0 s (ln (ix1 ⟨(128 * bb + l.val) % 4096, Nat.mod_lt _ (by norm_num)⟩)) l
      else p (ix2 r l)

theorem poolPart_zero (bb g0 s ln p) : poolPart bb 0 g0 s ln p p := fun r l => by simp
theorem poolPart_succ {bb k : ℕ} {g0 s ln p a b} (h : poolPart bb k g0 s ln p a) (hs : poolStep bb k g0 s ln a b) :
    poolPart bb (k + 1) g0 s ln p b := by
  intro r l
  rw [hs r l]
  by_cases e : r.val = bb ∧ 16 * k ≤ l.val ∧ l.val < 16 * k + 16
  · rw [if_pos e, if_pos ⟨e.1, by omega⟩]
  · rw [if_neg e, h r l]
    by_cases e' : r.val = bb ∧ l.val < 16 * k
    · rw [if_pos e', if_pos ⟨e'.1, by omega⟩]
    · rw [if_neg e', if_neg (by intro ⟨h1, h2⟩; exact e ⟨h1, by by_contra hc; exact e' ⟨h1, by omega⟩, by omega⟩)]

/-- After the first `n` blocks: rows below `n` of the pooled-result scratch are done. -/
def poolDone (n : ℕ) (g0 : (⟨1, ![100000]⟩ : Shape).Idx → EReal) (f3 : S32x50x128.Idx → BitVec 32)
    (ln : (⟨1, ![4096]⟩ : Shape).Idx → EReal) (p0 p : (⟨2, ![32, 128]⟩ : Shape).Idx → EReal) : Prop :=
  ∀ (r : Fin 32) (l : Fin 128), p (ix2 r l)
    = if r.val < n then
        poolVal g0 (blkOf f3 r.val) (ln (ix1 ⟨(128 * r.val + l.val) % 4096, Nat.mod_lt _ (by norm_num)⟩)) l
      else p0 (ix2 r l)

theorem poolDone_succ {n : ℕ} {g0 f3 ln p0 a b} (h : poolDone n g0 f3 ln p0 a) (hp : poolPart n 8 g0 (blkOf f3 n) ln a b) :
    poolDone (n + 1) g0 f3 ln p0 b := by
  intro r l
  rw [hp r l]
  by_cases e : r.val = n
  · subst e
    rw [if_pos ⟨rfl, by have := l.isLt; omega⟩, if_pos (by omega)]
  · rw [if_neg (fun hh => e hh.1), h r l]
    by_cases e' : r.val < n
    · rw [if_pos e', if_pos (by omega)]
    · rw [if_neg e', if_neg (by omega)]

/-- Between trips of an inner pooling loop over block `bb`, with contents. -/
def invQ0v (bb : ℕ) (g0 : Bf (F := Ideal) d L rowW) (ln : Bf (F := Ideal) d L lnvW) (s : Bf (F := Ideal) d L qb0W) (p : Bf (F := Ideal) d L preW)
    (k : Nat) (_ : Unit) : sProp 𝕄 :=
  iprop(((rowW).view.loc (V d (cV L) (jV L)) ↦{fullShare} g0) ∗ ((lnvW).view.loc (V d (cV L) (jV L)) ↦{fullShare} ln) ∗ ((qb0W).view.loc (V d (cV L) (jV L)) ↦{fullShare} s) ∗ ∃ p', ((preW).view.loc (V d (cV L) (jV L)) ↦{fullShare} p') ∗ ⌜poolPart bb k g0 s ln p p'⌝)
def invQ1v (bb : ℕ) (g0 : Bf (F := Ideal) d L rowW) (ln : Bf (F := Ideal) d L lnvW) (s : Bf (F := Ideal) d L qb1W) (p : Bf (F := Ideal) d L preW)
    (k : Nat) (_ : Unit) : sProp 𝕄 :=
  iprop(((rowW).view.loc (V d (cV L) (jV L)) ↦{fullShare} g0) ∗ ((lnvW).view.loc (V d (cV L) (jV L)) ↦{fullShare} ln) ∗ ((qb1W).view.loc (V d (cV L) (jV L)) ↦{fullShare} s) ∗ ∃ p', ((preW).view.loc (V d (cV L) (jV L)) ↦{fullShare} p') ∗ ⌜poolPart bb k g0 s ln p p'⌝)
/-- Between trips of the outer pooling loop, with contents: the block in flight is block `2k`; rows below `2k` are done. -/
def res1v (q : PosShare TreeShare) (O : CellTallies nD τ sig (HIx 1)) (W : Waits sig (HIx 1))
    (f3 : Bf (F := Ideal) d L qixW) (g0 : Bf (F := Ideal) d L rowW) (ln : Bf (F := Ideal) d L lnvW) (p0 : Bf (F := Ideal) d L preW) (k : ℕ) : sProp 𝕄 :=
  iprop(Transfers.MayWaits (V d (cV L) (jV L)) (none : HIx 1) O
    ∗ (∃ (S : Finset (Idx ((qixW).view.loc (V d (cV L) (jV L))))) (g2 w : Bf (F := Ideal) d L qb0W),
        Transfers.Flight countersEmb (V d (cV L) (jV L)) (SemLoc.dma cc0_scratch7.sem) (default : HIx 1) 204800
            iprop(((qb0W).view.loc (V d (cV L) (jV L)) ↦{fullShare} View.write (Elt Ideal) (qb0W).view g2 w Finset.univ)
              ∗ ((qixW).view.loc (V d (cV L) (jV L)) ↦[S]{q} f3))
        ∗ ((qixW).view.loc (V d (cV L) (jV L)) ↦[Finset.univ \ S]{q} f3) ∗ ⌜w = blkOf f3 (2 * k)⌝)
    ∗ (∃ g3, (qb1W).view.loc (V d (cV L) (jV L)) ↦{fullShare} g3)
    ∗ ((rowW).view.loc (V d (cV L) (jV L)) ↦{fullShare} g0) ∗ ((lnvW).view.loc (V d (cV L) (jV L)) ↦{fullShare} ln)
    ∗ (∃ p, ((preW).view.loc (V d (cV L) (jV L)) ↦{fullShare} p) ∗ ⌜poolDone (2 * k) g0 f3 ln p0 p⌝)
    ∗ semVal (V d (cV L) (jV L), SemLoc.dma cc0_scratch8.sem) 0
    ∗ ∃ W', ⌜∀ p ∈ W', p ∈ W ∨ p.2 = none⌝ ∗ owes (V d (cV L) (jV L)) O W')

theorem trips2 : Scf.trips k0_t2_loop.lb k0_t2_loop.ub k0_t2_loop.st = 8 := by decide
theorem trips3 : Scf.trips k0_t3_loop.lb k0_t3_loop.ub k0_t3_loop.st = 8 := by decide

set_option maxHeartbeats 16000000 in
theorem t1_region_v (q : PosShare TreeShare) (O : CellTallies nD τ sig (HIx 1)) (W : Waits sig (HIx 1))
    (f3 : Bf (F := Ideal) d L qixW) (hf3 : ∀ x, (f3 x).toNat < 100000) (g0 : Bf (F := Ideal) d L rowW) (ln : Bf (F := Ideal) d L lnvW)
    (p0 : Bf (F := Ideal) d L preW) (k1 : Fin k0_t1_loop.trips) (Q : Unit → sProp 𝕄) :
    iprop(res1v d L q O W f3 g0 ln p0 k1.val ∗ (res1v d L q O W f3 g0 ln p0 (k1.val + 1) -∗ Q ()))
      ⊢ wp frame (wpE (defs₀ (F := Ideal)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 ()) Q := by
  unfold k0_t1_body res1v
  iintro ⟨⟨Hmw, ⟨%S, %g2, %w, Hs7, Hqix, %hw⟩, ⟨%g3, Hqb1⟩, Hrow, Hlnv, ⟨%p, Hpre, %hdone⟩, Hs8, ⟨%W', %hW', HO⟩⟩, Hk⟩
  subst hw
  sl_exec
  ihave Hqb0 := (Entails.of_eq (congrArg (fun c => (((qb0W).view.loc (V d (cV L) (jV L)) ↦{fullShare} c) : sProp 𝕄)) (View.write_whole_univ _ _ _))) $$ Hs7_dst
  sl_for (invQ0v d L (2 * k1.val) g0 ln (blkOf f3 (2 * k1.val)) p) $$ [Hrow Hlnv Hqb0 Hpre]
  case region =>
    intro k acc
    unfold invQ0v
    iintro ⟨Hrow, Hlnv, Hqb, ⟨%p', Hpre, %hd⟩⟩
    iapply (t2_region_v d L _ _ k1 _ k g0 (blkOf f3 (2 * k1.val)) (fun x => hf3 _) ln p' _)
    isplitl [Hrow]; · iexact Hrow
    isplitl [Hqb]; · iexact Hqb
    isplitl [Hlnv]; · iexact Hlnv
    isplitl [Hpre]; · iexact Hpre
    iintro ⟨Hrow, Hqb, Hlnv, ⟨%p'', Hpre, %hst⟩⟩
    isplitl [Hrow]; · iexact Hrow
    isplitl [Hlnv]; · iexact Hlnv
    isplitl [Hqb]; · iexact Hqb
    iexists p''; isplitl [Hpre]; · iexact Hpre
    ipureintro; exact poolPart_succ hd hst
  · unfold invQ0v
    isplitl [Hrow]; · iexact Hrow
    isplitl [Hlnv]; · iexact Hlnv
    isplitl [Hqb0]; · iexact Hqb0
    iexists p; isplitl [Hpre]; · iexact Hpre
    ipureintro; exact poolPart_zero _ _ _ _ _
  iintro %_ HI
  unfold invQ0v
  icases HI with ⟨Hrow, Hlnv, Hqb0, ⟨%pa, Hpre, %hpa⟩⟩
  rw [trips2] at hpa
  sl_exec
  ihave Hqb1' := (Entails.of_eq (congrArg (fun c => (((qb1W).view.loc (V d (cV L) (jV L)) ↦{fullShare} c) : sProp 𝕄))
    ((View.write_whole_univ _ _ _).trans (blk_read3_0 d L f3 k1)))) $$ Hqb1
  sl_for (invQ1v d L (2 * k1.val + 1) g0 ln (blkOf f3 (2 * k1.val + 1)) pa) $$ [Hrow Hlnv Hqb1' Hpre]
  case region =>
    intro k acc
    unfold invQ1v
    iintro ⟨Hrow, Hlnv, Hqb, ⟨%p', Hpre, %hd⟩⟩
    iapply (t3_region_v d L k1 _ _ k g0 (blkOf f3 (2 * k1.val + 1)) (fun x => hf3 _) ln p' _)
    isplitl [Hrow]; · iexact Hrow
    isplitl [Hqb]; · iexact Hqb
    isplitl [Hlnv]; · iexact Hlnv
    isplitl [Hpre]; · iexact Hpre
    iintro ⟨Hrow, Hqb, Hlnv, ⟨%p'', Hpre, %hst⟩⟩
    isplitl [Hrow]; · iexact Hrow
    isplitl [Hlnv]; · iexact Hlnv
    isplitl [Hqb]; · iexact Hqb
    iexists p''; isplitl [Hpre]; · iexact Hpre
    ipureintro; exact poolPart_succ hd hst
  · unfold invQ1v
    isplitl [Hrow]; · iexact Hrow
    isplitl [Hlnv]; · iexact Hlnv
    isplitl [Hqb1']; · iexact Hqb1'
    iexists pa; isplitl [Hpre]; · iexact Hpre
    ipureintro; exact poolPart_zero _ _ _ _ _
  iintro %_ HI
  unfold invQ1v
  icases HI with ⟨Hrow, Hlnv, Hqb1, ⟨%pb, Hpre, %hpb⟩⟩
  rw [trips3] at hpb
  sl_exec
  sl_step
  iapply Hk
  isplitl [Hmw]; · iexact Hmw
  isplitl [Hs7 Hqix]
  · iexists _, _, _
    isplitl [Hs7]; · iexact Hs7
    isplitl [Hqix]; · iexact Hqix
    ipureintro
    exact (blk_read3_1 d L f3 k1).trans (by rw [show 2 * k1.val + 2 = 2 * (k1.val + 1) by omega])
  isplitl [Hqb1]; · iexists _; iexact Hqb1
  isplitl [Hrow]; · iexact Hrow
  isplitl [Hlnv]; · iexact Hlnv
  isplitl [Hpre]
  · iexists pb; isplitl [Hpre]; · iexact Hpre
    ipureintro
    have h1 := poolDone_succ hdone hpa
    have h2 := poolDone_succ h1 hpb
    rw [show 2 * k1.val + 1 + 1 = 2 * (k1.val + 1) by omega] at h2
    exact h2
  isplitl [Hs8]; · iexact Hs8
  iexists (insert (SemLoc.dma cc0_scratch8.sem, (default : HIx 1)) (insert (SemLoc.dma cc0_scratch7.sem, (default : HIx 1)) W'))
  isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO
/-- The outer pooling loop at contents it need not name. -/
def res1Ev (q : PosShare TreeShare) (O : CellTallies nD τ sig (HIx 1)) (W : Waits sig (HIx 1)) (f3 : Bf (F := Ideal) d L qixW)
    (g0 : Bf (F := Ideal) d L rowW) (ln : Bf (F := Ideal) d L lnvW) (p0 : Bf (F := Ideal) d L preW) (k : Nat) (_ : Unit) : sProp 𝕄 :=
  res1v d L q O W f3 g0 ln p0 k

theorem t1_regionEv (q : PosShare TreeShare) (O : CellTallies nD τ sig (HIx 1)) (W : Waits sig (HIx 1))
    (f3 : Bf (F := Ideal) d L qixW) (hf3 : ∀ x, (f3 x).toNat < 100000) (g0 : Bf (F := Ideal) d L rowW) (ln : Bf (F := Ideal) d L lnvW)
    (p0 : Bf (F := Ideal) d L preW) (k1 : Fin k0_t1_loop.trips) (acc : Unit) :
    res1Ev d L q O W f3 g0 ln p0 k1.val acc
      ⊢ wp frame (wpE (defs₀ (F := Ideal)) 𝒱₀ (V d (cV L) (jV L)) none) Set.univ
          (k0_t1_body L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5 k1 acc) (res1Ev d L q O W f3 g0 ln p0 (k1.val + 1)) := by
  unfold res1Ev
  iintro H
  iapply (t1_region_v d L q O W f3 hf3 g0 ln p0 k1 _)
  isplitl [H]; · iexact H
  iintro H; iexact H

/-- What a tile holds at the end, with what its blocks hold. -/
def tileResV (q : PosShare TreeShare) (f0 : Bf (F := Ideal) d L tabW) (f1 : Bf (F := Ideal) d L sixW) (f2 : Bf (F := Ideal) d L seqW)
    (f3 : Bf (F := Ideal) d L qixW) (f4 : Bf (F := Ideal) d L lenW) : sProp 𝕄 :=
  iprop(((tabW).view.loc (V d (cV L) (jV L)) ↦{q} f0) ∗ ((sixW).view.loc (V d (cV L) (jV L)) ↦{q} f1) ∗ ((seqW).view.loc (V d (cV L) (jV L)) ↦{q} f2) ∗ ((qixW).view.loc (V d (cV L) (jV L)) ↦{q} f3) ∗ ((lenW).view.loc (V d (cV L) (jV L)) ↦{q} f4)
    ∗ (∃ fp, ((pouBlk L).view.loc (V d (cV L) (jV L)) ↦[(pouBlk L).view.set]{fullShare} fp) ∗ ⌜pouSpecR d L f2 f3 f4 fp⌝)
    ∗ (bigSep Finset.univ fun t : Fin k0_t6_loop.trips => blkV d L f0 f1 k0_t6_loop.trips t)
    ∗ (∃ g0, (rowW).view.loc (V d (cV L) (jV L)) ↦{fullShare} g0) ∗ (∃ g1, (sidW).view.loc (V d (cV L) (jV L)) ↦{fullShare} g1) ∗ (∃ g2, (qb0W).view.loc (V d (cV L) (jV L)) ↦{fullShare} g2) ∗ (∃ g3, (qb1W).view.loc (V d (cV L) (jV L)) ↦{fullShare} g3) ∗ (∃ g4, (lnvW).view.loc (V d (cV L) (jV L)) ↦{fullShare} g4) ∗ (∃ g5, (resW).view.loc (V d (cV L) (jV L)) ↦{fullShare} g5) ∗ (∃ g6, (preW).view.loc (V d (cV L) (jV L)) ↦{fullShare} g6)
    ∗ semVal (V d (cV L) (jV L), SemLoc.dma cc0_scratch7.sem) 0 ∗ semVal (V d (cV L) (jV L), SemLoc.dma cc0_scratch8.sem) 0 ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0 ∗ semVal (V d (cV L) (jV L), SemLoc.dma cc0_scoped4.sem) 0 ∗ semVal (V d (cV L) (jV L), SemLoc.dma cc0_scoped5.sem) 0)

theorem trips1x2 : 2 * Scf.trips k0_t1_loop.lb k0_t1_loop.ub k0_t1_loop.st = 30 := by decide
theorem trips4 : Scf.trips k0_t4_loop.lb k0_t4_loop.ub k0_t4_loop.st = 8 := by decide
theorem trips5 : Scf.trips k0_t5_loop.lb k0_t5_loop.ub k0_t5_loop.st = 8 := by decide
theorem trips6 : Scf.trips k0_t6_loop.lb k0_t6_loop.ub k0_t6_loop.st = k0_t6_loop.trips := rfl

theorem blk0_intro (f0 : Bf (F := Ideal) d L tabW) (f1 : Bf (F := Ideal) d L sixW) (t : Fin k0_t6_loop.trips) :
    iprop(∃ fs, (souBlk L t).view.loc (V d (cV L) (jV L)) ↦[(souBlk L t).view.set]{fullShare} fs) ⊢ blkV d L f0 f1 0 t := by
  iintro ⟨%fs, H⟩
  iexists fs; isplitl [H]; · iexact H
  ipureintro; intro h; exact absurd h (Nat.not_lt_zero _)

set_option maxHeartbeats 16000000 in
/-- A vector subcore's whole task, with what it leaves in its blocks of the two outputs. -/
theorem tile_body_v (q : PosShare TreeShare) (O : CellTallies nD τ sig (HIx 1)) (W : Waits sig (HIx 1))
    (f0 : Bf (F := Ideal) d L tabW) (f1 : Bf (F := Ideal) d L sixW) (f2 : Bf (F := Ideal) d L seqW)
    (f3 : Bf (F := Ideal) d L qixW) (f4 : Bf (F := Ideal) d L lenW)
    (hf1 : ∀ x, (f1 x).toNat < 100000) (hf3 : ∀ x, (f3 x).toNat < 100000) :
    iprop(Transfers.MayWaits (V d (cV L) (jV L)) (none : HIx 1) O ∗ tileRes d L q f0 f1 f2 f3 f4 ∗ owes (V d (cV L) (jV L)) O W)
      ⊢ wp frame (wpE (defs₀ (F := Ideal)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tileResV d L q f0 f1 f2 f3 f4 ∗ ∃ W', ⌜∀ p ∈ W', p ∈ W ∨ p.2 = none⌝ ∗ owes (V d (cV L) (jV L)) O W') := by
  rw [cc0_k_eq_skeleton]; unfold cc0_k_skel tileRes
  iintro ⟨Hmw, ⟨Htab, Hsix, Hseq, Hqix, Hlen, ⟨%fp, Hpou⟩, Hsou, ⟨%g0, Hrow⟩, ⟨%g1, Hsid⟩, ⟨%g2, Hqb0⟩, ⟨%g3, Hqb1⟩, ⟨%g4, Hlnv⟩, ⟨%g5, Hres⟩, ⟨%g6, Hpre⟩,
    Hs7, Hs8, Hc0, Hc1, Hc2, Hc3, Hc4, Hc5⟩, HO⟩
  sl_exec
  ihave Hrow' := (Entails.of_eq (congrArg (fun c => (((rowW).view.loc (V d (cV L) (jV L)) ↦{fullShare} c) : sProp 𝕄))
    ((View.write_whole_univ _ _ _).trans (show tile_body_v.sl.dma0_2 d L f2 = (seqRow L).view.read (Elt Ideal) f2 from rfl)))) $$ Hrow
  ihave Hlnv' := (Entails.of_eq (congrArg (fun c => (((lnvW).view.loc (V d (cV L) (jV L)) ↦{fullShare} c) : sProp 𝕄))
    ((View.write_whole_univ _ _ _).trans (show tile_body_v.sl.dma0_1 d L f4 = f4 from rfl)))) $$ Hlnv
  sl_for (res1Ev d L q O W f3 ((seqRow L).view.read (Elt Ideal) f2) f4 g6) $$ [Hmw Hs7 Hqix Hqb1 Hrow' Hlnv' Hpre Hs8 HO]
  case region => exact fun k acc => t1_regionEv d L q O W f3 hf3 _ _ g6 k acc
  · unfold res1Ev res1v
    isplitl [Hmw]; · iexact Hmw
    isplitl [Hs7 Hqix]
    · iexists _, _, _
      isplitl [Hs7]; · iexact Hs7
      isplitl [Hqix]; · iexact Hqix
      ipureintro; exact blk_read_lit0 d L f3
    isplitl [Hqb1]; · iexists _; iexact Hqb1
    isplitl [Hrow']; · iexact Hrow'
    isplitl [Hlnv']; · iexact Hlnv'
    isplitl [Hpre]
    · iexists g6; isplitl [Hpre]; · iexact Hpre
      ipureintro; intro r l; simp
    isplitl [Hs8]; · iexact Hs8
    iexists (insert (SemLoc.dma cc0_scoped1.sem, (default : HIx 1)) (insert (SemLoc.dma cc0_scoped0.sem, (default : HIx 1)) W))
    isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %_ HI
  unfold res1Ev res1v
  icases HI with ⟨Hmw, ⟨%S, %g2', %w, Hs7, Hqix, %hw⟩, ⟨%g3', Hqb1⟩, Hrow, Hlnv, ⟨%p, Hpre, %hdone⟩, Hs8, ⟨%W1, %hW1, HO⟩⟩
  rw [trips1x2] at hw hdone
  subst hw
  sl_exec
  ihave Hqb0 := (Entails.of_eq (congrArg (fun c => (((qb0W).view.loc (V d (cV L) (jV L)) ↦{fullShare} c) : sProp 𝕄)) (View.write_whole_univ _ _ _))) $$ Hs7_dst
  sl_for (invQ0v d L 30 ((seqRow L).view.read (Elt Ideal) f2) f4 (blkOf f3 30) p) $$ [Hrow Hlnv Hqb0 Hpre]
  case region =>
    intro k acc
    unfold invQ0v
    iintro ⟨Hrow, Hlnv, Hqb, ⟨%p', Hpre, %hd⟩⟩
    iapply (t4_region_v d L _ k _ (blkOf f3 30) (fun x => hf3 _) f4 p' _)
    isplitl [Hrow]; · iexact Hrow
    isplitl [Hqb]; · iexact Hqb
    isplitl [Hlnv]; · iexact Hlnv
    isplitl [Hpre]; · iexact Hpre
    iintro ⟨Hrow, Hqb, Hlnv, ⟨%p'', Hpre, %hst⟩⟩
    isplitl [Hrow]; · iexact Hrow
    isplitl [Hlnv]; · iexact Hlnv
    isplitl [Hqb]; · iexact Hqb
    iexists p''; isplitl [Hpre]; · iexact Hpre
    ipureintro; exact poolPart_succ hd hst
  · unfold invQ0v
    isplitl [Hrow]; · iexact Hrow
    isplitl [Hlnv]; · iexact Hlnv
    isplitl [Hqb0]; · iexact Hqb0
    iexists p; isplitl [Hpre]; · iexact Hpre
    ipureintro; exact poolPart_zero _ _ _ _ _
  iintro %_ HI
  unfold invQ0v
  icases HI with ⟨Hrow, Hlnv, Hqb0, ⟨%pa, Hpre, %hpa⟩⟩
  rw [trips4] at hpa
  sl_exec
  ihave Hqb1' := (Entails.of_eq (congrArg (fun c => (((qb1W).view.loc (V d (cV L) (jV L)) ↦{fullShare} c) : sProp 𝕄))
    ((View.write_whole_univ _ _ _).trans (blk_read_lit31 d L f3)))) $$ Hqb1
  sl_for (invQ1v d L 31 ((seqRow L).view.read (Elt Ideal) f2) f4 (blkOf f3 31) pa) $$ [Hrow Hlnv Hqb1' Hpre]
  case region =>
    intro k acc
    unfold invQ1v
    iintro ⟨Hrow, Hlnv, Hqb, ⟨%p', Hpre, %hd⟩⟩
    iapply (t5_region_v d L k _ (blkOf f3 31) (fun x => hf3 _) f4 p' _)
    isplitl [Hrow]; · iexact Hrow
    isplitl [Hqb]; · iexact Hqb
    isplitl [Hlnv]; · iexact Hlnv
    isplitl [Hpre]; · iexact Hpre
    iintro ⟨Hrow, Hqb, Hlnv, ⟨%p'', Hpre, %hst⟩⟩
    isplitl [Hrow]; · iexact Hrow
    isplitl [Hlnv]; · iexact Hlnv
    isplitl [Hqb]; · iexact Hqb
    iexists p''; isplitl [Hpre]; · iexact Hpre
    ipureintro; exact poolPart_succ hd hst
  · unfold invQ1v
    isplitl [Hrow]; · iexact Hrow
    isplitl [Hlnv]; · iexact Hlnv
    isplitl [Hqb1']; · iexact Hqb1'
    iexists pa; isplitl [Hpre]; · iexact Hpre
    ipureintro; exact poolPart_zero _ _ _ _ _
  iintro %_ HI
  unfold invQ1v
  icases HI with ⟨Hrow, Hlnv, Hqb1, ⟨%pb, Hpre, %hpb⟩⟩
  rw [trips5] at hpb
  have hall : poolDone 32 ((seqRow L).view.read (Elt Ideal) f2) f3 f4 g6 pb := poolDone_succ (poolDone_succ hdone hpa) hpb
  sl_exec
  have hb0 : (bigSep Finset.univ fun t : Fin k0_t6_loop.trips => iprop(∃ fs, (souBlk L t).view.loc (V d (cV L) (jV L)) ↦[(souBlk L t).view.set]{fullShare} fs))
      ⊢ (bigSep Finset.univ fun t : Fin k0_t6_loop.trips => blkV d L f0 f1 0 t : sProp 𝕄) :=
    bigSep_mono fun t _ => blk0_intro d L f0 f1 t
  ihave Hsou' := hb0 $$ Hsou
  sl_for (inv6v d L q O W f0 f1) $$ [Hmw Htab Hsix Hrow Hsid Hres Hsou' Hc3 Hc4 Hc5 HO]
  case region => exact fun t acc => t6_regionE_v d L q O W f0 f1 hf1 t acc
  · unfold inv6v
    isplitl [Hmw]; · iexact Hmw
    isplitl [Htab]; · iexact Htab
    isplitl [Hsix]; · iexact Hsix
    isplitl [Hrow]; · iexists _; iexact Hrow
    isplitl [Hsid]; · iexists _; iexact Hsid
    isplitl [Hres]; · iexists _; iexact Hres
    isplitl [Hsou']; · iexact Hsou'
    isplitl [Hc3]; · iexact Hc3
    isplitl [Hc4]; · iexact Hc4
    isplitl [Hc5]; · iexact Hc5
    iexists (insert (SemLoc.dma cc0_scoped2.sem, (default : HIx 1)) (insert (SemLoc.dma cc0_scratch8.sem, (default : HIx 1)) (insert (SemLoc.dma cc0_scratch7.sem, (default : HIx 1)) W1)))
    isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW1 p hp
    · iexact HO
  iintro %_ HI
  unfold inv6v
  icases HI with ⟨Hmw, Htab, Hsix, ⟨%r1, Hrow⟩, ⟨%i1, Hsid⟩, ⟨%e1, Hres⟩, Hsou, Hc3, Hc4, Hc5, ⟨%W2, %hW2, HO⟩⟩
  sl_exec
  sl_step
  unfold tileResV
  isplitr [HO]
  · isplitl [Htab]; · iexact Htab
    isplitl [Hsix]; · iexact Hsix
    isplitl [Hseq]; · iexact Hseq
    isplitl [Hqix]; · iexact Hqix
    isplitl [Hlen]; · iexact Hlen
    isplitl [Hpou]
    · iexists _; isplitl [Hpou]; · iexact Hpou
      ipureintro
      intro r l
      have hw : ∀ base, View.read (Elt Ideal) (pouBlk L).view
          ((pouBlk L).view.writes (Elt Ideal) base [⟨Rect.whole S32x128, tile_body_v.sl.dma0_4 d L pb⟩]) (ix2 r l)
            = tile_body_v.sl.dma0_4 d L pb (ix2 r l) := fun base => by
        have h := View.read_writes_cons_emb (pouBlk L).view base (Rect.whole S32x128) (tile_body_v.sl.dma0_4 d L pb) [] (ix2 r l)
        rwa [Rect.emb_whole_apply] at h
      rw [hw]
      show pb (ix2 r l) = _
      rw [hall r l, if_pos r.isLt]
    isplitl [Hsou]; · iexact Hsou
    isplitl [Hrow]; · iexists _; iexact Hrow
    isplitl [Hsid]; · iexists _; iexact Hsid
    isplitl [Hqb0]; · iexists _; iexact Hqb0
    isplitl [Hqb1]; · iexists _; iexact Hqb1
    isplitl [Hlnv]; · iexists _; iexact Hlnv
    isplitl [Hres]; · iexists _; iexact Hres
    isplitl [Hpre]; · iexists _; iexact Hpre
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    iexact Hc5
  iexists W2; isplitr
  · ipureintro; exact hW2
  · iexact HO

theorem blkV_final (f0 : Bf (F := Ideal) d L tabW) (f1 : Bf (F := Ideal) d L sixW) (t : Fin k0_t6_loop.trips) :
    blkV d L f0 f1 k0_t6_loop.trips t
      ⊢ iprop(∃ fs, ((souBlk L t).view.loc (V d (cV L) (jV L)) ↦[(souBlk L t).view.set]{fullShare} fs) ∗ ⌜souSpec d L f0 f1 t fs⌝) := by
  iintro ⟨%fs, H, %hp⟩
  iexists fs; isplitl [H]; · iexact H
  ipureintro; exact souSpec_of_R d L f0 f1 t fs (hp t.isLt)

set_option maxHeartbeats 8000000 in
/-- The task in the shape the launch asks for, with what the tile's blocks hold. -/
theorem tile_task_v (q : PosShare TreeShare) (f0 : Bf (F := Ideal) d L tabW) (f1 : Bf (F := Ideal) d L sixW)
    (f2 : Bf (F := Ideal) d L seqW) (f3 : Bf (F := Ideal) d L qixW) (f4 : Bf (F := Ideal) d L lenW)
    (hf1 : ∀ x, (f1 x).toNat < 100000) (hf3 : ∀ x, (f3 x).toNat < 100000)
    (O : CellTallies nD τ sig (HIx 1)) (W : Waits sig (HIx 1)) (hO : ∀ g, O g none = 0) :
    iprop(levAts (K (F := Ideal)).L (K (F := Ideal)).lev ∗ emp ∗ tilePay d L q f0 f1 f2 f3 f4
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc0_k L tabW (Memref.isWhole_whole _) sixW (Memref.isWhole_whole _) seqW (Memref.isWhole_whole _) qixW (Memref.isWhole_whole _)
            lenW (Memref.isWhole_whole _) souW (Memref.isWhole_whole _) pouW (Memref.isWhole_whole _)
            rowW (Memref.isWhole_whole _) sidW (Memref.isWhole_whole _) qb0W (Memref.isWhole_whole _) qb1W (Memref.isWhole_whole _)
            lnvW (Memref.isWhole_whole _) resW (Memref.isWhole_whole _) preW (Memref.isWhole_whole _)
            cc0_scratch7 cc0_scratch8 cc0_scoped0 cc0_scoped1 cc0_scoped2 cc0_scoped3 cc0_scoped4 cc0_scoped5)
          fun _ => iprop(tilePayV d L q f0 f1 f2 f3 f4 ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := Ideal)).scopedBufs_V facts d (cV L) (jV L), SparseCore.Cfg.scopedSems0_V (Val := Elt Ideal) d (cV L) (jV L), ownSems0_V, ownBufs_V]
  unfold tilePay tilePayV
  iintro ⟨#Hlv, -, ⟨Htab, Hsix, Hseq, Hqix, Hlen, Hpou, Hsou⟩, ⟨Hrow, Hsid, Hqb0, Hqb1, Hlnv, Hres, Hpre, Hbufs⟩,
    ⟨Hs7, Hs8, Hc0, Hc1, Hc2, Hc3, Hc4, Hc5, Hsems⟩, HO⟩
  ihave Hmw := ((K (F := Ideal)).mayWaits_none (thr := V d (cV L) (jV L)) hO) $$ Hlv
  ihave H := (tile_body_v d L q O W f0 f1 f2 f3 f4 hf1 hf3) $$ [Hmw Htab Hsix Hseq Hqix Hlen Hpou Hsou Hrow Hsid Hqb0 Hqb1 Hlnv Hres Hpre Hs7 Hs8 Hc0 Hc1 Hc2 Hc3 Hc4 Hc5 HO]
  · unfold tileRes
    isplitl [Hmw]; · iexact Hmw
    isplitr [HO]
    · isplitl [Htab]; · iexact Htab
      isplitl [Hsix]; · iexact Hsix
      isplitl [Hseq]; · iexact Hseq
      isplitl [Hqix]; · iexact Hqix
      isplitl [Hlen]; · iexact Hlen
      isplitl [Hpou]; · iexact Hpou
      isplitl [Hsou]; · iexact Hsou
      isplitl [Hrow]; · iexact Hrow
      isplitl [Hsid]; · iexact Hsid
      isplitl [Hqb0]; · iexact Hqb0
      isplitl [Hqb1]; · iexact Hqb1
      isplitl [Hlnv]; · iexact Hlnv
      isplitl [Hres]; · iexact Hres
      isplitl [Hpre]; · iexact Hpre
      isplitl [Hs7]; · iexact Hs7
      isplitl [Hs8]; · iexact Hs8
      isplitl [Hc0]; · iexact Hc0
      isplitl [Hc1]; · iexact Hc1
      isplitl [Hc2]; · iexact Hc2
      isplitl [Hc3]; · iexact Hc3
      isplitl [Hc4]; · iexact Hc4
      iexact Hc5
    · iexact HO
  iapply (wp_wand frame _ Set.univ) $$ H
  iintro %a ⟨Hres, HO⟩
  unfold tileResV
  icases Hres with ⟨Htab, Hsix, Hseq, Hqix, Hlen, ⟨%fp, Hpou, %hp⟩, Hsou, Hrow, Hsid, Hqb0, Hqb1, Hlnv, Hres, Hpre, Hs7, Hs8, Hc0, Hc1, Hc2, Hc3, Hc4, Hc5⟩
  isplitl [Htab Hsix Hseq Hqix Hlen Hpou Hsou]
  · isplitl [Htab]; · iexact Htab
    isplitl [Hsix]; · iexact Hsix
    isplitl [Hseq]; · iexact Hseq
    isplitl [Hqix]; · iexact Hqix
    isplitl [Hlen]; · iexact Hlen
    isplitl [Hpou]
    · iexists fp; isplitl [Hpou]; · iexact Hpou
      ipureintro; exact pouSpec_of_R d L f2 f3 f4 fp hp
    have hm : (bigSep Finset.univ fun t : Fin k0_t6_loop.trips => blkV d L f0 f1 k0_t6_loop.trips t)
        ⊢ (bigSep Finset.univ fun t : Fin k0_t6_loop.trips =>
            iprop(∃ fs, ((souBlk L t).view.loc (V d (cV L) (jV L)) ↦[(souBlk L t).view.set]{fullShare} fs) ∗ ⌜souSpec d L f0 f1 t fs⌝) : sProp 𝕄) :=
      bigSep_mono fun t _ => blkV_final d L f0 f1 t
    iapply hm; iexact Hsou
  isplitl [Hrow Hsid Hqb0 Hqb1 Hlnv Hres Hpre Hbufs]
  · isplitl [Hrow]; · iexact Hrow
    isplitl [Hsid]; · iexact Hsid
    isplitl [Hqb0]; · iexact Hqb0
    isplitl [Hqb1]; · iexact Hqb1
    isplitl [Hlnv]; · iexact Hlnv
    isplitl [Hres]; · iexact Hres
    isplitl [Hpre]; · iexact Hpre
    iexact Hbufs
  isplitl [Hs7 Hs8 Hc0 Hc1 Hc2 Hc3 Hc4 Hc5 Hsems]
  · isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexact HO

end Tile
end Cert.Proof.TileI
end
-- ==== Proof.Algebraic.lean ====
/-
  The value claim.

  Both programs compute the function `Cert.Spec.G` of the six arguments. The idealized kernel: every tile leaves in its row
  blocks of the two outputs the values of its entry of the embedding row (the launch carries that back through the call),
  and the host's last five operations turn outputs holding those values into `G` (Proof/FinalValue.lean). The reference:
  the fold of its 66 operations holds `G` at its result (Proof/RefValue.lean). So the two runs from memories that agree on
  the arguments end with equal results: the common value is `G` of the kernel's arguments.
-/
import proofs.«209320_g71347996721220_cont_9to1c4b_157_42_alg».proof.Defs
import proofs.«209320_g71347996721220_cont_9to1c4b_157_42_alg».proof.Proof.Gen.KernelIdeal
import proofs.«209320_g71347996721220_cont_9to1c4b_157_42_alg».proof.Proof.Gen.ReferenceIdeal
import proofs.«209320_g71347996721220_cont_9to1c4b_157_42_alg».proof.Proof.Gen.Pre_input_domain
import proofs.«209320_g71347996721220_cont_9to1c4b_157_42_alg».proof.Proof.RefRun
import proofs.«209320_g71347996721220_cont_9to1c4b_157_42_alg».proof.Proof.RefValue
import proofs.«209320_g71347996721220_cont_9to1c4b_157_42_alg».proof.Proof.PreRanges
import proofs.«209320_g71347996721220_cont_9to1c4b_157_42_alg».proof.Proof.Spec
import proofs.«209320_g71347996721220_cont_9to1c4b_157_42_alg».proof.Proof.LaunchValue2
import proofs.«209320_g71347996721220_cont_9to1c4b_157_42_alg».proof.Proof.FinalValue
import proofs.«209320_g71347996721220_cont_9to1c4b_157_42_alg».proof.Proof.TileValue

noncomputable section

namespace Cert.Proof.Alg

open Idealize.ShloMosaic Idealize.ShloMosaic.TcCoe Idealize.SL.Sem Idealize.ShloMosaic.StableHlo
open Cert.KernelIdeal.Gen Cert.ReferenceIdeal.Gen Cert.Pre_input_domain.Gen Cert.Proof.TileI

/-- `G` of a kernel launch memory's arguments on device `c`, and of a reference launch memory's. -/
abbrev GK (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v12) :=
  Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
abbrev GR (m : (ℓ : Loc Cert.ReferenceIdeal.nD Cert.ReferenceIdeal.τ Cert.ReferenceIdeal.sig) → Buf (Elt Ideal) ℓ) (c : Dev Cert.ReferenceIdeal.nD) :
    Buf (Elt Ideal) ((c.tc : Thread Cert.ReferenceIdeal.nD Cert.ReferenceIdeal.τ).loc Cert.ReferenceIdeal.main_v35) :=
  Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))

/-- The kernel's half: under the precondition its run ends with the result at `G` of the arguments, the arguments unchanged. -/
theorem kernel_value (m : (ℓ : Loc Cert.KernelIdeal.nD Cert.KernelIdeal.τ Cert.KernelIdeal.sig) → Buf (Elt Ideal) ℓ) (g : Dev Cert.KernelIdeal.nD → PrngReg) (hpre : Cert.Pre_KernelIdeal m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v12) = GK m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  have hr := fun d => Cert.Proof.PreRanges.ranges (F := Ideal) _ _ _ _ _ _ (hpre d)
  refine (θ_run Cert.KernelIdeal.defs _ _).mono (fun r h c => ?_)
    (run_main_v m g (fun d L q f0 f1 f2 f3 f4 hf1 hf3 O W hO => tile_task_v d L q f0 f1 f2 f3 f4 hf1 hf3 O W hO)
      (fun d => (relaid m d (hr d).1 (hr d).2).1) (fun d => (relaid m d (hr d).1 (hr d).2).2))
  obtain ⟨hargs, g0, g1, ⟨hS, hP⟩, e⟩ := h c
  refine ⟨?_, hargs⟩
  rw [e]
  exact final_value m c g0 g1 (fun c' i t => hS ((c', i), t)) (fun c' i => hP (c', i))

/-- The reference's half. -/
theorem ref_value (m : (ℓ : Loc Cert.ReferenceIdeal.nD Cert.ReferenceIdeal.τ Cert.ReferenceIdeal.sig) → Buf (Elt Ideal) ℓ) (c : Dev Cert.ReferenceIdeal.nD)
    (h0 : ∀ y, (m ((c.tc : Thread Cert.ReferenceIdeal.nD Cert.ReferenceIdeal.τ).loc Cert.ReferenceIdeal.main_arg0) y : BitVec 32).toNat < 100000) (h1 : ∀ y, (m ((c.tc : Thread Cert.ReferenceIdeal.nD Cert.ReferenceIdeal.τ).loc Cert.ReferenceIdeal.main_arg1) y : BitVec 32).toNat < 100000) :
    after (Cert.ReferenceIdeal.HandRun.ops (F := Ideal)) (launchContents m c) (Cert.ReferenceIdeal.main_v35 : DevRef Cert.ReferenceIdeal.τ Cert.ReferenceIdeal.sig) = GR m c :=
  Cert.Proof.RefValue.ref_value m c h0 h1
theorem algebraic : Cert.algebraic_KernelIdeal_ReferenceIdeal := by
  intro m g m' g' hpre hagree
  refine ⟨fun c => GK m c, kernel_value m g hpre, ?_⟩
  refine (θ_run Cert.ReferenceIdeal.defs _ _).mono (fun _ h c => ⟨(h c Cert.ReferenceIdeal.main_v35).trans ?_,
    (h c Cert.ReferenceIdeal.main_arg0).trans (Cert.ReferenceIdeal.HandRun.arg0_eq _), (h c Cert.ReferenceIdeal.main_arg1).trans (Cert.ReferenceIdeal.HandRun.arg1_eq _),
    (h c Cert.ReferenceIdeal.main_arg2).trans (Cert.ReferenceIdeal.HandRun.arg2_eq _), (h c Cert.ReferenceIdeal.main_arg3).trans (Cert.ReferenceIdeal.HandRun.arg3_eq _),
    (h c Cert.ReferenceIdeal.main_arg4).trans (Cert.ReferenceIdeal.HandRun.arg4_eq _), (h c Cert.ReferenceIdeal.main_arg5).trans (Cert.ReferenceIdeal.HandRun.arg5_eq _)⟩)
    (Cert.ReferenceIdeal.HandRun.run_main (F := Ideal) m' g')
  have hr := Cert.Proof.PreRanges.ranges (F := Ideal) _ _ _ _ _ _ (hpre c)
  obtain ⟨e0, e1, e2, e3, e4, e5⟩ := hagree c
  rw [ref_value m' c (by rw [e0]; exact hr.1) (by rw [e1]; exact hr.2)]
  show Cert.Spec.G _ _ _ _ _ _ = Cert.Spec.G _ _ _ _ _ _
  rw [e0, e1, e2, e3, e4, e5]

end Cert.Proof.Alg

end
-- ==== Proof.lean ====
/-
  The certificate's claim, conjunct by conjunct.

  The kernel runs on the vector subcores of the device's two SparseCores. Tile `d = 2·s + c` (one of 32) owns one of the 32
  entries of an embedding row. It copies column `d` of the sequence table into its row scratch and, for every batch row,
  reads the 50 row numbers of the row's sequence, gathers the 50 entries they name, weights entry `j` by
  `min (max (len − j) 0) 1` (1 for `j` before the row's length, else 0), adds them and multiplies by `1 / max len 1`;
  then for each of the 26 sparse fields it copies column `d` of that field's table in and gathers the entry the batch
  row's index names. The host transposes its two results back and joins them with the dense features. The reference
  does the same with two gathers, a mask, a sum and a quotient.

  Frames. Every copy the tile makes is local to it and is waited for before its destination is read or its
  scratch reused (the index blocks are double-buffered: one copy is in flight from block to block); no tile signals
  another. Every indexed load asks that its sixteen row numbers be below the table's 100000 rows: they are words of the
  index arrays, re-laid by the host and copied in, and the precondition bounds those. The five inputs are only read (each
  tile holds a read share); each tile writes its own row blocks of the two outputs, which are pairwise disjoint parts of
  them. So each tile's task runs to its end from what the launch hands it, and `main` around the call leaves its six
  arguments as they were. The reference is a straight line of host operations none of which writes an argument.

  Values. Both programs compute one function `G` of the arguments (Proof/Spec.lean): column `c` of batch row `b` is, for
  `c < 832`, entry `c % 32` of the row of table `c / 32` that `sparse_idx[b, c/32]` names; for `832 ≤ c < 864`, the sum over the
  50 positions `j` before the row's length of entry `c − 832` of the row of the sequence table that `seq_idx[b, j]` names,
  over `max 1 length`; for `c ≥ 864` the dense feature. Kernel: each inner trip stores sixteen such values (the pooling
  trips: the fifty gathered entries weighted by `len − j` clamped between 0 and 1 — the indicator of `j < len` for an integer
  length —, added from the left, times `1 / max len 1` — the quotient; the sparse trips: the gathered entries); the loops
  fill the tile's scratches, whose copies fill the tile's row blocks of the two outputs; the blocks are pairwise disjoint
  and are joined back with their contents; the host's reshapes, transposes and join read them at `(b, c)` as `G`. Reference:
  its two gathers under in-range indices (the fill-mode test all true, the negative-index adjustment the identity), the mask
  `j < len`, the sum along the positions and the quotient, read at `(b, c)`. The two runs from memories agreeing on the
  arguments therefore end equal (Proof/Algebraic.lean).
-/
import proofs.«209320_g71347996721220_cont_9to1c4b_157_42_alg».proof.Defs
import proofs.«209320_g71347996721220_cont_9to1c4b_157_42_alg».proof.Proof.Gen.Kernel
import proofs.«209320_g71347996721220_cont_9to1c4b_157_42_alg».proof.Proof.Gen.Kernel.Skeleton
import proofs.«209320_g71347996721220_cont_9to1c4b_157_42_alg».proof.Proof.Gen.KernelIdeal
import proofs.«209320_g71347996721220_cont_9to1c4b_157_42_alg».proof.Proof.Gen.KernelIdeal.Skeleton
import proofs.«209320_g71347996721220_cont_9to1c4b_157_42_alg».proof.Proof.Gen.ReferenceIdeal
import proofs.«209320_g71347996721220_cont_9to1c4b_157_42_alg».proof.Proof.Gen.Pre_input_domain
import proofs.«209320_g71347996721220_cont_9to1c4b_157_42_alg».proof.Proof.RefRun
import proofs.«209320_g71347996721220_cont_9to1c4b_157_42_alg».proof.Proof.FrameIdeal
import proofs.«209320_g71347996721220_cont_9to1c4b_157_42_alg».proof.Proof.FrameBits
import proofs.«209320_g71347996721220_cont_9to1c4b_157_42_alg».proof.Proof.Spec
import proofs.«209320_g71347996721220_cont_9to1c4b_157_42_alg».proof.Proof.Algebraic
import Idealize.ShloMosaic.Adequacy
import Idealize.ShloMosaic.Init

noncomputable section

namespace Cert.Proof

open Idealize.ShloMosaic Idealize.SL.Sem Cert.Kernel

/-- The idealization rewrote no operation: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_input_domain.Gen.facts,
  Cert.Proof.FrameB.frame, Cert.Proof.FrameI.frame, Cert.Proof.Ref.frame, preserves, Cert.Proof.Alg.algebraic⟩

end Cert.Proof

end
